-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x7x1 : Shape := ⟨3, ![2000000, 7, 1]⟩
abbrev S2000000x6x1 : Shape := ⟨3, ![2000000, 6, 1]⟩
abbrev S_ : Shape := ⟨0, ![]⟩

class Facts : Prop where
  bcast_S_S2000000x7x1 : S_.BroadcastsInDim S2000000x7x1 (![] : Fin 0 → Fin S2000000x7x1.rank)
  reducesTo_S2000000x7x1_S_d0_1_2 : S2000000x7x1.ReducesTo [0, 1, 2] S_
  h_S_ : 0 < S_.numel
  bcast_S_S2000000x6x1 : S_.BroadcastsInDim S2000000x6x1 (![] : Fin 0 → Fin S2000000x6x1.rank)
  reducesTo_S2000000x6x1_S_d0_1_2 : S2000000x6x1.ReducesTo [0, 1, 2] S_

variable [Facts]

def fn {F : FTy → Type} [FloatOps F] (main_arg0 : FVec F S2000000x7x1 .f32) (main_arg1 : FVec F S2000000x6x1 .f32) : IVec S_ 1 :=
  let main_v0 : FVec F S2000000x7x1 .f32 := Host.absf main_arg0
  let main_cst : FVec F S_ .f32 := constant S_ .f32 0x7F800000#32
  let main_v1 : FVec F S2000000x7x1 .f32 := broadcastInDim S2000000x7x1 ![] bcast_S_S2000000x7x1 main_cst
  let main_v2 : IVec S2000000x7x1 1 := cmpf .olt main_v0 main_v1
  let main_c : IVec S_ 1 := constantI S_ 1 1#1
  let main_v3 : IVec S_ 1 := (fun x v => Host.reduce IntOp.andi x v reducesTo_S2000000x7x1_S_d0_1_2 h_S_) main_v2 main_c
  let main_v4 : FVec F S2000000x6x1 .f32 := Host.absf main_arg1
  let main_cst_0 : FVec F S_ .f32 := constant S_ .f32 0x7F800000#32
  let main_v5 : FVec F S2000000x6x1 .f32 := broadcastInDim S2000000x6x1 ![] bcast_S_S2000000x6x1 main_cst_0
  let main_v6 : IVec S2000000x6x1 1 := cmpf .olt main_v4 main_v5
  let main_c_1 : IVec S_ 1 := constantI S_ 1 1#1
  let main_v7 : IVec S_ 1 := (fun x v => Host.reduce IntOp.andi x v reducesTo_S2000000x6x1_S_d0_1_2 h_S_) main_v6 main_c_1
  let main_v8 : IVec S_ 1 := andi main_v3 main_v7
  main_v8
-- ==== Kernel.lean ====
abbrev S2000000x7x1 : Shape := ⟨3, ![2000000, 7, 1]⟩
abbrev S2000000x6x1 : Shape := ⟨3, ![2000000, 6, 1]⟩
abbrev S2000000x7 : Shape := ⟨2, ![2000000, 7]⟩
abbrev S7x2000000 : Shape := ⟨2, ![7, 2000000]⟩
abbrev S2000000x6 : Shape := ⟨2, ![2000000, 6]⟩
abbrev S6x2000000 : Shape := ⟨2, ![6, 2000000]⟩
abbrev S7x65536 : Shape := ⟨2, ![7, 65536]⟩
abbrev S6x65536 : Shape := ⟨2, ![6, 65536]⟩
abbrev S1x65536 : Shape := ⟨2, ![1, 65536]⟩

abbrev nBuf : Space → Nat
  | .hbm => 9
  | .vmem => 6
  | .smem => 0
  | _ => 0

abbrev bufTy : (tb : Table) → Fin (tcTables nBuf tb) → BufTy
  | .hbm, ⟨0, _⟩ => ⟨S2000000x7x1, .f32⟩
  | .hbm, ⟨1, _⟩ => ⟨S2000000x6x1, .f32⟩
  | .hbm, ⟨2, _⟩ => ⟨S2000000x7, .f32⟩
  | .hbm, ⟨3, _⟩ => ⟨S7x2000000, .f32⟩
  | .hbm, ⟨4, _⟩ => ⟨S2000000x6, .f32⟩
  | .hbm, ⟨5, _⟩ => ⟨S6x2000000, .f32⟩
  | .hbm, ⟨6, _⟩ => ⟨S7x2000000, .f32⟩
  | .hbm, ⟨7, _⟩ => ⟨S2000000x7, .f32⟩
  | .hbm, ⟨8, _⟩ => ⟨S2000000x7x1, .f32⟩
  | .local _ .vmem, ⟨0, _⟩ => ⟨S7x65536, .f32⟩
  | .local _ .vmem, ⟨1, _⟩ => ⟨S7x65536, .f32⟩
  | .local _ .vmem, ⟨2, _⟩ => ⟨S6x65536, .f32⟩
  | .local _ .vmem, ⟨3, _⟩ => ⟨S6x65536, .f32⟩
  | .local _ .vmem, ⟨4, _⟩ => ⟨S7x65536, .f32⟩
  | .local _ .vmem, ⟨5, _⟩ => ⟨S7x65536, .f32⟩
  | _, _ => ⟨S2000000x7x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2000000x7x1_S2000000x7 : S2000000x7x1.ShapeCasts S2000000x7
  transposes_S2000000x7_S7x2000000_1_0 : S2000000x7.Transposes [1, 0] S7x2000000
  shapeCasts_S2000000x6x1_S2000000x6 : S2000000x6x1.ShapeCasts S2000000x6
  transposes_S2000000x6_S6x2000000_1_0 : S2000000x6.Transposes [1, 0] S6x2000000
  inb_S7x65536_S7x65536_0_0 : ∀ a, (![0, 0] : Fin 2 → Nat) a + S7x65536.size a ≤ S7x65536.size a
  h_S7x65536 : 0 < S7x65536.numel
  shapeCasts_S7x65536_S7x65536 : S7x65536.ShapeCasts S7x65536
  inb_S6x65536_S6x65536_0_0 : ∀ a, (![0, 0] : Fin 2 → Nat) a + S6x65536.size a ≤ S6x65536.size a
  h_S6x65536 : 0 < S6x65536.numel
  shapeCasts_S6x65536_S6x65536 : S6x65536.ShapeCasts S6x65536
  slices_S7x65536_o0_0_S1x65536 : S7x65536.Slices ![0, 0] S1x65536
  slices_S7x65536_o1_0_S1x65536 : S7x65536.Slices ![1, 0] S1x65536
  slices_S7x65536_o2_0_S1x65536 : S7x65536.Slices ![2, 0] S1x65536
  slices_S7x65536_o3_0_S1x65536 : S7x65536.Slices ![3, 0] S1x65536
  slices_S7x65536_o4_0_S1x65536 : S7x65536.Slices ![4, 0] S1x65536
  slices_S7x65536_o5_0_S1x65536 : S7x65536.Slices ![5, 0] S1x65536
  slices_S7x65536_o6_0_S1x65536 : S7x65536.Slices ![6, 0] S1x65536
  slices_S6x65536_o0_0_S1x65536 : S6x65536.Slices ![0, 0] S1x65536
  slices_S6x65536_o1_0_S1x65536 : S6x65536.Slices ![1, 0] S1x65536
  slices_S6x65536_o2_0_S1x65536 : S6x65536.Slices ![2, 0] S1x65536
  slices_S6x65536_o3_0_S1x65536 : S6x65536.Slices ![3, 0] S1x65536
  slices_S6x65536_o4_0_S1x65536 : S6x65536.Slices ![4, 0] S1x65536
  slices_S6x65536_o5_0_S1x65536 : S6x65536.Slices ![5, 0] S1x65536
  inb_S7x65536_S1x65536_0_0 : ∀ a, (![0, 0] : Fin 2 → Nat) a + S1x65536.size a ≤ S7x65536.size a
  h_S1x65536 : 0 < S1x65536.numel
  inb_S7x65536_S1x65536_1_0 : ∀ a, (![1, 0] : Fin 2 → Nat) a + S1x65536.size a ≤ S7x65536.size a
  inb_S7x65536_S1x65536_2_0 : ∀ a, (![2, 0] : Fin 2 → Nat) a + S1x65536.size a ≤ S7x65536.size a
  inb_S7x65536_S1x65536_3_0 : ∀ a, (![3, 0] : Fin 2 → Nat) a + S1x65536.size a ≤ S7x65536.size a
  inb_S7x65536_S1x65536_4_0 : ∀ a, (![4, 0] : Fin 2 → Nat) a + S1x65536.size a ≤ S7x65536.size a
  inb_S7x65536_S1x65536_5_0 : ∀ a, (![5, 0] : Fin 2 → Nat) a + S1x65536.size a ≤ S7x65536.size a
  inb_S7x65536_S1x65536_6_0 : ∀ a, (![6, 0] : Fin 2 → Nat) a + S1x65536.size a ≤ S7x65536.size a
  transposes_S7x2000000_S2000000x7_1_0 : S7x2000000.Transposes [1, 0] S2000000x7
  bcast_S2000000x7_S2000000x7x1_0_1 : S2000000x7.BroadcastsInDim S2000000x7x1 (![0, 1] : Fin 2 → Fin S2000000x7x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S7x65536.size a < S7x2000000.size a
  hwx0_0 : ∀ i : grid0.Coords, EltTy.bits .f32 = 32 ∨ (Rect.unit (s := S7x2000000) (fun a => cc0_transform_0 i a * S7x65536.size a) (fun a => (Pipeline.Clip.of (cc0_transform_0 i a) (S7x65536.size a) (S7x2000000.size a)).extent (S7x65536.size a)) fun a => Pipeline.Clip.inb (Pipeline.Clip.ok_of (hstart0_0 i a))).WholeWords (EltTy.packing .f32)
  hwxs0_0 : ∀ i : grid0.Coords, EltTy.bits .f32 = 32 ∨ (Rect.unit (s := S7x65536) (fun _ => 0) (fun a => (Pipeline.Clip.of (cc0_transform_0 i a) (S7x65536.size a) (S7x2000000.size a)).extent (S7x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S6x65536.size a < S6x2000000.size a
  hwx0_1 : ∀ i : grid0.Coords, EltTy.bits .f32 = 32 ∨ (Rect.unit (s := S6x2000000) (fun a => cc0_transform_1 i a * S6x65536.size a) (fun a => (Pipeline.Clip.of (cc0_transform_1 i a) (S6x65536.size a) (S6x2000000.size a)).extent (S6x65536.size a)) fun a => Pipeline.Clip.inb (Pipeline.Clip.ok_of (hstart0_1 i a))).WholeWords (EltTy.packing .f32)
  hwxs0_1 : ∀ i : grid0.Coords, EltTy.bits .f32 = 32 ∨ (Rect.unit (s := S6x65536) (fun _ => 0) (fun a => (Pipeline.Clip.of (cc0_transform_1 i a) (S6x65536.size a) (S6x2000000.size a)).extent (S6x65536.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S7x65536.size a < S7x2000000.size a
  hwx0_2 : ∀ i : grid0.Coords, EltTy.bits .f32 = 32 ∨ (Rect.unit (s := S7x2000000) (fun a => cc0_transform_2 i a * S7x65536.size a) (fun a => (Pipeline.Clip.of (cc0_transform_2 i a) (S7x65536.size a) (S7x2000000.size a)).extent (S7x65536.size a)) fun a => Pipeline.Clip.inb (Pipeline.Clip.ok_of (hstart0_2 i a))).WholeWords (EltTy.packing .f32)
  hwxs0_2 : ∀ i : grid0.Coords, EltTy.bits .f32 = 32 ∨ (Rect.unit (s := S7x65536) (fun _ => 0) (fun a => (Pipeline.Clip.of (cc0_transform_2 i a) (S7x65536.size a) (S7x2000000.size a)).extent (S7x65536.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v1) S7x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v3) S6x65536.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v4) S7x65536.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x7x1 : Shape := ⟨3, ![2000000, 7, 1]⟩
abbrev S2000000x6x1 : Shape := ⟨3, ![2000000, 6, 1]⟩
abbrev S1x1x4 : Shape := ⟨3, ![1, 1, 4]⟩
abbrev S2000000x3x1 : Shape := ⟨3, ![2000000, 3, 1]⟩
abbrev S2000000x3 : Shape := ⟨2, ![2000000, 3]⟩
abbrev S2000000x1 : Shape := ⟨2, ![2000000, 1]⟩
abbrev S2000000 : Shape := ⟨1, ![2000000]⟩
abbrev S_ : Shape := ⟨0, ![]⟩
abbrev S2000000x1x3 : Shape := ⟨3, ![2000000, 1, 3]⟩
abbrev S2000000x3x3 : Shape := ⟨3, ![2000000, 3, 3]⟩
abbrev S3x3 : Shape := ⟨2, ![3, 3]⟩
abbrev S2000000x1x1 : Shape := ⟨3, ![2000000, 1, 1]⟩
abbrev S1x3x3 : Shape := ⟨3, ![1, 3, 3]⟩
abbrev S2000000x3x4 : Shape := ⟨3, ![2000000, 3, 4]⟩
abbrev S2000000x1x4 : Shape := ⟨3, ![2000000, 1, 4]⟩
abbrev S2000000x4x4 : Shape := ⟨3, ![2000000, 4, 4]⟩
abbrev S2000000x4x1 : Shape := ⟨3, ![2000000, 4, 1]⟩
abbrev S2000000x4 : Shape := ⟨2, ![2000000, 4]⟩
abbrev S2000000x7 : Shape := ⟨2, ![2000000, 7]⟩

abbrev nBuf : Space → Nat
  | .hbm => 370
  | .vmem => 0
  | .smem => 0
  | _ => 0

abbrev hbmTy0_0 (i : Nat) : BufTy := match i % 128 with
  | 0 => ⟨S2000000x7x1, .f32⟩
  | 1 => ⟨S2000000x6x1, .f32⟩
  | 2 => ⟨S1x1x4, .f32⟩
  | 3 => ⟨S2000000x3x1, .f32⟩
  | 4 => ⟨S2000000x3x1, .f32⟩
  | 5 => ⟨S2000000x3, .f32⟩
  | 6 => ⟨S2000000x1, .f32⟩
  | 7 => ⟨S2000000, .f32⟩
  | 8 => ⟨S2000000x1, .f32⟩
  | 9 => ⟨S2000000, .f32⟩
  | 10 => ⟨S2000000x1, .f32⟩
  | 11 => ⟨S2000000, .f32⟩
  | 12 => ⟨S_, .f32⟩
  | 13 => ⟨S2000000, .f32⟩
  | 14 => ⟨S2000000, .f32⟩
  | 15 => ⟨S2000000x1, .f32⟩
  | 16 => ⟨S2000000x1, .f32⟩
  | 17 => ⟨S2000000x1, .f32⟩
  | 18 => ⟨S2000000x3, .f32⟩
  | 19 => ⟨S2000000, .f32⟩
  | 20 => ⟨S2000000x1, .f32⟩
  | 21 => ⟨S2000000x1, .f32⟩
  | 22 => ⟨S2000000x1, .f32⟩
  | 23 => ⟨S2000000x3, .f32⟩
  | 24 => ⟨S2000000, .f32⟩
  | 25 => ⟨S2000000x1, .f32⟩
  | 26 => ⟨S2000000x1, .f32⟩
  | 27 => ⟨S2000000x1, .f32⟩
  | 28 => ⟨S2000000x3, .f32⟩
  | 29 => ⟨S2000000x1x3, .f32⟩
  | 30 => ⟨S2000000x1x3, .f32⟩
  | 31 => ⟨S2000000x1x3, .f32⟩
  | 32 => ⟨S2000000x3x3, .f32⟩
  | 33 => ⟨S2000000x3x3, .f32⟩
  | 34 => ⟨S2000000, .f32⟩
  | 35 => ⟨S2000000, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .i1⟩
  | 42 => ⟨S_, .f32⟩
  | 43 => ⟨S_, .f32⟩
  | 44 => ⟨S2000000, .f32⟩
  | 45 => ⟨S2000000, .f32⟩
  | 46 => ⟨S2000000, .f32⟩
  | 47 => ⟨S2000000, .f32⟩
  | 48 => ⟨S2000000, .f32⟩
  | 49 => ⟨S2000000, .f32⟩
  | 50 => ⟨S_, .f32⟩
  | 51 => ⟨S_, .f32⟩
  | 52 => ⟨S2000000, .f32⟩
  | 53 => ⟨S2000000, .f32⟩
  | 54 => ⟨S_, .f32⟩
  | 55 => ⟨S2000000, .f32⟩
  | 56 => ⟨S2000000, .f32⟩
  | 57 => ⟨S2000000, .f32⟩
  | 58 => ⟨S_, .f32⟩
  | 59 => ⟨S_, .f32⟩
  | 60 => ⟨S2000000, .f32⟩
  | 61 => ⟨S2000000, .f32⟩
  | 62 => ⟨S2000000, .f32⟩
  | 63 => ⟨S2000000, .f32⟩
  | 64 => ⟨S2000000, .f32⟩
  | 65 => ⟨S_, .f32⟩
  | 66 => ⟨S_, .f32⟩
  | 67 => ⟨S2000000, .f32⟩
  | 68 => ⟨S2000000, .f32⟩
  | 69 => ⟨S3x3, .i32⟩
  | 70 => ⟨S3x3, .i32⟩
  | 71 => ⟨S_, .i32⟩
  | 72 => ⟨S3x3, .i32⟩
  | 73 => ⟨S3x3, .i32⟩
  | 74 => ⟨S3x3, .i1⟩
  | 75 => ⟨S3x3, .f32⟩
  | 76 => ⟨S2000000x1x1, .f32⟩
  | 77 => ⟨S2000000x3x3, .f32⟩
  | 78 => ⟨S2000000x3x3, .f32⟩
  | 79 => ⟨S1x3x3, .f32⟩
  | 80 => ⟨S2000000x3x3, .f32⟩
  | 81 => ⟨S2000000x3x3, .f32⟩
  | 82 => ⟨S2000000x1x1, .f32⟩
  | 83 => ⟨S2000000x3x3, .f32⟩
  | 84 => ⟨S2000000x3x3, .f32⟩
  | 85 => ⟨S2000000x3x3, .f32⟩
  | 86 => ⟨S2000000x1x1, .f32⟩
  | 87 => ⟨S2000000x3x3, .f32⟩
  | 88 => ⟨S2000000x3x3, .f32⟩
  | 89 => ⟨S1x3x3, .f32⟩
  | 90 => ⟨S2000000x3x3, .f32⟩
  | 91 => ⟨S2000000x3x3, .f32⟩
  | 92 => ⟨S2000000x1x1, .f32⟩
  | 93 => ⟨S2000000x3x3, .f32⟩
  | 94 => ⟨S2000000x3x3, .f32⟩
  | 95 => ⟨S2000000x3x3, .f32⟩
  | 96 => ⟨S2000000x3x1, .f32⟩
  | 97 => ⟨S2000000x3x4, .f32⟩
  | 98 => ⟨S2000000x1x4, .f32⟩
  | 99 => ⟨S2000000x4x4, .f32⟩
  | 100 => ⟨S2000000x4x1, .f32⟩
  | 101 => ⟨S2000000x4, .f32⟩
  | 102 => ⟨S2000000x1, .f32⟩
  | 103 => ⟨S2000000, .f32⟩
  | 104 => ⟨S2000000x1, .f32⟩
  | 105 => ⟨S2000000, .f32⟩
  | 106 => ⟨S2000000x1, .f32⟩
  | 107 => ⟨S2000000, .f32⟩
  | 108 => ⟨S2000000x1, .f32⟩
  | 109 => ⟨S2000000, .f32⟩
  | 110 => ⟨S2000000, .f32⟩
  | 111 => ⟨S2000000, .f32⟩
  | 112 => ⟨S2000000, .f32⟩
  | 113 => ⟨S_, .f32⟩
  | 114 => ⟨S2000000, .f32⟩
  | 115 => ⟨S2000000, .f32⟩
  | 116 => ⟨S_, .f32⟩
  | 117 => ⟨S2000000, .f32⟩
  | 118 => ⟨S2000000, .f32⟩
  | 119 => ⟨S2000000, .f32⟩
  | 120 => ⟨S2000000, .f32⟩
  | 121 => ⟨S2000000, .f32⟩
  | 122 => ⟨S_, .f32⟩
  | 123 => ⟨S2000000, .f32⟩
  | 124 => ⟨S2000000, .f32⟩
  | 125 => ⟨S2000000, .f32⟩
  | 126 => ⟨S2000000, .f32⟩
  | 127 => ⟨S2000000, .f32⟩
  | _ => ⟨S2000000x7x1, .f32⟩

abbrev hbmTy0_1 (i : Nat) : BufTy := match i % 128 with
  | 0 => ⟨S_, .f32⟩
  | 1 => ⟨S2000000, .f32⟩
  | 2 => ⟨S2000000, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S2000000, .f32⟩
  | 20 => ⟨S2000000, .f32⟩
  | 21 => ⟨S_, .f32⟩
  | 22 => ⟨S2000000, .f32⟩
  | 23 => ⟨S2000000, .f32⟩
  | 24 => ⟨S2000000, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S2000000, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000x1, .f32⟩
  | 46 => ⟨S2000000x1, .f32⟩
  | 47 => ⟨S2000000x1, .f32⟩
  | 48 => ⟨S2000000x3, .f32⟩
  | 49 => ⟨S2000000x1, .f32⟩
  | 50 => ⟨S2000000x1, .f32⟩
  | 51 => ⟨S2000000x1, .f32⟩
  | 52 => ⟨S2000000x3, .f32⟩
  | 53 => ⟨S2000000x1, .f32⟩
  | 54 => ⟨S2000000x1, .f32⟩
  | 55 => ⟨S2000000x1, .f32⟩
  | 56 => ⟨S2000000x3, .f32⟩
  | 57 => ⟨S2000000x1x3, .f32⟩
  | 58 => ⟨S2000000x1x3, .f32⟩
  | 59 => ⟨S2000000x1x3, .f32⟩
  | 60 => ⟨S2000000x3x3, .f32⟩
  | 61 => ⟨S2000000x3x1, .f32⟩
  | 62 => ⟨S2000000x3x4, .f32⟩
  | 63 => ⟨S2000000x4x4, .f32⟩
  | 64 => ⟨S2000000x4x4, .f32⟩
  | 65 => ⟨S2000000x1x1, .f32⟩
  | 66 => ⟨S2000000, .f32⟩
  | 67 => ⟨S_, .f32⟩
  | 68 => ⟨S2000000, .f32⟩
  | 69 => ⟨S2000000, .i1⟩
  | 70 => ⟨S2000000x1x1, .f32⟩
  | 71 => ⟨S2000000, .f32⟩
  | 72 => ⟨S2000000x1x1, .f32⟩
  | 73 => ⟨S2000000, .f32⟩
  | 74 => ⟨S2000000, .i1⟩
  | 75 => ⟨S2000000x1x1, .f32⟩
  | 76 => ⟨S2000000, .f32⟩
  | 77 => ⟨S2000000x1x1, .f32⟩
  | 78 => ⟨S2000000, .f32⟩
  | 79 => ⟨S2000000, .f32⟩
  | 80 => ⟨S2000000, .i1⟩
  | 81 => ⟨S2000000, .i1⟩
  | 82 => ⟨S2000000, .i1⟩
  | 83 => ⟨S2000000, .i1⟩
  | 84 => ⟨S2000000, .i1⟩
  | 85 => ⟨S2000000, .i1⟩
  | 86 => ⟨S2000000x1x1, .f32⟩
  | 87 => ⟨S2000000, .f32⟩
  | 88 => ⟨S_, .f32⟩
  | 89 => ⟨S2000000, .f32⟩
  | 90 => ⟨S2000000, .f32⟩
  | 91 => ⟨S2000000x1x1, .f32⟩
  | 92 => ⟨S2000000, .f32⟩
  | 93 => ⟨S2000000, .f32⟩
  | 94 => ⟨S2000000x1x1, .f32⟩
  | 95 => ⟨S2000000, .f32⟩
  | 96 => ⟨S2000000, .f32⟩
  | 97 => ⟨S2000000x1x1, .f32⟩
  | 98 => ⟨S2000000, .f32⟩
  | 99 => ⟨S_, .f32⟩
  | 100 => ⟨S2000000, .f32⟩
  | 101 => ⟨S2000000, .f32⟩
  | 102 => ⟨S2000000x1x1, .f32⟩
  | 103 => ⟨S2000000, .f32⟩
  | 104 => ⟨S2000000, .f32⟩
  | 105 => ⟨S2000000x1x1, .f32⟩
  | 106 => ⟨S2000000, .f32⟩
  | 107 => ⟨S2000000, .f32⟩
  | 108 => ⟨S2000000x1x1, .f32⟩
  | 109 => ⟨S2000000, .f32⟩
  | 110 => ⟨S_, .f32⟩
  | 111 => ⟨S2000000, .f32⟩
  | 112 => ⟨S2000000, .f32⟩
  | 113 => ⟨S2000000x1x1, .f32⟩
  | 114 => ⟨S2000000, .f32⟩
  | 115 => ⟨S2000000, .f32⟩
  | 116 => ⟨S2000000x1x1, .f32⟩
  | 117 => ⟨S2000000, .f32⟩
  | 118 => ⟨S2000000, .f32⟩
  | 119 => ⟨S2000000x1x1, .f32⟩
  | 120 => ⟨S2000000, .f32⟩
  | 121 => ⟨S_, .f32⟩
  | 122 => ⟨S2000000, .f32⟩
  | 123 => ⟨S2000000, .f32⟩
  | 124 => ⟨S2000000x1x1, .f32⟩
  | 125 => ⟨S2000000, .f32⟩
  | 126 => ⟨S2000000, .f32⟩
  | 127 => ⟨S2000000x1x1, .f32⟩
  | _ => ⟨S2000000x7x1, .f32⟩

abbrev hbmTy0_2 (i : Nat) : BufTy := match i % 128 with
  | 0 => ⟨S2000000, .f32⟩
  | 1 => ⟨S2000000, .f32⟩
  | 2 => ⟨S2000000x1x1, .f32⟩
  | 3 => ⟨S2000000, .f32⟩
  | 4 => ⟨S2000000x1x1, .f32⟩
  | 5 => ⟨S2000000, .f32⟩
  | 6 => ⟨S2000000, .f32⟩
  | 7 => ⟨S2000000x1x1, .f32⟩
  | 8 => ⟨S2000000, .f32⟩
  | 9 => ⟨S2000000x1x1, .f32⟩
  | 10 => ⟨S2000000, .f32⟩
  | 11 => ⟨S2000000, .f32⟩
  | 12 => ⟨S2000000x1x1, .f32⟩
  | 13 => ⟨S2000000, .f32⟩
  | 14 => ⟨S2000000x1x1, .f32⟩
  | 15 => ⟨S2000000, .f32⟩
  | 16 => ⟨S2000000, .f32⟩
  | 17 => ⟨S2000000x1, .f32⟩
  | 18 => ⟨S2000000x1, .f32⟩
  | 19 => ⟨S2000000x1, .f32⟩
  | 20 => ⟨S2000000x1, .f32⟩
  | 21 => ⟨S2000000x4, .f32⟩
  | 22 => ⟨S2000000x1x1, .f32⟩
  | 23 => ⟨S2000000, .f32⟩
  | 24 => ⟨S2000000x1x1, .f32⟩
  | 25 => ⟨S2000000, .f32⟩
  | 26 => ⟨S2000000, .f32⟩
  | 27 => ⟨S2000000x1x1, .f32⟩
  | 28 => ⟨S2000000, .f32⟩
  | 29 => ⟨S2000000x1x1, .f32⟩
  | 30 => ⟨S2000000, .f32⟩
  | 31 => ⟨S2000000, .f32⟩
  | 32 => ⟨S2000000x1x1, .f32⟩
  | 33 => ⟨S2000000, .f32⟩
  | 34 => ⟨S2000000x1x1, .f32⟩
  | 35 => ⟨S2000000, .f32⟩
  | 36 => ⟨S2000000, .f32⟩
  | 37 => ⟨S2000000x1, .f32⟩
  | 38 => ⟨S2000000x1, .f32⟩
  | 39 => ⟨S2000000x1, .f32⟩
  | 40 => ⟨S2000000x1, .f32⟩
  | 41 => ⟨S2000000x4, .f32⟩
  | 42 => ⟨S2000000x1x1, .f32⟩
  | 43 => ⟨S2000000, .f32⟩
  | 44 => ⟨S2000000x1x1, .f32⟩
  | 45 => ⟨S2000000, .f32⟩
  | 46 => ⟨S2000000, .f32⟩
  | 47 => ⟨S2000000x1x1, .f32⟩
  | 48 => ⟨S2000000, .f32⟩
  | 49 => ⟨S2000000x1x1, .f32⟩
  | 50 => ⟨S2000000, .f32⟩
  | 51 => ⟨S2000000, .f32⟩
  | 52 => ⟨S2000000x1x1, .f32⟩
  | 53 => ⟨S2000000, .f32⟩
  | 54 => ⟨S2000000x1x1, .f32⟩
  | 55 => ⟨S2000000, .f32⟩
  | 56 => ⟨S2000000, .f32⟩
  | 57 => ⟨S2000000x1, .f32⟩
  | 58 => ⟨S2000000x1, .f32⟩
  | 59 => ⟨S2000000x1, .f32⟩
  | 60 => ⟨S2000000x1, .f32⟩
  | 61 => ⟨S2000000x4, .f32⟩
  | 62 => ⟨S2000000x1x1, .f32⟩
  | 63 => ⟨S2000000, .f32⟩
  | 64 => ⟨S2000000x1x1, .f32⟩
  | 65 => ⟨S2000000, .f32⟩
  | 66 => ⟨S2000000, .f32⟩
  | 67 => ⟨S2000000x1x1, .f32⟩
  | 68 => ⟨S2000000, .f32⟩
  | 69 => ⟨S2000000x1x1, .f32⟩
  | 70 => ⟨S2000000, .f32⟩
  | 71 => ⟨S2000000, .f32⟩
  | 72 => ⟨S2000000x1x1, .f32⟩
  | 73 => ⟨S2000000, .f32⟩
  | 74 => ⟨S2000000x1x1, .f32⟩
  | 75 => ⟨S2000000, .f32⟩
  | 76 => ⟨S2000000, .f32⟩
  | 77 => ⟨S2000000x1, .f32⟩
  | 78 => ⟨S2000000x1, .f32⟩
  | 79 => ⟨S2000000x1, .f32⟩
  | 80 => ⟨S2000000x1, .f32⟩
  | 81 => ⟨S2000000x4, .f32⟩
  | 82 => ⟨S2000000, .f32⟩
  | 83 => ⟨S2000000, .f32⟩
  | 84 => ⟨S2000000, .f32⟩
  | 85 => ⟨S2000000x1, .i1⟩
  | 86 => ⟨S2000000x1, .i1⟩
  | 87 => ⟨S2000000x1, .i1⟩
  | 88 => ⟨S2000000x4, .i1⟩
  | 89 => ⟨S2000000x4, .f32⟩
  | 90 => ⟨S2000000x4, .i1⟩
  | 91 => ⟨S2000000x4, .f32⟩
  | 92 => ⟨S2000000x4, .i1⟩
  | 93 => ⟨S2000000x4, .f32⟩
  | 94 => ⟨S2000000, .f32⟩
  | 95 => ⟨S_, .f32⟩
  | 96 => ⟨S2000000, .f32⟩
  | 97 => ⟨S2000000, .f32⟩
  | 98 => ⟨S2000000x1, .f32⟩
  | 99 => ⟨S2000000x4, .f32⟩
  | 100 => ⟨S2000000x4, .f32⟩
  | 101 => ⟨S2000000x1, .f32⟩
  | 102 => ⟨S2000000, .f32⟩
  | 103 => ⟨S_, .f32⟩
  | 104 => ⟨S2000000, .f32⟩
  | 105 => ⟨S2000000, .i1⟩
  | 106 => ⟨S2000000x1, .i1⟩
  | 107 => ⟨S2000000x4, .f32⟩
  | 108 => ⟨S2000000x4, .i1⟩
  | 109 => ⟨S2000000x4, .f32⟩
  | 110 => ⟨S2000000x3x1, .f32⟩
  | 111 => ⟨S2000000x3, .f32⟩
  | 112 => ⟨S2000000x7, .f32⟩
  | 113 => ⟨S2000000x7x1, .f32⟩
  | _ => ⟨S2000000x7x1, .f32⟩

abbrev hbmTy (i : Nat) : BufTy := match i / 128 with
  | 0 => hbmTy0_0 i
  | 1 => hbmTy0_1 i
  | 2 => hbmTy0_2 i
  | _ => ⟨S2000000x7x1, .f32⟩

abbrev bufTy : (tb : Table) → Fin (tcTables nBuf tb) → BufTy
  | .hbm, ⟨i, _⟩ => hbmTy i
  | _, _ => ⟨S2000000x7x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_call3_v0 : Ref sig .tc := ⟨.hbm, 66, rfl⟩
abbrev main_call3_v1 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_7 : Ref sig .tc := ⟨.hbm, 113, rfl⟩
abbrev main_v94 : Ref sig .tc := ⟨.hbm, 114, rfl⟩
abbrev main_v95 : Ref sig .tc := ⟨.hbm, 115, rfl⟩
abbrev main_cst_8 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_9 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_10 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_11 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_12 : Ref sig .tc := ⟨.hbm, 140, rfl⟩
abbrev main_v116 : Ref sig .tc := ⟨.hbm, 141, rfl⟩
abbrev main_v117 : Ref sig .tc := ⟨.hbm, 142, rfl⟩
abbrev main_cst_13 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_14 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_15 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_16 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_17 : Ref sig .tc := ⟨.hbm, 167, rfl⟩
abbrev main_v138 : Ref sig .tc := ⟨.hbm, 168, rfl⟩
abbrev main_v139 : Ref sig .tc := ⟨.hbm, 169, rfl⟩
abbrev main_cst_18 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_cst_19 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_cst_20 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_cst_21 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_cst_22 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_cst_23 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_call7_v0 : Ref sig .tc := ⟨.hbm, 344, rfl⟩
abbrev main_v308 : Ref sig .tc := ⟨.hbm, 345, rfl⟩
abbrev main_call8_v0 : Ref sig .tc := ⟨.hbm, 346, rfl⟩
abbrev main_v309 : Ref sig .tc := ⟨.hbm, 347, rfl⟩
abbrev main_call9_v0 : Ref sig .tc := ⟨.hbm, 348, rfl⟩
abbrev main_v310 : Ref sig .tc := ⟨.hbm, 349, rfl⟩
abbrev main_v311 : Ref sig .tc := ⟨.hbm, 350, rfl⟩
abbrev main_cst_24 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_cst_25 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_call10_v0 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩

abbrev nD : Nat := 1
abbrev τ : Topo := Topo.v7x

variable {F : FTy → Type} [FloatOps F]

class Facts₀ : Prop where
  slices_S2000000x6x1_S2000000x3x1_0_0_0 : S2000000x6x1.Slices ![0, 0, 0] S2000000x3x1
  slices_S2000000x6x1_S2000000x3x1_0_3_0 : S2000000x6x1.Slices ![0, 3, 0] S2000000x3x1
  shapeCasts_S2000000x3x1_S2000000x3 : S2000000x3x1.ShapeCasts S2000000x3
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S2000000x3_S2000000x1x3_0_2 : S2000000x3.BroadcastsInDim S2000000x1x3 (![0, 2] : Fin 2 → Fin S2000000x1x3.rank)
  concatenates_S2000000x1x3_S2000000x1x3_S2000000x1x3_S2000000x3x3_d1 : Shape.Concatenates [S2000000x1x3, S2000000x1x3, S2000000x1x3] S2000000x3x3 1
  bcast_S_S3x3 : S_.BroadcastsInDim S3x3 (![] : Fin 0 → Fin S3x3.rank)
  bcast_S2000000_S2000000x1x1_0 : S2000000.BroadcastsInDim S2000000x1x1 (![0] : Fin 1 → Fin S2000000x1x1.rank)
  bcast_S2000000x1x1_S2000000x3x3_0_1_2 : S2000000x1x1.BroadcastsInDim S2000000x3x3 (![0, 1, 2] : Fin 3 → Fin S2000000x3x3.rank)
  bcast_S3x3_S1x3x3_1_2 : S3x3.BroadcastsInDim S1x3x3 (![1, 2] : Fin 2 → Fin S1x3x3.rank)
  bcast_S1x3x3_S2000000x3x3_0_1_2 : S1x3x3.BroadcastsInDim S2000000x3x3 (![0, 1, 2] : Fin 3 → Fin S2000000x3x3.rank)
  concatenates_S2000000x3x3_S2000000x3x1_S2000000x3x4_d2 : Shape.Concatenates [S2000000x3x3, S2000000x3x1] S2000000x3x4 2
  bcast_S1x1x4_S2000000x1x4_0_1_2 : S1x1x4.BroadcastsInDim S2000000x1x4 (![0, 1, 2] : Fin 3 → Fin S2000000x1x4.rank)
  concatenates_S2000000x3x4_S2000000x1x4_S2000000x4x4_d1 : Shape.Concatenates [S2000000x3x4, S2000000x1x4] S2000000x4x4 1
  slices_S2000000x7x1_S2000000x4x1_0_3_0 : S2000000x7x1.Slices ![0, 3, 0] S2000000x4x1
  shapeCasts_S2000000x4x1_S2000000x4 : S2000000x4x1.ShapeCasts S2000000x4
  slices_S2000000x4_S2000000x1_0_0 : S2000000x4.Slices ![0, 0] S2000000x1
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  slices_S2000000x7x1_S2000000x3x1_0_0_0 : S2000000x7x1.Slices ![0, 0, 0] S2000000x3x1
  slices_S2000000x4x4_S2000000x1x1_0_2_2 : S2000000x4x4.Slices ![0, 2, 2] S2000000x1x1
  shapeCasts_S2000000x1x1_S2000000 : S2000000x1x1.ShapeCasts S2000000
  slices_S2000000x4x4_S2000000x1x1_0_0_0 : S2000000x4x4.Slices ![0, 0, 0] S2000000x1x1
  slices_S2000000x4x4_S2000000x1x1_0_1_1 : S2000000x4x4.Slices ![0, 1, 1] S2000000x1x1
  slices_S2000000x4x4_S2000000x1x1_0_2_1 : S2000000x4x4.Slices ![0, 2, 1] S2000000x1x1
  slices_S2000000x4x4_S2000000x1x1_0_1_2 : S2000000x4x4.Slices ![0, 1, 2] S2000000x1x1
  slices_S2000000x4x4_S2000000x1x1_0_0_1 : S2000000x4x4.Slices ![0, 0, 1] S2000000x1x1
  slices_S2000000x4x4_S2000000x1x1_0_1_0 : S2000000x4x4.Slices ![0, 1, 0] S2000000x1x1
  slices_S2000000x4x4_S2000000x1x1_0_2_0 : S2000000x4x4.Slices ![0, 2, 0] S2000000x1x1
  slices_S2000000x4x4_S2000000x1x1_0_0_2 : S2000000x4x4.Slices ![0, 0, 2] S2000000x1x1
  concatenates_S2000000x1_S2000000x1_S2000000x1_S2000000x1_S2000000x4_d1 : Shape.Concatenates [S2000000x1, S2000000x1, S2000000x1, S2000000x1] S2000000x4 1
  bcast_S2000000x1_S2000000x4_0_1 : S2000000x1.BroadcastsInDim S2000000x4 (![0, 1] : Fin 2 → Fin S2000000x4.rank)
  slices_S2000000x4x4_S2000000x3x1_0_0_3 : S2000000x4x4.Slices ![0, 0, 3] S2000000x3x1
  concatenates_S2000000x3_S2000000x4_S2000000x7_d1 : Shape.Concatenates [S2000000x3, S2000000x4] S2000000x7 1
  bcast_S2000000x7_S2000000x7x1_0_1 : S2000000x7.BroadcastsInDim S2000000x7x1 (![0, 1] : Fin 2 → Fin S2000000x7x1.rank)
  dot_S2000000x3x3_S2000000x3x3_S2000000x3x3_2_1_1_2_0_0_wf : DotDims.WF S2000000x3x3 S2000000x3x3 S2000000x3x3 [2] [1] [1] [2] [0] [0]
  dot_S2000000x3x3_S2000000x3x1_S2000000x3x1_2_1_1_2_0_0_wf : DotDims.WF S2000000x3x3 S2000000x3x1 S2000000x3x1 [2] [1] [1] [2] [0] [0]
  dot_S2000000x4x4_S2000000x4x4_S2000000x4x4_2_1_1_2_0_0_wf : DotDims.WF S2000000x4x4 S2000000x4x4 S2000000x4x4 [2] [1] [1] [2] [0] [0]

variable [Facts₀]

def dot_S2000000x3x3_S2000000x3x3_S2000000x3x3_2_1_1_2_0_0 : DotDims S2000000x3x3 S2000000x3x3 S2000000x3x3 where
  lhsContracting := [2]
  rhsContracting := [1]
  lhsNonContracting := [1]
  rhsNonContracting := [2]
  lhsBatch := [0]
  rhsBatch := [0]
  wf := dot_S2000000x3x3_S2000000x3x3_S2000000x3x3_2_1_1_2_0_0_wf
def dot_S2000000x3x3_S2000000x3x1_S2000000x3x1_2_1_1_2_0_0 : DotDims S2000000x3x3 S2000000x3x1 S2000000x3x1 where
  lhsContracting := [2]
  rhsContracting := [1]
  lhsNonContracting := [1]
  rhsNonContracting := [2]
  lhsBatch := [0]
  rhsBatch := [0]
  wf := dot_S2000000x3x3_S2000000x3x1_S2000000x3x1_2_1_1_2_0_0_wf
def dot_S2000000x4x4_S2000000x4x4_S2000000x4x4_2_1_1_2_0_0 : DotDims S2000000x4x4 S2000000x4x4 S2000000x4x4 where
  lhsContracting := [2]
  rhsContracting := [1]
  lhsNonContracting := [1]
  rhsNonContracting := [2]
  lhsBatch := [0]
  rhsBatch := [0]
  wf := dot_S2000000x4x4_S2000000x4x4_S2000000x4x4_2_1_1_2_0_0_wf

class Facts : Prop extends Facts₀ where

variable [Facts]
-- ==== Proof.KerRows.lean ====
import proofs.«161387_j47622597378731_2_alg».proof.Proof.Gen.KernelIdeal.Skeleton
import Idealize.ShloMosaic.Lib.ValueIdx

/-! # The seven rows one grid point leaves in the result's block

The kernel body reads a 7×65536 block X0 (translation and quaternion rows) and a 6×65536 block X1
(twist rows), computes lane by lane, and stores seven 1×65536 rows. Each value that crosses from one
stretch of the body to the next is named here vN (the body's own numbering) as the payload that
computes it applied to the earlier values; rows collects the seven stored values and outBlk reads
them as one 7×65536 block: entry (r, l) is lane l of row r. -/

noncomputable section

namespace Cert.KernelIdeal.Hand

open Idealize.ShloMosaic Idealize.SL.Sem Cert.KernelIdeal Cert.KernelIdeal.Gen

variable {F : FTy → Type} [FloatOps F]

/-- The constant 1/6 (as the nearest single-precision word) the body passes between stretches. -/
def cst_21 : F .f32 := Scalar.ofBits .f32 0x3E2AAAAB#32
/-- The constant 1. -/
def cst_30 : F .f32 := Scalar.ofBits .f32 0x3F800000#32
/-- The constant 0. -/
def cst_37 : F .f32 := Scalar.ofBits .f32 0x00000000#32

def v4 (X0 : Vec F S7x65536 .f32) (X1 : Vec F S6x65536 .f32) : FVec F S1x65536 .f32 := k0_pay3 X0
def v5 (X0 : Vec F S7x65536 .f32) (X1 : Vec F S6x65536 .f32) : FVec F S1x65536 .f32 := k0_pay4 X0
def v6 (X0 : Vec F S7x65536 .f32) (X1 : Vec F S6x65536 .f32) : FVec F S1x65536 .f32 := k0_pay5 X0
def v7 (X0 : Vec F S7x65536 .f32) (X1 : Vec F S6x65536 .f32) : FVec F S1x65536 .f32 := k0_pay6 X0
def v8 (X0 : Vec F S7x65536 .f32) (X1 : Vec F S6x65536 .f32) : FVec F S1x65536 .f32 := k0_pay7 X0
def v9 (X0 : Vec F S7x65536 .f32) (X1 : Vec F S6x65536 .f32) : FVec F S1x65536 .f32 := k0_pay8 X0
def v10 (X0 : Vec F S7x65536 .f32) (X1 : Vec F S6x65536 .f32) : FVec F S1x65536 .f32 := k0_pay9 X0
def v11 (X0 : Vec F S7x65536 .f32) (X1 : Vec F S6x65536 .f32) : FVec F S1x65536 .f32 := k0_pay10 X1
def v12 (X0 : Vec F S7x65536 .f32) (X1 : Vec F S6x65536 .f32) : FVec F S1x65536 .f32 := k0_pay11 X1
def v13 (X0 : Vec F S7x65536 .f32) (X1 : Vec F S6x65536 .f32) : FVec F S1x65536 .f32 := k0_pay12 X1
def v14 (X0 : Vec F S7x65536 .f32) (X1 : Vec F S6x65536 .f32) : FVec F S1x65536 .f32 := k0_pay13 X1
def v15 (X0 : Vec F S7x65536 .f32) (X1 : Vec F S6x65536 .f32) : FVec F S1x65536 .f32 := k0_pay14 X1
def v16 (X0 : Vec F S7x65536 .f32) (X1 : Vec F S6x65536 .f32) : FVec F S1x65536 .f32 := k0_pay15 X1
def v23 (X0 : Vec F S7x65536 .f32) (X1 : Vec F S6x65536 .f32) : FVec F S1x65536 .f32 := k0_pay16 X0
def v28 (X0 : Vec F S7x65536 .f32) (X1 : Vec F S6x65536 .f32) : FVec F S1x65536 .f32 := k0_pay17 X0
def v33 (X0 : Vec F S7x65536 .f32) (X1 : Vec F S6x65536 .f32) : FVec F S1x65536 .f32 := k0_pay18 X0
def v38 (X0 : Vec F S7x65536 .f32) (X1 : Vec F S6x65536 .f32) : FVec F S1x65536 .f32 := k0_pay19 X0
def v45 (X0 : Vec F S7x65536 .f32) (X1 : Vec F S6x65536 .f32) : FVec F S1x65536 .f32 := k0_pay20 X0
def v46 (X0 : Vec F S7x65536 .f32) (X1 : Vec F S6x65536 .f32) : FVec F S1x65536 .f32 := k0_pay21 X0
def v47 (X0 : Vec F S7x65536 .f32) (X1 : Vec F S6x65536 .f32) : FVec F S1x65536 .f32 := k0_pay22 X0
def v50 (X0 : Vec F S7x65536 .f32) (X1 : Vec F S6x65536 .f32) : FVec F S1x65536 .f32 := k0_pay23 (v46 X0 X1) (v47 X0 X1)
def v55 (X0 : Vec F S7x65536 .f32) (X1 : Vec F S6x65536 .f32) : FVec F S1x65536 .f32 := k0_pay24 (v7 X0 X1) (v8 X0 X1) (v9 X0 X1) (v10 X0 X1)
def v60 (X0 : Vec F S7x65536 .f32) (X1 : Vec F S6x65536 .f32) : FVec F S1x65536 .f32 := k0_pay25 (v7 X0 X1) (v8 X0 X1) (v9 X0 X1) (v10 X0 X1)
def v67 (X0 : Vec F S7x65536 .f32) (X1 : Vec F S6x65536 .f32) : FVec F S1x65536 .f32 := k0_pay26 (v8 X0 X1) (v9 X0 X1)
def v74 (X0 : Vec F S7x65536 .f32) (X1 : Vec F S6x65536 .f32) : IVec S1x65536 1 := k0_pay28 (v14 X0 X1) (v15 X0 X1) (v16 X0 X1)
def v86 (X0 : Vec F S7x65536 .f32) (X1 : Vec F S6x65536 .f32) : FVec F S1x65536 .f32 := k0_pay34 (v14 X0 X1) (v15 X0 X1) (v16 X0 X1)
def v91 (X0 : Vec F S7x65536 .f32) (X1 : Vec F S6x65536 .f32) : FVec F S1x65536 .f32 := k0_pay35 (v14 X0 X1) (v15 X0 X1) (v16 X0 X1)
def v94 (X0 : Vec F S7x65536 .f32) (X1 : Vec F S6x65536 .f32) : FVec F S1x65536 .f32 := k0_pay36 (v14 X0 X1) (v15 X0 X1) (v16 X0 X1)
def v96 (X0 : Vec F S7x65536 .f32) (X1 : Vec F S6x65536 .f32) : FVec F S1x65536 .f32 := k0_pay37 (v74 X0 X1) (v94 X0 X1) (cst_21 (F := F))
def v97 (X0 : Vec F S7x65536 .f32) (X1 : Vec F S6x65536 .f32) : FVec F S1x65536 .f32 := k0_pay38 (v14 X0 X1) (v15 X0 X1)
def v98 (X0 : Vec F S7x65536 .f32) (X1 : Vec F S6x65536 .f32) : FVec F S1x65536 .f32 := k0_pay39 (v14 X0 X1) (v16 X0 X1)
def v99 (X0 : Vec F S7x65536 .f32) (X1 : Vec F S6x65536 .f32) : FVec F S1x65536 .f32 := k0_pay40 (v15 X0 X1) (v16 X0 X1)
def v104 (X0 : Vec F S7x65536 .f32) (X1 : Vec F S6x65536 .f32) : FVec F S1x65536 .f32 := k0_pay41 (v15 X0 X1) (v16 X0 X1)
def v109 (X0 : Vec F S7x65536 .f32) (X1 : Vec F S6x65536 .f32) : FVec F S1x65536 .f32 := k0_pay42 (v14 X0 X1) (v16 X0 X1)
def v114 (X0 : Vec F S7x65536 .f32) (X1 : Vec F S6x65536 .f32) : FVec F S1x65536 .f32 := k0_pay43 (v14 X0 X1) (v15 X0 X1)
def v117 (X0 : Vec F S7x65536 .f32) (X1 : Vec F S6x65536 .f32) : FVec F S1x65536 .f32 := k0_pay44 (v15 X0 X1) (v16 X0 X1) (v91 X0 X1)
def v122 (X0 : Vec F S7x65536 .f32) (X1 : Vec F S6x65536 .f32) : FVec F S1x65536 .f32 := k0_pay45 (v14 X0 X1) (v15 X0 X1) (v16 X0 X1) (v86 X0 X1) (v91 X0 X1)
def v125 (X0 : Vec F S7x65536 .f32) (X1 : Vec F S6x65536 .f32) : FVec F S1x65536 .f32 := k0_pay46 (v14 X0 X1) (v15 X0 X1) (v16 X0 X1) (v86 X0 X1) (v91 X0 X1)
def v128 (X0 : Vec F S7x65536 .f32) (X1 : Vec F S6x65536 .f32) : FVec F S1x65536 .f32 := k0_pay47 (v14 X0 X1) (v15 X0 X1) (v16 X0 X1) (v86 X0 X1) (v91 X0 X1)
def v131 (X0 : Vec F S7x65536 .f32) (X1 : Vec F S6x65536 .f32) : FVec F S1x65536 .f32 := k0_pay48 (v14 X0 X1) (v16 X0 X1) (v91 X0 X1)
def v136 (X0 : Vec F S7x65536 .f32) (X1 : Vec F S6x65536 .f32) : FVec F S1x65536 .f32 := k0_pay49 (v14 X0 X1) (v15 X0 X1) (v16 X0 X1) (v86 X0 X1) (v91 X0 X1)
def v141 (X0 : Vec F S7x65536 .f32) (X1 : Vec F S6x65536 .f32) : FVec F S1x65536 .f32 := k0_pay50 (v14 X0 X1) (v15 X0 X1) (v16 X0 X1) (v86 X0 X1) (v91 X0 X1)
def v144 (X0 : Vec F S7x65536 .f32) (X1 : Vec F S6x65536 .f32) : FVec F S1x65536 .f32 := k0_pay51 (v14 X0 X1) (v15 X0 X1) (v16 X0 X1) (v86 X0 X1) (v91 X0 X1)
def v145 (X0 : Vec F S7x65536 .f32) (X1 : Vec F S6x65536 .f32) : FVec F S1x65536 .f32 := k0_pay52 (v14 X0 X1) (v15 X0 X1) (v91 X0 X1)
def v147 (X0 : Vec F S7x65536 .f32) (X1 : Vec F S6x65536 .f32) : FVec F S1x65536 .f32 := k0_pay53 (v145 X0 X1) (cst_30 (F := F))
def v185 (X0 : Vec F S7x65536 .f32) (X1 : Vec F S6x65536 .f32) : FVec F S1x65536 .f32 := k0_pay54 (v11 X0 X1) (v12 X0 X1) (v13 X0 X1) (v15 X0 X1) (v16 X0 X1) (v91 X0 X1) (v96 X0 X1) (v97 X0 X1) (v98 X0 X1) (v104 X0 X1)
def v190 (X0 : Vec F S7x65536 .f32) (X1 : Vec F S6x65536 .f32) : FVec F S1x65536 .f32 := k0_pay55 (v11 X0 X1) (v12 X0 X1) (v13 X0 X1) (v14 X0 X1) (v16 X0 X1) (v91 X0 X1) (v96 X0 X1) (v97 X0 X1) (v99 X0 X1) (v109 X0 X1)
def v195 (X0 : Vec F S7x65536 .f32) (X1 : Vec F S6x65536 .f32) : FVec F S1x65536 .f32 := k0_pay56 (v11 X0 X1) (v12 X0 X1) (v13 X0 X1) (v14 X0 X1) (v15 X0 X1) (v91 X0 X1) (v96 X0 X1) (v98 X0 X1) (v99 X0 X1) (v114 X0 X1)
def v198 (X0 : Vec F S7x65536 .f32) (X1 : Vec F S6x65536 .f32) : FVec F S1x65536 .f32 := k0_pay57 (v4 X0 X1) (v5 X0 X1) (v117 X0 X1) (v122 X0 X1)
def v199 (X0 : Vec F S7x65536 .f32) (X1 : Vec F S6x65536 .f32) : FVec F S1x65536 .f32 := k0_pay58 (v6 X0 X1) (v125 X0 X1)
def v211 (X0 : Vec F S7x65536 .f32) (X1 : Vec F S6x65536 .f32) : FVec F S1x65536 .f32 := k0_pay59 (v185 X0 X1) (v198 X0 X1) (v199 X0 X1)
def v212 (X0 : Vec F S7x65536 .f32) (X1 : Vec F S6x65536 .f32) : FVec F S1x65536 .f32 := k0_pay60 (v4 X0 X1) (v5 X0 X1) (v6 X0 X1) (v128 X0 X1) (v131 X0 X1) (v136 X0 X1) (v190 X0 X1)
def v213 (X0 : Vec F S7x65536 .f32) (X1 : Vec F S6x65536 .f32) : FVec F S1x65536 .f32 := k0_pay61 (v4 X0 X1) (v5 X0 X1) (v6 X0 X1) (v141 X0 X1) (v144 X0 X1) (v147 X0 X1) (v195 X0 X1)
def v218 (X0 : Vec F S7x65536 .f32) (X1 : Vec F S6x65536 .f32) : FVec F S1x65536 .f32 := k0_pay62 (v23 X0 X1) (v38 X0 X1) (v55 X0 X1) (v117 X0 X1) (v122 X0 X1) (v125 X0 X1)
def v223 (X0 : Vec F S7x65536 .f32) (X1 : Vec F S6x65536 .f32) : FVec F S1x65536 .f32 := k0_pay63 (v28 X0 X1) (v45 X0 X1) (v60 X0 X1) (v117 X0 X1) (v122 X0 X1) (v125 X0 X1)
def v228 (X0 : Vec F S7x65536 .f32) (X1 : Vec F S6x65536 .f32) : FVec F S1x65536 .f32 := k0_pay64 (v33 X0 X1) (v50 X0 X1) (v67 X0 X1) (v117 X0 X1) (v122 X0 X1) (v125 X0 X1)
def v233 (X0 : Vec F S7x65536 .f32) (X1 : Vec F S6x65536 .f32) : FVec F S1x65536 .f32 := k0_pay65 (v23 X0 X1) (v38 X0 X1) (v55 X0 X1) (v128 X0 X1) (v131 X0 X1) (v136 X0 X1)
def v238 (X0 : Vec F S7x65536 .f32) (X1 : Vec F S6x65536 .f32) : FVec F S1x65536 .f32 := k0_pay66 (v28 X0 X1) (v45 X0 X1) (v60 X0 X1) (v128 X0 X1) (v131 X0 X1) (v136 X0 X1)
def v243 (X0 : Vec F S7x65536 .f32) (X1 : Vec F S6x65536 .f32) : FVec F S1x65536 .f32 := k0_pay67 (v33 X0 X1) (v50 X0 X1) (v67 X0 X1) (v128 X0 X1) (v131 X0 X1) (v136 X0 X1)
def v248 (X0 : Vec F S7x65536 .f32) (X1 : Vec F S6x65536 .f32) : FVec F S1x65536 .f32 := k0_pay68 (v23 X0 X1) (v38 X0 X1) (v55 X0 X1) (v141 X0 X1) (v144 X0 X1) (v147 X0 X1)
def v253 (X0 : Vec F S7x65536 .f32) (X1 : Vec F S6x65536 .f32) : FVec F S1x65536 .f32 := k0_pay69 (v28 X0 X1) (v45 X0 X1) (v60 X0 X1) (v141 X0 X1) (v144 X0 X1) (v147 X0 X1)
def v258 (X0 : Vec F S7x65536 .f32) (X1 : Vec F S6x65536 .f32) : FVec F S1x65536 .f32 := k0_pay70 (v33 X0 X1) (v50 X0 X1) (v67 X0 X1) (v141 X0 X1) (v144 X0 X1) (v147 X0 X1)
def v265 (X0 : Vec F S7x65536 .f32) (X1 : Vec F S6x65536 .f32) : IVec S1x65536 1 := k0_pay73 (v218 X0 X1) (v238 X0 X1) (v258 X0 X1) (cst_37 (F := F))
def v288 (X0 : Vec F S7x65536 .f32) (X1 : Vec F S6x65536 .f32) : FVec F S1x65536 .f32 := k0_pay80 (v228 X0 X1) (v248 X0 X1)
def v300 (X0 : Vec F S7x65536 .f32) (X1 : Vec F S6x65536 .f32) : FVec F S1x65536 .f32 := k0_pay81 (v218 X0 X1) (v238 X0 X1) (v258 X0 X1) (cst_37 (F := F))
def v303 (X0 : Vec F S7x65536 .f32) (X1 : Vec F S6x65536 .f32) : FVec F S1x65536 .f32 := k0_pay82 (v218 X0 X1) (v223 X0 X1) (v228 X0 X1) (v233 X0 X1) (v238 X0 X1) (v243 X0 X1) (v248 X0 X1) (v253 X0 X1) (v258 X0 X1) (cst_37 (F := F))
def v306 (X0 : Vec F S7x65536 .f32) (X1 : Vec F S6x65536 .f32) : FVec F S1x65536 .f32 := k0_pay83 (v218 X0 X1) (v223 X0 X1) (v228 X0 X1) (v233 X0 X1) (v238 X0 X1) (v243 X0 X1) (v248 X0 X1) (v253 X0 X1) (v258 X0 X1) (cst_37 (F := F))
def v309 (X0 : Vec F S7x65536 .f32) (X1 : Vec F S6x65536 .f32) : FVec F S1x65536 .f32 := k0_pay84 (v218 X0 X1) (v223 X0 X1) (v228 X0 X1) (v233 X0 X1) (v238 X0 X1) (v243 X0 X1) (v248 X0 X1) (v253 X0 X1) (v258 X0 X1) (cst_37 (F := F))
def v311 (X0 : Vec F S7x65536 .f32) (X1 : Vec F S6x65536 .f32) : FVec F S1x65536 .f32 := k0_pay85 (v218 X0 X1) (v223 X0 X1) (v233 X0 X1) (v238 X0 X1) (v243 X0 X1) (v253 X0 X1) (v258 X0 X1) (cst_37 (F := F))
def v324 (X0 : Vec F S7x65536 .f32) (X1 : Vec F S6x65536 .f32) : FVec F S1x65536 .f32 := k0_pay89 (v300 X0 X1) (v303 X0 X1)
def v327 (X0 : Vec F S7x65536 .f32) (X1 : Vec F S6x65536 .f32) : FVec F S1x65536 .f32 := k0_pay90 (v300 X0 X1) (v303 X0 X1) (v306 X0 X1)
def v330 (X0 : Vec F S7x65536 .f32) (X1 : Vec F S6x65536 .f32) : FVec F S1x65536 .f32 := k0_pay91 (v300 X0 X1) (v303 X0 X1) (v309 X0 X1)
def v333 (X0 : Vec F S7x65536 .f32) (X1 : Vec F S6x65536 .f32) : FVec F S1x65536 .f32 := k0_pay92 (v265 X0 X1) (v288 X0 X1) (v300 X0 X1) (v303 X0 X1) (v311 X0 X1)

/-- The seven stored rows: three of the translation, four of the quaternion. -/
def rows (X0 : Vec F S7x65536 .f32) (X1 : Vec F S6x65536 .f32) : Fin 7 → FVec F S1x65536 .f32 :=
  ![v211 X0 X1, v212 X0 X1, v213 X0 X1, v324 X0 X1, v327 X0 X1, v330 X0 X1, v333 X0 X1]

/-- The block the seven row stores leave: entry (r, l) is lane l of row r. -/
def outBlk (X0 : Vec F S7x65536 .f32) (X1 : Vec F S6x65536 .f32) : S7x65536.Idx → Elt F .f32 :=
  fun j => rows X0 X1 (j 0) (ValueIdx.ix2 0 (j 1))

end Cert.KernelIdeal.Hand

end
-- ==== Proof.KerStores.lean ====
import proofs.«161387_j47622597378731_2_alg».proof.Proof.KerRows
import Idealize.ShloMosaic.Lib.Pipeline.FrameBody
import Idealize.ShloMosaic.Lib.Writes

/-! # Seven row stores make one block

The body writes its result one row at a time: row k of the 7×65536 block receives a 1×65536 vector,
for k = 0, …, 6. Each store covers exactly the indices whose first coordinate is k, so the seven
stores tile the block, no two overlap, and after all of them entry (k, l) of the block is lane l of
the vector stored to row k — whatever the block held before. -/

noncomputable section

namespace Cert.KernelIdeal.Hand

open Idealize.ShloMosaic Idealize.SL.Sem Cert.KernelIdeal Cert.KernelIdeal.Gen
open Idealize.ShloMosaic.ValueIdx

variable {F : FTy → Type} [FloatOps F]

/-- Lane l of the row stored at row k lands at entry (k, l) of the block. -/
theorem row_emb (k : Nat) (hk : k < 7) (h : ∀ a, (![k, 0] : Fin 2 → Nat) a + S1x65536.size a ≤ S7x65536.size a)
    (l : Fin 65536) :
    (Rect.unit (s := S7x65536) ![k, 0] S1x65536.size h).emb (ix2 (0 : Fin 1) l) = ix2 (⟨k, hk⟩ : Fin 7) l := by
  funext a; apply Fin.ext; rw [Rect.emb_apply]
  match a with
  | ⟨0, _⟩ => show k + 1 * 0 = k; omega
  | ⟨1, _⟩ => show 0 + 1 * l.val = l.val; omega

/-- Entry (r, l) lies in the store to row k exactly when r = k. -/
theorem mem_row_iff (k : Nat) (h : ∀ a, (![k, 0] : Fin 2 → Nat) a + S1x65536.size a ≤ S7x65536.size a)
    (r : Fin 7) (l : Fin 65536) :
    ix2 r l ∈ (Rect.unit (s := S7x65536) ![k, 0] S1x65536.size h).set ↔ r.val = k := by
  rw [Rect.mem_set_unit]
  constructor
  · intro hm
    have h0 := hm 0
    change k ≤ r.val ∧ r.val < k + 1 at h0
    omega
  · intro e a
    match a with
    | ⟨0, _⟩ => show k ≤ r.val ∧ r.val < k + 1; omega
    | ⟨1, _⟩ => show 0 ≤ l.val ∧ l.val < 0 + 65536; exact ⟨Nat.zero_le _, by have := l.isLt; omega⟩

/-- A store to another row leaves entry (r, l) as the earlier stores made it. -/
theorem canon_cons_row_ne (k : Nat) (h : ∀ a, (![k, 0] : Fin 2 → Nat) a + S1x65536.size a ≤ S7x65536.size a)
    (w : FVec F S1x65536 .f32) (L : List (View.Piece (Elt F) S7x65536 .f32)) (r : Fin 7) (l : Fin 65536) (hne : r.val ≠ k) :
    View.canon ((⟨Rect.unit (s := S7x65536) ![k, 0] S1x65536.size h, w⟩ : View.Piece (Elt F) S7x65536 .f32) :: L) (ix2 r l)
      = View.canon L (ix2 r l) :=
  View.canon_cons_of_not_mem (⟨Rect.unit (s := S7x65536) ![k, 0] S1x65536.size h, w⟩ : View.Piece (Elt F) S7x65536 .f32) L
    (fun hm => hne ((mem_row_iff k h r l).mp hm))

/-- The store to row k, made last, leaves lane l of its vector at entry (k, l). -/
theorem canon_cons_row_eq (k : Nat) (hk : k < 7) (h : ∀ a, (![k, 0] : Fin 2 → Nat) a + S1x65536.size a ≤ S7x65536.size a)
    (w : FVec F S1x65536 .f32) (L : List (View.Piece (Elt F) S7x65536 .f32)) (l : Fin 65536) :
    View.canon ((⟨Rect.unit (s := S7x65536) ![k, 0] S1x65536.size h, w⟩ : View.Piece (Elt F) S7x65536 .f32) :: L) (ix2 (⟨k, hk⟩ : Fin 7) l)
      = w (ix2 (0 : Fin 1) l) :=
  (congrArg (View.canon ((⟨Rect.unit (s := S7x65536) ![k, 0] S1x65536.size h, w⟩ : View.Piece (Elt F) S7x65536 .f32) :: L))
      (row_emb k hk h l).symm).trans
    (by
      -- read back at the indices it wrote, the last store gives its own vector
      have e := View.canon_cons_emb (Rect.unit (s := S7x65536) ![k, 0] S1x65536.size h) w L (ix2 (0 : Fin 1) l)
      exact e)

/-- The seven row stores, last first, as the list of pieces they write. -/
abbrev rowPieces (p : Fin 7 → FVec F S1x65536 .f32) : List (View.Piece (Elt F) S7x65536 .f32) :=
  [⟨Rect.unit (s := S7x65536) ![6, 0] S1x65536.size inb_S7x65536_S1x65536_6_0, p 6⟩,
   ⟨Rect.unit (s := S7x65536) ![5, 0] S1x65536.size inb_S7x65536_S1x65536_5_0, p 5⟩,
   ⟨Rect.unit (s := S7x65536) ![4, 0] S1x65536.size inb_S7x65536_S1x65536_4_0, p 4⟩,
   ⟨Rect.unit (s := S7x65536) ![3, 0] S1x65536.size inb_S7x65536_S1x65536_3_0, p 3⟩,
   ⟨Rect.unit (s := S7x65536) ![2, 0] S1x65536.size inb_S7x65536_S1x65536_2_0, p 2⟩,
   ⟨Rect.unit (s := S7x65536) ![1, 0] S1x65536.size inb_S7x65536_S1x65536_1_0, p 1⟩,
   ⟨Rect.unit (s := S7x65536) ![0, 0] S1x65536.size inb_S7x65536_S1x65536_0_0, p 0⟩]

/-- The seven rows tile the block, so every entry lies in one of them. -/
theorem cover_rows (p : Fin 7 → FVec F S1x65536 .f32) (y : S7x65536.Idx) :
    ∃ pc ∈ rowPieces p, y ∈ pc.1.set := by
  obtain ⟨r, l, rfl⟩ : ∃ (r : Fin 7) (l : Fin 65536), y = ix2 r l := ⟨y 0, y 1, eq_ix2 y⟩
  obtain ⟨r, hr⟩ := r
  unfold rowPieces
  interval_cases r
  · exact ⟨_, List.mem_cons_of_mem _ (List.mem_cons_of_mem _ (List.mem_cons_of_mem _ (List.mem_cons_of_mem _ (List.mem_cons_of_mem _ (List.mem_cons_of_mem _ List.mem_cons_self))))), (mem_row_iff 0 inb_S7x65536_S1x65536_0_0 ⟨0, hr⟩ l).mpr rfl⟩
  · exact ⟨_, List.mem_cons_of_mem _ (List.mem_cons_of_mem _ (List.mem_cons_of_mem _ (List.mem_cons_of_mem _ (List.mem_cons_of_mem _ List.mem_cons_self)))), (mem_row_iff 1 inb_S7x65536_S1x65536_1_0 ⟨1, hr⟩ l).mpr rfl⟩
  · exact ⟨_, List.mem_cons_of_mem _ (List.mem_cons_of_mem _ (List.mem_cons_of_mem _ (List.mem_cons_of_mem _ List.mem_cons_self))), (mem_row_iff 2 inb_S7x65536_S1x65536_2_0 ⟨2, hr⟩ l).mpr rfl⟩
  · exact ⟨_, List.mem_cons_of_mem _ (List.mem_cons_of_mem _ (List.mem_cons_of_mem _ List.mem_cons_self)), (mem_row_iff 3 inb_S7x65536_S1x65536_3_0 ⟨3, hr⟩ l).mpr rfl⟩
  · exact ⟨_, List.mem_cons_of_mem _ (List.mem_cons_of_mem _ List.mem_cons_self), (mem_row_iff 4 inb_S7x65536_S1x65536_4_0 ⟨4, hr⟩ l).mpr rfl⟩
  · exact ⟨_, List.mem_cons_of_mem _ List.mem_cons_self, (mem_row_iff 5 inb_S7x65536_S1x65536_5_0 ⟨5, hr⟩ l).mpr rfl⟩
  · exact ⟨_, List.mem_cons_self, (mem_row_iff 6 inb_S7x65536_S1x65536_6_0 ⟨6, hr⟩ l).mpr rfl⟩

/-- After the seven stores entry (k, l) is lane l of the vector stored to row k. -/
theorem canon_rows (p : Fin 7 → FVec F S1x65536 .f32) :
    View.canon (rowPieces p) = fun j => p (j 0) (ix2 0 (j 1)) := by
  funext j
  obtain ⟨r, l, rfl⟩ : ∃ (r : Fin 7) (l : Fin 65536), j = ix2 r l := ⟨j 0, j 1, eq_ix2 j⟩
  show View.canon (rowPieces p) (ix2 r l) = p r (ix2 0 l)
  obtain ⟨r, hr⟩ := r
  unfold rowPieces
  interval_cases r
  · rw [canon_cons_row_ne 6 _ _ _ _ l (Nat.ne_of_lt (show (0 : ℕ) < 6 by decide)),
      canon_cons_row_ne 5 _ _ _ _ l (Nat.ne_of_lt (show (0 : ℕ) < 5 by decide)),
      canon_cons_row_ne 4 _ _ _ _ l (Nat.ne_of_lt (show (0 : ℕ) < 4 by decide)),
      canon_cons_row_ne 3 _ _ _ _ l (Nat.ne_of_lt (show (0 : ℕ) < 3 by decide)),
      canon_cons_row_ne 2 _ _ _ _ l (Nat.ne_of_lt (show (0 : ℕ) < 2 by decide)),
      canon_cons_row_ne 1 _ _ _ _ l (Nat.ne_of_lt (show (0 : ℕ) < 1 by decide)),
      canon_cons_row_eq 0 hr]
    rfl
  · rw [canon_cons_row_ne 6 _ _ _ _ l (Nat.ne_of_lt (show (1 : ℕ) < 6 by decide)),
      canon_cons_row_ne 5 _ _ _ _ l (Nat.ne_of_lt (show (1 : ℕ) < 5 by decide)),
      canon_cons_row_ne 4 _ _ _ _ l (Nat.ne_of_lt (show (1 : ℕ) < 4 by decide)),
      canon_cons_row_ne 3 _ _ _ _ l (Nat.ne_of_lt (show (1 : ℕ) < 3 by decide)),
      canon_cons_row_ne 2 _ _ _ _ l (Nat.ne_of_lt (show (1 : ℕ) < 2 by decide)),
      canon_cons_row_eq 1 hr]
    rfl
  · rw [canon_cons_row_ne 6 _ _ _ _ l (Nat.ne_of_lt (show (2 : ℕ) < 6 by decide)),
      canon_cons_row_ne 5 _ _ _ _ l (Nat.ne_of_lt (show (2 : ℕ) < 5 by decide)),
      canon_cons_row_ne 4 _ _ _ _ l (Nat.ne_of_lt (show (2 : ℕ) < 4 by decide)),
      canon_cons_row_ne 3 _ _ _ _ l (Nat.ne_of_lt (show (2 : ℕ) < 3 by decide)),
      canon_cons_row_eq 2 hr]
    rfl
  · rw [canon_cons_row_ne 6 _ _ _ _ l (Nat.ne_of_lt (show (3 : ℕ) < 6 by decide)),
      canon_cons_row_ne 5 _ _ _ _ l (Nat.ne_of_lt (show (3 : ℕ) < 5 by decide)),
      canon_cons_row_ne 4 _ _ _ _ l (Nat.ne_of_lt (show (3 : ℕ) < 4 by decide)),
      canon_cons_row_eq 3 hr]
    rfl
  · rw [canon_cons_row_ne 6 _ _ _ _ l (Nat.ne_of_lt (show (4 : ℕ) < 6 by decide)),
      canon_cons_row_ne 5 _ _ _ _ l (Nat.ne_of_lt (show (4 : ℕ) < 5 by decide)),
      canon_cons_row_eq 4 hr]
    rfl
  · rw [canon_cons_row_ne 6 _ _ _ _ l (Nat.ne_of_lt (show (5 : ℕ) < 6 by decide)),
      canon_cons_row_eq 5 hr]
    rfl
  · rw [canon_cons_row_eq 6 hr]
    rfl

/-- So the seven stores of the rows of `outBlk X0 X1` leave that block. -/
theorem canon_rows_outBlk (X0 : Vec F S7x65536 .f32) (X1 : Vec F S6x65536 .f32) :
    View.canon (rowPieces (rows X0 X1)) = outBlk X0 X1 :=
  canon_rows (rows X0 X1)

end Cert.KernelIdeal.Hand

end
-- ==== Proof.KerScalar.lean ====
import proofs.«161387_j47622597378731_2_alg».proof.Proof.KerRows

/-! # One lane of the kernel body

Every operation of the body acts on each of the 65536 lanes separately: an arithmetic operation, a comparison or a
choice is applied lane by lane, a splat constant is the same number in every lane. So lane l of a payload is the same
list of operations applied to lane l of its operands. sN is payload N's list over scalars (a is one column of the 7-row
block, b one column of the 6-row block); payN_lane says lane l of payload N is sN of lane l of the operands, which holds by
unfolding alone; svN wires the scalar lists together exactly as vN wires the payloads, and sRows collects the seven stored
values of one lane. -/

noncomputable section

namespace Cert.KernelIdeal.Hand

open Idealize.ShloMosaic Idealize.SL.Sem Cert.KernelIdeal Cert.KernelIdeal.Gen

variable {F : FTy → Type} [FloatOps F]

/-! ## The rows of the two blocks, at one lane -/
def s3 (a : Fin 7 → F .f32) : F .f32 := a 0
def s4 (a : Fin 7 → F .f32) : F .f32 := a 1
def s5 (a : Fin 7 → F .f32) : F .f32 := a 2
def s6 (a : Fin 7 → F .f32) : F .f32 := a 3
def s7 (a : Fin 7 → F .f32) : F .f32 := a 4
def s8 (a : Fin 7 → F .f32) : F .f32 := a 5
def s9 (a : Fin 7 → F .f32) : F .f32 := a 6
def s10 (b : Fin 6 → F .f32) : F .f32 := b 0
def s11 (b : Fin 6 → F .f32) : F .f32 := b 1
def s12 (b : Fin 6 → F .f32) : F .f32 := b 2
def s13 (b : Fin 6 → F .f32) : F .f32 := b 3
def s14 (b : Fin 6 → F .f32) : F .f32 := b 4
def s15 (b : Fin 6 → F .f32) : F .f32 := b 5

/-! ## The payloads' operation lists over scalars -/
def s16 (a : Fin 7 → F .f32) : F .f32 :=
  have v17 : F .f32 := FloatOps.mulf (s8 a) (s8 a)
  have v18 : F .f32 := FloatOps.mulf (s9 a) (s9 a)
  have v19 : F .f32 := FloatOps.addf v17 v18
  have cst : F .f32 := Scalar.ofBits .f32 0x40000000#32
  have v20 : F .f32 := cst
  have v21 : F .f32 := FloatOps.mulf v20 v19
  have cst_3 : F .f32 := Scalar.ofBits .f32 0x3F800000#32
  have v22 : F .f32 := cst_3
  have v23 : F .f32 := FloatOps.subf v22 v21
  v23
def s17 (a : Fin 7 → F .f32) : F .f32 :=
  have v24 : F .f32 := FloatOps.mulf (s7 a) (s8 a)
  have v25 : F .f32 := FloatOps.mulf (s9 a) (s6 a)
  have v26 : F .f32 := FloatOps.subf v24 v25
  have cst_4 : F .f32 := Scalar.ofBits .f32 0x40000000#32
  have v27 : F .f32 := cst_4
  have v28 : F .f32 := FloatOps.mulf v27 v26
  v28
def s18 (a : Fin 7 → F .f32) : F .f32 :=
  have v29 : F .f32 := FloatOps.mulf (s7 a) (s9 a)
  have v30 : F .f32 := FloatOps.mulf (s8 a) (s6 a)
  have v31 : F .f32 := FloatOps.addf v29 v30
  have cst_5 : F .f32 := Scalar.ofBits .f32 0x40000000#32
  have v32 : F .f32 := cst_5
  have v33 : F .f32 := FloatOps.mulf v32 v31
  v33
def s19 (a : Fin 7 → F .f32) : F .f32 :=
  have v34 : F .f32 := FloatOps.mulf (s7 a) (s8 a)
  have v35 : F .f32 := FloatOps.mulf (s9 a) (s6 a)
  have v36 : F .f32 := FloatOps.addf v34 v35
  have cst_6 : F .f32 := Scalar.ofBits .f32 0x40000000#32
  have v37 : F .f32 := cst_6
  have v38 : F .f32 := FloatOps.mulf v37 v36
  v38
def s20 (a : Fin 7 → F .f32) : F .f32 :=
  have v39 : F .f32 := FloatOps.mulf (s7 a) (s7 a)
  have v40 : F .f32 := FloatOps.mulf (s9 a) (s9 a)
  have v41 : F .f32 := FloatOps.addf v39 v40
  have cst_7 : F .f32 := Scalar.ofBits .f32 0x40000000#32
  have v42 : F .f32 := cst_7
  have v43 : F .f32 := FloatOps.mulf v42 v41
  have cst_8 : F .f32 := Scalar.ofBits .f32 0x3F800000#32
  have v44 : F .f32 := cst_8
  have v45 : F .f32 := FloatOps.subf v44 v43
  v45
def s21 (a : Fin 7 → F .f32) : F .f32 :=
  have v46 : F .f32 := FloatOps.mulf (s8 a) (s9 a)
  v46
def s22 (a : Fin 7 → F .f32) : F .f32 :=
  have v47 : F .f32 := FloatOps.mulf (s7 a) (s6 a)
  v47
def s23 (v46 : F .f32) (v47 : F .f32) : F .f32 :=
  have v48 : F .f32 := FloatOps.subf v46 v47
  have cst_9 : F .f32 := Scalar.ofBits .f32 0x40000000#32
  have v49 : F .f32 := cst_9
  have v50 : F .f32 := FloatOps.mulf v49 v48
  v50
def s24 (v7 : F .f32) (v8 : F .f32) (v9 : F .f32) (v10 : F .f32) : F .f32 :=
  have v51 : F .f32 := FloatOps.mulf v8 v10
  have v52 : F .f32 := FloatOps.mulf v9 v7
  have v53 : F .f32 := FloatOps.subf v51 v52
  have cst_10 : F .f32 := Scalar.ofBits .f32 0x40000000#32
  have v54 : F .f32 := cst_10
  have v55 : F .f32 := FloatOps.mulf v54 v53
  v55
def s25 (v7 : F .f32) (v8 : F .f32) (v9 : F .f32) (v10 : F .f32) : F .f32 :=
  have v56 : F .f32 := FloatOps.mulf v9 v10
  have v57 : F .f32 := FloatOps.mulf v8 v7
  have v58 : F .f32 := FloatOps.addf v56 v57
  have cst_11 : F .f32 := Scalar.ofBits .f32 0x40000000#32
  have v59 : F .f32 := cst_11
  have v60 : F .f32 := FloatOps.mulf v59 v58
  v60
def s26 (v8 : F .f32) (v9 : F .f32) : F .f32 :=
  have v61 : F .f32 := FloatOps.mulf v8 v8
  have v62 : F .f32 := FloatOps.mulf v9 v9
  have v63 : F .f32 := FloatOps.addf v61 v62
  have cst_12 : F .f32 := Scalar.ofBits .f32 0x40000000#32
  have v64 : F .f32 := cst_12
  have v65 : F .f32 := FloatOps.mulf v64 v63
  have cst_13 : F .f32 := Scalar.ofBits .f32 0x3F800000#32
  have v66 : F .f32 := cst_13
  have v67 : F .f32 := FloatOps.subf v66 v65
  v67
def s27 (v14 : F .f32) (v15 : F .f32) (v16 : F .f32) : F .f32 :=
  have v68 : F .f32 := FloatOps.mulf v14 v14
  have v69 : F .f32 := FloatOps.mulf v15 v15
  have v70 : F .f32 := FloatOps.addf v68 v69
  have v71 : F .f32 := FloatOps.mulf v16 v16
  have v72 : F .f32 := FloatOps.addf v70 v71
  v72
def s28 (v14 : F .f32) (v15 : F .f32) (v16 : F .f32) : BitVec 1 :=
  have cst_14 : F .f32 := Scalar.ofBits .f32 0x2B8CBCCC#32
  have v73 : F .f32 := cst_14
  have v74 : BitVec 1 := FloatOps.cmpf .ogt (s27 v14 v15 v16) v73
  v74
def s29 (v14 : F .f32) (v15 : F .f32) (v16 : F .f32) : F .f32 :=
  have cst_15 : F .f32 := Scalar.ofBits .f32 0x3F800000#32
  have v75 : F .f32 := cst_15
  have v76 : F .f32 := Scalar.select (s28 v14 v15 v16) (s27 v14 v15 v16) v75
  v76
def s30 (v14 : F .f32) (v15 : F .f32) (v16 : F .f32) : F .f32 :=
  have v77 : F .f32 := FloatOps.sqrt (s29 v14 v15 v16)
  v77
def s31 (v14 : F .f32) (v15 : F .f32) (v16 : F .f32) : F .f32 :=
  have v78 : F .f32 := FloatOps.sin (s30 v14 v15 v16)
  v78
def s32 (v14 : F .f32) (v15 : F .f32) (v16 : F .f32) : F .f32 :=
  have cst_16 : F .f32 := Scalar.ofBits .f32 0x3F800000#32
  have v80 : F .f32 := cst_16
  have v81 : F .f32 := FloatOps.divf v80 (s29 v14 v15 v16)
  v81
def s33 (v14 : F .f32) (v15 : F .f32) (v16 : F .f32) : F .f32 :=
  have cst_17 : F .f32 := Scalar.ofBits .f32 0x3F800000#32
  have v82 : F .f32 := cst_17
  have v83 : F .f32 := FloatOps.divf v82 (s30 v14 v15 v16)
  v83
def s34 (v14 : F .f32) (v15 : F .f32) (v16 : F .f32) : F .f32 :=
  have v84 : F .f32 := FloatOps.mulf (s31 v14 v15 v16) (s33 v14 v15 v16)
  have cst_18 : F .f32 := Scalar.ofBits .f32 0x3F800000#32
  have v85 : F .f32 := cst_18
  have v86 : F .f32 := Scalar.select (s28 v14 v15 v16) v84 v85
  v86
def s35 (v14 : F .f32) (v15 : F .f32) (v16 : F .f32) : F .f32 :=
  have v79 : F .f32 := FloatOps.cos (s30 v14 v15 v16)
  have cst_19 : F .f32 := Scalar.ofBits .f32 0x3F800000#32
  have v87 : F .f32 := cst_19
  have v88 : F .f32 := FloatOps.subf v87 v79
  have v89 : F .f32 := FloatOps.mulf v88 (s32 v14 v15 v16)
  have cst_20 : F .f32 := Scalar.ofBits .f32 0x00000000#32
  have v90 : F .f32 := cst_20
  have v91 : F .f32 := Scalar.select (s28 v14 v15 v16) v89 v90
  v91
def s36 (v14 : F .f32) (v15 : F .f32) (v16 : F .f32) : F .f32 :=
  have v92 : F .f32 := FloatOps.subf (s30 v14 v15 v16) (s31 v14 v15 v16)
  have v93 : F .f32 := FloatOps.mulf v92 (s32 v14 v15 v16)
  have v94 : F .f32 := FloatOps.mulf v93 (s33 v14 v15 v16)
  v94
def s37 (v74 : BitVec 1) (v94 : F .f32) (cst_21 : F .f32) : F .f32 :=
  have v95 : F .f32 := cst_21
  have v96 : F .f32 := Scalar.select v74 v94 v95
  v96
def s38 (v14 : F .f32) (v15 : F .f32) : F .f32 :=
  have v97 : F .f32 := FloatOps.mulf v14 v15
  v97
def s39 (v14 : F .f32) (v16 : F .f32) : F .f32 :=
  have v98 : F .f32 := FloatOps.mulf v14 v16
  v98
def s40 (v15 : F .f32) (v16 : F .f32) : F .f32 :=
  have v99 : F .f32 := FloatOps.mulf v15 v16
  v99
def s41 (v15 : F .f32) (v16 : F .f32) : F .f32 :=
  have v100 : F .f32 := FloatOps.mulf v15 v15
  have v101 : F .f32 := FloatOps.mulf v16 v16
  have v102 : F .f32 := FloatOps.addf v100 v101
  have cst_22 : F .f32 := Scalar.ofBits .f32 0x00000000#32
  have v103 : F .f32 := cst_22
  have v104 : F .f32 := FloatOps.subf v103 v102
  v104
def s42 (v14 : F .f32) (v16 : F .f32) : F .f32 :=
  have v105 : F .f32 := FloatOps.mulf v14 v14
  have v106 : F .f32 := FloatOps.mulf v16 v16
  have v107 : F .f32 := FloatOps.addf v105 v106
  have cst_23 : F .f32 := Scalar.ofBits .f32 0x00000000#32
  have v108 : F .f32 := cst_23
  have v109 : F .f32 := FloatOps.subf v108 v107
  v109
def s43 (v14 : F .f32) (v15 : F .f32) : F .f32 :=
  have v110 : F .f32 := FloatOps.mulf v14 v14
  have v111 : F .f32 := FloatOps.mulf v15 v15
  have v112 : F .f32 := FloatOps.addf v110 v111
  have cst_24 : F .f32 := Scalar.ofBits .f32 0x00000000#32
  have v113 : F .f32 := cst_24
  have v114 : F .f32 := FloatOps.subf v113 v112
  v114
def s44 (v15 : F .f32) (v16 : F .f32) (v91 : F .f32) : F .f32 :=
  have v115 : F .f32 := FloatOps.mulf v91 (s41 v15 v16)
  have cst_25 : F .f32 := Scalar.ofBits .f32 0x3F800000#32
  have v116 : F .f32 := cst_25
  have v117 : F .f32 := FloatOps.addf v116 v115
  v117
def s45 (v14 : F .f32) (v15 : F .f32) (v16 : F .f32) (v86 : F .f32) (v91 : F .f32) : F .f32 :=
  have cst_26 : F .f32 := Scalar.ofBits .f32 0x00000000#32
  have v118 : F .f32 := cst_26
  have v119 : F .f32 := FloatOps.subf v118 v86
  have v120 : F .f32 := FloatOps.mulf v119 v16
  have v121 : F .f32 := FloatOps.mulf v91 (s38 v14 v15)
  have v122 : F .f32 := FloatOps.addf v120 v121
  v122
def s46 (v14 : F .f32) (v15 : F .f32) (v16 : F .f32) (v86 : F .f32) (v91 : F .f32) : F .f32 :=
  have v123 : F .f32 := FloatOps.mulf v86 v15
  have v124 : F .f32 := FloatOps.mulf v91 (s39 v14 v16)
  have v125 : F .f32 := FloatOps.addf v123 v124
  v125
def s47 (v14 : F .f32) (v15 : F .f32) (v16 : F .f32) (v86 : F .f32) (v91 : F .f32) : F .f32 :=
  have v126 : F .f32 := FloatOps.mulf v86 v16
  have v127 : F .f32 := FloatOps.mulf v91 (s38 v14 v15)
  have v128 : F .f32 := FloatOps.addf v126 v127
  v128
def s48 (v14 : F .f32) (v16 : F .f32) (v91 : F .f32) : F .f32 :=
  have v129 : F .f32 := FloatOps.mulf v91 (s42 v14 v16)
  have cst_27 : F .f32 := Scalar.ofBits .f32 0x3F800000#32
  have v130 : F .f32 := cst_27
  have v131 : F .f32 := FloatOps.addf v130 v129
  v131
def s49 (v14 : F .f32) (v15 : F .f32) (v16 : F .f32) (v86 : F .f32) (v91 : F .f32) : F .f32 :=
  have cst_28 : F .f32 := Scalar.ofBits .f32 0x00000000#32
  have v132 : F .f32 := cst_28
  have v133 : F .f32 := FloatOps.subf v132 v86
  have v134 : F .f32 := FloatOps.mulf v133 v14
  have v135 : F .f32 := FloatOps.mulf v91 (s40 v15 v16)
  have v136 : F .f32 := FloatOps.addf v134 v135
  v136
def s50 (v14 : F .f32) (v15 : F .f32) (v16 : F .f32) (v86 : F .f32) (v91 : F .f32) : F .f32 :=
  have cst_29 : F .f32 := Scalar.ofBits .f32 0x00000000#32
  have v137 : F .f32 := cst_29
  have v138 : F .f32 := FloatOps.subf v137 v86
  have v139 : F .f32 := FloatOps.mulf v138 v15
  have v140 : F .f32 := FloatOps.mulf v91 (s39 v14 v16)
  have v141 : F .f32 := FloatOps.addf v139 v140
  v141
def s51 (v14 : F .f32) (v15 : F .f32) (v16 : F .f32) (v86 : F .f32) (v91 : F .f32) : F .f32 :=
  have v142 : F .f32 := FloatOps.mulf v86 v14
  have v143 : F .f32 := FloatOps.mulf v91 (s40 v15 v16)
  have v144 : F .f32 := FloatOps.addf v142 v143
  v144
def s52 (v14 : F .f32) (v15 : F .f32) (v91 : F .f32) : F .f32 :=
  have v145 : F .f32 := FloatOps.mulf v91 (s43 v14 v15)
  v145
def s53 (v145 : F .f32) (cst_30 : F .f32) : F .f32 :=
  have v146 : F .f32 := cst_30
  have v147 : F .f32 := FloatOps.addf v146 v145
  v147
def s54 (v11 : F .f32) (v12 : F .f32) (v13 : F .f32) (v15 : F .f32) (v16 : F .f32) (v91 : F .f32) (v96 : F .f32) (v97 : F .f32) (v98 : F .f32) (v104 : F .f32) : F .f32 :=
  have v148 : F .f32 := FloatOps.mulf v96 v104
  have cst_31 : F .f32 := Scalar.ofBits .f32 0x3F800000#32
  have v149 : F .f32 := cst_31
  have v150 : F .f32 := FloatOps.addf v149 v148
  have cst_32 : F .f32 := Scalar.ofBits .f32 0x00000000#32
  have v151 : F .f32 := cst_32
  have v152 : F .f32 := FloatOps.subf v151 v91
  have v153 : F .f32 := FloatOps.mulf v152 v16
  have v154 : F .f32 := FloatOps.mulf v96 v97
  have v155 : F .f32 := FloatOps.addf v153 v154
  have v156 : F .f32 := FloatOps.mulf v91 v15
  have v157 : F .f32 := FloatOps.mulf v96 v98
  have v158 : F .f32 := FloatOps.addf v156 v157
  have v181 : F .f32 := FloatOps.mulf v150 v11
  have v182 : F .f32 := FloatOps.mulf v155 v12
  have v183 : F .f32 := FloatOps.addf v181 v182
  have v184 : F .f32 := FloatOps.mulf v158 v13
  have v185 : F .f32 := FloatOps.addf v183 v184
  v185
def s55 (v11 : F .f32) (v12 : F .f32) (v13 : F .f32) (v14 : F .f32) (v16 : F .f32) (v91 : F .f32) (v96 : F .f32) (v97 : F .f32) (v99 : F .f32) (v109 : F .f32) : F .f32 :=
  have v159 : F .f32 := FloatOps.mulf v91 v16
  have v160 : F .f32 := FloatOps.mulf v96 v97
  have v161 : F .f32 := FloatOps.addf v159 v160
  have v162 : F .f32 := FloatOps.mulf v96 v109
  have cst_33 : F .f32 := Scalar.ofBits .f32 0x3F800000#32
  have v163 : F .f32 := cst_33
  have v164 : F .f32 := FloatOps.addf v163 v162
  have cst_34 : F .f32 := Scalar.ofBits .f32 0x00000000#32
  have v165 : F .f32 := cst_34
  have v166 : F .f32 := FloatOps.subf v165 v91
  have v167 : F .f32 := FloatOps.mulf v166 v14
  have v168 : F .f32 := FloatOps.mulf v96 v99
  have v169 : F .f32 := FloatOps.addf v167 v168
  have v186 : F .f32 := FloatOps.mulf v161 v11
  have v187 : F .f32 := FloatOps.mulf v164 v12
  have v188 : F .f32 := FloatOps.addf v186 v187
  have v189 : F .f32 := FloatOps.mulf v169 v13
  have v190 : F .f32 := FloatOps.addf v188 v189
  v190
def s56 (v11 : F .f32) (v12 : F .f32) (v13 : F .f32) (v14 : F .f32) (v15 : F .f32) (v91 : F .f32) (v96 : F .f32) (v98 : F .f32) (v99 : F .f32) (v114 : F .f32) : F .f32 :=
  have cst_35 : F .f32 := Scalar.ofBits .f32 0x00000000#32
  have v170 : F .f32 := cst_35
  have v171 : F .f32 := FloatOps.subf v170 v91
  have v172 : F .f32 := FloatOps.mulf v171 v15
  have v173 : F .f32 := FloatOps.mulf v96 v98
  have v174 : F .f32 := FloatOps.addf v172 v173
  have v175 : F .f32 := FloatOps.mulf v91 v14
  have v176 : F .f32 := FloatOps.mulf v96 v99
  have v177 : F .f32 := FloatOps.addf v175 v176
  have v178 : F .f32 := FloatOps.mulf v96 v114
  have cst_36 : F .f32 := Scalar.ofBits .f32 0x3F800000#32
  have v179 : F .f32 := cst_36
  have v180 : F .f32 := FloatOps.addf v179 v178
  have v191 : F .f32 := FloatOps.mulf v174 v11
  have v192 : F .f32 := FloatOps.mulf v177 v12
  have v193 : F .f32 := FloatOps.addf v191 v192
  have v194 : F .f32 := FloatOps.mulf v180 v13
  have v195 : F .f32 := FloatOps.addf v193 v194
  v195
def s57 (v4 : F .f32) (v5 : F .f32) (v117 : F .f32) (v122 : F .f32) : F .f32 :=
  have v196 : F .f32 := FloatOps.mulf v117 v4
  have v197 : F .f32 := FloatOps.mulf v122 v5
  have v198 : F .f32 := FloatOps.addf v196 v197
  v198
def s58 (v6 : F .f32) (v125 : F .f32) : F .f32 :=
  have v199 : F .f32 := FloatOps.mulf v125 v6
  v199
def s59 (v185 : F .f32) (v198 : F .f32) (v199 : F .f32) : F .f32 :=
  have v200 : F .f32 := FloatOps.addf v198 v199
  have v211 : F .f32 := FloatOps.addf v200 v185
  v211
def s60 (v4 : F .f32) (v5 : F .f32) (v6 : F .f32) (v128 : F .f32) (v131 : F .f32) (v136 : F .f32) (v190 : F .f32) : F .f32 :=
  have v201 : F .f32 := FloatOps.mulf v128 v4
  have v202 : F .f32 := FloatOps.mulf v131 v5
  have v203 : F .f32 := FloatOps.addf v201 v202
  have v204 : F .f32 := FloatOps.mulf v136 v6
  have v205 : F .f32 := FloatOps.addf v203 v204
  have v212 : F .f32 := FloatOps.addf v205 v190
  v212
def s61 (v4 : F .f32) (v5 : F .f32) (v6 : F .f32) (v141 : F .f32) (v144 : F .f32) (v147 : F .f32) (v195 : F .f32) : F .f32 :=
  have v206 : F .f32 := FloatOps.mulf v141 v4
  have v207 : F .f32 := FloatOps.mulf v144 v5
  have v208 : F .f32 := FloatOps.addf v206 v207
  have v209 : F .f32 := FloatOps.mulf v147 v6
  have v210 : F .f32 := FloatOps.addf v208 v209
  have v213 : F .f32 := FloatOps.addf v210 v195
  v213
def s62 (v23 : F .f32) (v38 : F .f32) (v55 : F .f32) (v117 : F .f32) (v122 : F .f32) (v125 : F .f32) : F .f32 :=
  have v214 : F .f32 := FloatOps.mulf v117 v23
  have v215 : F .f32 := FloatOps.mulf v122 v38
  have v216 : F .f32 := FloatOps.addf v214 v215
  have v217 : F .f32 := FloatOps.mulf v125 v55
  have v218 : F .f32 := FloatOps.addf v216 v217
  v218
def s63 (v28 : F .f32) (v45 : F .f32) (v60 : F .f32) (v117 : F .f32) (v122 : F .f32) (v125 : F .f32) : F .f32 :=
  have v219 : F .f32 := FloatOps.mulf v117 v28
  have v220 : F .f32 := FloatOps.mulf v122 v45
  have v221 : F .f32 := FloatOps.addf v219 v220
  have v222 : F .f32 := FloatOps.mulf v125 v60
  have v223 : F .f32 := FloatOps.addf v221 v222
  v223
def s64 (v33 : F .f32) (v50 : F .f32) (v67 : F .f32) (v117 : F .f32) (v122 : F .f32) (v125 : F .f32) : F .f32 :=
  have v224 : F .f32 := FloatOps.mulf v117 v33
  have v225 : F .f32 := FloatOps.mulf v122 v50
  have v226 : F .f32 := FloatOps.addf v224 v225
  have v227 : F .f32 := FloatOps.mulf v125 v67
  have v228 : F .f32 := FloatOps.addf v226 v227
  v228
def s65 (v23 : F .f32) (v38 : F .f32) (v55 : F .f32) (v128 : F .f32) (v131 : F .f32) (v136 : F .f32) : F .f32 :=
  have v229 : F .f32 := FloatOps.mulf v128 v23
  have v230 : F .f32 := FloatOps.mulf v131 v38
  have v231 : F .f32 := FloatOps.addf v229 v230
  have v232 : F .f32 := FloatOps.mulf v136 v55
  have v233 : F .f32 := FloatOps.addf v231 v232
  v233
def s66 (v28 : F .f32) (v45 : F .f32) (v60 : F .f32) (v128 : F .f32) (v131 : F .f32) (v136 : F .f32) : F .f32 :=
  have v234 : F .f32 := FloatOps.mulf v128 v28
  have v235 : F .f32 := FloatOps.mulf v131 v45
  have v236 : F .f32 := FloatOps.addf v234 v235
  have v237 : F .f32 := FloatOps.mulf v136 v60
  have v238 : F .f32 := FloatOps.addf v236 v237
  v238
def s67 (v33 : F .f32) (v50 : F .f32) (v67 : F .f32) (v128 : F .f32) (v131 : F .f32) (v136 : F .f32) : F .f32 :=
  have v239 : F .f32 := FloatOps.mulf v128 v33
  have v240 : F .f32 := FloatOps.mulf v131 v50
  have v241 : F .f32 := FloatOps.addf v239 v240
  have v242 : F .f32 := FloatOps.mulf v136 v67
  have v243 : F .f32 := FloatOps.addf v241 v242
  v243
def s68 (v23 : F .f32) (v38 : F .f32) (v55 : F .f32) (v141 : F .f32) (v144 : F .f32) (v147 : F .f32) : F .f32 :=
  have v244 : F .f32 := FloatOps.mulf v141 v23
  have v245 : F .f32 := FloatOps.mulf v144 v38
  have v246 : F .f32 := FloatOps.addf v244 v245
  have v247 : F .f32 := FloatOps.mulf v147 v55
  have v248 : F .f32 := FloatOps.addf v246 v247
  v248
def s69 (v28 : F .f32) (v45 : F .f32) (v60 : F .f32) (v141 : F .f32) (v144 : F .f32) (v147 : F .f32) : F .f32 :=
  have v249 : F .f32 := FloatOps.mulf v141 v28
  have v250 : F .f32 := FloatOps.mulf v144 v45
  have v251 : F .f32 := FloatOps.addf v249 v250
  have v252 : F .f32 := FloatOps.mulf v147 v60
  have v253 : F .f32 := FloatOps.addf v251 v252
  v253
def s70 (v33 : F .f32) (v50 : F .f32) (v67 : F .f32) (v141 : F .f32) (v144 : F .f32) (v147 : F .f32) : F .f32 :=
  have v254 : F .f32 := FloatOps.mulf v141 v33
  have v255 : F .f32 := FloatOps.mulf v144 v50
  have v256 : F .f32 := FloatOps.addf v254 v255
  have v257 : F .f32 := FloatOps.mulf v147 v67
  have v258 : F .f32 := FloatOps.addf v256 v257
  v258
def s71 (v258 : F .f32) (cst_37 : F .f32) : BitVec 1 :=
  have v259 : F .f32 := cst_37
  have v260 : BitVec 1 := FloatOps.cmpf .olt v258 v259
  v260
def s72 (v218 : F .f32) (v238 : F .f32) : BitVec 1 :=
  have v261 : BitVec 1 := FloatOps.cmpf .ogt v218 v238
  v261
def s73 (v218 : F .f32) (v238 : F .f32) (v258 : F .f32) (cst_37 : F .f32) : BitVec 1 :=
  have v265 : BitVec 1 := IntOp.andi (s71 v258 cst_37) (s72 v218 v238)
  v265
def s74 (v218 : F .f32) (v238 : F .f32) (v258 : F .f32) (cst_37 : F .f32) : BitVec 1 :=
  have cst_39 : BitVec 1 := 1#1
  have v266 : BitVec 1 := IntOp.xori (s72 v218 v238) cst_39
  have v267 : BitVec 1 := IntOp.andi (s71 v258 cst_37) v266
  v267
def s75 (v218 : F .f32) (v238 : F .f32) (v258 : F .f32) (cst_37 : F .f32) : BitVec 1 :=
  have cst_38 : F .f32 := Scalar.ofBits .f32 0x00000000#32
  have v262 : F .f32 := cst_38
  have v263 : F .f32 := FloatOps.subf v262 v238
  have v264 : BitVec 1 := FloatOps.cmpf .olt v218 v263
  have cst_40 : BitVec 1 := 1#1
  have v268 : BitVec 1 := IntOp.xori (s71 v258 cst_37) cst_40
  have v269 : BitVec 1 := IntOp.andi v268 v264
  v269
def s76 (v218 : F .f32) (v238 : F .f32) (v258 : F .f32) : F .f32 :=
  have cst_41 : F .f32 := Scalar.ofBits .f32 0x3F800000#32
  have v270 : F .f32 := cst_41
  have v271 : F .f32 := FloatOps.addf v270 v218
  have v272 : F .f32 := FloatOps.subf v271 v238
  have v273 : F .f32 := FloatOps.subf v272 v258
  v273
def s77 (v218 : F .f32) (v238 : F .f32) (v258 : F .f32) : F .f32 :=
  have cst_42 : F .f32 := Scalar.ofBits .f32 0x3F800000#32
  have v274 : F .f32 := cst_42
  have v275 : F .f32 := FloatOps.subf v274 v218
  have v276 : F .f32 := FloatOps.addf v275 v238
  have v277 : F .f32 := FloatOps.subf v276 v258
  v277
def s78 (v218 : F .f32) (v238 : F .f32) (v258 : F .f32) : F .f32 :=
  have cst_43 : F .f32 := Scalar.ofBits .f32 0x3F800000#32
  have v278 : F .f32 := cst_43
  have v279 : F .f32 := FloatOps.subf v278 v218
  have v280 : F .f32 := FloatOps.subf v279 v238
  have v281 : F .f32 := FloatOps.addf v280 v258
  v281
def s79 (v218 : F .f32) (v238 : F .f32) (v258 : F .f32) : F .f32 :=
  have cst_44 : F .f32 := Scalar.ofBits .f32 0x3F800000#32
  have v282 : F .f32 := cst_44
  have v283 : F .f32 := FloatOps.addf v282 v218
  have v284 : F .f32 := FloatOps.addf v283 v238
  have v285 : F .f32 := FloatOps.addf v284 v258
  v285
def s80 (v228 : F .f32) (v248 : F .f32) : F .f32 :=
  have v288 : F .f32 := FloatOps.addf v248 v228
  v288
def s81 (v218 : F .f32) (v238 : F .f32) (v258 : F .f32) (cst_37 : F .f32) : F .f32 :=
  have v298 : F .f32 := Scalar.select (s75 v218 v238 v258 cst_37) (s78 v218 v238 v258) (s79 v218 v238 v258)
  have v299 : F .f32 := Scalar.select (s74 v218 v238 v258 cst_37) (s77 v218 v238 v258) v298
  have v300 : F .f32 := Scalar.select (s73 v218 v238 v258 cst_37) (s76 v218 v238 v258) v299
  v300
def s82 (v218 : F .f32) (v223 : F .f32) (v228 : F .f32) (v233 : F .f32) (v238 : F .f32) (v243 : F .f32) (v248 : F .f32) (v253 : F .f32) (v258 : F .f32) (cst_37 : F .f32) : F .f32 :=
  have v286 : F .f32 := FloatOps.subf v253 v243
  have v289 : F .f32 := FloatOps.subf v228 v248
  have v292 : F .f32 := FloatOps.subf v233 v223
  have v301 : F .f32 := Scalar.select (s75 v218 v238 v258 cst_37) v292 (s79 v218 v238 v258)
  have v302 : F .f32 := Scalar.select (s74 v218 v238 v258 cst_37) v289 v301
  have v303 : F .f32 := Scalar.select (s73 v218 v238 v258 cst_37) v286 v302
  v303
def s83 (v218 : F .f32) (v223 : F .f32) (v228 : F .f32) (v233 : F .f32) (v238 : F .f32) (v243 : F .f32) (v248 : F .f32) (v253 : F .f32) (v258 : F .f32) (cst_37 : F .f32) : F .f32 :=
  have v290 : F .f32 := FloatOps.addf v223 v233
  have v293 : F .f32 := FloatOps.addf v248 v228
  have v295 : F .f32 := FloatOps.subf v253 v243
  have v304 : F .f32 := Scalar.select (s75 v218 v238 v258 cst_37) v293 v295
  have v305 : F .f32 := Scalar.select (s74 v218 v238 v258 cst_37) v290 v304
  have v306 : F .f32 := Scalar.select (s73 v218 v238 v258 cst_37) (s76 v218 v238 v258) v305
  v306
def s84 (v218 : F .f32) (v223 : F .f32) (v228 : F .f32) (v233 : F .f32) (v238 : F .f32) (v243 : F .f32) (v248 : F .f32) (v253 : F .f32) (v258 : F .f32) (cst_37 : F .f32) : F .f32 :=
  have v287 : F .f32 := FloatOps.addf v223 v233
  have v294 : F .f32 := FloatOps.addf v243 v253
  have v296 : F .f32 := FloatOps.subf v228 v248
  have v307 : F .f32 := Scalar.select (s75 v218 v238 v258 cst_37) v294 v296
  have v308 : F .f32 := Scalar.select (s74 v218 v238 v258 cst_37) (s77 v218 v238 v258) v307
  have v309 : F .f32 := Scalar.select (s73 v218 v238 v258 cst_37) v287 v308
  v309
def s85 (v218 : F .f32) (v223 : F .f32) (v233 : F .f32) (v238 : F .f32) (v243 : F .f32) (v253 : F .f32) (v258 : F .f32) (cst_37 : F .f32) : F .f32 :=
  have v291 : F .f32 := FloatOps.addf v243 v253
  have v297 : F .f32 := FloatOps.subf v233 v223
  have v310 : F .f32 := Scalar.select (s75 v218 v238 v258 cst_37) (s78 v218 v238 v258) v297
  have v311 : F .f32 := Scalar.select (s74 v218 v238 v258 cst_37) v291 v310
  v311
def s86 (v300 : F .f32) : F .f32 :=
  have v313 : F .f32 := FloatOps.rsqrt v300
  have cst_45 : F .f32 := Scalar.ofBits .f32 0x3F000000#32
  have v314 : F .f32 := cst_45
  have v315 : F .f32 := FloatOps.mulf v314 v313
  v315
def s87 (v300 : F .f32) (v303 : F .f32) : F .f32 :=
  have v316 : F .f32 := FloatOps.mulf v303 (s86 v300)
  v316
def s88 (v300 : F .f32) (v303 : F .f32) : BitVec 1 :=
  have cst_46 : F .f32 := Scalar.ofBits .f32 0x00000000#32
  have v320 : F .f32 := cst_46
  have v321 : BitVec 1 := FloatOps.cmpf .olt (s87 v300 v303) v320
  v321
def s89 (v300 : F .f32) (v303 : F .f32) : F .f32 :=
  have cst_47 : F .f32 := Scalar.ofBits .f32 0x00000000#32
  have v322 : F .f32 := cst_47
  have v323 : F .f32 := FloatOps.subf v322 (s87 v300 v303)
  have v324 : F .f32 := Scalar.select (s88 v300 v303) v323 (s87 v300 v303)
  v324
def s90 (v300 : F .f32) (v303 : F .f32) (v306 : F .f32) : F .f32 :=
  have v317 : F .f32 := FloatOps.mulf v306 (s86 v300)
  have cst_48 : F .f32 := Scalar.ofBits .f32 0x00000000#32
  have v325 : F .f32 := cst_48
  have v326 : F .f32 := FloatOps.subf v325 v317
  have v327 : F .f32 := Scalar.select (s88 v300 v303) v326 v317
  v327
def s91 (v300 : F .f32) (v303 : F .f32) (v309 : F .f32) : F .f32 :=
  have v318 : F .f32 := FloatOps.mulf v309 (s86 v300)
  have cst_49 : F .f32 := Scalar.ofBits .f32 0x00000000#32
  have v328 : F .f32 := cst_49
  have v329 : F .f32 := FloatOps.subf v328 v318
  have v330 : F .f32 := Scalar.select (s88 v300 v303) v329 v318
  v330
def s92 (v265 : BitVec 1) (v288 : F .f32) (v300 : F .f32) (v303 : F .f32) (v311 : F .f32) : F .f32 :=
  have v312 : F .f32 := Scalar.select v265 v288 v311
  have v319 : F .f32 := FloatOps.mulf v312 (s86 v300)
  have cst_50 : F .f32 := Scalar.ofBits .f32 0x00000000#32
  have v331 : F .f32 := cst_50
  have v332 : F .f32 := FloatOps.subf v331 v319
  have v333 : F .f32 := Scalar.select (s88 v300 v303) v332 v319
  v333

/-! ## A payload at a lane is its scalar list -/
theorem pay23_lane (v46 : FVec F S1x65536 .f32) (v47 : FVec F S1x65536 .f32) (l : Fin 65536) :
    k0_pay23 v46 v47 (ValueIdx.ix2 0 l) = s23 (v46 (ValueIdx.ix2 0 l)) (v47 (ValueIdx.ix2 0 l)) := rfl
theorem pay24_lane (v7 : FVec F S1x65536 .f32) (v8 : FVec F S1x65536 .f32) (v9 : FVec F S1x65536 .f32) (v10 : FVec F S1x65536 .f32) (l : Fin 65536) :
    k0_pay24 v7 v8 v9 v10 (ValueIdx.ix2 0 l) = s24 (v7 (ValueIdx.ix2 0 l)) (v8 (ValueIdx.ix2 0 l)) (v9 (ValueIdx.ix2 0 l)) (v10 (ValueIdx.ix2 0 l)) := rfl
theorem pay25_lane (v7 : FVec F S1x65536 .f32) (v8 : FVec F S1x65536 .f32) (v9 : FVec F S1x65536 .f32) (v10 : FVec F S1x65536 .f32) (l : Fin 65536) :
    k0_pay25 v7 v8 v9 v10 (ValueIdx.ix2 0 l) = s25 (v7 (ValueIdx.ix2 0 l)) (v8 (ValueIdx.ix2 0 l)) (v9 (ValueIdx.ix2 0 l)) (v10 (ValueIdx.ix2 0 l)) := rfl
theorem pay26_lane (v8 : FVec F S1x65536 .f32) (v9 : FVec F S1x65536 .f32) (l : Fin 65536) :
    k0_pay26 v8 v9 (ValueIdx.ix2 0 l) = s26 (v8 (ValueIdx.ix2 0 l)) (v9 (ValueIdx.ix2 0 l)) := rfl
theorem pay27_lane (v14 : FVec F S1x65536 .f32) (v15 : FVec F S1x65536 .f32) (v16 : FVec F S1x65536 .f32) (l : Fin 65536) :
    k0_pay27 v14 v15 v16 (ValueIdx.ix2 0 l) = s27 (v14 (ValueIdx.ix2 0 l)) (v15 (ValueIdx.ix2 0 l)) (v16 (ValueIdx.ix2 0 l)) := rfl
theorem pay28_lane (v14 : FVec F S1x65536 .f32) (v15 : FVec F S1x65536 .f32) (v16 : FVec F S1x65536 .f32) (l : Fin 65536) :
    k0_pay28 v14 v15 v16 (ValueIdx.ix2 0 l) = s28 (v14 (ValueIdx.ix2 0 l)) (v15 (ValueIdx.ix2 0 l)) (v16 (ValueIdx.ix2 0 l)) := rfl
theorem pay29_lane (v14 : FVec F S1x65536 .f32) (v15 : FVec F S1x65536 .f32) (v16 : FVec F S1x65536 .f32) (l : Fin 65536) :
    k0_pay29 v14 v15 v16 (ValueIdx.ix2 0 l) = s29 (v14 (ValueIdx.ix2 0 l)) (v15 (ValueIdx.ix2 0 l)) (v16 (ValueIdx.ix2 0 l)) := rfl
theorem pay30_lane (v14 : FVec F S1x65536 .f32) (v15 : FVec F S1x65536 .f32) (v16 : FVec F S1x65536 .f32) (l : Fin 65536) :
    k0_pay30 v14 v15 v16 (ValueIdx.ix2 0 l) = s30 (v14 (ValueIdx.ix2 0 l)) (v15 (ValueIdx.ix2 0 l)) (v16 (ValueIdx.ix2 0 l)) := rfl
theorem pay31_lane (v14 : FVec F S1x65536 .f32) (v15 : FVec F S1x65536 .f32) (v16 : FVec F S1x65536 .f32) (l : Fin 65536) :
    k0_pay31 v14 v15 v16 (ValueIdx.ix2 0 l) = s31 (v14 (ValueIdx.ix2 0 l)) (v15 (ValueIdx.ix2 0 l)) (v16 (ValueIdx.ix2 0 l)) := rfl
theorem pay32_lane (v14 : FVec F S1x65536 .f32) (v15 : FVec F S1x65536 .f32) (v16 : FVec F S1x65536 .f32) (l : Fin 65536) :
    k0_pay32 v14 v15 v16 (ValueIdx.ix2 0 l) = s32 (v14 (ValueIdx.ix2 0 l)) (v15 (ValueIdx.ix2 0 l)) (v16 (ValueIdx.ix2 0 l)) := rfl
theorem pay33_lane (v14 : FVec F S1x65536 .f32) (v15 : FVec F S1x65536 .f32) (v16 : FVec F S1x65536 .f32) (l : Fin 65536) :
    k0_pay33 v14 v15 v16 (ValueIdx.ix2 0 l) = s33 (v14 (ValueIdx.ix2 0 l)) (v15 (ValueIdx.ix2 0 l)) (v16 (ValueIdx.ix2 0 l)) := rfl
theorem pay34_lane (v14 : FVec F S1x65536 .f32) (v15 : FVec F S1x65536 .f32) (v16 : FVec F S1x65536 .f32) (l : Fin 65536) :
    k0_pay34 v14 v15 v16 (ValueIdx.ix2 0 l) = s34 (v14 (ValueIdx.ix2 0 l)) (v15 (ValueIdx.ix2 0 l)) (v16 (ValueIdx.ix2 0 l)) := rfl
theorem pay35_lane (v14 : FVec F S1x65536 .f32) (v15 : FVec F S1x65536 .f32) (v16 : FVec F S1x65536 .f32) (l : Fin 65536) :
    k0_pay35 v14 v15 v16 (ValueIdx.ix2 0 l) = s35 (v14 (ValueIdx.ix2 0 l)) (v15 (ValueIdx.ix2 0 l)) (v16 (ValueIdx.ix2 0 l)) := rfl
theorem pay36_lane (v14 : FVec F S1x65536 .f32) (v15 : FVec F S1x65536 .f32) (v16 : FVec F S1x65536 .f32) (l : Fin 65536) :
    k0_pay36 v14 v15 v16 (ValueIdx.ix2 0 l) = s36 (v14 (ValueIdx.ix2 0 l)) (v15 (ValueIdx.ix2 0 l)) (v16 (ValueIdx.ix2 0 l)) := rfl
theorem pay37_lane (v74 : IVec S1x65536 1) (v94 : FVec F S1x65536 .f32) (cst_21 : F .f32) (l : Fin 65536) :
    k0_pay37 v74 v94 cst_21 (ValueIdx.ix2 0 l) = s37 (v74 (ValueIdx.ix2 0 l)) (v94 (ValueIdx.ix2 0 l)) cst_21 := rfl
theorem pay38_lane (v14 : FVec F S1x65536 .f32) (v15 : FVec F S1x65536 .f32) (l : Fin 65536) :
    k0_pay38 v14 v15 (ValueIdx.ix2 0 l) = s38 (v14 (ValueIdx.ix2 0 l)) (v15 (ValueIdx.ix2 0 l)) := rfl
theorem pay39_lane (v14 : FVec F S1x65536 .f32) (v16 : FVec F S1x65536 .f32) (l : Fin 65536) :
    k0_pay39 v14 v16 (ValueIdx.ix2 0 l) = s39 (v14 (ValueIdx.ix2 0 l)) (v16 (ValueIdx.ix2 0 l)) := rfl
theorem pay40_lane (v15 : FVec F S1x65536 .f32) (v16 : FVec F S1x65536 .f32) (l : Fin 65536) :
    k0_pay40 v15 v16 (ValueIdx.ix2 0 l) = s40 (v15 (ValueIdx.ix2 0 l)) (v16 (ValueIdx.ix2 0 l)) := rfl
theorem pay41_lane (v15 : FVec F S1x65536 .f32) (v16 : FVec F S1x65536 .f32) (l : Fin 65536) :
    k0_pay41 v15 v16 (ValueIdx.ix2 0 l) = s41 (v15 (ValueIdx.ix2 0 l)) (v16 (ValueIdx.ix2 0 l)) := rfl
theorem pay42_lane (v14 : FVec F S1x65536 .f32) (v16 : FVec F S1x65536 .f32) (l : Fin 65536) :
    k0_pay42 v14 v16 (ValueIdx.ix2 0 l) = s42 (v14 (ValueIdx.ix2 0 l)) (v16 (ValueIdx.ix2 0 l)) := rfl
theorem pay43_lane (v14 : FVec F S1x65536 .f32) (v15 : FVec F S1x65536 .f32) (l : Fin 65536) :
    k0_pay43 v14 v15 (ValueIdx.ix2 0 l) = s43 (v14 (ValueIdx.ix2 0 l)) (v15 (ValueIdx.ix2 0 l)) := rfl
theorem pay44_lane (v15 : FVec F S1x65536 .f32) (v16 : FVec F S1x65536 .f32) (v91 : FVec F S1x65536 .f32) (l : Fin 65536) :
    k0_pay44 v15 v16 v91 (ValueIdx.ix2 0 l) = s44 (v15 (ValueIdx.ix2 0 l)) (v16 (ValueIdx.ix2 0 l)) (v91 (ValueIdx.ix2 0 l)) := rfl
theorem pay45_lane (v14 : FVec F S1x65536 .f32) (v15 : FVec F S1x65536 .f32) (v16 : FVec F S1x65536 .f32) (v86 : FVec F S1x65536 .f32) (v91 : FVec F S1x65536 .f32) (l : Fin 65536) :
    k0_pay45 v14 v15 v16 v86 v91 (ValueIdx.ix2 0 l) = s45 (v14 (ValueIdx.ix2 0 l)) (v15 (ValueIdx.ix2 0 l)) (v16 (ValueIdx.ix2 0 l)) (v86 (ValueIdx.ix2 0 l)) (v91 (ValueIdx.ix2 0 l)) := rfl
theorem pay46_lane (v14 : FVec F S1x65536 .f32) (v15 : FVec F S1x65536 .f32) (v16 : FVec F S1x65536 .f32) (v86 : FVec F S1x65536 .f32) (v91 : FVec F S1x65536 .f32) (l : Fin 65536) :
    k0_pay46 v14 v15 v16 v86 v91 (ValueIdx.ix2 0 l) = s46 (v14 (ValueIdx.ix2 0 l)) (v15 (ValueIdx.ix2 0 l)) (v16 (ValueIdx.ix2 0 l)) (v86 (ValueIdx.ix2 0 l)) (v91 (ValueIdx.ix2 0 l)) := rfl
theorem pay47_lane (v14 : FVec F S1x65536 .f32) (v15 : FVec F S1x65536 .f32) (v16 : FVec F S1x65536 .f32) (v86 : FVec F S1x65536 .f32) (v91 : FVec F S1x65536 .f32) (l : Fin 65536) :
    k0_pay47 v14 v15 v16 v86 v91 (ValueIdx.ix2 0 l) = s47 (v14 (ValueIdx.ix2 0 l)) (v15 (ValueIdx.ix2 0 l)) (v16 (ValueIdx.ix2 0 l)) (v86 (ValueIdx.ix2 0 l)) (v91 (ValueIdx.ix2 0 l)) := rfl
theorem pay48_lane (v14 : FVec F S1x65536 .f32) (v16 : FVec F S1x65536 .f32) (v91 : FVec F S1x65536 .f32) (l : Fin 65536) :
    k0_pay48 v14 v16 v91 (ValueIdx.ix2 0 l) = s48 (v14 (ValueIdx.ix2 0 l)) (v16 (ValueIdx.ix2 0 l)) (v91 (ValueIdx.ix2 0 l)) := rfl
theorem pay49_lane (v14 : FVec F S1x65536 .f32) (v15 : FVec F S1x65536 .f32) (v16 : FVec F S1x65536 .f32) (v86 : FVec F S1x65536 .f32) (v91 : FVec F S1x65536 .f32) (l : Fin 65536) :
    k0_pay49 v14 v15 v16 v86 v91 (ValueIdx.ix2 0 l) = s49 (v14 (ValueIdx.ix2 0 l)) (v15 (ValueIdx.ix2 0 l)) (v16 (ValueIdx.ix2 0 l)) (v86 (ValueIdx.ix2 0 l)) (v91 (ValueIdx.ix2 0 l)) := rfl
theorem pay50_lane (v14 : FVec F S1x65536 .f32) (v15 : FVec F S1x65536 .f32) (v16 : FVec F S1x65536 .f32) (v86 : FVec F S1x65536 .f32) (v91 : FVec F S1x65536 .f32) (l : Fin 65536) :
    k0_pay50 v14 v15 v16 v86 v91 (ValueIdx.ix2 0 l) = s50 (v14 (ValueIdx.ix2 0 l)) (v15 (ValueIdx.ix2 0 l)) (v16 (ValueIdx.ix2 0 l)) (v86 (ValueIdx.ix2 0 l)) (v91 (ValueIdx.ix2 0 l)) := rfl
theorem pay51_lane (v14 : FVec F S1x65536 .f32) (v15 : FVec F S1x65536 .f32) (v16 : FVec F S1x65536 .f32) (v86 : FVec F S1x65536 .f32) (v91 : FVec F S1x65536 .f32) (l : Fin 65536) :
    k0_pay51 v14 v15 v16 v86 v91 (ValueIdx.ix2 0 l) = s51 (v14 (ValueIdx.ix2 0 l)) (v15 (ValueIdx.ix2 0 l)) (v16 (ValueIdx.ix2 0 l)) (v86 (ValueIdx.ix2 0 l)) (v91 (ValueIdx.ix2 0 l)) := rfl
theorem pay52_lane (v14 : FVec F S1x65536 .f32) (v15 : FVec F S1x65536 .f32) (v91 : FVec F S1x65536 .f32) (l : Fin 65536) :
    k0_pay52 v14 v15 v91 (ValueIdx.ix2 0 l) = s52 (v14 (ValueIdx.ix2 0 l)) (v15 (ValueIdx.ix2 0 l)) (v91 (ValueIdx.ix2 0 l)) := rfl
theorem pay53_lane (v145 : FVec F S1x65536 .f32) (cst_30 : F .f32) (l : Fin 65536) :
    k0_pay53 v145 cst_30 (ValueIdx.ix2 0 l) = s53 (v145 (ValueIdx.ix2 0 l)) cst_30 := rfl
theorem pay54_lane (v11 : FVec F S1x65536 .f32) (v12 : FVec F S1x65536 .f32) (v13 : FVec F S1x65536 .f32) (v15 : FVec F S1x65536 .f32) (v16 : FVec F S1x65536 .f32) (v91 : FVec F S1x65536 .f32) (v96 : FVec F S1x65536 .f32) (v97 : FVec F S1x65536 .f32) (v98 : FVec F S1x65536 .f32) (v104 : FVec F S1x65536 .f32) (l : Fin 65536) :
    k0_pay54 v11 v12 v13 v15 v16 v91 v96 v97 v98 v104 (ValueIdx.ix2 0 l) = s54 (v11 (ValueIdx.ix2 0 l)) (v12 (ValueIdx.ix2 0 l)) (v13 (ValueIdx.ix2 0 l)) (v15 (ValueIdx.ix2 0 l)) (v16 (ValueIdx.ix2 0 l)) (v91 (ValueIdx.ix2 0 l)) (v96 (ValueIdx.ix2 0 l)) (v97 (ValueIdx.ix2 0 l)) (v98 (ValueIdx.ix2 0 l)) (v104 (ValueIdx.ix2 0 l)) := rfl
theorem pay55_lane (v11 : FVec F S1x65536 .f32) (v12 : FVec F S1x65536 .f32) (v13 : FVec F S1x65536 .f32) (v14 : FVec F S1x65536 .f32) (v16 : FVec F S1x65536 .f32) (v91 : FVec F S1x65536 .f32) (v96 : FVec F S1x65536 .f32) (v97 : FVec F S1x65536 .f32) (v99 : FVec F S1x65536 .f32) (v109 : FVec F S1x65536 .f32) (l : Fin 65536) :
    k0_pay55 v11 v12 v13 v14 v16 v91 v96 v97 v99 v109 (ValueIdx.ix2 0 l) = s55 (v11 (ValueIdx.ix2 0 l)) (v12 (ValueIdx.ix2 0 l)) (v13 (ValueIdx.ix2 0 l)) (v14 (ValueIdx.ix2 0 l)) (v16 (ValueIdx.ix2 0 l)) (v91 (ValueIdx.ix2 0 l)) (v96 (ValueIdx.ix2 0 l)) (v97 (ValueIdx.ix2 0 l)) (v99 (ValueIdx.ix2 0 l)) (v109 (ValueIdx.ix2 0 l)) := rfl
theorem pay56_lane (v11 : FVec F S1x65536 .f32) (v12 : FVec F S1x65536 .f32) (v13 : FVec F S1x65536 .f32) (v14 : FVec F S1x65536 .f32) (v15 : FVec F S1x65536 .f32) (v91 : FVec F S1x65536 .f32) (v96 : FVec F S1x65536 .f32) (v98 : FVec F S1x65536 .f32) (v99 : FVec F S1x65536 .f32) (v114 : FVec F S1x65536 .f32) (l : Fin 65536) :
    k0_pay56 v11 v12 v13 v14 v15 v91 v96 v98 v99 v114 (ValueIdx.ix2 0 l) = s56 (v11 (ValueIdx.ix2 0 l)) (v12 (ValueIdx.ix2 0 l)) (v13 (ValueIdx.ix2 0 l)) (v14 (ValueIdx.ix2 0 l)) (v15 (ValueIdx.ix2 0 l)) (v91 (ValueIdx.ix2 0 l)) (v96 (ValueIdx.ix2 0 l)) (v98 (ValueIdx.ix2 0 l)) (v99 (ValueIdx.ix2 0 l)) (v114 (ValueIdx.ix2 0 l)) := rfl
theorem pay57_lane (v4 : FVec F S1x65536 .f32) (v5 : FVec F S1x65536 .f32) (v117 : FVec F S1x65536 .f32) (v122 : FVec F S1x65536 .f32) (l : Fin 65536) :
    k0_pay57 v4 v5 v117 v122 (ValueIdx.ix2 0 l) = s57 (v4 (ValueIdx.ix2 0 l)) (v5 (ValueIdx.ix2 0 l)) (v117 (ValueIdx.ix2 0 l)) (v122 (ValueIdx.ix2 0 l)) := rfl
theorem pay58_lane (v6 : FVec F S1x65536 .f32) (v125 : FVec F S1x65536 .f32) (l : Fin 65536) :
    k0_pay58 v6 v125 (ValueIdx.ix2 0 l) = s58 (v6 (ValueIdx.ix2 0 l)) (v125 (ValueIdx.ix2 0 l)) := rfl
theorem pay59_lane (v185 : FVec F S1x65536 .f32) (v198 : FVec F S1x65536 .f32) (v199 : FVec F S1x65536 .f32) (l : Fin 65536) :
    k0_pay59 v185 v198 v199 (ValueIdx.ix2 0 l) = s59 (v185 (ValueIdx.ix2 0 l)) (v198 (ValueIdx.ix2 0 l)) (v199 (ValueIdx.ix2 0 l)) := rfl
theorem pay60_lane (v4 : FVec F S1x65536 .f32) (v5 : FVec F S1x65536 .f32) (v6 : FVec F S1x65536 .f32) (v128 : FVec F S1x65536 .f32) (v131 : FVec F S1x65536 .f32) (v136 : FVec F S1x65536 .f32) (v190 : FVec F S1x65536 .f32) (l : Fin 65536) :
    k0_pay60 v4 v5 v6 v128 v131 v136 v190 (ValueIdx.ix2 0 l) = s60 (v4 (ValueIdx.ix2 0 l)) (v5 (ValueIdx.ix2 0 l)) (v6 (ValueIdx.ix2 0 l)) (v128 (ValueIdx.ix2 0 l)) (v131 (ValueIdx.ix2 0 l)) (v136 (ValueIdx.ix2 0 l)) (v190 (ValueIdx.ix2 0 l)) := rfl
theorem pay61_lane (v4 : FVec F S1x65536 .f32) (v5 : FVec F S1x65536 .f32) (v6 : FVec F S1x65536 .f32) (v141 : FVec F S1x65536 .f32) (v144 : FVec F S1x65536 .f32) (v147 : FVec F S1x65536 .f32) (v195 : FVec F S1x65536 .f32) (l : Fin 65536) :
    k0_pay61 v4 v5 v6 v141 v144 v147 v195 (ValueIdx.ix2 0 l) = s61 (v4 (ValueIdx.ix2 0 l)) (v5 (ValueIdx.ix2 0 l)) (v6 (ValueIdx.ix2 0 l)) (v141 (ValueIdx.ix2 0 l)) (v144 (ValueIdx.ix2 0 l)) (v147 (ValueIdx.ix2 0 l)) (v195 (ValueIdx.ix2 0 l)) := rfl
theorem pay62_lane (v23 : FVec F S1x65536 .f32) (v38 : FVec F S1x65536 .f32) (v55 : FVec F S1x65536 .f32) (v117 : FVec F S1x65536 .f32) (v122 : FVec F S1x65536 .f32) (v125 : FVec F S1x65536 .f32) (l : Fin 65536) :
    k0_pay62 v23 v38 v55 v117 v122 v125 (ValueIdx.ix2 0 l) = s62 (v23 (ValueIdx.ix2 0 l)) (v38 (ValueIdx.ix2 0 l)) (v55 (ValueIdx.ix2 0 l)) (v117 (ValueIdx.ix2 0 l)) (v122 (ValueIdx.ix2 0 l)) (v125 (ValueIdx.ix2 0 l)) := rfl
theorem pay63_lane (v28 : FVec F S1x65536 .f32) (v45 : FVec F S1x65536 .f32) (v60 : FVec F S1x65536 .f32) (v117 : FVec F S1x65536 .f32) (v122 : FVec F S1x65536 .f32) (v125 : FVec F S1x65536 .f32) (l : Fin 65536) :
    k0_pay63 v28 v45 v60 v117 v122 v125 (ValueIdx.ix2 0 l) = s63 (v28 (ValueIdx.ix2 0 l)) (v45 (ValueIdx.ix2 0 l)) (v60 (ValueIdx.ix2 0 l)) (v117 (ValueIdx.ix2 0 l)) (v122 (ValueIdx.ix2 0 l)) (v125 (ValueIdx.ix2 0 l)) := rfl
theorem pay64_lane (v33 : FVec F S1x65536 .f32) (v50 : FVec F S1x65536 .f32) (v67 : FVec F S1x65536 .f32) (v117 : FVec F S1x65536 .f32) (v122 : FVec F S1x65536 .f32) (v125 : FVec F S1x65536 .f32) (l : Fin 65536) :
    k0_pay64 v33 v50 v67 v117 v122 v125 (ValueIdx.ix2 0 l) = s64 (v33 (ValueIdx.ix2 0 l)) (v50 (ValueIdx.ix2 0 l)) (v67 (ValueIdx.ix2 0 l)) (v117 (ValueIdx.ix2 0 l)) (v122 (ValueIdx.ix2 0 l)) (v125 (ValueIdx.ix2 0 l)) := rfl
theorem pay65_lane (v23 : FVec F S1x65536 .f32) (v38 : FVec F S1x65536 .f32) (v55 : FVec F S1x65536 .f32) (v128 : FVec F S1x65536 .f32) (v131 : FVec F S1x65536 .f32) (v136 : FVec F S1x65536 .f32) (l : Fin 65536) :
    k0_pay65 v23 v38 v55 v128 v131 v136 (ValueIdx.ix2 0 l) = s65 (v23 (ValueIdx.ix2 0 l)) (v38 (ValueIdx.ix2 0 l)) (v55 (ValueIdx.ix2 0 l)) (v128 (ValueIdx.ix2 0 l)) (v131 (ValueIdx.ix2 0 l)) (v136 (ValueIdx.ix2 0 l)) := rfl
theorem pay66_lane (v28 : FVec F S1x65536 .f32) (v45 : FVec F S1x65536 .f32) (v60 : FVec F S1x65536 .f32) (v128 : FVec F S1x65536 .f32) (v131 : FVec F S1x65536 .f32) (v136 : FVec F S1x65536 .f32) (l : Fin 65536) :
    k0_pay66 v28 v45 v60 v128 v131 v136 (ValueIdx.ix2 0 l) = s66 (v28 (ValueIdx.ix2 0 l)) (v45 (ValueIdx.ix2 0 l)) (v60 (ValueIdx.ix2 0 l)) (v128 (ValueIdx.ix2 0 l)) (v131 (ValueIdx.ix2 0 l)) (v136 (ValueIdx.ix2 0 l)) := rfl
theorem pay67_lane (v33 : FVec F S1x65536 .f32) (v50 : FVec F S1x65536 .f32) (v67 : FVec F S1x65536 .f32) (v128 : FVec F S1x65536 .f32) (v131 : FVec F S1x65536 .f32) (v136 : FVec F S1x65536 .f32) (l : Fin 65536) :
    k0_pay67 v33 v50 v67 v128 v131 v136 (ValueIdx.ix2 0 l) = s67 (v33 (ValueIdx.ix2 0 l)) (v50 (ValueIdx.ix2 0 l)) (v67 (ValueIdx.ix2 0 l)) (v128 (ValueIdx.ix2 0 l)) (v131 (ValueIdx.ix2 0 l)) (v136 (ValueIdx.ix2 0 l)) := rfl
theorem pay68_lane (v23 : FVec F S1x65536 .f32) (v38 : FVec F S1x65536 .f32) (v55 : FVec F S1x65536 .f32) (v141 : FVec F S1x65536 .f32) (v144 : FVec F S1x65536 .f32) (v147 : FVec F S1x65536 .f32) (l : Fin 65536) :
    k0_pay68 v23 v38 v55 v141 v144 v147 (ValueIdx.ix2 0 l) = s68 (v23 (ValueIdx.ix2 0 l)) (v38 (ValueIdx.ix2 0 l)) (v55 (ValueIdx.ix2 0 l)) (v141 (ValueIdx.ix2 0 l)) (v144 (ValueIdx.ix2 0 l)) (v147 (ValueIdx.ix2 0 l)) := rfl
theorem pay69_lane (v28 : FVec F S1x65536 .f32) (v45 : FVec F S1x65536 .f32) (v60 : FVec F S1x65536 .f32) (v141 : FVec F S1x65536 .f32) (v144 : FVec F S1x65536 .f32) (v147 : FVec F S1x65536 .f32) (l : Fin 65536) :
    k0_pay69 v28 v45 v60 v141 v144 v147 (ValueIdx.ix2 0 l) = s69 (v28 (ValueIdx.ix2 0 l)) (v45 (ValueIdx.ix2 0 l)) (v60 (ValueIdx.ix2 0 l)) (v141 (ValueIdx.ix2 0 l)) (v144 (ValueIdx.ix2 0 l)) (v147 (ValueIdx.ix2 0 l)) := rfl
theorem pay70_lane (v33 : FVec F S1x65536 .f32) (v50 : FVec F S1x65536 .f32) (v67 : FVec F S1x65536 .f32) (v141 : FVec F S1x65536 .f32) (v144 : FVec F S1x65536 .f32) (v147 : FVec F S1x65536 .f32) (l : Fin 65536) :
    k0_pay70 v33 v50 v67 v141 v144 v147 (ValueIdx.ix2 0 l) = s70 (v33 (ValueIdx.ix2 0 l)) (v50 (ValueIdx.ix2 0 l)) (v67 (ValueIdx.ix2 0 l)) (v141 (ValueIdx.ix2 0 l)) (v144 (ValueIdx.ix2 0 l)) (v147 (ValueIdx.ix2 0 l)) := rfl
theorem pay71_lane (v258 : FVec F S1x65536 .f32) (cst_37 : F .f32) (l : Fin 65536) :
    k0_pay71 v258 cst_37 (ValueIdx.ix2 0 l) = s71 (v258 (ValueIdx.ix2 0 l)) cst_37 := rfl
theorem pay72_lane (v218 : FVec F S1x65536 .f32) (v238 : FVec F S1x65536 .f32) (l : Fin 65536) :
    k0_pay72 v218 v238 (ValueIdx.ix2 0 l) = s72 (v218 (ValueIdx.ix2 0 l)) (v238 (ValueIdx.ix2 0 l)) := rfl
theorem pay73_lane (v218 : FVec F S1x65536 .f32) (v238 : FVec F S1x65536 .f32) (v258 : FVec F S1x65536 .f32) (cst_37 : F .f32) (l : Fin 65536) :
    k0_pay73 v218 v238 v258 cst_37 (ValueIdx.ix2 0 l) = s73 (v218 (ValueIdx.ix2 0 l)) (v238 (ValueIdx.ix2 0 l)) (v258 (ValueIdx.ix2 0 l)) cst_37 := rfl
theorem pay74_lane (v218 : FVec F S1x65536 .f32) (v238 : FVec F S1x65536 .f32) (v258 : FVec F S1x65536 .f32) (cst_37 : F .f32) (l : Fin 65536) :
    k0_pay74 v218 v238 v258 cst_37 (ValueIdx.ix2 0 l) = s74 (v218 (ValueIdx.ix2 0 l)) (v238 (ValueIdx.ix2 0 l)) (v258 (ValueIdx.ix2 0 l)) cst_37 := rfl
theorem pay75_lane (v218 : FVec F S1x65536 .f32) (v238 : FVec F S1x65536 .f32) (v258 : FVec F S1x65536 .f32) (cst_37 : F .f32) (l : Fin 65536) :
    k0_pay75 v218 v238 v258 cst_37 (ValueIdx.ix2 0 l) = s75 (v218 (ValueIdx.ix2 0 l)) (v238 (ValueIdx.ix2 0 l)) (v258 (ValueIdx.ix2 0 l)) cst_37 := rfl
theorem pay76_lane (v218 : FVec F S1x65536 .f32) (v238 : FVec F S1x65536 .f32) (v258 : FVec F S1x65536 .f32) (l : Fin 65536) :
    k0_pay76 v218 v238 v258 (ValueIdx.ix2 0 l) = s76 (v218 (ValueIdx.ix2 0 l)) (v238 (ValueIdx.ix2 0 l)) (v258 (ValueIdx.ix2 0 l)) := rfl
theorem pay77_lane (v218 : FVec F S1x65536 .f32) (v238 : FVec F S1x65536 .f32) (v258 : FVec F S1x65536 .f32) (l : Fin 65536) :
    k0_pay77 v218 v238 v258 (ValueIdx.ix2 0 l) = s77 (v218 (ValueIdx.ix2 0 l)) (v238 (ValueIdx.ix2 0 l)) (v258 (ValueIdx.ix2 0 l)) := rfl
theorem pay78_lane (v218 : FVec F S1x65536 .f32) (v238 : FVec F S1x65536 .f32) (v258 : FVec F S1x65536 .f32) (l : Fin 65536) :
    k0_pay78 v218 v238 v258 (ValueIdx.ix2 0 l) = s78 (v218 (ValueIdx.ix2 0 l)) (v238 (ValueIdx.ix2 0 l)) (v258 (ValueIdx.ix2 0 l)) := rfl
theorem pay79_lane (v218 : FVec F S1x65536 .f32) (v238 : FVec F S1x65536 .f32) (v258 : FVec F S1x65536 .f32) (l : Fin 65536) :
    k0_pay79 v218 v238 v258 (ValueIdx.ix2 0 l) = s79 (v218 (ValueIdx.ix2 0 l)) (v238 (ValueIdx.ix2 0 l)) (v258 (ValueIdx.ix2 0 l)) := rfl
theorem pay80_lane (v228 : FVec F S1x65536 .f32) (v248 : FVec F S1x65536 .f32) (l : Fin 65536) :
    k0_pay80 v228 v248 (ValueIdx.ix2 0 l) = s80 (v228 (ValueIdx.ix2 0 l)) (v248 (ValueIdx.ix2 0 l)) := rfl
theorem pay81_lane (v218 : FVec F S1x65536 .f32) (v238 : FVec F S1x65536 .f32) (v258 : FVec F S1x65536 .f32) (cst_37 : F .f32) (l : Fin 65536) :
    k0_pay81 v218 v238 v258 cst_37 (ValueIdx.ix2 0 l) = s81 (v218 (ValueIdx.ix2 0 l)) (v238 (ValueIdx.ix2 0 l)) (v258 (ValueIdx.ix2 0 l)) cst_37 := rfl
theorem pay82_lane (v218 : FVec F S1x65536 .f32) (v223 : FVec F S1x65536 .f32) (v228 : FVec F S1x65536 .f32) (v233 : FVec F S1x65536 .f32) (v238 : FVec F S1x65536 .f32) (v243 : FVec F S1x65536 .f32) (v248 : FVec F S1x65536 .f32) (v253 : FVec F S1x65536 .f32) (v258 : FVec F S1x65536 .f32) (cst_37 : F .f32) (l : Fin 65536) :
    k0_pay82 v218 v223 v228 v233 v238 v243 v248 v253 v258 cst_37 (ValueIdx.ix2 0 l) = s82 (v218 (ValueIdx.ix2 0 l)) (v223 (ValueIdx.ix2 0 l)) (v228 (ValueIdx.ix2 0 l)) (v233 (ValueIdx.ix2 0 l)) (v238 (ValueIdx.ix2 0 l)) (v243 (ValueIdx.ix2 0 l)) (v248 (ValueIdx.ix2 0 l)) (v253 (ValueIdx.ix2 0 l)) (v258 (ValueIdx.ix2 0 l)) cst_37 := rfl
theorem pay83_lane (v218 : FVec F S1x65536 .f32) (v223 : FVec F S1x65536 .f32) (v228 : FVec F S1x65536 .f32) (v233 : FVec F S1x65536 .f32) (v238 : FVec F S1x65536 .f32) (v243 : FVec F S1x65536 .f32) (v248 : FVec F S1x65536 .f32) (v253 : FVec F S1x65536 .f32) (v258 : FVec F S1x65536 .f32) (cst_37 : F .f32) (l : Fin 65536) :
    k0_pay83 v218 v223 v228 v233 v238 v243 v248 v253 v258 cst_37 (ValueIdx.ix2 0 l) = s83 (v218 (ValueIdx.ix2 0 l)) (v223 (ValueIdx.ix2 0 l)) (v228 (ValueIdx.ix2 0 l)) (v233 (ValueIdx.ix2 0 l)) (v238 (ValueIdx.ix2 0 l)) (v243 (ValueIdx.ix2 0 l)) (v248 (ValueIdx.ix2 0 l)) (v253 (ValueIdx.ix2 0 l)) (v258 (ValueIdx.ix2 0 l)) cst_37 := rfl
theorem pay84_lane (v218 : FVec F S1x65536 .f32) (v223 : FVec F S1x65536 .f32) (v228 : FVec F S1x65536 .f32) (v233 : FVec F S1x65536 .f32) (v238 : FVec F S1x65536 .f32) (v243 : FVec F S1x65536 .f32) (v248 : FVec F S1x65536 .f32) (v253 : FVec F S1x65536 .f32) (v258 : FVec F S1x65536 .f32) (cst_37 : F .f32) (l : Fin 65536) :
    k0_pay84 v218 v223 v228 v233 v238 v243 v248 v253 v258 cst_37 (ValueIdx.ix2 0 l) = s84 (v218 (ValueIdx.ix2 0 l)) (v223 (ValueIdx.ix2 0 l)) (v228 (ValueIdx.ix2 0 l)) (v233 (ValueIdx.ix2 0 l)) (v238 (ValueIdx.ix2 0 l)) (v243 (ValueIdx.ix2 0 l)) (v248 (ValueIdx.ix2 0 l)) (v253 (ValueIdx.ix2 0 l)) (v258 (ValueIdx.ix2 0 l)) cst_37 := rfl
theorem pay85_lane (v218 : FVec F S1x65536 .f32) (v223 : FVec F S1x65536 .f32) (v233 : FVec F S1x65536 .f32) (v238 : FVec F S1x65536 .f32) (v243 : FVec F S1x65536 .f32) (v253 : FVec F S1x65536 .f32) (v258 : FVec F S1x65536 .f32) (cst_37 : F .f32) (l : Fin 65536) :
    k0_pay85 v218 v223 v233 v238 v243 v253 v258 cst_37 (ValueIdx.ix2 0 l) = s85 (v218 (ValueIdx.ix2 0 l)) (v223 (ValueIdx.ix2 0 l)) (v233 (ValueIdx.ix2 0 l)) (v238 (ValueIdx.ix2 0 l)) (v243 (ValueIdx.ix2 0 l)) (v253 (ValueIdx.ix2 0 l)) (v258 (ValueIdx.ix2 0 l)) cst_37 := rfl
theorem pay86_lane (v300 : FVec F S1x65536 .f32) (l : Fin 65536) :
    k0_pay86 v300 (ValueIdx.ix2 0 l) = s86 (v300 (ValueIdx.ix2 0 l)) := rfl
theorem pay87_lane (v300 : FVec F S1x65536 .f32) (v303 : FVec F S1x65536 .f32) (l : Fin 65536) :
    k0_pay87 v300 v303 (ValueIdx.ix2 0 l) = s87 (v300 (ValueIdx.ix2 0 l)) (v303 (ValueIdx.ix2 0 l)) := rfl
theorem pay88_lane (v300 : FVec F S1x65536 .f32) (v303 : FVec F S1x65536 .f32) (l : Fin 65536) :
    k0_pay88 v300 v303 (ValueIdx.ix2 0 l) = s88 (v300 (ValueIdx.ix2 0 l)) (v303 (ValueIdx.ix2 0 l)) := rfl
theorem pay89_lane (v300 : FVec F S1x65536 .f32) (v303 : FVec F S1x65536 .f32) (l : Fin 65536) :
    k0_pay89 v300 v303 (ValueIdx.ix2 0 l) = s89 (v300 (ValueIdx.ix2 0 l)) (v303 (ValueIdx.ix2 0 l)) := rfl
theorem pay90_lane (v300 : FVec F S1x65536 .f32) (v303 : FVec F S1x65536 .f32) (v306 : FVec F S1x65536 .f32) (l : Fin 65536) :
    k0_pay90 v300 v303 v306 (ValueIdx.ix2 0 l) = s90 (v300 (ValueIdx.ix2 0 l)) (v303 (ValueIdx.ix2 0 l)) (v306 (ValueIdx.ix2 0 l)) := rfl
theorem pay91_lane (v300 : FVec F S1x65536 .f32) (v303 : FVec F S1x65536 .f32) (v309 : FVec F S1x65536 .f32) (l : Fin 65536) :
    k0_pay91 v300 v303 v309 (ValueIdx.ix2 0 l) = s91 (v300 (ValueIdx.ix2 0 l)) (v303 (ValueIdx.ix2 0 l)) (v309 (ValueIdx.ix2 0 l)) := rfl
theorem pay92_lane (v265 : IVec S1x65536 1) (v288 : FVec F S1x65536 .f32) (v300 : FVec F S1x65536 .f32) (v303 : FVec F S1x65536 .f32) (v311 : FVec F S1x65536 .f32) (l : Fin 65536) :
    k0_pay92 v265 v288 v300 v303 v311 (ValueIdx.ix2 0 l) = s92 (v265 (ValueIdx.ix2 0 l)) (v288 (ValueIdx.ix2 0 l)) (v300 (ValueIdx.ix2 0 l)) (v303 (ValueIdx.ix2 0 l)) (v311 (ValueIdx.ix2 0 l)) := rfl

/-! ## The wiring over scalars -/
def sv4 (a : Fin 7 → F .f32) (b : Fin 6 → F .f32) : F .f32 := s3 a
def sv5 (a : Fin 7 → F .f32) (b : Fin 6 → F .f32) : F .f32 := s4 a
def sv6 (a : Fin 7 → F .f32) (b : Fin 6 → F .f32) : F .f32 := s5 a
def sv7 (a : Fin 7 → F .f32) (b : Fin 6 → F .f32) : F .f32 := s6 a
def sv8 (a : Fin 7 → F .f32) (b : Fin 6 → F .f32) : F .f32 := s7 a
def sv9 (a : Fin 7 → F .f32) (b : Fin 6 → F .f32) : F .f32 := s8 a
def sv10 (a : Fin 7 → F .f32) (b : Fin 6 → F .f32) : F .f32 := s9 a
def sv11 (a : Fin 7 → F .f32) (b : Fin 6 → F .f32) : F .f32 := s10 b
def sv12 (a : Fin 7 → F .f32) (b : Fin 6 → F .f32) : F .f32 := s11 b
def sv13 (a : Fin 7 → F .f32) (b : Fin 6 → F .f32) : F .f32 := s12 b
def sv14 (a : Fin 7 → F .f32) (b : Fin 6 → F .f32) : F .f32 := s13 b
def sv15 (a : Fin 7 → F .f32) (b : Fin 6 → F .f32) : F .f32 := s14 b
def sv16 (a : Fin 7 → F .f32) (b : Fin 6 → F .f32) : F .f32 := s15 b
def sv23 (a : Fin 7 → F .f32) (b : Fin 6 → F .f32) : F .f32 := s16 a
def sv28 (a : Fin 7 → F .f32) (b : Fin 6 → F .f32) : F .f32 := s17 a
def sv33 (a : Fin 7 → F .f32) (b : Fin 6 → F .f32) : F .f32 := s18 a
def sv38 (a : Fin 7 → F .f32) (b : Fin 6 → F .f32) : F .f32 := s19 a
def sv45 (a : Fin 7 → F .f32) (b : Fin 6 → F .f32) : F .f32 := s20 a
def sv46 (a : Fin 7 → F .f32) (b : Fin 6 → F .f32) : F .f32 := s21 a
def sv47 (a : Fin 7 → F .f32) (b : Fin 6 → F .f32) : F .f32 := s22 a
def sv50 (a : Fin 7 → F .f32) (b : Fin 6 → F .f32) : F .f32 := s23 (sv46 a b) (sv47 a b)
def sv55 (a : Fin 7 → F .f32) (b : Fin 6 → F .f32) : F .f32 := s24 (sv7 a b) (sv8 a b) (sv9 a b) (sv10 a b)
def sv60 (a : Fin 7 → F .f32) (b : Fin 6 → F .f32) : F .f32 := s25 (sv7 a b) (sv8 a b) (sv9 a b) (sv10 a b)
def sv67 (a : Fin 7 → F .f32) (b : Fin 6 → F .f32) : F .f32 := s26 (sv8 a b) (sv9 a b)
def sv74 (a : Fin 7 → F .f32) (b : Fin 6 → F .f32) : BitVec 1 := s28 (sv14 a b) (sv15 a b) (sv16 a b)
def sv86 (a : Fin 7 → F .f32) (b : Fin 6 → F .f32) : F .f32 := s34 (sv14 a b) (sv15 a b) (sv16 a b)
def sv91 (a : Fin 7 → F .f32) (b : Fin 6 → F .f32) : F .f32 := s35 (sv14 a b) (sv15 a b) (sv16 a b)
def sv94 (a : Fin 7 → F .f32) (b : Fin 6 → F .f32) : F .f32 := s36 (sv14 a b) (sv15 a b) (sv16 a b)
def sv96 (a : Fin 7 → F .f32) (b : Fin 6 → F .f32) : F .f32 := s37 (sv74 a b) (sv94 a b) (cst_21 (F := F))
def sv97 (a : Fin 7 → F .f32) (b : Fin 6 → F .f32) : F .f32 := s38 (sv14 a b) (sv15 a b)
def sv98 (a : Fin 7 → F .f32) (b : Fin 6 → F .f32) : F .f32 := s39 (sv14 a b) (sv16 a b)
def sv99 (a : Fin 7 → F .f32) (b : Fin 6 → F .f32) : F .f32 := s40 (sv15 a b) (sv16 a b)
def sv104 (a : Fin 7 → F .f32) (b : Fin 6 → F .f32) : F .f32 := s41 (sv15 a b) (sv16 a b)
def sv109 (a : Fin 7 → F .f32) (b : Fin 6 → F .f32) : F .f32 := s42 (sv14 a b) (sv16 a b)
def sv114 (a : Fin 7 → F .f32) (b : Fin 6 → F .f32) : F .f32 := s43 (sv14 a b) (sv15 a b)
def sv117 (a : Fin 7 → F .f32) (b : Fin 6 → F .f32) : F .f32 := s44 (sv15 a b) (sv16 a b) (sv91 a b)
def sv122 (a : Fin 7 → F .f32) (b : Fin 6 → F .f32) : F .f32 := s45 (sv14 a b) (sv15 a b) (sv16 a b) (sv86 a b) (sv91 a b)
def sv125 (a : Fin 7 → F .f32) (b : Fin 6 → F .f32) : F .f32 := s46 (sv14 a b) (sv15 a b) (sv16 a b) (sv86 a b) (sv91 a b)
def sv128 (a : Fin 7 → F .f32) (b : Fin 6 → F .f32) : F .f32 := s47 (sv14 a b) (sv15 a b) (sv16 a b) (sv86 a b) (sv91 a b)
def sv131 (a : Fin 7 → F .f32) (b : Fin 6 → F .f32) : F .f32 := s48 (sv14 a b) (sv16 a b) (sv91 a b)
def sv136 (a : Fin 7 → F .f32) (b : Fin 6 → F .f32) : F .f32 := s49 (sv14 a b) (sv15 a b) (sv16 a b) (sv86 a b) (sv91 a b)
def sv141 (a : Fin 7 → F .f32) (b : Fin 6 → F .f32) : F .f32 := s50 (sv14 a b) (sv15 a b) (sv16 a b) (sv86 a b) (sv91 a b)
def sv144 (a : Fin 7 → F .f32) (b : Fin 6 → F .f32) : F .f32 := s51 (sv14 a b) (sv15 a b) (sv16 a b) (sv86 a b) (sv91 a b)
def sv145 (a : Fin 7 → F .f32) (b : Fin 6 → F .f32) : F .f32 := s52 (sv14 a b) (sv15 a b) (sv91 a b)
def sv147 (a : Fin 7 → F .f32) (b : Fin 6 → F .f32) : F .f32 := s53 (sv145 a b) (cst_30 (F := F))
def sv185 (a : Fin 7 → F .f32) (b : Fin 6 → F .f32) : F .f32 := s54 (sv11 a b) (sv12 a b) (sv13 a b) (sv15 a b) (sv16 a b) (sv91 a b) (sv96 a b) (sv97 a b) (sv98 a b) (sv104 a b)
def sv190 (a : Fin 7 → F .f32) (b : Fin 6 → F .f32) : F .f32 := s55 (sv11 a b) (sv12 a b) (sv13 a b) (sv14 a b) (sv16 a b) (sv91 a b) (sv96 a b) (sv97 a b) (sv99 a b) (sv109 a b)
def sv195 (a : Fin 7 → F .f32) (b : Fin 6 → F .f32) : F .f32 := s56 (sv11 a b) (sv12 a b) (sv13 a b) (sv14 a b) (sv15 a b) (sv91 a b) (sv96 a b) (sv98 a b) (sv99 a b) (sv114 a b)
def sv198 (a : Fin 7 → F .f32) (b : Fin 6 → F .f32) : F .f32 := s57 (sv4 a b) (sv5 a b) (sv117 a b) (sv122 a b)
def sv199 (a : Fin 7 → F .f32) (b : Fin 6 → F .f32) : F .f32 := s58 (sv6 a b) (sv125 a b)
def sv211 (a : Fin 7 → F .f32) (b : Fin 6 → F .f32) : F .f32 := s59 (sv185 a b) (sv198 a b) (sv199 a b)
def sv212 (a : Fin 7 → F .f32) (b : Fin 6 → F .f32) : F .f32 := s60 (sv4 a b) (sv5 a b) (sv6 a b) (sv128 a b) (sv131 a b) (sv136 a b) (sv190 a b)
def sv213 (a : Fin 7 → F .f32) (b : Fin 6 → F .f32) : F .f32 := s61 (sv4 a b) (sv5 a b) (sv6 a b) (sv141 a b) (sv144 a b) (sv147 a b) (sv195 a b)
def sv218 (a : Fin 7 → F .f32) (b : Fin 6 → F .f32) : F .f32 := s62 (sv23 a b) (sv38 a b) (sv55 a b) (sv117 a b) (sv122 a b) (sv125 a b)
def sv223 (a : Fin 7 → F .f32) (b : Fin 6 → F .f32) : F .f32 := s63 (sv28 a b) (sv45 a b) (sv60 a b) (sv117 a b) (sv122 a b) (sv125 a b)
def sv228 (a : Fin 7 → F .f32) (b : Fin 6 → F .f32) : F .f32 := s64 (sv33 a b) (sv50 a b) (sv67 a b) (sv117 a b) (sv122 a b) (sv125 a b)
def sv233 (a : Fin 7 → F .f32) (b : Fin 6 → F .f32) : F .f32 := s65 (sv23 a b) (sv38 a b) (sv55 a b) (sv128 a b) (sv131 a b) (sv136 a b)
def sv238 (a : Fin 7 → F .f32) (b : Fin 6 → F .f32) : F .f32 := s66 (sv28 a b) (sv45 a b) (sv60 a b) (sv128 a b) (sv131 a b) (sv136 a b)
def sv243 (a : Fin 7 → F .f32) (b : Fin 6 → F .f32) : F .f32 := s67 (sv33 a b) (sv50 a b) (sv67 a b) (sv128 a b) (sv131 a b) (sv136 a b)
def sv248 (a : Fin 7 → F .f32) (b : Fin 6 → F .f32) : F .f32 := s68 (sv23 a b) (sv38 a b) (sv55 a b) (sv141 a b) (sv144 a b) (sv147 a b)
def sv253 (a : Fin 7 → F .f32) (b : Fin 6 → F .f32) : F .f32 := s69 (sv28 a b) (sv45 a b) (sv60 a b) (sv141 a b) (sv144 a b) (sv147 a b)
def sv258 (a : Fin 7 → F .f32) (b : Fin 6 → F .f32) : F .f32 := s70 (sv33 a b) (sv50 a b) (sv67 a b) (sv141 a b) (sv144 a b) (sv147 a b)
def sv265 (a : Fin 7 → F .f32) (b : Fin 6 → F .f32) : BitVec 1 := s73 (sv218 a b) (sv238 a b) (sv258 a b) (cst_37 (F := F))
def sv288 (a : Fin 7 → F .f32) (b : Fin 6 → F .f32) : F .f32 := s80 (sv228 a b) (sv248 a b)
def sv300 (a : Fin 7 → F .f32) (b : Fin 6 → F .f32) : F .f32 := s81 (sv218 a b) (sv238 a b) (sv258 a b) (cst_37 (F := F))
def sv303 (a : Fin 7 → F .f32) (b : Fin 6 → F .f32) : F .f32 := s82 (sv218 a b) (sv223 a b) (sv228 a b) (sv233 a b) (sv238 a b) (sv243 a b) (sv248 a b) (sv253 a b) (sv258 a b) (cst_37 (F := F))
def sv306 (a : Fin 7 → F .f32) (b : Fin 6 → F .f32) : F .f32 := s83 (sv218 a b) (sv223 a b) (sv228 a b) (sv233 a b) (sv238 a b) (sv243 a b) (sv248 a b) (sv253 a b) (sv258 a b) (cst_37 (F := F))
def sv309 (a : Fin 7 → F .f32) (b : Fin 6 → F .f32) : F .f32 := s84 (sv218 a b) (sv223 a b) (sv228 a b) (sv233 a b) (sv238 a b) (sv243 a b) (sv248 a b) (sv253 a b) (sv258 a b) (cst_37 (F := F))
def sv311 (a : Fin 7 → F .f32) (b : Fin 6 → F .f32) : F .f32 := s85 (sv218 a b) (sv223 a b) (sv233 a b) (sv238 a b) (sv243 a b) (sv253 a b) (sv258 a b) (cst_37 (F := F))
def sv324 (a : Fin 7 → F .f32) (b : Fin 6 → F .f32) : F .f32 := s89 (sv300 a b) (sv303 a b)
def sv327 (a : Fin 7 → F .f32) (b : Fin 6 → F .f32) : F .f32 := s90 (sv300 a b) (sv303 a b) (sv306 a b)
def sv330 (a : Fin 7 → F .f32) (b : Fin 6 → F .f32) : F .f32 := s91 (sv300 a b) (sv303 a b) (sv309 a b)
def sv333 (a : Fin 7 → F .f32) (b : Fin 6 → F .f32) : F .f32 := s92 (sv265 a b) (sv288 a b) (sv300 a b) (sv303 a b) (sv311 a b)

/-- The seven stored values of one lane. -/
def sRows (a : Fin 7 → F .f32) (b : Fin 6 → F .f32) : Fin 7 → F .f32 :=
  ![sv211 a b, sv212 a b, sv213 a b, sv324 a b, sv327 a b, sv330 a b, sv333 a b]

end Cert.KernelIdeal.Hand

end
-- ==== Proof.KerLaneAttr.lean ====
import Mathlib.Tactic.Attr.Register

/-! The rewriting set of the lane lemmas: "this vector read at lane l is that scalar expression of lane l of the two blocks". -/

/-- Lane lemmas: a vector of the kernel body read at one lane. -/
register_simp_attr lane
-- ==== Proof.KerLane.lean ====
import proofs.«161387_j47622597378731_2_alg».proof.Proof.KerScalar
import proofs.«161387_j47622597378731_2_alg».proof.Proof.KerLaneAttr
import Idealize.ShloMosaic.Lib.Pipeline.Value

/-! # The kernel body is lane-wise

Lane l of every vector the body computes is a function of column l of the two blocks it loads, and of nothing else:
the thirteen one-row slices read rows of that column, and every later operation acts on each lane separately (its
scalar list, proved lane by lane by unfolding). Following the wiring from the loads to the seven stored rows gives
entry (r, l) of the stored block as sRows of the two columns at l. Two consequences: the entry does not change when
the blocks change in other columns (so what the body computes from a clipped block's filler past the array's end never reaches a
column inside the array), and at the exact instance it can be compared with the specification one sample at a time. -/

noncomputable section

namespace Cert.KernelIdeal.Hand

open Idealize.ShloMosaic Idealize.SL.Sem Cert.KernelIdeal Cert.KernelIdeal.Gen
open Idealize.ShloMosaic.ValueIdx

variable {F : FTy → Type} [FloatOps F]

/-- Column l of the 7-row block. -/
def col7 (X0 : Vec F S7x65536 .f32) (l : Fin 65536) : Fin 7 → F .f32 := fun k => X0 (ix2 k l)
/-- Column l of the 6-row block. -/
def col6 (X1 : Vec F S6x65536 .f32) (l : Fin 65536) : Fin 6 → F .f32 := fun k => X1 (ix2 k l)

/-- A one-row slice of the 7-row block at row k, read at lane l, is the block at (k, l). -/
theorem slice7_lane {α : Type} (k : Nat) (hk : k < 7) (x : S7x65536.Idx → α) (h : S7x65536.Slices ![k, 0] S1x65536)
    (l : Fin 65536) : extractStridedSlice S1x65536 ![k, 0] x h (ix2 0 l) = x (ix2 ⟨k, hk⟩ l) := by
  unfold extractStridedSlice
  refine congrArg x (funext fun a => Fin.ext ?_)
  match a with
  | ⟨0, _⟩ => exact Nat.add_zero k
  | ⟨1, _⟩ => exact Nat.zero_add _
/-- The same for the 6-row block. -/
theorem slice6_lane {α : Type} (k : Nat) (hk : k < 6) (x : S6x65536.Idx → α) (h : S6x65536.Slices ![k, 0] S1x65536)
    (l : Fin 65536) : extractStridedSlice S1x65536 ![k, 0] x h (ix2 0 l) = x (ix2 ⟨k, hk⟩ l) := by
  unfold extractStridedSlice
  refine congrArg x (funext fun a => Fin.ext ?_)
  match a with
  | ⟨0, _⟩ => exact Nat.add_zero k
  | ⟨1, _⟩ => exact Nat.zero_add _

/-! ## The thirteen row slices (the cast of a block to its own shape is the identity) -/

theorem pay3_lane (v0 : Vec F S7x65536 .f32) (l : Fin 65536) : k0_pay3 v0 (ix2 0 l) = v0 (ix2 0 l) := by
  unfold k0_pay3 k0_pay1; rw [shapeCast_self]; exact slice7_lane 0 (by decide) v0 _ l
theorem pay4_lane (v0 : Vec F S7x65536 .f32) (l : Fin 65536) : k0_pay4 v0 (ix2 0 l) = v0 (ix2 1 l) := by
  unfold k0_pay4 k0_pay1; rw [shapeCast_self]; exact slice7_lane 1 (by decide) v0 _ l
theorem pay5_lane (v0 : Vec F S7x65536 .f32) (l : Fin 65536) : k0_pay5 v0 (ix2 0 l) = v0 (ix2 2 l) := by
  unfold k0_pay5 k0_pay1; rw [shapeCast_self]; exact slice7_lane 2 (by decide) v0 _ l
theorem pay6_lane (v0 : Vec F S7x65536 .f32) (l : Fin 65536) : k0_pay6 v0 (ix2 0 l) = v0 (ix2 3 l) := by
  unfold k0_pay6 k0_pay1; rw [shapeCast_self]; exact slice7_lane 3 (by decide) v0 _ l
theorem pay7_lane (v0 : Vec F S7x65536 .f32) (l : Fin 65536) : k0_pay7 v0 (ix2 0 l) = v0 (ix2 4 l) := by
  unfold k0_pay7 k0_pay1; rw [shapeCast_self]; exact slice7_lane 4 (by decide) v0 _ l
theorem pay8_lane (v0 : Vec F S7x65536 .f32) (l : Fin 65536) : k0_pay8 v0 (ix2 0 l) = v0 (ix2 5 l) := by
  unfold k0_pay8 k0_pay1; rw [shapeCast_self]; exact slice7_lane 5 (by decide) v0 _ l
theorem pay9_lane (v0 : Vec F S7x65536 .f32) (l : Fin 65536) : k0_pay9 v0 (ix2 0 l) = v0 (ix2 6 l) := by
  unfold k0_pay9 k0_pay1; rw [shapeCast_self]; exact slice7_lane 6 (by decide) v0 _ l
theorem pay10_lane (v2 : Vec F S6x65536 .f32) (l : Fin 65536) : k0_pay10 v2 (ix2 0 l) = v2 (ix2 0 l) := by
  unfold k0_pay10 k0_pay2; rw [shapeCast_self]; exact slice6_lane 0 (by decide) v2 _ l
theorem pay11_lane (v2 : Vec F S6x65536 .f32) (l : Fin 65536) : k0_pay11 v2 (ix2 0 l) = v2 (ix2 1 l) := by
  unfold k0_pay11 k0_pay2; rw [shapeCast_self]; exact slice6_lane 1 (by decide) v2 _ l
theorem pay12_lane (v2 : Vec F S6x65536 .f32) (l : Fin 65536) : k0_pay12 v2 (ix2 0 l) = v2 (ix2 2 l) := by
  unfold k0_pay12 k0_pay2; rw [shapeCast_self]; exact slice6_lane 2 (by decide) v2 _ l
theorem pay13_lane (v2 : Vec F S6x65536 .f32) (l : Fin 65536) : k0_pay13 v2 (ix2 0 l) = v2 (ix2 3 l) := by
  unfold k0_pay13 k0_pay2; rw [shapeCast_self]; exact slice6_lane 3 (by decide) v2 _ l
theorem pay14_lane (v2 : Vec F S6x65536 .f32) (l : Fin 65536) : k0_pay14 v2 (ix2 0 l) = v2 (ix2 4 l) := by
  unfold k0_pay14 k0_pay2; rw [shapeCast_self]; exact slice6_lane 4 (by decide) v2 _ l
theorem pay15_lane (v2 : Vec F S6x65536 .f32) (l : Fin 65536) : k0_pay15 v2 (ix2 0 l) = v2 (ix2 5 l) := by
  unfold k0_pay15 k0_pay2; rw [shapeCast_self]; exact slice6_lane 5 (by decide) v2 _ l

/-! ## The seven rotation-matrix payloads computed straight from the quaternion rows -/

theorem pay16_lane (v0 : Vec F S7x65536 .f32) (l : Fin 65536) : k0_pay16 v0 (ix2 0 l) = s16 (col7 v0 l) := by
  unfold k0_pay16
  simp only [subf, mulf, addf, broadcast, pay6_lane, pay7_lane, pay8_lane, pay9_lane]
  rfl
theorem pay17_lane (v0 : Vec F S7x65536 .f32) (l : Fin 65536) : k0_pay17 v0 (ix2 0 l) = s17 (col7 v0 l) := by
  unfold k0_pay17
  simp only [subf, mulf, addf, broadcast, pay6_lane, pay7_lane, pay8_lane, pay9_lane]
  rfl
theorem pay18_lane (v0 : Vec F S7x65536 .f32) (l : Fin 65536) : k0_pay18 v0 (ix2 0 l) = s18 (col7 v0 l) := by
  unfold k0_pay18
  simp only [subf, mulf, addf, broadcast, pay6_lane, pay7_lane, pay8_lane, pay9_lane]
  rfl
theorem pay19_lane (v0 : Vec F S7x65536 .f32) (l : Fin 65536) : k0_pay19 v0 (ix2 0 l) = s19 (col7 v0 l) := by
  unfold k0_pay19
  simp only [subf, mulf, addf, broadcast, pay6_lane, pay7_lane, pay8_lane, pay9_lane]
  rfl
theorem pay20_lane (v0 : Vec F S7x65536 .f32) (l : Fin 65536) : k0_pay20 v0 (ix2 0 l) = s20 (col7 v0 l) := by
  unfold k0_pay20
  simp only [subf, mulf, addf, broadcast, pay6_lane, pay7_lane, pay8_lane, pay9_lane]
  rfl
theorem pay21_lane (v0 : Vec F S7x65536 .f32) (l : Fin 65536) : k0_pay21 v0 (ix2 0 l) = s21 (col7 v0 l) := by
  unfold k0_pay21
  simp only [subf, mulf, addf, broadcast, pay6_lane, pay7_lane, pay8_lane, pay9_lane]
  rfl
theorem pay22_lane (v0 : Vec F S7x65536 .f32) (l : Fin 65536) : k0_pay22 v0 (ix2 0 l) = s22 (col7 v0 l) := by
  unfold k0_pay22
  simp only [subf, mulf, addf, broadcast, pay6_lane, pay7_lane, pay8_lane, pay9_lane]
  rfl

attribute [lane] pay23_lane pay24_lane pay25_lane pay26_lane pay27_lane pay28_lane pay29_lane pay30_lane pay31_lane pay32_lane pay33_lane pay34_lane pay35_lane pay36_lane pay37_lane pay38_lane pay39_lane pay40_lane pay41_lane pay42_lane pay43_lane pay44_lane pay45_lane pay46_lane pay47_lane pay48_lane pay49_lane pay50_lane pay51_lane pay52_lane pay53_lane pay54_lane pay55_lane pay56_lane pay57_lane pay58_lane pay59_lane pay60_lane pay61_lane pay62_lane pay63_lane pay64_lane pay65_lane pay66_lane pay67_lane pay68_lane pay69_lane pay70_lane pay71_lane pay72_lane pay73_lane pay74_lane pay75_lane pay76_lane pay77_lane pay78_lane pay79_lane pay80_lane pay81_lane pay82_lane pay83_lane pay84_lane pay85_lane pay86_lane pay87_lane pay88_lane pay89_lane pay90_lane pay91_lane pay92_lane

/-! ## Following the wiring: every named vector at lane l, from the two columns at l -/

@[lane] theorem v4_lane (X0 : Vec F S7x65536 .f32) (X1 : Vec F S6x65536 .f32) (l : Fin 65536) :
    v4 X0 X1 (ix2 0 l) = sv4 (col7 X0 l) (col6 X1 l) := pay3_lane X0 l
@[lane] theorem v5_lane (X0 : Vec F S7x65536 .f32) (X1 : Vec F S6x65536 .f32) (l : Fin 65536) :
    v5 X0 X1 (ix2 0 l) = sv5 (col7 X0 l) (col6 X1 l) := pay4_lane X0 l
@[lane] theorem v6_lane (X0 : Vec F S7x65536 .f32) (X1 : Vec F S6x65536 .f32) (l : Fin 65536) :
    v6 X0 X1 (ix2 0 l) = sv6 (col7 X0 l) (col6 X1 l) := pay5_lane X0 l
@[lane] theorem v7_lane (X0 : Vec F S7x65536 .f32) (X1 : Vec F S6x65536 .f32) (l : Fin 65536) :
    v7 X0 X1 (ix2 0 l) = sv7 (col7 X0 l) (col6 X1 l) := pay6_lane X0 l
@[lane] theorem v8_lane (X0 : Vec F S7x65536 .f32) (X1 : Vec F S6x65536 .f32) (l : Fin 65536) :
    v8 X0 X1 (ix2 0 l) = sv8 (col7 X0 l) (col6 X1 l) := pay7_lane X0 l
@[lane] theorem v9_lane (X0 : Vec F S7x65536 .f32) (X1 : Vec F S6x65536 .f32) (l : Fin 65536) :
    v9 X0 X1 (ix2 0 l) = sv9 (col7 X0 l) (col6 X1 l) := pay8_lane X0 l
@[lane] theorem v10_lane (X0 : Vec F S7x65536 .f32) (X1 : Vec F S6x65536 .f32) (l : Fin 65536) :
    v10 X0 X1 (ix2 0 l) = sv10 (col7 X0 l) (col6 X1 l) := pay9_lane X0 l
@[lane] theorem v11_lane (X0 : Vec F S7x65536 .f32) (X1 : Vec F S6x65536 .f32) (l : Fin 65536) :
    v11 X0 X1 (ix2 0 l) = sv11 (col7 X0 l) (col6 X1 l) := pay10_lane X1 l
@[lane] theorem v12_lane (X0 : Vec F S7x65536 .f32) (X1 : Vec F S6x65536 .f32) (l : Fin 65536) :
    v12 X0 X1 (ix2 0 l) = sv12 (col7 X0 l) (col6 X1 l) := pay11_lane X1 l
@[lane] theorem v13_lane (X0 : Vec F S7x65536 .f32) (X1 : Vec F S6x65536 .f32) (l : Fin 65536) :
    v13 X0 X1 (ix2 0 l) = sv13 (col7 X0 l) (col6 X1 l) := pay12_lane X1 l
@[lane] theorem v14_lane (X0 : Vec F S7x65536 .f32) (X1 : Vec F S6x65536 .f32) (l : Fin 65536) :
    v14 X0 X1 (ix2 0 l) = sv14 (col7 X0 l) (col6 X1 l) := pay13_lane X1 l
@[lane] theorem v15_lane (X0 : Vec F S7x65536 .f32) (X1 : Vec F S6x65536 .f32) (l : Fin 65536) :
    v15 X0 X1 (ix2 0 l) = sv15 (col7 X0 l) (col6 X1 l) := pay14_lane X1 l
@[lane] theorem v16_lane (X0 : Vec F S7x65536 .f32) (X1 : Vec F S6x65536 .f32) (l : Fin 65536) :
    v16 X0 X1 (ix2 0 l) = sv16 (col7 X0 l) (col6 X1 l) := pay15_lane X1 l
@[lane] theorem v23_lane (X0 : Vec F S7x65536 .f32) (X1 : Vec F S6x65536 .f32) (l : Fin 65536) :
    v23 X0 X1 (ix2 0 l) = sv23 (col7 X0 l) (col6 X1 l) := pay16_lane X0 l
@[lane] theorem v28_lane (X0 : Vec F S7x65536 .f32) (X1 : Vec F S6x65536 .f32) (l : Fin 65536) :
    v28 X0 X1 (ix2 0 l) = sv28 (col7 X0 l) (col6 X1 l) := pay17_lane X0 l
@[lane] theorem v33_lane (X0 : Vec F S7x65536 .f32) (X1 : Vec F S6x65536 .f32) (l : Fin 65536) :
    v33 X0 X1 (ix2 0 l) = sv33 (col7 X0 l) (col6 X1 l) := pay18_lane X0 l
@[lane] theorem v38_lane (X0 : Vec F S7x65536 .f32) (X1 : Vec F S6x65536 .f32) (l : Fin 65536) :
    v38 X0 X1 (ix2 0 l) = sv38 (col7 X0 l) (col6 X1 l) := pay19_lane X0 l
@[lane] theorem v45_lane (X0 : Vec F S7x65536 .f32) (X1 : Vec F S6x65536 .f32) (l : Fin 65536) :
    v45 X0 X1 (ix2 0 l) = sv45 (col7 X0 l) (col6 X1 l) := pay20_lane X0 l
@[lane] theorem v46_lane (X0 : Vec F S7x65536 .f32) (X1 : Vec F S6x65536 .f32) (l : Fin 65536) :
    v46 X0 X1 (ix2 0 l) = sv46 (col7 X0 l) (col6 X1 l) := pay21_lane X0 l
@[lane] theorem v47_lane (X0 : Vec F S7x65536 .f32) (X1 : Vec F S6x65536 .f32) (l : Fin 65536) :
    v47 X0 X1 (ix2 0 l) = sv47 (col7 X0 l) (col6 X1 l) := pay22_lane X0 l
@[lane] theorem v50_lane (X0 : Vec F S7x65536 .f32) (X1 : Vec F S6x65536 .f32) (l : Fin 65536) :
    v50 X0 X1 (ix2 0 l) = sv50 (col7 X0 l) (col6 X1 l) := by unfold v50 sv50; simp only [lane]
@[lane] theorem v55_lane (X0 : Vec F S7x65536 .f32) (X1 : Vec F S6x65536 .f32) (l : Fin 65536) :
    v55 X0 X1 (ix2 0 l) = sv55 (col7 X0 l) (col6 X1 l) := by unfold v55 sv55; simp only [lane]
@[lane] theorem v60_lane (X0 : Vec F S7x65536 .f32) (X1 : Vec F S6x65536 .f32) (l : Fin 65536) :
    v60 X0 X1 (ix2 0 l) = sv60 (col7 X0 l) (col6 X1 l) := by unfold v60 sv60; simp only [lane]
@[lane] theorem v67_lane (X0 : Vec F S7x65536 .f32) (X1 : Vec F S6x65536 .f32) (l : Fin 65536) :
    v67 X0 X1 (ix2 0 l) = sv67 (col7 X0 l) (col6 X1 l) := by unfold v67 sv67; simp only [lane]
@[lane] theorem v74_lane (X0 : Vec F S7x65536 .f32) (X1 : Vec F S6x65536 .f32) (l : Fin 65536) :
    v74 X0 X1 (ix2 0 l) = sv74 (col7 X0 l) (col6 X1 l) := by unfold v74 sv74; simp only [lane]
@[lane] theorem v86_lane (X0 : Vec F S7x65536 .f32) (X1 : Vec F S6x65536 .f32) (l : Fin 65536) :
    v86 X0 X1 (ix2 0 l) = sv86 (col7 X0 l) (col6 X1 l) := by unfold v86 sv86; simp only [lane]
@[lane] theorem v91_lane (X0 : Vec F S7x65536 .f32) (X1 : Vec F S6x65536 .f32) (l : Fin 65536) :
    v91 X0 X1 (ix2 0 l) = sv91 (col7 X0 l) (col6 X1 l) := by unfold v91 sv91; simp only [lane]
@[lane] theorem v94_lane (X0 : Vec F S7x65536 .f32) (X1 : Vec F S6x65536 .f32) (l : Fin 65536) :
    v94 X0 X1 (ix2 0 l) = sv94 (col7 X0 l) (col6 X1 l) := by unfold v94 sv94; simp only [lane]
@[lane] theorem v96_lane (X0 : Vec F S7x65536 .f32) (X1 : Vec F S6x65536 .f32) (l : Fin 65536) :
    v96 X0 X1 (ix2 0 l) = sv96 (col7 X0 l) (col6 X1 l) := by unfold v96 sv96; simp only [lane]
@[lane] theorem v97_lane (X0 : Vec F S7x65536 .f32) (X1 : Vec F S6x65536 .f32) (l : Fin 65536) :
    v97 X0 X1 (ix2 0 l) = sv97 (col7 X0 l) (col6 X1 l) := by unfold v97 sv97; simp only [lane]
@[lane] theorem v98_lane (X0 : Vec F S7x65536 .f32) (X1 : Vec F S6x65536 .f32) (l : Fin 65536) :
    v98 X0 X1 (ix2 0 l) = sv98 (col7 X0 l) (col6 X1 l) := by unfold v98 sv98; simp only [lane]
@[lane] theorem v99_lane (X0 : Vec F S7x65536 .f32) (X1 : Vec F S6x65536 .f32) (l : Fin 65536) :
    v99 X0 X1 (ix2 0 l) = sv99 (col7 X0 l) (col6 X1 l) := by unfold v99 sv99; simp only [lane]
@[lane] theorem v104_lane (X0 : Vec F S7x65536 .f32) (X1 : Vec F S6x65536 .f32) (l : Fin 65536) :
    v104 X0 X1 (ix2 0 l) = sv104 (col7 X0 l) (col6 X1 l) := by unfold v104 sv104; simp only [lane]
@[lane] theorem v109_lane (X0 : Vec F S7x65536 .f32) (X1 : Vec F S6x65536 .f32) (l : Fin 65536) :
    v109 X0 X1 (ix2 0 l) = sv109 (col7 X0 l) (col6 X1 l) := by unfold v109 sv109; simp only [lane]
@[lane] theorem v114_lane (X0 : Vec F S7x65536 .f32) (X1 : Vec F S6x65536 .f32) (l : Fin 65536) :
    v114 X0 X1 (ix2 0 l) = sv114 (col7 X0 l) (col6 X1 l) := by unfold v114 sv114; simp only [lane]
@[lane] theorem v117_lane (X0 : Vec F S7x65536 .f32) (X1 : Vec F S6x65536 .f32) (l : Fin 65536) :
    v117 X0 X1 (ix2 0 l) = sv117 (col7 X0 l) (col6 X1 l) := by unfold v117 sv117; simp only [lane]
@[lane] theorem v122_lane (X0 : Vec F S7x65536 .f32) (X1 : Vec F S6x65536 .f32) (l : Fin 65536) :
    v122 X0 X1 (ix2 0 l) = sv122 (col7 X0 l) (col6 X1 l) := by unfold v122 sv122; simp only [lane]
@[lane] theorem v125_lane (X0 : Vec F S7x65536 .f32) (X1 : Vec F S6x65536 .f32) (l : Fin 65536) :
    v125 X0 X1 (ix2 0 l) = sv125 (col7 X0 l) (col6 X1 l) := by unfold v125 sv125; simp only [lane]
@[lane] theorem v128_lane (X0 : Vec F S7x65536 .f32) (X1 : Vec F S6x65536 .f32) (l : Fin 65536) :
    v128 X0 X1 (ix2 0 l) = sv128 (col7 X0 l) (col6 X1 l) := by unfold v128 sv128; simp only [lane]
@[lane] theorem v131_lane (X0 : Vec F S7x65536 .f32) (X1 : Vec F S6x65536 .f32) (l : Fin 65536) :
    v131 X0 X1 (ix2 0 l) = sv131 (col7 X0 l) (col6 X1 l) := by unfold v131 sv131; simp only [lane]
@[lane] theorem v136_lane (X0 : Vec F S7x65536 .f32) (X1 : Vec F S6x65536 .f32) (l : Fin 65536) :
    v136 X0 X1 (ix2 0 l) = sv136 (col7 X0 l) (col6 X1 l) := by unfold v136 sv136; simp only [lane]
@[lane] theorem v141_lane (X0 : Vec F S7x65536 .f32) (X1 : Vec F S6x65536 .f32) (l : Fin 65536) :
    v141 X0 X1 (ix2 0 l) = sv141 (col7 X0 l) (col6 X1 l) := by unfold v141 sv141; simp only [lane]
@[lane] theorem v144_lane (X0 : Vec F S7x65536 .f32) (X1 : Vec F S6x65536 .f32) (l : Fin 65536) :
    v144 X0 X1 (ix2 0 l) = sv144 (col7 X0 l) (col6 X1 l) := by unfold v144 sv144; simp only [lane]
@[lane] theorem v145_lane (X0 : Vec F S7x65536 .f32) (X1 : Vec F S6x65536 .f32) (l : Fin 65536) :
    v145 X0 X1 (ix2 0 l) = sv145 (col7 X0 l) (col6 X1 l) := by unfold v145 sv145; simp only [lane]
@[lane] theorem v147_lane (X0 : Vec F S7x65536 .f32) (X1 : Vec F S6x65536 .f32) (l : Fin 65536) :
    v147 X0 X1 (ix2 0 l) = sv147 (col7 X0 l) (col6 X1 l) := by unfold v147 sv147; simp only [lane]
@[lane] theorem v185_lane (X0 : Vec F S7x65536 .f32) (X1 : Vec F S6x65536 .f32) (l : Fin 65536) :
    v185 X0 X1 (ix2 0 l) = sv185 (col7 X0 l) (col6 X1 l) := by unfold v185 sv185; simp only [lane]
@[lane] theorem v190_lane (X0 : Vec F S7x65536 .f32) (X1 : Vec F S6x65536 .f32) (l : Fin 65536) :
    v190 X0 X1 (ix2 0 l) = sv190 (col7 X0 l) (col6 X1 l) := by unfold v190 sv190; simp only [lane]
@[lane] theorem v195_lane (X0 : Vec F S7x65536 .f32) (X1 : Vec F S6x65536 .f32) (l : Fin 65536) :
    v195 X0 X1 (ix2 0 l) = sv195 (col7 X0 l) (col6 X1 l) := by unfold v195 sv195; simp only [lane]
@[lane] theorem v198_lane (X0 : Vec F S7x65536 .f32) (X1 : Vec F S6x65536 .f32) (l : Fin 65536) :
    v198 X0 X1 (ix2 0 l) = sv198 (col7 X0 l) (col6 X1 l) := by unfold v198 sv198; simp only [lane]
@[lane] theorem v199_lane (X0 : Vec F S7x65536 .f32) (X1 : Vec F S6x65536 .f32) (l : Fin 65536) :
    v199 X0 X1 (ix2 0 l) = sv199 (col7 X0 l) (col6 X1 l) := by unfold v199 sv199; simp only [lane]
@[lane] theorem v211_lane (X0 : Vec F S7x65536 .f32) (X1 : Vec F S6x65536 .f32) (l : Fin 65536) :
    v211 X0 X1 (ix2 0 l) = sv211 (col7 X0 l) (col6 X1 l) := by unfold v211 sv211; simp only [lane]
@[lane] theorem v212_lane (X0 : Vec F S7x65536 .f32) (X1 : Vec F S6x65536 .f32) (l : Fin 65536) :
    v212 X0 X1 (ix2 0 l) = sv212 (col7 X0 l) (col6 X1 l) := by unfold v212 sv212; simp only [lane]
@[lane] theorem v213_lane (X0 : Vec F S7x65536 .f32) (X1 : Vec F S6x65536 .f32) (l : Fin 65536) :
    v213 X0 X1 (ix2 0 l) = sv213 (col7 X0 l) (col6 X1 l) := by unfold v213 sv213; simp only [lane]
@[lane] theorem v218_lane (X0 : Vec F S7x65536 .f32) (X1 : Vec F S6x65536 .f32) (l : Fin 65536) :
    v218 X0 X1 (ix2 0 l) = sv218 (col7 X0 l) (col6 X1 l) := by unfold v218 sv218; simp only [lane]
@[lane] theorem v223_lane (X0 : Vec F S7x65536 .f32) (X1 : Vec F S6x65536 .f32) (l : Fin 65536) :
    v223 X0 X1 (ix2 0 l) = sv223 (col7 X0 l) (col6 X1 l) := by unfold v223 sv223; simp only [lane]
@[lane] theorem v228_lane (X0 : Vec F S7x65536 .f32) (X1 : Vec F S6x65536 .f32) (l : Fin 65536) :
    v228 X0 X1 (ix2 0 l) = sv228 (col7 X0 l) (col6 X1 l) := by unfold v228 sv228; simp only [lane]
@[lane] theorem v233_lane (X0 : Vec F S7x65536 .f32) (X1 : Vec F S6x65536 .f32) (l : Fin 65536) :
    v233 X0 X1 (ix2 0 l) = sv233 (col7 X0 l) (col6 X1 l) := by unfold v233 sv233; simp only [lane]
@[lane] theorem v238_lane (X0 : Vec F S7x65536 .f32) (X1 : Vec F S6x65536 .f32) (l : Fin 65536) :
    v238 X0 X1 (ix2 0 l) = sv238 (col7 X0 l) (col6 X1 l) := by unfold v238 sv238; simp only [lane]
@[lane] theorem v243_lane (X0 : Vec F S7x65536 .f32) (X1 : Vec F S6x65536 .f32) (l : Fin 65536) :
    v243 X0 X1 (ix2 0 l) = sv243 (col7 X0 l) (col6 X1 l) := by unfold v243 sv243; simp only [lane]
@[lane] theorem v248_lane (X0 : Vec F S7x65536 .f32) (X1 : Vec F S6x65536 .f32) (l : Fin 65536) :
    v248 X0 X1 (ix2 0 l) = sv248 (col7 X0 l) (col6 X1 l) := by unfold v248 sv248; simp only [lane]
@[lane] theorem v253_lane (X0 : Vec F S7x65536 .f32) (X1 : Vec F S6x65536 .f32) (l : Fin 65536) :
    v253 X0 X1 (ix2 0 l) = sv253 (col7 X0 l) (col6 X1 l) := by unfold v253 sv253; simp only [lane]
@[lane] theorem v258_lane (X0 : Vec F S7x65536 .f32) (X1 : Vec F S6x65536 .f32) (l : Fin 65536) :
    v258 X0 X1 (ix2 0 l) = sv258 (col7 X0 l) (col6 X1 l) := by unfold v258 sv258; simp only [lane]
@[lane] theorem v265_lane (X0 : Vec F S7x65536 .f32) (X1 : Vec F S6x65536 .f32) (l : Fin 65536) :
    v265 X0 X1 (ix2 0 l) = sv265 (col7 X0 l) (col6 X1 l) := by unfold v265 sv265; simp only [lane]
@[lane] theorem v288_lane (X0 : Vec F S7x65536 .f32) (X1 : Vec F S6x65536 .f32) (l : Fin 65536) :
    v288 X0 X1 (ix2 0 l) = sv288 (col7 X0 l) (col6 X1 l) := by unfold v288 sv288; simp only [lane]
@[lane] theorem v300_lane (X0 : Vec F S7x65536 .f32) (X1 : Vec F S6x65536 .f32) (l : Fin 65536) :
    v300 X0 X1 (ix2 0 l) = sv300 (col7 X0 l) (col6 X1 l) := by unfold v300 sv300; simp only [lane]
@[lane] theorem v303_lane (X0 : Vec F S7x65536 .f32) (X1 : Vec F S6x65536 .f32) (l : Fin 65536) :
    v303 X0 X1 (ix2 0 l) = sv303 (col7 X0 l) (col6 X1 l) := by unfold v303 sv303; simp only [lane]
@[lane] theorem v306_lane (X0 : Vec F S7x65536 .f32) (X1 : Vec F S6x65536 .f32) (l : Fin 65536) :
    v306 X0 X1 (ix2 0 l) = sv306 (col7 X0 l) (col6 X1 l) := by unfold v306 sv306; simp only [lane]
@[lane] theorem v309_lane (X0 : Vec F S7x65536 .f32) (X1 : Vec F S6x65536 .f32) (l : Fin 65536) :
    v309 X0 X1 (ix2 0 l) = sv309 (col7 X0 l) (col6 X1 l) := by unfold v309 sv309; simp only [lane]
@[lane] theorem v311_lane (X0 : Vec F S7x65536 .f32) (X1 : Vec F S6x65536 .f32) (l : Fin 65536) :
    v311 X0 X1 (ix2 0 l) = sv311 (col7 X0 l) (col6 X1 l) := by unfold v311 sv311; simp only [lane]
@[lane] theorem v324_lane (X0 : Vec F S7x65536 .f32) (X1 : Vec F S6x65536 .f32) (l : Fin 65536) :
    v324 X0 X1 (ix2 0 l) = sv324 (col7 X0 l) (col6 X1 l) := by unfold v324 sv324; simp only [lane]
@[lane] theorem v327_lane (X0 : Vec F S7x65536 .f32) (X1 : Vec F S6x65536 .f32) (l : Fin 65536) :
    v327 X0 X1 (ix2 0 l) = sv327 (col7 X0 l) (col6 X1 l) := by unfold v327 sv327; simp only [lane]
@[lane] theorem v330_lane (X0 : Vec F S7x65536 .f32) (X1 : Vec F S6x65536 .f32) (l : Fin 65536) :
    v330 X0 X1 (ix2 0 l) = sv330 (col7 X0 l) (col6 X1 l) := by unfold v330 sv330; simp only [lane]
@[lane] theorem v333_lane (X0 : Vec F S7x65536 .f32) (X1 : Vec F S6x65536 .f32) (l : Fin 65536) :
    v333 X0 X1 (ix2 0 l) = sv333 (col7 X0 l) (col6 X1 l) := by unfold v333 sv333; simp only [lane]

/-! ## The stored block -/

/-- Entry (r, l) of the stored block is the r-th stored value of lane l. -/
theorem outBlk_lane (X0 : Vec F S7x65536 .f32) (X1 : Vec F S6x65536 .f32) (r : Fin 7) (l : Fin 65536) :
    outBlk X0 X1 (ix2 r l) = sRows (col7 X0 l) (col6 X1 l) r := by
  unfold outBlk
  show rows X0 X1 r (ix2 0 l) = _
  unfold rows sRows
  fin_cases r
  · exact v211_lane X0 X1 l
  · exact v212_lane X0 X1 l
  · exact v213_lane X0 X1 l
  · exact v324_lane X0 X1 l
  · exact v327_lane X0 X1 l
  · exact v330_lane X0 X1 l
  · exact v333_lane X0 X1 l

/-- The stored block at column l depends on the two loaded blocks through their columns l only. -/
theorem outBlk_congr {X0 X0' : Vec F S7x65536 .f32} {X1 X1' : Vec F S6x65536 .f32} {l : Fin 65536}
    (h0 : ∀ k : Fin 7, X0 (ix2 k l) = X0' (ix2 k l)) (h1 : ∀ k : Fin 6, X1 (ix2 k l) = X1' (ix2 k l)) (r : Fin 7) :
    outBlk X0 X1 (ix2 r l) = outBlk X0' X1' (ix2 r l) := by
  rw [outBlk_lane, outBlk_lane, show col7 X0 l = col7 X0' l from funext h0, show col6 X1 l = col6 X1' l from funext h1]

end Cert.KernelIdeal.Hand

end
-- ==== Proof.KerBody.lean ====
import proofs.«161387_j47622597378731_2_alg».proof.Proof.Gen.KernelIdeal.Frame
import proofs.«161387_j47622597378731_2_alg».proof.Proof.Gen.KernelIdeal.Skeleton
import proofs.«161387_j47622597378731_2_alg».proof.Proof.KerRows
import proofs.«161387_j47622597378731_2_alg».proof.Proof.KerStores
import proofs.«161387_j47622597378731_2_alg».proof.Proof.KerLane
import proofs.«161387_j47622597378731_2_alg».proof.Defs
import proofs.«161387_j47622597378731_2_alg».proof.Proof.Gen.Pre_finite_inputs
import Idealize.ShloMosaic.Lib.Tactic

/-! # The body at one grid point, and the run of the whole grid

One grid point works on three staging blocks: X0 (7×65536, translation and quaternion rows), X1
(6×65536, twist rows) and the result's (7×65536). The body reads X0 and X1 whole, computes lane by
lane, and overwrites the result's block row by row with `outBlk X0 X1`; X0 and X1 are left as found.

The last of the 31 blocks overhangs the arrays (31·65536 > 2,000,000): only lanes below 33,920 of it
are fetched and written back, and the lanes past that hold words nobody names. Because every
operation is lane-wise, the lanes of the result that are written back depend only on the same lanes
of X0 and X1, that is on what was fetched. So the proof data describes each staging block on the
lanes inside the array only (a fixed filler word stands elsewhere), and the body obligation is the
one that states each block on the moved lanes only. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## The body's triple -/

/-- The offsets of a whole-block access are all zero. -/
theorem off00 : (![0, 0] : Fin 2 → Nat) = fun _ => 0 := funext fun a => by fin_cases a <;> rfl

set_option maxHeartbeats 1000000 in
/-- The body on three whole staging blocks holding X0, X1 and anything: it leaves X0 and X1 and
    overwrites the third with `outBlk X0 X1` — two whole loads, then seven row stores whose vectors
    are the seven rows (the seven rows tile the block: `canon_rows_outBlk`). -/
theorem sound_body (c : Dev nD) (E : Set ℕ) (i : grid0.Coords)
    (arg1 : Memref sig .tc .vmem S7x65536 .f32) (harg1 : arg1.IsWhole) (arg2 : Memref sig .tc .vmem S6x65536 .f32) (harg2 : arg2.IsWhole)
    (arg3 : Memref sig .tc .vmem S7x65536 .f32) (harg3 : arg3.IsWhole)
    (x0 : Vec F S7x65536 .f32) (x1 : Vec F S6x65536 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0_se3_comp_kernel i arg1 harg1 arg2 harg2 arg3 harg3) K := by
  simp only [cc0_se3_comp_kernel_eq_skeleton]; unfold cc0_se3_comp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the two loads read the blocks whole
  have e0 : View.ld (arg1.view.read (Elt F) f0) (Rect.unit (s := S7x65536) ![0, 0] S7x65536.size inb_S7x65536_S7x65536_0_0)
      = arg1.view.read (Elt F) f0 := View.ld_unit_zero off00 _ _
  have e1 : View.ld (arg2.view.read (Elt F) f1) (Rect.unit (s := S6x65536) ![0, 0] S6x65536.size inb_S6x65536_S6x65536_0_0)
      = arg2.view.read (Elt F) f1 := View.ld_unit_zero off00 _ _
  -- the seven stored vectors are the seven rows of the loaded blocks
  show arg3.view.read (Elt F) (arg3.view.writes (Elt F) f2
      (rowPieces (rows (View.ld (arg1.view.read (Elt F) f0) (Rect.unit (s := S7x65536) ![0, 0] S7x65536.size inb_S7x65536_S7x65536_0_0))
        (View.ld (arg2.view.read (Elt F) f1) (Rect.unit (s := S6x65536) ![0, 0] S6x65536.size inb_S6x65536_S6x65536_0_0)))))
    = outBlk (arg1.view.read (Elt F) f0) (arg2.view.read (Elt F) f1)
  rw [View.read_writes_eq_canon _ _ _ (cover_rows _), canon_rows_outBlk, e0, e1]

/-! ## The proof data -/

variable (m : (ℓ : Loc nD τ sig) → Buf (Elt F) ℓ) (ρ : Dev nD → PrngReg)

/-- The proof data of the one pipeline on core c: the arrays as the region finds them; after the body
    at point t the two inputs' staging blocks at their fetched blocks (the part inside the array; a
    fixed word on the lanes past its end) and the result's at `outBlk` of those two; the invariant is
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => outBlk (win0_0.fill (grid0.coords t) (fun _ => Scalar.ofBits .f32 0#32) (iblk m c 0 t))
        (win0_1.fill (grid0.coords t) (fun _ => Scalar.ofBits .f32 0#32) (iblk m c 1 t))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) :
    (dats m 0 c).after (0 : Fin 3) t = win0_0.fill (grid0.coords t) (fun _ => Scalar.ofBits .f32 0#32) (iblk m c 0 t) := by
  dsimp only [dats]
theorem after_1 (c : Dev nD) (t : Fin cfg0.N) :
    (dats m 0 c).after (1 : Fin 3) t = win0_1.fill (grid0.coords t) (fun _ => Scalar.ofBits .f32 0#32) (iblk m c 1 t) := by
  dsimp only [dats]
theorem after_2 (c : Dev nD) (t : Fin cfg0.N) :
    (dats m 0 c).after (2 : Fin 3) t = outBlk (win0_0.fill (grid0.coords t) (fun _ => Scalar.ofBits .f32 0#32) (iblk m c 0 t))
        (win0_1.fill (grid0.coords t) (fun _ => Scalar.ofBits .f32 0#32) (iblk m c 1 t)) := by
  dsimp only [dats]

/-- What the body finds: each input's block just fetched — the array's block on the lanes inside the
    array, the buffer's prior words `d` elsewhere —, -/
theorem before_0 (c : Dev nD) (t : Fin cfg0.N) (d) :
    (dats m 0 c).before (0 : Fin 3) t d = win0_0.fill (grid0.coords t) d (iblk m c 0 t) := by
  rw [Dat.before_fetched _ 0 t (fetch0_0 t)]
  unfold Dat.fetched Dat.blockOf iblk
  rw [A_eq]
theorem before_1 (c : Dev nD) (t : Fin cfg0.N) (d) :
    (dats m 0 c).before (1 : Fin 3) t d = win0_1.fill (grid0.coords t) d (iblk m c 1 t) := by
  rw [Dat.before_fetched _ 1 t (fetch0_1 t)]
  unfold Dat.fetched Dat.blockOf iblk
  rw [A_eq]
/-- and the result's block at words nothing names (every point writes it back). -/
theorem before_2 (c : Dev nD) (t : Fin cfg0.N) (d) : (dats m 0 c).before (2 : Fin 3) t d = d :=
  Dat.before_out_reset _ 2 rfl t
    ((Nat.eq_zero_or_pos t.val).imp id fun h => ⟨Nat.pos_iff_ne_zero.mp h, flush0_2 _⟩) d

/-! ## Which lanes move -/

/-- All rows of a block move, and the three windows cut the lanes alike (one index map, one lane
    extent). -/
theorem xsize0_0 (i : grid0.Coords) : win0_0.xsize i 0 = 7 := rfl
theorem xsize1_0 (i : grid0.Coords) : win0_1.xsize i 0 = 6 := rfl
theorem xsize0_1 (i : grid0.Coords) : win0_0.xsize i 1 = win0_2.xsize i 1 := rfl
theorem xsize1_1 (i : grid0.Coords) : win0_1.xsize i 1 = win0_2.xsize i 1 := rfl

/-- On a lane the result's write-back moves, an input block as fetched does not depend on the prior
    words. -/
theorem fill0_lane (i : grid0.Coords) (d d' : S7x65536.Idx → Elt F .f32) (g) (k : Fin 7) (l : Fin 65536)
    (hl : l.val < win0_2.xsize i 1) :
    win0_0.fill i d g (ix2 k l) = win0_0.fill i d' g (ix2 k l) := by
  have hm : win0_0.moved i (ix2 k l) = true := (win0_0.moved_iff i _).mpr fun a =>
    match a with
    | ⟨0, _⟩ => by show k.val < win0_0.xsize i 0; rw [xsize0_0]; exact k.isLt
    | ⟨1, _⟩ => by show l.val < win0_0.xsize i 1; rw [xsize0_1]; exact hl
  unfold Pipeline.Window.fill; rw [dif_pos hm, dif_pos hm]
theorem fill1_lane (i : grid0.Coords) (d d' : S6x65536.Idx → Elt F .f32) (g) (k : Fin 6) (l : Fin 65536)
    (hl : l.val < win0_2.xsize i 1) :
    win0_1.fill i d g (ix2 k l) = win0_1.fill i d' g (ix2 k l) := by
  have hm : win0_1.moved i (ix2 k l) = true := (win0_1.moved_iff i _).mpr fun a =>
    match a with
    | ⟨0, _⟩ => by show k.val < win0_1.xsize i 0; rw [xsize1_0]; exact k.isLt
    | ⟨1, _⟩ => by show l.val < win0_1.xsize i 1; rw [xsize1_1]; exact hl
  unfold Pipeline.Window.fill; rw [dif_pos hm, dif_pos hm]

/-- So the lanes of the result that are written back are the same whatever the inputs' blocks held
    past the arrays' end: every operation is lane-wise (`outBlk_congr`). -/
theorem cut_outBlk (i : grid0.Coords) (d0 d0' : S7x65536.Idx → Elt F .f32) (d1 d1' : S6x65536.Idx → Elt F .f32) (g0) (g1) :
    win0_2.cut i (outBlk (win0_0.fill i d0 g0) (win0_1.fill i d1 g1))
      = win0_2.cut i (outBlk (win0_0.fill i d0' g0) (win0_1.fill i d1' g1)) := by
  funext j
  have hl : (j 1).val < win0_2.xsize i 1 := (j 1).isLt
  have hj : win0_2.xinj i j = ix2 (⟨(j 0).val, Nat.lt_of_lt_of_le (j 0).isLt (win0_2.xsize_le i 0)⟩ : Fin 7)
      (⟨(j 1).val, Nat.lt_of_lt_of_le (j 1).isLt (win0_2.xsize_le i 1)⟩ : Fin 65536) := by
    funext a; match a with | ⟨0, _⟩ => rfl | ⟨1, _⟩ => rfl
  show outBlk _ _ (win0_2.xinj i j) = outBlk _ _ (win0_2.xinj i j)
  rw [hj]
  exact outBlk_congr (fun k => fill0_lane i d0 d0' g0 k _ hl) (fun k => fill1_lane i d1 d1' g1 k _ hl) _

/-! ## The body obligation -/

/-- At every point: the inputs' blocks arrive as fetched over some prior words, the result's holding
    anything; the body leaves the inputs' as they were and the result's at `outBlk` of them — which on
    the lanes inside the array is what the proof data names, all a clipped window's obligation asks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) ((dats m 0 c).after (0 : Fin 3) t)))
    rw [after_0, Window.cut_fill]
    try iexact H0
  isplitl [H1]
  · iexists d1
    change _ ⊢ owns (c : Thread nD τ) (win0_1.stage (cfg0.slots t 1)) fullShare
      (win0_1.fill (grid0.coords t) d1 (win0_1.cut (grid0.coords t) ((dats m 0 c).after (1 : Fin 3) t)))
    rw [after_1, Window.cut_fill]
    try iexact H1
  · iexists outBlk (win0_0.fill (grid0.coords t) d0 (iblk m c 0 t)) (win0_1.fill (grid0.coords t) d1 (iblk m c 1 t))
    change _ ⊢ owns (c : Thread nD τ) (win0_2.stage (cfg0.slots t 2)) fullShare
      (win0_2.fill (grid0.coords t) (outBlk (win0_0.fill (grid0.coords t) d0 (iblk m c 0 t)) (win0_1.fill (grid0.coords t) d1 (iblk m c 1 t)))
        (win0_2.cut (grid0.coords t) ((dats m 0 c).after (2 : Fin 3) t)))
    rw [after_2, win0_2.fill_congr_cut _ (cut_outBlk (grid0.coords t) d0 _ d1 _ _ _)]
    try iexact H2

/-! ## The run and the frame -/

set_option backward.isDefEq.respectTransparency.types false in
/-- At the compiled mesh, for any values, from any memory with zero counters: every weakly fair
    execution of the program terminates, and every final state has each array of the pipeline at what
    the write-backs of the proof data's blocks make it, the buffers written after the region at those
    operations' results, and every other buffer as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end without a fault and its two argument arrays end as they
    began — at any float instance. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame claim of the program read at the exact instance. -/
theorem frame : Cert.frame_KernelIdeal := fun m ρ _ => frame_any (F := Ideal) m ρ

end Cert.KernelIdeal.Hand

end
-- ==== Proof.KerRowsBits.lean ====
import proofs.«161387_j47622597378731_2_alg».proof.Proof.Gen.Kernel.Skeleton
import Idealize.ShloMosaic.Lib.ValueIdx

/-! # The seven rows one grid point leaves in the result's block

The kernel body reads a 7×65536 block X0 (translation and quaternion rows) and a 6×65536 block X1
(twist rows), computes lane by lane, and stores seven 1×65536 rows. Each value that crosses from one
stretch of the body to the next is named here vN (the body's own numbering) as the payload that
computes it applied to the earlier values; rows collects the seven stored values and outBlk reads
them as one 7×65536 block: entry (r, l) is lane l of row r. -/

noncomputable section

namespace Cert.Kernel.Hand

open Idealize.ShloMosaic Idealize.SL.Sem Cert.Kernel Cert.Kernel.Gen

variable {F : FTy → Type} [FloatOps F]

/-- The constant 1/6 (as the nearest single-precision word) the body passes between stretches. -/
def cst_21 : F .f32 := Scalar.ofBits .f32 0x3E2AAAAB#32
/-- The constant 1. -/
def cst_30 : F .f32 := Scalar.ofBits .f32 0x3F800000#32
/-- The constant 0. -/
def cst_37 : F .f32 := Scalar.ofBits .f32 0x00000000#32

def v4 (X0 : Vec F S7x65536 .f32) (X1 : Vec F S6x65536 .f32) : FVec F S1x65536 .f32 := k0_pay3 X0
def v5 (X0 : Vec F S7x65536 .f32) (X1 : Vec F S6x65536 .f32) : FVec F S1x65536 .f32 := k0_pay4 X0
def v6 (X0 : Vec F S7x65536 .f32) (X1 : Vec F S6x65536 .f32) : FVec F S1x65536 .f32 := k0_pay5 X0
def v7 (X0 : Vec F S7x65536 .f32) (X1 : Vec F S6x65536 .f32) : FVec F S1x65536 .f32 := k0_pay6 X0
def v8 (X0 : Vec F S7x65536 .f32) (X1 : Vec F S6x65536 .f32) : FVec F S1x65536 .f32 := k0_pay7 X0
def v9 (X0 : Vec F S7x65536 .f32) (X1 : Vec F S6x65536 .f32) : FVec F S1x65536 .f32 := k0_pay8 X0
def v10 (X0 : Vec F S7x65536 .f32) (X1 : Vec F S6x65536 .f32) : FVec F S1x65536 .f32 := k0_pay9 X0
def v11 (X0 : Vec F S7x65536 .f32) (X1 : Vec F S6x65536 .f32) : FVec F S1x65536 .f32 := k0_pay10 X1
def v12 (X0 : Vec F S7x65536 .f32) (X1 : Vec F S6x65536 .f32) : FVec F S1x65536 .f32 := k0_pay11 X1
def v13 (X0 : Vec F S7x65536 .f32) (X1 : Vec F S6x65536 .f32) : FVec F S1x65536 .f32 := k0_pay12 X1
def v14 (X0 : Vec F S7x65536 .f32) (X1 : Vec F S6x65536 .f32) : FVec F S1x65536 .f32 := k0_pay13 X1
def v15 (X0 : Vec F S7x65536 .f32) (X1 : Vec F S6x65536 .f32) : FVec F S1x65536 .f32 := k0_pay14 X1
def v16 (X0 : Vec F S7x65536 .f32) (X1 : Vec F S6x65536 .f32) : FVec F S1x65536 .f32 := k0_pay15 X1
def v23 (X0 : Vec F S7x65536 .f32) (X1 : Vec F S6x65536 .f32) : FVec F S1x65536 .f32 := k0_pay16 X0
def v28 (X0 : Vec F S7x65536 .f32) (X1 : Vec F S6x65536 .f32) : FVec F S1x65536 .f32 := k0_pay17 X0
def v33 (X0 : Vec F S7x65536 .f32) (X1 : Vec F S6x65536 .f32) : FVec F S1x65536 .f32 := k0_pay18 X0
def v38 (X0 : Vec F S7x65536 .f32) (X1 : Vec F S6x65536 .f32) : FVec F S1x65536 .f32 := k0_pay19 X0
def v45 (X0 : Vec F S7x65536 .f32) (X1 : Vec F S6x65536 .f32) : FVec F S1x65536 .f32 := k0_pay20 X0
def v46 (X0 : Vec F S7x65536 .f32) (X1 : Vec F S6x65536 .f32) : FVec F S1x65536 .f32 := k0_pay21 X0
def v47 (X0 : Vec F S7x65536 .f32) (X1 : Vec F S6x65536 .f32) : FVec F S1x65536 .f32 := k0_pay22 X0
def v50 (X0 : Vec F S7x65536 .f32) (X1 : Vec F S6x65536 .f32) : FVec F S1x65536 .f32 := k0_pay23 (v46 X0 X1) (v47 X0 X1)
def v55 (X0 : Vec F S7x65536 .f32) (X1 : Vec F S6x65536 .f32) : FVec F S1x65536 .f32 := k0_pay24 (v7 X0 X1) (v8 X0 X1) (v9 X0 X1) (v10 X0 X1)
def v60 (X0 : Vec F S7x65536 .f32) (X1 : Vec F S6x65536 .f32) : FVec F S1x65536 .f32 := k0_pay25 (v7 X0 X1) (v8 X0 X1) (v9 X0 X1) (v10 X0 X1)
def v67 (X0 : Vec F S7x65536 .f32) (X1 : Vec F S6x65536 .f32) : FVec F S1x65536 .f32 := k0_pay26 (v8 X0 X1) (v9 X0 X1)
def v74 (X0 : Vec F S7x65536 .f32) (X1 : Vec F S6x65536 .f32) : IVec S1x65536 1 := k0_pay28 (v14 X0 X1) (v15 X0 X1) (v16 X0 X1)
def v86 (X0 : Vec F S7x65536 .f32) (X1 : Vec F S6x65536 .f32) : FVec F S1x65536 .f32 := k0_pay34 (v14 X0 X1) (v15 X0 X1) (v16 X0 X1)
def v91 (X0 : Vec F S7x65536 .f32) (X1 : Vec F S6x65536 .f32) : FVec F S1x65536 .f32 := k0_pay35 (v14 X0 X1) (v15 X0 X1) (v16 X0 X1)
def v94 (X0 : Vec F S7x65536 .f32) (X1 : Vec F S6x65536 .f32) : FVec F S1x65536 .f32 := k0_pay36 (v14 X0 X1) (v15 X0 X1) (v16 X0 X1)
def v96 (X0 : Vec F S7x65536 .f32) (X1 : Vec F S6x65536 .f32) : FVec F S1x65536 .f32 := k0_pay37 (v74 X0 X1) (v94 X0 X1) (cst_21 (F := F))
def v97 (X0 : Vec F S7x65536 .f32) (X1 : Vec F S6x65536 .f32) : FVec F S1x65536 .f32 := k0_pay38 (v14 X0 X1) (v15 X0 X1)
def v98 (X0 : Vec F S7x65536 .f32) (X1 : Vec F S6x65536 .f32) : FVec F S1x65536 .f32 := k0_pay39 (v14 X0 X1) (v16 X0 X1)
def v99 (X0 : Vec F S7x65536 .f32) (X1 : Vec F S6x65536 .f32) : FVec F S1x65536 .f32 := k0_pay40 (v15 X0 X1) (v16 X0 X1)
def v104 (X0 : Vec F S7x65536 .f32) (X1 : Vec F S6x65536 .f32) : FVec F S1x65536 .f32 := k0_pay41 (v15 X0 X1) (v16 X0 X1)
def v109 (X0 : Vec F S7x65536 .f32) (X1 : Vec F S6x65536 .f32) : FVec F S1x65536 .f32 := k0_pay42 (v14 X0 X1) (v16 X0 X1)
def v114 (X0 : Vec F S7x65536 .f32) (X1 : Vec F S6x65536 .f32) : FVec F S1x65536 .f32 := k0_pay43 (v14 X0 X1) (v15 X0 X1)
def v117 (X0 : Vec F S7x65536 .f32) (X1 : Vec F S6x65536 .f32) : FVec F S1x65536 .f32 := k0_pay44 (v15 X0 X1) (v16 X0 X1) (v91 X0 X1)
def v122 (X0 : Vec F S7x65536 .f32) (X1 : Vec F S6x65536 .f32) : FVec F S1x65536 .f32 := k0_pay45 (v14 X0 X1) (v15 X0 X1) (v16 X0 X1) (v86 X0 X1) (v91 X0 X1)
def v125 (X0 : Vec F S7x65536 .f32) (X1 : Vec F S6x65536 .f32) : FVec F S1x65536 .f32 := k0_pay46 (v14 X0 X1) (v15 X0 X1) (v16 X0 X1) (v86 X0 X1) (v91 X0 X1)
def v128 (X0 : Vec F S7x65536 .f32) (X1 : Vec F S6x65536 .f32) : FVec F S1x65536 .f32 := k0_pay47 (v14 X0 X1) (v15 X0 X1) (v16 X0 X1) (v86 X0 X1) (v91 X0 X1)
def v131 (X0 : Vec F S7x65536 .f32) (X1 : Vec F S6x65536 .f32) : FVec F S1x65536 .f32 := k0_pay48 (v14 X0 X1) (v16 X0 X1) (v91 X0 X1)
def v136 (X0 : Vec F S7x65536 .f32) (X1 : Vec F S6x65536 .f32) : FVec F S1x65536 .f32 := k0_pay49 (v14 X0 X1) (v15 X0 X1) (v16 X0 X1) (v86 X0 X1) (v91 X0 X1)
def v141 (X0 : Vec F S7x65536 .f32) (X1 : Vec F S6x65536 .f32) : FVec F S1x65536 .f32 := k0_pay50 (v14 X0 X1) (v15 X0 X1) (v16 X0 X1) (v86 X0 X1) (v91 X0 X1)
def v144 (X0 : Vec F S7x65536 .f32) (X1 : Vec F S6x65536 .f32) : FVec F S1x65536 .f32 := k0_pay51 (v14 X0 X1) (v15 X0 X1) (v16 X0 X1) (v86 X0 X1) (v91 X0 X1)
def v145 (X0 : Vec F S7x65536 .f32) (X1 : Vec F S6x65536 .f32) : FVec F S1x65536 .f32 := k0_pay52 (v14 X0 X1) (v15 X0 X1) (v91 X0 X1)
def v147 (X0 : Vec F S7x65536 .f32) (X1 : Vec F S6x65536 .f32) : FVec F S1x65536 .f32 := k0_pay53 (v145 X0 X1) (cst_30 (F := F))
def v185 (X0 : Vec F S7x65536 .f32) (X1 : Vec F S6x65536 .f32) : FVec F S1x65536 .f32 := k0_pay54 (v11 X0 X1) (v12 X0 X1) (v13 X0 X1) (v15 X0 X1) (v16 X0 X1) (v91 X0 X1) (v96 X0 X1) (v97 X0 X1) (v98 X0 X1) (v104 X0 X1)
def v190 (X0 : Vec F S7x65536 .f32) (X1 : Vec F S6x65536 .f32) : FVec F S1x65536 .f32 := k0_pay55 (v11 X0 X1) (v12 X0 X1) (v13 X0 X1) (v14 X0 X1) (v16 X0 X1) (v91 X0 X1) (v96 X0 X1) (v97 X0 X1) (v99 X0 X1) (v109 X0 X1)
def v195 (X0 : Vec F S7x65536 .f32) (X1 : Vec F S6x65536 .f32) : FVec F S1x65536 .f32 := k0_pay56 (v11 X0 X1) (v12 X0 X1) (v13 X0 X1) (v14 X0 X1) (v15 X0 X1) (v91 X0 X1) (v96 X0 X1) (v98 X0 X1) (v99 X0 X1) (v114 X0 X1)
def v198 (X0 : Vec F S7x65536 .f32) (X1 : Vec F S6x65536 .f32) : FVec F S1x65536 .f32 := k0_pay57 (v4 X0 X1) (v5 X0 X1) (v117 X0 X1) (v122 X0 X1)
def v199 (X0 : Vec F S7x65536 .f32) (X1 : Vec F S6x65536 .f32) : FVec F S1x65536 .f32 := k0_pay58 (v6 X0 X1) (v125 X0 X1)
def v211 (X0 : Vec F S7x65536 .f32) (X1 : Vec F S6x65536 .f32) : FVec F S1x65536 .f32 := k0_pay59 (v185 X0 X1) (v198 X0 X1) (v199 X0 X1)
def v212 (X0 : Vec F S7x65536 .f32) (X1 : Vec F S6x65536 .f32) : FVec F S1x65536 .f32 := k0_pay60 (v4 X0 X1) (v5 X0 X1) (v6 X0 X1) (v128 X0 X1) (v131 X0 X1) (v136 X0 X1) (v190 X0 X1)
def v213 (X0 : Vec F S7x65536 .f32) (X1 : Vec F S6x65536 .f32) : FVec F S1x65536 .f32 := k0_pay61 (v4 X0 X1) (v5 X0 X1) (v6 X0 X1) (v141 X0 X1) (v144 X0 X1) (v147 X0 X1) (v195 X0 X1)
def v218 (X0 : Vec F S7x65536 .f32) (X1 : Vec F S6x65536 .f32) : FVec F S1x65536 .f32 := k0_pay62 (v23 X0 X1) (v38 X0 X1) (v55 X0 X1) (v117 X0 X1) (v122 X0 X1) (v125 X0 X1)
def v223 (X0 : Vec F S7x65536 .f32) (X1 : Vec F S6x65536 .f32) : FVec F S1x65536 .f32 := k0_pay63 (v28 X0 X1) (v45 X0 X1) (v60 X0 X1) (v117 X0 X1) (v122 X0 X1) (v125 X0 X1)
def v228 (X0 : Vec F S7x65536 .f32) (X1 : Vec F S6x65536 .f32) : FVec F S1x65536 .f32 := k0_pay64 (v33 X0 X1) (v50 X0 X1) (v67 X0 X1) (v117 X0 X1) (v122 X0 X1) (v125 X0 X1)
def v233 (X0 : Vec F S7x65536 .f32) (X1 : Vec F S6x65536 .f32) : FVec F S1x65536 .f32 := k0_pay65 (v23 X0 X1) (v38 X0 X1) (v55 X0 X1) (v128 X0 X1) (v131 X0 X1) (v136 X0 X1)
def v238 (X0 : Vec F S7x65536 .f32) (X1 : Vec F S6x65536 .f32) : FVec F S1x65536 .f32 := k0_pay66 (v28 X0 X1) (v45 X0 X1) (v60 X0 X1) (v128 X0 X1) (v131 X0 X1) (v136 X0 X1)
def v243 (X0 : Vec F S7x65536 .f32) (X1 : Vec F S6x65536 .f32) : FVec F S1x65536 .f32 := k0_pay67 (v33 X0 X1) (v50 X0 X1) (v67 X0 X1) (v128 X0 X1) (v131 X0 X1) (v136 X0 X1)
def v248 (X0 : Vec F S7x65536 .f32) (X1 : Vec F S6x65536 .f32) : FVec F S1x65536 .f32 := k0_pay68 (v23 X0 X1) (v38 X0 X1) (v55 X0 X1) (v141 X0 X1) (v144 X0 X1) (v147 X0 X1)
def v253 (X0 : Vec F S7x65536 .f32) (X1 : Vec F S6x65536 .f32) : FVec F S1x65536 .f32 := k0_pay69 (v28 X0 X1) (v45 X0 X1) (v60 X0 X1) (v141 X0 X1) (v144 X0 X1) (v147 X0 X1)
def v258 (X0 : Vec F S7x65536 .f32) (X1 : Vec F S6x65536 .f32) : FVec F S1x65536 .f32 := k0_pay70 (v33 X0 X1) (v50 X0 X1) (v67 X0 X1) (v141 X0 X1) (v144 X0 X1) (v147 X0 X1)
def v265 (X0 : Vec F S7x65536 .f32) (X1 : Vec F S6x65536 .f32) : IVec S1x65536 1 := k0_pay73 (v218 X0 X1) (v238 X0 X1) (v258 X0 X1) (cst_37 (F := F))
def v288 (X0 : Vec F S7x65536 .f32) (X1 : Vec F S6x65536 .f32) : FVec F S1x65536 .f32 := k0_pay80 (v228 X0 X1) (v248 X0 X1)
def v300 (X0 : Vec F S7x65536 .f32) (X1 : Vec F S6x65536 .f32) : FVec F S1x65536 .f32 := k0_pay81 (v218 X0 X1) (v238 X0 X1) (v258 X0 X1) (cst_37 (F := F))
def v303 (X0 : Vec F S7x65536 .f32) (X1 : Vec F S6x65536 .f32) : FVec F S1x65536 .f32 := k0_pay82 (v218 X0 X1) (v223 X0 X1) (v228 X0 X1) (v233 X0 X1) (v238 X0 X1) (v243 X0 X1) (v248 X0 X1) (v253 X0 X1) (v258 X0 X1) (cst_37 (F := F))
def v306 (X0 : Vec F S7x65536 .f32) (X1 : Vec F S6x65536 .f32) : FVec F S1x65536 .f32 := k0_pay83 (v218 X0 X1) (v223 X0 X1) (v228 X0 X1) (v233 X0 X1) (v238 X0 X1) (v243 X0 X1) (v248 X0 X1) (v253 X0 X1) (v258 X0 X1) (cst_37 (F := F))
def v309 (X0 : Vec F S7x65536 .f32) (X1 : Vec F S6x65536 .f32) : FVec F S1x65536 .f32 := k0_pay84 (v218 X0 X1) (v223 X0 X1) (v228 X0 X1) (v233 X0 X1) (v238 X0 X1) (v243 X0 X1) (v248 X0 X1) (v253 X0 X1) (v258 X0 X1) (cst_37 (F := F))
def v311 (X0 : Vec F S7x65536 .f32) (X1 : Vec F S6x65536 .f32) : FVec F S1x65536 .f32 := k0_pay85 (v218 X0 X1) (v223 X0 X1) (v233 X0 X1) (v238 X0 X1) (v243 X0 X1) (v253 X0 X1) (v258 X0 X1) (cst_37 (F := F))
def v324 (X0 : Vec F S7x65536 .f32) (X1 : Vec F S6x65536 .f32) : FVec F S1x65536 .f32 := k0_pay89 (v300 X0 X1) (v303 X0 X1)
def v327 (X0 : Vec F S7x65536 .f32) (X1 : Vec F S6x65536 .f32) : FVec F S1x65536 .f32 := k0_pay90 (v300 X0 X1) (v303 X0 X1) (v306 X0 X1)
def v330 (X0 : Vec F S7x65536 .f32) (X1 : Vec F S6x65536 .f32) : FVec F S1x65536 .f32 := k0_pay91 (v300 X0 X1) (v303 X0 X1) (v309 X0 X1)
def v333 (X0 : Vec F S7x65536 .f32) (X1 : Vec F S6x65536 .f32) : FVec F S1x65536 .f32 := k0_pay92 (v265 X0 X1) (v288 X0 X1) (v300 X0 X1) (v303 X0 X1) (v311 X0 X1)

/-- The seven stored rows: three of the translation, four of the quaternion. -/
def rows (X0 : Vec F S7x65536 .f32) (X1 : Vec F S6x65536 .f32) : Fin 7 → FVec F S1x65536 .f32 :=
  ![v211 X0 X1, v212 X0 X1, v213 X0 X1, v324 X0 X1, v327 X0 X1, v330 X0 X1, v333 X0 X1]

/-- The block the seven row stores leave: entry (r, l) is lane l of row r. -/
def outBlk (X0 : Vec F S7x65536 .f32) (X1 : Vec F S6x65536 .f32) : S7x65536.Idx → Elt F .f32 :=
  fun j => rows X0 X1 (j 0) (ValueIdx.ix2 0 (j 1))

end Cert.Kernel.Hand

end
-- ==== Proof.KerStoresBits.lean ====
import proofs.«161387_j47622597378731_2_alg».proof.Proof.KerRowsBits
import Idealize.ShloMosaic.Lib.Pipeline.FrameBody
import Idealize.ShloMosaic.Lib.Writes

/-! # Seven row stores make one block

The body writes its result one row at a time: row k of the 7×65536 block receives a 1×65536 vector,
for k = 0, …, 6. Each store covers exactly the indices whose first coordinate is k, so the seven
stores tile the block, no two overlap, and after all of them entry (k, l) of the block is lane l of
the vector stored to row k — whatever the block held before. -/

noncomputable section

namespace Cert.Kernel.Hand

open Idealize.ShloMosaic Idealize.SL.Sem Cert.Kernel Cert.Kernel.Gen
open Idealize.ShloMosaic.ValueIdx

variable {F : FTy → Type} [FloatOps F]

/-- Lane l of the row stored at row k lands at entry (k, l) of the block. -/
theorem row_emb (k : Nat) (hk : k < 7) (h : ∀ a, (![k, 0] : Fin 2 → Nat) a + S1x65536.size a ≤ S7x65536.size a)
    (l : Fin 65536) :
    (Rect.unit (s := S7x65536) ![k, 0] S1x65536.size h).emb (ix2 (0 : Fin 1) l) = ix2 (⟨k, hk⟩ : Fin 7) l := by
  funext a; apply Fin.ext; rw [Rect.emb_apply]
  match a with
  | ⟨0, _⟩ => show k + 1 * 0 = k; omega
  | ⟨1, _⟩ => show 0 + 1 * l.val = l.val; omega

/-- Entry (r, l) lies in the store to row k exactly when r = k. -/
theorem mem_row_iff (k : Nat) (h : ∀ a, (![k, 0] : Fin 2 → Nat) a + S1x65536.size a ≤ S7x65536.size a)
    (r : Fin 7) (l : Fin 65536) :
    ix2 r l ∈ (Rect.unit (s := S7x65536) ![k, 0] S1x65536.size h).set ↔ r.val = k := by
  rw [Rect.mem_set_unit]
  constructor
  · intro hm
    have h0 := hm 0
    change k ≤ r.val ∧ r.val < k + 1 at h0
    omega
  · intro e a
    match a with
    | ⟨0, _⟩ => show k ≤ r.val ∧ r.val < k + 1; omega
    | ⟨1, _⟩ => show 0 ≤ l.val ∧ l.val < 0 + 65536; exact ⟨Nat.zero_le _, by have := l.isLt; omega⟩

/-- A store to another row leaves entry (r, l) as the earlier stores made it. -/
theorem canon_cons_row_ne (k : Nat) (h : ∀ a, (![k, 0] : Fin 2 → Nat) a + S1x65536.size a ≤ S7x65536.size a)
    (w : FVec F S1x65536 .f32) (L : List (View.Piece (Elt F) S7x65536 .f32)) (r : Fin 7) (l : Fin 65536) (hne : r.val ≠ k) :
    View.canon ((⟨Rect.unit (s := S7x65536) ![k, 0] S1x65536.size h, w⟩ : View.Piece (Elt F) S7x65536 .f32) :: L) (ix2 r l)
      = View.canon L (ix2 r l) :=
  View.canon_cons_of_not_mem (⟨Rect.unit (s := S7x65536) ![k, 0] S1x65536.size h, w⟩ : View.Piece (Elt F) S7x65536 .f32) L
    (fun hm => hne ((mem_row_iff k h r l).mp hm))

/-- The store to row k, made last, leaves lane l of its vector at entry (k, l). -/
theorem canon_cons_row_eq (k : Nat) (hk : k < 7) (h : ∀ a, (![k, 0] : Fin 2 → Nat) a + S1x65536.size a ≤ S7x65536.size a)
    (w : FVec F S1x65536 .f32) (L : List (View.Piece (Elt F) S7x65536 .f32)) (l : Fin 65536) :
    View.canon ((⟨Rect.unit (s := S7x65536) ![k, 0] S1x65536.size h, w⟩ : View.Piece (Elt F) S7x65536 .f32) :: L) (ix2 (⟨k, hk⟩ : Fin 7) l)
      = w (ix2 (0 : Fin 1) l) :=
  (congrArg (View.canon ((⟨Rect.unit (s := S7x65536) ![k, 0] S1x65536.size h, w⟩ : View.Piece (Elt F) S7x65536 .f32) :: L))
      (row_emb k hk h l).symm).trans
    (by
      -- read back at the indices it wrote, the last store gives its own vector
      have e := View.canon_cons_emb (Rect.unit (s := S7x65536) ![k, 0] S1x65536.size h) w L (ix2 (0 : Fin 1) l)
      exact e)

/-- The seven row stores, last first, as the list of pieces they write. -/
abbrev rowPieces (p : Fin 7 → FVec F S1x65536 .f32) : List (View.Piece (Elt F) S7x65536 .f32) :=
  [⟨Rect.unit (s := S7x65536) ![6, 0] S1x65536.size inb_S7x65536_S1x65536_6_0, p 6⟩,
   ⟨Rect.unit (s := S7x65536) ![5, 0] S1x65536.size inb_S7x65536_S1x65536_5_0, p 5⟩,
   ⟨Rect.unit (s := S7x65536) ![4, 0] S1x65536.size inb_S7x65536_S1x65536_4_0, p 4⟩,
   ⟨Rect.unit (s := S7x65536) ![3, 0] S1x65536.size inb_S7x65536_S1x65536_3_0, p 3⟩,
   ⟨Rect.unit (s := S7x65536) ![2, 0] S1x65536.size inb_S7x65536_S1x65536_2_0, p 2⟩,
   ⟨Rect.unit (s := S7x65536) ![1, 0] S1x65536.size inb_S7x65536_S1x65536_1_0, p 1⟩,
   ⟨Rect.unit (s := S7x65536) ![0, 0] S1x65536.size inb_S7x65536_S1x65536_0_0, p 0⟩]

/-- The seven rows tile the block, so every entry lies in one of them. -/
theorem cover_rows (p : Fin 7 → FVec F S1x65536 .f32) (y : S7x65536.Idx) :
    ∃ pc ∈ rowPieces p, y ∈ pc.1.set := by
  obtain ⟨r, l, rfl⟩ : ∃ (r : Fin 7) (l : Fin 65536), y = ix2 r l := ⟨y 0, y 1, eq_ix2 y⟩
  obtain ⟨r, hr⟩ := r
  unfold rowPieces
  interval_cases r
  · exact ⟨_, List.mem_cons_of_mem _ (List.mem_cons_of_mem _ (List.mem_cons_of_mem _ (List.mem_cons_of_mem _ (List.mem_cons_of_mem _ (List.mem_cons_of_mem _ List.mem_cons_self))))), (mem_row_iff 0 inb_S7x65536_S1x65536_0_0 ⟨0, hr⟩ l).mpr rfl⟩
  · exact ⟨_, List.mem_cons_of_mem _ (List.mem_cons_of_mem _ (List.mem_cons_of_mem _ (List.mem_cons_of_mem _ (List.mem_cons_of_mem _ List.mem_cons_self)))), (mem_row_iff 1 inb_S7x65536_S1x65536_1_0 ⟨1, hr⟩ l).mpr rfl⟩
  · exact ⟨_, List.mem_cons_of_mem _ (List.mem_cons_of_mem _ (List.mem_cons_of_mem _ (List.mem_cons_of_mem _ List.mem_cons_self))), (mem_row_iff 2 inb_S7x65536_S1x65536_2_0 ⟨2, hr⟩ l).mpr rfl⟩
  · exact ⟨_, List.mem_cons_of_mem _ (List.mem_cons_of_mem _ (List.mem_cons_of_mem _ List.mem_cons_self)), (mem_row_iff 3 inb_S7x65536_S1x65536_3_0 ⟨3, hr⟩ l).mpr rfl⟩
  · exact ⟨_, List.mem_cons_of_mem _ (List.mem_cons_of_mem _ List.mem_cons_self), (mem_row_iff 4 inb_S7x65536_S1x65536_4_0 ⟨4, hr⟩ l).mpr rfl⟩
  · exact ⟨_, List.mem_cons_of_mem _ List.mem_cons_self, (mem_row_iff 5 inb_S7x65536_S1x65536_5_0 ⟨5, hr⟩ l).mpr rfl⟩
  · exact ⟨_, List.mem_cons_self, (mem_row_iff 6 inb_S7x65536_S1x65536_6_0 ⟨6, hr⟩ l).mpr rfl⟩

/-- After the seven stores entry (k, l) is lane l of the vector stored to row k. -/
theorem canon_rows (p : Fin 7 → FVec F S1x65536 .f32) :
    View.canon (rowPieces p) = fun j => p (j 0) (ix2 0 (j 1)) := by
  funext j
  obtain ⟨r, l, rfl⟩ : ∃ (r : Fin 7) (l : Fin 65536), j = ix2 r l := ⟨j 0, j 1, eq_ix2 j⟩
  show View.canon (rowPieces p) (ix2 r l) = p r (ix2 0 l)
  obtain ⟨r, hr⟩ := r
  unfold rowPieces
  interval_cases r
  · rw [canon_cons_row_ne 6 _ _ _ _ l (Nat.ne_of_lt (show (0 : ℕ) < 6 by decide)),
      canon_cons_row_ne 5 _ _ _ _ l (Nat.ne_of_lt (show (0 : ℕ) < 5 by decide)),
      canon_cons_row_ne 4 _ _ _ _ l (Nat.ne_of_lt (show (0 : ℕ) < 4 by decide)),
      canon_cons_row_ne 3 _ _ _ _ l (Nat.ne_of_lt (show (0 : ℕ) < 3 by decide)),
      canon_cons_row_ne 2 _ _ _ _ l (Nat.ne_of_lt (show (0 : ℕ) < 2 by decide)),
      canon_cons_row_ne 1 _ _ _ _ l (Nat.ne_of_lt (show (0 : ℕ) < 1 by decide)),
      canon_cons_row_eq 0 hr]
    rfl
  · rw [canon_cons_row_ne 6 _ _ _ _ l (Nat.ne_of_lt (show (1 : ℕ) < 6 by decide)),
      canon_cons_row_ne 5 _ _ _ _ l (Nat.ne_of_lt (show (1 : ℕ) < 5 by decide)),
      canon_cons_row_ne 4 _ _ _ _ l (Nat.ne_of_lt (show (1 : ℕ) < 4 by decide)),
      canon_cons_row_ne 3 _ _ _ _ l (Nat.ne_of_lt (show (1 : ℕ) < 3 by decide)),
      canon_cons_row_ne 2 _ _ _ _ l (Nat.ne_of_lt (show (1 : ℕ) < 2 by decide)),
      canon_cons_row_eq 1 hr]
    rfl
  · rw [canon_cons_row_ne 6 _ _ _ _ l (Nat.ne_of_lt (show (2 : ℕ) < 6 by decide)),
      canon_cons_row_ne 5 _ _ _ _ l (Nat.ne_of_lt (show (2 : ℕ) < 5 by decide)),
      canon_cons_row_ne 4 _ _ _ _ l (Nat.ne_of_lt (show (2 : ℕ) < 4 by decide)),
      canon_cons_row_ne 3 _ _ _ _ l (Nat.ne_of_lt (show (2 : ℕ) < 3 by decide)),
      canon_cons_row_eq 2 hr]
    rfl
  · rw [canon_cons_row_ne 6 _ _ _ _ l (Nat.ne_of_lt (show (3 : ℕ) < 6 by decide)),
      canon_cons_row_ne 5 _ _ _ _ l (Nat.ne_of_lt (show (3 : ℕ) < 5 by decide)),
      canon_cons_row_ne 4 _ _ _ _ l (Nat.ne_of_lt (show (3 : ℕ) < 4 by decide)),
      canon_cons_row_eq 3 hr]
    rfl
  · rw [canon_cons_row_ne 6 _ _ _ _ l (Nat.ne_of_lt (show (4 : ℕ) < 6 by decide)),
      canon_cons_row_ne 5 _ _ _ _ l (Nat.ne_of_lt (show (4 : ℕ) < 5 by decide)),
      canon_cons_row_eq 4 hr]
    rfl
  · rw [canon_cons_row_ne 6 _ _ _ _ l (Nat.ne_of_lt (show (5 : ℕ) < 6 by decide)),
      canon_cons_row_eq 5 hr]
    rfl
  · rw [canon_cons_row_eq 6 hr]
    rfl

/-- So the seven stores of the rows of `outBlk X0 X1` leave that block. -/
theorem canon_rows_outBlk (X0 : Vec F S7x65536 .f32) (X1 : Vec F S6x65536 .f32) :
    View.canon (rowPieces (rows X0 X1)) = outBlk X0 X1 :=
  canon_rows (rows X0 X1)

end Cert.Kernel.Hand

end
-- ==== Proof.KerScalarBits.lean ====
import proofs.«161387_j47622597378731_2_alg».proof.Proof.KerRowsBits

/-! # One lane of the kernel body

Every operation of the body acts on each of the 65536 lanes separately: an arithmetic operation, a comparison or a
choice is applied lane by lane, a splat constant is the same number in every lane. So lane l of a payload is the same
list of operations applied to lane l of its operands. sN is payload N's list over scalars (a is one column of the 7-row
block, b one column of the 6-row block); payN_lane says lane l of payload N is sN of lane l of the operands, which holds by
unfolding alone; svN wires the scalar lists together exactly as vN wires the payloads, and sRows collects the seven stored
values of one lane. -/

noncomputable section

namespace Cert.Kernel.Hand

open Idealize.ShloMosaic Idealize.SL.Sem Cert.Kernel Cert.Kernel.Gen

variable {F : FTy → Type} [FloatOps F]

/-! ## The rows of the two blocks, at one lane -/
def s3 (a : Fin 7 → F .f32) : F .f32 := a 0
def s4 (a : Fin 7 → F .f32) : F .f32 := a 1
def s5 (a : Fin 7 → F .f32) : F .f32 := a 2
def s6 (a : Fin 7 → F .f32) : F .f32 := a 3
def s7 (a : Fin 7 → F .f32) : F .f32 := a 4
def s8 (a : Fin 7 → F .f32) : F .f32 := a 5
def s9 (a : Fin 7 → F .f32) : F .f32 := a 6
def s10 (b : Fin 6 → F .f32) : F .f32 := b 0
def s11 (b : Fin 6 → F .f32) : F .f32 := b 1
def s12 (b : Fin 6 → F .f32) : F .f32 := b 2
def s13 (b : Fin 6 → F .f32) : F .f32 := b 3
def s14 (b : Fin 6 → F .f32) : F .f32 := b 4
def s15 (b : Fin 6 → F .f32) : F .f32 := b 5

/-! ## The payloads' operation lists over scalars -/
def s16 (a : Fin 7 → F .f32) : F .f32 :=
  have v17 : F .f32 := FloatOps.mulf (s8 a) (s8 a)
  have v18 : F .f32 := FloatOps.mulf (s9 a) (s9 a)
  have v19 : F .f32 := FloatOps.addf v17 v18
  have cst : F .f32 := Scalar.ofBits .f32 0x40000000#32
  have v20 : F .f32 := cst
  have v21 : F .f32 := FloatOps.mulf v20 v19
  have cst_3 : F .f32 := Scalar.ofBits .f32 0x3F800000#32
  have v22 : F .f32 := cst_3
  have v23 : F .f32 := FloatOps.subf v22 v21
  v23
def s17 (a : Fin 7 → F .f32) : F .f32 :=
  have v24 : F .f32 := FloatOps.mulf (s7 a) (s8 a)
  have v25 : F .f32 := FloatOps.mulf (s9 a) (s6 a)
  have v26 : F .f32 := FloatOps.subf v24 v25
  have cst_4 : F .f32 := Scalar.ofBits .f32 0x40000000#32
  have v27 : F .f32 := cst_4
  have v28 : F .f32 := FloatOps.mulf v27 v26
  v28
def s18 (a : Fin 7 → F .f32) : F .f32 :=
  have v29 : F .f32 := FloatOps.mulf (s7 a) (s9 a)
  have v30 : F .f32 := FloatOps.mulf (s8 a) (s6 a)
  have v31 : F .f32 := FloatOps.addf v29 v30
  have cst_5 : F .f32 := Scalar.ofBits .f32 0x40000000#32
  have v32 : F .f32 := cst_5
  have v33 : F .f32 := FloatOps.mulf v32 v31
  v33
def s19 (a : Fin 7 → F .f32) : F .f32 :=
  have v34 : F .f32 := FloatOps.mulf (s7 a) (s8 a)
  have v35 : F .f32 := FloatOps.mulf (s9 a) (s6 a)
  have v36 : F .f32 := FloatOps.addf v34 v35
  have cst_6 : F .f32 := Scalar.ofBits .f32 0x40000000#32
  have v37 : F .f32 := cst_6
  have v38 : F .f32 := FloatOps.mulf v37 v36
  v38
def s20 (a : Fin 7 → F .f32) : F .f32 :=
  have v39 : F .f32 := FloatOps.mulf (s7 a) (s7 a)
  have v40 : F .f32 := FloatOps.mulf (s9 a) (s9 a)
  have v41 : F .f32 := FloatOps.addf v39 v40
  have cst_7 : F .f32 := Scalar.ofBits .f32 0x40000000#32
  have v42 : F .f32 := cst_7
  have v43 : F .f32 := FloatOps.mulf v42 v41
  have cst_8 : F .f32 := Scalar.ofBits .f32 0x3F800000#32
  have v44 : F .f32 := cst_8
  have v45 : F .f32 := FloatOps.subf v44 v43
  v45
def s21 (a : Fin 7 → F .f32) : F .f32 :=
  have v46 : F .f32 := FloatOps.mulf (s8 a) (s9 a)
  v46
def s22 (a : Fin 7 → F .f32) : F .f32 :=
  have v47 : F .f32 := FloatOps.mulf (s7 a) (s6 a)
  v47
def s23 (v46 : F .f32) (v47 : F .f32) : F .f32 :=
  have v48 : F .f32 := FloatOps.subf v46 v47
  have cst_9 : F .f32 := Scalar.ofBits .f32 0x40000000#32
  have v49 : F .f32 := cst_9
  have v50 : F .f32 := FloatOps.mulf v49 v48
  v50
def s24 (v7 : F .f32) (v8 : F .f32) (v9 : F .f32) (v10 : F .f32) : F .f32 :=
  have v51 : F .f32 := FloatOps.mulf v8 v10
  have v52 : F .f32 := FloatOps.mulf v9 v7
  have v53 : F .f32 := FloatOps.subf v51 v52
  have cst_10 : F .f32 := Scalar.ofBits .f32 0x40000000#32
  have v54 : F .f32 := cst_10
  have v55 : F .f32 := FloatOps.mulf v54 v53
  v55
def s25 (v7 : F .f32) (v8 : F .f32) (v9 : F .f32) (v10 : F .f32) : F .f32 :=
  have v56 : F .f32 := FloatOps.mulf v9 v10
  have v57 : F .f32 := FloatOps.mulf v8 v7
  have v58 : F .f32 := FloatOps.addf v56 v57
  have cst_11 : F .f32 := Scalar.ofBits .f32 0x40000000#32
  have v59 : F .f32 := cst_11
  have v60 : F .f32 := FloatOps.mulf v59 v58
  v60
def s26 (v8 : F .f32) (v9 : F .f32) : F .f32 :=
  have v61 : F .f32 := FloatOps.mulf v8 v8
  have v62 : F .f32 := FloatOps.mulf v9 v9
  have v63 : F .f32 := FloatOps.addf v61 v62
  have cst_12 : F .f32 := Scalar.ofBits .f32 0x40000000#32
  have v64 : F .f32 := cst_12
  have v65 : F .f32 := FloatOps.mulf v64 v63
  have cst_13 : F .f32 := Scalar.ofBits .f32 0x3F800000#32
  have v66 : F .f32 := cst_13
  have v67 : F .f32 := FloatOps.subf v66 v65
  v67
def s27 (v14 : F .f32) (v15 : F .f32) (v16 : F .f32) : F .f32 :=
  have v68 : F .f32 := FloatOps.mulf v14 v14
  have v69 : F .f32 := FloatOps.mulf v15 v15
  have v70 : F .f32 := FloatOps.addf v68 v69
  have v71 : F .f32 := FloatOps.mulf v16 v16
  have v72 : F .f32 := FloatOps.addf v70 v71
  v72
def s28 (v14 : F .f32) (v15 : F .f32) (v16 : F .f32) : BitVec 1 :=
  have cst_14 : F .f32 := Scalar.ofBits .f32 0x2B8CBCCC#32
  have v73 : F .f32 := cst_14
  have v74 : BitVec 1 := FloatOps.cmpf .ogt (s27 v14 v15 v16) v73
  v74
def s29 (v14 : F .f32) (v15 : F .f32) (v16 : F .f32) : F .f32 :=
  have cst_15 : F .f32 := Scalar.ofBits .f32 0x3F800000#32
  have v75 : F .f32 := cst_15
  have v76 : F .f32 := Scalar.select (s28 v14 v15 v16) (s27 v14 v15 v16) v75
  v76
def s30 (v14 : F .f32) (v15 : F .f32) (v16 : F .f32) : F .f32 :=
  have v77 : F .f32 := FloatOps.sqrt (s29 v14 v15 v16)
  v77
def s31 (v14 : F .f32) (v15 : F .f32) (v16 : F .f32) : F .f32 :=
  have v78 : F .f32 := FloatOps.sin (s30 v14 v15 v16)
  v78
def s32 (v14 : F .f32) (v15 : F .f32) (v16 : F .f32) : F .f32 :=
  have cst_16 : F .f32 := Scalar.ofBits .f32 0x3F800000#32
  have v80 : F .f32 := cst_16
  have v81 : F .f32 := FloatOps.divf v80 (s29 v14 v15 v16)
  v81
def s33 (v14 : F .f32) (v15 : F .f32) (v16 : F .f32) : F .f32 :=
  have cst_17 : F .f32 := Scalar.ofBits .f32 0x3F800000#32
  have v82 : F .f32 := cst_17
  have v83 : F .f32 := FloatOps.divf v82 (s30 v14 v15 v16)
  v83
def s34 (v14 : F .f32) (v15 : F .f32) (v16 : F .f32) : F .f32 :=
  have v84 : F .f32 := FloatOps.mulf (s31 v14 v15 v16) (s33 v14 v15 v16)
  have cst_18 : F .f32 := Scalar.ofBits .f32 0x3F800000#32
  have v85 : F .f32 := cst_18
  have v86 : F .f32 := Scalar.select (s28 v14 v15 v16) v84 v85
  v86
def s35 (v14 : F .f32) (v15 : F .f32) (v16 : F .f32) : F .f32 :=
  have v79 : F .f32 := FloatOps.cos (s30 v14 v15 v16)
  have cst_19 : F .f32 := Scalar.ofBits .f32 0x3F800000#32
  have v87 : F .f32 := cst_19
  have v88 : F .f32 := FloatOps.subf v87 v79
  have v89 : F .f32 := FloatOps.mulf v88 (s32 v14 v15 v16)
  have cst_20 : F .f32 := Scalar.ofBits .f32 0x00000000#32
  have v90 : F .f32 := cst_20
  have v91 : F .f32 := Scalar.select (s28 v14 v15 v16) v89 v90
  v91
def s36 (v14 : F .f32) (v15 : F .f32) (v16 : F .f32) : F .f32 :=
  have v92 : F .f32 := FloatOps.subf (s30 v14 v15 v16) (s31 v14 v15 v16)
  have v93 : F .f32 := FloatOps.mulf v92 (s32 v14 v15 v16)
  have v94 : F .f32 := FloatOps.mulf v93 (s33 v14 v15 v16)
  v94
def s37 (v74 : BitVec 1) (v94 : F .f32) (cst_21 : F .f32) : F .f32 :=
  have v95 : F .f32 := cst_21
  have v96 : F .f32 := Scalar.select v74 v94 v95
  v96
def s38 (v14 : F .f32) (v15 : F .f32) : F .f32 :=
  have v97 : F .f32 := FloatOps.mulf v14 v15
  v97
def s39 (v14 : F .f32) (v16 : F .f32) : F .f32 :=
  have v98 : F .f32 := FloatOps.mulf v14 v16
  v98
def s40 (v15 : F .f32) (v16 : F .f32) : F .f32 :=
  have v99 : F .f32 := FloatOps.mulf v15 v16
  v99
def s41 (v15 : F .f32) (v16 : F .f32) : F .f32 :=
  have v100 : F .f32 := FloatOps.mulf v15 v15
  have v101 : F .f32 := FloatOps.mulf v16 v16
  have v102 : F .f32 := FloatOps.addf v100 v101
  have cst_22 : F .f32 := Scalar.ofBits .f32 0x00000000#32
  have v103 : F .f32 := cst_22
  have v104 : F .f32 := FloatOps.subf v103 v102
  v104
def s42 (v14 : F .f32) (v16 : F .f32) : F .f32 :=
  have v105 : F .f32 := FloatOps.mulf v14 v14
  have v106 : F .f32 := FloatOps.mulf v16 v16
  have v107 : F .f32 := FloatOps.addf v105 v106
  have cst_23 : F .f32 := Scalar.ofBits .f32 0x00000000#32
  have v108 : F .f32 := cst_23
  have v109 : F .f32 := FloatOps.subf v108 v107
  v109
def s43 (v14 : F .f32) (v15 : F .f32) : F .f32 :=
  have v110 : F .f32 := FloatOps.mulf v14 v14
  have v111 : F .f32 := FloatOps.mulf v15 v15
  have v112 : F .f32 := FloatOps.addf v110 v111
  have cst_24 : F .f32 := Scalar.ofBits .f32 0x00000000#32
  have v113 : F .f32 := cst_24
  have v114 : F .f32 := FloatOps.subf v113 v112
  v114
def s44 (v15 : F .f32) (v16 : F .f32) (v91 : F .f32) : F .f32 :=
  have v115 : F .f32 := FloatOps.mulf v91 (s41 v15 v16)
  have cst_25 : F .f32 := Scalar.ofBits .f32 0x3F800000#32
  have v116 : F .f32 := cst_25
  have v117 : F .f32 := FloatOps.addf v116 v115
  v117
def s45 (v14 : F .f32) (v15 : F .f32) (v16 : F .f32) (v86 : F .f32) (v91 : F .f32) : F .f32 :=
  have cst_26 : F .f32 := Scalar.ofBits .f32 0x00000000#32
  have v118 : F .f32 := cst_26
  have v119 : F .f32 := FloatOps.subf v118 v86
  have v120 : F .f32 := FloatOps.mulf v119 v16
  have v121 : F .f32 := FloatOps.mulf v91 (s38 v14 v15)
  have v122 : F .f32 := FloatOps.addf v120 v121
  v122
def s46 (v14 : F .f32) (v15 : F .f32) (v16 : F .f32) (v86 : F .f32) (v91 : F .f32) : F .f32 :=
  have v123 : F .f32 := FloatOps.mulf v86 v15
  have v124 : F .f32 := FloatOps.mulf v91 (s39 v14 v16)
  have v125 : F .f32 := FloatOps.addf v123 v124
  v125
def s47 (v14 : F .f32) (v15 : F .f32) (v16 : F .f32) (v86 : F .f32) (v91 : F .f32) : F .f32 :=
  have v126 : F .f32 := FloatOps.mulf v86 v16
  have v127 : F .f32 := FloatOps.mulf v91 (s38 v14 v15)
  have v128 : F .f32 := FloatOps.addf v126 v127
  v128
def s48 (v14 : F .f32) (v16 : F .f32) (v91 : F .f32) : F .f32 :=
  have v129 : F .f32 := FloatOps.mulf v91 (s42 v14 v16)
  have cst_27 : F .f32 := Scalar.ofBits .f32 0x3F800000#32
  have v130 : F .f32 := cst_27
  have v131 : F .f32 := FloatOps.addf v130 v129
  v131
def s49 (v14 : F .f32) (v15 : F .f32) (v16 : F .f32) (v86 : F .f32) (v91 : F .f32) : F .f32 :=
  have cst_28 : F .f32 := Scalar.ofBits .f32 0x00000000#32
  have v132 : F .f32 := cst_28
  have v133 : F .f32 := FloatOps.subf v132 v86
  have v134 : F .f32 := FloatOps.mulf v133 v14
  have v135 : F .f32 := FloatOps.mulf v91 (s40 v15 v16)
  have v136 : F .f32 := FloatOps.addf v134 v135
  v136
def s50 (v14 : F .f32) (v15 : F .f32) (v16 : F .f32) (v86 : F .f32) (v91 : F .f32) : F .f32 :=
  have cst_29 : F .f32 := Scalar.ofBits .f32 0x00000000#32
  have v137 : F .f32 := cst_29
  have v138 : F .f32 := FloatOps.subf v137 v86
  have v139 : F .f32 := FloatOps.mulf v138 v15
  have v140 : F .f32 := FloatOps.mulf v91 (s39 v14 v16)
  have v141 : F .f32 := FloatOps.addf v139 v140
  v141
def s51 (v14 : F .f32) (v15 : F .f32) (v16 : F .f32) (v86 : F .f32) (v91 : F .f32) : F .f32 :=
  have v142 : F .f32 := FloatOps.mulf v86 v14
  have v143 : F .f32 := FloatOps.mulf v91 (s40 v15 v16)
  have v144 : F .f32 := FloatOps.addf v142 v143
  v144
def s52 (v14 : F .f32) (v15 : F .f32) (v91 : F .f32) : F .f32 :=
  have v145 : F .f32 := FloatOps.mulf v91 (s43 v14 v15)
  v145
def s53 (v145 : F .f32) (cst_30 : F .f32) : F .f32 :=
  have v146 : F .f32 := cst_30
  have v147 : F .f32 := FloatOps.addf v146 v145
  v147
def s54 (v11 : F .f32) (v12 : F .f32) (v13 : F .f32) (v15 : F .f32) (v16 : F .f32) (v91 : F .f32) (v96 : F .f32) (v97 : F .f32) (v98 : F .f32) (v104 : F .f32) : F .f32 :=
  have v148 : F .f32 := FloatOps.mulf v96 v104
  have cst_31 : F .f32 := Scalar.ofBits .f32 0x3F800000#32
  have v149 : F .f32 := cst_31
  have v150 : F .f32 := FloatOps.addf v149 v148
  have cst_32 : F .f32 := Scalar.ofBits .f32 0x00000000#32
  have v151 : F .f32 := cst_32
  have v152 : F .f32 := FloatOps.subf v151 v91
  have v153 : F .f32 := FloatOps.mulf v152 v16
  have v154 : F .f32 := FloatOps.mulf v96 v97
  have v155 : F .f32 := FloatOps.addf v153 v154
  have v156 : F .f32 := FloatOps.mulf v91 v15
  have v157 : F .f32 := FloatOps.mulf v96 v98
  have v158 : F .f32 := FloatOps.addf v156 v157
  have v181 : F .f32 := FloatOps.mulf v150 v11
  have v182 : F .f32 := FloatOps.mulf v155 v12
  have v183 : F .f32 := FloatOps.addf v181 v182
  have v184 : F .f32 := FloatOps.mulf v158 v13
  have v185 : F .f32 := FloatOps.addf v183 v184
  v185
def s55 (v11 : F .f32) (v12 : F .f32) (v13 : F .f32) (v14 : F .f32) (v16 : F .f32) (v91 : F .f32) (v96 : F .f32) (v97 : F .f32) (v99 : F .f32) (v109 : F .f32) : F .f32 :=
  have v159 : F .f32 := FloatOps.mulf v91 v16
  have v160 : F .f32 := FloatOps.mulf v96 v97
  have v161 : F .f32 := FloatOps.addf v159 v160
  have v162 : F .f32 := FloatOps.mulf v96 v109
  have cst_33 : F .f32 := Scalar.ofBits .f32 0x3F800000#32
  have v163 : F .f32 := cst_33
  have v164 : F .f32 := FloatOps.addf v163 v162
  have cst_34 : F .f32 := Scalar.ofBits .f32 0x00000000#32
  have v165 : F .f32 := cst_34
  have v166 : F .f32 := FloatOps.subf v165 v91
  have v167 : F .f32 := FloatOps.mulf v166 v14
  have v168 : F .f32 := FloatOps.mulf v96 v99
  have v169 : F .f32 := FloatOps.addf v167 v168
  have v186 : F .f32 := FloatOps.mulf v161 v11
  have v187 : F .f32 := FloatOps.mulf v164 v12
  have v188 : F .f32 := FloatOps.addf v186 v187
  have v189 : F .f32 := FloatOps.mulf v169 v13
  have v190 : F .f32 := FloatOps.addf v188 v189
  v190
def s56 (v11 : F .f32) (v12 : F .f32) (v13 : F .f32) (v14 : F .f32) (v15 : F .f32) (v91 : F .f32) (v96 : F .f32) (v98 : F .f32) (v99 : F .f32) (v114 : F .f32) : F .f32 :=
  have cst_35 : F .f32 := Scalar.ofBits .f32 0x00000000#32
  have v170 : F .f32 := cst_35
  have v171 : F .f32 := FloatOps.subf v170 v91
  have v172 : F .f32 := FloatOps.mulf v171 v15
  have v173 : F .f32 := FloatOps.mulf v96 v98
  have v174 : F .f32 := FloatOps.addf v172 v173
  have v175 : F .f32 := FloatOps.mulf v91 v14
  have v176 : F .f32 := FloatOps.mulf v96 v99
  have v177 : F .f32 := FloatOps.addf v175 v176
  have v178 : F .f32 := FloatOps.mulf v96 v114
  have cst_36 : F .f32 := Scalar.ofBits .f32 0x3F800000#32
  have v179 : F .f32 := cst_36
  have v180 : F .f32 := FloatOps.addf v179 v178
  have v191 : F .f32 := FloatOps.mulf v174 v11
  have v192 : F .f32 := FloatOps.mulf v177 v12
  have v193 : F .f32 := FloatOps.addf v191 v192
  have v194 : F .f32 := FloatOps.mulf v180 v13
  have v195 : F .f32 := FloatOps.addf v193 v194
  v195
def s57 (v4 : F .f32) (v5 : F .f32) (v117 : F .f32) (v122 : F .f32) : F .f32 :=
  have v196 : F .f32 := FloatOps.mulf v117 v4
  have v197 : F .f32 := FloatOps.mulf v122 v5
  have v198 : F .f32 := FloatOps.addf v196 v197
  v198
def s58 (v6 : F .f32) (v125 : F .f32) : F .f32 :=
  have v199 : F .f32 := FloatOps.mulf v125 v6
  v199
def s59 (v185 : F .f32) (v198 : F .f32) (v199 : F .f32) : F .f32 :=
  have v200 : F .f32 := FloatOps.addf v198 v199
  have v211 : F .f32 := FloatOps.addf v200 v185
  v211
def s60 (v4 : F .f32) (v5 : F .f32) (v6 : F .f32) (v128 : F .f32) (v131 : F .f32) (v136 : F .f32) (v190 : F .f32) : F .f32 :=
  have v201 : F .f32 := FloatOps.mulf v128 v4
  have v202 : F .f32 := FloatOps.mulf v131 v5
  have v203 : F .f32 := FloatOps.addf v201 v202
  have v204 : F .f32 := FloatOps.mulf v136 v6
  have v205 : F .f32 := FloatOps.addf v203 v204
  have v212 : F .f32 := FloatOps.addf v205 v190
  v212
def s61 (v4 : F .f32) (v5 : F .f32) (v6 : F .f32) (v141 : F .f32) (v144 : F .f32) (v147 : F .f32) (v195 : F .f32) : F .f32 :=
  have v206 : F .f32 := FloatOps.mulf v141 v4
  have v207 : F .f32 := FloatOps.mulf v144 v5
  have v208 : F .f32 := FloatOps.addf v206 v207
  have v209 : F .f32 := FloatOps.mulf v147 v6
  have v210 : F .f32 := FloatOps.addf v208 v209
  have v213 : F .f32 := FloatOps.addf v210 v195
  v213
def s62 (v23 : F .f32) (v38 : F .f32) (v55 : F .f32) (v117 : F .f32) (v122 : F .f32) (v125 : F .f32) : F .f32 :=
  have v214 : F .f32 := FloatOps.mulf v117 v23
  have v215 : F .f32 := FloatOps.mulf v122 v38
  have v216 : F .f32 := FloatOps.addf v214 v215
  have v217 : F .f32 := FloatOps.mulf v125 v55
  have v218 : F .f32 := FloatOps.addf v216 v217
  v218
def s63 (v28 : F .f32) (v45 : F .f32) (v60 : F .f32) (v117 : F .f32) (v122 : F .f32) (v125 : F .f32) : F .f32 :=
  have v219 : F .f32 := FloatOps.mulf v117 v28
  have v220 : F .f32 := FloatOps.mulf v122 v45
  have v221 : F .f32 := FloatOps.addf v219 v220
  have v222 : F .f32 := FloatOps.mulf v125 v60
  have v223 : F .f32 := FloatOps.addf v221 v222
  v223
def s64 (v33 : F .f32) (v50 : F .f32) (v67 : F .f32) (v117 : F .f32) (v122 : F .f32) (v125 : F .f32) : F .f32 :=
  have v224 : F .f32 := FloatOps.mulf v117 v33
  have v225 : F .f32 := FloatOps.mulf v122 v50
  have v226 : F .f32 := FloatOps.addf v224 v225
  have v227 : F .f32 := FloatOps.mulf v125 v67
  have v228 : F .f32 := FloatOps.addf v226 v227
  v228
def s65 (v23 : F .f32) (v38 : F .f32) (v55 : F .f32) (v128 : F .f32) (v131 : F .f32) (v136 : F .f32) : F .f32 :=
  have v229 : F .f32 := FloatOps.mulf v128 v23
  have v230 : F .f32 := FloatOps.mulf v131 v38
  have v231 : F .f32 := FloatOps.addf v229 v230
  have v232 : F .f32 := FloatOps.mulf v136 v55
  have v233 : F .f32 := FloatOps.addf v231 v232
  v233
def s66 (v28 : F .f32) (v45 : F .f32) (v60 : F .f32) (v128 : F .f32) (v131 : F .f32) (v136 : F .f32) : F .f32 :=
  have v234 : F .f32 := FloatOps.mulf v128 v28
  have v235 : F .f32 := FloatOps.mulf v131 v45
  have v236 : F .f32 := FloatOps.addf v234 v235
  have v237 : F .f32 := FloatOps.mulf v136 v60
  have v238 : F .f32 := FloatOps.addf v236 v237
  v238
def s67 (v33 : F .f32) (v50 : F .f32) (v67 : F .f32) (v128 : F .f32) (v131 : F .f32) (v136 : F .f32) : F .f32 :=
  have v239 : F .f32 := FloatOps.mulf v128 v33
  have v240 : F .f32 := FloatOps.mulf v131 v50
  have v241 : F .f32 := FloatOps.addf v239 v240
  have v242 : F .f32 := FloatOps.mulf v136 v67
  have v243 : F .f32 := FloatOps.addf v241 v242
  v243
def s68 (v23 : F .f32) (v38 : F .f32) (v55 : F .f32) (v141 : F .f32) (v144 : F .f32) (v147 : F .f32) : F .f32 :=
  have v244 : F .f32 := FloatOps.mulf v141 v23
  have v245 : F .f32 := FloatOps.mulf v144 v38
  have v246 : F .f32 := FloatOps.addf v244 v245
  have v247 : F .f32 := FloatOps.mulf v147 v55
  have v248 : F .f32 := FloatOps.addf v246 v247
  v248
def s69 (v28 : F .f32) (v45 : F .f32) (v60 : F .f32) (v141 : F .f32) (v144 : F .f32) (v147 : F .f32) : F .f32 :=
  have v249 : F .f32 := FloatOps.mulf v141 v28
  have v250 : F .f32 := FloatOps.mulf v144 v45
  have v251 : F .f32 := FloatOps.addf v249 v250
  have v252 : F .f32 := FloatOps.mulf v147 v60
  have v253 : F .f32 := FloatOps.addf v251 v252
  v253
def s70 (v33 : F .f32) (v50 : F .f32) (v67 : F .f32) (v141 : F .f32) (v144 : F .f32) (v147 : F .f32) : F .f32 :=
  have v254 : F .f32 := FloatOps.mulf v141 v33
  have v255 : F .f32 := FloatOps.mulf v144 v50
  have v256 : F .f32 := FloatOps.addf v254 v255
  have v257 : F .f32 := FloatOps.mulf v147 v67
  have v258 : F .f32 := FloatOps.addf v256 v257
  v258
def s71 (v258 : F .f32) (cst_37 : F .f32) : BitVec 1 :=
  have v259 : F .f32 := cst_37
  have v260 : BitVec 1 := FloatOps.cmpf .olt v258 v259
  v260
def s72 (v218 : F .f32) (v238 : F .f32) : BitVec 1 :=
  have v261 : BitVec 1 := FloatOps.cmpf .ogt v218 v238
  v261
def s73 (v218 : F .f32) (v238 : F .f32) (v258 : F .f32) (cst_37 : F .f32) : BitVec 1 :=
  have v265 : BitVec 1 := IntOp.andi (s71 v258 cst_37) (s72 v218 v238)
  v265
def s74 (v218 : F .f32) (v238 : F .f32) (v258 : F .f32) (cst_37 : F .f32) : BitVec 1 :=
  have cst_39 : BitVec 1 := 1#1
  have v266 : BitVec 1 := IntOp.xori (s72 v218 v238) cst_39
  have v267 : BitVec 1 := IntOp.andi (s71 v258 cst_37) v266
  v267
def s75 (v218 : F .f32) (v238 : F .f32) (v258 : F .f32) (cst_37 : F .f32) : BitVec 1 :=
  have cst_38 : F .f32 := Scalar.ofBits .f32 0x00000000#32
  have v262 : F .f32 := cst_38
  have v263 : F .f32 := FloatOps.subf v262 v238
  have v264 : BitVec 1 := FloatOps.cmpf .olt v218 v263
  have cst_40 : BitVec 1 := 1#1
  have v268 : BitVec 1 := IntOp.xori (s71 v258 cst_37) cst_40
  have v269 : BitVec 1 := IntOp.andi v268 v264
  v269
def s76 (v218 : F .f32) (v238 : F .f32) (v258 : F .f32) : F .f32 :=
  have cst_41 : F .f32 := Scalar.ofBits .f32 0x3F800000#32
  have v270 : F .f32 := cst_41
  have v271 : F .f32 := FloatOps.addf v270 v218
  have v272 : F .f32 := FloatOps.subf v271 v238
  have v273 : F .f32 := FloatOps.subf v272 v258
  v273
def s77 (v218 : F .f32) (v238 : F .f32) (v258 : F .f32) : F .f32 :=
  have cst_42 : F .f32 := Scalar.ofBits .f32 0x3F800000#32
  have v274 : F .f32 := cst_42
  have v275 : F .f32 := FloatOps.subf v274 v218
  have v276 : F .f32 := FloatOps.addf v275 v238
  have v277 : F .f32 := FloatOps.subf v276 v258
  v277
def s78 (v218 : F .f32) (v238 : F .f32) (v258 : F .f32) : F .f32 :=
  have cst_43 : F .f32 := Scalar.ofBits .f32 0x3F800000#32
  have v278 : F .f32 := cst_43
  have v279 : F .f32 := FloatOps.subf v278 v218
  have v280 : F .f32 := FloatOps.subf v279 v238
  have v281 : F .f32 := FloatOps.addf v280 v258
  v281
def s79 (v218 : F .f32) (v238 : F .f32) (v258 : F .f32) : F .f32 :=
  have cst_44 : F .f32 := Scalar.ofBits .f32 0x3F800000#32
  have v282 : F .f32 := cst_44
  have v283 : F .f32 := FloatOps.addf v282 v218
  have v284 : F .f32 := FloatOps.addf v283 v238
  have v285 : F .f32 := FloatOps.addf v284 v258
  v285
def s80 (v228 : F .f32) (v248 : F .f32) : F .f32 :=
  have v288 : F .f32 := FloatOps.addf v248 v228
  v288
def s81 (v218 : F .f32) (v238 : F .f32) (v258 : F .f32) (cst_37 : F .f32) : F .f32 :=
  have v298 : F .f32 := Scalar.select (s75 v218 v238 v258 cst_37) (s78 v218 v238 v258) (s79 v218 v238 v258)
  have v299 : F .f32 := Scalar.select (s74 v218 v238 v258 cst_37) (s77 v218 v238 v258) v298
  have v300 : F .f32 := Scalar.select (s73 v218 v238 v258 cst_37) (s76 v218 v238 v258) v299
  v300
def s82 (v218 : F .f32) (v223 : F .f32) (v228 : F .f32) (v233 : F .f32) (v238 : F .f32) (v243 : F .f32) (v248 : F .f32) (v253 : F .f32) (v258 : F .f32) (cst_37 : F .f32) : F .f32 :=
  have v286 : F .f32 := FloatOps.subf v253 v243
  have v289 : F .f32 := FloatOps.subf v228 v248
  have v292 : F .f32 := FloatOps.subf v233 v223
  have v301 : F .f32 := Scalar.select (s75 v218 v238 v258 cst_37) v292 (s79 v218 v238 v258)
  have v302 : F .f32 := Scalar.select (s74 v218 v238 v258 cst_37) v289 v301
  have v303 : F .f32 := Scalar.select (s73 v218 v238 v258 cst_37) v286 v302
  v303
def s83 (v218 : F .f32) (v223 : F .f32) (v228 : F .f32) (v233 : F .f32) (v238 : F .f32) (v243 : F .f32) (v248 : F .f32) (v253 : F .f32) (v258 : F .f32) (cst_37 : F .f32) : F .f32 :=
  have v290 : F .f32 := FloatOps.addf v223 v233
  have v293 : F .f32 := FloatOps.addf v248 v228
  have v295 : F .f32 := FloatOps.subf v253 v243
  have v304 : F .f32 := Scalar.select (s75 v218 v238 v258 cst_37) v293 v295
  have v305 : F .f32 := Scalar.select (s74 v218 v238 v258 cst_37) v290 v304
  have v306 : F .f32 := Scalar.select (s73 v218 v238 v258 cst_37) (s76 v218 v238 v258) v305
  v306
def s84 (v218 : F .f32) (v223 : F .f32) (v228 : F .f32) (v233 : F .f32) (v238 : F .f32) (v243 : F .f32) (v248 : F .f32) (v253 : F .f32) (v258 : F .f32) (cst_37 : F .f32) : F .f32 :=
  have v287 : F .f32 := FloatOps.addf v223 v233
  have v294 : F .f32 := FloatOps.addf v243 v253
  have v296 : F .f32 := FloatOps.subf v228 v248
  have v307 : F .f32 := Scalar.select (s75 v218 v238 v258 cst_37) v294 v296
  have v308 : F .f32 := Scalar.select (s74 v218 v238 v258 cst_37) (s77 v218 v238 v258) v307
  have v309 : F .f32 := Scalar.select (s73 v218 v238 v258 cst_37) v287 v308
  v309
def s85 (v218 : F .f32) (v223 : F .f32) (v233 : F .f32) (v238 : F .f32) (v243 : F .f32) (v253 : F .f32) (v258 : F .f32) (cst_37 : F .f32) : F .f32 :=
  have v291 : F .f32 := FloatOps.addf v243 v253
  have v297 : F .f32 := FloatOps.subf v233 v223
  have v310 : F .f32 := Scalar.select (s75 v218 v238 v258 cst_37) (s78 v218 v238 v258) v297
  have v311 : F .f32 := Scalar.select (s74 v218 v238 v258 cst_37) v291 v310
  v311
def s86 (v300 : F .f32) : F .f32 :=
  have v313 : F .f32 := FloatOps.rsqrt v300
  have cst_45 : F .f32 := Scalar.ofBits .f32 0x3F000000#32
  have v314 : F .f32 := cst_45
  have v315 : F .f32 := FloatOps.mulf v314 v313
  v315
def s87 (v300 : F .f32) (v303 : F .f32) : F .f32 :=
  have v316 : F .f32 := FloatOps.mulf v303 (s86 v300)
  v316
def s88 (v300 : F .f32) (v303 : F .f32) : BitVec 1 :=
  have cst_46 : F .f32 := Scalar.ofBits .f32 0x00000000#32
  have v320 : F .f32 := cst_46
  have v321 : BitVec 1 := FloatOps.cmpf .olt (s87 v300 v303) v320
  v321
def s89 (v300 : F .f32) (v303 : F .f32) : F .f32 :=
  have cst_47 : F .f32 := Scalar.ofBits .f32 0x00000000#32
  have v322 : F .f32 := cst_47
  have v323 : F .f32 := FloatOps.subf v322 (s87 v300 v303)
  have v324 : F .f32 := Scalar.select (s88 v300 v303) v323 (s87 v300 v303)
  v324
def s90 (v300 : F .f32) (v303 : F .f32) (v306 : F .f32) : F .f32 :=
  have v317 : F .f32 := FloatOps.mulf v306 (s86 v300)
  have cst_48 : F .f32 := Scalar.ofBits .f32 0x00000000#32
  have v325 : F .f32 := cst_48
  have v326 : F .f32 := FloatOps.subf v325 v317
  have v327 : F .f32 := Scalar.select (s88 v300 v303) v326 v317
  v327
def s91 (v300 : F .f32) (v303 : F .f32) (v309 : F .f32) : F .f32 :=
  have v318 : F .f32 := FloatOps.mulf v309 (s86 v300)
  have cst_49 : F .f32 := Scalar.ofBits .f32 0x00000000#32
  have v328 : F .f32 := cst_49
  have v329 : F .f32 := FloatOps.subf v328 v318
  have v330 : F .f32 := Scalar.select (s88 v300 v303) v329 v318
  v330
def s92 (v265 : BitVec 1) (v288 : F .f32) (v300 : F .f32) (v303 : F .f32) (v311 : F .f32) : F .f32 :=
  have v312 : F .f32 := Scalar.select v265 v288 v311
  have v319 : F .f32 := FloatOps.mulf v312 (s86 v300)
  have cst_50 : F .f32 := Scalar.ofBits .f32 0x00000000#32
  have v331 : F .f32 := cst_50
  have v332 : F .f32 := FloatOps.subf v331 v319
  have v333 : F .f32 := Scalar.select (s88 v300 v303) v332 v319
  v333

/-! ## A payload at a lane is its scalar list -/
theorem pay23_lane (v46 : FVec F S1x65536 .f32) (v47 : FVec F S1x65536 .f32) (l : Fin 65536) :
    k0_pay23 v46 v47 (ValueIdx.ix2 0 l) = s23 (v46 (ValueIdx.ix2 0 l)) (v47 (ValueIdx.ix2 0 l)) := rfl
theorem pay24_lane (v7 : FVec F S1x65536 .f32) (v8 : FVec F S1x65536 .f32) (v9 : FVec F S1x65536 .f32) (v10 : FVec F S1x65536 .f32) (l : Fin 65536) :
    k0_pay24 v7 v8 v9 v10 (ValueIdx.ix2 0 l) = s24 (v7 (ValueIdx.ix2 0 l)) (v8 (ValueIdx.ix2 0 l)) (v9 (ValueIdx.ix2 0 l)) (v10 (ValueIdx.ix2 0 l)) := rfl
theorem pay25_lane (v7 : FVec F S1x65536 .f32) (v8 : FVec F S1x65536 .f32) (v9 : FVec F S1x65536 .f32) (v10 : FVec F S1x65536 .f32) (l : Fin 65536) :
    k0_pay25 v7 v8 v9 v10 (ValueIdx.ix2 0 l) = s25 (v7 (ValueIdx.ix2 0 l)) (v8 (ValueIdx.ix2 0 l)) (v9 (ValueIdx.ix2 0 l)) (v10 (ValueIdx.ix2 0 l)) := rfl
theorem pay26_lane (v8 : FVec F S1x65536 .f32) (v9 : FVec F S1x65536 .f32) (l : Fin 65536) :
    k0_pay26 v8 v9 (ValueIdx.ix2 0 l) = s26 (v8 (ValueIdx.ix2 0 l)) (v9 (ValueIdx.ix2 0 l)) := rfl
theorem pay27_lane (v14 : FVec F S1x65536 .f32) (v15 : FVec F S1x65536 .f32) (v16 : FVec F S1x65536 .f32) (l : Fin 65536) :
    k0_pay27 v14 v15 v16 (ValueIdx.ix2 0 l) = s27 (v14 (ValueIdx.ix2 0 l)) (v15 (ValueIdx.ix2 0 l)) (v16 (ValueIdx.ix2 0 l)) := rfl
theorem pay28_lane (v14 : FVec F S1x65536 .f32) (v15 : FVec F S1x65536 .f32) (v16 : FVec F S1x65536 .f32) (l : Fin 65536) :
    k0_pay28 v14 v15 v16 (ValueIdx.ix2 0 l) = s28 (v14 (ValueIdx.ix2 0 l)) (v15 (ValueIdx.ix2 0 l)) (v16 (ValueIdx.ix2 0 l)) := rfl
theorem pay29_lane (v14 : FVec F S1x65536 .f32) (v15 : FVec F S1x65536 .f32) (v16 : FVec F S1x65536 .f32) (l : Fin 65536) :
    k0_pay29 v14 v15 v16 (ValueIdx.ix2 0 l) = s29 (v14 (ValueIdx.ix2 0 l)) (v15 (ValueIdx.ix2 0 l)) (v16 (ValueIdx.ix2 0 l)) := rfl
theorem pay30_lane (v14 : FVec F S1x65536 .f32) (v15 : FVec F S1x65536 .f32) (v16 : FVec F S1x65536 .f32) (l : Fin 65536) :
    k0_pay30 v14 v15 v16 (ValueIdx.ix2 0 l) = s30 (v14 (ValueIdx.ix2 0 l)) (v15 (ValueIdx.ix2 0 l)) (v16 (ValueIdx.ix2 0 l)) := rfl
theorem pay31_lane (v14 : FVec F S1x65536 .f32) (v15 : FVec F S1x65536 .f32) (v16 : FVec F S1x65536 .f32) (l : Fin 65536) :
    k0_pay31 v14 v15 v16 (ValueIdx.ix2 0 l) = s31 (v14 (ValueIdx.ix2 0 l)) (v15 (ValueIdx.ix2 0 l)) (v16 (ValueIdx.ix2 0 l)) := rfl
theorem pay32_lane (v14 : FVec F S1x65536 .f32) (v15 : FVec F S1x65536 .f32) (v16 : FVec F S1x65536 .f32) (l : Fin 65536) :
    k0_pay32 v14 v15 v16 (ValueIdx.ix2 0 l) = s32 (v14 (ValueIdx.ix2 0 l)) (v15 (ValueIdx.ix2 0 l)) (v16 (ValueIdx.ix2 0 l)) := rfl
theorem pay33_lane (v14 : FVec F S1x65536 .f32) (v15 : FVec F S1x65536 .f32) (v16 : FVec F S1x65536 .f32) (l : Fin 65536) :
    k0_pay33 v14 v15 v16 (ValueIdx.ix2 0 l) = s33 (v14 (ValueIdx.ix2 0 l)) (v15 (ValueIdx.ix2 0 l)) (v16 (ValueIdx.ix2 0 l)) := rfl
theorem pay34_lane (v14 : FVec F S1x65536 .f32) (v15 : FVec F S1x65536 .f32) (v16 : FVec F S1x65536 .f32) (l : Fin 65536) :
    k0_pay34 v14 v15 v16 (ValueIdx.ix2 0 l) = s34 (v14 (ValueIdx.ix2 0 l)) (v15 (ValueIdx.ix2 0 l)) (v16 (ValueIdx.ix2 0 l)) := rfl
theorem pay35_lane (v14 : FVec F S1x65536 .f32) (v15 : FVec F S1x65536 .f32) (v16 : FVec F S1x65536 .f32) (l : Fin 65536) :
    k0_pay35 v14 v15 v16 (ValueIdx.ix2 0 l) = s35 (v14 (ValueIdx.ix2 0 l)) (v15 (ValueIdx.ix2 0 l)) (v16 (ValueIdx.ix2 0 l)) := rfl
theorem pay36_lane (v14 : FVec F S1x65536 .f32) (v15 : FVec F S1x65536 .f32) (v16 : FVec F S1x65536 .f32) (l : Fin 65536) :
    k0_pay36 v14 v15 v16 (ValueIdx.ix2 0 l) = s36 (v14 (ValueIdx.ix2 0 l)) (v15 (ValueIdx.ix2 0 l)) (v16 (ValueIdx.ix2 0 l)) := rfl
theorem pay37_lane (v74 : IVec S1x65536 1) (v94 : FVec F S1x65536 .f32) (cst_21 : F .f32) (l : Fin 65536) :
    k0_pay37 v74 v94 cst_21 (ValueIdx.ix2 0 l) = s37 (v74 (ValueIdx.ix2 0 l)) (v94 (ValueIdx.ix2 0 l)) cst_21 := rfl
theorem pay38_lane (v14 : FVec F S1x65536 .f32) (v15 : FVec F S1x65536 .f32) (l : Fin 65536) :
    k0_pay38 v14 v15 (ValueIdx.ix2 0 l) = s38 (v14 (ValueIdx.ix2 0 l)) (v15 (ValueIdx.ix2 0 l)) := rfl
theorem pay39_lane (v14 : FVec F S1x65536 .f32) (v16 : FVec F S1x65536 .f32) (l : Fin 65536) :
    k0_pay39 v14 v16 (ValueIdx.ix2 0 l) = s39 (v14 (ValueIdx.ix2 0 l)) (v16 (ValueIdx.ix2 0 l)) := rfl
theorem pay40_lane (v15 : FVec F S1x65536 .f32) (v16 : FVec F S1x65536 .f32) (l : Fin 65536) :
    k0_pay40 v15 v16 (ValueIdx.ix2 0 l) = s40 (v15 (ValueIdx.ix2 0 l)) (v16 (ValueIdx.ix2 0 l)) := rfl
theorem pay41_lane (v15 : FVec F S1x65536 .f32) (v16 : FVec F S1x65536 .f32) (l : Fin 65536) :
    k0_pay41 v15 v16 (ValueIdx.ix2 0 l) = s41 (v15 (ValueIdx.ix2 0 l)) (v16 (ValueIdx.ix2 0 l)) := rfl
theorem pay42_lane (v14 : FVec F S1x65536 .f32) (v16 : FVec F S1x65536 .f32) (l : Fin 65536) :
    k0_pay42 v14 v16 (ValueIdx.ix2 0 l) = s42 (v14 (ValueIdx.ix2 0 l)) (v16 (ValueIdx.ix2 0 l)) := rfl
theorem pay43_lane (v14 : FVec F S1x65536 .f32) (v15 : FVec F S1x65536 .f32) (l : Fin 65536) :
    k0_pay43 v14 v15 (ValueIdx.ix2 0 l) = s43 (v14 (ValueIdx.ix2 0 l)) (v15 (ValueIdx.ix2 0 l)) := rfl
theorem pay44_lane (v15 : FVec F S1x65536 .f32) (v16 : FVec F S1x65536 .f32) (v91 : FVec F S1x65536 .f32) (l : Fin 65536) :
    k0_pay44 v15 v16 v91 (ValueIdx.ix2 0 l) = s44 (v15 (ValueIdx.ix2 0 l)) (v16 (ValueIdx.ix2 0 l)) (v91 (ValueIdx.ix2 0 l)) := rfl
theorem pay45_lane (v14 : FVec F S1x65536 .f32) (v15 : FVec F S1x65536 .f32) (v16 : FVec F S1x65536 .f32) (v86 : FVec F S1x65536 .f32) (v91 : FVec F S1x65536 .f32) (l : Fin 65536) :
    k0_pay45 v14 v15 v16 v86 v91 (ValueIdx.ix2 0 l) = s45 (v14 (ValueIdx.ix2 0 l)) (v15 (ValueIdx.ix2 0 l)) (v16 (ValueIdx.ix2 0 l)) (v86 (ValueIdx.ix2 0 l)) (v91 (ValueIdx.ix2 0 l)) := rfl
theorem pay46_lane (v14 : FVec F S1x65536 .f32) (v15 : FVec F S1x65536 .f32) (v16 : FVec F S1x65536 .f32) (v86 : FVec F S1x65536 .f32) (v91 : FVec F S1x65536 .f32) (l : Fin 65536) :
    k0_pay46 v14 v15 v16 v86 v91 (ValueIdx.ix2 0 l) = s46 (v14 (ValueIdx.ix2 0 l)) (v15 (ValueIdx.ix2 0 l)) (v16 (ValueIdx.ix2 0 l)) (v86 (ValueIdx.ix2 0 l)) (v91 (ValueIdx.ix2 0 l)) := rfl
theorem pay47_lane (v14 : FVec F S1x65536 .f32) (v15 : FVec F S1x65536 .f32) (v16 : FVec F S1x65536 .f32) (v86 : FVec F S1x65536 .f32) (v91 : FVec F S1x65536 .f32) (l : Fin 65536) :
    k0_pay47 v14 v15 v16 v86 v91 (ValueIdx.ix2 0 l) = s47 (v14 (ValueIdx.ix2 0 l)) (v15 (ValueIdx.ix2 0 l)) (v16 (ValueIdx.ix2 0 l)) (v86 (ValueIdx.ix2 0 l)) (v91 (ValueIdx.ix2 0 l)) := rfl
theorem pay48_lane (v14 : FVec F S1x65536 .f32) (v16 : FVec F S1x65536 .f32) (v91 : FVec F S1x65536 .f32) (l : Fin 65536) :
    k0_pay48 v14 v16 v91 (ValueIdx.ix2 0 l) = s48 (v14 (ValueIdx.ix2 0 l)) (v16 (ValueIdx.ix2 0 l)) (v91 (ValueIdx.ix2 0 l)) := rfl
theorem pay49_lane (v14 : FVec F S1x65536 .f32) (v15 : FVec F S1x65536 .f32) (v16 : FVec F S1x65536 .f32) (v86 : FVec F S1x65536 .f32) (v91 : FVec F S1x65536 .f32) (l : Fin 65536) :
    k0_pay49 v14 v15 v16 v86 v91 (ValueIdx.ix2 0 l) = s49 (v14 (ValueIdx.ix2 0 l)) (v15 (ValueIdx.ix2 0 l)) (v16 (ValueIdx.ix2 0 l)) (v86 (ValueIdx.ix2 0 l)) (v91 (ValueIdx.ix2 0 l)) := rfl
theorem pay50_lane (v14 : FVec F S1x65536 .f32) (v15 : FVec F S1x65536 .f32) (v16 : FVec F S1x65536 .f32) (v86 : FVec F S1x65536 .f32) (v91 : FVec F S1x65536 .f32) (l : Fin 65536) :
    k0_pay50 v14 v15 v16 v86 v91 (ValueIdx.ix2 0 l) = s50 (v14 (ValueIdx.ix2 0 l)) (v15 (ValueIdx.ix2 0 l)) (v16 (ValueIdx.ix2 0 l)) (v86 (ValueIdx.ix2 0 l)) (v91 (ValueIdx.ix2 0 l)) := rfl
theorem pay51_lane (v14 : FVec F S1x65536 .f32) (v15 : FVec F S1x65536 .f32) (v16 : FVec F S1x65536 .f32) (v86 : FVec F S1x65536 .f32) (v91 : FVec F S1x65536 .f32) (l : Fin 65536) :
    k0_pay51 v14 v15 v16 v86 v91 (ValueIdx.ix2 0 l) = s51 (v14 (ValueIdx.ix2 0 l)) (v15 (ValueIdx.ix2 0 l)) (v16 (ValueIdx.ix2 0 l)) (v86 (ValueIdx.ix2 0 l)) (v91 (ValueIdx.ix2 0 l)) := rfl
theorem pay52_lane (v14 : FVec F S1x65536 .f32) (v15 : FVec F S1x65536 .f32) (v91 : FVec F S1x65536 .f32) (l : Fin 65536) :
    k0_pay52 v14 v15 v91 (ValueIdx.ix2 0 l) = s52 (v14 (ValueIdx.ix2 0 l)) (v15 (ValueIdx.ix2 0 l)) (v91 (ValueIdx.ix2 0 l)) := rfl
theorem pay53_lane (v145 : FVec F S1x65536 .f32) (cst_30 : F .f32) (l : Fin 65536) :
    k0_pay53 v145 cst_30 (ValueIdx.ix2 0 l) = s53 (v145 (ValueIdx.ix2 0 l)) cst_30 := rfl
theorem pay54_lane (v11 : FVec F S1x65536 .f32) (v12 : FVec F S1x65536 .f32) (v13 : FVec F S1x65536 .f32) (v15 : FVec F S1x65536 .f32) (v16 : FVec F S1x65536 .f32) (v91 : FVec F S1x65536 .f32) (v96 : FVec F S1x65536 .f32) (v97 : FVec F S1x65536 .f32) (v98 : FVec F S1x65536 .f32) (v104 : FVec F S1x65536 .f32) (l : Fin 65536) :
    k0_pay54 v11 v12 v13 v15 v16 v91 v96 v97 v98 v104 (ValueIdx.ix2 0 l) = s54 (v11 (ValueIdx.ix2 0 l)) (v12 (ValueIdx.ix2 0 l)) (v13 (ValueIdx.ix2 0 l)) (v15 (ValueIdx.ix2 0 l)) (v16 (ValueIdx.ix2 0 l)) (v91 (ValueIdx.ix2 0 l)) (v96 (ValueIdx.ix2 0 l)) (v97 (ValueIdx.ix2 0 l)) (v98 (ValueIdx.ix2 0 l)) (v104 (ValueIdx.ix2 0 l)) := rfl
theorem pay55_lane (v11 : FVec F S1x65536 .f32) (v12 : FVec F S1x65536 .f32) (v13 : FVec F S1x65536 .f32) (v14 : FVec F S1x65536 .f32) (v16 : FVec F S1x65536 .f32) (v91 : FVec F S1x65536 .f32) (v96 : FVec F S1x65536 .f32) (v97 : FVec F S1x65536 .f32) (v99 : FVec F S1x65536 .f32) (v109 : FVec F S1x65536 .f32) (l : Fin 65536) :
    k0_pay55 v11 v12 v13 v14 v16 v91 v96 v97 v99 v109 (ValueIdx.ix2 0 l) = s55 (v11 (ValueIdx.ix2 0 l)) (v12 (ValueIdx.ix2 0 l)) (v13 (ValueIdx.ix2 0 l)) (v14 (ValueIdx.ix2 0 l)) (v16 (ValueIdx.ix2 0 l)) (v91 (ValueIdx.ix2 0 l)) (v96 (ValueIdx.ix2 0 l)) (v97 (ValueIdx.ix2 0 l)) (v99 (ValueIdx.ix2 0 l)) (v109 (ValueIdx.ix2 0 l)) := rfl
theorem pay56_lane (v11 : FVec F S1x65536 .f32) (v12 : FVec F S1x65536 .f32) (v13 : FVec F S1x65536 .f32) (v14 : FVec F S1x65536 .f32) (v15 : FVec F S1x65536 .f32) (v91 : FVec F S1x65536 .f32) (v96 : FVec F S1x65536 .f32) (v98 : FVec F S1x65536 .f32) (v99 : FVec F S1x65536 .f32) (v114 : FVec F S1x65536 .f32) (l : Fin 65536) :
    k0_pay56 v11 v12 v13 v14 v15 v91 v96 v98 v99 v114 (ValueIdx.ix2 0 l) = s56 (v11 (ValueIdx.ix2 0 l)) (v12 (ValueIdx.ix2 0 l)) (v13 (ValueIdx.ix2 0 l)) (v14 (ValueIdx.ix2 0 l)) (v15 (ValueIdx.ix2 0 l)) (v91 (ValueIdx.ix2 0 l)) (v96 (ValueIdx.ix2 0 l)) (v98 (ValueIdx.ix2 0 l)) (v99 (ValueIdx.ix2 0 l)) (v114 (ValueIdx.ix2 0 l)) := rfl
theorem pay57_lane (v4 : FVec F S1x65536 .f32) (v5 : FVec F S1x65536 .f32) (v117 : FVec F S1x65536 .f32) (v122 : FVec F S1x65536 .f32) (l : Fin 65536) :
    k0_pay57 v4 v5 v117 v122 (ValueIdx.ix2 0 l) = s57 (v4 (ValueIdx.ix2 0 l)) (v5 (ValueIdx.ix2 0 l)) (v117 (ValueIdx.ix2 0 l)) (v122 (ValueIdx.ix2 0 l)) := rfl
theorem pay58_lane (v6 : FVec F S1x65536 .f32) (v125 : FVec F S1x65536 .f32) (l : Fin 65536) :
    k0_pay58 v6 v125 (ValueIdx.ix2 0 l) = s58 (v6 (ValueIdx.ix2 0 l)) (v125 (ValueIdx.ix2 0 l)) := rfl
theorem pay59_lane (v185 : FVec F S1x65536 .f32) (v198 : FVec F S1x65536 .f32) (v199 : FVec F S1x65536 .f32) (l : Fin 65536) :
    k0_pay59 v185 v198 v199 (ValueIdx.ix2 0 l) = s59 (v185 (ValueIdx.ix2 0 l)) (v198 (ValueIdx.ix2 0 l)) (v199 (ValueIdx.ix2 0 l)) := rfl
theorem pay60_lane (v4 : FVec F S1x65536 .f32) (v5 : FVec F S1x65536 .f32) (v6 : FVec F S1x65536 .f32) (v128 : FVec F S1x65536 .f32) (v131 : FVec F S1x65536 .f32) (v136 : FVec F S1x65536 .f32) (v190 : FVec F S1x65536 .f32) (l : Fin 65536) :
    k0_pay60 v4 v5 v6 v128 v131 v136 v190 (ValueIdx.ix2 0 l) = s60 (v4 (ValueIdx.ix2 0 l)) (v5 (ValueIdx.ix2 0 l)) (v6 (ValueIdx.ix2 0 l)) (v128 (ValueIdx.ix2 0 l)) (v131 (ValueIdx.ix2 0 l)) (v136 (ValueIdx.ix2 0 l)) (v190 (ValueIdx.ix2 0 l)) := rfl
theorem pay61_lane (v4 : FVec F S1x65536 .f32) (v5 : FVec F S1x65536 .f32) (v6 : FVec F S1x65536 .f32) (v141 : FVec F S1x65536 .f32) (v144 : FVec F S1x65536 .f32) (v147 : FVec F S1x65536 .f32) (v195 : FVec F S1x65536 .f32) (l : Fin 65536) :
    k0_pay61 v4 v5 v6 v141 v144 v147 v195 (ValueIdx.ix2 0 l) = s61 (v4 (ValueIdx.ix2 0 l)) (v5 (ValueIdx.ix2 0 l)) (v6 (ValueIdx.ix2 0 l)) (v141 (ValueIdx.ix2 0 l)) (v144 (ValueIdx.ix2 0 l)) (v147 (ValueIdx.ix2 0 l)) (v195 (ValueIdx.ix2 0 l)) := rfl
theorem pay62_lane (v23 : FVec F S1x65536 .f32) (v38 : FVec F S1x65536 .f32) (v55 : FVec F S1x65536 .f32) (v117 : FVec F S1x65536 .f32) (v122 : FVec F S1x65536 .f32) (v125 : FVec F S1x65536 .f32) (l : Fin 65536) :
    k0_pay62 v23 v38 v55 v117 v122 v125 (ValueIdx.ix2 0 l) = s62 (v23 (ValueIdx.ix2 0 l)) (v38 (ValueIdx.ix2 0 l)) (v55 (ValueIdx.ix2 0 l)) (v117 (ValueIdx.ix2 0 l)) (v122 (ValueIdx.ix2 0 l)) (v125 (ValueIdx.ix2 0 l)) := rfl
theorem pay63_lane (v28 : FVec F S1x65536 .f32) (v45 : FVec F S1x65536 .f32) (v60 : FVec F S1x65536 .f32) (v117 : FVec F S1x65536 .f32) (v122 : FVec F S1x65536 .f32) (v125 : FVec F S1x65536 .f32) (l : Fin 65536) :
    k0_pay63 v28 v45 v60 v117 v122 v125 (ValueIdx.ix2 0 l) = s63 (v28 (ValueIdx.ix2 0 l)) (v45 (ValueIdx.ix2 0 l)) (v60 (ValueIdx.ix2 0 l)) (v117 (ValueIdx.ix2 0 l)) (v122 (ValueIdx.ix2 0 l)) (v125 (ValueIdx.ix2 0 l)) := rfl
theorem pay64_lane (v33 : FVec F S1x65536 .f32) (v50 : FVec F S1x65536 .f32) (v67 : FVec F S1x65536 .f32) (v117 : FVec F S1x65536 .f32) (v122 : FVec F S1x65536 .f32) (v125 : FVec F S1x65536 .f32) (l : Fin 65536) :
    k0_pay64 v33 v50 v67 v117 v122 v125 (ValueIdx.ix2 0 l) = s64 (v33 (ValueIdx.ix2 0 l)) (v50 (ValueIdx.ix2 0 l)) (v67 (ValueIdx.ix2 0 l)) (v117 (ValueIdx.ix2 0 l)) (v122 (ValueIdx.ix2 0 l)) (v125 (ValueIdx.ix2 0 l)) := rfl
theorem pay65_lane (v23 : FVec F S1x65536 .f32) (v38 : FVec F S1x65536 .f32) (v55 : FVec F S1x65536 .f32) (v128 : FVec F S1x65536 .f32) (v131 : FVec F S1x65536 .f32) (v136 : FVec F S1x65536 .f32) (l : Fin 65536) :
    k0_pay65 v23 v38 v55 v128 v131 v136 (ValueIdx.ix2 0 l) = s65 (v23 (ValueIdx.ix2 0 l)) (v38 (ValueIdx.ix2 0 l)) (v55 (ValueIdx.ix2 0 l)) (v128 (ValueIdx.ix2 0 l)) (v131 (ValueIdx.ix2 0 l)) (v136 (ValueIdx.ix2 0 l)) := rfl
theorem pay66_lane (v28 : FVec F S1x65536 .f32) (v45 : FVec F S1x65536 .f32) (v60 : FVec F S1x65536 .f32) (v128 : FVec F S1x65536 .f32) (v131 : FVec F S1x65536 .f32) (v136 : FVec F S1x65536 .f32) (l : Fin 65536) :
    k0_pay66 v28 v45 v60 v128 v131 v136 (ValueIdx.ix2 0 l) = s66 (v28 (ValueIdx.ix2 0 l)) (v45 (ValueIdx.ix2 0 l)) (v60 (ValueIdx.ix2 0 l)) (v128 (ValueIdx.ix2 0 l)) (v131 (ValueIdx.ix2 0 l)) (v136 (ValueIdx.ix2 0 l)) := rfl
theorem pay67_lane (v33 : FVec F S1x65536 .f32) (v50 : FVec F S1x65536 .f32) (v67 : FVec F S1x65536 .f32) (v128 : FVec F S1x65536 .f32) (v131 : FVec F S1x65536 .f32) (v136 : FVec F S1x65536 .f32) (l : Fin 65536) :
    k0_pay67 v33 v50 v67 v128 v131 v136 (ValueIdx.ix2 0 l) = s67 (v33 (ValueIdx.ix2 0 l)) (v50 (ValueIdx.ix2 0 l)) (v67 (ValueIdx.ix2 0 l)) (v128 (ValueIdx.ix2 0 l)) (v131 (ValueIdx.ix2 0 l)) (v136 (ValueIdx.ix2 0 l)) := rfl
theorem pay68_lane (v23 : FVec F S1x65536 .f32) (v38 : FVec F S1x65536 .f32) (v55 : FVec F S1x65536 .f32) (v141 : FVec F S1x65536 .f32) (v144 : FVec F S1x65536 .f32) (v147 : FVec F S1x65536 .f32) (l : Fin 65536) :
    k0_pay68 v23 v38 v55 v141 v144 v147 (ValueIdx.ix2 0 l) = s68 (v23 (ValueIdx.ix2 0 l)) (v38 (ValueIdx.ix2 0 l)) (v55 (ValueIdx.ix2 0 l)) (v141 (ValueIdx.ix2 0 l)) (v144 (ValueIdx.ix2 0 l)) (v147 (ValueIdx.ix2 0 l)) := rfl
theorem pay69_lane (v28 : FVec F S1x65536 .f32) (v45 : FVec F S1x65536 .f32) (v60 : FVec F S1x65536 .f32) (v141 : FVec F S1x65536 .f32) (v144 : FVec F S1x65536 .f32) (v147 : FVec F S1x65536 .f32) (l : Fin 65536) :
    k0_pay69 v28 v45 v60 v141 v144 v147 (ValueIdx.ix2 0 l) = s69 (v28 (ValueIdx.ix2 0 l)) (v45 (ValueIdx.ix2 0 l)) (v60 (ValueIdx.ix2 0 l)) (v141 (ValueIdx.ix2 0 l)) (v144 (ValueIdx.ix2 0 l)) (v147 (ValueIdx.ix2 0 l)) := rfl
theorem pay70_lane (v33 : FVec F S1x65536 .f32) (v50 : FVec F S1x65536 .f32) (v67 : FVec F S1x65536 .f32) (v141 : FVec F S1x65536 .f32) (v144 : FVec F S1x65536 .f32) (v147 : FVec F S1x65536 .f32) (l : Fin 65536) :
    k0_pay70 v33 v50 v67 v141 v144 v147 (ValueIdx.ix2 0 l) = s70 (v33 (ValueIdx.ix2 0 l)) (v50 (ValueIdx.ix2 0 l)) (v67 (ValueIdx.ix2 0 l)) (v141 (ValueIdx.ix2 0 l)) (v144 (ValueIdx.ix2 0 l)) (v147 (ValueIdx.ix2 0 l)) := rfl
theorem pay71_lane (v258 : FVec F S1x65536 .f32) (cst_37 : F .f32) (l : Fin 65536) :
    k0_pay71 v258 cst_37 (ValueIdx.ix2 0 l) = s71 (v258 (ValueIdx.ix2 0 l)) cst_37 := rfl
theorem pay72_lane (v218 : FVec F S1x65536 .f32) (v238 : FVec F S1x65536 .f32) (l : Fin 65536) :
    k0_pay72 v218 v238 (ValueIdx.ix2 0 l) = s72 (v218 (ValueIdx.ix2 0 l)) (v238 (ValueIdx.ix2 0 l)) := rfl
theorem pay73_lane (v218 : FVec F S1x65536 .f32) (v238 : FVec F S1x65536 .f32) (v258 : FVec F S1x65536 .f32) (cst_37 : F .f32) (l : Fin 65536) :
    k0_pay73 v218 v238 v258 cst_37 (ValueIdx.ix2 0 l) = s73 (v218 (ValueIdx.ix2 0 l)) (v238 (ValueIdx.ix2 0 l)) (v258 (ValueIdx.ix2 0 l)) cst_37 := rfl
theorem pay74_lane (v218 : FVec F S1x65536 .f32) (v238 : FVec F S1x65536 .f32) (v258 : FVec F S1x65536 .f32) (cst_37 : F .f32) (l : Fin 65536) :
    k0_pay74 v218 v238 v258 cst_37 (ValueIdx.ix2 0 l) = s74 (v218 (ValueIdx.ix2 0 l)) (v238 (ValueIdx.ix2 0 l)) (v258 (ValueIdx.ix2 0 l)) cst_37 := rfl
theorem pay75_lane (v218 : FVec F S1x65536 .f32) (v238 : FVec F S1x65536 .f32) (v258 : FVec F S1x65536 .f32) (cst_37 : F .f32) (l : Fin 65536) :
    k0_pay75 v218 v238 v258 cst_37 (ValueIdx.ix2 0 l) = s75 (v218 (ValueIdx.ix2 0 l)) (v238 (ValueIdx.ix2 0 l)) (v258 (ValueIdx.ix2 0 l)) cst_37 := rfl
theorem pay76_lane (v218 : FVec F S1x65536 .f32) (v238 : FVec F S1x65536 .f32) (v258 : FVec F S1x65536 .f32) (l : Fin 65536) :
    k0_pay76 v218 v238 v258 (ValueIdx.ix2 0 l) = s76 (v218 (ValueIdx.ix2 0 l)) (v238 (ValueIdx.ix2 0 l)) (v258 (ValueIdx.ix2 0 l)) := rfl
theorem pay77_lane (v218 : FVec F S1x65536 .f32) (v238 : FVec F S1x65536 .f32) (v258 : FVec F S1x65536 .f32) (l : Fin 65536) :
    k0_pay77 v218 v238 v258 (ValueIdx.ix2 0 l) = s77 (v218 (ValueIdx.ix2 0 l)) (v238 (ValueIdx.ix2 0 l)) (v258 (ValueIdx.ix2 0 l)) := rfl
theorem pay78_lane (v218 : FVec F S1x65536 .f32) (v238 : FVec F S1x65536 .f32) (v258 : FVec F S1x65536 .f32) (l : Fin 65536) :
    k0_pay78 v218 v238 v258 (ValueIdx.ix2 0 l) = s78 (v218 (ValueIdx.ix2 0 l)) (v238 (ValueIdx.ix2 0 l)) (v258 (ValueIdx.ix2 0 l)) := rfl
theorem pay79_lane (v218 : FVec F S1x65536 .f32) (v238 : FVec F S1x65536 .f32) (v258 : FVec F S1x65536 .f32) (l : Fin 65536) :
    k0_pay79 v218 v238 v258 (ValueIdx.ix2 0 l) = s79 (v218 (ValueIdx.ix2 0 l)) (v238 (ValueIdx.ix2 0 l)) (v258 (ValueIdx.ix2 0 l)) := rfl
theorem pay80_lane (v228 : FVec F S1x65536 .f32) (v248 : FVec F S1x65536 .f32) (l : Fin 65536) :
    k0_pay80 v228 v248 (ValueIdx.ix2 0 l) = s80 (v228 (ValueIdx.ix2 0 l)) (v248 (ValueIdx.ix2 0 l)) := rfl
theorem pay81_lane (v218 : FVec F S1x65536 .f32) (v238 : FVec F S1x65536 .f32) (v258 : FVec F S1x65536 .f32) (cst_37 : F .f32) (l : Fin 65536) :
    k0_pay81 v218 v238 v258 cst_37 (ValueIdx.ix2 0 l) = s81 (v218 (ValueIdx.ix2 0 l)) (v238 (ValueIdx.ix2 0 l)) (v258 (ValueIdx.ix2 0 l)) cst_37 := rfl
theorem pay82_lane (v218 : FVec F S1x65536 .f32) (v223 : FVec F S1x65536 .f32) (v228 : FVec F S1x65536 .f32) (v233 : FVec F S1x65536 .f32) (v238 : FVec F S1x65536 .f32) (v243 : FVec F S1x65536 .f32) (v248 : FVec F S1x65536 .f32) (v253 : FVec F S1x65536 .f32) (v258 : FVec F S1x65536 .f32) (cst_37 : F .f32) (l : Fin 65536) :
    k0_pay82 v218 v223 v228 v233 v238 v243 v248 v253 v258 cst_37 (ValueIdx.ix2 0 l) = s82 (v218 (ValueIdx.ix2 0 l)) (v223 (ValueIdx.ix2 0 l)) (v228 (ValueIdx.ix2 0 l)) (v233 (ValueIdx.ix2 0 l)) (v238 (ValueIdx.ix2 0 l)) (v243 (ValueIdx.ix2 0 l)) (v248 (ValueIdx.ix2 0 l)) (v253 (ValueIdx.ix2 0 l)) (v258 (ValueIdx.ix2 0 l)) cst_37 := rfl
theorem pay83_lane (v218 : FVec F S1x65536 .f32) (v223 : FVec F S1x65536 .f32) (v228 : FVec F S1x65536 .f32) (v233 : FVec F S1x65536 .f32) (v238 : FVec F S1x65536 .f32) (v243 : FVec F S1x65536 .f32) (v248 : FVec F S1x65536 .f32) (v253 : FVec F S1x65536 .f32) (v258 : FVec F S1x65536 .f32) (cst_37 : F .f32) (l : Fin 65536) :
    k0_pay83 v218 v223 v228 v233 v238 v243 v248 v253 v258 cst_37 (ValueIdx.ix2 0 l) = s83 (v218 (ValueIdx.ix2 0 l)) (v223 (ValueIdx.ix2 0 l)) (v228 (ValueIdx.ix2 0 l)) (v233 (ValueIdx.ix2 0 l)) (v238 (ValueIdx.ix2 0 l)) (v243 (ValueIdx.ix2 0 l)) (v248 (ValueIdx.ix2 0 l)) (v253 (ValueIdx.ix2 0 l)) (v258 (ValueIdx.ix2 0 l)) cst_37 := rfl
theorem pay84_lane (v218 : FVec F S1x65536 .f32) (v223 : FVec F S1x65536 .f32) (v228 : FVec F S1x65536 .f32) (v233 : FVec F S1x65536 .f32) (v238 : FVec F S1x65536 .f32) (v243 : FVec F S1x65536 .f32) (v248 : FVec F S1x65536 .f32) (v253 : FVec F S1x65536 .f32) (v258 : FVec F S1x65536 .f32) (cst_37 : F .f32) (l : Fin 65536) :
    k0_pay84 v218 v223 v228 v233 v238 v243 v248 v253 v258 cst_37 (ValueIdx.ix2 0 l) = s84 (v218 (ValueIdx.ix2 0 l)) (v223 (ValueIdx.ix2 0 l)) (v228 (ValueIdx.ix2 0 l)) (v233 (ValueIdx.ix2 0 l)) (v238 (ValueIdx.ix2 0 l)) (v243 (ValueIdx.ix2 0 l)) (v248 (ValueIdx.ix2 0 l)) (v253 (ValueIdx.ix2 0 l)) (v258 (ValueIdx.ix2 0 l)) cst_37 := rfl
theorem pay85_lane (v218 : FVec F S1x65536 .f32) (v223 : FVec F S1x65536 .f32) (v233 : FVec F S1x65536 .f32) (v238 : FVec F S1x65536 .f32) (v243 : FVec F S1x65536 .f32) (v253 : FVec F S1x65536 .f32) (v258 : FVec F S1x65536 .f32) (cst_37 : F .f32) (l : Fin 65536) :
    k0_pay85 v218 v223 v233 v238 v243 v253 v258 cst_37 (ValueIdx.ix2 0 l) = s85 (v218 (ValueIdx.ix2 0 l)) (v223 (ValueIdx.ix2 0 l)) (v233 (ValueIdx.ix2 0 l)) (v238 (ValueIdx.ix2 0 l)) (v243 (ValueIdx.ix2 0 l)) (v253 (ValueIdx.ix2 0 l)) (v258 (ValueIdx.ix2 0 l)) cst_37 := rfl
theorem pay86_lane (v300 : FVec F S1x65536 .f32) (l : Fin 65536) :
    k0_pay86 v300 (ValueIdx.ix2 0 l) = s86 (v300 (ValueIdx.ix2 0 l)) := rfl
theorem pay87_lane (v300 : FVec F S1x65536 .f32) (v303 : FVec F S1x65536 .f32) (l : Fin 65536) :
    k0_pay87 v300 v303 (ValueIdx.ix2 0 l) = s87 (v300 (ValueIdx.ix2 0 l)) (v303 (ValueIdx.ix2 0 l)) := rfl
theorem pay88_lane (v300 : FVec F S1x65536 .f32) (v303 : FVec F S1x65536 .f32) (l : Fin 65536) :
    k0_pay88 v300 v303 (ValueIdx.ix2 0 l) = s88 (v300 (ValueIdx.ix2 0 l)) (v303 (ValueIdx.ix2 0 l)) := rfl
theorem pay89_lane (v300 : FVec F S1x65536 .f32) (v303 : FVec F S1x65536 .f32) (l : Fin 65536) :
    k0_pay89 v300 v303 (ValueIdx.ix2 0 l) = s89 (v300 (ValueIdx.ix2 0 l)) (v303 (ValueIdx.ix2 0 l)) := rfl
theorem pay90_lane (v300 : FVec F S1x65536 .f32) (v303 : FVec F S1x65536 .f32) (v306 : FVec F S1x65536 .f32) (l : Fin 65536) :
    k0_pay90 v300 v303 v306 (ValueIdx.ix2 0 l) = s90 (v300 (ValueIdx.ix2 0 l)) (v303 (ValueIdx.ix2 0 l)) (v306 (ValueIdx.ix2 0 l)) := rfl
theorem pay91_lane (v300 : FVec F S1x65536 .f32) (v303 : FVec F S1x65536 .f32) (v309 : FVec F S1x65536 .f32) (l : Fin 65536) :
    k0_pay91 v300 v303 v309 (ValueIdx.ix2 0 l) = s91 (v300 (ValueIdx.ix2 0 l)) (v303 (ValueIdx.ix2 0 l)) (v309 (ValueIdx.ix2 0 l)) := rfl
theorem pay92_lane (v265 : IVec S1x65536 1) (v288 : FVec F S1x65536 .f32) (v300 : FVec F S1x65536 .f32) (v303 : FVec F S1x65536 .f32) (v311 : FVec F S1x65536 .f32) (l : Fin 65536) :
    k0_pay92 v265 v288 v300 v303 v311 (ValueIdx.ix2 0 l) = s92 (v265 (ValueIdx.ix2 0 l)) (v288 (ValueIdx.ix2 0 l)) (v300 (ValueIdx.ix2 0 l)) (v303 (ValueIdx.ix2 0 l)) (v311 (ValueIdx.ix2 0 l)) := rfl

/-! ## The wiring over scalars -/
def sv4 (a : Fin 7 → F .f32) (b : Fin 6 → F .f32) : F .f32 := s3 a
def sv5 (a : Fin 7 → F .f32) (b : Fin 6 → F .f32) : F .f32 := s4 a
def sv6 (a : Fin 7 → F .f32) (b : Fin 6 → F .f32) : F .f32 := s5 a
def sv7 (a : Fin 7 → F .f32) (b : Fin 6 → F .f32) : F .f32 := s6 a
def sv8 (a : Fin 7 → F .f32) (b : Fin 6 → F .f32) : F .f32 := s7 a
def sv9 (a : Fin 7 → F .f32) (b : Fin 6 → F .f32) : F .f32 := s8 a
def sv10 (a : Fin 7 → F .f32) (b : Fin 6 → F .f32) : F .f32 := s9 a
def sv11 (a : Fin 7 → F .f32) (b : Fin 6 → F .f32) : F .f32 := s10 b
def sv12 (a : Fin 7 → F .f32) (b : Fin 6 → F .f32) : F .f32 := s11 b
def sv13 (a : Fin 7 → F .f32) (b : Fin 6 → F .f32) : F .f32 := s12 b
def sv14 (a : Fin 7 → F .f32) (b : Fin 6 → F .f32) : F .f32 := s13 b
def sv15 (a : Fin 7 → F .f32) (b : Fin 6 → F .f32) : F .f32 := s14 b
def sv16 (a : Fin 7 → F .f32) (b : Fin 6 → F .f32) : F .f32 := s15 b
def sv23 (a : Fin 7 → F .f32) (b : Fin 6 → F .f32) : F .f32 := s16 a
def sv28 (a : Fin 7 → F .f32) (b : Fin 6 → F .f32) : F .f32 := s17 a
def sv33 (a : Fin 7 → F .f32) (b : Fin 6 → F .f32) : F .f32 := s18 a
def sv38 (a : Fin 7 → F .f32) (b : Fin 6 → F .f32) : F .f32 := s19 a
def sv45 (a : Fin 7 → F .f32) (b : Fin 6 → F .f32) : F .f32 := s20 a
def sv46 (a : Fin 7 → F .f32) (b : Fin 6 → F .f32) : F .f32 := s21 a
def sv47 (a : Fin 7 → F .f32) (b : Fin 6 → F .f32) : F .f32 := s22 a
def sv50 (a : Fin 7 → F .f32) (b : Fin 6 → F .f32) : F .f32 := s23 (sv46 a b) (sv47 a b)
def sv55 (a : Fin 7 → F .f32) (b : Fin 6 → F .f32) : F .f32 := s24 (sv7 a b) (sv8 a b) (sv9 a b) (sv10 a b)
def sv60 (a : Fin 7 → F .f32) (b : Fin 6 → F .f32) : F .f32 := s25 (sv7 a b) (sv8 a b) (sv9 a b) (sv10 a b)
def sv67 (a : Fin 7 → F .f32) (b : Fin 6 → F .f32) : F .f32 := s26 (sv8 a b) (sv9 a b)
def sv74 (a : Fin 7 → F .f32) (b : Fin 6 → F .f32) : BitVec 1 := s28 (sv14 a b) (sv15 a b) (sv16 a b)
def sv86 (a : Fin 7 → F .f32) (b : Fin 6 → F .f32) : F .f32 := s34 (sv14 a b) (sv15 a b) (sv16 a b)
def sv91 (a : Fin 7 → F .f32) (b : Fin 6 → F .f32) : F .f32 := s35 (sv14 a b) (sv15 a b) (sv16 a b)
def sv94 (a : Fin 7 → F .f32) (b : Fin 6 → F .f32) : F .f32 := s36 (sv14 a b) (sv15 a b) (sv16 a b)
def sv96 (a : Fin 7 → F .f32) (b : Fin 6 → F .f32) : F .f32 := s37 (sv74 a b) (sv94 a b) (cst_21 (F := F))
def sv97 (a : Fin 7 → F .f32) (b : Fin 6 → F .f32) : F .f32 := s38 (sv14 a b) (sv15 a b)
def sv98 (a : Fin 7 → F .f32) (b : Fin 6 → F .f32) : F .f32 := s39 (sv14 a b) (sv16 a b)
def sv99 (a : Fin 7 → F .f32) (b : Fin 6 → F .f32) : F .f32 := s40 (sv15 a b) (sv16 a b)
def sv104 (a : Fin 7 → F .f32) (b : Fin 6 → F .f32) : F .f32 := s41 (sv15 a b) (sv16 a b)
def sv109 (a : Fin 7 → F .f32) (b : Fin 6 → F .f32) : F .f32 := s42 (sv14 a b) (sv16 a b)
def sv114 (a : Fin 7 → F .f32) (b : Fin 6 → F .f32) : F .f32 := s43 (sv14 a b) (sv15 a b)
def sv117 (a : Fin 7 → F .f32) (b : Fin 6 → F .f32) : F .f32 := s44 (sv15 a b) (sv16 a b) (sv91 a b)
def sv122 (a : Fin 7 → F .f32) (b : Fin 6 → F .f32) : F .f32 := s45 (sv14 a b) (sv15 a b) (sv16 a b) (sv86 a b) (sv91 a b)
def sv125 (a : Fin 7 → F .f32) (b : Fin 6 → F .f32) : F .f32 := s46 (sv14 a b) (sv15 a b) (sv16 a b) (sv86 a b) (sv91 a b)
def sv128 (a : Fin 7 → F .f32) (b : Fin 6 → F .f32) : F .f32 := s47 (sv14 a b) (sv15 a b) (sv16 a b) (sv86 a b) (sv91 a b)
def sv131 (a : Fin 7 → F .f32) (b : Fin 6 → F .f32) : F .f32 := s48 (sv14 a b) (sv16 a b) (sv91 a b)
def sv136 (a : Fin 7 → F .f32) (b : Fin 6 → F .f32) : F .f32 := s49 (sv14 a b) (sv15 a b) (sv16 a b) (sv86 a b) (sv91 a b)
def sv141 (a : Fin 7 → F .f32) (b : Fin 6 → F .f32) : F .f32 := s50 (sv14 a b) (sv15 a b) (sv16 a b) (sv86 a b) (sv91 a b)
def sv144 (a : Fin 7 → F .f32) (b : Fin 6 → F .f32) : F .f32 := s51 (sv14 a b) (sv15 a b) (sv16 a b) (sv86 a b) (sv91 a b)
def sv145 (a : Fin 7 → F .f32) (b : Fin 6 → F .f32) : F .f32 := s52 (sv14 a b) (sv15 a b) (sv91 a b)
def sv147 (a : Fin 7 → F .f32) (b : Fin 6 → F .f32) : F .f32 := s53 (sv145 a b) (cst_30 (F := F))
def sv185 (a : Fin 7 → F .f32) (b : Fin 6 → F .f32) : F .f32 := s54 (sv11 a b) (sv12 a b) (sv13 a b) (sv15 a b) (sv16 a b) (sv91 a b) (sv96 a b) (sv97 a b) (sv98 a b) (sv104 a b)
def sv190 (a : Fin 7 → F .f32) (b : Fin 6 → F .f32) : F .f32 := s55 (sv11 a b) (sv12 a b) (sv13 a b) (sv14 a b) (sv16 a b) (sv91 a b) (sv96 a b) (sv97 a b) (sv99 a b) (sv109 a b)
def sv195 (a : Fin 7 → F .f32) (b : Fin 6 → F .f32) : F .f32 := s56 (sv11 a b) (sv12 a b) (sv13 a b) (sv14 a b) (sv15 a b) (sv91 a b) (sv96 a b) (sv98 a b) (sv99 a b) (sv114 a b)
def sv198 (a : Fin 7 → F .f32) (b : Fin 6 → F .f32) : F .f32 := s57 (sv4 a b) (sv5 a b) (sv117 a b) (sv122 a b)
def sv199 (a : Fin 7 → F .f32) (b : Fin 6 → F .f32) : F .f32 := s58 (sv6 a b) (sv125 a b)
def sv211 (a : Fin 7 → F .f32) (b : Fin 6 → F .f32) : F .f32 := s59 (sv185 a b) (sv198 a b) (sv199 a b)
def sv212 (a : Fin 7 → F .f32) (b : Fin 6 → F .f32) : F .f32 := s60 (sv4 a b) (sv5 a b) (sv6 a b) (sv128 a b) (sv131 a b) (sv136 a b) (sv190 a b)
def sv213 (a : Fin 7 → F .f32) (b : Fin 6 → F .f32) : F .f32 := s61 (sv4 a b) (sv5 a b) (sv6 a b) (sv141 a b) (sv144 a b) (sv147 a b) (sv195 a b)
def sv218 (a : Fin 7 → F .f32) (b : Fin 6 → F .f32) : F .f32 := s62 (sv23 a b) (sv38 a b) (sv55 a b) (sv117 a b) (sv122 a b) (sv125 a b)
def sv223 (a : Fin 7 → F .f32) (b : Fin 6 → F .f32) : F .f32 := s63 (sv28 a b) (sv45 a b) (sv60 a b) (sv117 a b) (sv122 a b) (sv125 a b)
def sv228 (a : Fin 7 → F .f32) (b : Fin 6 → F .f32) : F .f32 := s64 (sv33 a b) (sv50 a b) (sv67 a b) (sv117 a b) (sv122 a b) (sv125 a b)
def sv233 (a : Fin 7 → F .f32) (b : Fin 6 → F .f32) : F .f32 := s65 (sv23 a b) (sv38 a b) (sv55 a b) (sv128 a b) (sv131 a b) (sv136 a b)
def sv238 (a : Fin 7 → F .f32) (b : Fin 6 → F .f32) : F .f32 := s66 (sv28 a b) (sv45 a b) (sv60 a b) (sv128 a b) (sv131 a b) (sv136 a b)
def sv243 (a : Fin 7 → F .f32) (b : Fin 6 → F .f32) : F .f32 := s67 (sv33 a b) (sv50 a b) (sv67 a b) (sv128 a b) (sv131 a b) (sv136 a b)
def sv248 (a : Fin 7 → F .f32) (b : Fin 6 → F .f32) : F .f32 := s68 (sv23 a b) (sv38 a b) (sv55 a b) (sv141 a b) (sv144 a b) (sv147 a b)
def sv253 (a : Fin 7 → F .f32) (b : Fin 6 → F .f32) : F .f32 := s69 (sv28 a b) (sv45 a b) (sv60 a b) (sv141 a b) (sv144 a b) (sv147 a b)
def sv258 (a : Fin 7 → F .f32) (b : Fin 6 → F .f32) : F .f32 := s70 (sv33 a b) (sv50 a b) (sv67 a b) (sv141 a b) (sv144 a b) (sv147 a b)
def sv265 (a : Fin 7 → F .f32) (b : Fin 6 → F .f32) : BitVec 1 := s73 (sv218 a b) (sv238 a b) (sv258 a b) (cst_37 (F := F))
def sv288 (a : Fin 7 → F .f32) (b : Fin 6 → F .f32) : F .f32 := s80 (sv228 a b) (sv248 a b)
def sv300 (a : Fin 7 → F .f32) (b : Fin 6 → F .f32) : F .f32 := s81 (sv218 a b) (sv238 a b) (sv258 a b) (cst_37 (F := F))
def sv303 (a : Fin 7 → F .f32) (b : Fin 6 → F .f32) : F .f32 := s82 (sv218 a b) (sv223 a b) (sv228 a b) (sv233 a b) (sv238 a b) (sv243 a b) (sv248 a b) (sv253 a b) (sv258 a b) (cst_37 (F := F))
def sv306 (a : Fin 7 → F .f32) (b : Fin 6 → F .f32) : F .f32 := s83 (sv218 a b) (sv223 a b) (sv228 a b) (sv233 a b) (sv238 a b) (sv243 a b) (sv248 a b) (sv253 a b) (sv258 a b) (cst_37 (F := F))
def sv309 (a : Fin 7 → F .f32) (b : Fin 6 → F .f32) : F .f32 := s84 (sv218 a b) (sv223 a b) (sv228 a b) (sv233 a b) (sv238 a b) (sv243 a b) (sv248 a b) (sv253 a b) (sv258 a b) (cst_37 (F := F))
def sv311 (a : Fin 7 → F .f32) (b : Fin 6 → F .f32) : F .f32 := s85 (sv218 a b) (sv223 a b) (sv233 a b) (sv238 a b) (sv243 a b) (sv253 a b) (sv258 a b) (cst_37 (F := F))
def sv324 (a : Fin 7 → F .f32) (b : Fin 6 → F .f32) : F .f32 := s89 (sv300 a b) (sv303 a b)
def sv327 (a : Fin 7 → F .f32) (b : Fin 6 → F .f32) : F .f32 := s90 (sv300 a b) (sv303 a b) (sv306 a b)
def sv330 (a : Fin 7 → F .f32) (b : Fin 6 → F .f32) : F .f32 := s91 (sv300 a b) (sv303 a b) (sv309 a b)
def sv333 (a : Fin 7 → F .f32) (b : Fin 6 → F .f32) : F .f32 := s92 (sv265 a b) (sv288 a b) (sv300 a b) (sv303 a b) (sv311 a b)

/-- The seven stored values of one lane. -/
def sRows (a : Fin 7 → F .f32) (b : Fin 6 → F .f32) : Fin 7 → F .f32 :=
  ![sv211 a b, sv212 a b, sv213 a b, sv324 a b, sv327 a b, sv330 a b, sv333 a b]

end Cert.Kernel.Hand

end
-- ==== Proof.KerLaneBits.lean ====
import proofs.«161387_j47622597378731_2_alg».proof.Proof.KerScalarBits
import proofs.«161387_j47622597378731_2_alg».proof.Proof.KerLaneAttr
import Idealize.ShloMosaic.Lib.Pipeline.Value

/-! # The kernel body is lane-wise

Lane l of every vector the body computes is a function of column l of the two blocks it loads, and of nothing else:
the thirteen one-row slices read rows of that column, and every later operation acts on each lane separately (its
scalar list, proved lane by lane by unfolding). Following the wiring from the loads to the seven stored rows gives
entry (r, l) of the stored block as sRows of the two columns at l. Two consequences: the entry does not change when
the blocks change in other columns (so what the body computes from a clipped block's filler past the array's end never reaches a
column inside the array), and at the exact instance it can be compared with the specification one sample at a time. -/

noncomputable section

namespace Cert.Kernel.Hand

open Idealize.ShloMosaic Idealize.SL.Sem Cert.Kernel Cert.Kernel.Gen
open Idealize.ShloMosaic.ValueIdx

variable {F : FTy → Type} [FloatOps F]

/-- Column l of the 7-row block. -/
def col7 (X0 : Vec F S7x65536 .f32) (l : Fin 65536) : Fin 7 → F .f32 := fun k => X0 (ix2 k l)
/-- Column l of the 6-row block. -/
def col6 (X1 : Vec F S6x65536 .f32) (l : Fin 65536) : Fin 6 → F .f32 := fun k => X1 (ix2 k l)

/-- A one-row slice of the 7-row block at row k, read at lane l, is the block at (k, l). -/
theorem slice7_lane {α : Type} (k : Nat) (hk : k < 7) (x : S7x65536.Idx → α) (h : S7x65536.Slices ![k, 0] S1x65536)
    (l : Fin 65536) : extractStridedSlice S1x65536 ![k, 0] x h (ix2 0 l) = x (ix2 ⟨k, hk⟩ l) := by
  unfold extractStridedSlice
  refine congrArg x (funext fun a => Fin.ext ?_)
  match a with
  | ⟨0, _⟩ => exact Nat.add_zero k
  | ⟨1, _⟩ => exact Nat.zero_add _
/-- The same for the 6-row block. -/
theorem slice6_lane {α : Type} (k : Nat) (hk : k < 6) (x : S6x65536.Idx → α) (h : S6x65536.Slices ![k, 0] S1x65536)
    (l : Fin 65536) : extractStridedSlice S1x65536 ![k, 0] x h (ix2 0 l) = x (ix2 ⟨k, hk⟩ l) := by
  unfold extractStridedSlice
  refine congrArg x (funext fun a => Fin.ext ?_)
  match a with
  | ⟨0, _⟩ => exact Nat.add_zero k
  | ⟨1, _⟩ => exact Nat.zero_add _

/-! ## The thirteen row slices (the cast of a block to its own shape is the identity) -/

theorem pay3_lane (v0 : Vec F S7x65536 .f32) (l : Fin 65536) : k0_pay3 v0 (ix2 0 l) = v0 (ix2 0 l) := by
  unfold k0_pay3 k0_pay1; rw [shapeCast_self]; exact slice7_lane 0 (by decide) v0 _ l
theorem pay4_lane (v0 : Vec F S7x65536 .f32) (l : Fin 65536) : k0_pay4 v0 (ix2 0 l) = v0 (ix2 1 l) := by
  unfold k0_pay4 k0_pay1; rw [shapeCast_self]; exact slice7_lane 1 (by decide) v0 _ l
theorem pay5_lane (v0 : Vec F S7x65536 .f32) (l : Fin 65536) : k0_pay5 v0 (ix2 0 l) = v0 (ix2 2 l) := by
  unfold k0_pay5 k0_pay1; rw [shapeCast_self]; exact slice7_lane 2 (by decide) v0 _ l
theorem pay6_lane (v0 : Vec F S7x65536 .f32) (l : Fin 65536) : k0_pay6 v0 (ix2 0 l) = v0 (ix2 3 l) := by
  unfold k0_pay6 k0_pay1; rw [shapeCast_self]; exact slice7_lane 3 (by decide) v0 _ l
theorem pay7_lane (v0 : Vec F S7x65536 .f32) (l : Fin 65536) : k0_pay7 v0 (ix2 0 l) = v0 (ix2 4 l) := by
  unfold k0_pay7 k0_pay1; rw [shapeCast_self]; exact slice7_lane 4 (by decide) v0 _ l
theorem pay8_lane (v0 : Vec F S7x65536 .f32) (l : Fin 65536) : k0_pay8 v0 (ix2 0 l) = v0 (ix2 5 l) := by
  unfold k0_pay8 k0_pay1; rw [shapeCast_self]; exact slice7_lane 5 (by decide) v0 _ l
theorem pay9_lane (v0 : Vec F S7x65536 .f32) (l : Fin 65536) : k0_pay9 v0 (ix2 0 l) = v0 (ix2 6 l) := by
  unfold k0_pay9 k0_pay1; rw [shapeCast_self]; exact slice7_lane 6 (by decide) v0 _ l
theorem pay10_lane (v2 : Vec F S6x65536 .f32) (l : Fin 65536) : k0_pay10 v2 (ix2 0 l) = v2 (ix2 0 l) := by
  unfold k0_pay10 k0_pay2; rw [shapeCast_self]; exact slice6_lane 0 (by decide) v2 _ l
theorem pay11_lane (v2 : Vec F S6x65536 .f32) (l : Fin 65536) : k0_pay11 v2 (ix2 0 l) = v2 (ix2 1 l) := by
  unfold k0_pay11 k0_pay2; rw [shapeCast_self]; exact slice6_lane 1 (by decide) v2 _ l
theorem pay12_lane (v2 : Vec F S6x65536 .f32) (l : Fin 65536) : k0_pay12 v2 (ix2 0 l) = v2 (ix2 2 l) := by
  unfold k0_pay12 k0_pay2; rw [shapeCast_self]; exact slice6_lane 2 (by decide) v2 _ l
theorem pay13_lane (v2 : Vec F S6x65536 .f32) (l : Fin 65536) : k0_pay13 v2 (ix2 0 l) = v2 (ix2 3 l) := by
  unfold k0_pay13 k0_pay2; rw [shapeCast_self]; exact slice6_lane 3 (by decide) v2 _ l
theorem pay14_lane (v2 : Vec F S6x65536 .f32) (l : Fin 65536) : k0_pay14 v2 (ix2 0 l) = v2 (ix2 4 l) := by
  unfold k0_pay14 k0_pay2; rw [shapeCast_self]; exact slice6_lane 4 (by decide) v2 _ l
theorem pay15_lane (v2 : Vec F S6x65536 .f32) (l : Fin 65536) : k0_pay15 v2 (ix2 0 l) = v2 (ix2 5 l) := by
  unfold k0_pay15 k0_pay2; rw [shapeCast_self]; exact slice6_lane 5 (by decide) v2 _ l

/-! ## The seven rotation-matrix payloads computed straight from the quaternion rows -/

theorem pay16_lane (v0 : Vec F S7x65536 .f32) (l : Fin 65536) : k0_pay16 v0 (ix2 0 l) = s16 (col7 v0 l) := by
  unfold k0_pay16
  simp only [subf, mulf, addf, broadcast, pay6_lane, pay7_lane, pay8_lane, pay9_lane]
  rfl
theorem pay17_lane (v0 : Vec F S7x65536 .f32) (l : Fin 65536) : k0_pay17 v0 (ix2 0 l) = s17 (col7 v0 l) := by
  unfold k0_pay17
  simp only [subf, mulf, addf, broadcast, pay6_lane, pay7_lane, pay8_lane, pay9_lane]
  rfl
theorem pay18_lane (v0 : Vec F S7x65536 .f32) (l : Fin 65536) : k0_pay18 v0 (ix2 0 l) = s18 (col7 v0 l) := by
  unfold k0_pay18
  simp only [subf, mulf, addf, broadcast, pay6_lane, pay7_lane, pay8_lane, pay9_lane]
  rfl
theorem pay19_lane (v0 : Vec F S7x65536 .f32) (l : Fin 65536) : k0_pay19 v0 (ix2 0 l) = s19 (col7 v0 l) := by
  unfold k0_pay19
  simp only [subf, mulf, addf, broadcast, pay6_lane, pay7_lane, pay8_lane, pay9_lane]
  rfl
theorem pay20_lane (v0 : Vec F S7x65536 .f32) (l : Fin 65536) : k0_pay20 v0 (ix2 0 l) = s20 (col7 v0 l) := by
  unfold k0_pay20
  simp only [subf, mulf, addf, broadcast, pay6_lane, pay7_lane, pay8_lane, pay9_lane]
  rfl
theorem pay21_lane (v0 : Vec F S7x65536 .f32) (l : Fin 65536) : k0_pay21 v0 (ix2 0 l) = s21 (col7 v0 l) := by
  unfold k0_pay21
  simp only [subf, mulf, addf, broadcast, pay6_lane, pay7_lane, pay8_lane, pay9_lane]
  rfl
theorem pay22_lane (v0 : Vec F S7x65536 .f32) (l : Fin 65536) : k0_pay22 v0 (ix2 0 l) = s22 (col7 v0 l) := by
  unfold k0_pay22
  simp only [subf, mulf, addf, broadcast, pay6_lane, pay7_lane, pay8_lane, pay9_lane]
  rfl

attribute [lane] pay23_lane pay24_lane pay25_lane pay26_lane pay27_lane pay28_lane pay29_lane pay30_lane pay31_lane pay32_lane pay33_lane pay34_lane pay35_lane pay36_lane pay37_lane pay38_lane pay39_lane pay40_lane pay41_lane pay42_lane pay43_lane pay44_lane pay45_lane pay46_lane pay47_lane pay48_lane pay49_lane pay50_lane pay51_lane pay52_lane pay53_lane pay54_lane pay55_lane pay56_lane pay57_lane pay58_lane pay59_lane pay60_lane pay61_lane pay62_lane pay63_lane pay64_lane pay65_lane pay66_lane pay67_lane pay68_lane pay69_lane pay70_lane pay71_lane pay72_lane pay73_lane pay74_lane pay75_lane pay76_lane pay77_lane pay78_lane pay79_lane pay80_lane pay81_lane pay82_lane pay83_lane pay84_lane pay85_lane pay86_lane pay87_lane pay88_lane pay89_lane pay90_lane pay91_lane pay92_lane

/-! ## Following the wiring: every named vector at lane l, from the two columns at l -/

@[lane] theorem v4_lane (X0 : Vec F S7x65536 .f32) (X1 : Vec F S6x65536 .f32) (l : Fin 65536) :
    v4 X0 X1 (ix2 0 l) = sv4 (col7 X0 l) (col6 X1 l) := pay3_lane X0 l
@[lane] theorem v5_lane (X0 : Vec F S7x65536 .f32) (X1 : Vec F S6x65536 .f32) (l : Fin 65536) :
    v5 X0 X1 (ix2 0 l) = sv5 (col7 X0 l) (col6 X1 l) := pay4_lane X0 l
@[lane] theorem v6_lane (X0 : Vec F S7x65536 .f32) (X1 : Vec F S6x65536 .f32) (l : Fin 65536) :
    v6 X0 X1 (ix2 0 l) = sv6 (col7 X0 l) (col6 X1 l) := pay5_lane X0 l
@[lane] theorem v7_lane (X0 : Vec F S7x65536 .f32) (X1 : Vec F S6x65536 .f32) (l : Fin 65536) :
    v7 X0 X1 (ix2 0 l) = sv7 (col7 X0 l) (col6 X1 l) := pay6_lane X0 l
@[lane] theorem v8_lane (X0 : Vec F S7x65536 .f32) (X1 : Vec F S6x65536 .f32) (l : Fin 65536) :
    v8 X0 X1 (ix2 0 l) = sv8 (col7 X0 l) (col6 X1 l) := pay7_lane X0 l
@[lane] theorem v9_lane (X0 : Vec F S7x65536 .f32) (X1 : Vec F S6x65536 .f32) (l : Fin 65536) :
    v9 X0 X1 (ix2 0 l) = sv9 (col7 X0 l) (col6 X1 l) := pay8_lane X0 l
@[lane] theorem v10_lane (X0 : Vec F S7x65536 .f32) (X1 : Vec F S6x65536 .f32) (l : Fin 65536) :
    v10 X0 X1 (ix2 0 l) = sv10 (col7 X0 l) (col6 X1 l) := pay9_lane X0 l
@[lane] theorem v11_lane (X0 : Vec F S7x65536 .f32) (X1 : Vec F S6x65536 .f32) (l : Fin 65536) :
    v11 X0 X1 (ix2 0 l) = sv11 (col7 X0 l) (col6 X1 l) := pay10_lane X1 l
@[lane] theorem v12_lane (X0 : Vec F S7x65536 .f32) (X1 : Vec F S6x65536 .f32) (l : Fin 65536) :
    v12 X0 X1 (ix2 0 l) = sv12 (col7 X0 l) (col6 X1 l) := pay11_lane X1 l
@[lane] theorem v13_lane (X0 : Vec F S7x65536 .f32) (X1 : Vec F S6x65536 .f32) (l : Fin 65536) :
    v13 X0 X1 (ix2 0 l) = sv13 (col7 X0 l) (col6 X1 l) := pay12_lane X1 l
@[lane] theorem v14_lane (X0 : Vec F S7x65536 .f32) (X1 : Vec F S6x65536 .f32) (l : Fin 65536) :
    v14 X0 X1 (ix2 0 l) = sv14 (col7 X0 l) (col6 X1 l) := pay13_lane X1 l
@[lane] theorem v15_lane (X0 : Vec F S7x65536 .f32) (X1 : Vec F S6x65536 .f32) (l : Fin 65536) :
    v15 X0 X1 (ix2 0 l) = sv15 (col7 X0 l) (col6 X1 l) := pay14_lane X1 l
@[lane] theorem v16_lane (X0 : Vec F S7x65536 .f32) (X1 : Vec F S6x65536 .f32) (l : Fin 65536) :
    v16 X0 X1 (ix2 0 l) = sv16 (col7 X0 l) (col6 X1 l) := pay15_lane X1 l
@[lane] theorem v23_lane (X0 : Vec F S7x65536 .f32) (X1 : Vec F S6x65536 .f32) (l : Fin 65536) :
    v23 X0 X1 (ix2 0 l) = sv23 (col7 X0 l) (col6 X1 l) := pay16_lane X0 l
@[lane] theorem v28_lane (X0 : Vec F S7x65536 .f32) (X1 : Vec F S6x65536 .f32) (l : Fin 65536) :
    v28 X0 X1 (ix2 0 l) = sv28 (col7 X0 l) (col6 X1 l) := pay17_lane X0 l
@[lane] theorem v33_lane (X0 : Vec F S7x65536 .f32) (X1 : Vec F S6x65536 .f32) (l : Fin 65536) :
    v33 X0 X1 (ix2 0 l) = sv33 (col7 X0 l) (col6 X1 l) := pay18_lane X0 l
@[lane] theorem v38_lane (X0 : Vec F S7x65536 .f32) (X1 : Vec F S6x65536 .f32) (l : Fin 65536) :
    v38 X0 X1 (ix2 0 l) = sv38 (col7 X0 l) (col6 X1 l) := pay19_lane X0 l
@[lane] theorem v45_lane (X0 : Vec F S7x65536 .f32) (X1 : Vec F S6x65536 .f32) (l : Fin 65536) :
    v45 X0 X1 (ix2 0 l) = sv45 (col7 X0 l) (col6 X1 l) := pay20_lane X0 l
@[lane] theorem v46_lane (X0 : Vec F S7x65536 .f32) (X1 : Vec F S6x65536 .f32) (l : Fin 65536) :
    v46 X0 X1 (ix2 0 l) = sv46 (col7 X0 l) (col6 X1 l) := pay21_lane X0 l
@[lane] theorem v47_lane (X0 : Vec F S7x65536 .f32) (X1 : Vec F S6x65536 .f32) (l : Fin 65536) :
    v47 X0 X1 (ix2 0 l) = sv47 (col7 X0 l) (col6 X1 l) := pay22_lane X0 l
@[lane] theorem v50_lane (X0 : Vec F S7x65536 .f32) (X1 : Vec F S6x65536 .f32) (l : Fin 65536) :
    v50 X0 X1 (ix2 0 l) = sv50 (col7 X0 l) (col6 X1 l) := by unfold v50 sv50; simp only [lane]
@[lane] theorem v55_lane (X0 : Vec F S7x65536 .f32) (X1 : Vec F S6x65536 .f32) (l : Fin 65536) :
    v55 X0 X1 (ix2 0 l) = sv55 (col7 X0 l) (col6 X1 l) := by unfold v55 sv55; simp only [lane]
@[lane] theorem v60_lane (X0 : Vec F S7x65536 .f32) (X1 : Vec F S6x65536 .f32) (l : Fin 65536) :
    v60 X0 X1 (ix2 0 l) = sv60 (col7 X0 l) (col6 X1 l) := by unfold v60 sv60; simp only [lane]
@[lane] theorem v67_lane (X0 : Vec F S7x65536 .f32) (X1 : Vec F S6x65536 .f32) (l : Fin 65536) :
    v67 X0 X1 (ix2 0 l) = sv67 (col7 X0 l) (col6 X1 l) := by unfold v67 sv67; simp only [lane]
@[lane] theorem v74_lane (X0 : Vec F S7x65536 .f32) (X1 : Vec F S6x65536 .f32) (l : Fin 65536) :
    v74 X0 X1 (ix2 0 l) = sv74 (col7 X0 l) (col6 X1 l) := by unfold v74 sv74; simp only [lane]
@[lane] theorem v86_lane (X0 : Vec F S7x65536 .f32) (X1 : Vec F S6x65536 .f32) (l : Fin 65536) :
    v86 X0 X1 (ix2 0 l) = sv86 (col7 X0 l) (col6 X1 l) := by unfold v86 sv86; simp only [lane]
@[lane] theorem v91_lane (X0 : Vec F S7x65536 .f32) (X1 : Vec F S6x65536 .f32) (l : Fin 65536) :
    v91 X0 X1 (ix2 0 l) = sv91 (col7 X0 l) (col6 X1 l) := by unfold v91 sv91; simp only [lane]
@[lane] theorem v94_lane (X0 : Vec F S7x65536 .f32) (X1 : Vec F S6x65536 .f32) (l : Fin 65536) :
    v94 X0 X1 (ix2 0 l) = sv94 (col7 X0 l) (col6 X1 l) := by unfold v94 sv94; simp only [lane]
@[lane] theorem v96_lane (X0 : Vec F S7x65536 .f32) (X1 : Vec F S6x65536 .f32) (l : Fin 65536) :
    v96 X0 X1 (ix2 0 l) = sv96 (col7 X0 l) (col6 X1 l) := by unfold v96 sv96; simp only [lane]
@[lane] theorem v97_lane (X0 : Vec F S7x65536 .f32) (X1 : Vec F S6x65536 .f32) (l : Fin 65536) :
    v97 X0 X1 (ix2 0 l) = sv97 (col7 X0 l) (col6 X1 l) := by unfold v97 sv97; simp only [lane]
@[lane] theorem v98_lane (X0 : Vec F S7x65536 .f32) (X1 : Vec F S6x65536 .f32) (l : Fin 65536) :
    v98 X0 X1 (ix2 0 l) = sv98 (col7 X0 l) (col6 X1 l) := by unfold v98 sv98; simp only [lane]
@[lane] theorem v99_lane (X0 : Vec F S7x65536 .f32) (X1 : Vec F S6x65536 .f32) (l : Fin 65536) :
    v99 X0 X1 (ix2 0 l) = sv99 (col7 X0 l) (col6 X1 l) := by unfold v99 sv99; simp only [lane]
@[lane] theorem v104_lane (X0 : Vec F S7x65536 .f32) (X1 : Vec F S6x65536 .f32) (l : Fin 65536) :
    v104 X0 X1 (ix2 0 l) = sv104 (col7 X0 l) (col6 X1 l) := by unfold v104 sv104; simp only [lane]
@[lane] theorem v109_lane (X0 : Vec F S7x65536 .f32) (X1 : Vec F S6x65536 .f32) (l : Fin 65536) :
    v109 X0 X1 (ix2 0 l) = sv109 (col7 X0 l) (col6 X1 l) := by unfold v109 sv109; simp only [lane]
@[lane] theorem v114_lane (X0 : Vec F S7x65536 .f32) (X1 : Vec F S6x65536 .f32) (l : Fin 65536) :
    v114 X0 X1 (ix2 0 l) = sv114 (col7 X0 l) (col6 X1 l) := by unfold v114 sv114; simp only [lane]
@[lane] theorem v117_lane (X0 : Vec F S7x65536 .f32) (X1 : Vec F S6x65536 .f32) (l : Fin 65536) :
    v117 X0 X1 (ix2 0 l) = sv117 (col7 X0 l) (col6 X1 l) := by unfold v117 sv117; simp only [lane]
@[lane] theorem v122_lane (X0 : Vec F S7x65536 .f32) (X1 : Vec F S6x65536 .f32) (l : Fin 65536) :
    v122 X0 X1 (ix2 0 l) = sv122 (col7 X0 l) (col6 X1 l) := by unfold v122 sv122; simp only [lane]
@[lane] theorem v125_lane (X0 : Vec F S7x65536 .f32) (X1 : Vec F S6x65536 .f32) (l : Fin 65536) :
    v125 X0 X1 (ix2 0 l) = sv125 (col7 X0 l) (col6 X1 l) := by unfold v125 sv125; simp only [lane]
@[lane] theorem v128_lane (X0 : Vec F S7x65536 .f32) (X1 : Vec F S6x65536 .f32) (l : Fin 65536) :
    v128 X0 X1 (ix2 0 l) = sv128 (col7 X0 l) (col6 X1 l) := by unfold v128 sv128; simp only [lane]
@[lane] theorem v131_lane (X0 : Vec F S7x65536 .f32) (X1 : Vec F S6x65536 .f32) (l : Fin 65536) :
    v131 X0 X1 (ix2 0 l) = sv131 (col7 X0 l) (col6 X1 l) := by unfold v131 sv131; simp only [lane]
@[lane] theorem v136_lane (X0 : Vec F S7x65536 .f32) (X1 : Vec F S6x65536 .f32) (l : Fin 65536) :
    v136 X0 X1 (ix2 0 l) = sv136 (col7 X0 l) (col6 X1 l) := by unfold v136 sv136; simp only [lane]
@[lane] theorem v141_lane (X0 : Vec F S7x65536 .f32) (X1 : Vec F S6x65536 .f32) (l : Fin 65536) :
    v141 X0 X1 (ix2 0 l) = sv141 (col7 X0 l) (col6 X1 l) := by unfold v141 sv141; simp only [lane]
@[lane] theorem v144_lane (X0 : Vec F S7x65536 .f32) (X1 : Vec F S6x65536 .f32) (l : Fin 65536) :
    v144 X0 X1 (ix2 0 l) = sv144 (col7 X0 l) (col6 X1 l) := by unfold v144 sv144; simp only [lane]
@[lane] theorem v145_lane (X0 : Vec F S7x65536 .f32) (X1 : Vec F S6x65536 .f32) (l : Fin 65536) :
    v145 X0 X1 (ix2 0 l) = sv145 (col7 X0 l) (col6 X1 l) := by unfold v145 sv145; simp only [lane]
@[lane] theorem v147_lane (X0 : Vec F S7x65536 .f32) (X1 : Vec F S6x65536 .f32) (l : Fin 65536) :
    v147 X0 X1 (ix2 0 l) = sv147 (col7 X0 l) (col6 X1 l) := by unfold v147 sv147; simp only [lane]
@[lane] theorem v185_lane (X0 : Vec F S7x65536 .f32) (X1 : Vec F S6x65536 .f32) (l : Fin 65536) :
    v185 X0 X1 (ix2 0 l) = sv185 (col7 X0 l) (col6 X1 l) := by unfold v185 sv185; simp only [lane]
@[lane] theorem v190_lane (X0 : Vec F S7x65536 .f32) (X1 : Vec F S6x65536 .f32) (l : Fin 65536) :
    v190 X0 X1 (ix2 0 l) = sv190 (col7 X0 l) (col6 X1 l) := by unfold v190 sv190; simp only [lane]
@[lane] theorem v195_lane (X0 : Vec F S7x65536 .f32) (X1 : Vec F S6x65536 .f32) (l : Fin 65536) :
    v195 X0 X1 (ix2 0 l) = sv195 (col7 X0 l) (col6 X1 l) := by unfold v195 sv195; simp only [lane]
@[lane] theorem v198_lane (X0 : Vec F S7x65536 .f32) (X1 : Vec F S6x65536 .f32) (l : Fin 65536) :
    v198 X0 X1 (ix2 0 l) = sv198 (col7 X0 l) (col6 X1 l) := by unfold v198 sv198; simp only [lane]
@[lane] theorem v199_lane (X0 : Vec F S7x65536 .f32) (X1 : Vec F S6x65536 .f32) (l : Fin 65536) :
    v199 X0 X1 (ix2 0 l) = sv199 (col7 X0 l) (col6 X1 l) := by unfold v199 sv199; simp only [lane]
@[lane] theorem v211_lane (X0 : Vec F S7x65536 .f32) (X1 : Vec F S6x65536 .f32) (l : Fin 65536) :
    v211 X0 X1 (ix2 0 l) = sv211 (col7 X0 l) (col6 X1 l) := by unfold v211 sv211; simp only [lane]
@[lane] theorem v212_lane (X0 : Vec F S7x65536 .f32) (X1 : Vec F S6x65536 .f32) (l : Fin 65536) :
    v212 X0 X1 (ix2 0 l) = sv212 (col7 X0 l) (col6 X1 l) := by unfold v212 sv212; simp only [lane]
@[lane] theorem v213_lane (X0 : Vec F S7x65536 .f32) (X1 : Vec F S6x65536 .f32) (l : Fin 65536) :
    v213 X0 X1 (ix2 0 l) = sv213 (col7 X0 l) (col6 X1 l) := by unfold v213 sv213; simp only [lane]
@[lane] theorem v218_lane (X0 : Vec F S7x65536 .f32) (X1 : Vec F S6x65536 .f32) (l : Fin 65536) :
    v218 X0 X1 (ix2 0 l) = sv218 (col7 X0 l) (col6 X1 l) := by unfold v218 sv218; simp only [lane]
@[lane] theorem v223_lane (X0 : Vec F S7x65536 .f32) (X1 : Vec F S6x65536 .f32) (l : Fin 65536) :
    v223 X0 X1 (ix2 0 l) = sv223 (col7 X0 l) (col6 X1 l) := by unfold v223 sv223; simp only [lane]
@[lane] theorem v228_lane (X0 : Vec F S7x65536 .f32) (X1 : Vec F S6x65536 .f32) (l : Fin 65536) :
    v228 X0 X1 (ix2 0 l) = sv228 (col7 X0 l) (col6 X1 l) := by unfold v228 sv228; simp only [lane]
@[lane] theorem v233_lane (X0 : Vec F S7x65536 .f32) (X1 : Vec F S6x65536 .f32) (l : Fin 65536) :
    v233 X0 X1 (ix2 0 l) = sv233 (col7 X0 l) (col6 X1 l) := by unfold v233 sv233; simp only [lane]
@[lane] theorem v238_lane (X0 : Vec F S7x65536 .f32) (X1 : Vec F S6x65536 .f32) (l : Fin 65536) :
    v238 X0 X1 (ix2 0 l) = sv238 (col7 X0 l) (col6 X1 l) := by unfold v238 sv238; simp only [lane]
@[lane] theorem v243_lane (X0 : Vec F S7x65536 .f32) (X1 : Vec F S6x65536 .f32) (l : Fin 65536) :
    v243 X0 X1 (ix2 0 l) = sv243 (col7 X0 l) (col6 X1 l) := by unfold v243 sv243; simp only [lane]
@[lane] theorem v248_lane (X0 : Vec F S7x65536 .f32) (X1 : Vec F S6x65536 .f32) (l : Fin 65536) :
    v248 X0 X1 (ix2 0 l) = sv248 (col7 X0 l) (col6 X1 l) := by unfold v248 sv248; simp only [lane]
@[lane] theorem v253_lane (X0 : Vec F S7x65536 .f32) (X1 : Vec F S6x65536 .f32) (l : Fin 65536) :
    v253 X0 X1 (ix2 0 l) = sv253 (col7 X0 l) (col6 X1 l) := by unfold v253 sv253; simp only [lane]
@[lane] theorem v258_lane (X0 : Vec F S7x65536 .f32) (X1 : Vec F S6x65536 .f32) (l : Fin 65536) :
    v258 X0 X1 (ix2 0 l) = sv258 (col7 X0 l) (col6 X1 l) := by unfold v258 sv258; simp only [lane]
@[lane] theorem v265_lane (X0 : Vec F S7x65536 .f32) (X1 : Vec F S6x65536 .f32) (l : Fin 65536) :
    v265 X0 X1 (ix2 0 l) = sv265 (col7 X0 l) (col6 X1 l) := by unfold v265 sv265; simp only [lane]
@[lane] theorem v288_lane (X0 : Vec F S7x65536 .f32) (X1 : Vec F S6x65536 .f32) (l : Fin 65536) :
    v288 X0 X1 (ix2 0 l) = sv288 (col7 X0 l) (col6 X1 l) := by unfold v288 sv288; simp only [lane]
@[lane] theorem v300_lane (X0 : Vec F S7x65536 .f32) (X1 : Vec F S6x65536 .f32) (l : Fin 65536) :
    v300 X0 X1 (ix2 0 l) = sv300 (col7 X0 l) (col6 X1 l) := by unfold v300 sv300; simp only [lane]
@[lane] theorem v303_lane (X0 : Vec F S7x65536 .f32) (X1 : Vec F S6x65536 .f32) (l : Fin 65536) :
    v303 X0 X1 (ix2 0 l) = sv303 (col7 X0 l) (col6 X1 l) := by unfold v303 sv303; simp only [lane]
@[lane] theorem v306_lane (X0 : Vec F S7x65536 .f32) (X1 : Vec F S6x65536 .f32) (l : Fin 65536) :
    v306 X0 X1 (ix2 0 l) = sv306 (col7 X0 l) (col6 X1 l) := by unfold v306 sv306; simp only [lane]
@[lane] theorem v309_lane (X0 : Vec F S7x65536 .f32) (X1 : Vec F S6x65536 .f32) (l : Fin 65536) :
    v309 X0 X1 (ix2 0 l) = sv309 (col7 X0 l) (col6 X1 l) := by unfold v309 sv309; simp only [lane]
@[lane] theorem v311_lane (X0 : Vec F S7x65536 .f32) (X1 : Vec F S6x65536 .f32) (l : Fin 65536) :
    v311 X0 X1 (ix2 0 l) = sv311 (col7 X0 l) (col6 X1 l) := by unfold v311 sv311; simp only [lane]
@[lane] theorem v324_lane (X0 : Vec F S7x65536 .f32) (X1 : Vec F S6x65536 .f32) (l : Fin 65536) :
    v324 X0 X1 (ix2 0 l) = sv324 (col7 X0 l) (col6 X1 l) := by unfold v324 sv324; simp only [lane]
@[lane] theorem v327_lane (X0 : Vec F S7x65536 .f32) (X1 : Vec F S6x65536 .f32) (l : Fin 65536) :
    v327 X0 X1 (ix2 0 l) = sv327 (col7 X0 l) (col6 X1 l) := by unfold v327 sv327; simp only [lane]
@[lane] theorem v330_lane (X0 : Vec F S7x65536 .f32) (X1 : Vec F S6x65536 .f32) (l : Fin 65536) :
    v330 X0 X1 (ix2 0 l) = sv330 (col7 X0 l) (col6 X1 l) := by unfold v330 sv330; simp only [lane]
@[lane] theorem v333_lane (X0 : Vec F S7x65536 .f32) (X1 : Vec F S6x65536 .f32) (l : Fin 65536) :
    v333 X0 X1 (ix2 0 l) = sv333 (col7 X0 l) (col6 X1 l) := by unfold v333 sv333; simp only [lane]

/-! ## The stored block -/

/-- Entry (r, l) of the stored block is the r-th stored value of lane l. -/
theorem outBlk_lane (X0 : Vec F S7x65536 .f32) (X1 : Vec F S6x65536 .f32) (r : Fin 7) (l : Fin 65536) :
    outBlk X0 X1 (ix2 r l) = sRows (col7 X0 l) (col6 X1 l) r := by
  unfold outBlk
  show rows X0 X1 r (ix2 0 l) = _
  unfold rows sRows
  fin_cases r
  · exact v211_lane X0 X1 l
  · exact v212_lane X0 X1 l
  · exact v213_lane X0 X1 l
  · exact v324_lane X0 X1 l
  · exact v327_lane X0 X1 l
  · exact v330_lane X0 X1 l
  · exact v333_lane X0 X1 l

/-- The stored block at column l depends on the two loaded blocks through their columns l only. -/
theorem outBlk_congr {X0 X0' : Vec F S7x65536 .f32} {X1 X1' : Vec F S6x65536 .f32} {l : Fin 65536}
    (h0 : ∀ k : Fin 7, X0 (ix2 k l) = X0' (ix2 k l)) (h1 : ∀ k : Fin 6, X1 (ix2 k l) = X1' (ix2 k l)) (r : Fin 7) :
    outBlk X0 X1 (ix2 r l) = outBlk X0' X1' (ix2 r l) := by
  rw [outBlk_lane, outBlk_lane, show col7 X0 l = col7 X0' l from funext h0, show col6 X1 l = col6 X1' l from funext h1]

end Cert.Kernel.Hand

end
-- ==== Proof.KerBodyBits.lean ====
import proofs.«161387_j47622597378731_2_alg».proof.Proof.Gen.Kernel.Frame
import proofs.«161387_j47622597378731_2_alg».proof.Proof.Gen.Kernel.Skeleton
import proofs.«161387_j47622597378731_2_alg».proof.Proof.KerRowsBits
import proofs.«161387_j47622597378731_2_alg».proof.Proof.KerStoresBits
import proofs.«161387_j47622597378731_2_alg».proof.Proof.KerLaneBits
import proofs.«161387_j47622597378731_2_alg».proof.Defs
import proofs.«161387_j47622597378731_2_alg».proof.Proof.Gen.Pre_finite_inputs
import Idealize.ShloMosaic.Lib.Tactic

/-! # The body at one grid point, and the run of the whole grid

One grid point works on three staging blocks: X0 (7×65536, translation and quaternion rows), X1
(6×65536, twist rows) and the result's (7×65536). The body reads X0 and X1 whole, computes lane by
lane, and overwrites the result's block row by row with `outBlk X0 X1`; X0 and X1 are left as found.

The last of the 31 blocks overhangs the arrays (31·65536 > 2,000,000): only lanes below 33,920 of it
are fetched and written back, and the lanes past that hold words nobody names. Because every
operation is lane-wise, the lanes of the result that are written back depend only on the same lanes
of X0 and X1, that is on what was fetched. So the proof data describes each staging block on the
lanes inside the array only (a fixed filler word stands elsewhere), and the body obligation is the
one that states each block on the moved lanes only. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## The body's triple -/

/-- The offsets of a whole-block access are all zero. -/
theorem off00 : (![0, 0] : Fin 2 → Nat) = fun _ => 0 := funext fun a => by fin_cases a <;> rfl

set_option maxHeartbeats 1000000 in
/-- The body on three whole staging blocks holding X0, X1 and anything: it leaves X0 and X1 and
    overwrites the third with `outBlk X0 X1` — two whole loads, then seven row stores whose vectors
    are the seven rows (the seven rows tile the block: `canon_rows_outBlk`). -/
theorem sound_body (c : Dev nD) (E : Set ℕ) (i : grid0.Coords)
    (arg1 : Memref sig .tc .vmem S7x65536 .f32) (harg1 : arg1.IsWhole) (arg2 : Memref sig .tc .vmem S6x65536 .f32) (harg2 : arg2.IsWhole)
    (arg3 : Memref sig .tc .vmem S7x65536 .f32) (harg3 : arg3.IsWhole)
    (x0 : Vec F S7x65536 .f32) (x1 : Vec F S6x65536 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0_se3_comp_kernel i arg1 harg1 arg2 harg2 arg3 harg3) K := by
  simp only [cc0_se3_comp_kernel_eq_skeleton]; unfold cc0_se3_comp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the two loads read the blocks whole
  have e0 : View.ld (arg1.view.read (Elt F) f0) (Rect.unit (s := S7x65536) ![0, 0] S7x65536.size inb_S7x65536_S7x65536_0_0)
      = arg1.view.read (Elt F) f0 := View.ld_unit_zero off00 _ _
  have e1 : View.ld (arg2.view.read (Elt F) f1) (Rect.unit (s := S6x65536) ![0, 0] S6x65536.size inb_S6x65536_S6x65536_0_0)
      = arg2.view.read (Elt F) f1 := View.ld_unit_zero off00 _ _
  -- the seven stored vectors are the seven rows of the loaded blocks
  show arg3.view.read (Elt F) (arg3.view.writes (Elt F) f2
      (rowPieces (rows (View.ld (arg1.view.read (Elt F) f0) (Rect.unit (s := S7x65536) ![0, 0] S7x65536.size inb_S7x65536_S7x65536_0_0))
        (View.ld (arg2.view.read (Elt F) f1) (Rect.unit (s := S6x65536) ![0, 0] S6x65536.size inb_S6x65536_S6x65536_0_0)))))
    = outBlk (arg1.view.read (Elt F) f0) (arg2.view.read (Elt F) f1)
  rw [View.read_writes_eq_canon _ _ _ (cover_rows _), canon_rows_outBlk, e0, e1]

/-! ## The proof data -/

variable (m : (ℓ : Loc nD τ sig) → Buf (Elt F) ℓ) (ρ : Dev nD → PrngReg)

/-- The proof data of the one pipeline on core c: the arrays as the region finds them; after the body
    at point t the two inputs' staging blocks at their fetched blocks (the part inside the array; a
    fixed word on the lanes past its end) and the result's at `outBlk` of those two; the invariant is
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => outBlk (win0_0.fill (grid0.coords t) (fun _ => Scalar.ofBits .f32 0#32) (iblk m c 0 t))
        (win0_1.fill (grid0.coords t) (fun _ => Scalar.ofBits .f32 0#32) (iblk m c 1 t))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) :
    (dats m 0 c).after (0 : Fin 3) t = win0_0.fill (grid0.coords t) (fun _ => Scalar.ofBits .f32 0#32) (iblk m c 0 t) := by
  dsimp only [dats]
theorem after_1 (c : Dev nD) (t : Fin cfg0.N) :
    (dats m 0 c).after (1 : Fin 3) t = win0_1.fill (grid0.coords t) (fun _ => Scalar.ofBits .f32 0#32) (iblk m c 1 t) := by
  dsimp only [dats]
theorem after_2 (c : Dev nD) (t : Fin cfg0.N) :
    (dats m 0 c).after (2 : Fin 3) t = outBlk (win0_0.fill (grid0.coords t) (fun _ => Scalar.ofBits .f32 0#32) (iblk m c 0 t))
        (win0_1.fill (grid0.coords t) (fun _ => Scalar.ofBits .f32 0#32) (iblk m c 1 t)) := by
  dsimp only [dats]

/-- What the body finds: each input's block just fetched — the array's block on the lanes inside the
    array, the buffer's prior words `d` elsewhere —, -/
theorem before_0 (c : Dev nD) (t : Fin cfg0.N) (d) :
    (dats m 0 c).before (0 : Fin 3) t d = win0_0.fill (grid0.coords t) d (iblk m c 0 t) := by
  rw [Dat.before_fetched _ 0 t (fetch0_0 t)]
  unfold Dat.fetched Dat.blockOf iblk
  rw [A_eq]
theorem before_1 (c : Dev nD) (t : Fin cfg0.N) (d) :
    (dats m 0 c).before (1 : Fin 3) t d = win0_1.fill (grid0.coords t) d (iblk m c 1 t) := by
  rw [Dat.before_fetched _ 1 t (fetch0_1 t)]
  unfold Dat.fetched Dat.blockOf iblk
  rw [A_eq]
/-- and the result's block at words nothing names (every point writes it back). -/
theorem before_2 (c : Dev nD) (t : Fin cfg0.N) (d) : (dats m 0 c).before (2 : Fin 3) t d = d :=
  Dat.before_out_reset _ 2 rfl t
    ((Nat.eq_zero_or_pos t.val).imp id fun h => ⟨Nat.pos_iff_ne_zero.mp h, flush0_2 _⟩) d

/-! ## Which lanes move -/

/-- All rows of a block move, and the three windows cut the lanes alike (one index map, one lane
    extent). -/
theorem xsize0_0 (i : grid0.Coords) : win0_0.xsize i 0 = 7 := rfl
theorem xsize1_0 (i : grid0.Coords) : win0_1.xsize i 0 = 6 := rfl
theorem xsize0_1 (i : grid0.Coords) : win0_0.xsize i 1 = win0_2.xsize i 1 := rfl
theorem xsize1_1 (i : grid0.Coords) : win0_1.xsize i 1 = win0_2.xsize i 1 := rfl

/-- On a lane the result's write-back moves, an input block as fetched does not depend on the prior
    words. -/
theorem fill0_lane (i : grid0.Coords) (d d' : S7x65536.Idx → Elt F .f32) (g) (k : Fin 7) (l : Fin 65536)
    (hl : l.val < win0_2.xsize i 1) :
    win0_0.fill i d g (ix2 k l) = win0_0.fill i d' g (ix2 k l) := by
  have hm : win0_0.moved i (ix2 k l) = true := (win0_0.moved_iff i _).mpr fun a =>
    match a with
    | ⟨0, _⟩ => by show k.val < win0_0.xsize i 0; rw [xsize0_0]; exact k.isLt
    | ⟨1, _⟩ => by show l.val < win0_0.xsize i 1; rw [xsize0_1]; exact hl
  unfold Pipeline.Window.fill; rw [dif_pos hm, dif_pos hm]
theorem fill1_lane (i : grid0.Coords) (d d' : S6x65536.Idx → Elt F .f32) (g) (k : Fin 6) (l : Fin 65536)
    (hl : l.val < win0_2.xsize i 1) :
    win0_1.fill i d g (ix2 k l) = win0_1.fill i d' g (ix2 k l) := by
  have hm : win0_1.moved i (ix2 k l) = true := (win0_1.moved_iff i _).mpr fun a =>
    match a with
    | ⟨0, _⟩ => by show k.val < win0_1.xsize i 0; rw [xsize1_0]; exact k.isLt
    | ⟨1, _⟩ => by show l.val < win0_1.xsize i 1; rw [xsize1_1]; exact hl
  unfold Pipeline.Window.fill; rw [dif_pos hm, dif_pos hm]

/-- So the lanes of the result that are written back are the same whatever the inputs' blocks held
    past the arrays' end: every operation is lane-wise (`outBlk_congr`). -/
theorem cut_outBlk (i : grid0.Coords) (d0 d0' : S7x65536.Idx → Elt F .f32) (d1 d1' : S6x65536.Idx → Elt F .f32) (g0) (g1) :
    win0_2.cut i (outBlk (win0_0.fill i d0 g0) (win0_1.fill i d1 g1))
      = win0_2.cut i (outBlk (win0_0.fill i d0' g0) (win0_1.fill i d1' g1)) := by
  funext j
  have hl : (j 1).val < win0_2.xsize i 1 := (j 1).isLt
  have hj : win0_2.xinj i j = ix2 (⟨(j 0).val, Nat.lt_of_lt_of_le (j 0).isLt (win0_2.xsize_le i 0)⟩ : Fin 7)
      (⟨(j 1).val, Nat.lt_of_lt_of_le (j 1).isLt (win0_2.xsize_le i 1)⟩ : Fin 65536) := by
    funext a; match a with | ⟨0, _⟩ => rfl | ⟨1, _⟩ => rfl
  show outBlk _ _ (win0_2.xinj i j) = outBlk _ _ (win0_2.xinj i j)
  rw [hj]
  exact outBlk_congr (fun k => fill0_lane i d0 d0' g0 k _ hl) (fun k => fill1_lane i d1 d1' g1 k _ hl) _

/-! ## The body obligation -/

/-- At every point: the inputs' blocks arrive as fetched over some prior words, the result's holding
    anything; the body leaves the inputs' as they were and the result's at `outBlk` of them — which on
    the lanes inside the array is what the proof data names, all a clipped window's obligation asks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) ((dats m 0 c).after (0 : Fin 3) t)))
    rw [after_0, Window.cut_fill]
    try iexact H0
  isplitl [H1]
  · iexists d1
    change _ ⊢ owns (c : Thread nD τ) (win0_1.stage (cfg0.slots t 1)) fullShare
      (win0_1.fill (grid0.coords t) d1 (win0_1.cut (grid0.coords t) ((dats m 0 c).after (1 : Fin 3) t)))
    rw [after_1, Window.cut_fill]
    try iexact H1
  · iexists outBlk (win0_0.fill (grid0.coords t) d0 (iblk m c 0 t)) (win0_1.fill (grid0.coords t) d1 (iblk m c 1 t))
    change _ ⊢ owns (c : Thread nD τ) (win0_2.stage (cfg0.slots t 2)) fullShare
      (win0_2.fill (grid0.coords t) (outBlk (win0_0.fill (grid0.coords t) d0 (iblk m c 0 t)) (win0_1.fill (grid0.coords t) d1 (iblk m c 1 t)))
        (win0_2.cut (grid0.coords t) ((dats m 0 c).after (2 : Fin 3) t)))
    rw [after_2, win0_2.fill_congr_cut _ (cut_outBlk (grid0.coords t) d0 _ d1 _ _ _)]
    try iexact H2

/-! ## The run and the frame -/

set_option backward.isDefEq.respectTransparency.types false in
/-- At the compiled mesh, for any values, from any memory with zero counters: every weakly fair
    execution of the program terminates, and every final state has each array of the pipeline at what
    the write-backs of the proof data's blocks make it, the buffers written after the region at those
    operations' results, and every other buffer as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end without a fault and its two argument arrays end as they
    began — at any float instance. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame claim of the program read at the word-level instance. -/
theorem frame : Cert.frame_Kernel := fun m ρ _ => frame_any (F := Bits) m ρ

end Cert.Kernel.Hand

end
-- ==== Proof.Spec.lean ====
/-
  The scalar mathematics of one sample.

  A sample is a pose (tx, ty, tz, qw, qx, qy, qz) and a twist (rx, ry, rz, ox, oy, oz). Both programs compose the
  rigid motion exp(twist) with the pose and read the result back as a translation and a unit quaternion:
  Rg is the rotation matrix of the quaternion; with θ² = ox² + oy² + oz² (replaced by 1 when it is at most the
  threshold) the coefficients A = sin θ / θ, Bc = (1 - cos θ) / θ², Cc = (θ - sin θ) / θ³ (their limits 1, 0, 1/6 when
  θ² is at most the threshold) give R = I + A·K + Bc·K² and V = I + Bc·K + Cc·K² for the cross-product matrix K of
  (ox, oy, oz); the translation is R·t + V·ρ, the rotation M = R·Rg, and the quaternion of M is read off by choosing
  one of four traces t (always at least 1) by three comparisons, scaling by 1 / (2 √t) and fixing the sign of qw.

  kerOut spells this as the kernel body does (closed formulas for K and K², multiplications by 1/θ² and 1/θ,
  rsqrt, 0 - x for a negation); refOut as the reference does (K as a matrix, K·K, V·ρ and the 4×4 product of the two
  homogeneous matrices as sums over the contracted index, quotients, 1/2 divided by √t, -x).
-/
import Idealize.ShloMosaic.PureOps.Ideal
import Idealize.ShloMosaic.Lib.ValueIdx

noncomputable section

namespace Cert.Spec

open Idealize.ShloMosaic

abbrev E := EReal

/-! ## The literals (the same words in both programs) -/

def c0 : E := Ideal.ofBits .f32 0x00000000#32
def c1 : E := Ideal.ofBits .f32 0x3F800000#32
def c2 : E := Ideal.ofBits .f32 0x40000000#32
def chalf : E := Ideal.ofBits .f32 0x3F000000#32
def cthr : E := Ideal.ofBits .f32 0x2B8CBCCC#32
def csixth : E := Ideal.ofBits .f32 0x3E2AAAAB#32

/-- A choice between two numbers by a one-bit condition. -/
abbrev sel (c : BitVec 1) (a b : E) : E := Scalar.select c a b

/-- (a·x + b·y) + c·z. -/
def dot3 (a b c x y z : E) : E := (a * x + b * y) + c * z

/-! ## What the two programs spell alike -/

/-- The rotation matrix of the quaternion (qw, qx, qy, qz). -/
def Rg (qw qx qy qz : E) : Fin 3 → Fin 3 → E :=
  ![![c1 - c2 * (qy * qy + qz * qz), c2 * (qx * qy - qz * qw), c2 * (qx * qz + qy * qw)],
    ![c2 * (qx * qy + qz * qw), c1 - c2 * (qx * qx + qz * qz), c2 * (qy * qz - qx * qw)],
    ![c2 * (qx * qz - qy * qw), c2 * (qy * qz + qx * qw), c1 - c2 * (qx * qx + qy * qy)]]

/-- θ² of the rotation part of the twist. -/
def th2 (ox oy oz : E) : E := (ox * ox + oy * oy) + oz * oz
/-- θ² is above the threshold. -/
def safe (ox oy oz : E) : BitVec 1 := Ideal.cmp .ogt (th2 ox oy oz) cthr
/-- θ² where it is above the threshold, else 1. -/
def ts (ox oy oz : E) : E := sel (safe ox oy oz) (th2 ox oy oz) c1
/-- θ. -/
def th (ox oy oz : E) : E := Ideal.sqrt (ts ox oy oz)

/-- The four traces. -/
def t1 (m : Fin 3 → Fin 3 → E) : E := ((c1 + m 0 0) - m 1 1) - m 2 2
def t2 (m : Fin 3 → Fin 3 → E) : E := ((c1 - m 0 0) + m 1 1) - m 2 2
def t3 (m : Fin 3 → Fin 3 → E) : E := ((c1 - m 0 0) - m 1 1) + m 2 2
def t4 (m : Fin 3 → Fin 3 → E) : E := ((c1 + m 0 0) + m 1 1) + m 2 2

/-- The branchless quaternion of a 3×3 matrix, over the four spellings the programs differ in: the negation
    nneg (of m₁₁ in the third comparison, and of the scaled quaternion at the end), the complement bnot of a
    one-bit condition, and the scale of the chosen trace. Component 0 is qw. -/
def quat (nneg : E → E) (bnot : BitVec 1 → BitVec 1) (scale : E → E) (m : Fin 3 → Fin 3 → E) : Fin 4 → E :=
  let cm22 : BitVec 1 := Ideal.cmp .olt (m 2 2) c0
  let c0g1 : BitVec 1 := Ideal.cmp .ogt (m 0 0) (m 1 1)
  let c0ln1 : BitVec 1 := Ideal.cmp .olt (m 0 0) (nneg (m 1 1))
  let s1 : BitVec 1 := IntOp.andi cm22 c0g1
  let s2 : BitVec 1 := IntOp.andi cm22 (bnot c0g1)
  let s3 : BitVec 1 := IntOp.andi (bnot cm22) c0ln1
  let a : E := m 2 1 - m 1 2
  let b : E := m 0 1 + m 1 0
  let c : E := m 2 0 + m 0 2
  let d : E := m 0 2 - m 2 0
  let e : E := m 1 2 + m 2 1
  let f : E := m 1 0 - m 0 1
  let t : E := sel s1 (t1 m) (sel s2 (t2 m) (sel s3 (t3 m) (t4 m)))
  let w : E := sel s1 a (sel s2 d (sel s3 f (t4 m)))
  let x : E := sel s1 (t1 m) (sel s2 b (sel s3 c a))
  let y : E := sel s1 b (sel s2 (t2 m) (sel s3 e d))
  let z : E := sel s1 c (sel s2 e (sel s3 (t3 m) f))
  let sc : E := scale t
  let neg : BitVec 1 := Ideal.cmp .olt (w * sc) c0
  ![sel neg (nneg (w * sc)) (w * sc), sel neg (nneg (x * sc)) (x * sc), sel neg (nneg (y * sc)) (y * sc),
    sel neg (nneg (z * sc)) (z * sc)]

/-! ## The kernel's spelling -/

def kA (ox oy oz : E) : E :=
  sel (safe ox oy oz) (Ideal.sin (th ox oy oz) * Ideal.div c1 (th ox oy oz)) c1
def kBc (ox oy oz : E) : E :=
  sel (safe ox oy oz) ((c1 - Ideal.cos (th ox oy oz)) * Ideal.div c1 (ts ox oy oz)) c0
def kCc (ox oy oz : E) : E :=
  sel (safe ox oy oz) (((th ox oy oz - Ideal.sin (th ox oy oz)) * Ideal.div c1 (ts ox oy oz)) * Ideal.div c1 (th ox oy oz)) csixth

/-- I + a·K + b·K² with K and K² in closed form (a negation is 0 - x). -/
def kRot (a b ox oy oz : E) : Fin 3 → Fin 3 → E :=
  ![![c1 + b * (c0 - (oy * oy + oz * oz)), (c0 - a) * oz + b * (ox * oy), a * oy + b * (ox * oz)],
    ![a * oz + b * (ox * oy), c1 + b * (c0 - (ox * ox + oz * oz)), (c0 - a) * ox + b * (oy * oz)],
    ![(c0 - a) * oy + b * (ox * oz), a * ox + b * (oy * oz), c1 + b * (c0 - (ox * ox + oy * oy))]]

/-- R·Rg, entry by entry. -/
def kM (R G : Fin 3 → Fin 3 → E) : Fin 3 → Fin 3 → E :=
  fun i j => dot3 (R i 0) (R i 1) (R i 2) (G 0 j) (G 1 j) (G 2 j)

/-- R·t + V·ρ, entry by entry. -/
def kTrans (R V : Fin 3 → Fin 3 → E) (tx ty tz rx ry rz : E) : Fin 3 → E :=
  fun i => dot3 (R i 0) (R i 1) (R i 2) tx ty tz + dot3 (V i 0) (V i 1) (V i 2) rx ry rz

def kQuat : (Fin 3 → Fin 3 → E) → Fin 4 → E :=
  quat (fun x => c0 - x) (fun b => IntOp.xori b 1#1) (fun t => chalf * Ideal.rsqrt t)

/-- The kernel's seven numbers of a sample. -/
def kerOut (tg : Fin 7 → E) (xi : Fin 6 → E) : Fin 7 → E :=
  let R := kRot (kA (xi 3) (xi 4) (xi 5)) (kBc (xi 3) (xi 4) (xi 5)) (xi 3) (xi 4) (xi 5)
  let V := kRot (kBc (xi 3) (xi 4) (xi 5)) (kCc (xi 3) (xi 4) (xi 5)) (xi 3) (xi 4) (xi 5)
  let tr := kTrans R V (tg 0) (tg 1) (tg 2) (xi 0) (xi 1) (xi 2)
  let q := kQuat (kM R (Rg (tg 3) (tg 4) (tg 5) (tg 6)))
  ![tr 0, tr 1, tr 2, q 0, q 1, q 2, q 3]

/-! ## The reference's spelling -/

def rA (ox oy oz : E) : E :=
  sel (safe ox oy oz) (Ideal.div (Ideal.sin (th ox oy oz)) (th ox oy oz)) c1
def rBc (ox oy oz : E) : E :=
  sel (safe ox oy oz) (Ideal.div (c1 - Ideal.cos (th ox oy oz)) (ts ox oy oz)) c0
def rCc (ox oy oz : E) : E :=
  sel (safe ox oy oz) (Ideal.div (th ox oy oz - Ideal.sin (th ox oy oz)) (ts ox oy oz * th ox oy oz)) csixth

/-- The cross-product matrix of (ox, oy, oz). -/
def rK (ox oy oz : E) : Fin 3 → Fin 3 → E :=
  ![![c0, -oz, oy], ![oz, c0, -ox], ![-oy, ox, c0]]
/-- K·K. -/
def rK2 (ox oy oz : E) : Fin 3 → Fin 3 → E := fun i j => ∑ k : Fin 3, rK ox oy oz i k * rK ox oy oz k j
/-- The identity matrix. -/
def eye : Fin 3 → Fin 3 → E := fun i j => if i = j then 1 else 0
/-- I + a·K + b·K². -/
def rRot (a b ox oy oz : E) : Fin 3 → Fin 3 → E :=
  fun i j => (eye i j + a * rK ox oy oz i j) + b * rK2 ox oy oz i j

/-- The last row of a homogeneous matrix. -/
def bottom : Fin 4 → E := ![c0, c0, c0, c1]
/-- The homogeneous 4×4 matrix of a 3×3 matrix and a column. -/
def homog (R : Fin 3 → Fin 3 → E) (v : Fin 3 → E) : Fin 4 → Fin 4 → E :=
  fun i j => if hi : i.val < 3 then (if hj : j.val < 3 then R ⟨i.val, hi⟩ ⟨j.val, hj⟩ else v ⟨i.val, hi⟩) else bottom j

/-- The product of the twist's homogeneous matrix with the pose's. -/
def rT (tg : Fin 7 → E) (xi : Fin 6 → E) : Fin 4 → Fin 4 → E :=
  let R := rRot (rA (xi 3) (xi 4) (xi 5)) (rBc (xi 3) (xi 4) (xi 5)) (xi 3) (xi 4) (xi 5)
  let V := rRot (rBc (xi 3) (xi 4) (xi 5)) (rCc (xi 3) (xi 4) (xi 5)) (xi 3) (xi 4) (xi 5)
  let Vrho : Fin 3 → E := fun i => ∑ k : Fin 3, V i k * ![xi 0, xi 1, xi 2] k
  let Txi := homog R Vrho
  let TgM := homog (Rg (tg 3) (tg 4) (tg 5) (tg 6)) ![tg 0, tg 1, tg 2]
  fun i j => ∑ k : Fin 4, Txi i k * TgM k j

def rQuat : (Fin 3 → Fin 3 → E) → Fin 4 → E :=
  quat (fun x => -x) (fun b => ~~~b) (fun t => Ideal.div chalf (Ideal.sqrt t))

/-- From the 4×4 product to the seven numbers: its last column's first three entries, then the quaternion of its
    upper-left 3×3 block. -/
def rFinish (T : Fin 4 → Fin 4 → E) : Fin 7 → E :=
  let q := rQuat (fun i j => T i.castSucc j.castSucc)
  ![T 0 3, T 1 3, T 2 3, q 0, q 1, q 2, q 3]

/-- The reference's seven numbers of a sample. -/
def refOut (tg : Fin 7 → E) (xi : Fin 6 → E) : Fin 7 → E := rFinish (rT tg xi)

/-! ## The arrays -/

/-- Sample b's pose. -/
def tgRow (A : (⟨3, ![2000000, 7, 1]⟩ : Shape).Idx → E) (b : Fin 2000000) : Fin 7 → E := fun k => A (ValueIdx.ix3 b k 0)
/-- Sample b's twist. -/
def xiRow (X : (⟨3, ![2000000, 6, 1]⟩ : Shape).Idx → E) (b : Fin 2000000) : Fin 6 → E := fun k => X (ValueIdx.ix3 b k 0)

/-- The kernel's result array of the two argument arrays. -/
def kerArr (A : (⟨3, ![2000000, 7, 1]⟩ : Shape).Idx → E) (X : (⟨3, ![2000000, 6, 1]⟩ : Shape).Idx → E) :
    (⟨3, ![2000000, 7, 1]⟩ : Shape).Idx → E :=
  fun i => kerOut (tgRow A (i 0)) (xiRow X (i 0)) (i 1)
/-- The reference's. -/
def refArr (A : (⟨3, ![2000000, 7, 1]⟩ : Shape).Idx → E) (X : (⟨3, ![2000000, 6, 1]⟩ : Shape).Idx → E) :
    (⟨3, ![2000000, 7, 1]⟩ : Shape).Idx → E :=
  fun i => refOut (tgRow A (i 0)) (xiRow X (i 0)) (i 1)

end Cert.Spec

end
-- ==== Proof.KerIdeal.lean ====
import proofs.«161387_j47622597378731_2_alg».proof.Proof.KerLane
import proofs.«161387_j47622597378731_2_alg».proof.Proof.Spec

/-! # One lane of the kernel body, at the exact instance, is the specification's kernel formula

At the exact instance every float operation is the extended reals' own, so the scalar lists of one lane are
expressions over the extended reals. They are compared with the specification stage by stage: the nine entries of
the quaternion's rotation matrix; the nine entries of the twist's rotation matrix (with its three coefficients); the
nine entries of their product; the quaternion read off that product, for ANY 3×3 matrix in place of the product (so
the comparison is between two short expressions over nine atoms); and the three translation entries. Each stage
unfolds to the same expression on both sides. -/

noncomputable section

namespace Cert.KernelIdeal.Hand

open Idealize.ShloMosaic Cert.KernelIdeal Cert.KernelIdeal.Gen
open Idealize.ShloMosaic.ValueIdx
open Cert.Spec

/-- The rotation matrix of the pose's quaternion. -/
abbrev kG (a : Fin 7 → EReal) : Fin 3 → Fin 3 → EReal := Rg (a 3) (a 4) (a 5) (a 6)
/-- The rotation matrix of the twist. -/
abbrev kR (b : Fin 6 → EReal) : Fin 3 → Fin 3 → EReal :=
  kRot (kA (b 3) (b 4) (b 5)) (kBc (b 3) (b 4) (b 5)) (b 3) (b 4) (b 5)
/-- The matrix V of the twist. -/
abbrev kV (b : Fin 6 → EReal) : Fin 3 → Fin 3 → EReal :=
  kRot (kBc (b 3) (b 4) (b 5)) (kCc (b 3) (b 4) (b 5)) (b 3) (b 4) (b 5)

variable (a : Fin 7 → EReal) (b : Fin 6 → EReal)

/-! ## The quaternion's rotation matrix -/

theorem g00 : sv23 (F := Ideal) a b = kG a 0 0 := rfl
theorem g01 : sv28 (F := Ideal) a b = kG a 0 1 := rfl
theorem g02 : sv33 (F := Ideal) a b = kG a 0 2 := rfl
theorem g10 : sv38 (F := Ideal) a b = kG a 1 0 := rfl
theorem g11 : sv45 (F := Ideal) a b = kG a 1 1 := rfl
theorem g12 : sv50 (F := Ideal) a b = kG a 1 2 := rfl
theorem g20 : sv55 (F := Ideal) a b = kG a 2 0 := rfl
theorem g21 : sv60 (F := Ideal) a b = kG a 2 1 := rfl
theorem g22 : sv67 (F := Ideal) a b = kG a 2 2 := rfl

/-! ## The twist's rotation matrix -/

theorem r00 : sv117 (F := Ideal) a b = kR b 0 0 := rfl
theorem r01 : sv122 (F := Ideal) a b = kR b 0 1 := rfl
theorem r02 : sv125 (F := Ideal) a b = kR b 0 2 := rfl
theorem r10 : sv128 (F := Ideal) a b = kR b 1 0 := rfl
theorem r11 : sv131 (F := Ideal) a b = kR b 1 1 := rfl
theorem r12 : sv136 (F := Ideal) a b = kR b 1 2 := rfl
theorem r20 : sv141 (F := Ideal) a b = kR b 2 0 := rfl
theorem r21 : sv144 (F := Ideal) a b = kR b 2 1 := rfl
theorem r22 : sv147 (F := Ideal) a b = kR b 2 2 := rfl

/-! ## Their product -/

theorem m00 : sv218 (F := Ideal) a b = kM (kR b) (kG a) 0 0 := by
  unfold sv218; rw [g00 a b, g10 a b, g20 a b, r00 a b, r01 a b, r02 a b]; rfl
theorem m01 : sv223 (F := Ideal) a b = kM (kR b) (kG a) 0 1 := by
  unfold sv223; rw [g01 a b, g11 a b, g21 a b, r00 a b, r01 a b, r02 a b]; rfl
theorem m02 : sv228 (F := Ideal) a b = kM (kR b) (kG a) 0 2 := by
  unfold sv228; rw [g02 a b, g12 a b, g22 a b, r00 a b, r01 a b, r02 a b]; rfl
theorem m10 : sv233 (F := Ideal) a b = kM (kR b) (kG a) 1 0 := by
  unfold sv233; rw [g00 a b, g10 a b, g20 a b, r10 a b, r11 a b, r12 a b]; rfl
theorem m11 : sv238 (F := Ideal) a b = kM (kR b) (kG a) 1 1 := by
  unfold sv238; rw [g01 a b, g11 a b, g21 a b, r10 a b, r11 a b, r12 a b]; rfl
theorem m12 : sv243 (F := Ideal) a b = kM (kR b) (kG a) 1 2 := by
  unfold sv243; rw [g02 a b, g12 a b, g22 a b, r10 a b, r11 a b, r12 a b]; rfl
theorem m20 : sv248 (F := Ideal) a b = kM (kR b) (kG a) 2 0 := by
  unfold sv248; rw [g00 a b, g10 a b, g20 a b, r20 a b, r21 a b, r22 a b]; rfl
theorem m21 : sv253 (F := Ideal) a b = kM (kR b) (kG a) 2 1 := by
  unfold sv253; rw [g01 a b, g11 a b, g21 a b, r20 a b, r21 a b, r22 a b]; rfl
theorem m22 : sv258 (F := Ideal) a b = kM (kR b) (kG a) 2 2 := by
  unfold sv258; rw [g02 a b, g12 a b, g22 a b, r20 a b, r21 a b, r22 a b]; rfl

/-! ## The quaternion of a 3×3 matrix, as the body computes it from the nine entries -/

section Quat
variable (m : Fin 3 → Fin 3 → EReal)

/-- The chosen trace. -/
abbrev qt : EReal := s81 (F := Ideal) (m 0 0) (m 1 1) (m 2 2) cst_37
/-- The chosen numerator of the first component. -/
abbrev qw : EReal := s82 (F := Ideal) (m 0 0) (m 0 1) (m 0 2) (m 1 0) (m 1 1) (m 1 2) (m 2 0) (m 2 1) (m 2 2) cst_37

theorem quat0 : s89 (F := Ideal) (qt m) (qw m) = kQuat m 0 := rfl
theorem quat1 : s90 (F := Ideal) (qt m) (qw m)
    (s83 (F := Ideal) (m 0 0) (m 0 1) (m 0 2) (m 1 0) (m 1 1) (m 1 2) (m 2 0) (m 2 1) (m 2 2) cst_37) = kQuat m 1 := rfl
theorem quat2 : s91 (F := Ideal) (qt m) (qw m)
    (s84 (F := Ideal) (m 0 0) (m 0 1) (m 0 2) (m 1 0) (m 1 1) (m 1 2) (m 2 0) (m 2 1) (m 2 2) cst_37) = kQuat m 2 := rfl
theorem quat3 : s92 (F := Ideal) (s73 (F := Ideal) (m 0 0) (m 1 1) (m 2 2) cst_37) (s80 (F := Ideal) (m 0 2) (m 2 0)) (qt m) (qw m)
    (s85 (F := Ideal) (m 0 0) (m 0 1) (m 1 0) (m 1 1) (m 1 2) (m 2 1) (m 2 2) cst_37) = kQuat m 3 := rfl

end Quat

/-! ## The seven stored values -/

theorem t0 : sv211 (F := Ideal) a b = kTrans (kR b) (kV b) (a 0) (a 1) (a 2) (b 0) (b 1) (b 2) 0 := rfl
theorem t1 : sv212 (F := Ideal) a b = kTrans (kR b) (kV b) (a 0) (a 1) (a 2) (b 0) (b 1) (b 2) 1 := rfl
theorem t2 : sv213 (F := Ideal) a b = kTrans (kR b) (kV b) (a 0) (a 1) (a 2) (b 0) (b 1) (b 2) 2 := rfl

theorem q0 : sv324 (F := Ideal) a b = kQuat (kM (kR b) (kG a)) 0 := by
  unfold sv324 sv300 sv303
  rw [m00 a b, m01 a b, m02 a b, m10 a b, m11 a b, m12 a b, m20 a b, m21 a b, m22 a b]
  exact quat0 _
theorem q1 : sv327 (F := Ideal) a b = kQuat (kM (kR b) (kG a)) 1 := by
  unfold sv327 sv300 sv303 sv306
  rw [m00 a b, m01 a b, m02 a b, m10 a b, m11 a b, m12 a b, m20 a b, m21 a b, m22 a b]
  exact quat1 _
theorem q2 : sv330 (F := Ideal) a b = kQuat (kM (kR b) (kG a)) 2 := by
  unfold sv330 sv300 sv303 sv309
  rw [m00 a b, m01 a b, m02 a b, m10 a b, m11 a b, m12 a b, m20 a b, m21 a b, m22 a b]
  exact quat2 _
theorem q3 : sv333 (F := Ideal) a b = kQuat (kM (kR b) (kG a)) 3 := by
  unfold sv333 sv265 sv288 sv300 sv303 sv311
  rw [m00 a b, m01 a b, m02 a b, m10 a b, m11 a b, m12 a b, m20 a b, m21 a b, m22 a b]
  exact quat3 _

/-- One lane's seven stored values are the specification's kernel formula of the two columns. -/
theorem sRows_ideal (r : Fin 7) : sRows (F := Ideal) a b r = kerOut a b r := by
  unfold sRows
  fin_cases r
  · exact t0 a b
  · exact t1 a b
  · exact t2 a b
  · exact q0 a b
  · exact q1 a b
  · exact q2 a b
  · exact q3 a b

/-- Entry (r, l) of the block the body stores is the specification's kernel formula of column l of the two loaded blocks. -/
theorem outBlk_ideal (X0 : Vec Ideal S7x65536 .f32) (X1 : Vec Ideal S6x65536 .f32) (r : Fin 7) (l : Fin 65536) :
    outBlk X0 X1 (ix2 r l) = Cert.Spec.kerOut (fun k => X0 (ix2 k l)) (fun k => X1 (ix2 k l)) r :=
  (outBlk_lane X0 X1 r l).trans (sRows_ideal _ _ r)

end Cert.KernelIdeal.Hand

end
-- ==== Proof.KerBlocks.lean ====
import proofs.«161387_j47622597378731_2_alg».proof.Proof.KerIdeal
import proofs.«161387_j47622597378731_2_alg».proof.Proof.Gen.KernelIdeal.Frame
import Idealize.ShloMosaic.Lib.Pipeline.Value

/-! # From the 31 blocks to the kernel's result array

Point t of the grid handles columns t·65536 … of the three arrays, 65536 of them or, at the last point, the 33920
that remain: the three windows move together and are cut alike. What the body leaves in the result's staging buffer
is the stored block of the two loaded blocks; the part of it that is written back lies in columns inside the arrays,
and there a loaded block's column is the array's column, whatever fills the buffer past the array's end (the stored
block depends on the loaded blocks column by column). So what point t writes back is block t of ONE function of the
two arrays — entry (r, b) is the specification's kernel formula of columns b of the two arrays, component r — and as
the 31 blocks cover the array, the array ends holding that function. -/

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

variable (m : (ℓ : Loc nD τ sig) → Buf (Elt Ideal) ℓ)

/-- The kernel's result array as one function of the two arrays the region finds: entry (r, b) is the
    specification's kernel formula of columns b, component r. -/
def kerBlkArr (c : Dev nD) : S7x2000000.Idx → EReal := fun i =>
  Cert.Spec.kerOut (fun k => (Gen.V m c main_v1 : S7x2000000.Idx → EReal) (ix2 k (i 1)))
    (fun k => (Gen.V m c main_v3 : S6x2000000.Idx → EReal) (ix2 k (i 1))) (i 0)

/-- The grid, decided: at point t every window's block index is (0, t), and its part inside the array has all its
    rows and the columns from t·65536 that the array has, at most 65536. -/
theorem grid_facts : ∀ t : Fin cfg0.N,
    win0_0.index t (0 : Fin 2) = 0 ∧ win0_1.index t (0 : Fin 2) = 0 ∧ win0_2.index t (0 : Fin 2) = 0
    ∧ win0_0.index t (1 : Fin 2) = t.val ∧ win0_1.index t (1 : Fin 2) = t.val ∧ win0_2.index t (1 : Fin 2) = t.val
    ∧ win0_0.xsize (grid0.coords t) (0 : Fin 2) = 7 ∧ win0_1.xsize (grid0.coords t) (0 : Fin 2) = 6
    ∧ win0_2.xsize (grid0.coords t) (0 : Fin 2) = 7
    ∧ win0_0.xsize (grid0.coords t) (1 : Fin 2) = min 65536 (2000000 - t.val * 65536)
    ∧ win0_1.xsize (grid0.coords t) (1 : Fin 2) = min 65536 (2000000 - t.val * 65536)
    ∧ win0_2.xsize (grid0.coords t) (1 : Fin 2) = min 65536 (2000000 - t.val * 65536) :=
  (by decide +kernel : ∀ t : Fin grid0.N, _)

/-- A filled block read inside the part the transfer moves is the filling. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-- Column l of the 7-row block point t fetches, inside the array, is column t·65536 + l of the array. -/
theorem blk0_col (c : Dev nD) (t : Fin cfg0.N) (d : S7x65536.Idx → EReal) (k : Fin 7) (l : Fin 65536) (b : Fin 2000000)
    (hl : l.val < min 65536 (2000000 - t.val * 65536)) (hb : b.val = t.val * 65536 + l.val) :
    win0_0.fill (grid0.coords t) d (Gen.iblk m c 0 t) (ix2 k l) = (Gen.V m c main_v1 : S7x2000000.Idx → EReal) (ix2 k b) := by
  obtain ⟨i0, -, -, j0, -, -, x0, -, -, y0, -, -⟩ := grid_facts t
  rw [fill_apply_of_lt win0_0 (grid0.coords t) d (Gen.iblk m c 0 t) (ix2 k l) (fun a => by
    match a with
    | ⟨0, _⟩ => show k.val < win0_0.xsize (grid0.coords t) (0 : Fin 2); rw [x0]; exact k.isLt
    | ⟨1, _⟩ => show l.val < win0_0.xsize (grid0.coords t) (1 : Fin 2); rw [y0]; exact hl)]
  unfold Gen.iblk
  rw [View.read_apply]
  show (Gen.V m c main_v1 : S7x2000000.Idx → EReal) _ = _
  refine congrArg _ (funext fun a => Fin.ext ?_)
  match a with
  | ⟨0, _⟩ => show win0_0.index t (0 : Fin 2) * 7 + 1 * k.val = k.val; rw [i0]; omega
  | ⟨1, _⟩ => show win0_0.index t (1 : Fin 2) * 65536 + 1 * l.val = b.val; rw [j0, hb]; omega

/-- The same for the 6-row block. -/
theorem blk1_col (c : Dev nD) (t : Fin cfg0.N) (d : S6x65536.Idx → EReal) (k : Fin 6) (l : Fin 65536) (b : Fin 2000000)
    (hl : l.val < min 65536 (2000000 - t.val * 65536)) (hb : b.val = t.val * 65536 + l.val) :
    win0_1.fill (grid0.coords t) d (Gen.iblk m c 1 t) (ix2 k l) = (Gen.V m c main_v3 : S6x2000000.Idx → EReal) (ix2 k b) := by
  obtain ⟨-, i1, -, -, j1, -, -, x1, -, -, y1, -⟩ := grid_facts t
  rw [fill_apply_of_lt win0_1 (grid0.coords t) d (Gen.iblk m c 1 t) (ix2 k l) (fun a => by
    match a with
    | ⟨0, _⟩ => show k.val < win0_1.xsize (grid0.coords t) (0 : Fin 2); rw [x1]; exact k.isLt
    | ⟨1, _⟩ => show l.val < win0_1.xsize (grid0.coords t) (1 : Fin 2); rw [y1]; exact hl)]
  unfold Gen.iblk
  rw [View.read_apply]
  show (Gen.V m c main_v3 : S6x2000000.Idx → EReal) _ = _
  refine congrArg _ (funext fun a => Fin.ext ?_)
  match a with
  | ⟨0, _⟩ => show win0_1.index t (0 : Fin 2) * 6 + 1 * k.val = k.val; rw [i1]; omega
  | ⟨1, _⟩ => show win0_1.index t (1 : Fin 2) * 65536 + 1 * l.val = b.val; rw [j1, hb]; omega

section Data
variable (c : Dev nD) (dat : Dat τ (Elt Ideal) Unit ℕ (UR sig nD τ) ℕ cfg0 c)
  (d0 : Fin cfg0.N → S7x65536.Idx → EReal) (d1 : Fin cfg0.N → S6x65536.Idx → EReal)
  (h0 : ∀ t, dat.after 0 t = win0_0.fill (grid0.coords t) (d0 t) (Gen.iblk m c 0 t))
  (h1 : ∀ t, dat.after 1 t = win0_1.fill (grid0.coords t) (d1 t) (Gen.iblk m c 1 t))
  (h2 : ∀ t, dat.after 2 t = outBlk (dat.after 0 t) (dat.after 1 t))

include h0 h1 h2 in
/-- What point t writes back is block t of the one function. -/
theorem flushed_eq (t : Fin cfg0.N) :
    dat.flushed 2 t = ((cfg0.win 2).blk t).view.read (Elt Ideal) (kerBlkArr m c) := by
  obtain ⟨-, -, i2, -, -, j2, -, -, x2, -, -, y2⟩ := grid_facts t
  funext j
  rw [View.read_apply]
  show dat.after 2 t (win0_2.xinj (grid0.coords t) j) = _
  have hj0 : (j 0).val < 7 := by
    have h : (j 0).val < win0_2.xsize (grid0.coords t) (0 : Fin 2) := (j 0).isLt
    rw [x2] at h; exact h
  have hj1' : (j 1).val < min 65536 (2000000 - t.val * 65536) := by
    have h : (j 1).val < win0_2.xsize (grid0.coords t) (1 : Fin 2) := (j 1).isLt
    rw [y2] at h; exact h
  have hj1 : (j 1).val < 65536 := by omega
  have hb : t.val * 65536 + (j 1).val < 2000000 := by omega
  have hx : win0_2.xinj (grid0.coords t) j = ix2 (⟨(j 0).val, hj0⟩ : Fin 7) (⟨(j 1).val, hj1⟩ : Fin 65536) := by
    funext a
    match a with
    | ⟨0, _⟩ => rfl
    | ⟨1, _⟩ => rfl
  have he : ((cfg0.win 2).blk t).view.emb j = ix2 (⟨(j 0).val, hj0⟩ : Fin 7) (⟨t.val * 65536 + (j 1).val, hb⟩ : Fin 2000000) := by
    funext a
    apply Fin.ext
    match a with
    | ⟨0, _⟩ => show win0_2.index t (0 : Fin 2) * 7 + 1 * (j 0).val = (j 0).val; rw [i2]; omega
    | ⟨1, _⟩ => show win0_2.index t (1 : Fin 2) * 65536 + 1 * (j 1).val = t.val * 65536 + (j 1).val; rw [j2]; omega
  rw [h2 t, hx, outBlk_ideal, he, h0 t, h1 t]
  unfold kerBlkArr
  show Cert.Spec.kerOut _ _ _ = Cert.Spec.kerOut
    (fun k => (Gen.V m c main_v1 : S7x2000000.Idx → EReal) (ix2 k (⟨t.val * 65536 + (j 1).val, hb⟩ : Fin 2000000)))
    (fun k => (Gen.V m c main_v3 : S6x2000000.Idx → EReal) (ix2 k (⟨t.val * 65536 + (j 1).val, hb⟩ : Fin 2000000)))
    (⟨(j 0).val, hj0⟩ : Fin 7)
  rw [show (fun k : Fin 7 => win0_0.fill (grid0.coords t) (d0 t) (Gen.iblk m c 0 t) (ix2 k (⟨(j 1).val, hj1⟩ : Fin 65536)))
        = fun k => (Gen.V m c main_v1 : S7x2000000.Idx → EReal) (ix2 k (⟨t.val * 65536 + (j 1).val, hb⟩ : Fin 2000000))
      from funext fun k => blk0_col m c t (d0 t) k _ _ hj1' rfl,
    show (fun k : Fin 6 => win0_1.fill (grid0.coords t) (d1 t) (Gen.iblk m c 1 t) (ix2 k (⟨(j 1).val, hj1⟩ : Fin 65536)))
        = fun k => (Gen.V m c main_v3 : S6x2000000.Idx → EReal) (ix2 k (⟨t.val * 65536 + (j 1).val, hb⟩ : Fin 2000000))
      from funext fun k => blk1_col m c t (d1 t) k _ _ hj1' rfl]

/-- An index of the array is in point t's block iff each coordinate is in the block's range inside the array. -/
theorem mem_blk2 (t : Fin cfg0.N) (i : S7x2000000.Idx) :
    i ∈ ((cfg0.win 2).blk t).view.set ↔ ∀ a : Fin 2, win0_2.index t a * S7x65536.size a ≤ (i a).val
      ∧ (i a).val < win0_2.index t a * S7x65536.size a + win0_2.xsize (grid0.coords t) a := by
  show i ∈ ((View.whole main_v4).slice (win0_2.rect t)).set ↔ _
  rw [View.set_slice_whole, Rect.mem_set_unit]
  exact Iff.rfl

/-- Every entry of the array is in the block of the point its column falls to. -/
theorem cover (i : S7x2000000.Idx) : ∃ t : Fin cfg0.N, (cfg0.win 2).flush t = true ∧ i ∈ ((cfg0.win 2).blk t).view.set := by
  have hi0 : (i 0).val < 7 := (i 0).isLt
  have hi1 : (i 1).val < 2000000 := (i 1).isLt
  have hN : cfg0.N = 31 := Gen.N_0
  refine ⟨⟨(i 1).val / 65536, by rw [hN]; omega⟩, flush0_2 _, ?_⟩
  rw [mem_blk2]
  obtain ⟨-, -, i2, -, -, j2, -, -, x2, -, -, y2⟩ := grid_facts ⟨(i 1).val / 65536, by rw [hN]; omega⟩
  intro a
  match a with
  | ⟨0, _⟩ =>
    show win0_2.index _ (0 : Fin 2) * 7 ≤ (i 0).val ∧ (i 0).val < win0_2.index _ (0 : Fin 2) * 7 + win0_2.xsize _ (0 : Fin 2)
    rw [i2, x2]; omega
  | ⟨1, _⟩ =>
    show win0_2.index _ (1 : Fin 2) * 65536 ≤ (i 1).val ∧ (i 1).val < win0_2.index _ (1 : Fin 2) * 65536 + win0_2.xsize _ (1 : Fin 2)
    rw [j2, y2]
    show (i 1).val / 65536 * 65536 ≤ (i 1).val ∧ (i 1).val < (i 1).val / 65536 * 65536 + min 65536 (2000000 - (i 1).val / 65536 * 65536)
    omega

include h0 h1 h2 in
/-- The result array after the run is the one function of the two arrays the region finds. -/
theorem final : dat.arrAt 2 cfg0.N = kerBlkArr m c :=
  dat.arrAt_eq_of_cover 2 (kerBlkArr m c) (fun t _ => flushed_eq m c dat d0 d1 h0 h1 h2 t) cover

end Data

end Cert.KernelIdeal.Hand

end
-- ==== Proof.KerHost.lean ====
import proofs.«161387_j47622597378731_2_alg».proof.Proof.Gen.KernelIdeal.Frame
import Idealize.ShloMosaic.Lib.Pipeline.Value
import Idealize.ShloMosaic.Lib.ValueIdx

/-! # The host lines around the region, read at an index

Before the region the program drops the trailing unit axis of each argument array and transposes it: entry (k, b) of
the 7×2000000 array the kernel reads is entry (b, k, 0) of the pose array, and likewise for the 6×2000000 twist array.
After the region it transposes the kernel's 7×2000000 result back and restores the unit axis: entry (b, k, 0) of the
final array is entry (k, b) of the kernel's result. -/

noncomputable section

namespace Cert.KernelIdeal.Hand

open Idealize.ShloMosaic Idealize.ShloMosaic.TcCoe Idealize.ShloMosaic.Tactic
open Idealize.SL Idealize.SL.Sem
open Cert.KernelIdeal Cert.KernelIdeal.Gen
open Idealize.ShloMosaic.ValueIdx

variable {F : FTy → Type} [FloatOps F]
variable (m : (ℓ : Loc nD τ sig) → Buf (Elt F) ℓ)

/-- The transposed pose array as the region finds it: entry (k, b) is the pose array's entry (b, k, 0). -/
theorem V_v1 (c : Dev nD) (k : Fin 7) (b : Fin 2000000) :
    (Gen.V m c main_v1 : S7x2000000.Idx → Elt F .f32) (ix2 k b) = m ((c.tc : Thread nD τ).loc main_arg0) (ix3 b k 0) := by
  have e : (Gen.V m c main_v1 : S7x2000000.Idx → Elt F .f32)
      = transpose S7x2000000 [1, 0] (shapeCast S2000000x7 (m ((c.tc : Thread nD τ).loc main_arg0)) shapeCasts_S2000000x7x1_S2000000x7)
          transposes_S2000000x7_S7x2000000_1_0 := by
    show StableHlo.after hostOps0 (fun b => m (c, b)) (Proc.devRef .tc main_v1) = _
    after_results
    rfl
  rw [e]
  refine (transpose_apply [1, 0] _ _ (ix2 k b) (ix2 b k) ?_).trans ?_
  · intro a
    match a with
    | ⟨0, _⟩ => rfl
    | ⟨1, _⟩ => rfl
  · refine shapeCast_apply _ _ (ix2 b k) (ix3 b k 0) ?_
    rw [Shape.rowMajor_val_three, Shape.rowMajor_val_two]
    show (b.val * 7 + k.val) * 1 + 0 = b.val * 7 + k.val
    omega

/-- The transposed twist array as the region finds it: entry (k, b) is the twist array's entry (b, k, 0). -/
theorem V_v3 (c : Dev nD) (k : Fin 6) (b : Fin 2000000) :
    (Gen.V m c main_v3 : S6x2000000.Idx → Elt F .f32) (ix2 k b) = m ((c.tc : Thread nD τ).loc main_arg1) (ix3 b k 0) := by
  have e : (Gen.V m c main_v3 : S6x2000000.Idx → Elt F .f32)
      = transpose S6x2000000 [1, 0] (shapeCast S2000000x6 (m ((c.tc : Thread nD τ).loc main_arg1)) shapeCasts_S2000000x6x1_S2000000x6)
          transposes_S2000000x6_S6x2000000_1_0 := by
    show StableHlo.after hostOps0 (fun b => m (c, b)) (Proc.devRef .tc main_v3) = _
    after_results
    rfl
  rw [e]
  refine (transpose_apply [1, 0] _ _ (ix2 k b) (ix2 b k) ?_).trans ?_
  · intro a
    match a with
    | ⟨0, _⟩ => rfl
    | ⟨1, _⟩ => rfl
  · refine shapeCast_apply _ _ (ix2 b k) (ix3 b k 0) ?_
    rw [Shape.rowMajor_val_three, Shape.rowMajor_val_two]
    show (b.val * 6 + k.val) * 1 + 0 = b.val * 6 + k.val
    omega

/-- The two lines after the region, over any buffer contents W: entry (b, k, 0) of the final array is entry (k, b) of
    the kernel's result array as W has it. -/
theorem tail_v6 (W : Valuation τ sig (Elt F)) (b : Fin 2000000) (k : Fin 7) :
    (StableHlo.after (hostOps1 (F := F)) W (Proc.devRef .tc main_v6) : S2000000x7x1.Idx → Elt F .f32) (ix3 b k 0)
      = (W (Proc.devRef .tc main_v4) : S7x2000000.Idx → Elt F .f32) (ix2 k b) := by
  have e : (StableHlo.after (hostOps1 (F := F)) W (Proc.devRef .tc main_v6) : S2000000x7x1.Idx → Elt F .f32)
      = broadcastInDim S2000000x7x1 ![0, 1] bcast_S2000000x7_S2000000x7x1_0_1
          (transpose S2000000x7 [1, 0] (W (Proc.devRef .tc main_v4) : S7x2000000.Idx → Elt F .f32) transposes_S7x2000000_S2000000x7_1_0) := by
    after_results
  rw [e]
  refine (broadcastInDim_apply _ _ _ (ix3 b k 0) (ix2 b k) ?_).trans ?_
  · intro a
    match a with
    | ⟨0, _⟩ => rfl
    | ⟨1, _⟩ => rfl
  · refine transpose_apply [1, 0] _ _ (ix2 b k) (ix2 k b) ?_
    intro a
    match a with
    | ⟨0, _⟩ => rfl
    | ⟨1, _⟩ => rfl

end Cert.KernelIdeal.Hand

end
-- ==== Proof.KerValue.lean ====
import proofs.«161387_j47622597378731_2_alg».proof.Proof.KerBody
import proofs.«161387_j47622597378731_2_alg».proof.Proof.KerBlocks
import proofs.«161387_j47622597378731_2_alg».proof.Proof.KerHost
import proofs.«161387_j47622597378731_2_alg».proof.Proof.Spec

/-! # The kernel program's result, as one function of its two argument arrays

The frame run leaves the kernel's 7×2000000 result array at what the 31 write-backs make it, which is the one
function of the two transposed arrays (entry (r, b): the specification's kernel formula of columns b, component r);
the two host lines after the region read it back as entry (b, r, 0) of the final array, and the host lines before the
region make column b of a transposed array row b of the argument array. So the final array is the specification's
kernel array of the two argument arrays, sample by sample, and the argument arrays end as they began. -/

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

variable (m : (ℓ : Loc nD τ sig) → Buf (Elt Ideal) ℓ) (ρ : Dev nD → PrngReg)

/-- The kernel's result array after the 31 write-backs. -/
theorem final_v4 (c : Dev nD) : (dats m 0 c).arrAt 2 cfg0.N = kerBlkArr m c :=
  final m c (dats m 0 c) (fun _ _ => (Scalar.ofBits (F := Ideal) .f32 0#32 : Ideal .f32))
    (fun _ _ => (Scalar.ofBits (F := Ideal) .f32 0#32 : Ideal .f32))
    (after_0 m c) (after_1 m c) (fun t => by rw [after_2, after_0, after_1])

/-- The final array after the two host lines that follow the region. -/
theorem tail_value (c : Dev nD) :
    Pipeline.afterTail₀ cfgs (dats m) 0 (V0 m) [hostOps1] c main_v6
      = Cert.Spec.kerArr (m ((c.tc : Thread nD τ).loc main_arg0)) (m ((c.tc : Thread nD τ).loc main_arg1)) := by
  funext i
  obtain ⟨b, k, z, rfl⟩ : ∃ (b : Fin 2000000) (k : Fin 7) (z : Fin 1), i = ix3 b k z := ⟨i 0, i 1, i 2, eq_ix3 i⟩
  obtain rfl : z = 0 := Subsingleton.elim _ _
  unfold Pipeline.afterTail₀
  show (StableHlo.after (hostOps1 (F := Ideal)) _ (Proc.devRef .tc main_v6) : S2000000x7x1.Idx → EReal) (ix3 b k 0) = _
  rw [tail_v6]
  have e4 : (Pipeline.withArrays (cfgs 0).spec c (V0 m c) (fun w => (dats m 0 c).arrAt w (cfgs 0).N) (Proc.devRef .tc main_v4)
      : S7x2000000.Idx → EReal) = kerBlkArr m c :=
    (Pipeline.withArrays_arr spec0 launch0.win.arr_inj c _ _ 2).trans (final_v4 m c)
  rw [e4]
  show Cert.Spec.kerOut (fun k' => (Gen.V m c main_v1 : S7x2000000.Idx → EReal) (ix2 k' b))
      (fun k' => (Gen.V m c main_v3 : S6x2000000.Idx → EReal) (ix2 k' b)) k
    = Cert.Spec.kerOut (fun k' => m ((c.tc : Thread nD τ).loc main_arg0) (ix3 b k' 0))
      (fun k' => m ((c.tc : Thread nD τ).loc main_arg1) (ix3 b k' 0)) k
  rw [show (fun k' : Fin 7 => (Gen.V m c main_v1 : S7x2000000.Idx → EReal) (ix2 k' b))
        = fun k' => m ((c.tc : Thread nD τ).loc main_arg0) (ix3 b k' 0) from funext fun k' => V_v1 m c k' b,
    show (fun k' : Fin 6 => (Gen.V m c main_v3 : S6x2000000.Idx → EReal) (ix2 k' b))
        = fun k' => m ((c.tc : Thread nD τ).loc main_arg1) (ix3 b k' 0) from funext fun k' => V_v3 m c k' b]

/-- At the exact instance, from any memory with zero counters: every weakly fair execution of the kernel program
    terminates without a fault, its result is the specification's kernel array of the two argument arrays, and the
    argument arrays end as they began. -/
theorem run_value : θ_run (defs (F := Ideal)) (onTc (τ := τ) (main (F := Ideal))) ⟨m, fun _ => 0, ρ⟩ (fun r => ∀ c : Dev nD,
      r.2.mem ((c.tc : Thread nD τ).loc main_v6)
        = Cert.Spec.kerArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v6 (Pipeline.mem_restRefs_of main_v6 (by decide) (by decide))).trans (tail_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.RefOps.lean ====
/-
  The reference's host program as a list: the operations of its six printed windows in order, each printed line's
  operation verbatim, a call of a module-local function replaced by the function's operations over the buffers of that
  call (368 operations in all); beside each window's list, the references its operations write, in order, and the three
  per-operation facts (its buffers are TensorCore references; it writes exactly its result; it leaves none of its
  results undetermined), each the library's lemma for the operation's kind or true by computation.
-/
import proofs.«161387_j47622597378731_2_alg».proof.Proof.Gen.ReferenceIdeal
import proofs.«161387_j47622597378731_2_alg».proof.Proof.LibSingleAssignment
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part0`: 1 … 68 of 368. -/
abbrev ops_part0 : List (HloOp τ sig (Elt F)) :=
  [ StableHlo.nullary main_cst (fun i => FloatOps.ofBits .f32 (lit0 (S1x1x4.rowMajor i))),
    StableHlo.unary main_arg1 main_v0 ((extractStridedSlice S2000000x3x1 ![0, 0, 0] · slices_S2000000x6x1_S2000000x3x1_0_0_0) : (⟨S2000000x6x1, .f32⟩ : BufTy).Contents (Elt F) → (⟨S2000000x3x1, .f32⟩ : BufTy).Contents (Elt F)),
    StableHlo.unary main_arg1 main_v1 ((extractStridedSlice S2000000x3x1 ![0, 3, 0] · slices_S2000000x6x1_S2000000x3x1_0_3_0) : (⟨S2000000x6x1, .f32⟩ : BufTy).Contents (Elt F) → (⟨S2000000x3x1, .f32⟩ : BufTy).Contents (Elt F)),
    StableHlo.reshape main_v1 main_v2 rfl shapeCasts_S2000000x3x1_S2000000x3,
    StableHlo.unary main_v2 main_v3 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v3 main_v4 rfl shapeCasts_S2000000x1_S2000000,
    StableHlo.unary main_v2 main_v5 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v5 main_v6 rfl shapeCasts_S2000000x1_S2000000,
    StableHlo.unary main_v2 main_v7 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v7 main_v8 rfl shapeCasts_S2000000x1_S2000000,
    StableHlo.nullary main_cst_0 (constant S_ .f32 0x00000000#32),
    StableHlo.unary main_cst_0 main_v9 (broadcastInDim S2000000 ![] bcast_S_S2000000 : (⟨S_, .f32⟩ : BufTy).Contents (Elt F) → (⟨S2000000, .f32⟩ : BufTy).Contents (Elt F)),
    StableHlo.unary main_v8 main_v10 (Host.negf : (⟨S2000000, .f32⟩ : BufTy).Contents (Elt F) → (⟨S2000000, .f32⟩ : BufTy).Contents (Elt F)),
    StableHlo.unary main_v9 main_v11 (broadcastInDim S2000000x1 ![0] bcast_S2000000_S2000000x1_0 : (⟨S2000000, .f32⟩ : BufTy).Contents (Elt F) → (⟨S2000000x1, .f32⟩ : BufTy).Contents (Elt F)),
    StableHlo.unary main_v10 main_v12 (broadcastInDim S2000000x1 ![0] bcast_S2000000_S2000000x1_0 : (⟨S2000000, .f32⟩ : BufTy).Contents (Elt F) → (⟨S2000000x1, .f32⟩ : BufTy).Contents (Elt F)),
    StableHlo.unary main_v6 main_v13 (broadcastInDim S2000000x1 ![0] bcast_S2000000_S2000000x1_0 : (⟨S2000000, .f32⟩ : BufTy).Contents (Elt F) → (⟨S2000000x1, .f32⟩ : BufTy).Contents (Elt F)),
    StableHlo.nary ![main_v11, main_v12, main_v13] main_v14 (fun u => concatenate S2000000x3 1 [⟨S2000000x1, u 0⟩, ⟨S2000000x1, u 1⟩, ⟨S2000000x1, u 2⟩] concatenates_S2000000x1_S2000000x1_S2000000x1_S2000000x3_d1),
    StableHlo.unary main_v4 main_v15 (Host.negf : (⟨S2000000, .f32⟩ : BufTy).Contents (Elt F) → (⟨S2000000, .f32⟩ : BufTy).Contents (Elt F)),
    StableHlo.unary main_v8 main_v16 (broadcastInDim S2000000x1 ![0] bcast_S2000000_S2000000x1_0 : (⟨S2000000, .f32⟩ : BufTy).Contents (Elt F) → (⟨S2000000x1, .f32⟩ : BufTy).Contents (Elt F)),
    StableHlo.unary main_v9 main_v17 (broadcastInDim S2000000x1 ![0] bcast_S2000000_S2000000x1_0 : (⟨S2000000, .f32⟩ : BufTy).Contents (Elt F) → (⟨S2000000x1, .f32⟩ : BufTy).Contents (Elt F)),
    StableHlo.unary main_v15 main_v18 (broadcastInDim S2000000x1 ![0] bcast_S2000000_S2000000x1_0 : (⟨S2000000, .f32⟩ : BufTy).Contents (Elt F) → (⟨S2000000x1, .f32⟩ : BufTy).Contents (Elt F)),
    StableHlo.nary ![main_v16, main_v17, main_v18] main_v19 (fun u => concatenate S2000000x3 1 [⟨S2000000x1, u 0⟩, ⟨S2000000x1, u 1⟩, ⟨S2000000x1, u 2⟩] concatenates_S2000000x1_S2000000x1_S2000000x1_S2000000x3_d1),
    StableHlo.unary main_v6 main_v20 (Host.negf : (⟨S2000000, .f32⟩ : BufTy).Contents (Elt F) → (⟨S2000000, .f32⟩ : BufTy).Contents (Elt F)),
    StableHlo.unary main_v20 main_v21 (broadcastInDim S2000000x1 ![0] bcast_S2000000_S2000000x1_0 : (⟨S2000000, .f32⟩ : BufTy).Contents (Elt F) → (⟨S2000000x1, .f32⟩ : BufTy).Contents (Elt F)),
    StableHlo.unary main_v4 main_v22 (broadcastInDim S2000000x1 ![0] bcast_S2000000_S2000000x1_0 : (⟨S2000000, .f32⟩ : BufTy).Contents (Elt F) → (⟨S2000000x1, .f32⟩ : BufTy).Contents (Elt F)),
    StableHlo.unary main_v9 main_v23 (broadcastInDim S2000000x1 ![0] bcast_S2000000_S2000000x1_0 : (⟨S2000000, .f32⟩ : BufTy).Contents (Elt F) → (⟨S2000000x1, .f32⟩ : BufTy).Contents (Elt F)),
    StableHlo.nary ![main_v21, main_v22, main_v23] main_v24 (fun u => concatenate S2000000x3 1 [⟨S2000000x1, u 0⟩, ⟨S2000000x1, u 1⟩, ⟨S2000000x1, u 2⟩] concatenates_S2000000x1_S2000000x1_S2000000x1_S2000000x3_d1),
    StableHlo.unary main_v14 main_v25 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v19 main_v26 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v24 main_v27 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.nary ![main_v25, main_v26, main_v27] main_v28 (fun u => concatenate S2000000x3x3 1 [⟨S2000000x1x3, u 0⟩, ⟨S2000000x1x3, u 1⟩, ⟨S2000000x1x3, u 2⟩] concatenates_S2000000x1x3_S2000000x1x3_S2000000x1x3_S2000000x3x3_d1),
    StableHlo.binary main_v28 main_v28 main_v29 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    StableHlo.binary main_v4 main_v4 main_v30 (mulf : (⟨S2000000, .f32⟩ : BufTy).Contents (Elt F) → (⟨S2000000, .f32⟩ : BufTy).Contents (Elt F) → (⟨S2000000, .f32⟩ : BufTy).Contents (Elt F)),
    StableHlo.binary main_v6 main_v6 main_v31 (mulf : (⟨S2000000, .f32⟩ : BufTy).Contents (Elt F) → (⟨S2000000, .f32⟩ : BufTy).Contents (Elt F) → (⟨S2000000, .f32⟩ : BufTy).Contents (Elt F)),
    StableHlo.binary main_v30 main_v31 main_v32 (addf : (⟨S2000000, .f32⟩ : BufTy).Contents (Elt F) → (⟨S2000000, .f32⟩ : BufTy).Contents (Elt F) → (⟨S2000000, .f32⟩ : BufTy).Contents (Elt F)),
    StableHlo.binary main_v8 main_v8 main_v33 (mulf : (⟨S2000000, .f32⟩ : BufTy).Contents (Elt F) → (⟨S2000000, .f32⟩ : BufTy).Contents (Elt F) → (⟨S2000000, .f32⟩ : BufTy).Contents (Elt F)),
    StableHlo.binary main_v32 main_v33 main_v34 (addf : (⟨S2000000, .f32⟩ : BufTy).Contents (Elt F) → (⟨S2000000, .f32⟩ : BufTy).Contents (Elt F) → (⟨S2000000, .f32⟩ : BufTy).Contents (Elt F)),
    StableHlo.nullary main_cst_1 (constant S_ .f32 0x2B8CBCCC#32),
    StableHlo.unary main_cst_1 main_v35 (broadcastInDim S2000000 ![] bcast_S_S2000000 : (⟨S_, .f32⟩ : BufTy).Contents (Elt F) → (⟨S2000000, .f32⟩ : BufTy).Contents (Elt F)),
    StableHlo.binary main_v34 main_v35 main_v36 (cmpf .ogt : (⟨S2000000, .f32⟩ : BufTy).Contents (Elt F) → (⟨S2000000, .f32⟩ : BufTy).Contents (Elt F) → (⟨S2000000, .i1⟩ : BufTy).Contents (Elt F)),
    StableHlo.nullary main_cst_2 (constant S_ .f32 0x3F800000#32),
    StableHlo.unary main_cst_2 main_call0_v0 (id : (⟨S_, .f32⟩ : BufTy).Contents (Elt F) → (⟨S_, .f32⟩ : BufTy).Contents (Elt F)),
    StableHlo.unary main_call0_v0 main_call0_v1 ((broadcastInDim S2000000 ![] bcast_S_S2000000) : (⟨S_, .f32⟩ : BufTy).Contents (Elt F) → (⟨S2000000, .f32⟩ : BufTy).Contents (Elt F)),
    StableHlo.ternary main_v36 main_v34 main_call0_v1 main_v37 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    StableHlo.unary main_v37 main_v38 (Host.sqrt : (⟨S2000000, .f32⟩ : BufTy).Contents (Elt F) → (⟨S2000000, .f32⟩ : BufTy).Contents (Elt F)),
    StableHlo.unary main_v38 main_v39 (Host.sin : (⟨S2000000, .f32⟩ : BufTy).Contents (Elt F) → (⟨S2000000, .f32⟩ : BufTy).Contents (Elt F)),
    StableHlo.unary main_v38 main_v40 (Host.cos : (⟨S2000000, .f32⟩ : BufTy).Contents (Elt F) → (⟨S2000000, .f32⟩ : BufTy).Contents (Elt F)),
    StableHlo.binary main_v39 main_v38 main_v41 (Host.divf : (⟨S2000000, .f32⟩ : BufTy).Contents (Elt F) → (⟨S2000000, .f32⟩ : BufTy).Contents (Elt F) → (⟨S2000000, .f32⟩ : BufTy).Contents (Elt F)),
    StableHlo.nullary main_cst_3 (constant S_ .f32 0x3F800000#32),
    StableHlo.unary main_cst_3 main_call1_v0 (id : (⟨S_, .f32⟩ : BufTy).Contents (Elt F) → (⟨S_, .f32⟩ : BufTy).Contents (Elt F)),
    StableHlo.unary main_call1_v0 main_call1_v1 ((broadcastInDim S2000000 ![] bcast_S_S2000000) : (⟨S_, .f32⟩ : BufTy).Contents (Elt F) → (⟨S2000000, .f32⟩ : BufTy).Contents (Elt F)),
    StableHlo.ternary main_v36 main_v41 main_call1_v1 main_v42 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    StableHlo.nullary main_cst_4 (constant S_ .f32 0x3F800000#32),
    StableHlo.unary main_cst_4 main_v43 (broadcastInDim S2000000 ![] bcast_S_S2000000 : (⟨S_, .f32⟩ : BufTy).Contents (Elt F) → (⟨S2000000, .f32⟩ : BufTy).Contents (Elt F)),
    StableHlo.binary main_v43 main_v40 main_v44 (subf : (⟨S2000000, .f32⟩ : BufTy).Contents (Elt F) → (⟨S2000000, .f32⟩ : BufTy).Contents (Elt F) → (⟨S2000000, .f32⟩ : BufTy).Contents (Elt F)),
    StableHlo.binary main_v44 main_v37 main_v45 (Host.divf : (⟨S2000000, .f32⟩ : BufTy).Contents (Elt F) → (⟨S2000000, .f32⟩ : BufTy).Contents (Elt F) → (⟨S2000000, .f32⟩ : BufTy).Contents (Elt F)),
    StableHlo.nullary main_cst_5 (constant S_ .f32 0x00000000#32),
    StableHlo.unary main_cst_5 main_call2_v0 (id : (⟨S_, .f32⟩ : BufTy).Contents (Elt F) → (⟨S_, .f32⟩ : BufTy).Contents (Elt F)),
    StableHlo.unary main_call2_v0 main_call2_v1 ((broadcastInDim S2000000 ![] bcast_S_S2000000) : (⟨S_, .f32⟩ : BufTy).Contents (Elt F) → (⟨S2000000, .f32⟩ : BufTy).Contents (Elt F)),
    StableHlo.ternary main_v36 main_v45 main_call2_v1 main_v46 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    StableHlo.binary main_v38 main_v39 main_v47 (subf : (⟨S2000000, .f32⟩ : BufTy).Contents (Elt F) → (⟨S2000000, .f32⟩ : BufTy).Contents (Elt F) → (⟨S2000000, .f32⟩ : BufTy).Contents (Elt F)),
    StableHlo.binary main_v37 main_v38 main_v48 (mulf : (⟨S2000000, .f32⟩ : BufTy).Contents (Elt F) → (⟨S2000000, .f32⟩ : BufTy).Contents (Elt F) → (⟨S2000000, .f32⟩ : BufTy).Contents (Elt F)),
    StableHlo.binary main_v47 main_v48 main_v49 (Host.divf : (⟨S2000000, .f32⟩ : BufTy).Contents (Elt F) → (⟨S2000000, .f32⟩ : BufTy).Contents (Elt F) → (⟨S2000000, .f32⟩ : BufTy).Contents (Elt F)),
    StableHlo.nullary main_cst_6 (constant S_ .f32 0x3E2AAAAB#32),
    StableHlo.unary main_cst_6 main_call3_v0 (id : (⟨S_, .f32⟩ : BufTy).Contents (Elt F) → (⟨S_, .f32⟩ : BufTy).Contents (Elt F)),
    StableHlo.unary main_call3_v0 main_call3_v1 ((broadcastInDim S2000000 ![] bcast_S_S2000000) : (⟨S_, .f32⟩ : BufTy).Contents (Elt F) → (⟨S2000000, .f32⟩ : BufTy).Contents (Elt F)),
    StableHlo.ternary main_v36 main_v49 main_call3_v1 main_v50 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    StableHlo.nullary main_v51 (iotaInDim S3x3 32 0) ]

/-- The references they write, in order. -/
abbrev W_part0 : List (Ref sig .tc) :=
  [main_cst, main_v0, main_v1, main_v2, main_v3, main_v4, main_v5, main_v6, main_v7, main_v8, main_cst_0, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_cst_1, main_v35, main_v36, main_cst_2, main_call0_v0, main_call0_v1, main_v37, main_v38, main_v39, main_v40, main_v41, main_cst_3, main_call1_v0, main_call1_v1, main_v42, main_cst_4, main_v43, main_v44, main_v45, main_cst_5, main_call2_v0, main_call2_v1, main_v46, main_v47, main_v48, main_v49, main_cst_6, main_call3_v0, main_call3_v1, main_v50, main_v51]

set_option maxRecDepth 8192 in
theorem ops_part0_sub : (ops_part0 : List (HloOp τ sig (Elt F))).Forall fun op => op.bufs ⊆ tcRefs τ sig :=
  ⟨nullary_bufs_sub .., unary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., nary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., unary_bufs_sub .., ternary_bufs_sub .., nullary_bufs_sub ..⟩

set_option maxRecDepth 8192 in
theorem ops_part0_writes : Cert.Lib.SingleAssignment.Writes (ops_part0 : List (HloOp τ sig (Elt F))) W_part0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))

set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of window `main_part1`: 69 … 128 of 368. -/
abbrev ops_part1 : List (HloOp τ sig (Elt F)) :=
  [ StableHlo.nullary main_v52 (iotaInDim S3x3 32 1),
    StableHlo.nullary main_c (constantI S_ 32 0#32),
    StableHlo.unary main_c main_v53 (broadcastInDim S3x3 ![] bcast_S_S3x3 : (⟨S_, .i32⟩ : BufTy).Contents (Elt F) → (⟨S3x3, .i32⟩ : BufTy).Contents (Elt F)),
    StableHlo.binary main_v51 main_v53 main_v54 (addi : (⟨S3x3, .i32⟩ : BufTy).Contents (Elt F) → (⟨S3x3, .i32⟩ : BufTy).Contents (Elt F) → (⟨S3x3, .i32⟩ : BufTy).Contents (Elt F)),
    StableHlo.binary main_v54 main_v52 main_v55 (cmpi .eq : (⟨S3x3, .i32⟩ : BufTy).Contents (Elt F) → (⟨S3x3, .i32⟩ : BufTy).Contents (Elt F) → (⟨S3x3, .i1⟩ : BufTy).Contents (Elt F)),
    StableHlo.unary main_v55 main_v56 (uitofp .f32 : (⟨S3x3, .i1⟩ : BufTy).Contents (Elt F) → (⟨S3x3, .f32⟩ : BufTy).Contents (Elt F)),
    StableHlo.unary main_v42 main_v57 (broadcastInDim S2000000x1x1 ![0] bcast_S2000000_S2000000x1x1_0 : (⟨S2000000, .f32⟩ : BufTy).Contents (Elt F) → (⟨S2000000x1x1, .f32⟩ : BufTy).Contents (Elt F)),
    StableHlo.unary main_v57 main_v58 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    StableHlo.binary main_v58 main_v28 main_v59 (mulf : (⟨S2000000x3x3, .f32⟩ : BufTy).Contents (Elt F) → (⟨S2000000x3x3, .f32⟩ : BufTy).Contents (Elt F) → (⟨S2000000x3x3, .f32⟩ : BufTy).Contents (Elt F)),
    StableHlo.unary main_v56 main_v60 (broadcastInDim S1x3x3 ![1, 2] bcast_S3x3_S1x3x3_1_2 : (⟨S3x3, .f32⟩ : BufTy).Contents (Elt F) → (⟨S1x3x3, .f32⟩ : BufTy).Contents (Elt F)),
    StableHlo.unary main_v60 main_v61 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    StableHlo.binary main_v61 main_v59 main_v62 (addf : (⟨S2000000x3x3, .f32⟩ : BufTy).Contents (Elt F) → (⟨S2000000x3x3, .f32⟩ : BufTy).Contents (Elt F) → (⟨S2000000x3x3, .f32⟩ : BufTy).Contents (Elt F)),
    StableHlo.unary main_v46 main_v63 (broadcastInDim S2000000x1x1 ![0] bcast_S2000000_S2000000x1x1_0 : (⟨S2000000, .f32⟩ : BufTy).Contents (Elt F) → (⟨S2000000x1x1, .f32⟩ : BufTy).Contents (Elt F)),
    StableHlo.unary main_v63 main_v64 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    StableHlo.binary main_v64 main_v29 main_v65 (mulf : (⟨S2000000x3x3, .f32⟩ : BufTy).Contents (Elt F) → (⟨S2000000x3x3, .f32⟩ : BufTy).Contents (Elt F) → (⟨S2000000x3x3, .f32⟩ : BufTy).Contents (Elt F)),
    StableHlo.binary main_v62 main_v65 main_v66 (addf : (⟨S2000000x3x3, .f32⟩ : BufTy).Contents (Elt F) → (⟨S2000000x3x3, .f32⟩ : BufTy).Contents (Elt F) → (⟨S2000000x3x3, .f32⟩ : BufTy).Contents (Elt F)),
    StableHlo.unary main_v46 main_v67 (broadcastInDim S2000000x1x1 ![0] bcast_S2000000_S2000000x1x1_0 : (⟨S2000000, .f32⟩ : BufTy).Contents (Elt F) → (⟨S2000000x1x1, .f32⟩ : BufTy).Contents (Elt F)),
    StableHlo.unary main_v67 main_v68 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    StableHlo.binary main_v68 main_v28 main_v69 (mulf : (⟨S2000000x3x3, .f32⟩ : BufTy).Contents (Elt F) → (⟨S2000000x3x3, .f32⟩ : BufTy).Contents (Elt F) → (⟨S2000000x3x3, .f32⟩ : BufTy).Contents (Elt F)),
    StableHlo.unary main_v56 main_v70 (broadcastInDim S1x3x3 ![1, 2] bcast_S3x3_S1x3x3_1_2 : (⟨S3x3, .f32⟩ : BufTy).Contents (Elt F) → (⟨S1x3x3, .f32⟩ : BufTy).Contents (Elt F)),
    StableHlo.unary main_v70 main_v71 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    StableHlo.binary main_v71 main_v69 main_v72 (addf : (⟨S2000000x3x3, .f32⟩ : BufTy).Contents (Elt F) → (⟨S2000000x3x3, .f32⟩ : BufTy).Contents (Elt F) → (⟨S2000000x3x3, .f32⟩ : BufTy).Contents (Elt F)),
    StableHlo.unary main_v50 main_v73 (broadcastInDim S2000000x1x1 ![0] bcast_S2000000_S2000000x1x1_0 : (⟨S2000000, .f32⟩ : BufTy).Contents (Elt F) → (⟨S2000000x1x1, .f32⟩ : BufTy).Contents (Elt F)),
    StableHlo.unary main_v73 main_v74 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    StableHlo.binary main_v74 main_v29 main_v75 (mulf : (⟨S2000000x3x3, .f32⟩ : BufTy).Contents (Elt F) → (⟨S2000000x3x3, .f32⟩ : BufTy).Contents (Elt F) → (⟨S2000000x3x3, .f32⟩ : BufTy).Contents (Elt F)),
    StableHlo.binary main_v72 main_v75 main_v76 (addf : (⟨S2000000x3x3, .f32⟩ : BufTy).Contents (Elt F) → (⟨S2000000x3x3, .f32⟩ : BufTy).Contents (Elt F) → (⟨S2000000x3x3, .f32⟩ : BufTy).Contents (Elt F)),
    StableHlo.binary main_v76 main_v0 main_v77 ((fun l r => Host.dotGeneral dot_S2000000x3x3_S2000000x3x1_S2000000x3x1_2_1_1_2_0_0 none l r) : (⟨S2000000x3x3, .f32⟩ : BufTy).Contents (Elt F) → (⟨S2000000x3x1, .f32⟩ : BufTy).Contents (Elt F) → (⟨S2000000x3x1, .f32⟩ : BufTy).Contents (Elt F)),
    StableHlo.binary main_v66 main_v77 main_v78 ((fun a b => concatenate S2000000x3x4 2 [⟨S2000000x3x3, a⟩, ⟨S2000000x3x1, b⟩] concatenates_S2000000x3x3_S2000000x3x1_S2000000x3x4_d2) : (⟨S2000000x3x3, .f32⟩ : BufTy).Contents (Elt F) → (⟨S2000000x3x1, .f32⟩ : BufTy).Contents (Elt F) → (⟨S2000000x3x4, .f32⟩ : BufTy).Contents (Elt F)),
    StableHlo.unary main_cst main_v79 (broadcastInDim S2000000x1x4 ![0, 1, 2] bcast_S1x1x4_S2000000x1x4_0_1_2 : (⟨S1x1x4, .f32⟩ : BufTy).Contents (Elt F) → (⟨S2000000x1x4, .f32⟩ : BufTy).Contents (Elt F)),
    StableHlo.binary main_v78 main_v79 main_v80 ((fun a b => concatenate S2000000x4x4 1 [⟨S2000000x3x4, a⟩, ⟨S2000000x1x4, b⟩] concatenates_S2000000x3x4_S2000000x1x4_S2000000x4x4_d1) : (⟨S2000000x3x4, .f32⟩ : BufTy).Contents (Elt F) → (⟨S2000000x1x4, .f32⟩ : BufTy).Contents (Elt F) → (⟨S2000000x4x4, .f32⟩ : BufTy).Contents (Elt F)),
    StableHlo.unary main_arg0 main_v81 ((extractStridedSlice S2000000x4x1 ![0, 3, 0] · slices_S2000000x7x1_S2000000x4x1_0_3_0) : (⟨S2000000x7x1, .f32⟩ : BufTy).Contents (Elt F) → (⟨S2000000x4x1, .f32⟩ : BufTy).Contents (Elt F)),
    StableHlo.reshape main_v81 main_v82 rfl shapeCasts_S2000000x4x1_S2000000x4,
    StableHlo.unary main_v82 main_v83 ((extractStridedSlice S2000000x1 ![0, 0] · slices_S2000000x4_S2000000x1_0_0) : (⟨S2000000x4, .f32⟩ : BufTy).Contents (Elt F) → (⟨S2000000x1, .f32⟩ : BufTy).Contents (Elt F)),
    StableHlo.reshape main_v83 main_v84 rfl shapeCasts_S2000000x1_S2000000,
    StableHlo.unary main_v82 main_v85 ((extractStridedSlice S2000000x1 ![0, 1] · slices_S2000000x4_S2000000x1_0_1) : (⟨S2000000x4, .f32⟩ : BufTy).Contents (Elt F) → (⟨S2000000x1, .f32⟩ : BufTy).Contents (Elt F)),
    StableHlo.reshape main_v85 main_v86 rfl shapeCasts_S2000000x1_S2000000,
    StableHlo.unary main_v82 main_v87 ((extractStridedSlice S2000000x1 ![0, 2] · slices_S2000000x4_S2000000x1_0_2) : (⟨S2000000x4, .f32⟩ : BufTy).Contents (Elt F) → (⟨S2000000x1, .f32⟩ : BufTy).Contents (Elt F)),
    StableHlo.reshape main_v87 main_v88 rfl shapeCasts_S2000000x1_S2000000,
    StableHlo.unary main_v82 main_v89 ((extractStridedSlice S2000000x1 ![0, 3] · slices_S2000000x4_S2000000x1_0_3) : (⟨S2000000x4, .f32⟩ : BufTy).Contents (Elt F) → (⟨S2000000x1, .f32⟩ : BufTy).Contents (Elt F)),
    StableHlo.reshape main_v89 main_v90 rfl shapeCasts_S2000000x1_S2000000,
    StableHlo.binary main_v88 main_v88 main_v91 (mulf : (⟨S2000000, .f32⟩ : BufTy).Contents (Elt F) → (⟨S2000000, .f32⟩ : BufTy).Contents (Elt F) → (⟨S2000000, .f32⟩ : BufTy).Contents (Elt F)),
    StableHlo.binary main_v90 main_v90 main_v92 (mulf : (⟨S2000000, .f32⟩ : BufTy).Contents (Elt F) → (⟨S2000000, .f32⟩ : BufTy).Contents (Elt F) → (⟨S2000000, .f32⟩ : BufTy).Contents (Elt F)),
    StableHlo.binary main_v91 main_v92 main_v93 (addf : (⟨S2000000, .f32⟩ : BufTy).Contents (Elt F) → (⟨S2000000, .f32⟩ : BufTy).Contents (Elt F) → (⟨S2000000, .f32⟩ : BufTy).Contents (Elt F)),
    StableHlo.nullary main_cst_7 (constant S_ .f32 0x40000000#32),
    StableHlo.unary main_cst_7 main_v94 (broadcastInDim S2000000 ![] bcast_S_S2000000 : (⟨S_, .f32⟩ : BufTy).Contents (Elt F) → (⟨S2000000, .f32⟩ : BufTy).Contents (Elt F)),
    StableHlo.binary main_v94 main_v93 main_v95 (mulf : (⟨S2000000, .f32⟩ : BufTy).Contents (Elt F) → (⟨S2000000, .f32⟩ : BufTy).Contents (Elt F) → (⟨S2000000, .f32⟩ : BufTy).Contents (Elt F)),
    StableHlo.nullary main_cst_8 (constant S_ .f32 0x3F800000#32),
    StableHlo.unary main_cst_8 main_v96 (broadcastInDim S2000000 ![] bcast_S_S2000000 : (⟨S_, .f32⟩ : BufTy).Contents (Elt F) → (⟨S2000000, .f32⟩ : BufTy).Contents (Elt F)),
    StableHlo.binary main_v96 main_v95 main_v97 (subf : (⟨S2000000, .f32⟩ : BufTy).Contents (Elt F) → (⟨S2000000, .f32⟩ : BufTy).Contents (Elt F) → (⟨S2000000, .f32⟩ : BufTy).Contents (Elt F)),
    StableHlo.binary main_v86 main_v88 main_v98 (mulf : (⟨S2000000, .f32⟩ : BufTy).Contents (Elt F) → (⟨S2000000, .f32⟩ : BufTy).Contents (Elt F) → (⟨S2000000, .f32⟩ : BufTy).Contents (Elt F)),
    StableHlo.binary main_v90 main_v84 main_v99 (mulf : (⟨S2000000, .f32⟩ : BufTy).Contents (Elt F) → (⟨S2000000, .f32⟩ : BufTy).Contents (Elt F) → (⟨S2000000, .f32⟩ : BufTy).Contents (Elt F)),
    StableHlo.binary main_v98 main_v99 main_v100 (subf : (⟨S2000000, .f32⟩ : BufTy).Contents (Elt F) → (⟨S2000000, .f32⟩ : BufTy).Contents (Elt F) → (⟨S2000000, .f32⟩ : BufTy).Contents (Elt F)),
    StableHlo.nullary main_cst_9 (constant S_ .f32 0x40000000#32),
    StableHlo.unary main_cst_9 main_v101 (broadcastInDim S2000000 ![] bcast_S_S2000000 : (⟨S_, .f32⟩ : BufTy).Contents (Elt F) → (⟨S2000000, .f32⟩ : BufTy).Contents (Elt F)),
    StableHlo.binary main_v101 main_v100 main_v102 (mulf : (⟨S2000000, .f32⟩ : BufTy).Contents (Elt F) → (⟨S2000000, .f32⟩ : BufTy).Contents (Elt F) → (⟨S2000000, .f32⟩ : BufTy).Contents (Elt F)),
    StableHlo.binary main_v86 main_v90 main_v103 (mulf : (⟨S2000000, .f32⟩ : BufTy).Contents (Elt F) → (⟨S2000000, .f32⟩ : BufTy).Contents (Elt F) → (⟨S2000000, .f32⟩ : BufTy).Contents (Elt F)),
    StableHlo.binary main_v88 main_v84 main_v104 (mulf : (⟨S2000000, .f32⟩ : BufTy).Contents (Elt F) → (⟨S2000000, .f32⟩ : BufTy).Contents (Elt F) → (⟨S2000000, .f32⟩ : BufTy).Contents (Elt F)),
    StableHlo.binary main_v103 main_v104 main_v105 (addf : (⟨S2000000, .f32⟩ : BufTy).Contents (Elt F) → (⟨S2000000, .f32⟩ : BufTy).Contents (Elt F) → (⟨S2000000, .f32⟩ : BufTy).Contents (Elt F)),
    StableHlo.nullary main_cst_10 (constant S_ .f32 0x40000000#32),
    StableHlo.unary main_cst_10 main_v106 (broadcastInDim S2000000 ![] bcast_S_S2000000 : (⟨S_, .f32⟩ : BufTy).Contents (Elt F) → (⟨S2000000, .f32⟩ : BufTy).Contents (Elt F)) ]

/-- The references they write, in order. -/
abbrev W_part1 : List (Ref sig .tc) :=
  [main_v52, main_c, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_cst_7, main_v94, main_v95, main_cst_8, main_v96, main_v97, main_v98, main_v99, main_v100, main_cst_9, main_v101, main_v102, main_v103, main_v104, main_v105, main_cst_10, main_v106]

set_option maxRecDepth 8192 in
theorem ops_part1_sub : (ops_part1 : List (HloOp τ sig (Elt F))).Forall fun op => op.bufs ⊆ tcRefs τ sig :=
  ⟨nullary_bufs_sub .., nullary_bufs_sub .., unary_bufs_sub .., binary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub ..⟩

set_option maxRecDepth 8192 in
theorem ops_part1_writes : Cert.Lib.SingleAssignment.Writes (ops_part1 : List (HloOp τ sig (Elt F))) W_part1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of window `main_part2`: 129 … 188 of 368. -/
abbrev ops_part2 : List (HloOp τ sig (Elt F)) :=
  [ StableHlo.binary main_v106 main_v105 main_v107 (mulf : (⟨S2000000, .f32⟩ : BufTy).Contents (Elt F) → (⟨S2000000, .f32⟩ : BufTy).Contents (Elt F) → (⟨S2000000, .f32⟩ : BufTy).Contents (Elt F)),
    StableHlo.binary main_v86 main_v88 main_v108 (mulf : (⟨S2000000, .f32⟩ : BufTy).Contents (Elt F) → (⟨S2000000, .f32⟩ : BufTy).Contents (Elt F) → (⟨S2000000, .f32⟩ : BufTy).Contents (Elt F)),
    StableHlo.binary main_v90 main_v84 main_v109 (mulf : (⟨S2000000, .f32⟩ : BufTy).Contents (Elt F) → (⟨S2000000, .f32⟩ : BufTy).Contents (Elt F) → (⟨S2000000, .f32⟩ : BufTy).Contents (Elt F)),
    StableHlo.binary main_v108 main_v109 main_v110 (addf : (⟨S2000000, .f32⟩ : BufTy).Contents (Elt F) → (⟨S2000000, .f32⟩ : BufTy).Contents (Elt F) → (⟨S2000000, .f32⟩ : BufTy).Contents (Elt F)),
    StableHlo.nullary main_cst_11 (constant S_ .f32 0x40000000#32),
    StableHlo.unary main_cst_11 main_v111 (broadcastInDim S2000000 ![] bcast_S_S2000000 : (⟨S_, .f32⟩ : BufTy).Contents (Elt F) → (⟨S2000000, .f32⟩ : BufTy).Contents (Elt F)),
    StableHlo.binary main_v111 main_v110 main_v112 (mulf : (⟨S2000000, .f32⟩ : BufTy).Contents (Elt F) → (⟨S2000000, .f32⟩ : BufTy).Contents (Elt F) → (⟨S2000000, .f32⟩ : BufTy).Contents (Elt F)),
    StableHlo.binary main_v86 main_v86 main_v113 (mulf : (⟨S2000000, .f32⟩ : BufTy).Contents (Elt F) → (⟨S2000000, .f32⟩ : BufTy).Contents (Elt F) → (⟨S2000000, .f32⟩ : BufTy).Contents (Elt F)),
    StableHlo.binary main_v90 main_v90 main_v114 (mulf : (⟨S2000000, .f32⟩ : BufTy).Contents (Elt F) → (⟨S2000000, .f32⟩ : BufTy).Contents (Elt F) → (⟨S2000000, .f32⟩ : BufTy).Contents (Elt F)),
    StableHlo.binary main_v113 main_v114 main_v115 (addf : (⟨S2000000, .f32⟩ : BufTy).Contents (Elt F) → (⟨S2000000, .f32⟩ : BufTy).Contents (Elt F) → (⟨S2000000, .f32⟩ : BufTy).Contents (Elt F)),
    StableHlo.nullary main_cst_12 (constant S_ .f32 0x40000000#32),
    StableHlo.unary main_cst_12 main_v116 (broadcastInDim S2000000 ![] bcast_S_S2000000 : (⟨S_, .f32⟩ : BufTy).Contents (Elt F) → (⟨S2000000, .f32⟩ : BufTy).Contents (Elt F)),
    StableHlo.binary main_v116 main_v115 main_v117 (mulf : (⟨S2000000, .f32⟩ : BufTy).Contents (Elt F) → (⟨S2000000, .f32⟩ : BufTy).Contents (Elt F) → (⟨S2000000, .f32⟩ : BufTy).Contents (Elt F)),
    StableHlo.nullary main_cst_13 (constant S_ .f32 0x3F800000#32),
    StableHlo.unary main_cst_13 main_v118 (broadcastInDim S2000000 ![] bcast_S_S2000000 : (⟨S_, .f32⟩ : BufTy).Contents (Elt F) → (⟨S2000000, .f32⟩ : BufTy).Contents (Elt F)),
    StableHlo.binary main_v118 main_v117 main_v119 (subf : (⟨S2000000, .f32⟩ : BufTy).Contents (Elt F) → (⟨S2000000, .f32⟩ : BufTy).Contents (Elt F) → (⟨S2000000, .f32⟩ : BufTy).Contents (Elt F)),
    StableHlo.binary main_v88 main_v90 main_v120 (mulf : (⟨S2000000, .f32⟩ : BufTy).Contents (Elt F) → (⟨S2000000, .f32⟩ : BufTy).Contents (Elt F) → (⟨S2000000, .f32⟩ : BufTy).Contents (Elt F)),
    StableHlo.binary main_v86 main_v84 main_v121 (mulf : (⟨S2000000, .f32⟩ : BufTy).Contents (Elt F) → (⟨S2000000, .f32⟩ : BufTy).Contents (Elt F) → (⟨S2000000, .f32⟩ : BufTy).Contents (Elt F)),
    StableHlo.binary main_v120 main_v121 main_v122 (subf : (⟨S2000000, .f32⟩ : BufTy).Contents (Elt F) → (⟨S2000000, .f32⟩ : BufTy).Contents (Elt F) → (⟨S2000000, .f32⟩ : BufTy).Contents (Elt F)),
    StableHlo.nullary main_cst_14 (constant S_ .f32 0x40000000#32),
    StableHlo.unary main_cst_14 main_v123 (broadcastInDim S2000000 ![] bcast_S_S2000000 : (⟨S_, .f32⟩ : BufTy).Contents (Elt F) → (⟨S2000000, .f32⟩ : BufTy).Contents (Elt F)),
    StableHlo.binary main_v123 main_v122 main_v124 (mulf : (⟨S2000000, .f32⟩ : BufTy).Contents (Elt F) → (⟨S2000000, .f32⟩ : BufTy).Contents (Elt F) → (⟨S2000000, .f32⟩ : BufTy).Contents (Elt F)),
    StableHlo.binary main_v86 main_v90 main_v125 (mulf : (⟨S2000000, .f32⟩ : BufTy).Contents (Elt F) → (⟨S2000000, .f32⟩ : BufTy).Contents (Elt F) → (⟨S2000000, .f32⟩ : BufTy).Contents (Elt F)),
    StableHlo.binary main_v88 main_v84 main_v126 (mulf : (⟨S2000000, .f32⟩ : BufTy).Contents (Elt F) → (⟨S2000000, .f32⟩ : BufTy).Contents (Elt F) → (⟨S2000000, .f32⟩ : BufTy).Contents (Elt F)),
    StableHlo.binary main_v125 main_v126 main_v127 (subf : (⟨S2000000, .f32⟩ : BufTy).Contents (Elt F) → (⟨S2000000, .f32⟩ : BufTy).Contents (Elt F) → (⟨S2000000, .f32⟩ : BufTy).Contents (Elt F)),
    StableHlo.nullary main_cst_15 (constant S_ .f32 0x40000000#32),
    StableHlo.unary main_cst_15 main_v128 (broadcastInDim S2000000 ![] bcast_S_S2000000 : (⟨S_, .f32⟩ : BufTy).Contents (Elt F) → (⟨S2000000, .f32⟩ : BufTy).Contents (Elt F)),
    StableHlo.binary main_v128 main_v127 main_v129 (mulf : (⟨S2000000, .f32⟩ : BufTy).Contents (Elt F) → (⟨S2000000, .f32⟩ : BufTy).Contents (Elt F) → (⟨S2000000, .f32⟩ : BufTy).Contents (Elt F)),
    StableHlo.binary main_v88 main_v90 main_v130 (mulf : (⟨S2000000, .f32⟩ : BufTy).Contents (Elt F) → (⟨S2000000, .f32⟩ : BufTy).Contents (Elt F) → (⟨S2000000, .f32⟩ : BufTy).Contents (Elt F)),
    StableHlo.binary main_v86 main_v84 main_v131 (mulf : (⟨S2000000, .f32⟩ : BufTy).Contents (Elt F) → (⟨S2000000, .f32⟩ : BufTy).Contents (Elt F) → (⟨S2000000, .f32⟩ : BufTy).Contents (Elt F)),
    StableHlo.binary main_v130 main_v131 main_v132 (addf : (⟨S2000000, .f32⟩ : BufTy).Contents (Elt F) → (⟨S2000000, .f32⟩ : BufTy).Contents (Elt F) → (⟨S2000000, .f32⟩ : BufTy).Contents (Elt F)),
    StableHlo.nullary main_cst_16 (constant S_ .f32 0x40000000#32),
    StableHlo.unary main_cst_16 main_v133 (broadcastInDim S2000000 ![] bcast_S_S2000000 : (⟨S_, .f32⟩ : BufTy).Contents (Elt F) → (⟨S2000000, .f32⟩ : BufTy).Contents (Elt F)),
    StableHlo.binary main_v133 main_v132 main_v134 (mulf : (⟨S2000000, .f32⟩ : BufTy).Contents (Elt F) → (⟨S2000000, .f32⟩ : BufTy).Contents (Elt F) → (⟨S2000000, .f32⟩ : BufTy).Contents (Elt F)),
    StableHlo.binary main_v86 main_v86 main_v135 (mulf : (⟨S2000000, .f32⟩ : BufTy).Contents (Elt F) → (⟨S2000000, .f32⟩ : BufTy).Contents (Elt F) → (⟨S2000000, .f32⟩ : BufTy).Contents (Elt F)),
    StableHlo.binary main_v88 main_v88 main_v136 (mulf : (⟨S2000000, .f32⟩ : BufTy).Contents (Elt F) → (⟨S2000000, .f32⟩ : BufTy).Contents (Elt F) → (⟨S2000000, .f32⟩ : BufTy).Contents (Elt F)),
    StableHlo.binary main_v135 main_v136 main_v137 (addf : (⟨S2000000, .f32⟩ : BufTy).Contents (Elt F) → (⟨S2000000, .f32⟩ : BufTy).Contents (Elt F) → (⟨S2000000, .f32⟩ : BufTy).Contents (Elt F)),
    StableHlo.nullary main_cst_17 (constant S_ .f32 0x40000000#32),
    StableHlo.unary main_cst_17 main_v138 (broadcastInDim S2000000 ![] bcast_S_S2000000 : (⟨S_, .f32⟩ : BufTy).Contents (Elt F) → (⟨S2000000, .f32⟩ : BufTy).Contents (Elt F)),
    StableHlo.binary main_v138 main_v137 main_v139 (mulf : (⟨S2000000, .f32⟩ : BufTy).Contents (Elt F) → (⟨S2000000, .f32⟩ : BufTy).Contents (Elt F) → (⟨S2000000, .f32⟩ : BufTy).Contents (Elt F)),
    StableHlo.nullary main_cst_18 (constant S_ .f32 0x3F800000#32),
    StableHlo.unary main_cst_18 main_v140 (broadcastInDim S2000000 ![] bcast_S_S2000000 : (⟨S_, .f32⟩ : BufTy).Contents (Elt F) → (⟨S2000000, .f32⟩ : BufTy).Contents (Elt F)),
    StableHlo.binary main_v140 main_v139 main_v141 (subf : (⟨S2000000, .f32⟩ : BufTy).Contents (Elt F) → (⟨S2000000, .f32⟩ : BufTy).Contents (Elt F) → (⟨S2000000, .f32⟩ : BufTy).Contents (Elt F)),
    StableHlo.unary main_v97 main_v142 (broadcastInDim S2000000x1 ![0] bcast_S2000000_S2000000x1_0 : (⟨S2000000, .f32⟩ : BufTy).Contents (Elt F) → (⟨S2000000x1, .f32⟩ : BufTy).Contents (Elt F)),
    StableHlo.unary main_v102 main_v143 (broadcastInDim S2000000x1 ![0] bcast_S2000000_S2000000x1_0 : (⟨S2000000, .f32⟩ : BufTy).Contents (Elt F) → (⟨S2000000x1, .f32⟩ : BufTy).Contents (Elt F)),
    StableHlo.unary main_v107 main_v144 (broadcastInDim S2000000x1 ![0] bcast_S2000000_S2000000x1_0 : (⟨S2000000, .f32⟩ : BufTy).Contents (Elt F) → (⟨S2000000x1, .f32⟩ : BufTy).Contents (Elt F)),
    StableHlo.nary ![main_v142, main_v143, main_v144] main_v145 (fun u => concatenate S2000000x3 1 [⟨S2000000x1, u 0⟩, ⟨S2000000x1, u 1⟩, ⟨S2000000x1, u 2⟩] concatenates_S2000000x1_S2000000x1_S2000000x1_S2000000x3_d1),
    StableHlo.unary main_v112 main_v146 (broadcastInDim S2000000x1 ![0] bcast_S2000000_S2000000x1_0 : (⟨S2000000, .f32⟩ : BufTy).Contents (Elt F) → (⟨S2000000x1, .f32⟩ : BufTy).Contents (Elt F)),
    StableHlo.unary main_v119 main_v147 (broadcastInDim S2000000x1 ![0] bcast_S2000000_S2000000x1_0 : (⟨S2000000, .f32⟩ : BufTy).Contents (Elt F) → (⟨S2000000x1, .f32⟩ : BufTy).Contents (Elt F)),
    StableHlo.unary main_v124 main_v148 (broadcastInDim S2000000x1 ![0] bcast_S2000000_S2000000x1_0 : (⟨S2000000, .f32⟩ : BufTy).Contents (Elt F) → (⟨S2000000x1, .f32⟩ : BufTy).Contents (Elt F)),
    StableHlo.nary ![main_v146, main_v147, main_v148] main_v149 (fun u => concatenate S2000000x3 1 [⟨S2000000x1, u 0⟩, ⟨S2000000x1, u 1⟩, ⟨S2000000x1, u 2⟩] concatenates_S2000000x1_S2000000x1_S2000000x1_S2000000x3_d1),
    StableHlo.unary main_v129 main_v150 (broadcastInDim S2000000x1 ![0] bcast_S2000000_S2000000x1_0 : (⟨S2000000, .f32⟩ : BufTy).Contents (Elt F) → (⟨S2000000x1, .f32⟩ : BufTy).Contents (Elt F)),
    StableHlo.unary main_v134 main_v151 (broadcastInDim S2000000x1 ![0] bcast_S2000000_S2000000x1_0 : (⟨S2000000, .f32⟩ : BufTy).Contents (Elt F) → (⟨S2000000x1, .f32⟩ : BufTy).Contents (Elt F)),
    StableHlo.unary main_v141 main_v152 (broadcastInDim S2000000x1 ![0] bcast_S2000000_S2000000x1_0 : (⟨S2000000, .f32⟩ : BufTy).Contents (Elt F) → (⟨S2000000x1, .f32⟩ : BufTy).Contents (Elt F)),
    StableHlo.nary ![main_v150, main_v151, main_v152] main_v153 (fun u => concatenate S2000000x3 1 [⟨S2000000x1, u 0⟩, ⟨S2000000x1, u 1⟩, ⟨S2000000x1, u 2⟩] concatenates_S2000000x1_S2000000x1_S2000000x1_S2000000x3_d1),
    StableHlo.unary main_v145 main_v154 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v149 main_v155 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v153 main_v156 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.nary ![main_v154, main_v155, main_v156] main_v157 (fun u => concatenate S2000000x3x3 1 [⟨S2000000x1x3, u 0⟩, ⟨S2000000x1x3, u 1⟩, ⟨S2000000x1x3, u 2⟩] concatenates_S2000000x1x3_S2000000x1x3_S2000000x1x3_S2000000x3x3_d1),
    StableHlo.unary main_arg0 main_v158 ((extractStridedSlice S2000000x3x1 ![0, 0, 0] · slices_S2000000x7x1_S2000000x3x1_0_0_0) : (⟨S2000000x7x1, .f32⟩ : BufTy).Contents (Elt F) → (⟨S2000000x3x1, .f32⟩ : BufTy).Contents (Elt F)) ]

/-- The references they write, in order. -/
abbrev W_part2 : List (Ref sig .tc) :=
  [main_v107, main_v108, main_v109, main_v110, main_cst_11, main_v111, main_v112, main_v113, main_v114, main_v115, main_cst_12, main_v116, main_v117, main_cst_13, main_v118, main_v119, main_v120, main_v121, main_v122, main_cst_14, main_v123, main_v124, main_v125, main_v126, main_v127, main_cst_15, main_v128, main_v129, main_v130, main_v131, main_v132, main_cst_16, main_v133, main_v134, main_v135, main_v136, main_v137, main_cst_17, main_v138, main_v139, main_cst_18, main_v140, main_v141, main_v142, main_v143, main_v144, main_v145, main_v146, main_v147, main_v148, main_v149, main_v150, main_v151, main_v152, main_v153, main_v154, main_v155, main_v156, main_v157, main_v158]

set_option maxRecDepth 8192 in
theorem ops_part2_sub : (ops_part2 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., unary_bufs_sub .., unary_bufs_sub .., unary_bufs_sub .., nary_bufs_sub .., unary_bufs_sub .., unary_bufs_sub .., unary_bufs_sub .., nary_bufs_sub .., unary_bufs_sub .., unary_bufs_sub .., unary_bufs_sub .., nary_bufs_sub .., unary_bufs_sub .., unary_bufs_sub .., unary_bufs_sub .., nary_bufs_sub .., unary_bufs_sub ..⟩

set_option maxRecDepth 8192 in
theorem ops_part2_writes : Cert.Lib.SingleAssignment.Writes (ops_part2 : List (HloOp τ sig (Elt F))) W_part2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of window `main_part3`: 189 … 248 of 368. -/
abbrev ops_part3 : List (HloOp τ sig (Elt F)) :=
  [ StableHlo.binary main_v157 main_v158 main_v159 ((fun a b => concatenate S2000000x3x4 2 [⟨S2000000x3x3, a⟩, ⟨S2000000x3x1, b⟩] concatenates_S2000000x3x3_S2000000x3x1_S2000000x3x4_d2) : (⟨S2000000x3x3, .f32⟩ : BufTy).Contents (Elt F) → (⟨S2000000x3x1, .f32⟩ : BufTy).Contents (Elt F) → (⟨S2000000x3x4, .f32⟩ : BufTy).Contents (Elt F)),
    StableHlo.binary main_v159 main_v79 main_v160 ((fun a b => concatenate S2000000x4x4 1 [⟨S2000000x3x4, a⟩, ⟨S2000000x1x4, b⟩] concatenates_S2000000x3x4_S2000000x1x4_S2000000x4x4_d1) : (⟨S2000000x3x4, .f32⟩ : BufTy).Contents (Elt F) → (⟨S2000000x1x4, .f32⟩ : BufTy).Contents (Elt F) → (⟨S2000000x4x4, .f32⟩ : BufTy).Contents (Elt F)),
    StableHlo.binary main_v80 main_v160 main_v161 ((fun l r => Host.dotGeneral dot_S2000000x4x4_S2000000x4x4_S2000000x4x4_2_1_1_2_0_0 none l r) : (⟨S2000000x4x4, .f32⟩ : BufTy).Contents (Elt F) → (⟨S2000000x4x4, .f32⟩ : BufTy).Contents (Elt F) → (⟨S2000000x4x4, .f32⟩ : BufTy).Contents (Elt F)),
    StableHlo.unary main_v161 main_v162 ((extractStridedSlice S2000000x1x1 ![0, 2, 2] · slices_S2000000x4x4_S2000000x1x1_0_2_2) : (⟨S2000000x4x4, .f32⟩ : BufTy).Contents (Elt F) → (⟨S2000000x1x1, .f32⟩ : BufTy).Contents (Elt F)),
    StableHlo.reshape main_v162 main_v163 rfl shapeCasts_S2000000x1x1_S2000000,
    StableHlo.nullary main_cst_19 (constant S_ .f32 0x00000000#32),
    StableHlo.unary main_cst_19 main_v164 (broadcastInDim S2000000 ![] bcast_S_S2000000 : (⟨S_, .f32⟩ : BufTy).Contents (Elt F) → (⟨S2000000, .f32⟩ : BufTy).Contents (Elt F)),
    StableHlo.binary main_v163 main_v164 main_v165 (cmpf .olt : (⟨S2000000, .f32⟩ : BufTy).Contents (Elt F) → (⟨S2000000, .f32⟩ : BufTy).Contents (Elt F) → (⟨S2000000, .i1⟩ : BufTy).Contents (Elt F)),
    StableHlo.unary main_v161 main_v166 ((extractStridedSlice S2000000x1x1 ![0, 0, 0] · slices_S2000000x4x4_S2000000x1x1_0_0_0) : (⟨S2000000x4x4, .f32⟩ : BufTy).Contents (Elt F) → (⟨S2000000x1x1, .f32⟩ : BufTy).Contents (Elt F)),
    StableHlo.reshape main_v166 main_v167 rfl shapeCasts_S2000000x1x1_S2000000,
    StableHlo.unary main_v161 main_v168 ((extractStridedSlice S2000000x1x1 ![0, 1, 1] · slices_S2000000x4x4_S2000000x1x1_0_1_1) : (⟨S2000000x4x4, .f32⟩ : BufTy).Contents (Elt F) → (⟨S2000000x1x1, .f32⟩ : BufTy).Contents (Elt F)),
    StableHlo.reshape main_v168 main_v169 rfl shapeCasts_S2000000x1x1_S2000000,
    StableHlo.binary main_v167 main_v169 main_v170 (cmpf .ogt : (⟨S2000000, .f32⟩ : BufTy).Contents (Elt F) → (⟨S2000000, .f32⟩ : BufTy).Contents (Elt F) → (⟨S2000000, .i1⟩ : BufTy).Contents (Elt F)),
    StableHlo.unary main_v161 main_v171 ((extractStridedSlice S2000000x1x1 ![0, 0, 0] · slices_S2000000x4x4_S2000000x1x1_0_0_0) : (⟨S2000000x4x4, .f32⟩ : BufTy).Contents (Elt F) → (⟨S2000000x1x1, .f32⟩ : BufTy).Contents (Elt F)),
    StableHlo.reshape main_v171 main_v172 rfl shapeCasts_S2000000x1x1_S2000000,
    StableHlo.unary main_v161 main_v173 ((extractStridedSlice S2000000x1x1 ![0, 1, 1] · slices_S2000000x4x4_S2000000x1x1_0_1_1) : (⟨S2000000x4x4, .f32⟩ : BufTy).Contents (Elt F) → (⟨S2000000x1x1, .f32⟩ : BufTy).Contents (Elt F)),
    StableHlo.reshape main_v173 main_v174 rfl shapeCasts_S2000000x1x1_S2000000,
    StableHlo.unary main_v174 main_v175 (Host.negf : (⟨S2000000, .f32⟩ : BufTy).Contents (Elt F) → (⟨S2000000, .f32⟩ : BufTy).Contents (Elt F)),
    StableHlo.binary main_v172 main_v175 main_v176 (cmpf .olt : (⟨S2000000, .f32⟩ : BufTy).Contents (Elt F) → (⟨S2000000, .f32⟩ : BufTy).Contents (Elt F) → (⟨S2000000, .i1⟩ : BufTy).Contents (Elt F)),
    StableHlo.binary main_v165 main_v170 main_v177 (andi : (⟨S2000000, .i1⟩ : BufTy).Contents (Elt F) → (⟨S2000000, .i1⟩ : BufTy).Contents (Elt F) → (⟨S2000000, .i1⟩ : BufTy).Contents (Elt F)),
    StableHlo.unary main_v170 main_v178 (noti : (⟨S2000000, .i1⟩ : BufTy).Contents (Elt F) → (⟨S2000000, .i1⟩ : BufTy).Contents (Elt F)),
    StableHlo.binary main_v165 main_v178 main_v179 (andi : (⟨S2000000, .i1⟩ : BufTy).Contents (Elt F) → (⟨S2000000, .i1⟩ : BufTy).Contents (Elt F) → (⟨S2000000, .i1⟩ : BufTy).Contents (Elt F)),
    StableHlo.unary main_v165 main_v180 (noti : (⟨S2000000, .i1⟩ : BufTy).Contents (Elt F) → (⟨S2000000, .i1⟩ : BufTy).Contents (Elt F)),
    StableHlo.binary main_v180 main_v176 main_v181 (andi : (⟨S2000000, .i1⟩ : BufTy).Contents (Elt F) → (⟨S2000000, .i1⟩ : BufTy).Contents (Elt F) → (⟨S2000000, .i1⟩ : BufTy).Contents (Elt F)),
    StableHlo.unary main_v161 main_v182 ((extractStridedSlice S2000000x1x1 ![0, 0, 0] · slices_S2000000x4x4_S2000000x1x1_0_0_0) : (⟨S2000000x4x4, .f32⟩ : BufTy).Contents (Elt F) → (⟨S2000000x1x1, .f32⟩ : BufTy).Contents (Elt F)),
    StableHlo.reshape main_v182 main_v183 rfl shapeCasts_S2000000x1x1_S2000000,
    StableHlo.nullary main_cst_20 (constant S_ .f32 0x3F800000#32),
    StableHlo.unary main_cst_20 main_v184 (broadcastInDim S2000000 ![] bcast_S_S2000000 : (⟨S_, .f32⟩ : BufTy).Contents (Elt F) → (⟨S2000000, .f32⟩ : BufTy).Contents (Elt F)),
    StableHlo.binary main_v184 main_v183 main_v185 (addf : (⟨S2000000, .f32⟩ : BufTy).Contents (Elt F) → (⟨S2000000, .f32⟩ : BufTy).Contents (Elt F) → (⟨S2000000, .f32⟩ : BufTy).Contents (Elt F)),
    StableHlo.unary main_v161 main_v186 ((extractStridedSlice S2000000x1x1 ![0, 1, 1] · slices_S2000000x4x4_S2000000x1x1_0_1_1) : (⟨S2000000x4x4, .f32⟩ : BufTy).Contents (Elt F) → (⟨S2000000x1x1, .f32⟩ : BufTy).Contents (Elt F)),
    StableHlo.reshape main_v186 main_v187 rfl shapeCasts_S2000000x1x1_S2000000,
    StableHlo.binary main_v185 main_v187 main_v188 (subf : (⟨S2000000, .f32⟩ : BufTy).Contents (Elt F) → (⟨S2000000, .f32⟩ : BufTy).Contents (Elt F) → (⟨S2000000, .f32⟩ : BufTy).Contents (Elt F)),
    StableHlo.unary main_v161 main_v189 ((extractStridedSlice S2000000x1x1 ![0, 2, 2] · slices_S2000000x4x4_S2000000x1x1_0_2_2) : (⟨S2000000x4x4, .f32⟩ : BufTy).Contents (Elt F) → (⟨S2000000x1x1, .f32⟩ : BufTy).Contents (Elt F)),
    StableHlo.reshape main_v189 main_v190 rfl shapeCasts_S2000000x1x1_S2000000,
    StableHlo.binary main_v188 main_v190 main_v191 (subf : (⟨S2000000, .f32⟩ : BufTy).Contents (Elt F) → (⟨S2000000, .f32⟩ : BufTy).Contents (Elt F) → (⟨S2000000, .f32⟩ : BufTy).Contents (Elt F)),
    StableHlo.unary main_v161 main_v192 ((extractStridedSlice S2000000x1x1 ![0, 0, 0] · slices_S2000000x4x4_S2000000x1x1_0_0_0) : (⟨S2000000x4x4, .f32⟩ : BufTy).Contents (Elt F) → (⟨S2000000x1x1, .f32⟩ : BufTy).Contents (Elt F)),
    StableHlo.reshape main_v192 main_v193 rfl shapeCasts_S2000000x1x1_S2000000,
    StableHlo.nullary main_cst_21 (constant S_ .f32 0x3F800000#32),
    StableHlo.unary main_cst_21 main_v194 (broadcastInDim S2000000 ![] bcast_S_S2000000 : (⟨S_, .f32⟩ : BufTy).Contents (Elt F) → (⟨S2000000, .f32⟩ : BufTy).Contents (Elt F)),
    StableHlo.binary main_v194 main_v193 main_v195 (subf : (⟨S2000000, .f32⟩ : BufTy).Contents (Elt F) → (⟨S2000000, .f32⟩ : BufTy).Contents (Elt F) → (⟨S2000000, .f32⟩ : BufTy).Contents (Elt F)),
    StableHlo.unary main_v161 main_v196 ((extractStridedSlice S2000000x1x1 ![0, 1, 1] · slices_S2000000x4x4_S2000000x1x1_0_1_1) : (⟨S2000000x4x4, .f32⟩ : BufTy).Contents (Elt F) → (⟨S2000000x1x1, .f32⟩ : BufTy).Contents (Elt F)),
    StableHlo.reshape main_v196 main_v197 rfl shapeCasts_S2000000x1x1_S2000000,
    StableHlo.binary main_v195 main_v197 main_v198 (addf : (⟨S2000000, .f32⟩ : BufTy).Contents (Elt F) → (⟨S2000000, .f32⟩ : BufTy).Contents (Elt F) → (⟨S2000000, .f32⟩ : BufTy).Contents (Elt F)),
    StableHlo.unary main_v161 main_v199 ((extractStridedSlice S2000000x1x1 ![0, 2, 2] · slices_S2000000x4x4_S2000000x1x1_0_2_2) : (⟨S2000000x4x4, .f32⟩ : BufTy).Contents (Elt F) → (⟨S2000000x1x1, .f32⟩ : BufTy).Contents (Elt F)),
    StableHlo.reshape main_v199 main_v200 rfl shapeCasts_S2000000x1x1_S2000000,
    StableHlo.binary main_v198 main_v200 main_v201 (subf : (⟨S2000000, .f32⟩ : BufTy).Contents (Elt F) → (⟨S2000000, .f32⟩ : BufTy).Contents (Elt F) → (⟨S2000000, .f32⟩ : BufTy).Contents (Elt F)),
    StableHlo.unary main_v161 main_v202 ((extractStridedSlice S2000000x1x1 ![0, 0, 0] · slices_S2000000x4x4_S2000000x1x1_0_0_0) : (⟨S2000000x4x4, .f32⟩ : BufTy).Contents (Elt F) → (⟨S2000000x1x1, .f32⟩ : BufTy).Contents (Elt F)),
    StableHlo.reshape main_v202 main_v203 rfl shapeCasts_S2000000x1x1_S2000000,
    StableHlo.nullary main_cst_22 (constant S_ .f32 0x3F800000#32),
    StableHlo.unary main_cst_22 main_v204 (broadcastInDim S2000000 ![] bcast_S_S2000000 : (⟨S_, .f32⟩ : BufTy).Contents (Elt F) → (⟨S2000000, .f32⟩ : BufTy).Contents (Elt F)),
    StableHlo.binary main_v204 main_v203 main_v205 (subf : (⟨S2000000, .f32⟩ : BufTy).Contents (Elt F) → (⟨S2000000, .f32⟩ : BufTy).Contents (Elt F) → (⟨S2000000, .f32⟩ : BufTy).Contents (Elt F)),
    StableHlo.unary main_v161 main_v206 ((extractStridedSlice S2000000x1x1 ![0, 1, 1] · slices_S2000000x4x4_S2000000x1x1_0_1_1) : (⟨S2000000x4x4, .f32⟩ : BufTy).Contents (Elt F) → (⟨S2000000x1x1, .f32⟩ : BufTy).Contents (Elt F)),
    StableHlo.reshape main_v206 main_v207 rfl shapeCasts_S2000000x1x1_S2000000,
    StableHlo.binary main_v205 main_v207 main_v208 (subf : (⟨S2000000, .f32⟩ : BufTy).Contents (Elt F) → (⟨S2000000, .f32⟩ : BufTy).Contents (Elt F) → (⟨S2000000, .f32⟩ : BufTy).Contents (Elt F)),
    StableHlo.unary main_v161 main_v209 ((extractStridedSlice S2000000x1x1 ![0, 2, 2] · slices_S2000000x4x4_S2000000x1x1_0_2_2) : (⟨S2000000x4x4, .f32⟩ : BufTy).Contents (Elt F) → (⟨S2000000x1x1, .f32⟩ : BufTy).Contents (Elt F)),
    StableHlo.reshape main_v209 main_v210 rfl shapeCasts_S2000000x1x1_S2000000,
    StableHlo.binary main_v208 main_v210 main_v211 (addf : (⟨S2000000, .f32⟩ : BufTy).Contents (Elt F) → (⟨S2000000, .f32⟩ : BufTy).Contents (Elt F) → (⟨S2000000, .f32⟩ : BufTy).Contents (Elt F)),
    StableHlo.unary main_v161 main_v212 ((extractStridedSlice S2000000x1x1 ![0, 0, 0] · slices_S2000000x4x4_S2000000x1x1_0_0_0) : (⟨S2000000x4x4, .f32⟩ : BufTy).Contents (Elt F) → (⟨S2000000x1x1, .f32⟩ : BufTy).Contents (Elt F)),
    StableHlo.reshape main_v212 main_v213 rfl shapeCasts_S2000000x1x1_S2000000,
    StableHlo.nullary main_cst_23 (constant S_ .f32 0x3F800000#32) ]

/-- The references they write, in order. -/
abbrev W_part3 : List (Ref sig .tc) :=
  [main_v159, main_v160, main_v161, main_v162, main_v163, main_cst_19, main_v164, main_v165, main_v166, main_v167, main_v168, main_v169, main_v170, main_v171, main_v172, main_v173, main_v174, main_v175, main_v176, main_v177, main_v178, main_v179, main_v180, main_v181, main_v182, main_v183, main_cst_20, main_v184, main_v185, main_v186, main_v187, main_v188, main_v189, main_v190, main_v191, main_v192, main_v193, main_cst_21, main_v194, main_v195, main_v196, main_v197, main_v198, main_v199, main_v200, main_v201, main_v202, main_v203, main_cst_22, main_v204, main_v205, main_v206, main_v207, main_v208, main_v209, main_v210, main_v211, main_v212, main_v213, main_cst_23]

set_option maxRecDepth 8192 in
theorem ops_part3_sub : (ops_part3 : List (HloOp τ sig (Elt F))).Forall fun op => op.bufs ⊆ tcRefs τ sig :=
  ⟨binary_bufs_sub .., binary_bufs_sub .., binary_bufs_sub .., unary_bufs_sub .., reshape_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., unary_bufs_sub .., binary_bufs_sub .., binary_bufs_sub .., unary_bufs_sub .., binary_bufs_sub .., unary_bufs_sub .., binary_bufs_sub .., unary_bufs_sub .., reshape_bufs_sub .., nullary_bufs_sub .., unary_bufs_sub .., binary_bufs_sub .., unary_bufs_sub .., reshape_bufs_sub .., binary_bufs_sub .., unary_bufs_sub .., reshape_bufs_sub .., binary_bufs_sub .., unary_bufs_sub .., reshape_bufs_sub .., nullary_bufs_sub .., unary_bufs_sub .., binary_bufs_sub .., unary_bufs_sub .., reshape_bufs_sub .., binary_bufs_sub .., unary_bufs_sub .., reshape_bufs_sub .., binary_bufs_sub .., unary_bufs_sub .., reshape_bufs_sub .., nullary_bufs_sub .., unary_bufs_sub .., binary_bufs_sub .., unary_bufs_sub .., reshape_bufs_sub .., binary_bufs_sub .., unary_bufs_sub .., reshape_bufs_sub .., binary_bufs_sub .., unary_bufs_sub .., reshape_bufs_sub .., nullary_bufs_sub ..⟩

set_option maxRecDepth 8192 in
theorem ops_part3_writes : Cert.Lib.SingleAssignment.Writes (ops_part3 : List (HloOp τ sig (Elt F))) W_part3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of window `main_part4`: 249 … 308 of 368. -/
abbrev ops_part4 : List (HloOp τ sig (Elt F)) :=
  [ StableHlo.unary main_cst_23 main_v214 (broadcastInDim S2000000 ![] bcast_S_S2000000 : (⟨S_, .f32⟩ : BufTy).Contents (Elt F) → (⟨S2000000, .f32⟩ : BufTy).Contents (Elt F)),
    StableHlo.binary main_v214 main_v213 main_v215 (addf : (⟨S2000000, .f32⟩ : BufTy).Contents (Elt F) → (⟨S2000000, .f32⟩ : BufTy).Contents (Elt F) → (⟨S2000000, .f32⟩ : BufTy).Contents (Elt F)),
    StableHlo.unary main_v161 main_v216 ((extractStridedSlice S2000000x1x1 ![0, 1, 1] · slices_S2000000x4x4_S2000000x1x1_0_1_1) : (⟨S2000000x4x4, .f32⟩ : BufTy).Contents (Elt F) → (⟨S2000000x1x1, .f32⟩ : BufTy).Contents (Elt F)),
    StableHlo.reshape main_v216 main_v217 rfl shapeCasts_S2000000x1x1_S2000000,
    StableHlo.binary main_v215 main_v217 main_v218 (addf : (⟨S2000000, .f32⟩ : BufTy).Contents (Elt F) → (⟨S2000000, .f32⟩ : BufTy).Contents (Elt F) → (⟨S2000000, .f32⟩ : BufTy).Contents (Elt F)),
    StableHlo.unary main_v161 main_v219 ((extractStridedSlice S2000000x1x1 ![0, 2, 2] · slices_S2000000x4x4_S2000000x1x1_0_2_2) : (⟨S2000000x4x4, .f32⟩ : BufTy).Contents (Elt F) → (⟨S2000000x1x1, .f32⟩ : BufTy).Contents (Elt F)),
    StableHlo.reshape main_v219 main_v220 rfl shapeCasts_S2000000x1x1_S2000000,
    StableHlo.binary main_v218 main_v220 main_v221 (addf : (⟨S2000000, .f32⟩ : BufTy).Contents (Elt F) → (⟨S2000000, .f32⟩ : BufTy).Contents (Elt F) → (⟨S2000000, .f32⟩ : BufTy).Contents (Elt F)),
    StableHlo.unary main_v161 main_v222 ((extractStridedSlice S2000000x1x1 ![0, 2, 1] · slices_S2000000x4x4_S2000000x1x1_0_2_1) : (⟨S2000000x4x4, .f32⟩ : BufTy).Contents (Elt F) → (⟨S2000000x1x1, .f32⟩ : BufTy).Contents (Elt F)),
    StableHlo.reshape main_v222 main_v223 rfl shapeCasts_S2000000x1x1_S2000000,
    StableHlo.unary main_v161 main_v224 ((extractStridedSlice S2000000x1x1 ![0, 1, 2] · slices_S2000000x4x4_S2000000x1x1_0_1_2) : (⟨S2000000x4x4, .f32⟩ : BufTy).Contents (Elt F) → (⟨S2000000x1x1, .f32⟩ : BufTy).Contents (Elt F)),
    StableHlo.reshape main_v224 main_v225 rfl shapeCasts_S2000000x1x1_S2000000,
    StableHlo.binary main_v223 main_v225 main_v226 (subf : (⟨S2000000, .f32⟩ : BufTy).Contents (Elt F) → (⟨S2000000, .f32⟩ : BufTy).Contents (Elt F) → (⟨S2000000, .f32⟩ : BufTy).Contents (Elt F)),
    StableHlo.unary main_v161 main_v227 ((extractStridedSlice S2000000x1x1 ![0, 0, 1] · slices_S2000000x4x4_S2000000x1x1_0_0_1) : (⟨S2000000x4x4, .f32⟩ : BufTy).Contents (Elt F) → (⟨S2000000x1x1, .f32⟩ : BufTy).Contents (Elt F)),
    StableHlo.reshape main_v227 main_v228 rfl shapeCasts_S2000000x1x1_S2000000,
    StableHlo.unary main_v161 main_v229 ((extractStridedSlice S2000000x1x1 ![0, 1, 0] · slices_S2000000x4x4_S2000000x1x1_0_1_0) : (⟨S2000000x4x4, .f32⟩ : BufTy).Contents (Elt F) → (⟨S2000000x1x1, .f32⟩ : BufTy).Contents (Elt F)),
    StableHlo.reshape main_v229 main_v230 rfl shapeCasts_S2000000x1x1_S2000000,
    StableHlo.binary main_v228 main_v230 main_v231 (addf : (⟨S2000000, .f32⟩ : BufTy).Contents (Elt F) → (⟨S2000000, .f32⟩ : BufTy).Contents (Elt F) → (⟨S2000000, .f32⟩ : BufTy).Contents (Elt F)),
    StableHlo.unary main_v161 main_v232 ((extractStridedSlice S2000000x1x1 ![0, 2, 0] · slices_S2000000x4x4_S2000000x1x1_0_2_0) : (⟨S2000000x4x4, .f32⟩ : BufTy).Contents (Elt F) → (⟨S2000000x1x1, .f32⟩ : BufTy).Contents (Elt F)),
    StableHlo.reshape main_v232 main_v233 rfl shapeCasts_S2000000x1x1_S2000000,
    StableHlo.unary main_v161 main_v234 ((extractStridedSlice S2000000x1x1 ![0, 0, 2] · slices_S2000000x4x4_S2000000x1x1_0_0_2) : (⟨S2000000x4x4, .f32⟩ : BufTy).Contents (Elt F) → (⟨S2000000x1x1, .f32⟩ : BufTy).Contents (Elt F)),
    StableHlo.reshape main_v234 main_v235 rfl shapeCasts_S2000000x1x1_S2000000,
    StableHlo.binary main_v233 main_v235 main_v236 (addf : (⟨S2000000, .f32⟩ : BufTy).Contents (Elt F) → (⟨S2000000, .f32⟩ : BufTy).Contents (Elt F) → (⟨S2000000, .f32⟩ : BufTy).Contents (Elt F)),
    StableHlo.unary main_v226 main_v237 (broadcastInDim S2000000x1 ![0] bcast_S2000000_S2000000x1_0 : (⟨S2000000, .f32⟩ : BufTy).Contents (Elt F) → (⟨S2000000x1, .f32⟩ : BufTy).Contents (Elt F)),
    StableHlo.unary main_v191 main_v238 (broadcastInDim S2000000x1 ![0] bcast_S2000000_S2000000x1_0 : (⟨S2000000, .f32⟩ : BufTy).Contents (Elt F) → (⟨S2000000x1, .f32⟩ : BufTy).Contents (Elt F)),
    StableHlo.unary main_v231 main_v239 (broadcastInDim S2000000x1 ![0] bcast_S2000000_S2000000x1_0 : (⟨S2000000, .f32⟩ : BufTy).Contents (Elt F) → (⟨S2000000x1, .f32⟩ : BufTy).Contents (Elt F)),
    StableHlo.unary main_v236 main_v240 (broadcastInDim S2000000x1 ![0] bcast_S2000000_S2000000x1_0 : (⟨S2000000, .f32⟩ : BufTy).Contents (Elt F) → (⟨S2000000x1, .f32⟩ : BufTy).Contents (Elt F)),
    StableHlo.nary ![main_v237, main_v238, main_v239, main_v240] main_v241 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1),
    StableHlo.unary main_v161 main_v242 ((extractStridedSlice S2000000x1x1 ![0, 0, 2] · slices_S2000000x4x4_S2000000x1x1_0_0_2) : (⟨S2000000x4x4, .f32⟩ : BufTy).Contents (Elt F) → (⟨S2000000x1x1, .f32⟩ : BufTy).Contents (Elt F)),
    StableHlo.reshape main_v242 main_v243 rfl shapeCasts_S2000000x1x1_S2000000,
    StableHlo.unary main_v161 main_v244 ((extractStridedSlice S2000000x1x1 ![0, 2, 0] · slices_S2000000x4x4_S2000000x1x1_0_2_0) : (⟨S2000000x4x4, .f32⟩ : BufTy).Contents (Elt F) → (⟨S2000000x1x1, .f32⟩ : BufTy).Contents (Elt F)),
    StableHlo.reshape main_v244 main_v245 rfl shapeCasts_S2000000x1x1_S2000000,
    StableHlo.binary main_v243 main_v245 main_v246 (subf : (⟨S2000000, .f32⟩ : BufTy).Contents (Elt F) → (⟨S2000000, .f32⟩ : BufTy).Contents (Elt F) → (⟨S2000000, .f32⟩ : BufTy).Contents (Elt F)),
    StableHlo.unary main_v161 main_v247 ((extractStridedSlice S2000000x1x1 ![0, 0, 1] · slices_S2000000x4x4_S2000000x1x1_0_0_1) : (⟨S2000000x4x4, .f32⟩ : BufTy).Contents (Elt F) → (⟨S2000000x1x1, .f32⟩ : BufTy).Contents (Elt F)),
    StableHlo.reshape main_v247 main_v248 rfl shapeCasts_S2000000x1x1_S2000000,
    StableHlo.unary main_v161 main_v249 ((extractStridedSlice S2000000x1x1 ![0, 1, 0] · slices_S2000000x4x4_S2000000x1x1_0_1_0) : (⟨S2000000x4x4, .f32⟩ : BufTy).Contents (Elt F) → (⟨S2000000x1x1, .f32⟩ : BufTy).Contents (Elt F)),
    StableHlo.reshape main_v249 main_v250 rfl shapeCasts_S2000000x1x1_S2000000,
    StableHlo.binary main_v248 main_v250 main_v251 (addf : (⟨S2000000, .f32⟩ : BufTy).Contents (Elt F) → (⟨S2000000, .f32⟩ : BufTy).Contents (Elt F) → (⟨S2000000, .f32⟩ : BufTy).Contents (Elt F)),
    StableHlo.unary main_v161 main_v252 ((extractStridedSlice S2000000x1x1 ![0, 1, 2] · slices_S2000000x4x4_S2000000x1x1_0_1_2) : (⟨S2000000x4x4, .f32⟩ : BufTy).Contents (Elt F) → (⟨S2000000x1x1, .f32⟩ : BufTy).Contents (Elt F)),
    StableHlo.reshape main_v252 main_v253 rfl shapeCasts_S2000000x1x1_S2000000,
    StableHlo.unary main_v161 main_v254 ((extractStridedSlice S2000000x1x1 ![0, 2, 1] · slices_S2000000x4x4_S2000000x1x1_0_2_1) : (⟨S2000000x4x4, .f32⟩ : BufTy).Contents (Elt F) → (⟨S2000000x1x1, .f32⟩ : BufTy).Contents (Elt F)),
    StableHlo.reshape main_v254 main_v255 rfl shapeCasts_S2000000x1x1_S2000000,
    StableHlo.binary main_v253 main_v255 main_v256 (addf : (⟨S2000000, .f32⟩ : BufTy).Contents (Elt F) → (⟨S2000000, .f32⟩ : BufTy).Contents (Elt F) → (⟨S2000000, .f32⟩ : BufTy).Contents (Elt F)),
    StableHlo.unary main_v246 main_v257 (broadcastInDim S2000000x1 ![0] bcast_S2000000_S2000000x1_0 : (⟨S2000000, .f32⟩ : BufTy).Contents (Elt F) → (⟨S2000000x1, .f32⟩ : BufTy).Contents (Elt F)),
    StableHlo.unary main_v251 main_v258 (broadcastInDim S2000000x1 ![0] bcast_S2000000_S2000000x1_0 : (⟨S2000000, .f32⟩ : BufTy).Contents (Elt F) → (⟨S2000000x1, .f32⟩ : BufTy).Contents (Elt F)),
    StableHlo.unary main_v201 main_v259 (broadcastInDim S2000000x1 ![0] bcast_S2000000_S2000000x1_0 : (⟨S2000000, .f32⟩ : BufTy).Contents (Elt F) → (⟨S2000000x1, .f32⟩ : BufTy).Contents (Elt F)),
    StableHlo.unary main_v256 main_v260 (broadcastInDim S2000000x1 ![0] bcast_S2000000_S2000000x1_0 : (⟨S2000000, .f32⟩ : BufTy).Contents (Elt F) → (⟨S2000000x1, .f32⟩ : BufTy).Contents (Elt F)),
    StableHlo.nary ![main_v257, main_v258, main_v259, main_v260] main_v261 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1),
    StableHlo.unary main_v161 main_v262 ((extractStridedSlice S2000000x1x1 ![0, 1, 0] · slices_S2000000x4x4_S2000000x1x1_0_1_0) : (⟨S2000000x4x4, .f32⟩ : BufTy).Contents (Elt F) → (⟨S2000000x1x1, .f32⟩ : BufTy).Contents (Elt F)),
    StableHlo.reshape main_v262 main_v263 rfl shapeCasts_S2000000x1x1_S2000000,
    StableHlo.unary main_v161 main_v264 ((extractStridedSlice S2000000x1x1 ![0, 0, 1] · slices_S2000000x4x4_S2000000x1x1_0_0_1) : (⟨S2000000x4x4, .f32⟩ : BufTy).Contents (Elt F) → (⟨S2000000x1x1, .f32⟩ : BufTy).Contents (Elt F)),
    StableHlo.reshape main_v264 main_v265 rfl shapeCasts_S2000000x1x1_S2000000,
    StableHlo.binary main_v263 main_v265 main_v266 (subf : (⟨S2000000, .f32⟩ : BufTy).Contents (Elt F) → (⟨S2000000, .f32⟩ : BufTy).Contents (Elt F) → (⟨S2000000, .f32⟩ : BufTy).Contents (Elt F)),
    StableHlo.unary main_v161 main_v267 ((extractStridedSlice S2000000x1x1 ![0, 2, 0] · slices_S2000000x4x4_S2000000x1x1_0_2_0) : (⟨S2000000x4x4, .f32⟩ : BufTy).Contents (Elt F) → (⟨S2000000x1x1, .f32⟩ : BufTy).Contents (Elt F)),
    StableHlo.reshape main_v267 main_v268 rfl shapeCasts_S2000000x1x1_S2000000,
    StableHlo.unary main_v161 main_v269 ((extractStridedSlice S2000000x1x1 ![0, 0, 2] · slices_S2000000x4x4_S2000000x1x1_0_0_2) : (⟨S2000000x4x4, .f32⟩ : BufTy).Contents (Elt F) → (⟨S2000000x1x1, .f32⟩ : BufTy).Contents (Elt F)),
    StableHlo.reshape main_v269 main_v270 rfl shapeCasts_S2000000x1x1_S2000000,
    StableHlo.binary main_v268 main_v270 main_v271 (addf : (⟨S2000000, .f32⟩ : BufTy).Contents (Elt F) → (⟨S2000000, .f32⟩ : BufTy).Contents (Elt F) → (⟨S2000000, .f32⟩ : BufTy).Contents (Elt F)),
    StableHlo.unary main_v161 main_v272 ((extractStridedSlice S2000000x1x1 ![0, 1, 2] · slices_S2000000x4x4_S2000000x1x1_0_1_2) : (⟨S2000000x4x4, .f32⟩ : BufTy).Contents (Elt F) → (⟨S2000000x1x1, .f32⟩ : BufTy).Contents (Elt F)),
    StableHlo.reshape main_v272 main_v273 rfl shapeCasts_S2000000x1x1_S2000000 ]

/-- The references they write, in order. -/
abbrev W_part4 : List (Ref sig .tc) :=
  [main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273]

set_option maxRecDepth 8192 in
theorem ops_part4_sub : (ops_part4 : List (HloOp τ sig (Elt F))).Forall fun op => op.bufs ⊆ tcRefs τ sig :=
  ⟨unary_bufs_sub .., binary_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub ..⟩

set_option maxRecDepth 8192 in
theorem ops_part4_writes : Cert.Lib.SingleAssignment.Writes (ops_part4 : List (HloOp τ sig (Elt F))) W_part4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of window `main_part5`: 309 … 368 of 368. -/
abbrev ops_part5 : List (HloOp τ sig (Elt F)) :=
  [ StableHlo.unary main_v161 main_v274 ((extractStridedSlice S2000000x1x1 ![0, 2, 1] · slices_S2000000x4x4_S2000000x1x1_0_2_1) : (⟨S2000000x4x4, .f32⟩ : BufTy).Contents (Elt F) → (⟨S2000000x1x1, .f32⟩ : BufTy).Contents (Elt F)),
    StableHlo.reshape main_v274 main_v275 rfl shapeCasts_S2000000x1x1_S2000000,
    StableHlo.binary main_v273 main_v275 main_v276 (addf : (⟨S2000000, .f32⟩ : BufTy).Contents (Elt F) → (⟨S2000000, .f32⟩ : BufTy).Contents (Elt F) → (⟨S2000000, .f32⟩ : BufTy).Contents (Elt F)),
    StableHlo.unary main_v266 main_v277 (broadcastInDim S2000000x1 ![0] bcast_S2000000_S2000000x1_0 : (⟨S2000000, .f32⟩ : BufTy).Contents (Elt F) → (⟨S2000000x1, .f32⟩ : BufTy).Contents (Elt F)),
    StableHlo.unary main_v271 main_v278 (broadcastInDim S2000000x1 ![0] bcast_S2000000_S2000000x1_0 : (⟨S2000000, .f32⟩ : BufTy).Contents (Elt F) → (⟨S2000000x1, .f32⟩ : BufTy).Contents (Elt F)),
    StableHlo.unary main_v276 main_v279 (broadcastInDim S2000000x1 ![0] bcast_S2000000_S2000000x1_0 : (⟨S2000000, .f32⟩ : BufTy).Contents (Elt F) → (⟨S2000000x1, .f32⟩ : BufTy).Contents (Elt F)),
    StableHlo.unary main_v211 main_v280 (broadcastInDim S2000000x1 ![0] bcast_S2000000_S2000000x1_0 : (⟨S2000000, .f32⟩ : BufTy).Contents (Elt F) → (⟨S2000000x1, .f32⟩ : BufTy).Contents (Elt F)),
    StableHlo.nary ![main_v277, main_v278, main_v279, main_v280] main_v281 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1),
    StableHlo.unary main_v161 main_v282 ((extractStridedSlice S2000000x1x1 ![0, 2, 1] · slices_S2000000x4x4_S2000000x1x1_0_2_1) : (⟨S2000000x4x4, .f32⟩ : BufTy).Contents (Elt F) → (⟨S2000000x1x1, .f32⟩ : BufTy).Contents (Elt F)),
    StableHlo.reshape main_v282 main_v283 rfl shapeCasts_S2000000x1x1_S2000000,
    StableHlo.unary main_v161 main_v284 ((extractStridedSlice S2000000x1x1 ![0, 1, 2] · slices_S2000000x4x4_S2000000x1x1_0_1_2) : (⟨S2000000x4x4, .f32⟩ : BufTy).Contents (Elt F) → (⟨S2000000x1x1, .f32⟩ : BufTy).Contents (Elt F)),
    StableHlo.reshape main_v284 main_v285 rfl shapeCasts_S2000000x1x1_S2000000,
    StableHlo.binary main_v283 main_v285 main_v286 (subf : (⟨S2000000, .f32⟩ : BufTy).Contents (Elt F) → (⟨S2000000, .f32⟩ : BufTy).Contents (Elt F) → (⟨S2000000, .f32⟩ : BufTy).Contents (Elt F)),
    StableHlo.unary main_v161 main_v287 ((extractStridedSlice S2000000x1x1 ![0, 0, 2] · slices_S2000000x4x4_S2000000x1x1_0_0_2) : (⟨S2000000x4x4, .f32⟩ : BufTy).Contents (Elt F) → (⟨S2000000x1x1, .f32⟩ : BufTy).Contents (Elt F)),
    StableHlo.reshape main_v287 main_v288 rfl shapeCasts_S2000000x1x1_S2000000,
    StableHlo.unary main_v161 main_v289 ((extractStridedSlice S2000000x1x1 ![0, 2, 0] · slices_S2000000x4x4_S2000000x1x1_0_2_0) : (⟨S2000000x4x4, .f32⟩ : BufTy).Contents (Elt F) → (⟨S2000000x1x1, .f32⟩ : BufTy).Contents (Elt F)),
    StableHlo.reshape main_v289 main_v290 rfl shapeCasts_S2000000x1x1_S2000000,
    StableHlo.binary main_v288 main_v290 main_v291 (subf : (⟨S2000000, .f32⟩ : BufTy).Contents (Elt F) → (⟨S2000000, .f32⟩ : BufTy).Contents (Elt F) → (⟨S2000000, .f32⟩ : BufTy).Contents (Elt F)),
    StableHlo.unary main_v161 main_v292 ((extractStridedSlice S2000000x1x1 ![0, 1, 0] · slices_S2000000x4x4_S2000000x1x1_0_1_0) : (⟨S2000000x4x4, .f32⟩ : BufTy).Contents (Elt F) → (⟨S2000000x1x1, .f32⟩ : BufTy).Contents (Elt F)),
    StableHlo.reshape main_v292 main_v293 rfl shapeCasts_S2000000x1x1_S2000000,
    StableHlo.unary main_v161 main_v294 ((extractStridedSlice S2000000x1x1 ![0, 0, 1] · slices_S2000000x4x4_S2000000x1x1_0_0_1) : (⟨S2000000x4x4, .f32⟩ : BufTy).Contents (Elt F) → (⟨S2000000x1x1, .f32⟩ : BufTy).Contents (Elt F)),
    StableHlo.reshape main_v294 main_v295 rfl shapeCasts_S2000000x1x1_S2000000,
    StableHlo.binary main_v293 main_v295 main_v296 (subf : (⟨S2000000, .f32⟩ : BufTy).Contents (Elt F) → (⟨S2000000, .f32⟩ : BufTy).Contents (Elt F) → (⟨S2000000, .f32⟩ : BufTy).Contents (Elt F)),
    StableHlo.unary main_v221 main_v297 (broadcastInDim S2000000x1 ![0] bcast_S2000000_S2000000x1_0 : (⟨S2000000, .f32⟩ : BufTy).Contents (Elt F) → (⟨S2000000x1, .f32⟩ : BufTy).Contents (Elt F)),
    StableHlo.unary main_v286 main_v298 (broadcastInDim S2000000x1 ![0] bcast_S2000000_S2000000x1_0 : (⟨S2000000, .f32⟩ : BufTy).Contents (Elt F) → (⟨S2000000x1, .f32⟩ : BufTy).Contents (Elt F)),
    StableHlo.unary main_v291 main_v299 (broadcastInDim S2000000x1 ![0] bcast_S2000000_S2000000x1_0 : (⟨S2000000, .f32⟩ : BufTy).Contents (Elt F) → (⟨S2000000x1, .f32⟩ : BufTy).Contents (Elt F)),
    StableHlo.unary main_v296 main_v300 (broadcastInDim S2000000x1 ![0] bcast_S2000000_S2000000x1_0 : (⟨S2000000, .f32⟩ : BufTy).Contents (Elt F) → (⟨S2000000x1, .f32⟩ : BufTy).Contents (Elt F)),
    StableHlo.nary ![main_v297, main_v298, main_v299, main_v300] main_v301 (fun u => concatenate S2000000x4 1 [⟨S2000000x1, u 0⟩, ⟨S2000000x1, u 1⟩, ⟨S2000000x1, u 2⟩, ⟨S2000000x1, u 3⟩] concatenates_S2000000x1_S2000000x1_S2000000x1_S2000000x1_S2000000x4_d1),
    StableHlo.ternary main_v181 main_v211 main_v221 main_v302 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    StableHlo.ternary main_v179 main_v201 main_v302 main_v303 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    StableHlo.ternary main_v177 main_v191 main_v303 main_v304 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    StableHlo.unary main_v177 main_v305 (broadcastInDim S2000000x1 ![0] bcast_S2000000_S2000000x1_0 : (⟨S2000000, .i1⟩ : BufTy).Contents (Elt F) → (⟨S2000000x1, .i1⟩ : BufTy).Contents (Elt F)),
    StableHlo.unary main_v179 main_v306 (broadcastInDim S2000000x1 ![0] bcast_S2000000_S2000000x1_0 : (⟨S2000000, .i1⟩ : BufTy).Contents (Elt F) → (⟨S2000000x1, .i1⟩ : BufTy).Contents (Elt F)),
    StableHlo.unary main_v181 main_v307 (broadcastInDim S2000000x1 ![0] bcast_S2000000_S2000000x1_0 : (⟨S2000000, .i1⟩ : BufTy).Contents (Elt F) → (⟨S2000000x1, .i1⟩ : BufTy).Contents (Elt F)),
    StableHlo.unary main_v307 main_call7_v0 ((broadcastInDim S2000000x4 ![0, 1] bcast_S2000000x1_S2000000x4_0_1) : (⟨S2000000x1, .i1⟩ : BufTy).Contents (Elt F) → (⟨S2000000x4, .i1⟩ : BufTy).Contents (Elt F)),
    StableHlo.ternary main_call7_v0 main_v281 main_v301 main_v308 (select : (⟨S2000000x4, .i1⟩ : BufTy).Contents (Elt F) → (⟨S2000000x4, .f32⟩ : BufTy).Contents (Elt F) → (⟨S2000000x4, .f32⟩ : BufTy).Contents (Elt F) → (⟨S2000000x4, .f32⟩ : BufTy).Contents (Elt F)),
    StableHlo.unary main_v306 main_call8_v0 ((broadcastInDim S2000000x4 ![0, 1] bcast_S2000000x1_S2000000x4_0_1) : (⟨S2000000x1, .i1⟩ : BufTy).Contents (Elt F) → (⟨S2000000x4, .i1⟩ : BufTy).Contents (Elt F)),
    StableHlo.ternary main_call8_v0 main_v261 main_v308 main_v309 (select : (⟨S2000000x4, .i1⟩ : BufTy).Contents (Elt F) → (⟨S2000000x4, .f32⟩ : BufTy).Contents (Elt F) → (⟨S2000000x4, .f32⟩ : BufTy).Contents (Elt F) → (⟨S2000000x4, .f32⟩ : BufTy).Contents (Elt F)),
    StableHlo.unary main_v305 main_call9_v0 ((broadcastInDim S2000000x4 ![0, 1] bcast_S2000000x1_S2000000x4_0_1) : (⟨S2000000x1, .i1⟩ : BufTy).Contents (Elt F) → (⟨S2000000x4, .i1⟩ : BufTy).Contents (Elt F)),
    StableHlo.ternary main_call9_v0 main_v241 main_v309 main_v310 (select : (⟨S2000000x4, .i1⟩ : BufTy).Contents (Elt F) → (⟨S2000000x4, .f32⟩ : BufTy).Contents (Elt F) → (⟨S2000000x4, .f32⟩ : BufTy).Contents (Elt F) → (⟨S2000000x4, .f32⟩ : BufTy).Contents (Elt F)),
    StableHlo.unary main_v304 main_v311 (Host.sqrt : (⟨S2000000, .f32⟩ : BufTy).Contents (Elt F) → (⟨S2000000, .f32⟩ : BufTy).Contents (Elt F)),
    StableHlo.nullary main_cst_24 (constant S_ .f32 0x3F000000#32),
    StableHlo.unary main_cst_24 main_v312 (broadcastInDim S2000000 ![] bcast_S_S2000000 : (⟨S_, .f32⟩ : BufTy).Contents (Elt F) → (⟨S2000000, .f32⟩ : BufTy).Contents (Elt F)),
    StableHlo.binary main_v312 main_v311 main_v313 (Host.divf : (⟨S2000000, .f32⟩ : BufTy).Contents (Elt F) → (⟨S2000000, .f32⟩ : BufTy).Contents (Elt F) → (⟨S2000000, .f32⟩ : BufTy).Contents (Elt F)),
    StableHlo.unary main_v313 main_v314 (broadcastInDim S2000000x1 ![0] bcast_S2000000_S2000000x1_0 : (⟨S2000000, .f32⟩ : BufTy).Contents (Elt F) → (⟨S2000000x1, .f32⟩ : BufTy).Contents (Elt F)),
    StableHlo.unary main_v314 main_v315 (broadcastInDim S2000000x4 ![0, 1] bcast_S2000000x1_S2000000x4_0_1 : (⟨S2000000x1, .f32⟩ : BufTy).Contents (Elt F) → (⟨S2000000x4, .f32⟩ : BufTy).Contents (Elt F)),
    StableHlo.binary main_v310 main_v315 main_v316 (mulf : (⟨S2000000x4, .f32⟩ : BufTy).Contents (Elt F) → (⟨S2000000x4, .f32⟩ : BufTy).Contents (Elt F) → (⟨S2000000x4, .f32⟩ : BufTy).Contents (Elt F)),
    StableHlo.unary main_v316 main_v317 ((extractStridedSlice S2000000x1 ![0, 0] · slices_S2000000x4_S2000000x1_0_0) : (⟨S2000000x4, .f32⟩ : BufTy).Contents (Elt F) → (⟨S2000000x1, .f32⟩ : BufTy).Contents (Elt F)),
    StableHlo.reshape main_v317 main_v318 rfl shapeCasts_S2000000x1_S2000000,
    StableHlo.nullary main_cst_25 (constant S_ .f32 0x00000000#32),
    StableHlo.unary main_cst_25 main_v319 (broadcastInDim S2000000 ![] bcast_S_S2000000 : (⟨S_, .f32⟩ : BufTy).Contents (Elt F) → (⟨S2000000, .f32⟩ : BufTy).Contents (Elt F)),
    StableHlo.binary main_v318 main_v319 main_v320 (cmpf .olt : (⟨S2000000, .f32⟩ : BufTy).Contents (Elt F) → (⟨S2000000, .f32⟩ : BufTy).Contents (Elt F) → (⟨S2000000, .i1⟩ : BufTy).Contents (Elt F)),
    StableHlo.unary main_v320 main_v321 (broadcastInDim S2000000x1 ![0] bcast_S2000000_S2000000x1_0 : (⟨S2000000, .i1⟩ : BufTy).Contents (Elt F) → (⟨S2000000x1, .i1⟩ : BufTy).Contents (Elt F)),
    StableHlo.unary main_v316 main_v322 (Host.negf : (⟨S2000000x4, .f32⟩ : BufTy).Contents (Elt F) → (⟨S2000000x4, .f32⟩ : BufTy).Contents (Elt F)),
    StableHlo.unary main_v321 main_call10_v0 ((broadcastInDim S2000000x4 ![0, 1] bcast_S2000000x1_S2000000x4_0_1) : (⟨S2000000x1, .i1⟩ : BufTy).Contents (Elt F) → (⟨S2000000x4, .i1⟩ : BufTy).Contents (Elt F)),
    StableHlo.ternary main_call10_v0 main_v322 main_v316 main_v323 (select : (⟨S2000000x4, .i1⟩ : BufTy).Contents (Elt F) → (⟨S2000000x4, .f32⟩ : BufTy).Contents (Elt F) → (⟨S2000000x4, .f32⟩ : BufTy).Contents (Elt F) → (⟨S2000000x4, .f32⟩ : BufTy).Contents (Elt F)),
    StableHlo.unary main_v161 main_v324 ((extractStridedSlice S2000000x3x1 ![0, 0, 3] · slices_S2000000x4x4_S2000000x3x1_0_0_3) : (⟨S2000000x4x4, .f32⟩ : BufTy).Contents (Elt F) → (⟨S2000000x3x1, .f32⟩ : BufTy).Contents (Elt F)),
    StableHlo.reshape main_v324 main_v325 rfl shapeCasts_S2000000x3x1_S2000000x3,
    StableHlo.binary main_v325 main_v323 main_v326 ((fun a b => concatenate S2000000x7 1 [⟨S2000000x3, a⟩, ⟨S2000000x4, b⟩] concatenates_S2000000x3_S2000000x4_S2000000x7_d1) : (⟨S2000000x3, .f32⟩ : BufTy).Contents (Elt F) → (⟨S2000000x4, .f32⟩ : BufTy).Contents (Elt F) → (⟨S2000000x7, .f32⟩ : BufTy).Contents (Elt F)),
    StableHlo.unary main_v326 main_v327 (broadcastInDim S2000000x7x1 ![0, 1] bcast_S2000000x7_S2000000x7x1_0_1 : (⟨S2000000x7, .f32⟩ : BufTy).Contents (Elt F) → (⟨S2000000x7x1, .f32⟩ : BufTy).Contents (Elt F)) ]

/-- The references they write, in order. -/
abbrev W_part5 : List (Ref sig .tc) :=
  [main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_call7_v0, main_v308, main_call8_v0, main_v309, main_call9_v0, main_v310, main_v311, main_cst_24, main_v312, main_v313, main_v314, main_v315, main_v316, main_v317, main_v318, main_cst_25, main_v319, main_v320, main_v321, main_v322, main_call10_v0, main_v323, main_v324, main_v325, main_v326, main_v327]

set_option maxRecDepth 8192 in
theorem ops_part5_sub : (ops_part5 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., unary_bufs_sub .., nary_bufs_sub .., ternary_bufs_sub .., ternary_bufs_sub .., ternary_bufs_sub .., unary_bufs_sub .., unary_bufs_sub .., unary_bufs_sub .., unary_bufs_sub .., ternary_bufs_sub .., unary_bufs_sub .., ternary_bufs_sub .., unary_bufs_sub .., ternary_bufs_sub .., unary_bufs_sub .., nullary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., ternary_bufs_sub .., unary_bufs_sub .., reshape_bufs_sub .., binary_bufs_sub .., unary_bufs_sub ..⟩

set_option maxRecDepth 8192 in
theorem ops_part5_writes : Cert.Lib.SingleAssignment.Writes (ops_part5 : List (HloOp τ sig (Elt F))) W_part5 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program's 368 operations, in order. -/
abbrev ops : List (HloOp τ sig (Elt F)) :=
  ops_part0 ++ (ops_part1 ++ (ops_part2 ++ (ops_part3 ++ (ops_part4 ++ (ops_part5)))))

/-- The references they write, in order. -/
abbrev W : List (Ref sig .tc) :=
  W_part0 ++ (W_part1 ++ (W_part2 ++ (W_part3 ++ (W_part4 ++ (W_part5)))))

end Cert.ReferenceIdeal.Hand

end
-- ==== Proof.RefRun.lean ====
/-
  The reference's run. Its host program is a straight line: the six printed windows are, one after the other, the
  operations of the list `ops` (each window equals the sequence of its own part of the list by unfolding — a call of a
  module-local function unfolds to that function's operations — and sequences in a row are the sequence of the
  concatenation). A straight line on a signature that scopes nothing runs to the end from any memory with zero counters,
  every buffer then at the fold of the operations over what the launch dealt it. Each operation writes exactly its own
  result buffer, the k-th of the list `W`; the two argument buffers are not in `W`, so they end as they started: the
  frame claim.
-/
import proofs.«161387_j47622597378731_2_alg».proof.Defs
import proofs.«161387_j47622597378731_2_alg».proof.Proof.Gen.Pre_finite_inputs
import proofs.«161387_j47622597378731_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Lib.SingleAssignment

variable {F : FTy → Type} [FloatOps F]

/-! ## The program is the list -/

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
set_option maxHeartbeats 4000000 in
theorem main_part5_eq (c : Dev nD) : main_part5 (F := F) c = seq ops_part5 := rfl

set_option maxRecDepth 8192 in
/-- The windows in a row are the sequence of the whole list. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers are TensorCore references: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h, List.forall_iff_forall_mem.mp ops_part5_sub op h]

/-- Every operation determines all it writes: window by window. -/
theorem ops_fresh : ∀ op ∈ (ops : List (HloOp τ sig (Elt F))), op.fresh = ∅ := fun op h => by
  simp only [ops, List.mem_append] at h
  rcases h with h | h | h | h | h | h
  exacts [List.forall_iff_forall_mem.mp ops_part0_fresh op h, List.forall_iff_forall_mem.mp ops_part1_fresh op h,
    List.forall_iff_forall_mem.mp ops_part2_fresh op h, List.forall_iff_forall_mem.mp ops_part3_fresh op h,
    List.forall_iff_forall_mem.mp ops_part4_fresh op h, List.forall_iff_forall_mem.mp ops_part5_fresh op h]

/-- The k-th operation writes exactly the k-th reference of `W`. -/
theorem ops_writes : Writes (ops : List (HloOp τ sig (Elt F))) W :=
  ops_part0_writes.append (ops_part1_writes.append (ops_part2_writes.append (ops_part3_writes.append
    (ops_part4_writes.append ops_part5_writes))))

/-! ## The run -/

/-- At the compiled mesh, for any float values, from any memory with zero counters: every weakly fair execution of the
    program on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The first argument is written by no operation. -/
theorem arg0_not_mem : main_arg0 ∉ W := by decide
/-- The second argument is written by no operation. -/
theorem arg1_not_mem : main_arg1 ∉ W := by decide

/-- A buffer no operation writes holds at the end what it held at the start. -/
theorem after_arg0 (V : Valuation τ sig (Elt F)) : after ops V (main_arg0 : DevRef τ sig) = V (main_arg0 : DevRef τ sig) :=
  after_of_not_mem ops_writes arg0_not_mem V
theorem after_arg1 (V : Valuation τ sig (Elt F)) : after ops V (main_arg1 : DevRef τ sig) = V (main_arg1 : DevRef τ sig) :=
  after_of_not_mem ops_writes arg1_not_mem V

/-- The program runs and leaves its two arguments as they were. -/
theorem frame : Cert.frame_ReferenceIdeal := fun m g _ =>
  (θ_run defs _ _).mono (fun _ h c => ⟨(h c main_arg0).trans (after_arg0 _), (h c main_arg1).trans (after_arg1 _)⟩)
    (run_main m g)

end Cert.ReferenceIdeal.Hand

end
-- ==== Proof.LibSingleAssignmentNary.lean ====
/-
  SINGLE ASSIGNMENT, the operation over a family of operands (a concatenation): in a straight line in which every
  buffer is written once and nothing is read before it is written, the result buffer of an operation over the
  operands `xs 0, …, xs (k-1)` holds, at the end, the operation's function of the FINAL contents of those operands —
  none of them is written again, and neither is the result. Same shape as the one-, two- and three-operand statements
  it sits beside; the side conditions are memberships in literal lists of references. Program-free.
-/
import proofs.«161387_j47622597378731_2_alg».proof.Proof.LibSingleAssignment

namespace Cert.Lib.SingleAssignment

open Idealize.ShloMosaic Idealize.ShloMosaic.StableHlo

variable {τ : Topo} {sig : RefSig} {Val : EltTy → Type}

section Read

variable {l t : List (HloOp τ sig Val)} {Wl Wt : List (Ref sig .tc)}

/-- An operation over a family of operands: its buffer holds its function of the operands' final contents. -/
theorem read_nary (hl : Writes l Wl) (ht : Writes t Wt) (n : Nat) {k : Nat} {xs : Fin k → Ref sig .tc} {y : Ref sig .tc}
    {f : ((i : Fin k) → (xs i).ty.Contents Val) → y.ty.Contents Val} {hxs hy}
    (hop : l[n]? = some (nary (τ := τ) xs y f hxs hy)) (nxs : ∀ i, xs i ∉ Wl.drop n ++ Wt)
    (ny : y ∉ Wl.drop (n + 1) ++ Wt) (U : Valuation τ sig Val) :
    after t (after l U) (Proc.devRef .tc y) = f (fun i => after t (after l U) (Proc.devRef .tc (xs i))) := by
  rw [final_of_at hl ht n hop ny, nary_result]
  refine congrArg f ?_
  funext i
  exact (final_of_before hl ht n (nxs i) U).symm

end Read

/-- The whole line read at its end: nothing follows it. -/
theorem Writes.nil : Writes ([] : List (HloOp τ sig Val)) [] := List.Forall₂.nil

end Cert.Lib.SingleAssignment
-- ==== Proof.RefRead.lean ====
/-
  Reading the reference's line back at its end, one operation at a time. Every buffer of the line is written once and
  nothing is read before it is written, so at the end the buffer an operation wrote holds that operation's function of
  what its operands hold AT THE END. The statements below are the single-assignment readers taken for the whole list
  (nothing follows it): the operation is named by its position in the list, and the side conditions — the operands are
  not written from that position on, the result not after it — are memberships in literal lists of references.
-/
import proofs.«161387_j47622597378731_2_alg».proof.Proof.RefRun
import proofs.«161387_j47622597378731_2_alg».proof.Proof.LibSingleAssignmentNary

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Lib.SingleAssignment

variable {F : FTy → Type} [FloatOps F]

/-- A constant's buffer holds the constant. -/
theorem rd_nullary (n : Nat) {y : Ref sig .tc} {v : y.ty.Contents (Elt F)} {hy}
    (hop : (ops : List (HloOp τ sig (Elt F)))[n]? = some (nullary (τ := τ) y v hy)) (ny : y ∉ W.drop (n + 1) ++ [])
    (V : Valuation τ sig (Elt F)) : after ops V (Proc.devRef .tc y) = v :=
  read_nullary ops_writes Writes.nil n hop ny V

/-- A one-operand operation's buffer holds its function of the operand's final contents. -/
theorem rd_unary (n : Nat) {x y : Ref sig .tc} {f : x.ty.Contents (Elt F) → y.ty.Contents (Elt F)} {hx hy}
    (hop : (ops : List (HloOp τ sig (Elt F)))[n]? = some (unary (τ := τ) x y f hx hy)) (nx : x ∉ W.drop n ++ [])
    (ny : y ∉ W.drop (n + 1) ++ []) (V : Valuation τ sig (Elt F)) :
    after ops V (Proc.devRef .tc y) = f (after ops V (Proc.devRef .tc x)) :=
  read_unary ops_writes Writes.nil n hop nx ny V

/-- A two-operand operation's buffer holds its function of the operands' final contents. -/
theorem rd_binary (n : Nat) {a b y : Ref sig .tc} {f : a.ty.Contents (Elt F) → b.ty.Contents (Elt F) → y.ty.Contents (Elt F)}
    {ha hb hy} (hop : (ops : List (HloOp τ sig (Elt F)))[n]? = some (binary (τ := τ) a b y f ha hb hy))
    (na : a ∉ W.drop n ++ []) (nb : b ∉ W.drop n ++ []) (ny : y ∉ W.drop (n + 1) ++ []) (V : Valuation τ sig (Elt F)) :
    after ops V (Proc.devRef .tc y) = f (after ops V (Proc.devRef .tc a)) (after ops V (Proc.devRef .tc b)) :=
  read_binary ops_writes Writes.nil n hop na nb ny V

/-- A three-operand operation's buffer holds its function of the operands' final contents. -/
theorem rd_ternary (n : Nat) {c a b y : Ref sig .tc}
    {f : c.ty.Contents (Elt F) → a.ty.Contents (Elt F) → b.ty.Contents (Elt F) → y.ty.Contents (Elt F)} {hc ha hb hy}
    (hop : (ops : List (HloOp τ sig (Elt F)))[n]? = some (ternary (τ := τ) c a b y f hc ha hb hy))
    (nc : c ∉ W.drop n ++ []) (na : a ∉ W.drop n ++ []) (nb : b ∉ W.drop n ++ []) (ny : y ∉ W.drop (n + 1) ++ [])
    (V : Valuation τ sig (Elt F)) :
    after ops V (Proc.devRef .tc y)
      = f (after ops V (Proc.devRef .tc c)) (after ops V (Proc.devRef .tc a)) (after ops V (Proc.devRef .tc b)) :=
  read_ternary ops_writes Writes.nil n hop nc na nb ny V

/-- A reshape's buffer holds the operand's final contents at the new shape. -/
theorem rd_reshape (n : Nat) {x y : Ref sig .tc} {he hn hx hy}
    (hop : (ops : List (HloOp τ sig (Elt F)))[n]? = some (reshape (τ := τ) (Val := Elt F) x y he hn hx hy))
    (nx : x ∉ W.drop n ++ []) (ny : y ∉ W.drop (n + 1) ++ []) (V : Valuation τ sig (Elt F)) :
    after ops V (Proc.devRef .tc y) = fun i => he ▸ shapeCast y.ty.shape (after ops V (Proc.devRef .tc x)) hn i :=
  read_reshape ops_writes Writes.nil n hop nx ny V

/-- An operation over a family of operands: its buffer holds its function of the operands' final contents. -/
theorem rd_nary (n : Nat) {k : Nat} {xs : Fin k → Ref sig .tc} {y : Ref sig .tc}
    {f : ((i : Fin k) → (xs i).ty.Contents (Elt F)) → y.ty.Contents (Elt F)} {hxs hy}
    (hop : (ops : List (HloOp τ sig (Elt F)))[n]? = some (nary (τ := τ) xs y f hxs hy))
    (nxs : ∀ i, xs i ∉ W.drop n ++ []) (ny : y ∉ W.drop (n + 1) ++ []) (V : Valuation τ sig (Elt F)) :
    after ops V (Proc.devRef .tc y) = f (fun i => after ops V (Proc.devRef .tc (xs i))) :=
  read_nary ops_writes Writes.nil n hop nxs ny V

end Cert.ReferenceIdeal.Hand

end
-- ==== Proof.RefTailLayout.lean ====
/-
  Layout operations of the reference's read-back, each read at an index given by coordinates: an entry of the 4×4
  matrices as a vector over the samples, a scalar spread over the samples, a vector as one column, a column repeated
  over four, four columns side by side, three columns beside four, the last column's first three entries, the first
  column, and the trailing unit axis of the result. Every statement is over the literal shapes and literal coordinate
  types; an index is always spelt by its coordinates.
-/
import proofs.«161387_j47622597378731_2_alg».proof.ReferenceIdeal
import proofs.«161387_j47622597378731_2_alg».proof.Proof.Spec
import Idealize.ShloMosaic.Lib.ValueLayout

noncomputable section

namespace Cert.RefTail

open Idealize.ShloMosaic Idealize.ShloMosaic.ValueIdx Cert.ReferenceIdeal

variable {α : Type}

/-- One entry of each 4×4 matrix, as a vector over the samples: the 1×1 slice at (oi, oj), flattened. -/
theorem entry_apply (oi oj : Nat) (Tm : S2000000x4x4.Idx → α) (hs : S2000000x4x4.Slices ![0, oi, oj] S2000000x1x1)
    (hc : S2000000x1x1.ShapeCasts S2000000) (b : Fin 2000000) (i j : Fin 4) (hi : i.val = oi) (hj : j.val = oj) :
    shapeCast S2000000 (extractStridedSlice S2000000x1x1 ![0, oi, oj] Tm hs) hc (ix1 b) = Tm (ix3 b i j) := by
  refine (shapeCast_apply _ hc (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ Tm hs _ (ix3 b i j) fun a => ?_
    match a with
    | ⟨0, _⟩ => exact (Nat.zero_add _).symm
    | ⟨1, _⟩ => show i.val = oi + 0; omega
    | ⟨2, _⟩ => show j.val = oj + 0; omega

/-- A scalar constant spread over the samples reads the constant. -/
theorem splat_apply (w : BitVec 32) (h : S_.BroadcastsInDim S2000000 (![] : Fin 0 → Fin S2000000.rank)) (b : Fin 2000000) :
    broadcastInDim S2000000 ![] h (constant (F := Ideal) S_ .f32 w) (ix1 b) = Ideal.ofBits .f32 w :=
  (broadcastInDim_apply _ h _ (ix1 b) ix0 fun a => a.elim0).trans rfl

/-- A vector over the samples as a one-column matrix. -/
theorem col_apply (x : S2000000.Idx → α) (h : S2000000.BroadcastsInDim S2000000x1 (![0] : Fin 1 → Fin S2000000x1.rank))
    (b : Fin 2000000) (u : Fin 1) : broadcastInDim S2000000x1 ![0] h x (ix2 b u) = x (ix1 b) :=
  broadcastInDim_apply _ h x (ix2 b u) (ix1 b) fun a => by
    match a with
    | ⟨0, _⟩ => exact (if_neg (by decide : ¬ (2000000 : ℕ) = 1)).symm

/-- A one-column matrix repeated over four columns. -/
theorem row4_apply (x : S2000000x1.Idx → α) (h : S2000000x1.BroadcastsInDim S2000000x4 (![0, 1] : Fin 2 → Fin S2000000x4.rank))
    (b : Fin 2000000) (k : Fin 4) : broadcastInDim S2000000x4 ![0, 1] h x (ix2 b k) = x (ix2 b (0 : Fin 1)) :=
  broadcastInDim_apply _ h x (ix2 b k) (ix2 b (0 : Fin 1)) fun a => by
    match a with
    | ⟨0, _⟩ => exact (if_neg (by decide : ¬ (2000000 : ℕ) = 1)).symm
    | ⟨1, _⟩ => exact (if_pos rfl).symm

/-- The seven numbers of each sample with a trailing unit axis. -/
theorem out_apply (x : S2000000x7.Idx → α) (h : S2000000x7.BroadcastsInDim S2000000x7x1 (![0, 1] : Fin 2 → Fin S2000000x7x1.rank))
    (b : Fin 2000000) (k : Fin 7) (u : Fin 1) : broadcastInDim S2000000x7x1 ![0, 1] h x (ix3 b k u) = x (ix2 b k) :=
  broadcastInDim_apply _ h x (ix3 b k u) (ix2 b k) fun a => by
    match a with
    | ⟨0, _⟩ => exact (if_neg (by decide : ¬ (2000000 : ℕ) = 1)).symm
    | ⟨1, _⟩ => exact (if_neg (by decide : ¬ (7 : ℕ) = 1)).symm

/-- The first column of a four-column matrix, as a vector over the samples. -/
theorem col0_apply (x : S2000000x4.Idx → α) (hs : S2000000x4.Slices ![0, 0] S2000000x1) (hc : S2000000x1.ShapeCasts S2000000)
    (b : Fin 2000000) : shapeCast S2000000 (extractStridedSlice S2000000x1 ![0, 0] x hs) hc (ix1 b) = x (ix2 b (0 : Fin 4)) := by
  refine (shapeCast_apply _ hc (ix1 b) (ix2 b (0 : Fin 1)) ?_).trans ?_
  · rw [Shape.rowMajor_val_two, Shape.rowMajor_val_one]
    show b.val * 1 + 0 = b.val
    omega
  · refine extractStridedSlice_apply _ x hs _ (ix2 b (0 : Fin 4)) fun a => ?_
    match a with
    | ⟨0, _⟩ => exact (Nat.zero_add _).symm
    | ⟨1, _⟩ => rfl

/-- The first three entries of each 4×4 matrix's last column, as a three-column matrix. -/
theorem lastcol_apply (Tm : S2000000x4x4.Idx → α) (hs : S2000000x4x4.Slices ![0, 0, 3] S2000000x3x1)
    (hc : S2000000x3x1.ShapeCasts S2000000x3) (b : Fin 2000000) (k : Fin 3) :
    shapeCast S2000000x3 (extractStridedSlice S2000000x3x1 ![0, 0, 3] Tm hs) hc (ix2 b k) = Tm (ix3 b k.castSucc (3 : Fin 4)) := by
  refine (shapeCast_apply _ hc (ix2 b k) (ix3 b k (0 : Fin 1)) ?_).trans ?_
  · rw [Shape.rowMajor_val_three, Shape.rowMajor_val_two]
    show (b.val * 3 + k.val) * 1 + 0 = b.val * 3 + k.val
    omega
  · refine extractStridedSlice_apply _ Tm hs _ (ix3 b k.castSucc (3 : Fin 4)) fun a => ?_
    match a with
    | ⟨0, _⟩ => exact (Nat.zero_add _).symm
    | ⟨1, _⟩ => exact (Nat.zero_add _).symm
    | ⟨2, _⟩ => rfl

/-- Four one-column matrices side by side: column k is the k-th of them. -/
theorem cat4_apply (x0 x1 x2 x3 : S2000000x1.Idx → α)
    (h : Shape.Concatenates [S2000000x1, S2000000x1, S2000000x1, S2000000x1] S2000000x4 1) (b : Fin 2000000) (k : Fin 4) :
    concatenate S2000000x4 1 [⟨S2000000x1, x0⟩, ⟨S2000000x1, x1⟩, ⟨S2000000x1, x2⟩, ⟨S2000000x1, x3⟩] h (ix2 b k)
      = (![x0, x1, x2, x3] k) (ix2 b (0 : Fin 1)) := by
  have key : ∀ (n : Nat) (hn : n < 4) (x : S2000000x1.Idx → α),
      [(⟨S2000000x1, x0⟩ : (s : Shape) × (s.Idx → α)), ⟨S2000000x1, x1⟩, ⟨S2000000x1, x2⟩, ⟨S2000000x1, x3⟩][n]'hn = ⟨S2000000x1, x⟩ →
      k.val = n →
      concatenate S2000000x4 1 [⟨S2000000x1, x0⟩, ⟨S2000000x1, x1⟩, ⟨S2000000x1, x2⟩, ⟨S2000000x1, x3⟩] h (ix2 b k)
        = x (ix2 b (0 : Fin 1)) := by
    intro n hn x hx hk
    refine concatenate_apply_piece (t := S2000000x4) (1 : Fin 2)
      [⟨S2000000x1, x0⟩, ⟨S2000000x1, x1⟩, ⟨S2000000x1, x2⟩, ⟨S2000000x1, x3⟩] h (ix2 b k) n hn S2000000x1 x hx rfl n ?_
      (ix2 b (0 : Fin 1)) ?_ ?_
    · match n, hn with
      | 0, _ => rfl
      | 1, _ => rfl
      | 2, _ => rfl
      | 3, _ => rfl
    · intro c hc
      match c with
      | ⟨0, _⟩ => rfl
      | ⟨1, _⟩ => exact absurd rfl hc
    · show n + 0 = k.val
      omega
  match k with
  | ⟨0, _⟩ => exact key 0 (by decide) x0 rfl rfl
  | ⟨1, _⟩ => exact key 1 (by decide) x1 rfl rfl
  | ⟨2, _⟩ => exact key 2 (by decide) x2 rfl rfl
  | ⟨3, _⟩ => exact key 3 (by decide) x3 rfl rfl

/-- A three-column matrix beside a four-column one: the first three columns are the first matrix's … -/
theorem cat34_left (x : S2000000x3.Idx → α) (y : S2000000x4.Idx → α)
    (h : Shape.Concatenates [S2000000x3, S2000000x4] S2000000x7 1) (b : Fin 2000000) (k : Fin 7) (k' : Fin 3) (hk : k.val = k'.val) :
    concatenate S2000000x7 1 [⟨S2000000x3, x⟩, ⟨S2000000x4, y⟩] h (ix2 b k) = x (ix2 b k') := by
  refine concatenate_apply_piece (t := S2000000x7) (1 : Fin 2) [⟨S2000000x3, x⟩, ⟨S2000000x4, y⟩] h (ix2 b k) 0 (by show (0 : ℕ) < 2; decide)
    S2000000x3 x rfl rfl 0 rfl (ix2 b k') ?_ ?_
  · intro c hc
    match c with
    | ⟨0, _⟩ => rfl
    | ⟨1, _⟩ => exact absurd rfl hc
  · show 0 + k'.val = k.val
    omega

/-- … and the last four the second's. -/
theorem cat34_right (x : S2000000x3.Idx → α) (y : S2000000x4.Idx → α)
    (h : Shape.Concatenates [S2000000x3, S2000000x4] S2000000x7 1) (b : Fin 2000000) (k : Fin 7) (k' : Fin 4) (hk : k.val = 3 + k'.val) :
    concatenate S2000000x7 1 [⟨S2000000x3, x⟩, ⟨S2000000x4, y⟩] h (ix2 b k) = y (ix2 b k') := by
  refine concatenate_apply_piece (t := S2000000x7) (1 : Fin 2) [⟨S2000000x3, x⟩, ⟨S2000000x4, y⟩] h (ix2 b k) 1 (by show (1 : ℕ) < 2; decide)
    S2000000x4 y rfl rfl 3 rfl (ix2 b k') ?_ ?_
  · intro c hc
    match c with
    | ⟨0, _⟩ => rfl
    | ⟨1, _⟩ => exact absurd rfl hc
  · show 3 + k'.val = k.val
    omega

end Cert.RefTail

end
-- ==== Proof.RefTailFn.lean ====
/-
  The second half of the reference, as one function of the 4×4 products.

  After the batched product T of the two homogeneous matrices the reference reads nine entries of T's upper-left 3×3
  block m as vectors over the samples, forms three comparisons (m₂₂ < 0, m₀₀ > m₁₁, m₀₀ < -m₁₁) and from them three
  one-bit conditions, the four traces 1 ± m₀₀ ± m₁₁ ± m₂₂, four candidate quaternions (each a four-column matrix built
  from a trace and sums or differences of opposite entries), selects a trace and a quaternion by the conditions, scales
  the quaternion by 1/2 over the square root of the trace, flips its sign where its first component is negative, and
  puts it after the first three entries of T's last column. Below, each of these arrays is named as a function of T in
  the program's own spelling, and read at a sample b (and a column k) as the scalar formula of the specification over
  the entries m i j = T[b, i, j].
-/
import proofs.«161387_j47622597378731_2_alg».proof.ReferenceIdeal
import proofs.«161387_j47622597378731_2_alg».proof.Proof.Spec
import proofs.«161387_j47622597378731_2_alg».proof.Proof.RefTailLayout

noncomputable section

namespace Cert.RefTail

open Idealize.ShloMosaic Idealize.ShloMosaic.ValueIdx Cert.ReferenceIdeal Cert.Spec

variable [Facts]
open Facts₀ Facts

/-! ## The arrays, in the program's spelling -/

/-- A scalar constant spread over the samples. -/
def splat (w : BitVec 32) : FVec Ideal S2000000 .f32 :=
  broadcastInDim S2000000 ![] bcast_S_S2000000 (constant (F := Ideal) S_ .f32 w)

/-- Entry (oi, oj) of every matrix. -/
def ent (Tm : FVec Ideal S2000000x4x4 .f32) (oi oj : Nat) (hs : S2000000x4x4.Slices ![0, oi, oj] S2000000x1x1) :
    FVec Ideal S2000000 .f32 :=
  shapeCast S2000000 (extractStridedSlice S2000000x1x1 ![0, oi, oj] Tm hs) shapeCasts_S2000000x1x1_S2000000

/-- A vector over the samples as one column. -/
def col {α : Type} (x : S2000000.Idx → α) : S2000000x1.Idx → α :=
  broadcastInDim S2000000x1 ![0] bcast_S2000000_S2000000x1_0 x

/-- Four columns side by side. -/
def cat4 {α : Type} (x0 x1 x2 x3 : S2000000x1.Idx → α) : S2000000x4.Idx → α :=
  concatenate S2000000x4 1 [⟨S2000000x1, x0⟩, ⟨S2000000x1, x1⟩, ⟨S2000000x1, x2⟩, ⟨S2000000x1, x3⟩]
    concatenates_S2000000x1_S2000000x1_S2000000x1_S2000000x1_S2000000x4_d1

/-- A choice between two four-column matrices, row by row, by a one-column condition. -/
def where4 (c : IVec S2000000x1 1) (a b : FVec Ideal S2000000x4 .f32) : FVec Ideal S2000000x4 .f32 :=
  select (broadcastInDim S2000000x4 ![0, 1] bcast_S2000000x1_S2000000x4_0_1 c) a b

variable (Tm : FVec Ideal S2000000x4x4 .f32)

def m00 : FVec Ideal S2000000 .f32 := ent Tm 0 0 slices_S2000000x4x4_S2000000x1x1_0_0_0
def m01 : FVec Ideal S2000000 .f32 := ent Tm 0 1 slices_S2000000x4x4_S2000000x1x1_0_0_1
def m02 : FVec Ideal S2000000 .f32 := ent Tm 0 2 slices_S2000000x4x4_S2000000x1x1_0_0_2
def m10 : FVec Ideal S2000000 .f32 := ent Tm 1 0 slices_S2000000x4x4_S2000000x1x1_0_1_0
def m11 : FVec Ideal S2000000 .f32 := ent Tm 1 1 slices_S2000000x4x4_S2000000x1x1_0_1_1
def m12 : FVec Ideal S2000000 .f32 := ent Tm 1 2 slices_S2000000x4x4_S2000000x1x1_0_1_2
def m20 : FVec Ideal S2000000 .f32 := ent Tm 2 0 slices_S2000000x4x4_S2000000x1x1_0_2_0
def m21 : FVec Ideal S2000000 .f32 := ent Tm 2 1 slices_S2000000x4x4_S2000000x1x1_0_2_1
def m22 : FVec Ideal S2000000 .f32 := ent Tm 2 2 slices_S2000000x4x4_S2000000x1x1_0_2_2

/-- m₂₂ < 0. -/
def cm22 : IVec S2000000 1 := cmpf (F := Ideal) .olt (m22 Tm) (splat 0x00000000#32)
/-- m₀₀ > m₁₁. -/
def c0g1 : IVec S2000000 1 := cmpf (F := Ideal) .ogt (m00 Tm) (m11 Tm)
/-- m₀₀ < -m₁₁. -/
def c0ln1 : IVec S2000000 1 := cmpf (F := Ideal) .olt (m00 Tm) (Host.negf (F := Ideal) (m11 Tm))
/-- The three conditions. -/
def s1 : IVec S2000000 1 := andi (cm22 Tm) (c0g1 Tm)
def s2 : IVec S2000000 1 := andi (cm22 Tm) (noti (c0g1 Tm))
def s3 : IVec S2000000 1 := andi (noti (cm22 Tm)) (c0ln1 Tm)

/-- The four traces. -/
def tr1 : FVec Ideal S2000000 .f32 := subf (subf (addf (splat 0x3F800000#32) (m00 Tm)) (m11 Tm)) (m22 Tm)
def tr2 : FVec Ideal S2000000 .f32 := subf (addf (subf (splat 0x3F800000#32) (m00 Tm)) (m11 Tm)) (m22 Tm)
def tr3 : FVec Ideal S2000000 .f32 := addf (subf (subf (splat 0x3F800000#32) (m00 Tm)) (m11 Tm)) (m22 Tm)
def tr4 : FVec Ideal S2000000 .f32 := addf (addf (addf (splat 0x3F800000#32) (m00 Tm)) (m11 Tm)) (m22 Tm)

/-- The six sums and differences of opposite entries. -/
def qa : FVec Ideal S2000000 .f32 := subf (m21 Tm) (m12 Tm)
def qb : FVec Ideal S2000000 .f32 := addf (m01 Tm) (m10 Tm)
def qc : FVec Ideal S2000000 .f32 := addf (m20 Tm) (m02 Tm)
def qd : FVec Ideal S2000000 .f32 := subf (m02 Tm) (m20 Tm)
def qe : FVec Ideal S2000000 .f32 := addf (m12 Tm) (m21 Tm)
def qf : FVec Ideal S2000000 .f32 := subf (m10 Tm) (m01 Tm)

/-- The four candidate quaternions. -/
def qv1 : FVec Ideal S2000000x4 .f32 := cat4 (col (qa Tm)) (col (tr1 Tm)) (col (qb Tm)) (col (qc Tm))
def qv2 : FVec Ideal S2000000x4 .f32 := cat4 (col (qd Tm)) (col (qb Tm)) (col (tr2 Tm)) (col (qe Tm))
def qv3 : FVec Ideal S2000000x4 .f32 := cat4 (col (qf Tm)) (col (qc Tm)) (col (qe Tm)) (col (tr3 Tm))
def qv4 : FVec Ideal S2000000x4 .f32 := cat4 (col (tr4 Tm)) (col (qa Tm)) (col (qd Tm)) (col (qf Tm))

/-- The chosen trace. -/
def tsel : FVec Ideal S2000000 .f32 :=
  select (s1 Tm) (tr1 Tm) (select (s2 Tm) (tr2 Tm) (select (s3 Tm) (tr3 Tm) (tr4 Tm)))
/-- The chosen quaternion, not yet scaled. -/
def qsel : FVec Ideal S2000000x4 .f32 :=
  where4 (col (s1 Tm)) (qv1 Tm) (where4 (col (s2 Tm)) (qv2 Tm) (where4 (col (s3 Tm)) (qv3 Tm) (qv4 Tm)))
/-- 1/2 over the square root of the chosen trace. -/
def scl : FVec Ideal S2000000 .f32 := Host.divf (F := Ideal) (splat 0x3F000000#32) (Host.sqrt (F := Ideal) (tsel Tm))
/-- The scaled quaternion. -/
def qs : FVec Ideal S2000000x4 .f32 :=
  mulf (qsel Tm) (broadcastInDim S2000000x4 ![0, 1] bcast_S2000000x1_S2000000x4_0_1 (col (scl Tm)))
/-- Its first component is negative. -/
def qneg : IVec S2000000 1 :=
  cmpf (F := Ideal) .olt
    (shapeCast S2000000 (extractStridedSlice S2000000x1 ![0, 0] (qs Tm) slices_S2000000x4_S2000000x1_0_0)
      shapeCasts_S2000000x1_S2000000)
    (splat 0x00000000#32)
/-- The quaternion with its sign fixed. -/
def qfix : FVec Ideal S2000000x4 .f32 := where4 (col (qneg Tm)) (Host.negf (F := Ideal) (qs Tm)) (qs Tm)
/-- The first three entries of the last column. -/
def trn : FVec Ideal S2000000x3 .f32 :=
  shapeCast S2000000x3 (extractStridedSlice S2000000x3x1 ![0, 0, 3] Tm slices_S2000000x4x4_S2000000x3x1_0_0_3)
    shapeCasts_S2000000x3x1_S2000000x3
/-- The result: translation, then quaternion, with a trailing unit axis. -/
def tailFn : FVec Ideal S2000000x7x1 .f32 :=
  broadcastInDim S2000000x7x1 ![0, 1] bcast_S2000000x7_S2000000x7x1_0_1
    (concatenate S2000000x7 1 [⟨S2000000x3, trn Tm⟩, ⟨S2000000x4, qfix Tm⟩] concatenates_S2000000x3_S2000000x4_S2000000x7_d1)

/-! ## Read at a sample -/

variable (b : Fin 2000000)

/-- Sample b's matrix. -/
abbrev mat : Fin 4 → Fin 4 → E := fun i j => Tm (ix3 b i j)
/-- Its upper-left 3×3 block. -/
abbrev blk : Fin 3 → Fin 3 → E := fun i j => Tm (ix3 b i.castSucc j.castSucc)

theorem splat_at (w : BitVec 32) : splat w (ix1 b) = Ideal.ofBits .f32 w := splat_apply w bcast_S_S2000000 b

theorem m00_at : m00 Tm (ix1 b) = blk Tm b 0 0 :=
  entry_apply 0 0 Tm slices_S2000000x4x4_S2000000x1x1_0_0_0 shapeCasts_S2000000x1x1_S2000000 b 0 0 rfl rfl
theorem m01_at : m01 Tm (ix1 b) = blk Tm b 0 1 :=
  entry_apply 0 1 Tm slices_S2000000x4x4_S2000000x1x1_0_0_1 shapeCasts_S2000000x1x1_S2000000 b 0 1 rfl rfl
theorem m02_at : m02 Tm (ix1 b) = blk Tm b 0 2 :=
  entry_apply 0 2 Tm slices_S2000000x4x4_S2000000x1x1_0_0_2 shapeCasts_S2000000x1x1_S2000000 b 0 2 rfl rfl
theorem m10_at : m10 Tm (ix1 b) = blk Tm b 1 0 :=
  entry_apply 1 0 Tm slices_S2000000x4x4_S2000000x1x1_0_1_0 shapeCasts_S2000000x1x1_S2000000 b 1 0 rfl rfl
theorem m11_at : m11 Tm (ix1 b) = blk Tm b 1 1 :=
  entry_apply 1 1 Tm slices_S2000000x4x4_S2000000x1x1_0_1_1 shapeCasts_S2000000x1x1_S2000000 b 1 1 rfl rfl
theorem m12_at : m12 Tm (ix1 b) = blk Tm b 1 2 :=
  entry_apply 1 2 Tm slices_S2000000x4x4_S2000000x1x1_0_1_2 shapeCasts_S2000000x1x1_S2000000 b 1 2 rfl rfl
theorem m20_at : m20 Tm (ix1 b) = blk Tm b 2 0 :=
  entry_apply 2 0 Tm slices_S2000000x4x4_S2000000x1x1_0_2_0 shapeCasts_S2000000x1x1_S2000000 b 2 0 rfl rfl
theorem m21_at : m21 Tm (ix1 b) = blk Tm b 2 1 :=
  entry_apply 2 1 Tm slices_S2000000x4x4_S2000000x1x1_0_2_1 shapeCasts_S2000000x1x1_S2000000 b 2 1 rfl rfl
theorem m22_at : m22 Tm (ix1 b) = blk Tm b 2 2 :=
  entry_apply 2 2 Tm slices_S2000000x4x4_S2000000x1x1_0_2_2 shapeCasts_S2000000x1x1_S2000000 b 2 2 rfl rfl

/-! ### The comparisons and the conditions -/

theorem cm22_at : cm22 Tm (ix1 b) = Ideal.cmp .olt (blk Tm b 2 2) c0 := by
  show Ideal.cmp .olt (m22 Tm (ix1 b)) (splat 0x00000000#32 (ix1 b)) = _
  rw [m22_at, splat_at]; rfl
theorem c0g1_at : c0g1 Tm (ix1 b) = Ideal.cmp .ogt (blk Tm b 0 0) (blk Tm b 1 1) := by
  show Ideal.cmp .ogt (m00 Tm (ix1 b)) (m11 Tm (ix1 b)) = _
  rw [m00_at, m11_at]
theorem c0ln1_at : c0ln1 Tm (ix1 b) = Ideal.cmp .olt (blk Tm b 0 0) (-(blk Tm b 1 1)) := by
  show Ideal.cmp .olt (m00 Tm (ix1 b)) (-(m11 Tm (ix1 b))) = _
  rw [m00_at, m11_at]

/-- The first condition at sample b, as the specification spells it. -/
abbrev S1 (m : Fin 3 → Fin 3 → E) : BitVec 1 := IntOp.andi (Ideal.cmp .olt (m 2 2) c0) (Ideal.cmp .ogt (m 0 0) (m 1 1))
/-- The second. -/
abbrev S2 (m : Fin 3 → Fin 3 → E) : BitVec 1 := IntOp.andi (Ideal.cmp .olt (m 2 2) c0) (~~~(Ideal.cmp .ogt (m 0 0) (m 1 1)))
/-- The third. -/
abbrev S3 (m : Fin 3 → Fin 3 → E) : BitVec 1 := IntOp.andi (~~~(Ideal.cmp .olt (m 2 2) c0)) (Ideal.cmp .olt (m 0 0) (-(m 1 1)))

theorem s1_at : s1 Tm (ix1 b) = S1 (blk Tm b) := by
  show IntOp.andi (cm22 Tm (ix1 b)) (c0g1 Tm (ix1 b)) = _
  rw [cm22_at, c0g1_at]
theorem s2_at : s2 Tm (ix1 b) = S2 (blk Tm b) := by
  show IntOp.andi (cm22 Tm (ix1 b)) (~~~(c0g1 Tm (ix1 b))) = _
  rw [cm22_at, c0g1_at]
theorem s3_at : s3 Tm (ix1 b) = S3 (blk Tm b) := by
  show IntOp.andi (~~~(cm22 Tm (ix1 b))) (c0ln1 Tm (ix1 b)) = _
  rw [cm22_at, c0ln1_at]

/-! ### The traces and the sums and differences of opposite entries -/

theorem tr1_at : tr1 Tm (ix1 b) = t1 (blk Tm b) := by
  show ((splat 0x3F800000#32 (ix1 b) + m00 Tm (ix1 b)) - m11 Tm (ix1 b)) - m22 Tm (ix1 b) = _
  rw [splat_at, m00_at, m11_at, m22_at]; rfl
theorem tr2_at : tr2 Tm (ix1 b) = t2 (blk Tm b) := by
  show ((splat 0x3F800000#32 (ix1 b) - m00 Tm (ix1 b)) + m11 Tm (ix1 b)) - m22 Tm (ix1 b) = _
  rw [splat_at, m00_at, m11_at, m22_at]; rfl
theorem tr3_at : tr3 Tm (ix1 b) = t3 (blk Tm b) := by
  show ((splat 0x3F800000#32 (ix1 b) - m00 Tm (ix1 b)) - m11 Tm (ix1 b)) + m22 Tm (ix1 b) = _
  rw [splat_at, m00_at, m11_at, m22_at]; rfl
theorem tr4_at : tr4 Tm (ix1 b) = t4 (blk Tm b) := by
  show ((splat 0x3F800000#32 (ix1 b) + m00 Tm (ix1 b)) + m11 Tm (ix1 b)) + m22 Tm (ix1 b) = _
  rw [splat_at, m00_at, m11_at, m22_at]; rfl

theorem qa_at : qa Tm (ix1 b) = blk Tm b 2 1 - blk Tm b 1 2 := by
  show m21 Tm (ix1 b) - m12 Tm (ix1 b) = _
  rw [m21_at, m12_at]
theorem qb_at : qb Tm (ix1 b) = blk Tm b 0 1 + blk Tm b 1 0 := by
  show m01 Tm (ix1 b) + m10 Tm (ix1 b) = _
  rw [m01_at, m10_at]
theorem qc_at : qc Tm (ix1 b) = blk Tm b 2 0 + blk Tm b 0 2 := by
  show m20 Tm (ix1 b) + m02 Tm (ix1 b) = _
  rw [m20_at, m02_at]
theorem qd_at : qd Tm (ix1 b) = blk Tm b 0 2 - blk Tm b 2 0 := by
  show m02 Tm (ix1 b) - m20 Tm (ix1 b) = _
  rw [m02_at, m20_at]
theorem qe_at : qe Tm (ix1 b) = blk Tm b 1 2 + blk Tm b 2 1 := by
  show m12 Tm (ix1 b) + m21 Tm (ix1 b) = _
  rw [m12_at, m21_at]
theorem qf_at : qf Tm (ix1 b) = blk Tm b 1 0 - blk Tm b 0 1 := by
  show m10 Tm (ix1 b) - m01 Tm (ix1 b) = _
  rw [m10_at, m01_at]

/-! ### Columns, four columns side by side, and the row-by-row choice -/

theorem col_at {α : Type} (x : S2000000.Idx → α) (u : Fin 1) : col x (ix2 b u) = x (ix1 b) :=
  col_apply x bcast_S2000000_S2000000x1_0 b u

theorem cat4col_at (x0 x1 x2 x3 : FVec Ideal S2000000 .f32) (k : Fin 4) :
    cat4 (col x0) (col x1) (col x2) (col x3) (ix2 b k) = ![x0 (ix1 b), x1 (ix1 b), x2 (ix1 b), x3 (ix1 b)] k := by
  refine (cat4_apply (col x0) (col x1) (col x2) (col x3)
    concatenates_S2000000x1_S2000000x1_S2000000x1_S2000000x1_S2000000x4_d1 b k).trans ?_
  match k with
  | ⟨0, _⟩ => exact col_at b x0 0
  | ⟨1, _⟩ => exact col_at b x1 0
  | ⟨2, _⟩ => exact col_at b x2 0
  | ⟨3, _⟩ => exact col_at b x3 0

theorem where4col_at (c : IVec S2000000 1) (x y : FVec Ideal S2000000x4 .f32) (k : Fin 4) :
    where4 (col c) x y (ix2 b k) = sel (c (ix1 b)) (x (ix2 b k)) (y (ix2 b k)) := by
  show Scalar.select (broadcastInDim S2000000x4 ![0, 1] bcast_S2000000x1_S2000000x4_0_1 (col c) (ix2 b k)) (x (ix2 b k)) (y (ix2 b k)) = _
  rw [row4_apply, col_at]

/-! ### The candidates, the choice, the scale and the sign -/

theorem qv1_at (k : Fin 4) :
    qv1 Tm (ix2 b k) = ![blk Tm b 2 1 - blk Tm b 1 2, t1 (blk Tm b), blk Tm b 0 1 + blk Tm b 1 0, blk Tm b 2 0 + blk Tm b 0 2] k := by
  refine (cat4col_at b (qa Tm) (tr1 Tm) (qb Tm) (qc Tm) k).trans ?_
  rw [qa_at, tr1_at, qb_at, qc_at]
theorem qv2_at (k : Fin 4) :
    qv2 Tm (ix2 b k) = ![blk Tm b 0 2 - blk Tm b 2 0, blk Tm b 0 1 + blk Tm b 1 0, t2 (blk Tm b), blk Tm b 1 2 + blk Tm b 2 1] k := by
  refine (cat4col_at b (qd Tm) (qb Tm) (tr2 Tm) (qe Tm) k).trans ?_
  rw [qd_at, qb_at, tr2_at, qe_at]
theorem qv3_at (k : Fin 4) :
    qv3 Tm (ix2 b k) = ![blk Tm b 1 0 - blk Tm b 0 1, blk Tm b 2 0 + blk Tm b 0 2, blk Tm b 1 2 + blk Tm b 2 1, t3 (blk Tm b)] k := by
  refine (cat4col_at b (qf Tm) (qc Tm) (qe Tm) (tr3 Tm) k).trans ?_
  rw [qf_at, qc_at, qe_at, tr3_at]
theorem qv4_at (k : Fin 4) :
    qv4 Tm (ix2 b k) = ![t4 (blk Tm b), blk Tm b 2 1 - blk Tm b 1 2, blk Tm b 0 2 - blk Tm b 2 0, blk Tm b 1 0 - blk Tm b 0 1] k := by
  refine (cat4col_at b (tr4 Tm) (qa Tm) (qd Tm) (qf Tm) k).trans ?_
  rw [tr4_at, qa_at, qd_at, qf_at]

/-- The chosen trace of a 3×3 matrix. -/
abbrev Tsel (m : Fin 3 → Fin 3 → E) : E := sel (S1 m) (t1 m) (sel (S2 m) (t2 m) (sel (S3 m) (t3 m) (t4 m)))
/-- Component k of the chosen quaternion, not yet scaled. -/
abbrev Qsel (m : Fin 3 → Fin 3 → E) (k : Fin 4) : E :=
  sel (S1 m) (![m 2 1 - m 1 2, t1 m, m 0 1 + m 1 0, m 2 0 + m 0 2] k)
    (sel (S2 m) (![m 0 2 - m 2 0, m 0 1 + m 1 0, t2 m, m 1 2 + m 2 1] k)
      (sel (S3 m) (![m 1 0 - m 0 1, m 2 0 + m 0 2, m 1 2 + m 2 1, t3 m] k)
        (![t4 m, m 2 1 - m 1 2, m 0 2 - m 2 0, m 1 0 - m 0 1] k)))
/-- The scale. -/
abbrev Scl (m : Fin 3 → Fin 3 → E) : E := Ideal.div chalf (Ideal.sqrt (Tsel m))

theorem tsel_at : tsel Tm (ix1 b) = Tsel (blk Tm b) := by
  show sel (s1 Tm (ix1 b)) (tr1 Tm (ix1 b)) (sel (s2 Tm (ix1 b)) (tr2 Tm (ix1 b)) (sel (s3 Tm (ix1 b)) (tr3 Tm (ix1 b)) (tr4 Tm (ix1 b)))) = _
  rw [s1_at, s2_at, s3_at, tr1_at, tr2_at, tr3_at, tr4_at]

theorem qsel_at (k : Fin 4) : qsel Tm (ix2 b k) = Qsel (blk Tm b) k := by
  unfold qsel
  rw [where4col_at, where4col_at, where4col_at, s1_at, s2_at, s3_at, qv1_at, qv2_at, qv3_at, qv4_at]

theorem scl_at : scl Tm (ix1 b) = Scl (blk Tm b) := by
  show Ideal.div (splat 0x3F000000#32 (ix1 b)) (Ideal.sqrt (tsel Tm (ix1 b))) = _
  rw [splat_at, tsel_at]; rfl

theorem qs_at (k : Fin 4) : qs Tm (ix2 b k) = Qsel (blk Tm b) k * Scl (blk Tm b) := by
  show qsel Tm (ix2 b k) * broadcastInDim S2000000x4 ![0, 1] bcast_S2000000x1_S2000000x4_0_1 (col (scl Tm)) (ix2 b k) = _
  rw [row4_apply, col_at, qsel_at, scl_at]

theorem qneg_at : qneg Tm (ix1 b) = Ideal.cmp .olt (Qsel (blk Tm b) 0 * Scl (blk Tm b)) c0 := by
  show Ideal.cmp .olt
    (shapeCast S2000000 (extractStridedSlice S2000000x1 ![0, 0] (qs Tm) slices_S2000000x4_S2000000x1_0_0)
      shapeCasts_S2000000x1_S2000000 (ix1 b)) (splat 0x00000000#32 (ix1 b)) = _
  rw [col0_apply, splat_at, qs_at]; rfl

theorem qfix_at (k : Fin 4) :
    qfix Tm (ix2 b k) = sel (Ideal.cmp .olt (Qsel (blk Tm b) 0 * Scl (blk Tm b)) c0)
      (-(Qsel (blk Tm b) k * Scl (blk Tm b))) (Qsel (blk Tm b) k * Scl (blk Tm b)) := by
  unfold qfix
  rw [where4col_at, qneg_at]
  show sel _ (-(qs Tm (ix2 b k))) (qs Tm (ix2 b k)) = _
  rw [qs_at]

/-- The quaternion of the specification, component by component, is this. -/
theorem rQuat_eq (m : Fin 3 → Fin 3 → E) (k : Fin 4) :
    rQuat m k = sel (Ideal.cmp .olt (Qsel m 0 * Scl m) c0) (-(Qsel m k * Scl m)) (Qsel m k * Scl m) := by
  match k with
  | ⟨0, _⟩ => rfl
  | ⟨1, _⟩ => rfl
  | ⟨2, _⟩ => rfl
  | ⟨3, _⟩ => rfl

theorem trn_at (k : Fin 3) : trn Tm (ix2 b k) = mat Tm b k.castSucc 3 :=
  lastcol_apply Tm slices_S2000000x4x4_S2000000x3x1_0_0_3 shapeCasts_S2000000x3x1_S2000000x3 b k

/-! ## The result at a sample -/

/-- Entry (b, k, 0) of the result is the k-th of the seven numbers the specification reads off sample b's matrix. -/
theorem tailFn_apply (k : Fin 7) : tailFn Tm (ix3 b k 0) = rFinish (mat Tm b) k := by
  unfold tailFn
  rw [out_apply]
  have hq : ∀ (k : Fin 7) (k' : Fin 4), k.val = 3 + k'.val →
      concatenate S2000000x7 1 [⟨S2000000x3, trn Tm⟩, ⟨S2000000x4, qfix Tm⟩] concatenates_S2000000x3_S2000000x4_S2000000x7_d1 (ix2 b k)
        = rQuat (blk Tm b) k' := fun k k' hk => by
    rw [cat34_right (trn Tm) (qfix Tm) _ b k k' hk, qfix_at, rQuat_eq]
  have ht : ∀ (k : Fin 7) (k' : Fin 3), k.val = k'.val →
      concatenate S2000000x7 1 [⟨S2000000x3, trn Tm⟩, ⟨S2000000x4, qfix Tm⟩] concatenates_S2000000x3_S2000000x4_S2000000x7_d1 (ix2 b k)
        = mat Tm b k'.castSucc 3 := fun k k' hk => by
    rw [cat34_left (trn Tm) (qfix Tm) _ b k k' hk, trn_at]
  match k with
  | ⟨0, _⟩ => exact ht _ 0 rfl
  | ⟨1, _⟩ => exact ht _ 1 rfl
  | ⟨2, _⟩ => exact ht _ 2 rfl
  | ⟨3, _⟩ => exact hq _ 0 rfl
  | ⟨4, _⟩ => exact hq _ 1 rfl
  | ⟨5, _⟩ => exact hq _ 2 rfl
  | ⟨6, _⟩ => exact hq _ 3 rfl

end Cert.RefTail

end
-- ==== Proof.RefTailLinkA.lean ====
/-
  Which function of the batched 4×4 products T each buffer of the reference's second half holds when the run has ended:
  the entries the three comparisons and the four traces read, the comparisons, the three conditions and the traces.
  One row per buffer, in the program's order: the operation that wrote it is read at its position in the operation list (each
  buffer is written once and read only later, so it holds its operation's function of what the operands hold at the end),
  the operands' rows are substituted, and what remains is the definition of the named array.
-/
import proofs.«161387_j47622597378731_2_alg».proof.Proof.RefRead
import proofs.«161387_j47622597378731_2_alg».proof.Proof.RefTailFn

noncomputable section

namespace Cert.RefTail

open Idealize.ShloMosaic Idealize.ShloMosaic.ValueIdx Idealize.ShloMosaic.StableHlo Cert.ReferenceIdeal Cert.ReferenceIdeal.Gen
open Cert.ReferenceIdeal.Hand Cert.Spec

variable (V : Valuation τ sig (Elt Ideal))

/-- The batched 4×4 products, as the reference leaves them when it has run from the contents V. -/
abbrev T : FVec Ideal S2000000x4x4 .f32 := after (ops (F := Ideal)) V (Proc.devRef .tc main_v161)

set_option maxRecDepth 8192 in
theorem e_v162 : after (ops (F := Ideal)) V (Proc.devRef .tc main_v162) = extractStridedSlice S2000000x1x1 ![0, 2, 2] (T V) slices_S2000000x4x4_S2000000x1x1_0_2_2 :=
  (rd_unary 191 rfl (by decide) (by decide) V).trans rfl
set_option maxRecDepth 8192 in
theorem e_v163 : after (ops (F := Ideal)) V (Proc.devRef .tc main_v163) = m22 (T V) :=
  (rd_reshape 192 rfl (by decide) (by decide) V).trans (by rw [e_v162 V] <;> rfl)
set_option maxRecDepth 8192 in
theorem e_cst_19 : after (ops (F := Ideal)) V (Proc.devRef .tc main_cst_19) = constant (F := Ideal) S_ .f32 0x00000000#32 :=
  (rd_nullary 193 rfl (by decide) V).trans rfl
set_option maxRecDepth 8192 in
theorem e_v164 : after (ops (F := Ideal)) V (Proc.devRef .tc main_v164) = splat 0x00000000#32 :=
  (rd_unary 194 rfl (by decide) (by decide) V).trans (by rw [e_cst_19 V] <;> rfl)
set_option maxRecDepth 8192 in
theorem e_v165 : after (ops (F := Ideal)) V (Proc.devRef .tc main_v165) = cm22 (T V) :=
  (rd_binary 195 rfl (by decide) (by decide) (by decide) V).trans (by rw [e_v163 V, e_v164 V] <;> rfl)
set_option maxRecDepth 8192 in
theorem e_v166 : after (ops (F := Ideal)) V (Proc.devRef .tc main_v166) = extractStridedSlice S2000000x1x1 ![0, 0, 0] (T V) slices_S2000000x4x4_S2000000x1x1_0_0_0 :=
  (rd_unary 196 rfl (by decide) (by decide) V).trans rfl
set_option maxRecDepth 8192 in
theorem e_v167 : after (ops (F := Ideal)) V (Proc.devRef .tc main_v167) = m00 (T V) :=
  (rd_reshape 197 rfl (by decide) (by decide) V).trans (by rw [e_v166 V] <;> rfl)
set_option maxRecDepth 8192 in
theorem e_v168 : after (ops (F := Ideal)) V (Proc.devRef .tc main_v168) = extractStridedSlice S2000000x1x1 ![0, 1, 1] (T V) slices_S2000000x4x4_S2000000x1x1_0_1_1 :=
  (rd_unary 198 rfl (by decide) (by decide) V).trans rfl
set_option maxRecDepth 8192 in
theorem e_v169 : after (ops (F := Ideal)) V (Proc.devRef .tc main_v169) = m11 (T V) :=
  (rd_reshape 199 rfl (by decide) (by decide) V).trans (by rw [e_v168 V] <;> rfl)
set_option maxRecDepth 8192 in
theorem e_v170 : after (ops (F := Ideal)) V (Proc.devRef .tc main_v170) = c0g1 (T V) :=
  (rd_binary 200 rfl (by decide) (by decide) (by decide) V).trans (by rw [e_v167 V, e_v169 V] <;> rfl)
set_option maxRecDepth 8192 in
theorem e_v171 : after (ops (F := Ideal)) V (Proc.devRef .tc main_v171) = extractStridedSlice S2000000x1x1 ![0, 0, 0] (T V) slices_S2000000x4x4_S2000000x1x1_0_0_0 :=
  (rd_unary 201 rfl (by decide) (by decide) V).trans rfl
set_option maxRecDepth 8192 in
theorem e_v172 : after (ops (F := Ideal)) V (Proc.devRef .tc main_v172) = m00 (T V) :=
  (rd_reshape 202 rfl (by decide) (by decide) V).trans (by rw [e_v171 V] <;> rfl)
set_option maxRecDepth 8192 in
theorem e_v173 : after (ops (F := Ideal)) V (Proc.devRef .tc main_v173) = extractStridedSlice S2000000x1x1 ![0, 1, 1] (T V) slices_S2000000x4x4_S2000000x1x1_0_1_1 :=
  (rd_unary 203 rfl (by decide) (by decide) V).trans rfl
set_option maxRecDepth 8192 in
theorem e_v174 : after (ops (F := Ideal)) V (Proc.devRef .tc main_v174) = m11 (T V) :=
  (rd_reshape 204 rfl (by decide) (by decide) V).trans (by rw [e_v173 V] <;> rfl)
set_option maxRecDepth 8192 in
theorem e_v175 : after (ops (F := Ideal)) V (Proc.devRef .tc main_v175) = Host.negf (F := Ideal) (m11 (T V)) :=
  (rd_unary 205 rfl (by decide) (by decide) V).trans (by rw [e_v174 V] <;> rfl)
set_option maxRecDepth 8192 in
theorem e_v176 : after (ops (F := Ideal)) V (Proc.devRef .tc main_v176) = c0ln1 (T V) :=
  (rd_binary 206 rfl (by decide) (by decide) (by decide) V).trans (by rw [e_v172 V, e_v175 V] <;> rfl)
set_option maxRecDepth 8192 in
theorem e_v177 : after (ops (F := Ideal)) V (Proc.devRef .tc main_v177) = s1 (T V) :=
  (rd_binary 207 rfl (by decide) (by decide) (by decide) V).trans (by rw [e_v165 V, e_v170 V] <;> rfl)
set_option maxRecDepth 8192 in
theorem e_v178 : after (ops (F := Ideal)) V (Proc.devRef .tc main_v178) = noti (c0g1 (T V)) :=
  (rd_unary 208 rfl (by decide) (by decide) V).trans (by rw [e_v170 V] <;> rfl)
set_option maxRecDepth 8192 in
theorem e_v179 : after (ops (F := Ideal)) V (Proc.devRef .tc main_v179) = s2 (T V) :=
  (rd_binary 209 rfl (by decide) (by decide) (by decide) V).trans (by rw [e_v165 V, e_v178 V] <;> rfl)
set_option maxRecDepth 8192 in
theorem e_v180 : after (ops (F := Ideal)) V (Proc.devRef .tc main_v180) = noti (cm22 (T V)) :=
  (rd_unary 210 rfl (by decide) (by decide) V).trans (by rw [e_v165 V] <;> rfl)
set_option maxRecDepth 8192 in
theorem e_v181 : after (ops (F := Ideal)) V (Proc.devRef .tc main_v181) = s3 (T V) :=
  (rd_binary 211 rfl (by decide) (by decide) (by decide) V).trans (by rw [e_v180 V, e_v176 V] <;> rfl)
set_option maxRecDepth 8192 in
theorem e_v182 : after (ops (F := Ideal)) V (Proc.devRef .tc main_v182) = extractStridedSlice S2000000x1x1 ![0, 0, 0] (T V) slices_S2000000x4x4_S2000000x1x1_0_0_0 :=
  (rd_unary 212 rfl (by decide) (by decide) V).trans rfl
set_option maxRecDepth 8192 in
theorem e_v183 : after (ops (F := Ideal)) V (Proc.devRef .tc main_v183) = m00 (T V) :=
  (rd_reshape 213 rfl (by decide) (by decide) V).trans (by rw [e_v182 V] <;> rfl)
set_option maxRecDepth 8192 in
theorem e_cst_20 : after (ops (F := Ideal)) V (Proc.devRef .tc main_cst_20) = constant (F := Ideal) S_ .f32 0x3F800000#32 :=
  (rd_nullary 214 rfl (by decide) V).trans rfl
set_option maxRecDepth 8192 in
theorem e_v184 : after (ops (F := Ideal)) V (Proc.devRef .tc main_v184) = splat 0x3F800000#32 :=
  (rd_unary 215 rfl (by decide) (by decide) V).trans (by rw [e_cst_20 V] <;> rfl)
set_option maxRecDepth 8192 in
theorem e_v185 : after (ops (F := Ideal)) V (Proc.devRef .tc main_v185) = addf (splat 0x3F800000#32) (m00 (T V)) :=
  (rd_binary 216 rfl (by decide) (by decide) (by decide) V).trans (by rw [e_v184 V, e_v183 V] <;> rfl)
set_option maxRecDepth 8192 in
theorem e_v186 : after (ops (F := Ideal)) V (Proc.devRef .tc main_v186) = extractStridedSlice S2000000x1x1 ![0, 1, 1] (T V) slices_S2000000x4x4_S2000000x1x1_0_1_1 :=
  (rd_unary 217 rfl (by decide) (by decide) V).trans rfl
set_option maxRecDepth 8192 in
theorem e_v187 : after (ops (F := Ideal)) V (Proc.devRef .tc main_v187) = m11 (T V) :=
  (rd_reshape 218 rfl (by decide) (by decide) V).trans (by rw [e_v186 V] <;> rfl)
set_option maxRecDepth 8192 in
theorem e_v188 : after (ops (F := Ideal)) V (Proc.devRef .tc main_v188) = subf (addf (splat 0x3F800000#32) (m00 (T V))) (m11 (T V)) :=
  (rd_binary 219 rfl (by decide) (by decide) (by decide) V).trans (by rw [e_v185 V, e_v187 V] <;> rfl)
set_option maxRecDepth 8192 in
theorem e_v189 : after (ops (F := Ideal)) V (Proc.devRef .tc main_v189) = extractStridedSlice S2000000x1x1 ![0, 2, 2] (T V) slices_S2000000x4x4_S2000000x1x1_0_2_2 :=
  (rd_unary 220 rfl (by decide) (by decide) V).trans rfl
set_option maxRecDepth 8192 in
theorem e_v190 : after (ops (F := Ideal)) V (Proc.devRef .tc main_v190) = m22 (T V) :=
  (rd_reshape 221 rfl (by decide) (by decide) V).trans (by rw [e_v189 V] <;> rfl)
set_option maxRecDepth 8192 in
theorem e_v191 : after (ops (F := Ideal)) V (Proc.devRef .tc main_v191) = tr1 (T V) :=
  (rd_binary 222 rfl (by decide) (by decide) (by decide) V).trans (by rw [e_v188 V, e_v190 V] <;> rfl)
set_option maxRecDepth 8192 in
theorem e_v192 : after (ops (F := Ideal)) V (Proc.devRef .tc main_v192) = extractStridedSlice S2000000x1x1 ![0, 0, 0] (T V) slices_S2000000x4x4_S2000000x1x1_0_0_0 :=
  (rd_unary 223 rfl (by decide) (by decide) V).trans rfl
set_option maxRecDepth 8192 in
theorem e_v193 : after (ops (F := Ideal)) V (Proc.devRef .tc main_v193) = m00 (T V) :=
  (rd_reshape 224 rfl (by decide) (by decide) V).trans (by rw [e_v192 V] <;> rfl)
set_option maxRecDepth 8192 in
theorem e_cst_21 : after (ops (F := Ideal)) V (Proc.devRef .tc main_cst_21) = constant (F := Ideal) S_ .f32 0x3F800000#32 :=
  (rd_nullary 225 rfl (by decide) V).trans rfl
set_option maxRecDepth 8192 in
theorem e_v194 : after (ops (F := Ideal)) V (Proc.devRef .tc main_v194) = splat 0x3F800000#32 :=
  (rd_unary 226 rfl (by decide) (by decide) V).trans (by rw [e_cst_21 V] <;> rfl)
set_option maxRecDepth 8192 in
theorem e_v195 : after (ops (F := Ideal)) V (Proc.devRef .tc main_v195) = subf (splat 0x3F800000#32) (m00 (T V)) :=
  (rd_binary 227 rfl (by decide) (by decide) (by decide) V).trans (by rw [e_v194 V, e_v193 V] <;> rfl)
set_option maxRecDepth 8192 in
theorem e_v196 : after (ops (F := Ideal)) V (Proc.devRef .tc main_v196) = extractStridedSlice S2000000x1x1 ![0, 1, 1] (T V) slices_S2000000x4x4_S2000000x1x1_0_1_1 :=
  (rd_unary 228 rfl (by decide) (by decide) V).trans rfl
set_option maxRecDepth 8192 in
theorem e_v197 : after (ops (F := Ideal)) V (Proc.devRef .tc main_v197) = m11 (T V) :=
  (rd_reshape 229 rfl (by decide) (by decide) V).trans (by rw [e_v196 V] <;> rfl)
set_option maxRecDepth 8192 in
theorem e_v198 : after (ops (F := Ideal)) V (Proc.devRef .tc main_v198) = addf (subf (splat 0x3F800000#32) (m00 (T V))) (m11 (T V)) :=
  (rd_binary 230 rfl (by decide) (by decide) (by decide) V).trans (by rw [e_v195 V, e_v197 V] <;> rfl)
set_option maxRecDepth 8192 in
theorem e_v199 : after (ops (F := Ideal)) V (Proc.devRef .tc main_v199) = extractStridedSlice S2000000x1x1 ![0, 2, 2] (T V) slices_S2000000x4x4_S2000000x1x1_0_2_2 :=
  (rd_unary 231 rfl (by decide) (by decide) V).trans rfl
set_option maxRecDepth 8192 in
theorem e_v200 : after (ops (F := Ideal)) V (Proc.devRef .tc main_v200) = m22 (T V) :=
  (rd_reshape 232 rfl (by decide) (by decide) V).trans (by rw [e_v199 V] <;> rfl)
set_option maxRecDepth 8192 in
theorem e_v201 : after (ops (F := Ideal)) V (Proc.devRef .tc main_v201) = tr2 (T V) :=
  (rd_binary 233 rfl (by decide) (by decide) (by decide) V).trans (by rw [e_v198 V, e_v200 V] <;> rfl)
set_option maxRecDepth 8192 in
theorem e_v202 : after (ops (F := Ideal)) V (Proc.devRef .tc main_v202) = extractStridedSlice S2000000x1x1 ![0, 0, 0] (T V) slices_S2000000x4x4_S2000000x1x1_0_0_0 :=
  (rd_unary 234 rfl (by decide) (by decide) V).trans rfl
set_option maxRecDepth 8192 in
theorem e_v203 : after (ops (F := Ideal)) V (Proc.devRef .tc main_v203) = m00 (T V) :=
  (rd_reshape 235 rfl (by decide) (by decide) V).trans (by rw [e_v202 V] <;> rfl)
set_option maxRecDepth 8192 in
theorem e_cst_22 : after (ops (F := Ideal)) V (Proc.devRef .tc main_cst_22) = constant (F := Ideal) S_ .f32 0x3F800000#32 :=
  (rd_nullary 236 rfl (by decide) V).trans rfl
set_option maxRecDepth 8192 in
theorem e_v204 : after (ops (F := Ideal)) V (Proc.devRef .tc main_v204) = splat 0x3F800000#32 :=
  (rd_unary 237 rfl (by decide) (by decide) V).trans (by rw [e_cst_22 V] <;> rfl)
set_option maxRecDepth 8192 in
theorem e_v205 : after (ops (F := Ideal)) V (Proc.devRef .tc main_v205) = subf (splat 0x3F800000#32) (m00 (T V)) :=
  (rd_binary 238 rfl (by decide) (by decide) (by decide) V).trans (by rw [e_v204 V, e_v203 V] <;> rfl)
set_option maxRecDepth 8192 in
theorem e_v206 : after (ops (F := Ideal)) V (Proc.devRef .tc main_v206) = extractStridedSlice S2000000x1x1 ![0, 1, 1] (T V) slices_S2000000x4x4_S2000000x1x1_0_1_1 :=
  (rd_unary 239 rfl (by decide) (by decide) V).trans rfl
set_option maxRecDepth 8192 in
theorem e_v207 : after (ops (F := Ideal)) V (Proc.devRef .tc main_v207) = m11 (T V) :=
  (rd_reshape 240 rfl (by decide) (by decide) V).trans (by rw [e_v206 V] <;> rfl)
set_option maxRecDepth 8192 in
theorem e_v208 : after (ops (F := Ideal)) V (Proc.devRef .tc main_v208) = subf (subf (splat 0x3F800000#32) (m00 (T V))) (m11 (T V)) :=
  (rd_binary 241 rfl (by decide) (by decide) (by decide) V).trans (by rw [e_v205 V, e_v207 V] <;> rfl)
set_option maxRecDepth 8192 in
theorem e_v209 : after (ops (F := Ideal)) V (Proc.devRef .tc main_v209) = extractStridedSlice S2000000x1x1 ![0, 2, 2] (T V) slices_S2000000x4x4_S2000000x1x1_0_2_2 :=
  (rd_unary 242 rfl (by decide) (by decide) V).trans rfl
set_option maxRecDepth 8192 in
theorem e_v210 : after (ops (F := Ideal)) V (Proc.devRef .tc main_v210) = m22 (T V) :=
  (rd_reshape 243 rfl (by decide) (by decide) V).trans (by rw [e_v209 V] <;> rfl)
set_option maxRecDepth 8192 in
theorem e_v211 : after (ops (F := Ideal)) V (Proc.devRef .tc main_v211) = tr3 (T V) :=
  (rd_binary 244 rfl (by decide) (by decide) (by decide) V).trans (by rw [e_v208 V, e_v210 V] <;> rfl)
set_option maxRecDepth 8192 in
theorem e_v212 : after (ops (F := Ideal)) V (Proc.devRef .tc main_v212) = extractStridedSlice S2000000x1x1 ![0, 0, 0] (T V) slices_S2000000x4x4_S2000000x1x1_0_0_0 :=
  (rd_unary 245 rfl (by decide) (by decide) V).trans rfl
set_option maxRecDepth 8192 in
theorem e_v213 : after (ops (F := Ideal)) V (Proc.devRef .tc main_v213) = m00 (T V) :=
  (rd_reshape 246 rfl (by decide) (by decide) V).trans (by rw [e_v212 V] <;> rfl)
set_option maxRecDepth 8192 in
theorem e_cst_23 : after (ops (F := Ideal)) V (Proc.devRef .tc main_cst_23) = constant (F := Ideal) S_ .f32 0x3F800000#32 :=
  (rd_nullary 247 rfl (by decide) V).trans rfl
set_option maxRecDepth 8192 in
theorem e_v214 : after (ops (F := Ideal)) V (Proc.devRef .tc main_v214) = splat 0x3F800000#32 :=
  (rd_unary 248 rfl (by decide) (by decide) V).trans (by rw [e_cst_23 V] <;> rfl)
set_option maxRecDepth 8192 in
theorem e_v215 : after (ops (F := Ideal)) V (Proc.devRef .tc main_v215) = addf (splat 0x3F800000#32) (m00 (T V)) :=
  (rd_binary 249 rfl (by decide) (by decide) (by decide) V).trans (by rw [e_v214 V, e_v213 V] <;> rfl)
set_option maxRecDepth 8192 in
theorem e_v216 : after (ops (F := Ideal)) V (Proc.devRef .tc main_v216) = extractStridedSlice S2000000x1x1 ![0, 1, 1] (T V) slices_S2000000x4x4_S2000000x1x1_0_1_1 :=
  (rd_unary 250 rfl (by decide) (by decide) V).trans rfl
set_option maxRecDepth 8192 in
theorem e_v217 : after (ops (F := Ideal)) V (Proc.devRef .tc main_v217) = m11 (T V) :=
  (rd_reshape 251 rfl (by decide) (by decide) V).trans (by rw [e_v216 V] <;> rfl)
set_option maxRecDepth 8192 in
theorem e_v218 : after (ops (F := Ideal)) V (Proc.devRef .tc main_v218) = addf (addf (splat 0x3F800000#32) (m00 (T V))) (m11 (T V)) :=
  (rd_binary 252 rfl (by decide) (by decide) (by decide) V).trans (by rw [e_v215 V, e_v217 V] <;> rfl)
set_option maxRecDepth 8192 in
theorem e_v219 : after (ops (F := Ideal)) V (Proc.devRef .tc main_v219) = extractStridedSlice S2000000x1x1 ![0, 2, 2] (T V) slices_S2000000x4x4_S2000000x1x1_0_2_2 :=
  (rd_unary 253 rfl (by decide) (by decide) V).trans rfl
set_option maxRecDepth 8192 in
theorem e_v220 : after (ops (F := Ideal)) V (Proc.devRef .tc main_v220) = m22 (T V) :=
  (rd_reshape 254 rfl (by decide) (by decide) V).trans (by rw [e_v219 V] <;> rfl)
set_option maxRecDepth 8192 in
theorem e_v221 : after (ops (F := Ideal)) V (Proc.devRef .tc main_v221) = tr4 (T V) :=
  (rd_binary 255 rfl (by decide) (by decide) (by decide) V).trans (by rw [e_v218 V, e_v220 V] <;> rfl)

end Cert.RefTail

end
-- ==== Proof.RefTailLinkB.lean ====
/-
  Which function of the batched 4×4 products T each buffer of the reference's second half holds when the run has ended:
  the entries the sums and differences of opposite entries read, those sums and differences as columns, and the four
  candidate quaternions.
  One row per buffer, in the program's order: the operation that wrote it is read at its position in the operation list (each
  buffer is written once and read only later, so it holds its operation's function of what the operands hold at the end),
  the operands' rows are substituted, and what remains is the definition of the named array.
-/
import proofs.«161387_j47622597378731_2_alg».proof.Proof.RefTailLinkA

noncomputable section

namespace Cert.RefTail

open Idealize.ShloMosaic Idealize.ShloMosaic.ValueIdx Idealize.ShloMosaic.StableHlo Cert.ReferenceIdeal Cert.ReferenceIdeal.Gen
open Cert.ReferenceIdeal.Hand Cert.Spec

variable (V : Valuation τ sig (Elt Ideal))

set_option maxRecDepth 8192 in
theorem e_v222 : after (ops (F := Ideal)) V (Proc.devRef .tc main_v222) = extractStridedSlice S2000000x1x1 ![0, 2, 1] (T V) slices_S2000000x4x4_S2000000x1x1_0_2_1 :=
  (rd_unary 256 rfl (by decide) (by decide) V).trans rfl
set_option maxRecDepth 8192 in
theorem e_v223 : after (ops (F := Ideal)) V (Proc.devRef .tc main_v223) = m21 (T V) :=
  (rd_reshape 257 rfl (by decide) (by decide) V).trans (by rw [e_v222 V] <;> rfl)
set_option maxRecDepth 8192 in
theorem e_v224 : after (ops (F := Ideal)) V (Proc.devRef .tc main_v224) = extractStridedSlice S2000000x1x1 ![0, 1, 2] (T V) slices_S2000000x4x4_S2000000x1x1_0_1_2 :=
  (rd_unary 258 rfl (by decide) (by decide) V).trans rfl
set_option maxRecDepth 8192 in
theorem e_v225 : after (ops (F := Ideal)) V (Proc.devRef .tc main_v225) = m12 (T V) :=
  (rd_reshape 259 rfl (by decide) (by decide) V).trans (by rw [e_v224 V] <;> rfl)
set_option maxRecDepth 8192 in
theorem e_v226 : after (ops (F := Ideal)) V (Proc.devRef .tc main_v226) = qa (T V) :=
  (rd_binary 260 rfl (by decide) (by decide) (by decide) V).trans (by rw [e_v223 V, e_v225 V] <;> rfl)
set_option maxRecDepth 8192 in
theorem e_v227 : after (ops (F := Ideal)) V (Proc.devRef .tc main_v227) = extractStridedSlice S2000000x1x1 ![0, 0, 1] (T V) slices_S2000000x4x4_S2000000x1x1_0_0_1 :=
  (rd_unary 261 rfl (by decide) (by decide) V).trans rfl
set_option maxRecDepth 8192 in
theorem e_v228 : after (ops (F := Ideal)) V (Proc.devRef .tc main_v228) = m01 (T V) :=
  (rd_reshape 262 rfl (by decide) (by decide) V).trans (by rw [e_v227 V] <;> rfl)
set_option maxRecDepth 8192 in
theorem e_v229 : after (ops (F := Ideal)) V (Proc.devRef .tc main_v229) = extractStridedSlice S2000000x1x1 ![0, 1, 0] (T V) slices_S2000000x4x4_S2000000x1x1_0_1_0 :=
  (rd_unary 263 rfl (by decide) (by decide) V).trans rfl
set_option maxRecDepth 8192 in
theorem e_v230 : after (ops (F := Ideal)) V (Proc.devRef .tc main_v230) = m10 (T V) :=
  (rd_reshape 264 rfl (by decide) (by decide) V).trans (by rw [e_v229 V] <;> rfl)
set_option maxRecDepth 8192 in
theorem e_v231 : after (ops (F := Ideal)) V (Proc.devRef .tc main_v231) = qb (T V) :=
  (rd_binary 265 rfl (by decide) (by decide) (by decide) V).trans (by rw [e_v228 V, e_v230 V] <;> rfl)
set_option maxRecDepth 8192 in
theorem e_v232 : after (ops (F := Ideal)) V (Proc.devRef .tc main_v232) = extractStridedSlice S2000000x1x1 ![0, 2, 0] (T V) slices_S2000000x4x4_S2000000x1x1_0_2_0 :=
  (rd_unary 266 rfl (by decide) (by decide) V).trans rfl
set_option maxRecDepth 8192 in
theorem e_v233 : after (ops (F := Ideal)) V (Proc.devRef .tc main_v233) = m20 (T V) :=
  (rd_reshape 267 rfl (by decide) (by decide) V).trans (by rw [e_v232 V] <;> rfl)
set_option maxRecDepth 8192 in
theorem e_v234 : after (ops (F := Ideal)) V (Proc.devRef .tc main_v234) = extractStridedSlice S2000000x1x1 ![0, 0, 2] (T V) slices_S2000000x4x4_S2000000x1x1_0_0_2 :=
  (rd_unary 268 rfl (by decide) (by decide) V).trans rfl
set_option maxRecDepth 8192 in
theorem e_v235 : after (ops (F := Ideal)) V (Proc.devRef .tc main_v235) = m02 (T V) :=
  (rd_reshape 269 rfl (by decide) (by decide) V).trans (by rw [e_v234 V] <;> rfl)
set_option maxRecDepth 8192 in
theorem e_v236 : after (ops (F := Ideal)) V (Proc.devRef .tc main_v236) = qc (T V) :=
  (rd_binary 270 rfl (by decide) (by decide) (by decide) V).trans (by rw [e_v233 V, e_v235 V] <;> rfl)
set_option maxRecDepth 8192 in
theorem e_v237 : after (ops (F := Ideal)) V (Proc.devRef .tc main_v237) = col (qa (T V)) :=
  (rd_unary 271 rfl (by decide) (by decide) V).trans (by rw [e_v226 V] <;> rfl)
set_option maxRecDepth 8192 in
theorem e_v238 : after (ops (F := Ideal)) V (Proc.devRef .tc main_v238) = col (tr1 (T V)) :=
  (rd_unary 272 rfl (by decide) (by decide) V).trans (by rw [e_v191 V] <;> rfl)
set_option maxRecDepth 8192 in
theorem e_v239 : after (ops (F := Ideal)) V (Proc.devRef .tc main_v239) = col (qb (T V)) :=
  (rd_unary 273 rfl (by decide) (by decide) V).trans (by rw [e_v231 V] <;> rfl)
set_option maxRecDepth 8192 in
theorem e_v240 : after (ops (F := Ideal)) V (Proc.devRef .tc main_v240) = col (qc (T V)) :=
  (rd_unary 274 rfl (by decide) (by decide) V).trans (by rw [e_v236 V] <;> rfl)
set_option maxRecDepth 8192 in
theorem e_v241 : after (ops (F := Ideal)) V (Proc.devRef .tc main_v241) = qv1 (T V) :=
  (rd_nary 275 rfl (by decide) (by decide) V).trans (show concatenate S2000000x4 1 [⟨S2000000x1, after (ops (F := Ideal)) V (Proc.devRef .tc main_v237)⟩, ⟨S2000000x1, after (ops (F := Ideal)) V (Proc.devRef .tc main_v238)⟩, ⟨S2000000x1, after (ops (F := Ideal)) V (Proc.devRef .tc main_v239)⟩, ⟨S2000000x1, after (ops (F := Ideal)) V (Proc.devRef .tc main_v240)⟩]
      concatenates_S2000000x1_S2000000x1_S2000000x1_S2000000x1_S2000000x4_d1 = _ from by
      rw [e_v237 V, e_v238 V, e_v239 V, e_v240 V] <;> rfl)
set_option maxRecDepth 8192 in
theorem e_v242 : after (ops (F := Ideal)) V (Proc.devRef .tc main_v242) = extractStridedSlice S2000000x1x1 ![0, 0, 2] (T V) slices_S2000000x4x4_S2000000x1x1_0_0_2 :=
  (rd_unary 276 rfl (by decide) (by decide) V).trans rfl
set_option maxRecDepth 8192 in
theorem e_v243 : after (ops (F := Ideal)) V (Proc.devRef .tc main_v243) = m02 (T V) :=
  (rd_reshape 277 rfl (by decide) (by decide) V).trans (by rw [e_v242 V] <;> rfl)
set_option maxRecDepth 8192 in
theorem e_v244 : after (ops (F := Ideal)) V (Proc.devRef .tc main_v244) = extractStridedSlice S2000000x1x1 ![0, 2, 0] (T V) slices_S2000000x4x4_S2000000x1x1_0_2_0 :=
  (rd_unary 278 rfl (by decide) (by decide) V).trans rfl
set_option maxRecDepth 8192 in
theorem e_v245 : after (ops (F := Ideal)) V (Proc.devRef .tc main_v245) = m20 (T V) :=
  (rd_reshape 279 rfl (by decide) (by decide) V).trans (by rw [e_v244 V] <;> rfl)
set_option maxRecDepth 8192 in
theorem e_v246 : after (ops (F := Ideal)) V (Proc.devRef .tc main_v246) = qd (T V) :=
  (rd_binary 280 rfl (by decide) (by decide) (by decide) V).trans (by rw [e_v243 V, e_v245 V] <;> rfl)
set_option maxRecDepth 8192 in
theorem e_v247 : after (ops (F := Ideal)) V (Proc.devRef .tc main_v247) = extractStridedSlice S2000000x1x1 ![0, 0, 1] (T V) slices_S2000000x4x4_S2000000x1x1_0_0_1 :=
  (rd_unary 281 rfl (by decide) (by decide) V).trans rfl
set_option maxRecDepth 8192 in
theorem e_v248 : after (ops (F := Ideal)) V (Proc.devRef .tc main_v248) = m01 (T V) :=
  (rd_reshape 282 rfl (by decide) (by decide) V).trans (by rw [e_v247 V] <;> rfl)
set_option maxRecDepth 8192 in
theorem e_v249 : after (ops (F := Ideal)) V (Proc.devRef .tc main_v249) = extractStridedSlice S2000000x1x1 ![0, 1, 0] (T V) slices_S2000000x4x4_S2000000x1x1_0_1_0 :=
  (rd_unary 283 rfl (by decide) (by decide) V).trans rfl
set_option maxRecDepth 8192 in
theorem e_v250 : after (ops (F := Ideal)) V (Proc.devRef .tc main_v250) = m10 (T V) :=
  (rd_reshape 284 rfl (by decide) (by decide) V).trans (by rw [e_v249 V] <;> rfl)
set_option maxRecDepth 8192 in
theorem e_v251 : after (ops (F := Ideal)) V (Proc.devRef .tc main_v251) = qb (T V) :=
  (rd_binary 285 rfl (by decide) (by decide) (by decide) V).trans (by rw [e_v248 V, e_v250 V] <;> rfl)
set_option maxRecDepth 8192 in
theorem e_v252 : after (ops (F := Ideal)) V (Proc.devRef .tc main_v252) = extractStridedSlice S2000000x1x1 ![0, 1, 2] (T V) slices_S2000000x4x4_S2000000x1x1_0_1_2 :=
  (rd_unary 286 rfl (by decide) (by decide) V).trans rfl
set_option maxRecDepth 8192 in
theorem e_v253 : after (ops (F := Ideal)) V (Proc.devRef .tc main_v253) = m12 (T V) :=
  (rd_reshape 287 rfl (by decide) (by decide) V).trans (by rw [e_v252 V] <;> rfl)
set_option maxRecDepth 8192 in
theorem e_v254 : after (ops (F := Ideal)) V (Proc.devRef .tc main_v254) = extractStridedSlice S2000000x1x1 ![0, 2, 1] (T V) slices_S2000000x4x4_S2000000x1x1_0_2_1 :=
  (rd_unary 288 rfl (by decide) (by decide) V).trans rfl
set_option maxRecDepth 8192 in
theorem e_v255 : after (ops (F := Ideal)) V (Proc.devRef .tc main_v255) = m21 (T V) :=
  (rd_reshape 289 rfl (by decide) (by decide) V).trans (by rw [e_v254 V] <;> rfl)
set_option maxRecDepth 8192 in
theorem e_v256 : after (ops (F := Ideal)) V (Proc.devRef .tc main_v256) = qe (T V) :=
  (rd_binary 290 rfl (by decide) (by decide) (by decide) V).trans (by rw [e_v253 V, e_v255 V] <;> rfl)
set_option maxRecDepth 8192 in
theorem e_v257 : after (ops (F := Ideal)) V (Proc.devRef .tc main_v257) = col (qd (T V)) :=
  (rd_unary 291 rfl (by decide) (by decide) V).trans (by rw [e_v246 V] <;> rfl)
set_option maxRecDepth 8192 in
theorem e_v258 : after (ops (F := Ideal)) V (Proc.devRef .tc main_v258) = col (qb (T V)) :=
  (rd_unary 292 rfl (by decide) (by decide) V).trans (by rw [e_v251 V] <;> rfl)
set_option maxRecDepth 8192 in
theorem e_v259 : after (ops (F := Ideal)) V (Proc.devRef .tc main_v259) = col (tr2 (T V)) :=
  (rd_unary 293 rfl (by decide) (by decide) V).trans (by rw [e_v201 V] <;> rfl)
set_option maxRecDepth 8192 in
theorem e_v260 : after (ops (F := Ideal)) V (Proc.devRef .tc main_v260) = col (qe (T V)) :=
  (rd_unary 294 rfl (by decide) (by decide) V).trans (by rw [e_v256 V] <;> rfl)
set_option maxRecDepth 8192 in
theorem e_v261 : after (ops (F := Ideal)) V (Proc.devRef .tc main_v261) = qv2 (T V) :=
  (rd_nary 295 rfl (by decide) (by decide) V).trans (show concatenate S2000000x4 1 [⟨S2000000x1, after (ops (F := Ideal)) V (Proc.devRef .tc main_v257)⟩, ⟨S2000000x1, after (ops (F := Ideal)) V (Proc.devRef .tc main_v258)⟩, ⟨S2000000x1, after (ops (F := Ideal)) V (Proc.devRef .tc main_v259)⟩, ⟨S2000000x1, after (ops (F := Ideal)) V (Proc.devRef .tc main_v260)⟩]
      concatenates_S2000000x1_S2000000x1_S2000000x1_S2000000x1_S2000000x4_d1 = _ from by
      rw [e_v257 V, e_v258 V, e_v259 V, e_v260 V] <;> rfl)
set_option maxRecDepth 8192 in
theorem e_v262 : after (ops (F := Ideal)) V (Proc.devRef .tc main_v262) = extractStridedSlice S2000000x1x1 ![0, 1, 0] (T V) slices_S2000000x4x4_S2000000x1x1_0_1_0 :=
  (rd_unary 296 rfl (by decide) (by decide) V).trans rfl
set_option maxRecDepth 8192 in
theorem e_v263 : after (ops (F := Ideal)) V (Proc.devRef .tc main_v263) = m10 (T V) :=
  (rd_reshape 297 rfl (by decide) (by decide) V).trans (by rw [e_v262 V] <;> rfl)
set_option maxRecDepth 8192 in
theorem e_v264 : after (ops (F := Ideal)) V (Proc.devRef .tc main_v264) = extractStridedSlice S2000000x1x1 ![0, 0, 1] (T V) slices_S2000000x4x4_S2000000x1x1_0_0_1 :=
  (rd_unary 298 rfl (by decide) (by decide) V).trans rfl
set_option maxRecDepth 8192 in
theorem e_v265 : after (ops (F := Ideal)) V (Proc.devRef .tc main_v265) = m01 (T V) :=
  (rd_reshape 299 rfl (by decide) (by decide) V).trans (by rw [e_v264 V] <;> rfl)
set_option maxRecDepth 8192 in
theorem e_v266 : after (ops (F := Ideal)) V (Proc.devRef .tc main_v266) = qf (T V) :=
  (rd_binary 300 rfl (by decide) (by decide) (by decide) V).trans (by rw [e_v263 V, e_v265 V] <;> rfl)
set_option maxRecDepth 8192 in
theorem e_v267 : after (ops (F := Ideal)) V (Proc.devRef .tc main_v267) = extractStridedSlice S2000000x1x1 ![0, 2, 0] (T V) slices_S2000000x4x4_S2000000x1x1_0_2_0 :=
  (rd_unary 301 rfl (by decide) (by decide) V).trans rfl
set_option maxRecDepth 8192 in
theorem e_v268 : after (ops (F := Ideal)) V (Proc.devRef .tc main_v268) = m20 (T V) :=
  (rd_reshape 302 rfl (by decide) (by decide) V).trans (by rw [e_v267 V] <;> rfl)
set_option maxRecDepth 8192 in
theorem e_v269 : after (ops (F := Ideal)) V (Proc.devRef .tc main_v269) = extractStridedSlice S2000000x1x1 ![0, 0, 2] (T V) slices_S2000000x4x4_S2000000x1x1_0_0_2 :=
  (rd_unary 303 rfl (by decide) (by decide) V).trans rfl
set_option maxRecDepth 8192 in
theorem e_v270 : after (ops (F := Ideal)) V (Proc.devRef .tc main_v270) = m02 (T V) :=
  (rd_reshape 304 rfl (by decide) (by decide) V).trans (by rw [e_v269 V] <;> rfl)
set_option maxRecDepth 8192 in
theorem e_v271 : after (ops (F := Ideal)) V (Proc.devRef .tc main_v271) = qc (T V) :=
  (rd_binary 305 rfl (by decide) (by decide) (by decide) V).trans (by rw [e_v268 V, e_v270 V] <;> rfl)
set_option maxRecDepth 8192 in
theorem e_v272 : after (ops (F := Ideal)) V (Proc.devRef .tc main_v272) = extractStridedSlice S2000000x1x1 ![0, 1, 2] (T V) slices_S2000000x4x4_S2000000x1x1_0_1_2 :=
  (rd_unary 306 rfl (by decide) (by decide) V).trans rfl
set_option maxRecDepth 8192 in
theorem e_v273 : after (ops (F := Ideal)) V (Proc.devRef .tc main_v273) = m12 (T V) :=
  (rd_reshape 307 rfl (by decide) (by decide) V).trans (by rw [e_v272 V] <;> rfl)
set_option maxRecDepth 8192 in
theorem e_v274 : after (ops (F := Ideal)) V (Proc.devRef .tc main_v274) = extractStridedSlice S2000000x1x1 ![0, 2, 1] (T V) slices_S2000000x4x4_S2000000x1x1_0_2_1 :=
  (rd_unary 308 rfl (by decide) (by decide) V).trans rfl
set_option maxRecDepth 8192 in
theorem e_v275 : after (ops (F := Ideal)) V (Proc.devRef .tc main_v275) = m21 (T V) :=
  (rd_reshape 309 rfl (by decide) (by decide) V).trans (by rw [e_v274 V] <;> rfl)
set_option maxRecDepth 8192 in
theorem e_v276 : after (ops (F := Ideal)) V (Proc.devRef .tc main_v276) = qe (T V) :=
  (rd_binary 310 rfl (by decide) (by decide) (by decide) V).trans (by rw [e_v273 V, e_v275 V] <;> rfl)
set_option maxRecDepth 8192 in
theorem e_v277 : after (ops (F := Ideal)) V (Proc.devRef .tc main_v277) = col (qf (T V)) :=
  (rd_unary 311 rfl (by decide) (by decide) V).trans (by rw [e_v266 V] <;> rfl)
set_option maxRecDepth 8192 in
theorem e_v278 : after (ops (F := Ideal)) V (Proc.devRef .tc main_v278) = col (qc (T V)) :=
  (rd_unary 312 rfl (by decide) (by decide) V).trans (by rw [e_v271 V] <;> rfl)
set_option maxRecDepth 8192 in
theorem e_v279 : after (ops (F := Ideal)) V (Proc.devRef .tc main_v279) = col (qe (T V)) :=
  (rd_unary 313 rfl (by decide) (by decide) V).trans (by rw [e_v276 V] <;> rfl)
set_option maxRecDepth 8192 in
theorem e_v280 : after (ops (F := Ideal)) V (Proc.devRef .tc main_v280) = col (tr3 (T V)) :=
  (rd_unary 314 rfl (by decide) (by decide) V).trans (by rw [e_v211 V] <;> rfl)
set_option maxRecDepth 8192 in
theorem e_v281 : after (ops (F := Ideal)) V (Proc.devRef .tc main_v281) = qv3 (T V) :=
  (rd_nary 315 rfl (by decide) (by decide) V).trans (show concatenate S2000000x4 1 [⟨S2000000x1, after (ops (F := Ideal)) V (Proc.devRef .tc main_v277)⟩, ⟨S2000000x1, after (ops (F := Ideal)) V (Proc.devRef .tc main_v278)⟩, ⟨S2000000x1, after (ops (F := Ideal)) V (Proc.devRef .tc main_v279)⟩, ⟨S2000000x1, after (ops (F := Ideal)) V (Proc.devRef .tc main_v280)⟩]
      concatenates_S2000000x1_S2000000x1_S2000000x1_S2000000x1_S2000000x4_d1 = _ from by
      rw [e_v277 V, e_v278 V, e_v279 V, e_v280 V] <;> rfl)
set_option maxRecDepth 8192 in
theorem e_v282 : after (ops (F := Ideal)) V (Proc.devRef .tc main_v282) = extractStridedSlice S2000000x1x1 ![0, 2, 1] (T V) slices_S2000000x4x4_S2000000x1x1_0_2_1 :=
  (rd_unary 316 rfl (by decide) (by decide) V).trans rfl
set_option maxRecDepth 8192 in
theorem e_v283 : after (ops (F := Ideal)) V (Proc.devRef .tc main_v283) = m21 (T V) :=
  (rd_reshape 317 rfl (by decide) (by decide) V).trans (by rw [e_v282 V] <;> rfl)
set_option maxRecDepth 8192 in
theorem e_v284 : after (ops (F := Ideal)) V (Proc.devRef .tc main_v284) = extractStridedSlice S2000000x1x1 ![0, 1, 2] (T V) slices_S2000000x4x4_S2000000x1x1_0_1_2 :=
  (rd_unary 318 rfl (by decide) (by decide) V).trans rfl
set_option maxRecDepth 8192 in
theorem e_v285 : after (ops (F := Ideal)) V (Proc.devRef .tc main_v285) = m12 (T V) :=
  (rd_reshape 319 rfl (by decide) (by decide) V).trans (by rw [e_v284 V] <;> rfl)
set_option maxRecDepth 8192 in
theorem e_v286 : after (ops (F := Ideal)) V (Proc.devRef .tc main_v286) = qa (T V) :=
  (rd_binary 320 rfl (by decide) (by decide) (by decide) V).trans (by rw [e_v283 V, e_v285 V] <;> rfl)
set_option maxRecDepth 8192 in
theorem e_v287 : after (ops (F := Ideal)) V (Proc.devRef .tc main_v287) = extractStridedSlice S2000000x1x1 ![0, 0, 2] (T V) slices_S2000000x4x4_S2000000x1x1_0_0_2 :=
  (rd_unary 321 rfl (by decide) (by decide) V).trans rfl
set_option maxRecDepth 8192 in
theorem e_v288 : after (ops (F := Ideal)) V (Proc.devRef .tc main_v288) = m02 (T V) :=
  (rd_reshape 322 rfl (by decide) (by decide) V).trans (by rw [e_v287 V] <;> rfl)
set_option maxRecDepth 8192 in
theorem e_v289 : after (ops (F := Ideal)) V (Proc.devRef .tc main_v289) = extractStridedSlice S2000000x1x1 ![0, 2, 0] (T V) slices_S2000000x4x4_S2000000x1x1_0_2_0 :=
  (rd_unary 323 rfl (by decide) (by decide) V).trans rfl
set_option maxRecDepth 8192 in
theorem e_v290 : after (ops (F := Ideal)) V (Proc.devRef .tc main_v290) = m20 (T V) :=
  (rd_reshape 324 rfl (by decide) (by decide) V).trans (by rw [e_v289 V] <;> rfl)
set_option maxRecDepth 8192 in
theorem e_v291 : after (ops (F := Ideal)) V (Proc.devRef .tc main_v291) = qd (T V) :=
  (rd_binary 325 rfl (by decide) (by decide) (by decide) V).trans (by rw [e_v288 V, e_v290 V] <;> rfl)
set_option maxRecDepth 8192 in
theorem e_v292 : after (ops (F := Ideal)) V (Proc.devRef .tc main_v292) = extractStridedSlice S2000000x1x1 ![0, 1, 0] (T V) slices_S2000000x4x4_S2000000x1x1_0_1_0 :=
  (rd_unary 326 rfl (by decide) (by decide) V).trans rfl
set_option maxRecDepth 8192 in
theorem e_v293 : after (ops (F := Ideal)) V (Proc.devRef .tc main_v293) = m10 (T V) :=
  (rd_reshape 327 rfl (by decide) (by decide) V).trans (by rw [e_v292 V] <;> rfl)
set_option maxRecDepth 8192 in
theorem e_v294 : after (ops (F := Ideal)) V (Proc.devRef .tc main_v294) = extractStridedSlice S2000000x1x1 ![0, 0, 1] (T V) slices_S2000000x4x4_S2000000x1x1_0_0_1 :=
  (rd_unary 328 rfl (by decide) (by decide) V).trans rfl
set_option maxRecDepth 8192 in
theorem e_v295 : after (ops (F := Ideal)) V (Proc.devRef .tc main_v295) = m01 (T V) :=
  (rd_reshape 329 rfl (by decide) (by decide) V).trans (by rw [e_v294 V] <;> rfl)
set_option maxRecDepth 8192 in
theorem e_v296 : after (ops (F := Ideal)) V (Proc.devRef .tc main_v296) = qf (T V) :=
  (rd_binary 330 rfl (by decide) (by decide) (by decide) V).trans (by rw [e_v293 V, e_v295 V] <;> rfl)
set_option maxRecDepth 8192 in
theorem e_v297 : after (ops (F := Ideal)) V (Proc.devRef .tc main_v297) = col (tr4 (T V)) :=
  (rd_unary 331 rfl (by decide) (by decide) V).trans (by rw [e_v221 V] <;> rfl)
set_option maxRecDepth 8192 in
theorem e_v298 : after (ops (F := Ideal)) V (Proc.devRef .tc main_v298) = col (qa (T V)) :=
  (rd_unary 332 rfl (by decide) (by decide) V).trans (by rw [e_v286 V] <;> rfl)
set_option maxRecDepth 8192 in
theorem e_v299 : after (ops (F := Ideal)) V (Proc.devRef .tc main_v299) = col (qd (T V)) :=
  (rd_unary 333 rfl (by decide) (by decide) V).trans (by rw [e_v291 V] <;> rfl)
set_option maxRecDepth 8192 in
theorem e_v300 : after (ops (F := Ideal)) V (Proc.devRef .tc main_v300) = col (qf (T V)) :=
  (rd_unary 334 rfl (by decide) (by decide) V).trans (by rw [e_v296 V] <;> rfl)
set_option maxRecDepth 8192 in
theorem e_v301 : after (ops (F := Ideal)) V (Proc.devRef .tc main_v301) = qv4 (T V) :=
  (rd_nary 335 rfl (by decide) (by decide) V).trans (show concatenate S2000000x4 1 [⟨S2000000x1, after (ops (F := Ideal)) V (Proc.devRef .tc main_v297)⟩, ⟨S2000000x1, after (ops (F := Ideal)) V (Proc.devRef .tc main_v298)⟩, ⟨S2000000x1, after (ops (F := Ideal)) V (Proc.devRef .tc main_v299)⟩, ⟨S2000000x1, after (ops (F := Ideal)) V (Proc.devRef .tc main_v300)⟩]
      concatenates_S2000000x1_S2000000x1_S2000000x1_S2000000x1_S2000000x4_d1 = _ from by
      rw [e_v297 V, e_v298 V, e_v299 V, e_v300 V] <;> rfl)

end Cert.RefTail

end
-- ==== Proof.RefTailLinkC.lean ====
/-
  Which function of the batched 4×4 products T each buffer of the reference's second half holds when the run has ended:
  the chosen trace and quaternion, the scale, the scaled quaternion, its sign, and the seven numbers of the result.
  One row per buffer, in the program's order: the operation that wrote it is read at its position in the operation list (each
  buffer is written once and read only later, so it holds its operation's function of what the operands hold at the end),
  the operands' rows are substituted, and what remains is the definition of the named array.
-/
import proofs.«161387_j47622597378731_2_alg».proof.Proof.RefTailLinkB

noncomputable section

namespace Cert.RefTail

open Idealize.ShloMosaic Idealize.ShloMosaic.ValueIdx Idealize.ShloMosaic.StableHlo Cert.ReferenceIdeal Cert.ReferenceIdeal.Gen
open Cert.ReferenceIdeal.Hand Cert.Spec

variable (V : Valuation τ sig (Elt Ideal))

set_option maxRecDepth 8192 in
theorem e_v302 : after (ops (F := Ideal)) V (Proc.devRef .tc main_v302) = select (s3 (T V)) (tr3 (T V)) (tr4 (T V)) :=
  (rd_ternary 336 rfl (by decide) (by decide) (by decide) (by decide) V).trans (by rw [e_v181 V, e_v211 V, e_v221 V] <;> rfl)
set_option maxRecDepth 8192 in
theorem e_v303 : after (ops (F := Ideal)) V (Proc.devRef .tc main_v303) = select (s2 (T V)) (tr2 (T V)) (select (s3 (T V)) (tr3 (T V)) (tr4 (T V))) :=
  (rd_ternary 337 rfl (by decide) (by decide) (by decide) (by decide) V).trans (by rw [e_v179 V, e_v201 V, e_v302 V] <;> rfl)
set_option maxRecDepth 8192 in
theorem e_v304 : after (ops (F := Ideal)) V (Proc.devRef .tc main_v304) = tsel (T V) :=
  (rd_ternary 338 rfl (by decide) (by decide) (by decide) (by decide) V).trans (by rw [e_v177 V, e_v191 V, e_v303 V] <;> rfl)
set_option maxRecDepth 8192 in
theorem e_v305 : after (ops (F := Ideal)) V (Proc.devRef .tc main_v305) = col (s1 (T V)) :=
  (rd_unary 339 rfl (by decide) (by decide) V).trans (by rw [e_v177 V] <;> rfl)
set_option maxRecDepth 8192 in
theorem e_v306 : after (ops (F := Ideal)) V (Proc.devRef .tc main_v306) = col (s2 (T V)) :=
  (rd_unary 340 rfl (by decide) (by decide) V).trans (by rw [e_v179 V] <;> rfl)
set_option maxRecDepth 8192 in
theorem e_v307 : after (ops (F := Ideal)) V (Proc.devRef .tc main_v307) = col (s3 (T V)) :=
  (rd_unary 341 rfl (by decide) (by decide) V).trans (by rw [e_v181 V] <;> rfl)
set_option maxRecDepth 8192 in
theorem e_call7_v0 : after (ops (F := Ideal)) V (Proc.devRef .tc main_call7_v0) = broadcastInDim S2000000x4 ![0, 1] bcast_S2000000x1_S2000000x4_0_1 (col (s3 (T V))) :=
  (rd_unary 342 rfl (by decide) (by decide) V).trans (by rw [e_v307 V] <;> rfl)
set_option maxRecDepth 8192 in
theorem e_v308 : after (ops (F := Ideal)) V (Proc.devRef .tc main_v308) = select (broadcastInDim S2000000x4 ![0, 1] bcast_S2000000x1_S2000000x4_0_1 (col (s3 (T V)))) (qv3 (T V)) (qv4 (T V)) :=
  (rd_ternary 343 rfl (by decide) (by decide) (by decide) (by decide) V).trans (by rw [e_call7_v0 V, e_v281 V, e_v301 V] <;> rfl)
set_option maxRecDepth 8192 in
theorem e_call8_v0 : after (ops (F := Ideal)) V (Proc.devRef .tc main_call8_v0) = broadcastInDim S2000000x4 ![0, 1] bcast_S2000000x1_S2000000x4_0_1 (col (s2 (T V))) :=
  (rd_unary 344 rfl (by decide) (by decide) V).trans (by rw [e_v306 V] <;> rfl)
set_option maxRecDepth 8192 in
theorem e_v309 : after (ops (F := Ideal)) V (Proc.devRef .tc main_v309) = select (broadcastInDim S2000000x4 ![0, 1] bcast_S2000000x1_S2000000x4_0_1 (col (s2 (T V)))) (qv2 (T V)) (select (broadcastInDim S2000000x4 ![0, 1] bcast_S2000000x1_S2000000x4_0_1 (col (s3 (T V)))) (qv3 (T V)) (qv4 (T V))) :=
  (rd_ternary 345 rfl (by decide) (by decide) (by decide) (by decide) V).trans (by rw [e_call8_v0 V, e_v261 V, e_v308 V] <;> rfl)
set_option maxRecDepth 8192 in
theorem e_call9_v0 : after (ops (F := Ideal)) V (Proc.devRef .tc main_call9_v0) = broadcastInDim S2000000x4 ![0, 1] bcast_S2000000x1_S2000000x4_0_1 (col (s1 (T V))) :=
  (rd_unary 346 rfl (by decide) (by decide) V).trans (by rw [e_v305 V] <;> rfl)
set_option maxRecDepth 8192 in
theorem e_v310 : after (ops (F := Ideal)) V (Proc.devRef .tc main_v310) = qsel (T V) :=
  (rd_ternary 347 rfl (by decide) (by decide) (by decide) (by decide) V).trans (by rw [e_call9_v0 V, e_v241 V, e_v309 V] <;> rfl)
set_option maxRecDepth 8192 in
theorem e_v311 : after (ops (F := Ideal)) V (Proc.devRef .tc main_v311) = Host.sqrt (F := Ideal) (tsel (T V)) :=
  (rd_unary 348 rfl (by decide) (by decide) V).trans (by rw [e_v304 V] <;> rfl)
set_option maxRecDepth 8192 in
theorem e_cst_24 : after (ops (F := Ideal)) V (Proc.devRef .tc main_cst_24) = constant (F := Ideal) S_ .f32 0x3F000000#32 :=
  (rd_nullary 349 rfl (by decide) V).trans rfl
set_option maxRecDepth 8192 in
theorem e_v312 : after (ops (F := Ideal)) V (Proc.devRef .tc main_v312) = splat 0x3F000000#32 :=
  (rd_unary 350 rfl (by decide) (by decide) V).trans (by rw [e_cst_24 V] <;> rfl)
set_option maxRecDepth 8192 in
theorem e_v313 : after (ops (F := Ideal)) V (Proc.devRef .tc main_v313) = scl (T V) :=
  (rd_binary 351 rfl (by decide) (by decide) (by decide) V).trans (by rw [e_v312 V, e_v311 V] <;> rfl)
set_option maxRecDepth 8192 in
theorem e_v314 : after (ops (F := Ideal)) V (Proc.devRef .tc main_v314) = col (scl (T V)) :=
  (rd_unary 352 rfl (by decide) (by decide) V).trans (by rw [e_v313 V] <;> rfl)
set_option maxRecDepth 8192 in
theorem e_v315 : after (ops (F := Ideal)) V (Proc.devRef .tc main_v315) = broadcastInDim S2000000x4 ![0, 1] bcast_S2000000x1_S2000000x4_0_1 (col (scl (T V))) :=
  (rd_unary 353 rfl (by decide) (by decide) V).trans (by rw [e_v314 V] <;> rfl)
set_option maxRecDepth 8192 in
theorem e_v316 : after (ops (F := Ideal)) V (Proc.devRef .tc main_v316) = qs (T V) :=
  (rd_binary 354 rfl (by decide) (by decide) (by decide) V).trans (by rw [e_v310 V, e_v315 V] <;> rfl)
set_option maxRecDepth 8192 in
theorem e_v317 : after (ops (F := Ideal)) V (Proc.devRef .tc main_v317) = extractStridedSlice S2000000x1 ![0, 0] (qs (T V)) slices_S2000000x4_S2000000x1_0_0 :=
  (rd_unary 355 rfl (by decide) (by decide) V).trans (by rw [e_v316 V] <;> rfl)
set_option maxRecDepth 8192 in
theorem e_v318 : after (ops (F := Ideal)) V (Proc.devRef .tc main_v318) = shapeCast S2000000 (extractStridedSlice S2000000x1 ![0, 0] (qs (T V)) slices_S2000000x4_S2000000x1_0_0) shapeCasts_S2000000x1_S2000000 :=
  (rd_reshape 356 rfl (by decide) (by decide) V).trans (by rw [e_v317 V] <;> rfl)
set_option maxRecDepth 8192 in
theorem e_cst_25 : after (ops (F := Ideal)) V (Proc.devRef .tc main_cst_25) = constant (F := Ideal) S_ .f32 0x00000000#32 :=
  (rd_nullary 357 rfl (by decide) V).trans rfl
set_option maxRecDepth 8192 in
theorem e_v319 : after (ops (F := Ideal)) V (Proc.devRef .tc main_v319) = splat 0x00000000#32 :=
  (rd_unary 358 rfl (by decide) (by decide) V).trans (by rw [e_cst_25 V] <;> rfl)
set_option maxRecDepth 8192 in
theorem e_v320 : after (ops (F := Ideal)) V (Proc.devRef .tc main_v320) = qneg (T V) :=
  (rd_binary 359 rfl (by decide) (by decide) (by decide) V).trans (by rw [e_v318 V, e_v319 V] <;> rfl)
set_option maxRecDepth 8192 in
theorem e_v321 : after (ops (F := Ideal)) V (Proc.devRef .tc main_v321) = col (qneg (T V)) :=
  (rd_unary 360 rfl (by decide) (by decide) V).trans (by rw [e_v320 V] <;> rfl)
set_option maxRecDepth 8192 in
theorem e_v322 : after (ops (F := Ideal)) V (Proc.devRef .tc main_v322) = Host.negf (F := Ideal) (qs (T V)) :=
  (rd_unary 361 rfl (by decide) (by decide) V).trans (by rw [e_v316 V] <;> rfl)
set_option maxRecDepth 8192 in
theorem e_call10_v0 : after (ops (F := Ideal)) V (Proc.devRef .tc main_call10_v0) = broadcastInDim S2000000x4 ![0, 1] bcast_S2000000x1_S2000000x4_0_1 (col (qneg (T V))) :=
  (rd_unary 362 rfl (by decide) (by decide) V).trans (by rw [e_v321 V] <;> rfl)
set_option maxRecDepth 8192 in
theorem e_v323 : after (ops (F := Ideal)) V (Proc.devRef .tc main_v323) = qfix (T V) :=
  (rd_ternary 363 rfl (by decide) (by decide) (by decide) (by decide) V).trans (by rw [e_call10_v0 V, e_v322 V, e_v316 V] <;> rfl)
set_option maxRecDepth 8192 in
theorem e_v324 : after (ops (F := Ideal)) V (Proc.devRef .tc main_v324) = extractStridedSlice S2000000x3x1 ![0, 0, 3] (T V) slices_S2000000x4x4_S2000000x3x1_0_0_3 :=
  (rd_unary 364 rfl (by decide) (by decide) V).trans rfl
set_option maxRecDepth 8192 in
theorem e_v325 : after (ops (F := Ideal)) V (Proc.devRef .tc main_v325) = trn (T V) :=
  (rd_reshape 365 rfl (by decide) (by decide) V).trans (by rw [e_v324 V] <;> rfl)
set_option maxRecDepth 8192 in
theorem e_v326 : after (ops (F := Ideal)) V (Proc.devRef .tc main_v326) = concatenate S2000000x7 1 [⟨S2000000x3, trn (T V)⟩, ⟨S2000000x4, qfix (T V)⟩] concatenates_S2000000x3_S2000000x4_S2000000x7_d1 :=
  (rd_binary 366 rfl (by decide) (by decide) (by decide) V).trans (by rw [e_v325 V, e_v323 V] <;> rfl)
set_option maxRecDepth 8192 in
theorem e_v327 : after (ops (F := Ideal)) V (Proc.devRef .tc main_v327) = tailFn (T V) :=
  (rd_unary 367 rfl (by decide) (by decide) V).trans (by rw [e_v326 V] <;> rfl)

end Cert.RefTail

end
-- ==== Proof.RefTail.lean ====
/-
  The reference's second half, read back.

  When the reference has run, the buffer of its result holds tailFn of what the buffer of the batched 4×4 products
  holds (the last row of the tables: every buffer after the product holds a named function of the product), and tailFn
  of an array of 4×4 matrices, read at sample b and component k, is the k-th of the seven numbers the specification
  reads off sample b's matrix: the first three entries of its last column, then the branchless quaternion of its
  upper-left 3×3 block (three comparisons choose one of four traces and one of four candidate quaternions, the
  candidate is scaled by 1/2 over the square root of the trace, and its sign is flipped where its first component is
  negative).
-/
import proofs.«161387_j47622597378731_2_alg».proof.Proof.RefTailLinkC

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The result's buffer holds the second half's function of the products' buffer. -/
theorem tail_eq (V : Valuation τ sig (Elt Ideal)) :
    after ops V (main_v327 : DevRef τ sig) = Cert.RefTail.tailFn (after ops V (main_v161 : DevRef τ sig)) :=
  Cert.RefTail.e_v327 V

/-- Entry (b, k, 0) of the result is the k-th of the seven numbers read off sample b's 4×4 product. -/
theorem tail_apply (V : Valuation τ sig (Elt Ideal)) (b : Fin 2000000) (k : Fin 7) :
    after ops V (main_v327 : DevRef τ sig) (ix3 b k 0)
      = Cert.Spec.rFinish (fun i j => after ops V (main_v161 : DevRef τ sig) (ix3 b i j)) k :=
  (congrFun (tail_eq V) (ix3 b k 0)).trans (Cert.RefTail.tailFn_apply (Cert.RefTail.T V) b k)

end Cert.ReferenceIdeal.Hand

end
-- ==== Proof.RefHeadOrder.lean ====
/-
  The order in which the reference's line writes its buffers.

  The line writes the HBM buffers numbered 2, 3, …, 369, each once, in that order: the operation at position n writes
  buffer n + 2. So a buffer numbered below n + 2 is not written from position n on, and the side conditions of the
  single-assignment readers become comparisons of two numerals.
-/
import proofs.«161387_j47622597378731_2_alg».proof.Proof.RefRead

namespace Cert.ReferenceIdeal.Head

open Cert.ReferenceIdeal Cert.ReferenceIdeal.Hand Idealize.ShloMosaic

/-- A buffer's number within its memory space. -/
def key (r : Ref sig .tc) : Nat := r.idx.val

/-- The line writes buffers 2, 3, …, 369 in that order. -/
theorem W_keys : W.map key = List.range' 2 368 := by decide

/-- A buffer numbered below n + 2 is not among those written from position n on. -/
theorem not_written_from (n : Nat) (x : Ref sig .tc) (h : key x < n + 2) : x ∉ W.drop n ++ [] := by
  rw [List.append_nil]
  intro hm
  have hk : key x ∈ (W.drop n).map key := List.mem_map_of_mem hm
  rw [List.map_drop, W_keys, List.drop_range'] at hk
  have := (List.mem_range'_1.mp hk).1
  omega

end Cert.ReferenceIdeal.Head
-- ==== Proof.RefHeadReads0.lean ====
/-
  What the buffers written at positions 0 … 67 of the reference's line hold at its end: each its own operation's
  function of what that operation's operands hold at the end (every buffer is written once, and an operation reads
  only buffers written before it). One statement per operation, the operation's printed function applied to its
  operands' final contents; the side conditions are comparisons of buffer numbers with positions.
-/
import proofs.«161387_j47622597378731_2_alg».proof.Proof.RefHeadOrder

namespace Cert.ReferenceIdeal.Head

open Cert.ReferenceIdeal Cert.ReferenceIdeal.Gen Cert.ReferenceIdeal.Hand Idealize.ShloMosaic Idealize.ShloMosaic.StableHlo

section
variable (V : Valuation τ sig (Elt Ideal))

local notation "𝔸[" r "]" => after (ops (F := Ideal)) V (Proc.devRef (Proc.tc : Proc τ) r)

theorem rd_main_cst : 𝔸[main_cst] = (fun i => FloatOps.ofBits (F := Ideal) .f32 (lit0 (S1x1x4.rowMajor i))) :=
  rd_nullary 0 rfl (not_written_from 1 main_cst (by decide)) V

theorem rd_main_v0 : 𝔸[main_v0] = extractStridedSlice S2000000x3x1 ![0, 0, 0] 𝔸[main_arg1] slices_S2000000x6x1_S2000000x3x1_0_0_0 :=
  rd_unary 1 rfl (not_written_from 1 main_arg1 (by decide)) (not_written_from 2 main_v0 (by decide)) V

theorem rd_main_v1 : 𝔸[main_v1] = extractStridedSlice S2000000x3x1 ![0, 3, 0] 𝔸[main_arg1] slices_S2000000x6x1_S2000000x3x1_0_3_0 :=
  rd_unary 2 rfl (not_written_from 2 main_arg1 (by decide)) (not_written_from 3 main_v1 (by decide)) V

theorem rd_main_v2 : 𝔸[main_v2] = shapeCast S2000000x3 𝔸[main_v1] shapeCasts_S2000000x3x1_S2000000x3 :=
  rd_reshape 3 rfl (not_written_from 3 main_v1 (by decide)) (not_written_from 4 main_v2 (by decide)) V

theorem rd_main_v3 : 𝔸[main_v3] = extractStridedSlice S2000000x1 ![0, 0] 𝔸[main_v2] slices_S2000000x3_S2000000x1_0_0 :=
  rd_unary 4 rfl (not_written_from 4 main_v2 (by decide)) (not_written_from 5 main_v3 (by decide)) V

theorem rd_main_v4 : 𝔸[main_v4] = shapeCast S2000000 𝔸[main_v3] shapeCasts_S2000000x1_S2000000 :=
  rd_reshape 5 rfl (not_written_from 5 main_v3 (by decide)) (not_written_from 6 main_v4 (by decide)) V

theorem rd_main_v5 : 𝔸[main_v5] = extractStridedSlice S2000000x1 ![0, 1] 𝔸[main_v2] slices_S2000000x3_S2000000x1_0_1 :=
  rd_unary 6 rfl (not_written_from 6 main_v2 (by decide)) (not_written_from 7 main_v5 (by decide)) V

theorem rd_main_v6 : 𝔸[main_v6] = shapeCast S2000000 𝔸[main_v5] shapeCasts_S2000000x1_S2000000 :=
  rd_reshape 7 rfl (not_written_from 7 main_v5 (by decide)) (not_written_from 8 main_v6 (by decide)) V

theorem rd_main_v7 : 𝔸[main_v7] = extractStridedSlice S2000000x1 ![0, 2] 𝔸[main_v2] slices_S2000000x3_S2000000x1_0_2 :=
  rd_unary 8 rfl (not_written_from 8 main_v2 (by decide)) (not_written_from 9 main_v7 (by decide)) V

theorem rd_main_v8 : 𝔸[main_v8] = shapeCast S2000000 𝔸[main_v7] shapeCasts_S2000000x1_S2000000 :=
  rd_reshape 9 rfl (not_written_from 9 main_v7 (by decide)) (not_written_from 10 main_v8 (by decide)) V

theorem rd_main_cst_0 : 𝔸[main_cst_0] = (constant (F := Ideal) S_ .f32 0x00000000#32) :=
  rd_nullary 10 rfl (not_written_from 11 main_cst_0 (by decide)) V

theorem rd_main_v9 : 𝔸[main_v9] = broadcastInDim S2000000 ![] bcast_S_S2000000 𝔸[main_cst_0] :=
  rd_unary 11 rfl (not_written_from 11 main_cst_0 (by decide)) (not_written_from 12 main_v9 (by decide)) V

theorem rd_main_v10 : 𝔸[main_v10] = Host.negf (F := Ideal) (s := S2000000) (φ := .f32) 𝔸[main_v8] :=
  rd_unary 12 rfl (not_written_from 12 main_v8 (by decide)) (not_written_from 13 main_v10 (by decide)) V

theorem rd_main_v11 : 𝔸[main_v11] = broadcastInDim S2000000x1 ![0] bcast_S2000000_S2000000x1_0 𝔸[main_v9] :=
  rd_unary 13 rfl (not_written_from 13 main_v9 (by decide)) (not_written_from 14 main_v11 (by decide)) V

theorem rd_main_v12 : 𝔸[main_v12] = broadcastInDim S2000000x1 ![0] bcast_S2000000_S2000000x1_0 𝔸[main_v10] :=
  rd_unary 14 rfl (not_written_from 14 main_v10 (by decide)) (not_written_from 15 main_v12 (by decide)) V

theorem rd_main_v13 : 𝔸[main_v13] = broadcastInDim S2000000x1 ![0] bcast_S2000000_S2000000x1_0 𝔸[main_v6] :=
  rd_unary 15 rfl (not_written_from 15 main_v6 (by decide)) (not_written_from 16 main_v13 (by decide)) V

theorem rd_main_v14 : 𝔸[main_v14] = concatenate S2000000x3 1 [⟨S2000000x1, 𝔸[main_v11]⟩, ⟨S2000000x1, 𝔸[main_v12]⟩, ⟨S2000000x1, 𝔸[main_v13]⟩] concatenates_S2000000x1_S2000000x1_S2000000x1_S2000000x3_d1 :=
  rd_nary 16 rfl (fun i => not_written_from 16 _ ((by decide : ∀ i : Fin 3, key (![main_v11, main_v12, main_v13] i) < 16 + 2) i)) (not_written_from 17 main_v14 (by decide)) V

theorem rd_main_v15 : 𝔸[main_v15] = Host.negf (F := Ideal) (s := S2000000) (φ := .f32) 𝔸[main_v4] :=
  rd_unary 17 rfl (not_written_from 17 main_v4 (by decide)) (not_written_from 18 main_v15 (by decide)) V

theorem rd_main_v16 : 𝔸[main_v16] = broadcastInDim S2000000x1 ![0] bcast_S2000000_S2000000x1_0 𝔸[main_v8] :=
  rd_unary 18 rfl (not_written_from 18 main_v8 (by decide)) (not_written_from 19 main_v16 (by decide)) V

theorem rd_main_v17 : 𝔸[main_v17] = broadcastInDim S2000000x1 ![0] bcast_S2000000_S2000000x1_0 𝔸[main_v9] :=
  rd_unary 19 rfl (not_written_from 19 main_v9 (by decide)) (not_written_from 20 main_v17 (by decide)) V

theorem rd_main_v18 : 𝔸[main_v18] = broadcastInDim S2000000x1 ![0] bcast_S2000000_S2000000x1_0 𝔸[main_v15] :=
  rd_unary 20 rfl (not_written_from 20 main_v15 (by decide)) (not_written_from 21 main_v18 (by decide)) V

theorem rd_main_v19 : 𝔸[main_v19] = concatenate S2000000x3 1 [⟨S2000000x1, 𝔸[main_v16]⟩, ⟨S2000000x1, 𝔸[main_v17]⟩, ⟨S2000000x1, 𝔸[main_v18]⟩] concatenates_S2000000x1_S2000000x1_S2000000x1_S2000000x3_d1 :=
  rd_nary 21 rfl (fun i => not_written_from 21 _ ((by decide : ∀ i : Fin 3, key (![main_v16, main_v17, main_v18] i) < 21 + 2) i)) (not_written_from 22 main_v19 (by decide)) V

theorem rd_main_v20 : 𝔸[main_v20] = Host.negf (F := Ideal) (s := S2000000) (φ := .f32) 𝔸[main_v6] :=
  rd_unary 22 rfl (not_written_from 22 main_v6 (by decide)) (not_written_from 23 main_v20 (by decide)) V

theorem rd_main_v21 : 𝔸[main_v21] = broadcastInDim S2000000x1 ![0] bcast_S2000000_S2000000x1_0 𝔸[main_v20] :=
  rd_unary 23 rfl (not_written_from 23 main_v20 (by decide)) (not_written_from 24 main_v21 (by decide)) V

theorem rd_main_v22 : 𝔸[main_v22] = broadcastInDim S2000000x1 ![0] bcast_S2000000_S2000000x1_0 𝔸[main_v4] :=
  rd_unary 24 rfl (not_written_from 24 main_v4 (by decide)) (not_written_from 25 main_v22 (by decide)) V

theorem rd_main_v23 : 𝔸[main_v23] = broadcastInDim S2000000x1 ![0] bcast_S2000000_S2000000x1_0 𝔸[main_v9] :=
  rd_unary 25 rfl (not_written_from 25 main_v9 (by decide)) (not_written_from 26 main_v23 (by decide)) V

theorem rd_main_v24 : 𝔸[main_v24] = concatenate S2000000x3 1 [⟨S2000000x1, 𝔸[main_v21]⟩, ⟨S2000000x1, 𝔸[main_v22]⟩, ⟨S2000000x1, 𝔸[main_v23]⟩] concatenates_S2000000x1_S2000000x1_S2000000x1_S2000000x3_d1 :=
  rd_nary 26 rfl (fun i => not_written_from 26 _ ((by decide : ∀ i : Fin 3, key (![main_v21, main_v22, main_v23] i) < 26 + 2) i)) (not_written_from 27 main_v24 (by decide)) V

theorem rd_main_v25 : 𝔸[main_v25] = broadcastInDim S2000000x1x3 ![0, 2] bcast_S2000000x3_S2000000x1x3_0_2 𝔸[main_v14] :=
  rd_unary 27 rfl (not_written_from 27 main_v14 (by decide)) (not_written_from 28 main_v25 (by decide)) V

theorem rd_main_v26 : 𝔸[main_v26] = broadcastInDim S2000000x1x3 ![0, 2] bcast_S2000000x3_S2000000x1x3_0_2 𝔸[main_v19] :=
  rd_unary 28 rfl (not_written_from 28 main_v19 (by decide)) (not_written_from 29 main_v26 (by decide)) V

theorem rd_main_v27 : 𝔸[main_v27] = broadcastInDim S2000000x1x3 ![0, 2] bcast_S2000000x3_S2000000x1x3_0_2 𝔸[main_v24] :=
  rd_unary 29 rfl (not_written_from 29 main_v24 (by decide)) (not_written_from 30 main_v27 (by decide)) V

theorem rd_main_v28 : 𝔸[main_v28] = concatenate S2000000x3x3 1 [⟨S2000000x1x3, 𝔸[main_v25]⟩, ⟨S2000000x1x3, 𝔸[main_v26]⟩, ⟨S2000000x1x3, 𝔸[main_v27]⟩] concatenates_S2000000x1x3_S2000000x1x3_S2000000x1x3_S2000000x3x3_d1 :=
  rd_nary 30 rfl (fun i => not_written_from 30 _ ((by decide : ∀ i : Fin 3, key (![main_v25, main_v26, main_v27] i) < 30 + 2) i)) (not_written_from 31 main_v28 (by decide)) V

theorem rd_main_v29 : 𝔸[main_v29] = Host.dotGeneral (F := Ideal) (φ₁ := .f32) (φ₂ := .f32) dot_S2000000x3x3_S2000000x3x3_S2000000x3x3_2_1_1_2_0_0 none 𝔸[main_v28] 𝔸[main_v28] :=
  rd_binary 31 rfl (not_written_from 31 main_v28 (by decide)) (not_written_from 31 main_v28 (by decide)) (not_written_from 32 main_v29 (by decide)) V

theorem rd_main_v30 : 𝔸[main_v30] = mulf (F := Ideal) (s := S2000000) (φ := .f32) 𝔸[main_v4] 𝔸[main_v4] :=
  rd_binary 32 rfl (not_written_from 32 main_v4 (by decide)) (not_written_from 32 main_v4 (by decide)) (not_written_from 33 main_v30 (by decide)) V

theorem rd_main_v31 : 𝔸[main_v31] = mulf (F := Ideal) (s := S2000000) (φ := .f32) 𝔸[main_v6] 𝔸[main_v6] :=
  rd_binary 33 rfl (not_written_from 33 main_v6 (by decide)) (not_written_from 33 main_v6 (by decide)) (not_written_from 34 main_v31 (by decide)) V

theorem rd_main_v32 : 𝔸[main_v32] = addf (F := Ideal) (s := S2000000) (φ := .f32) 𝔸[main_v30] 𝔸[main_v31] :=
  rd_binary 34 rfl (not_written_from 34 main_v30 (by decide)) (not_written_from 34 main_v31 (by decide)) (not_written_from 35 main_v32 (by decide)) V

theorem rd_main_v33 : 𝔸[main_v33] = mulf (F := Ideal) (s := S2000000) (φ := .f32) 𝔸[main_v8] 𝔸[main_v8] :=
  rd_binary 35 rfl (not_written_from 35 main_v8 (by decide)) (not_written_from 35 main_v8 (by decide)) (not_written_from 36 main_v33 (by decide)) V

theorem rd_main_v34 : 𝔸[main_v34] = addf (F := Ideal) (s := S2000000) (φ := .f32) 𝔸[main_v32] 𝔸[main_v33] :=
  rd_binary 36 rfl (not_written_from 36 main_v32 (by decide)) (not_written_from 36 main_v33 (by decide)) (not_written_from 37 main_v34 (by decide)) V

theorem rd_main_cst_1 : 𝔸[main_cst_1] = (constant (F := Ideal) S_ .f32 0x2B8CBCCC#32) :=
  rd_nullary 37 rfl (not_written_from 38 main_cst_1 (by decide)) V

theorem rd_main_v35 : 𝔸[main_v35] = broadcastInDim S2000000 ![] bcast_S_S2000000 𝔸[main_cst_1] :=
  rd_unary 38 rfl (not_written_from 38 main_cst_1 (by decide)) (not_written_from 39 main_v35 (by decide)) V

theorem rd_main_v36 : 𝔸[main_v36] = cmpf (F := Ideal) (s := S2000000) (φ := .f32) .ogt 𝔸[main_v34] 𝔸[main_v35] :=
  rd_binary 39 rfl (not_written_from 39 main_v34 (by decide)) (not_written_from 39 main_v35 (by decide)) (not_written_from 40 main_v36 (by decide)) V

theorem rd_main_cst_2 : 𝔸[main_cst_2] = (constant (F := Ideal) S_ .f32 0x3F800000#32) :=
  rd_nullary 40 rfl (not_written_from 41 main_cst_2 (by decide)) V

theorem rd_main_call0_v0 : 𝔸[main_call0_v0] = id 𝔸[main_cst_2] :=
  rd_unary 41 rfl (not_written_from 41 main_cst_2 (by decide)) (not_written_from 42 main_call0_v0 (by decide)) V

theorem rd_main_call0_v1 : 𝔸[main_call0_v1] = (broadcastInDim S2000000 ![] bcast_S_S2000000) 𝔸[main_call0_v0] :=
  rd_unary 42 rfl (not_written_from 42 main_call0_v0 (by decide)) (not_written_from 43 main_call0_v1 (by decide)) V

theorem rd_main_v37 : 𝔸[main_v37] = select (s := S2000000) 𝔸[main_v36] 𝔸[main_v34] 𝔸[main_call0_v1] :=
  rd_ternary 43 rfl (not_written_from 43 main_v36 (by decide)) (not_written_from 43 main_v34 (by decide)) (not_written_from 43 main_call0_v1 (by decide)) (not_written_from 44 main_v37 (by decide)) V

theorem rd_main_v38 : 𝔸[main_v38] = Host.sqrt (F := Ideal) (s := S2000000) (φ := .f32) 𝔸[main_v37] :=
  rd_unary 44 rfl (not_written_from 44 main_v37 (by decide)) (not_written_from 45 main_v38 (by decide)) V

theorem rd_main_v39 : 𝔸[main_v39] = Host.sin (F := Ideal) (s := S2000000) (φ := .f32) 𝔸[main_v38] :=
  rd_unary 45 rfl (not_written_from 45 main_v38 (by decide)) (not_written_from 46 main_v39 (by decide)) V

theorem rd_main_v40 : 𝔸[main_v40] = Host.cos (F := Ideal) (s := S2000000) (φ := .f32) 𝔸[main_v38] :=
  rd_unary 46 rfl (not_written_from 46 main_v38 (by decide)) (not_written_from 47 main_v40 (by decide)) V

theorem rd_main_v41 : 𝔸[main_v41] = Host.divf (F := Ideal) (s := S2000000) (φ := .f32) 𝔸[main_v39] 𝔸[main_v38] :=
  rd_binary 47 rfl (not_written_from 47 main_v39 (by decide)) (not_written_from 47 main_v38 (by decide)) (not_written_from 48 main_v41 (by decide)) V

theorem rd_main_cst_3 : 𝔸[main_cst_3] = (constant (F := Ideal) S_ .f32 0x3F800000#32) :=
  rd_nullary 48 rfl (not_written_from 49 main_cst_3 (by decide)) V

theorem rd_main_call1_v0 : 𝔸[main_call1_v0] = id 𝔸[main_cst_3] :=
  rd_unary 49 rfl (not_written_from 49 main_cst_3 (by decide)) (not_written_from 50 main_call1_v0 (by decide)) V

theorem rd_main_call1_v1 : 𝔸[main_call1_v1] = (broadcastInDim S2000000 ![] bcast_S_S2000000) 𝔸[main_call1_v0] :=
  rd_unary 50 rfl (not_written_from 50 main_call1_v0 (by decide)) (not_written_from 51 main_call1_v1 (by decide)) V

theorem rd_main_v42 : 𝔸[main_v42] = select (s := S2000000) 𝔸[main_v36] 𝔸[main_v41] 𝔸[main_call1_v1] :=
  rd_ternary 51 rfl (not_written_from 51 main_v36 (by decide)) (not_written_from 51 main_v41 (by decide)) (not_written_from 51 main_call1_v1 (by decide)) (not_written_from 52 main_v42 (by decide)) V

theorem rd_main_cst_4 : 𝔸[main_cst_4] = (constant (F := Ideal) S_ .f32 0x3F800000#32) :=
  rd_nullary 52 rfl (not_written_from 53 main_cst_4 (by decide)) V

theorem rd_main_v43 : 𝔸[main_v43] = broadcastInDim S2000000 ![] bcast_S_S2000000 𝔸[main_cst_4] :=
  rd_unary 53 rfl (not_written_from 53 main_cst_4 (by decide)) (not_written_from 54 main_v43 (by decide)) V

theorem rd_main_v44 : 𝔸[main_v44] = subf (F := Ideal) (s := S2000000) (φ := .f32) 𝔸[main_v43] 𝔸[main_v40] :=
  rd_binary 54 rfl (not_written_from 54 main_v43 (by decide)) (not_written_from 54 main_v40 (by decide)) (not_written_from 55 main_v44 (by decide)) V

theorem rd_main_v45 : 𝔸[main_v45] = Host.divf (F := Ideal) (s := S2000000) (φ := .f32) 𝔸[main_v44] 𝔸[main_v37] :=
  rd_binary 55 rfl (not_written_from 55 main_v44 (by decide)) (not_written_from 55 main_v37 (by decide)) (not_written_from 56 main_v45 (by decide)) V

theorem rd_main_cst_5 : 𝔸[main_cst_5] = (constant (F := Ideal) S_ .f32 0x00000000#32) :=
  rd_nullary 56 rfl (not_written_from 57 main_cst_5 (by decide)) V

theorem rd_main_call2_v0 : 𝔸[main_call2_v0] = id 𝔸[main_cst_5] :=
  rd_unary 57 rfl (not_written_from 57 main_cst_5 (by decide)) (not_written_from 58 main_call2_v0 (by decide)) V

theorem rd_main_call2_v1 : 𝔸[main_call2_v1] = (broadcastInDim S2000000 ![] bcast_S_S2000000) 𝔸[main_call2_v0] :=
  rd_unary 58 rfl (not_written_from 58 main_call2_v0 (by decide)) (not_written_from 59 main_call2_v1 (by decide)) V

theorem rd_main_v46 : 𝔸[main_v46] = select (s := S2000000) 𝔸[main_v36] 𝔸[main_v45] 𝔸[main_call2_v1] :=
  rd_ternary 59 rfl (not_written_from 59 main_v36 (by decide)) (not_written_from 59 main_v45 (by decide)) (not_written_from 59 main_call2_v1 (by decide)) (not_written_from 60 main_v46 (by decide)) V

theorem rd_main_v47 : 𝔸[main_v47] = subf (F := Ideal) (s := S2000000) (φ := .f32) 𝔸[main_v38] 𝔸[main_v39] :=
  rd_binary 60 rfl (not_written_from 60 main_v38 (by decide)) (not_written_from 60 main_v39 (by decide)) (not_written_from 61 main_v47 (by decide)) V

theorem rd_main_v48 : 𝔸[main_v48] = mulf (F := Ideal) (s := S2000000) (φ := .f32) 𝔸[main_v37] 𝔸[main_v38] :=
  rd_binary 61 rfl (not_written_from 61 main_v37 (by decide)) (not_written_from 61 main_v38 (by decide)) (not_written_from 62 main_v48 (by decide)) V

theorem rd_main_v49 : 𝔸[main_v49] = Host.divf (F := Ideal) (s := S2000000) (φ := .f32) 𝔸[main_v47] 𝔸[main_v48] :=
  rd_binary 62 rfl (not_written_from 62 main_v47 (by decide)) (not_written_from 62 main_v48 (by decide)) (not_written_from 63 main_v49 (by decide)) V

theorem rd_main_cst_6 : 𝔸[main_cst_6] = (constant (F := Ideal) S_ .f32 0x3E2AAAAB#32) :=
  rd_nullary 63 rfl (not_written_from 64 main_cst_6 (by decide)) V

theorem rd_main_call3_v0 : 𝔸[main_call3_v0] = id 𝔸[main_cst_6] :=
  rd_unary 64 rfl (not_written_from 64 main_cst_6 (by decide)) (not_written_from 65 main_call3_v0 (by decide)) V

theorem rd_main_call3_v1 : 𝔸[main_call3_v1] = (broadcastInDim S2000000 ![] bcast_S_S2000000) 𝔸[main_call3_v0] :=
  rd_unary 65 rfl (not_written_from 65 main_call3_v0 (by decide)) (not_written_from 66 main_call3_v1 (by decide)) V

theorem rd_main_v50 : 𝔸[main_v50] = select (s := S2000000) 𝔸[main_v36] 𝔸[main_v49] 𝔸[main_call3_v1] :=
  rd_ternary 66 rfl (not_written_from 66 main_v36 (by decide)) (not_written_from 66 main_v49 (by decide)) (not_written_from 66 main_call3_v1 (by decide)) (not_written_from 67 main_v50 (by decide)) V

theorem rd_main_v51 : 𝔸[main_v51] = (iotaInDim S3x3 32 0) :=
  rd_nullary 67 rfl (not_written_from 68 main_v51 (by decide)) V

end

end Cert.ReferenceIdeal.Head
-- ==== Proof.RefHeadReads1.lean ====
/-
  What the buffers written at positions 68 … 127 of the reference's line hold at its end: each its own operation's
  function of what that operation's operands hold at the end (every buffer is written once, and an operation reads
  only buffers written before it). One statement per operation, the operation's printed function applied to its
  operands' final contents; the side conditions are comparisons of buffer numbers with positions.
-/
import proofs.«161387_j47622597378731_2_alg».proof.Proof.RefHeadOrder

namespace Cert.ReferenceIdeal.Head

open Cert.ReferenceIdeal Cert.ReferenceIdeal.Gen Cert.ReferenceIdeal.Hand Idealize.ShloMosaic Idealize.ShloMosaic.StableHlo

section
variable (V : Valuation τ sig (Elt Ideal))

local notation "𝔸[" r "]" => after (ops (F := Ideal)) V (Proc.devRef (Proc.tc : Proc τ) r)

theorem rd_main_v52 : 𝔸[main_v52] = (iotaInDim S3x3 32 1) :=
  rd_nullary 68 rfl (not_written_from 69 main_v52 (by decide)) V

theorem rd_main_c : 𝔸[main_c] = (constantI S_ 32 0#32) :=
  rd_nullary 69 rfl (not_written_from 70 main_c (by decide)) V

theorem rd_main_v53 : 𝔸[main_v53] = broadcastInDim S3x3 ![] bcast_S_S3x3 𝔸[main_c] :=
  rd_unary 70 rfl (not_written_from 70 main_c (by decide)) (not_written_from 71 main_v53 (by decide)) V

theorem rd_main_v54 : 𝔸[main_v54] = addi (s := S3x3) (w := 32) 𝔸[main_v51] 𝔸[main_v53] :=
  rd_binary 71 rfl (not_written_from 71 main_v51 (by decide)) (not_written_from 71 main_v53 (by decide)) (not_written_from 72 main_v54 (by decide)) V

theorem rd_main_v55 : 𝔸[main_v55] = cmpi (s := S3x3) (w := 32) .eq 𝔸[main_v54] 𝔸[main_v52] :=
  rd_binary 72 rfl (not_written_from 72 main_v54 (by decide)) (not_written_from 72 main_v52 (by decide)) (not_written_from 73 main_v55 (by decide)) V

theorem rd_main_v56 : 𝔸[main_v56] = uitofp (F := Ideal) (s := S3x3) (w := 1) .f32 𝔸[main_v55] :=
  rd_unary 73 rfl (not_written_from 73 main_v55 (by decide)) (not_written_from 74 main_v56 (by decide)) V

theorem rd_main_v57 : 𝔸[main_v57] = broadcastInDim S2000000x1x1 ![0] bcast_S2000000_S2000000x1x1_0 𝔸[main_v42] :=
  rd_unary 74 rfl (not_written_from 74 main_v42 (by decide)) (not_written_from 75 main_v57 (by decide)) V

theorem rd_main_v58 : 𝔸[main_v58] = broadcastInDim S2000000x3x3 ![0, 1, 2] bcast_S2000000x1x1_S2000000x3x3_0_1_2 𝔸[main_v57] :=
  rd_unary 75 rfl (not_written_from 75 main_v57 (by decide)) (not_written_from 76 main_v58 (by decide)) V

theorem rd_main_v59 : 𝔸[main_v59] = mulf (F := Ideal) (s := S2000000x3x3) (φ := .f32) 𝔸[main_v58] 𝔸[main_v28] :=
  rd_binary 76 rfl (not_written_from 76 main_v58 (by decide)) (not_written_from 76 main_v28 (by decide)) (not_written_from 77 main_v59 (by decide)) V

theorem rd_main_v60 : 𝔸[main_v60] = broadcastInDim S1x3x3 ![1, 2] bcast_S3x3_S1x3x3_1_2 𝔸[main_v56] :=
  rd_unary 77 rfl (not_written_from 77 main_v56 (by decide)) (not_written_from 78 main_v60 (by decide)) V

theorem rd_main_v61 : 𝔸[main_v61] = broadcastInDim S2000000x3x3 ![0, 1, 2] bcast_S1x3x3_S2000000x3x3_0_1_2 𝔸[main_v60] :=
  rd_unary 78 rfl (not_written_from 78 main_v60 (by decide)) (not_written_from 79 main_v61 (by decide)) V

theorem rd_main_v62 : 𝔸[main_v62] = addf (F := Ideal) (s := S2000000x3x3) (φ := .f32) 𝔸[main_v61] 𝔸[main_v59] :=
  rd_binary 79 rfl (not_written_from 79 main_v61 (by decide)) (not_written_from 79 main_v59 (by decide)) (not_written_from 80 main_v62 (by decide)) V

theorem rd_main_v63 : 𝔸[main_v63] = broadcastInDim S2000000x1x1 ![0] bcast_S2000000_S2000000x1x1_0 𝔸[main_v46] :=
  rd_unary 80 rfl (not_written_from 80 main_v46 (by decide)) (not_written_from 81 main_v63 (by decide)) V

theorem rd_main_v64 : 𝔸[main_v64] = broadcastInDim S2000000x3x3 ![0, 1, 2] bcast_S2000000x1x1_S2000000x3x3_0_1_2 𝔸[main_v63] :=
  rd_unary 81 rfl (not_written_from 81 main_v63 (by decide)) (not_written_from 82 main_v64 (by decide)) V

theorem rd_main_v65 : 𝔸[main_v65] = mulf (F := Ideal) (s := S2000000x3x3) (φ := .f32) 𝔸[main_v64] 𝔸[main_v29] :=
  rd_binary 82 rfl (not_written_from 82 main_v64 (by decide)) (not_written_from 82 main_v29 (by decide)) (not_written_from 83 main_v65 (by decide)) V

theorem rd_main_v66 : 𝔸[main_v66] = addf (F := Ideal) (s := S2000000x3x3) (φ := .f32) 𝔸[main_v62] 𝔸[main_v65] :=
  rd_binary 83 rfl (not_written_from 83 main_v62 (by decide)) (not_written_from 83 main_v65 (by decide)) (not_written_from 84 main_v66 (by decide)) V

theorem rd_main_v67 : 𝔸[main_v67] = broadcastInDim S2000000x1x1 ![0] bcast_S2000000_S2000000x1x1_0 𝔸[main_v46] :=
  rd_unary 84 rfl (not_written_from 84 main_v46 (by decide)) (not_written_from 85 main_v67 (by decide)) V

theorem rd_main_v68 : 𝔸[main_v68] = broadcastInDim S2000000x3x3 ![0, 1, 2] bcast_S2000000x1x1_S2000000x3x3_0_1_2 𝔸[main_v67] :=
  rd_unary 85 rfl (not_written_from 85 main_v67 (by decide)) (not_written_from 86 main_v68 (by decide)) V

theorem rd_main_v69 : 𝔸[main_v69] = mulf (F := Ideal) (s := S2000000x3x3) (φ := .f32) 𝔸[main_v68] 𝔸[main_v28] :=
  rd_binary 86 rfl (not_written_from 86 main_v68 (by decide)) (not_written_from 86 main_v28 (by decide)) (not_written_from 87 main_v69 (by decide)) V

theorem rd_main_v70 : 𝔸[main_v70] = broadcastInDim S1x3x3 ![1, 2] bcast_S3x3_S1x3x3_1_2 𝔸[main_v56] :=
  rd_unary 87 rfl (not_written_from 87 main_v56 (by decide)) (not_written_from 88 main_v70 (by decide)) V

theorem rd_main_v71 : 𝔸[main_v71] = broadcastInDim S2000000x3x3 ![0, 1, 2] bcast_S1x3x3_S2000000x3x3_0_1_2 𝔸[main_v70] :=
  rd_unary 88 rfl (not_written_from 88 main_v70 (by decide)) (not_written_from 89 main_v71 (by decide)) V

theorem rd_main_v72 : 𝔸[main_v72] = addf (F := Ideal) (s := S2000000x3x3) (φ := .f32) 𝔸[main_v71] 𝔸[main_v69] :=
  rd_binary 89 rfl (not_written_from 89 main_v71 (by decide)) (not_written_from 89 main_v69 (by decide)) (not_written_from 90 main_v72 (by decide)) V

theorem rd_main_v73 : 𝔸[main_v73] = broadcastInDim S2000000x1x1 ![0] bcast_S2000000_S2000000x1x1_0 𝔸[main_v50] :=
  rd_unary 90 rfl (not_written_from 90 main_v50 (by decide)) (not_written_from 91 main_v73 (by decide)) V

theorem rd_main_v74 : 𝔸[main_v74] = broadcastInDim S2000000x3x3 ![0, 1, 2] bcast_S2000000x1x1_S2000000x3x3_0_1_2 𝔸[main_v73] :=
  rd_unary 91 rfl (not_written_from 91 main_v73 (by decide)) (not_written_from 92 main_v74 (by decide)) V

theorem rd_main_v75 : 𝔸[main_v75] = mulf (F := Ideal) (s := S2000000x3x3) (φ := .f32) 𝔸[main_v74] 𝔸[main_v29] :=
  rd_binary 92 rfl (not_written_from 92 main_v74 (by decide)) (not_written_from 92 main_v29 (by decide)) (not_written_from 93 main_v75 (by decide)) V

theorem rd_main_v76 : 𝔸[main_v76] = addf (F := Ideal) (s := S2000000x3x3) (φ := .f32) 𝔸[main_v72] 𝔸[main_v75] :=
  rd_binary 93 rfl (not_written_from 93 main_v72 (by decide)) (not_written_from 93 main_v75 (by decide)) (not_written_from 94 main_v76 (by decide)) V

theorem rd_main_v77 : 𝔸[main_v77] = Host.dotGeneral (F := Ideal) (φ₁ := .f32) (φ₂ := .f32) dot_S2000000x3x3_S2000000x3x1_S2000000x3x1_2_1_1_2_0_0 none 𝔸[main_v76] 𝔸[main_v0] :=
  rd_binary 94 rfl (not_written_from 94 main_v76 (by decide)) (not_written_from 94 main_v0 (by decide)) (not_written_from 95 main_v77 (by decide)) V

theorem rd_main_v78 : 𝔸[main_v78] = concatenate S2000000x3x4 2 [⟨S2000000x3x3, 𝔸[main_v66]⟩, ⟨S2000000x3x1, 𝔸[main_v77]⟩] concatenates_S2000000x3x3_S2000000x3x1_S2000000x3x4_d2 :=
  rd_binary 95 rfl (not_written_from 95 main_v66 (by decide)) (not_written_from 95 main_v77 (by decide)) (not_written_from 96 main_v78 (by decide)) V

theorem rd_main_v79 : 𝔸[main_v79] = broadcastInDim S2000000x1x4 ![0, 1, 2] bcast_S1x1x4_S2000000x1x4_0_1_2 𝔸[main_cst] :=
  rd_unary 96 rfl (not_written_from 96 main_cst (by decide)) (not_written_from 97 main_v79 (by decide)) V

theorem rd_main_v80 : 𝔸[main_v80] = concatenate S2000000x4x4 1 [⟨S2000000x3x4, 𝔸[main_v78]⟩, ⟨S2000000x1x4, 𝔸[main_v79]⟩] concatenates_S2000000x3x4_S2000000x1x4_S2000000x4x4_d1 :=
  rd_binary 97 rfl (not_written_from 97 main_v78 (by decide)) (not_written_from 97 main_v79 (by decide)) (not_written_from 98 main_v80 (by decide)) V

theorem rd_main_v81 : 𝔸[main_v81] = extractStridedSlice S2000000x4x1 ![0, 3, 0] 𝔸[main_arg0] slices_S2000000x7x1_S2000000x4x1_0_3_0 :=
  rd_unary 98 rfl (not_written_from 98 main_arg0 (by decide)) (not_written_from 99 main_v81 (by decide)) V

theorem rd_main_v82 : 𝔸[main_v82] = shapeCast S2000000x4 𝔸[main_v81] shapeCasts_S2000000x4x1_S2000000x4 :=
  rd_reshape 99 rfl (not_written_from 99 main_v81 (by decide)) (not_written_from 100 main_v82 (by decide)) V

theorem rd_main_v83 : 𝔸[main_v83] = extractStridedSlice S2000000x1 ![0, 0] 𝔸[main_v82] slices_S2000000x4_S2000000x1_0_0 :=
  rd_unary 100 rfl (not_written_from 100 main_v82 (by decide)) (not_written_from 101 main_v83 (by decide)) V

theorem rd_main_v84 : 𝔸[main_v84] = shapeCast S2000000 𝔸[main_v83] shapeCasts_S2000000x1_S2000000 :=
  rd_reshape 101 rfl (not_written_from 101 main_v83 (by decide)) (not_written_from 102 main_v84 (by decide)) V

theorem rd_main_v85 : 𝔸[main_v85] = extractStridedSlice S2000000x1 ![0, 1] 𝔸[main_v82] slices_S2000000x4_S2000000x1_0_1 :=
  rd_unary 102 rfl (not_written_from 102 main_v82 (by decide)) (not_written_from 103 main_v85 (by decide)) V

theorem rd_main_v86 : 𝔸[main_v86] = shapeCast S2000000 𝔸[main_v85] shapeCasts_S2000000x1_S2000000 :=
  rd_reshape 103 rfl (not_written_from 103 main_v85 (by decide)) (not_written_from 104 main_v86 (by decide)) V

theorem rd_main_v87 : 𝔸[main_v87] = extractStridedSlice S2000000x1 ![0, 2] 𝔸[main_v82] slices_S2000000x4_S2000000x1_0_2 :=
  rd_unary 104 rfl (not_written_from 104 main_v82 (by decide)) (not_written_from 105 main_v87 (by decide)) V

theorem rd_main_v88 : 𝔸[main_v88] = shapeCast S2000000 𝔸[main_v87] shapeCasts_S2000000x1_S2000000 :=
  rd_reshape 105 rfl (not_written_from 105 main_v87 (by decide)) (not_written_from 106 main_v88 (by decide)) V

theorem rd_main_v89 : 𝔸[main_v89] = extractStridedSlice S2000000x1 ![0, 3] 𝔸[main_v82] slices_S2000000x4_S2000000x1_0_3 :=
  rd_unary 106 rfl (not_written_from 106 main_v82 (by decide)) (not_written_from 107 main_v89 (by decide)) V

theorem rd_main_v90 : 𝔸[main_v90] = shapeCast S2000000 𝔸[main_v89] shapeCasts_S2000000x1_S2000000 :=
  rd_reshape 107 rfl (not_written_from 107 main_v89 (by decide)) (not_written_from 108 main_v90 (by decide)) V

theorem rd_main_v91 : 𝔸[main_v91] = mulf (F := Ideal) (s := S2000000) (φ := .f32) 𝔸[main_v88] 𝔸[main_v88] :=
  rd_binary 108 rfl (not_written_from 108 main_v88 (by decide)) (not_written_from 108 main_v88 (by decide)) (not_written_from 109 main_v91 (by decide)) V

theorem rd_main_v92 : 𝔸[main_v92] = mulf (F := Ideal) (s := S2000000) (φ := .f32) 𝔸[main_v90] 𝔸[main_v90] :=
  rd_binary 109 rfl (not_written_from 109 main_v90 (by decide)) (not_written_from 109 main_v90 (by decide)) (not_written_from 110 main_v92 (by decide)) V

theorem rd_main_v93 : 𝔸[main_v93] = addf (F := Ideal) (s := S2000000) (φ := .f32) 𝔸[main_v91] 𝔸[main_v92] :=
  rd_binary 110 rfl (not_written_from 110 main_v91 (by decide)) (not_written_from 110 main_v92 (by decide)) (not_written_from 111 main_v93 (by decide)) V

theorem rd_main_cst_7 : 𝔸[main_cst_7] = (constant (F := Ideal) S_ .f32 0x40000000#32) :=
  rd_nullary 111 rfl (not_written_from 112 main_cst_7 (by decide)) V

theorem rd_main_v94 : 𝔸[main_v94] = broadcastInDim S2000000 ![] bcast_S_S2000000 𝔸[main_cst_7] :=
  rd_unary 112 rfl (not_written_from 112 main_cst_7 (by decide)) (not_written_from 113 main_v94 (by decide)) V

theorem rd_main_v95 : 𝔸[main_v95] = mulf (F := Ideal) (s := S2000000) (φ := .f32) 𝔸[main_v94] 𝔸[main_v93] :=
  rd_binary 113 rfl (not_written_from 113 main_v94 (by decide)) (not_written_from 113 main_v93 (by decide)) (not_written_from 114 main_v95 (by decide)) V

theorem rd_main_cst_8 : 𝔸[main_cst_8] = (constant (F := Ideal) S_ .f32 0x3F800000#32) :=
  rd_nullary 114 rfl (not_written_from 115 main_cst_8 (by decide)) V

theorem rd_main_v96 : 𝔸[main_v96] = broadcastInDim S2000000 ![] bcast_S_S2000000 𝔸[main_cst_8] :=
  rd_unary 115 rfl (not_written_from 115 main_cst_8 (by decide)) (not_written_from 116 main_v96 (by decide)) V

theorem rd_main_v97 : 𝔸[main_v97] = subf (F := Ideal) (s := S2000000) (φ := .f32) 𝔸[main_v96] 𝔸[main_v95] :=
  rd_binary 116 rfl (not_written_from 116 main_v96 (by decide)) (not_written_from 116 main_v95 (by decide)) (not_written_from 117 main_v97 (by decide)) V

theorem rd_main_v98 : 𝔸[main_v98] = mulf (F := Ideal) (s := S2000000) (φ := .f32) 𝔸[main_v86] 𝔸[main_v88] :=
  rd_binary 117 rfl (not_written_from 117 main_v86 (by decide)) (not_written_from 117 main_v88 (by decide)) (not_written_from 118 main_v98 (by decide)) V

theorem rd_main_v99 : 𝔸[main_v99] = mulf (F := Ideal) (s := S2000000) (φ := .f32) 𝔸[main_v90] 𝔸[main_v84] :=
  rd_binary 118 rfl (not_written_from 118 main_v90 (by decide)) (not_written_from 118 main_v84 (by decide)) (not_written_from 119 main_v99 (by decide)) V

theorem rd_main_v100 : 𝔸[main_v100] = subf (F := Ideal) (s := S2000000) (φ := .f32) 𝔸[main_v98] 𝔸[main_v99] :=
  rd_binary 119 rfl (not_written_from 119 main_v98 (by decide)) (not_written_from 119 main_v99 (by decide)) (not_written_from 120 main_v100 (by decide)) V

theorem rd_main_cst_9 : 𝔸[main_cst_9] = (constant (F := Ideal) S_ .f32 0x40000000#32) :=
  rd_nullary 120 rfl (not_written_from 121 main_cst_9 (by decide)) V

theorem rd_main_v101 : 𝔸[main_v101] = broadcastInDim S2000000 ![] bcast_S_S2000000 𝔸[main_cst_9] :=
  rd_unary 121 rfl (not_written_from 121 main_cst_9 (by decide)) (not_written_from 122 main_v101 (by decide)) V

theorem rd_main_v102 : 𝔸[main_v102] = mulf (F := Ideal) (s := S2000000) (φ := .f32) 𝔸[main_v101] 𝔸[main_v100] :=
  rd_binary 122 rfl (not_written_from 122 main_v101 (by decide)) (not_written_from 122 main_v100 (by decide)) (not_written_from 123 main_v102 (by decide)) V

theorem rd_main_v103 : 𝔸[main_v103] = mulf (F := Ideal) (s := S2000000) (φ := .f32) 𝔸[main_v86] 𝔸[main_v90] :=
  rd_binary 123 rfl (not_written_from 123 main_v86 (by decide)) (not_written_from 123 main_v90 (by decide)) (not_written_from 124 main_v103 (by decide)) V

theorem rd_main_v104 : 𝔸[main_v104] = mulf (F := Ideal) (s := S2000000) (φ := .f32) 𝔸[main_v88] 𝔸[main_v84] :=
  rd_binary 124 rfl (not_written_from 124 main_v88 (by decide)) (not_written_from 124 main_v84 (by decide)) (not_written_from 125 main_v104 (by decide)) V

theorem rd_main_v105 : 𝔸[main_v105] = addf (F := Ideal) (s := S2000000) (φ := .f32) 𝔸[main_v103] 𝔸[main_v104] :=
  rd_binary 125 rfl (not_written_from 125 main_v103 (by decide)) (not_written_from 125 main_v104 (by decide)) (not_written_from 126 main_v105 (by decide)) V

theorem rd_main_cst_10 : 𝔸[main_cst_10] = (constant (F := Ideal) S_ .f32 0x40000000#32) :=
  rd_nullary 126 rfl (not_written_from 127 main_cst_10 (by decide)) V

theorem rd_main_v106 : 𝔸[main_v106] = broadcastInDim S2000000 ![] bcast_S_S2000000 𝔸[main_cst_10] :=
  rd_unary 127 rfl (not_written_from 127 main_cst_10 (by decide)) (not_written_from 128 main_v106 (by decide)) V

end

end Cert.ReferenceIdeal.Head
-- ==== Proof.RefHeadLayout.lean ====
/-
  Layout operations of the first half of the reference, read at an index.

  Each lemma takes one operation of the program applied to VARIABLE operands and says which element of which operand
  the result holds at an index written out by coordinates: a slice reads the operand shifted by its offsets, a
  reshape between [n, k, 1], [n, k] and [n] keeps the coordinates, a broadcast reads the operand at the coordinates
  it names, a concatenation reads the piece whose span holds the coordinate on the joined axis.
-/
import proofs.«161387_j47622597378731_2_alg».proof.ReferenceIdeal
import Idealize.ShloMosaic.Lib.ValueIdx
import Idealize.ShloMosaic.Lib.ValueLayout
import Idealize.ShloMosaic.Lib.Pipeline.Value

namespace Cert.ReferenceIdeal.Head

open Idealize.ShloMosaic Idealize.ShloMosaic.ValueIdx
open Cert.ReferenceIdeal Cert.ReferenceIdeal.Facts₀

variable [Facts₀] {α : Type}

/-! ## Slices -/

/-- Rows 0..2 of a [n, 6, 1] array. -/
theorem slice6_lo (X : S2000000x6x1.Idx → α) (b : Fin 2000000) (k : Fin 3) :
    extractStridedSlice S2000000x3x1 ![0, 0, 0] X slices_S2000000x6x1_S2000000x3x1_0_0_0 (ix3 b k 0)
      = X (ix3 b ⟨k.val, by omega⟩ 0) :=
  extractStridedSlice_apply _ X _ (ix3 b k 0) (ix3 b ⟨k.val, by omega⟩ 0) (fun a => match a with
    | ⟨0, _⟩ => by show b.val = 0 + b.val; omega
    | ⟨1, _⟩ => by show k.val = 0 + k.val; omega
    | ⟨2, _⟩ => by show 0 = 0 + 0; rfl)

/-- Rows 3..5 of a [n, 6, 1] array. -/
theorem slice6_hi (X : S2000000x6x1.Idx → α) (b : Fin 2000000) (k : Fin 3) :
    extractStridedSlice S2000000x3x1 ![0, 3, 0] X slices_S2000000x6x1_S2000000x3x1_0_3_0 (ix3 b k 0)
      = X (ix3 b ⟨3 + k.val, by omega⟩ 0) :=
  extractStridedSlice_apply _ X _ (ix3 b k 0) (ix3 b ⟨3 + k.val, by omega⟩ 0) (fun a => match a with
    | ⟨0, _⟩ => by show b.val = 0 + b.val; omega
    | ⟨1, _⟩ => by show 3 + k.val = 3 + k.val; rfl
    | ⟨2, _⟩ => by show 0 = 0 + 0; rfl)

/-- Rows 0..2 of a [n, 7, 1] array. -/
theorem slice7_lo (X : S2000000x7x1.Idx → α) (b : Fin 2000000) (k : Fin 3) :
    extractStridedSlice S2000000x3x1 ![0, 0, 0] X slices_S2000000x7x1_S2000000x3x1_0_0_0 (ix3 b k 0)
      = X (ix3 b ⟨k.val, by omega⟩ 0) :=
  extractStridedSlice_apply _ X _ (ix3 b k 0) (ix3 b ⟨k.val, by omega⟩ 0) (fun a => match a with
    | ⟨0, _⟩ => by show b.val = 0 + b.val; omega
    | ⟨1, _⟩ => by show k.val = 0 + k.val; omega
    | ⟨2, _⟩ => by show 0 = 0 + 0; rfl)

/-- Rows 3..6 of a [n, 7, 1] array. -/
theorem slice7_hi (X : S2000000x7x1.Idx → α) (b : Fin 2000000) (k : Fin 4) :
    extractStridedSlice S2000000x4x1 ![0, 3, 0] X slices_S2000000x7x1_S2000000x4x1_0_3_0 (ix3 b k 0)
      = X (ix3 b ⟨3 + k.val, by omega⟩ 0) :=
  extractStridedSlice_apply _ X _ (ix3 b k 0) (ix3 b ⟨3 + k.val, by omega⟩ 0) (fun a => match a with
    | ⟨0, _⟩ => by show b.val = 0 + b.val; omega
    | ⟨1, _⟩ => by show 3 + k.val = 3 + k.val; rfl
    | ⟨2, _⟩ => by show 0 = 0 + 0; rfl)

/-- Column 0 of a [n, 3] array. -/
theorem slice3_c0 (x : S2000000x3.Idx → α) (b : Fin 2000000) :
    extractStridedSlice S2000000x1 ![0, 0] x slices_S2000000x3_S2000000x1_0_0 (ix2 b 0) = x (ix2 b 0) :=
  extractStridedSlice_apply _ x _ (ix2 b 0) (ix2 b 0) (fun a => match a with
    | ⟨0, _⟩ => by show b.val = 0 + b.val; omega
    | ⟨1, _⟩ => by show 0 = 0 + 0; rfl)
/-- Column 1 of a [n, 3] array. -/
theorem slice3_c1 (x : S2000000x3.Idx → α) (b : Fin 2000000) :
    extractStridedSlice S2000000x1 ![0, 1] x slices_S2000000x3_S2000000x1_0_1 (ix2 b 0) = x (ix2 b 1) :=
  extractStridedSlice_apply _ x _ (ix2 b 0) (ix2 b 1) (fun a => match a with
    | ⟨0, _⟩ => by show b.val = 0 + b.val; omega
    | ⟨1, _⟩ => by show 1 = 1 + 0; rfl)
/-- Column 2 of a [n, 3] array. -/
theorem slice3_c2 (x : S2000000x3.Idx → α) (b : Fin 2000000) :
    extractStridedSlice S2000000x1 ![0, 2] x slices_S2000000x3_S2000000x1_0_2 (ix2 b 0) = x (ix2 b 2) :=
  extractStridedSlice_apply _ x _ (ix2 b 0) (ix2 b 2) (fun a => match a with
    | ⟨0, _⟩ => by show b.val = 0 + b.val; omega
    | ⟨1, _⟩ => by show 2 = 2 + 0; rfl)

/-- Column 0 of a [n, 4] array. -/
theorem slice4_c0 (x : S2000000x4.Idx → α) (b : Fin 2000000) :
    extractStridedSlice S2000000x1 ![0, 0] x slices_S2000000x4_S2000000x1_0_0 (ix2 b 0) = x (ix2 b 0) :=
  extractStridedSlice_apply _ x _ (ix2 b 0) (ix2 b 0) (fun a => match a with
    | ⟨0, _⟩ => by show b.val = 0 + b.val; omega
    | ⟨1, _⟩ => by show 0 = 0 + 0; rfl)
/-- Column 1 of a [n, 4] array. -/
theorem slice4_c1 (x : S2000000x4.Idx → α) (b : Fin 2000000) :
    extractStridedSlice S2000000x1 ![0, 1] x slices_S2000000x4_S2000000x1_0_1 (ix2 b 0) = x (ix2 b 1) :=
  extractStridedSlice_apply _ x _ (ix2 b 0) (ix2 b 1) (fun a => match a with
    | ⟨0, _⟩ => by show b.val = 0 + b.val; omega
    | ⟨1, _⟩ => by show 1 = 1 + 0; rfl)
/-- Column 2 of a [n, 4] array. -/
theorem slice4_c2 (x : S2000000x4.Idx → α) (b : Fin 2000000) :
    extractStridedSlice S2000000x1 ![0, 2] x slices_S2000000x4_S2000000x1_0_2 (ix2 b 0) = x (ix2 b 2) :=
  extractStridedSlice_apply _ x _ (ix2 b 0) (ix2 b 2) (fun a => match a with
    | ⟨0, _⟩ => by show b.val = 0 + b.val; omega
    | ⟨1, _⟩ => by show 2 = 2 + 0; rfl)
/-- Column 3 of a [n, 4] array. -/
theorem slice4_c3 (x : S2000000x4.Idx → α) (b : Fin 2000000) :
    extractStridedSlice S2000000x1 ![0, 3] x slices_S2000000x4_S2000000x1_0_3 (ix2 b 0) = x (ix2 b 3) :=
  extractStridedSlice_apply _ x _ (ix2 b 0) (ix2 b 3) (fun a => match a with
    | ⟨0, _⟩ => by show b.val = 0 + b.val; omega
    | ⟨1, _⟩ => by show 3 = 3 + 0; rfl)

/-! ## Reshapes that drop a trailing unit axis -/

/-- [n, 3, 1] viewed [n, 3]. -/
theorem cast_3x1_3 (x : S2000000x3x1.Idx → α) (b : Fin 2000000) (k : Fin 3) :
    shapeCast S2000000x3 x shapeCasts_S2000000x3x1_S2000000x3 (ix2 b k) = x (ix3 b k 0) :=
  shapeCast_apply x _ (ix2 b k) (ix3 b k 0) (by
    rw [Shape.rowMajor_val_three, Shape.rowMajor_val_two]
    show (b.val * 3 + k.val) * 1 + 0 = b.val * 3 + k.val; omega)

/-- [n, 4, 1] viewed [n, 4]. -/
theorem cast_4x1_4 (x : S2000000x4x1.Idx → α) (b : Fin 2000000) (k : Fin 4) :
    shapeCast S2000000x4 x shapeCasts_S2000000x4x1_S2000000x4 (ix2 b k) = x (ix3 b k 0) :=
  shapeCast_apply x _ (ix2 b k) (ix3 b k 0) (by
    rw [Shape.rowMajor_val_three, Shape.rowMajor_val_two]
    show (b.val * 4 + k.val) * 1 + 0 = b.val * 4 + k.val; omega)

/-- [n, 1] viewed [n]. -/
theorem cast_1_ (x : S2000000x1.Idx → α) (b : Fin 2000000) :
    shapeCast S2000000 x shapeCasts_S2000000x1_S2000000 (ix1 b) = x (ix2 b 0) :=
  shapeCast_apply x _ (ix1 b) (ix2 b 0) (by
    rw [Shape.rowMajor_val_two, Shape.rowMajor_val_one]
    show b.val * 1 + 0 = b.val; omega)

end Cert.ReferenceIdeal.Head
-- ==== Proof.RefHeadJoin.lean ====
/-
  Broadcasts and concatenations of the first half of the reference, read at an index.

  A broadcast reads its operand at the coordinates it names (0 on the operand's unit axes); a concatenation of
  unit-extent pieces along an axis reads piece number "the coordinate on that axis"; a concatenation of a block and a
  border reads the block below the block's extent and the border at it.
-/
import proofs.«161387_j47622597378731_2_alg».proof.ReferenceIdeal
import Idealize.ShloMosaic.Lib.ValueIdx
import Idealize.ShloMosaic.Lib.Pipeline.Value

namespace Cert.ReferenceIdeal.Head

open Idealize.ShloMosaic Idealize.ShloMosaic.ValueIdx
open Cert.ReferenceIdeal Cert.ReferenceIdeal.Facts₀

variable [Facts₀] {α : Type}

/-! ## Broadcasts -/

/-- A scalar over [n]. -/
theorem bc_s_n (x : S_.Idx → α) (b : Fin 2000000) :
    broadcastInDim S2000000 ![] bcast_S_S2000000 x (ix1 b) = x ix0 :=
  broadcastInDim_apply _ _ x (ix1 b) ix0 (fun a => a.elim0)

/-- A scalar over [3, 3]. -/
theorem bc_s_33 {β : Type} (x : S_.Idx → β) (i j : Fin 3) :
    broadcastInDim S3x3 ![] bcast_S_S3x3 x (ix2 i j) = x ix0 :=
  broadcastInDim_apply _ _ x (ix2 i j) ix0 (fun a => a.elim0)

/-- [n] as a column [n, 1]. -/
theorem bc_n_n1 (x : S2000000.Idx → α) (b : Fin 2000000) :
    broadcastInDim S2000000x1 ![0] bcast_S2000000_S2000000x1_0 x (ix2 b 0) = x (ix1 b) :=
  broadcastInDim_apply _ _ x (ix2 b 0) (ix1 b) (fun a => match a with
    | ⟨0, _⟩ => by show b.val = if (2000000 : Nat) = 1 then 0 else b.val; rw [if_neg (by decide)])

/-- [n, 3] as [n, 1, 3]. -/
theorem bc_n3_n13 (x : S2000000x3.Idx → α) (b : Fin 2000000) (j : Fin 3) :
    broadcastInDim S2000000x1x3 ![0, 2] bcast_S2000000x3_S2000000x1x3_0_2 x (ix3 b 0 j) = x (ix2 b j) :=
  broadcastInDim_apply _ _ x (ix3 b 0 j) (ix2 b j) (fun a => match a with
    | ⟨0, _⟩ => by show b.val = if (2000000 : Nat) = 1 then 0 else b.val; rw [if_neg (by decide)]
    | ⟨1, _⟩ => by show j.val = if (3 : Nat) = 1 then 0 else j.val; rw [if_neg (by decide)])

/-- [n] as [n, 1, 1]. -/
theorem bc_n_n11 (x : S2000000.Idx → α) (b : Fin 2000000) :
    broadcastInDim S2000000x1x1 ![0] bcast_S2000000_S2000000x1x1_0 x (ix3 b 0 0) = x (ix1 b) :=
  broadcastInDim_apply _ _ x (ix3 b 0 0) (ix1 b) (fun a => match a with
    | ⟨0, _⟩ => by show b.val = if (2000000 : Nat) = 1 then 0 else b.val; rw [if_neg (by decide)])

/-- [n, 1, 1] over [n, 3, 3]. -/
theorem bc_n11_n33 (x : S2000000x1x1.Idx → α) (b : Fin 2000000) (i j : Fin 3) :
    broadcastInDim S2000000x3x3 ![0, 1, 2] bcast_S2000000x1x1_S2000000x3x3_0_1_2 x (ix3 b i j) = x (ix3 b 0 0) :=
  broadcastInDim_apply _ _ x (ix3 b i j) (ix3 b 0 0) (fun a => match a with
    | ⟨0, _⟩ => by show b.val = if (2000000 : Nat) = 1 then 0 else b.val; rw [if_neg (by decide)]
    | ⟨1, _⟩ => by show 0 = if (1 : Nat) = 1 then 0 else i.val; rw [if_pos rfl]
    | ⟨2, _⟩ => by show 0 = if (1 : Nat) = 1 then 0 else j.val; rw [if_pos rfl])

/-- [3, 3] as [1, 3, 3]. -/
theorem bc_33_133 (x : S3x3.Idx → α) (i j : Fin 3) :
    broadcastInDim S1x3x3 ![1, 2] bcast_S3x3_S1x3x3_1_2 x (ix3 0 i j) = x (ix2 i j) :=
  broadcastInDim_apply _ _ x (ix3 0 i j) (ix2 i j) (fun a => match a with
    | ⟨0, _⟩ => by show i.val = if (3 : Nat) = 1 then 0 else i.val; rw [if_neg (by decide)]
    | ⟨1, _⟩ => by show j.val = if (3 : Nat) = 1 then 0 else j.val; rw [if_neg (by decide)])

/-- [1, 3, 3] over [n, 3, 3]. -/
theorem bc_133_n33 (x : S1x3x3.Idx → α) (b : Fin 2000000) (i j : Fin 3) :
    broadcastInDim S2000000x3x3 ![0, 1, 2] bcast_S1x3x3_S2000000x3x3_0_1_2 x (ix3 b i j) = x (ix3 0 i j) :=
  broadcastInDim_apply _ _ x (ix3 b i j) (ix3 0 i j) (fun a => match a with
    | ⟨0, _⟩ => by show 0 = if (1 : Nat) = 1 then 0 else b.val; rw [if_pos rfl]
    | ⟨1, _⟩ => by show i.val = if (3 : Nat) = 1 then 0 else i.val; rw [if_neg (by decide)]
    | ⟨2, _⟩ => by show j.val = if (3 : Nat) = 1 then 0 else j.val; rw [if_neg (by decide)])

/-- [1, 1, 4] over [n, 1, 4]. -/
theorem bc_114_n14 (x : S1x1x4.Idx → α) (b : Fin 2000000) (j : Fin 4) :
    broadcastInDim S2000000x1x4 ![0, 1, 2] bcast_S1x1x4_S2000000x1x4_0_1_2 x (ix3 b 0 j) = x (ix3 0 0 j) :=
  broadcastInDim_apply _ _ x (ix3 b 0 j) (ix3 0 0 j) (fun a => match a with
    | ⟨0, _⟩ => by show 0 = if (1 : Nat) = 1 then 0 else b.val; rw [if_pos rfl]
    | ⟨1, _⟩ => by show 0 = if (1 : Nat) = 1 then 0 else 0; rw [if_pos rfl]
    | ⟨2, _⟩ => by show j.val = if (4 : Nat) = 1 then 0 else j.val; rw [if_neg (by decide)])

/-! ## Concatenations -/

/-- Three columns [n, 1] side by side: column j of the result is the j-th piece. -/
theorem cat_cols3 (u0 u1 u2 : S2000000x1.Idx → α) (b : Fin 2000000) (j : Fin 3) :
    concatenate S2000000x3 1 [⟨S2000000x1, u0⟩, ⟨S2000000x1, u1⟩, ⟨S2000000x1, u2⟩]
        concatenates_S2000000x1_S2000000x1_S2000000x1_S2000000x3_d1 (ix2 b j)
      = ![u0 (ix2 b 0), u1 (ix2 b 0), u2 (ix2 b 0)] j :=
  match j with
  | ⟨0, _⟩ => concatenate_apply_piece (t := S2000000x3) (1 : Fin 2) [⟨S2000000x1, u0⟩, ⟨S2000000x1, u1⟩, ⟨S2000000x1, u2⟩]
      concatenates_S2000000x1_S2000000x1_S2000000x1_S2000000x3_d1 (ix2 b (0 : Fin 3)) 0 (by simp) S2000000x1 u0 rfl rfl 0 rfl
      (ix2 b (0 : Fin 1)) (fun a => match a with | ⟨0, _⟩ => fun _ => rfl | ⟨1, _⟩ => fun h => absurd rfl h) rfl
  | ⟨1, _⟩ => concatenate_apply_piece (t := S2000000x3) (1 : Fin 2) [⟨S2000000x1, u0⟩, ⟨S2000000x1, u1⟩, ⟨S2000000x1, u2⟩]
      concatenates_S2000000x1_S2000000x1_S2000000x1_S2000000x3_d1 (ix2 b (1 : Fin 3)) 1 (by simp) S2000000x1 u1 rfl rfl 1 rfl
      (ix2 b (0 : Fin 1)) (fun a => match a with | ⟨0, _⟩ => fun _ => rfl | ⟨1, _⟩ => fun h => absurd rfl h) rfl
  | ⟨2, _⟩ => concatenate_apply_piece (t := S2000000x3) (1 : Fin 2) [⟨S2000000x1, u0⟩, ⟨S2000000x1, u1⟩, ⟨S2000000x1, u2⟩]
      concatenates_S2000000x1_S2000000x1_S2000000x1_S2000000x3_d1 (ix2 b (2 : Fin 3)) 2 (by simp) S2000000x1 u2 rfl rfl 2 rfl
      (ix2 b (0 : Fin 1)) (fun a => match a with | ⟨0, _⟩ => fun _ => rfl | ⟨1, _⟩ => fun h => absurd rfl h) rfl

/-- Three rows [n, 1, 3] stacked: row i of the result is the i-th piece. -/
theorem cat_rows3 (v0 v1 v2 : S2000000x1x3.Idx → α) (b : Fin 2000000) (i j : Fin 3) :
    concatenate S2000000x3x3 1 [⟨S2000000x1x3, v0⟩, ⟨S2000000x1x3, v1⟩, ⟨S2000000x1x3, v2⟩]
        concatenates_S2000000x1x3_S2000000x1x3_S2000000x1x3_S2000000x3x3_d1 (ix3 b i j)
      = ![v0 (ix3 b 0 j), v1 (ix3 b 0 j), v2 (ix3 b 0 j)] i :=
  match i with
  | ⟨0, _⟩ => concatenate_apply_piece (t := S2000000x3x3) (1 : Fin 3) [⟨S2000000x1x3, v0⟩, ⟨S2000000x1x3, v1⟩, ⟨S2000000x1x3, v2⟩]
      concatenates_S2000000x1x3_S2000000x1x3_S2000000x1x3_S2000000x3x3_d1 (ix3 b (0 : Fin 3) j) 0 (by simp) S2000000x1x3 v0 rfl rfl 0 rfl
      (ix3 b (0 : Fin 1) j) (fun a => match a with | ⟨0, _⟩ => fun _ => rfl | ⟨1, _⟩ => fun h => absurd rfl h | ⟨2, _⟩ => fun _ => rfl) rfl
  | ⟨1, _⟩ => concatenate_apply_piece (t := S2000000x3x3) (1 : Fin 3) [⟨S2000000x1x3, v0⟩, ⟨S2000000x1x3, v1⟩, ⟨S2000000x1x3, v2⟩]
      concatenates_S2000000x1x3_S2000000x1x3_S2000000x1x3_S2000000x3x3_d1 (ix3 b (1 : Fin 3) j) 1 (by simp) S2000000x1x3 v1 rfl rfl 1 rfl
      (ix3 b (0 : Fin 1) j) (fun a => match a with | ⟨0, _⟩ => fun _ => rfl | ⟨1, _⟩ => fun h => absurd rfl h | ⟨2, _⟩ => fun _ => rfl) rfl
  | ⟨2, _⟩ => concatenate_apply_piece (t := S2000000x3x3) (1 : Fin 3) [⟨S2000000x1x3, v0⟩, ⟨S2000000x1x3, v1⟩, ⟨S2000000x1x3, v2⟩]
      concatenates_S2000000x1x3_S2000000x1x3_S2000000x1x3_S2000000x3x3_d1 (ix3 b (2 : Fin 3) j) 2 (by simp) S2000000x1x3 v2 rfl rfl 2 rfl
      (ix3 b (0 : Fin 1) j) (fun a => match a with | ⟨0, _⟩ => fun _ => rfl | ⟨1, _⟩ => fun h => absurd rfl h | ⟨2, _⟩ => fun _ => rfl) rfl

/-- A [n, 3, 3] block with a [n, 3, 1] column on its right: columns 0..2 are the block's, column 3 is the column. -/
theorem cat_block_col (R : S2000000x3x3.Idx → α) (v : S2000000x3x1.Idx → α) (b : Fin 2000000) (i : Fin 3) (j : Fin 4) :
    concatenate S2000000x3x4 2 [⟨S2000000x3x3, R⟩, ⟨S2000000x3x1, v⟩]
        concatenates_S2000000x3x3_S2000000x3x1_S2000000x3x4_d2 (ix3 b i j)
      = if hj : j.val < 3 then R (ix3 b i ⟨j.val, hj⟩) else v (ix3 b i 0) := by
  by_cases hj : j.val < 3
  · rw [dif_pos hj]
    exact concatenate_pair_apply_left (2 : Fin 3) R v _ (ix3 b i j) rfl (ix3 b i ⟨j.val, hj⟩)
      (fun a => match a with | ⟨0, _⟩ => rfl | ⟨1, _⟩ => rfl | ⟨2, _⟩ => rfl)
  · rw [dif_neg hj]
    refine concatenate_pair_apply_right (2 : Fin 3) R v _ (ix3 b i j) rfl rfl (ix3 b i 0)
      (fun a => match a with | ⟨0, _⟩ => fun _ => rfl | ⟨1, _⟩ => fun _ => rfl | ⟨2, _⟩ => fun h => absurd rfl h) ?_
    show 0 + 3 = j.val
    have := j.isLt; omega

/-- A [n, 3, 4] block with a [n, 1, 4] row under it: rows 0..2 are the block's, row 3 is the row. -/
theorem cat_block_row (M : S2000000x3x4.Idx → α) (w : S2000000x1x4.Idx → α) (b : Fin 2000000) (i j : Fin 4) :
    concatenate S2000000x4x4 1 [⟨S2000000x3x4, M⟩, ⟨S2000000x1x4, w⟩]
        concatenates_S2000000x3x4_S2000000x1x4_S2000000x4x4_d1 (ix3 b i j)
      = if hi : i.val < 3 then M (ix3 b ⟨i.val, hi⟩ j) else w (ix3 b 0 j) := by
  by_cases hi : i.val < 3
  · rw [dif_pos hi]
    exact concatenate_pair_apply_left (1 : Fin 3) M w _ (ix3 b i j) rfl (ix3 b ⟨i.val, hi⟩ j)
      (fun a => match a with | ⟨0, _⟩ => rfl | ⟨1, _⟩ => rfl | ⟨2, _⟩ => rfl)
  · rw [dif_neg hi]
    refine concatenate_pair_apply_right (1 : Fin 3) M w _ (ix3 b i j) rfl rfl (ix3 b 0 j)
      (fun a => match a with | ⟨0, _⟩ => fun _ => rfl | ⟨1, _⟩ => fun h => absurd rfl h | ⟨2, _⟩ => fun _ => rfl) ?_
    show 0 + 3 = i.val
    have := i.isLt; omega

end Cert.ReferenceIdeal.Head
-- ==== Proof.RefHeadDot.lean ====
/-
  The three batched matrix products of the first half of the reference, read at an index.

  At the exact values a dot_general with one contracted axis is, at each index of its result, the sum over the
  contracted coordinate of the products of the operands' elements. With batch axis 0 on both sides, the left
  operand's axis 2 contracted against the right's axis 1, the result's index (b, i, j) reads the left operand at
  (b, i, k) and the right at (b, k, j).
-/
import proofs.«161387_j47622597378731_2_alg».proof.ReferenceIdeal
import Idealize.ShloMosaic.Lib.ValueIdx
import Idealize.ShloMosaic.PureOps.Ideal.Laws

open scoped BigOperators

namespace Cert.ReferenceIdeal.Head

open Idealize.ShloMosaic Idealize.ShloMosaic.ValueIdx
open Cert.ReferenceIdeal Cert.ReferenceIdeal.Facts₀

variable [Facts₀]

section dot33

theorem dot33_lhs0 (i : S2000000x3x3.Idx) (q : (dot_S2000000x3x3_S2000000x3x3_S2000000x3x3_2_1_1_2_0_0).contr.Idx) : ((dot_S2000000x3x3_S2000000x3x3_S2000000x3x3_2_1_1_2_0_0).lhsIdx i q 0).val = (i 0).val := by
  unfold DotDims.lhsIdx
  rw [dif_pos (show (0 : Fin S2000000x3x3.rank) ∈ (dot_S2000000x3x3_S2000000x3x3_S2000000x3x3_2_1_1_2_0_0).lhsBatch from List.mem_singleton.mpr rfl)]
  rfl
theorem dot33_lhs1 (i : S2000000x3x3.Idx) (q : (dot_S2000000x3x3_S2000000x3x3_S2000000x3x3_2_1_1_2_0_0).contr.Idx) : ((dot_S2000000x3x3_S2000000x3x3_S2000000x3x3_2_1_1_2_0_0).lhsIdx i q 1).val = (i 1).val := by
  unfold DotDims.lhsIdx
  rw [dif_neg (show ¬(1 : Fin S2000000x3x3.rank) ∈ (dot_S2000000x3x3_S2000000x3x3_S2000000x3x3_2_1_1_2_0_0).lhsBatch from fun h => absurd (List.mem_singleton.mp h) (by decide)),
    dif_pos (show (1 : Fin S2000000x3x3.rank) ∈ (dot_S2000000x3x3_S2000000x3x3_S2000000x3x3_2_1_1_2_0_0).lhsNonContracting from List.mem_singleton.mpr rfl)]
  rfl
theorem dot33_rhs0 (i : S2000000x3x3.Idx) (q : (dot_S2000000x3x3_S2000000x3x3_S2000000x3x3_2_1_1_2_0_0).contr.Idx) : ((dot_S2000000x3x3_S2000000x3x3_S2000000x3x3_2_1_1_2_0_0).rhsIdx i q 0).val = (i 0).val := by
  unfold DotDims.rhsIdx
  rw [dif_pos (show (0 : Fin S2000000x3x3.rank) ∈ (dot_S2000000x3x3_S2000000x3x3_S2000000x3x3_2_1_1_2_0_0).rhsBatch from List.mem_singleton.mpr rfl)]
  rfl
theorem dot33_rhs2 (i : S2000000x3x3.Idx) (q : (dot_S2000000x3x3_S2000000x3x3_S2000000x3x3_2_1_1_2_0_0).contr.Idx) : ((dot_S2000000x3x3_S2000000x3x3_S2000000x3x3_2_1_1_2_0_0).rhsIdx i q 2).val = (i 2).val := by
  unfold DotDims.rhsIdx
  rw [dif_neg (show ¬(2 : Fin S2000000x3x3.rank) ∈ (dot_S2000000x3x3_S2000000x3x3_S2000000x3x3_2_1_1_2_0_0).rhsBatch from fun h => absurd (List.mem_singleton.mp h) (by decide)),
    dif_pos (show (2 : Fin S2000000x3x3.rank) ∈ (dot_S2000000x3x3_S2000000x3x3_S2000000x3x3_2_1_1_2_0_0).rhsNonContracting from List.mem_singleton.mpr rfl)]
  rfl

/-- A batch of 3×3 by 3×3 products. -/
theorem dot33_apply (l : FVec Ideal S2000000x3x3 .f32) (r : FVec Ideal S2000000x3x3 .f32) (b : Fin 2000000) (i j : Fin 3) :
    Host.dotGeneral (F := Ideal) (dot_S2000000x3x3_S2000000x3x3_S2000000x3x3_2_1_1_2_0_0) none l r (ix3 b i j)
      = ∑ k : Fin 3, l (ix3 b i k) * r (ix3 b k j) := by
  simp only [Host.dotGeneral]
  rw [Ideal.dotGeneral_apply, ← Equiv.sum_comp (ValueIdx.contrEquiv1 (dot_S2000000x3x3_S2000000x3x3_S2000000x3x3_2_1_1_2_0_0) 3 rfl rfl).symm]
  refine Finset.sum_congr rfl fun k _ => ?_
  have hk := ValueIdx.contrEquiv1_symm_val (dot_S2000000x3x3_S2000000x3x3_S2000000x3x3_2_1_1_2_0_0) 3 rfl rfl k
  have el : (dot_S2000000x3x3_S2000000x3x3_S2000000x3x3_2_1_1_2_0_0).lhsIdx (ix3 b i j) ((ValueIdx.contrEquiv1 (dot_S2000000x3x3_S2000000x3x3_S2000000x3x3_2_1_1_2_0_0) 3 rfl rfl).symm k) = ix3 b i k :=
    funext fun a => Fin.ext (by
      match a with
      | ⟨0, _⟩ => exact dot33_lhs0 _ _
      | ⟨1, _⟩ => exact dot33_lhs1 _ _
      | ⟨2, _⟩ => exact ((dot_S2000000x3x3_S2000000x3x3_S2000000x3x3_2_1_1_2_0_0).lhsIdx_val_of_single (cl := 2) rfl _ _).trans hk)
  have er : (dot_S2000000x3x3_S2000000x3x3_S2000000x3x3_2_1_1_2_0_0).rhsIdx (ix3 b i j) ((ValueIdx.contrEquiv1 (dot_S2000000x3x3_S2000000x3x3_S2000000x3x3_2_1_1_2_0_0) 3 rfl rfl).symm k) = ix3 b k j :=
    funext fun a => Fin.ext (by
      match a with
      | ⟨0, _⟩ => exact dot33_rhs0 _ _
      | ⟨1, _⟩ => exact ((dot_S2000000x3x3_S2000000x3x3_S2000000x3x3_2_1_1_2_0_0).rhsIdx_val_of_single (cr := 1) rfl _ _).trans hk
      | ⟨2, _⟩ => exact dot33_rhs2 _ _)
  rw [el, er]

end dot33

section dot31

theorem dot31_lhs0 (i : S2000000x3x1.Idx) (q : (dot_S2000000x3x3_S2000000x3x1_S2000000x3x1_2_1_1_2_0_0).contr.Idx) : ((dot_S2000000x3x3_S2000000x3x1_S2000000x3x1_2_1_1_2_0_0).lhsIdx i q 0).val = (i 0).val := by
  unfold DotDims.lhsIdx
  rw [dif_pos (show (0 : Fin S2000000x3x3.rank) ∈ (dot_S2000000x3x3_S2000000x3x1_S2000000x3x1_2_1_1_2_0_0).lhsBatch from List.mem_singleton.mpr rfl)]
  rfl
theorem dot31_lhs1 (i : S2000000x3x1.Idx) (q : (dot_S2000000x3x3_S2000000x3x1_S2000000x3x1_2_1_1_2_0_0).contr.Idx) : ((dot_S2000000x3x3_S2000000x3x1_S2000000x3x1_2_1_1_2_0_0).lhsIdx i q 1).val = (i 1).val := by
  unfold DotDims.lhsIdx
  rw [dif_neg (show ¬(1 : Fin S2000000x3x3.rank) ∈ (dot_S2000000x3x3_S2000000x3x1_S2000000x3x1_2_1_1_2_0_0).lhsBatch from fun h => absurd (List.mem_singleton.mp h) (by decide)),
    dif_pos (show (1 : Fin S2000000x3x3.rank) ∈ (dot_S2000000x3x3_S2000000x3x1_S2000000x3x1_2_1_1_2_0_0).lhsNonContracting from List.mem_singleton.mpr rfl)]
  rfl
theorem dot31_rhs0 (i : S2000000x3x1.Idx) (q : (dot_S2000000x3x3_S2000000x3x1_S2000000x3x1_2_1_1_2_0_0).contr.Idx) : ((dot_S2000000x3x3_S2000000x3x1_S2000000x3x1_2_1_1_2_0_0).rhsIdx i q 0).val = (i 0).val := by
  unfold DotDims.rhsIdx
  rw [dif_pos (show (0 : Fin S2000000x3x1.rank) ∈ (dot_S2000000x3x3_S2000000x3x1_S2000000x3x1_2_1_1_2_0_0).rhsBatch from List.mem_singleton.mpr rfl)]
  rfl
theorem dot31_rhs2 (i : S2000000x3x1.Idx) (q : (dot_S2000000x3x3_S2000000x3x1_S2000000x3x1_2_1_1_2_0_0).contr.Idx) : ((dot_S2000000x3x3_S2000000x3x1_S2000000x3x1_2_1_1_2_0_0).rhsIdx i q 2).val = (i 2).val := by
  unfold DotDims.rhsIdx
  rw [dif_neg (show ¬(2 : Fin S2000000x3x1.rank) ∈ (dot_S2000000x3x3_S2000000x3x1_S2000000x3x1_2_1_1_2_0_0).rhsBatch from fun h => absurd (List.mem_singleton.mp h) (by decide)),
    dif_pos (show (2 : Fin S2000000x3x1.rank) ∈ (dot_S2000000x3x3_S2000000x3x1_S2000000x3x1_2_1_1_2_0_0).rhsNonContracting from List.mem_singleton.mpr rfl)]
  rfl

/-- A batch of 3×3 matrices applied to columns. -/
theorem dot31_apply (l : FVec Ideal S2000000x3x3 .f32) (r : FVec Ideal S2000000x3x1 .f32) (b : Fin 2000000) (i : Fin 3) :
    Host.dotGeneral (F := Ideal) (dot_S2000000x3x3_S2000000x3x1_S2000000x3x1_2_1_1_2_0_0) none l r (ix3 b i (0 : Fin 1))
      = ∑ k : Fin 3, l (ix3 b i k) * r (ix3 b k (0 : Fin 1)) := by
  simp only [Host.dotGeneral]
  rw [Ideal.dotGeneral_apply, ← Equiv.sum_comp (ValueIdx.contrEquiv1 (dot_S2000000x3x3_S2000000x3x1_S2000000x3x1_2_1_1_2_0_0) 3 rfl rfl).symm]
  refine Finset.sum_congr rfl fun k _ => ?_
  have hk := ValueIdx.contrEquiv1_symm_val (dot_S2000000x3x3_S2000000x3x1_S2000000x3x1_2_1_1_2_0_0) 3 rfl rfl k
  have el : (dot_S2000000x3x3_S2000000x3x1_S2000000x3x1_2_1_1_2_0_0).lhsIdx (ix3 b i (0 : Fin 1)) ((ValueIdx.contrEquiv1 (dot_S2000000x3x3_S2000000x3x1_S2000000x3x1_2_1_1_2_0_0) 3 rfl rfl).symm k) = ix3 b i k :=
    funext fun a => Fin.ext (by
      match a with
      | ⟨0, _⟩ => exact dot31_lhs0 _ _
      | ⟨1, _⟩ => exact dot31_lhs1 _ _
      | ⟨2, _⟩ => exact ((dot_S2000000x3x3_S2000000x3x1_S2000000x3x1_2_1_1_2_0_0).lhsIdx_val_of_single (cl := 2) rfl _ _).trans hk)
  have er : (dot_S2000000x3x3_S2000000x3x1_S2000000x3x1_2_1_1_2_0_0).rhsIdx (ix3 b i (0 : Fin 1)) ((ValueIdx.contrEquiv1 (dot_S2000000x3x3_S2000000x3x1_S2000000x3x1_2_1_1_2_0_0) 3 rfl rfl).symm k) = ix3 b k (0 : Fin 1) :=
    funext fun a => Fin.ext (by
      match a with
      | ⟨0, _⟩ => exact dot31_rhs0 _ _
      | ⟨1, _⟩ => exact ((dot_S2000000x3x3_S2000000x3x1_S2000000x3x1_2_1_1_2_0_0).rhsIdx_val_of_single (cr := 1) rfl _ _).trans hk
      | ⟨2, _⟩ => exact dot31_rhs2 _ _)
  rw [el, er]

end dot31

section dot44

theorem dot44_lhs0 (i : S2000000x4x4.Idx) (q : (dot_S2000000x4x4_S2000000x4x4_S2000000x4x4_2_1_1_2_0_0).contr.Idx) : ((dot_S2000000x4x4_S2000000x4x4_S2000000x4x4_2_1_1_2_0_0).lhsIdx i q 0).val = (i 0).val := by
  unfold DotDims.lhsIdx
  rw [dif_pos (show (0 : Fin S2000000x4x4.rank) ∈ (dot_S2000000x4x4_S2000000x4x4_S2000000x4x4_2_1_1_2_0_0).lhsBatch from List.mem_singleton.mpr rfl)]
  rfl
theorem dot44_lhs1 (i : S2000000x4x4.Idx) (q : (dot_S2000000x4x4_S2000000x4x4_S2000000x4x4_2_1_1_2_0_0).contr.Idx) : ((dot_S2000000x4x4_S2000000x4x4_S2000000x4x4_2_1_1_2_0_0).lhsIdx i q 1).val = (i 1).val := by
  unfold DotDims.lhsIdx
  rw [dif_neg (show ¬(1 : Fin S2000000x4x4.rank) ∈ (dot_S2000000x4x4_S2000000x4x4_S2000000x4x4_2_1_1_2_0_0).lhsBatch from fun h => absurd (List.mem_singleton.mp h) (by decide)),
    dif_pos (show (1 : Fin S2000000x4x4.rank) ∈ (dot_S2000000x4x4_S2000000x4x4_S2000000x4x4_2_1_1_2_0_0).lhsNonContracting from List.mem_singleton.mpr rfl)]
  rfl
theorem dot44_rhs0 (i : S2000000x4x4.Idx) (q : (dot_S2000000x4x4_S2000000x4x4_S2000000x4x4_2_1_1_2_0_0).contr.Idx) : ((dot_S2000000x4x4_S2000000x4x4_S2000000x4x4_2_1_1_2_0_0).rhsIdx i q 0).val = (i 0).val := by
  unfold DotDims.rhsIdx
  rw [dif_pos (show (0 : Fin S2000000x4x4.rank) ∈ (dot_S2000000x4x4_S2000000x4x4_S2000000x4x4_2_1_1_2_0_0).rhsBatch from List.mem_singleton.mpr rfl)]
  rfl
theorem dot44_rhs2 (i : S2000000x4x4.Idx) (q : (dot_S2000000x4x4_S2000000x4x4_S2000000x4x4_2_1_1_2_0_0).contr.Idx) : ((dot_S2000000x4x4_S2000000x4x4_S2000000x4x4_2_1_1_2_0_0).rhsIdx i q 2).val = (i 2).val := by
  unfold DotDims.rhsIdx
  rw [dif_neg (show ¬(2 : Fin S2000000x4x4.rank) ∈ (dot_S2000000x4x4_S2000000x4x4_S2000000x4x4_2_1_1_2_0_0).rhsBatch from fun h => absurd (List.mem_singleton.mp h) (by decide)),
    dif_pos (show (2 : Fin S2000000x4x4.rank) ∈ (dot_S2000000x4x4_S2000000x4x4_S2000000x4x4_2_1_1_2_0_0).rhsNonContracting from List.mem_singleton.mpr rfl)]
  rfl

/-- A batch of 4×4 by 4×4 products. -/
theorem dot44_apply (l : FVec Ideal S2000000x4x4 .f32) (r : FVec Ideal S2000000x4x4 .f32) (b : Fin 2000000) (i j : Fin 4) :
    Host.dotGeneral (F := Ideal) (dot_S2000000x4x4_S2000000x4x4_S2000000x4x4_2_1_1_2_0_0) none l r (ix3 b i j)
      = ∑ k : Fin 4, l (ix3 b i k) * r (ix3 b k j) := by
  simp only [Host.dotGeneral]
  rw [Ideal.dotGeneral_apply, ← Equiv.sum_comp (ValueIdx.contrEquiv1 (dot_S2000000x4x4_S2000000x4x4_S2000000x4x4_2_1_1_2_0_0) 4 rfl rfl).symm]
  refine Finset.sum_congr rfl fun k _ => ?_
  have hk := ValueIdx.contrEquiv1_symm_val (dot_S2000000x4x4_S2000000x4x4_S2000000x4x4_2_1_1_2_0_0) 4 rfl rfl k
  have el : (dot_S2000000x4x4_S2000000x4x4_S2000000x4x4_2_1_1_2_0_0).lhsIdx (ix3 b i j) ((ValueIdx.contrEquiv1 (dot_S2000000x4x4_S2000000x4x4_S2000000x4x4_2_1_1_2_0_0) 4 rfl rfl).symm k) = ix3 b i k :=
    funext fun a => Fin.ext (by
      match a with
      | ⟨0, _⟩ => exact dot44_lhs0 _ _
      | ⟨1, _⟩ => exact dot44_lhs1 _ _
      | ⟨2, _⟩ => exact ((dot_S2000000x4x4_S2000000x4x4_S2000000x4x4_2_1_1_2_0_0).lhsIdx_val_of_single (cl := 2) rfl _ _).trans hk)
  have er : (dot_S2000000x4x4_S2000000x4x4_S2000000x4x4_2_1_1_2_0_0).rhsIdx (ix3 b i j) ((ValueIdx.contrEquiv1 (dot_S2000000x4x4_S2000000x4x4_S2000000x4x4_2_1_1_2_0_0) 4 rfl rfl).symm k) = ix3 b k j :=
    funext fun a => Fin.ext (by
      match a with
      | ⟨0, _⟩ => exact dot44_rhs0 _ _
      | ⟨1, _⟩ => exact ((dot_S2000000x4x4_S2000000x4x4_S2000000x4x4_2_1_1_2_0_0).rhsIdx_val_of_single (cr := 1) rfl _ _).trans hk
      | ⟨2, _⟩ => exact dot44_rhs2 _ _)
  rw [el, er]

end dot44

end Cert.ReferenceIdeal.Head
-- ==== Proof.RefHeadWords.lean ====
/-
  Small facts about words and short vectors used when the first half of the reference is read at an index: the
  identity matrix as the program builds it (row number compared with column number, the one-bit answer converted to a
  float), the constant last row of a homogeneous matrix, and a matrix given by its rows read entry by entry.
-/
import proofs.«161387_j47622597378731_2_alg».proof.ReferenceIdeal
import proofs.«161387_j47622597378731_2_alg».proof.Proof.Spec
import Idealize.ShloMosaic.Lib.ValueIdx

namespace Cert.ReferenceIdeal.Head

open Idealize.ShloMosaic Idealize.ShloMosaic.ValueIdx
open Cert.ReferenceIdeal

/-- Row number i (plus the zero word) equals column number j, as a one-bit word converted to a float: 1 on the
    diagonal, 0 off it. -/
theorem eye_word (i j : Fin 3) :
    FloatOps.uitofp (F := Ideal) .f32 (IntOp.cmpi .eq (IntOp.addi (BitVec.ofNat 32 i.val) 0#32) (BitVec.ofNat 32 j.val))
      = Cert.Spec.eye i j := by
  fin_cases i <;> fin_cases j <;> simp [Cert.Spec.eye, FloatOps.uitofp, IntOp.cmpi, IntOp.addi]

/-- The literal [0, 0, 0, 1]. -/
theorem bottom_word (j : Fin 4) :
    FloatOps.ofBits (F := Ideal) .f32 (lit0 (S1x1x4.rowMajor (ix3 (0 : Fin 1) (0 : Fin 1) j))) = Cert.Spec.bottom j := by
  fin_cases j <;> rfl

/-- A 3-row matrix given by its rows, read at (i, j). -/
theorem rows3_apply {α : Type} (r0 r1 r2 : Fin 3 → α) (i j : Fin 3) : ![r0 j, r1 j, r2 j] i = ![r0, r1, r2] i j := by
  fin_cases i <;> rfl

/-- Three entries listed by position are the function on Fin 3 they list. -/
theorem vec3_eta {α : Type} (f : Fin 3 → α) (k : Fin 3) : ![f 0, f 1, f 2] k = f k := by
  fin_cases k <;> rfl

end Cert.ReferenceIdeal.Head
-- ==== Proof.RefHeadTwist.lean ====
/-
  The twist's side of the first half of the reference, read at sample b.

  With ω = (ξ 3, ξ 4, ξ 5) the rotation part of the twist and ρ = (ξ 0, ξ 1, ξ 2) its translation part, the program
  builds the cross-product matrix K of ω row by row, K·K by a batched product, θ² and the four coefficients with
  their small-angle replacements, the identity matrix from two iotas, R = I + A·K + Bc·K², V = I + Bc·K + Cc·K², the
  column V·ρ, and the homogeneous 4×4 matrix of R and V·ρ. Each statement says what one of these buffers holds at
  sample b, in the words of the specification.
-/
import proofs.«161387_j47622597378731_2_alg».proof.Proof.RefHeadReads0
import proofs.«161387_j47622597378731_2_alg».proof.Proof.RefHeadReads1
import proofs.«161387_j47622597378731_2_alg».proof.Proof.RefHeadLayout
import proofs.«161387_j47622597378731_2_alg».proof.Proof.RefHeadJoin
import proofs.«161387_j47622597378731_2_alg».proof.Proof.RefHeadDot
import proofs.«161387_j47622597378731_2_alg».proof.Proof.RefHeadWords
import proofs.«161387_j47622597378731_2_alg».proof.Proof.Spec
import Idealize.ShloMosaic.PureOps.Ideal.Laws

open scoped BigOperators

namespace Cert.ReferenceIdeal.Head

open Cert.ReferenceIdeal Cert.ReferenceIdeal.Gen Cert.ReferenceIdeal.Hand Idealize.ShloMosaic Idealize.ShloMosaic.StableHlo
open Idealize.ShloMosaic.ValueIdx Cert.Spec

section
variable (V : Valuation τ sig (Elt Ideal)) (b : Fin 2000000)

local notation "𝔸[" r "]" => after (ops (F := Ideal)) V (Proc.devRef (Proc.tc : Proc τ) r)
local notation "ξ" => xiRow (V (Proc.devRef (Proc.tc : Proc τ) main_arg1)) b
local notation "γ" => tgRow (V (Proc.devRef (Proc.tc : Proc τ) main_arg0)) b

/-! ## ω's components -/

theorem v4_at : 𝔸[main_v4] (ix1 b) = ξ 3 := by
  rw [rd_main_v4, cast_1_, rd_main_v3, slice3_c0, rd_main_v2, cast_3x1_3, rd_main_v1, slice6_hi, after_arg1]
  rfl
theorem v6_at : 𝔸[main_v6] (ix1 b) = ξ 4 := by
  rw [rd_main_v6, cast_1_, rd_main_v5, slice3_c1, rd_main_v2, cast_3x1_3, rd_main_v1, slice6_hi, after_arg1]
  rfl
theorem v8_at : 𝔸[main_v8] (ix1 b) = ξ 5 := by
  rw [rd_main_v8, cast_1_, rd_main_v7, slice3_c2, rd_main_v2, cast_3x1_3, rd_main_v1, slice6_hi, after_arg1]
  rfl
theorem v9_at : 𝔸[main_v9] (ix1 b) = c0 := by
  rw [rd_main_v9, bc_s_n, rd_main_cst_0]
  rfl
theorem v10_at : 𝔸[main_v10] (ix1 b) = -(ξ 5) := by
  rw [rd_main_v10]
  exact congrArg (fun x : E => -x) (v8_at V b)
theorem v15_at : 𝔸[main_v15] (ix1 b) = -(ξ 3) := by
  rw [rd_main_v15]
  exact congrArg (fun x : E => -x) (v4_at V b)
theorem v20_at : 𝔸[main_v20] (ix1 b) = -(ξ 4) := by
  rw [rd_main_v20]
  exact congrArg (fun x : E => -x) (v6_at V b)

/-! ## K, row by row, and K·K -/

theorem v14_at (j : Fin 3) : 𝔸[main_v14] (ix2 b j) = ![c0, -(ξ 5), ξ 4] j := by
  rw [rd_main_v14, cat_cols3, rd_main_v11, bc_n_n1, v9_at, rd_main_v12, bc_n_n1, v10_at, rd_main_v13, bc_n_n1, v6_at]
theorem v19_at (j : Fin 3) : 𝔸[main_v19] (ix2 b j) = ![ξ 5, c0, -(ξ 3)] j := by
  rw [rd_main_v19, cat_cols3, rd_main_v16, bc_n_n1, v8_at, rd_main_v17, bc_n_n1, v9_at, rd_main_v18, bc_n_n1, v15_at]
theorem v24_at (j : Fin 3) : 𝔸[main_v24] (ix2 b j) = ![-(ξ 4), ξ 3, c0] j := by
  rw [rd_main_v24, cat_cols3, rd_main_v21, bc_n_n1, v20_at, rd_main_v22, bc_n_n1, v4_at, rd_main_v23, bc_n_n1, v9_at]

theorem v28_at (i j : Fin 3) : 𝔸[main_v28] (ix3 b i j) = rK (ξ 3) (ξ 4) (ξ 5) i j := by
  rw [rd_main_v28, cat_rows3, rd_main_v25, bc_n3_n13, v14_at, rd_main_v26, bc_n3_n13, v19_at, rd_main_v27, bc_n3_n13, v24_at]
  exact rows3_apply _ _ _ i j

theorem v29_at (i j : Fin 3) : 𝔸[main_v29] (ix3 b i j) = rK2 (ξ 3) (ξ 4) (ξ 5) i j := by
  rw [rd_main_v29, dot33_apply]
  show @Eq E _ _
  exact Finset.sum_congr rfl fun k _ => congrArg₂ (fun x y : E => x * y) (v28_at V b i k) (v28_at V b k j)

/-! ## θ² and the coefficients -/

theorem v34_at : 𝔸[main_v34] (ix1 b) = th2 (ξ 3) (ξ 4) (ξ 5) := by
  rw [rd_main_v34, rd_main_v32, rd_main_v30, rd_main_v31, rd_main_v33]
  exact congrArg₂ (fun x y : E => x + y)
    (congrArg₂ (fun x y : E => x + y) (congrArg₂ (fun x y : E => x * y) (v4_at V b) (v4_at V b))
      (congrArg₂ (fun x y : E => x * y) (v6_at V b) (v6_at V b)))
    (congrArg₂ (fun x y : E => x * y) (v8_at V b) (v8_at V b))

theorem v36_at : 𝔸[main_v36] (ix1 b) = safe (ξ 3) (ξ 4) (ξ 5) := by
  rw [rd_main_v36]
  show Ideal.cmp .ogt (𝔸[main_v34] (ix1 b)) (𝔸[main_v35] (ix1 b)) = _
  rw [v34_at, rd_main_v35, bc_s_n, rd_main_cst_1]
  rfl

theorem v37_at : 𝔸[main_v37] (ix1 b) = ts (ξ 3) (ξ 4) (ξ 5) := by
  rw [rd_main_v37]
  show Scalar.select (𝔸[main_v36] (ix1 b)) (𝔸[main_v34] (ix1 b)) (𝔸[main_call0_v1] (ix1 b)) = _
  rw [v36_at, v34_at, rd_main_call0_v1, bc_s_n, rd_main_call0_v0, rd_main_cst_2]
  rfl

theorem v38_at : 𝔸[main_v38] (ix1 b) = th (ξ 3) (ξ 4) (ξ 5) := by
  rw [rd_main_v38]
  exact congrArg Ideal.sqrt (v37_at V b)
theorem v39_at : 𝔸[main_v39] (ix1 b) = Ideal.sin (th (ξ 3) (ξ 4) (ξ 5)) := by
  rw [rd_main_v39]
  exact congrArg Ideal.sin (v38_at V b)
theorem v40_at : 𝔸[main_v40] (ix1 b) = Ideal.cos (th (ξ 3) (ξ 4) (ξ 5)) := by
  rw [rd_main_v40]
  exact congrArg Ideal.cos (v38_at V b)

theorem v41_at : 𝔸[main_v41] (ix1 b) = Ideal.div (Ideal.sin (th (ξ 3) (ξ 4) (ξ 5))) (th (ξ 3) (ξ 4) (ξ 5)) := by
  rw [rd_main_v41]
  exact congrArg₂ Ideal.div (v39_at V b) (v38_at V b)
theorem v42_at : 𝔸[main_v42] (ix1 b) = rA (ξ 3) (ξ 4) (ξ 5) := by
  rw [rd_main_v42]
  show Scalar.select (𝔸[main_v36] (ix1 b)) (𝔸[main_v41] (ix1 b)) (𝔸[main_call1_v1] (ix1 b)) = _
  rw [v36_at, v41_at, rd_main_call1_v1, bc_s_n, rd_main_call1_v0, rd_main_cst_3]
  rfl

theorem v43_at : 𝔸[main_v43] (ix1 b) = c1 := by
  rw [rd_main_v43, bc_s_n, rd_main_cst_4]
  rfl
theorem v44_at : 𝔸[main_v44] (ix1 b) = c1 - Ideal.cos (th (ξ 3) (ξ 4) (ξ 5)) := by
  rw [rd_main_v44]
  exact congrArg₂ (fun x y : E => x - y) (v43_at V b) (v40_at V b)
theorem v45_at : 𝔸[main_v45] (ix1 b) = Ideal.div (c1 - Ideal.cos (th (ξ 3) (ξ 4) (ξ 5))) (ts (ξ 3) (ξ 4) (ξ 5)) := by
  rw [rd_main_v45]
  exact congrArg₂ Ideal.div (v44_at V b) (v37_at V b)
theorem v46_at : 𝔸[main_v46] (ix1 b) = rBc (ξ 3) (ξ 4) (ξ 5) := by
  rw [rd_main_v46]
  show Scalar.select (𝔸[main_v36] (ix1 b)) (𝔸[main_v45] (ix1 b)) (𝔸[main_call2_v1] (ix1 b)) = _
  rw [v36_at, v45_at, rd_main_call2_v1, bc_s_n, rd_main_call2_v0, rd_main_cst_5]
  rfl

theorem v47_at : 𝔸[main_v47] (ix1 b) = th (ξ 3) (ξ 4) (ξ 5) - Ideal.sin (th (ξ 3) (ξ 4) (ξ 5)) := by
  rw [rd_main_v47]
  exact congrArg₂ (fun x y : E => x - y) (v38_at V b) (v39_at V b)
theorem v48_at : 𝔸[main_v48] (ix1 b) = ts (ξ 3) (ξ 4) (ξ 5) * th (ξ 3) (ξ 4) (ξ 5) := by
  rw [rd_main_v48]
  exact congrArg₂ (fun x y : E => x * y) (v37_at V b) (v38_at V b)
theorem v49_at : 𝔸[main_v49] (ix1 b)
    = Ideal.div (th (ξ 3) (ξ 4) (ξ 5) - Ideal.sin (th (ξ 3) (ξ 4) (ξ 5))) (ts (ξ 3) (ξ 4) (ξ 5) * th (ξ 3) (ξ 4) (ξ 5)) := by
  rw [rd_main_v49]
  exact congrArg₂ Ideal.div (v47_at V b) (v48_at V b)
theorem v50_at : 𝔸[main_v50] (ix1 b) = rCc (ξ 3) (ξ 4) (ξ 5) := by
  rw [rd_main_v50]
  show Scalar.select (𝔸[main_v36] (ix1 b)) (𝔸[main_v49] (ix1 b)) (𝔸[main_call3_v1] (ix1 b)) = _
  rw [v36_at, v49_at, rd_main_call3_v1, bc_s_n, rd_main_call3_v0, rd_main_cst_6]
  rfl

/-! ## The identity matrix, R and V -/

theorem v56_at (i j : Fin 3) : 𝔸[main_v56] (ix2 i j) = eye i j := by
  rw [rd_main_v56, rd_main_v55, rd_main_v54, rd_main_v51, rd_main_v52, rd_main_v53, rd_main_c]
  show FloatOps.uitofp (F := Ideal) .f32 (IntOp.cmpi .eq (IntOp.addi (BitVec.ofNat 32 i.val)
      (broadcastInDim S3x3 ![] bcast_S_S3x3 (constantI S_ 32 0#32) (ix2 i j))) (BitVec.ofNat 32 j.val)) = _
  rw [bc_s_33]
  exact eye_word i j

theorem v58_at (i j : Fin 3) : 𝔸[main_v58] (ix3 b i j) = rA (ξ 3) (ξ 4) (ξ 5) := by
  rw [rd_main_v58, bc_n11_n33, rd_main_v57, bc_n_n11, v42_at]
theorem v59_at (i j : Fin 3) : 𝔸[main_v59] (ix3 b i j) = rA (ξ 3) (ξ 4) (ξ 5) * rK (ξ 3) (ξ 4) (ξ 5) i j := by
  rw [rd_main_v59]
  exact congrArg₂ (fun x y : E => x * y) (v58_at V b i j) (v28_at V b i j)
theorem v61_at (i j : Fin 3) : 𝔸[main_v61] (ix3 b i j) = eye i j := by
  rw [rd_main_v61, bc_133_n33, rd_main_v60, bc_33_133, v56_at]
theorem v62_at (i j : Fin 3) :
    𝔸[main_v62] (ix3 b i j) = eye i j + rA (ξ 3) (ξ 4) (ξ 5) * rK (ξ 3) (ξ 4) (ξ 5) i j := by
  rw [rd_main_v62]
  exact congrArg₂ (fun x y : E => x + y) (v61_at V b i j) (v59_at V b i j)
theorem v64_at (i j : Fin 3) : 𝔸[main_v64] (ix3 b i j) = rBc (ξ 3) (ξ 4) (ξ 5) := by
  rw [rd_main_v64, bc_n11_n33, rd_main_v63, bc_n_n11, v46_at]
theorem v65_at (i j : Fin 3) : 𝔸[main_v65] (ix3 b i j) = rBc (ξ 3) (ξ 4) (ξ 5) * rK2 (ξ 3) (ξ 4) (ξ 5) i j := by
  rw [rd_main_v65]
  exact congrArg₂ (fun x y : E => x * y) (v64_at V b i j) (v29_at V b i j)
theorem v66_at (i j : Fin 3) :
    𝔸[main_v66] (ix3 b i j) = rRot (rA (ξ 3) (ξ 4) (ξ 5)) (rBc (ξ 3) (ξ 4) (ξ 5)) (ξ 3) (ξ 4) (ξ 5) i j := by
  rw [rd_main_v66]
  exact congrArg₂ (fun x y : E => x + y) (v62_at V b i j) (v65_at V b i j)

theorem v68_at (i j : Fin 3) : 𝔸[main_v68] (ix3 b i j) = rBc (ξ 3) (ξ 4) (ξ 5) := by
  rw [rd_main_v68, bc_n11_n33, rd_main_v67, bc_n_n11, v46_at]
theorem v69_at (i j : Fin 3) : 𝔸[main_v69] (ix3 b i j) = rBc (ξ 3) (ξ 4) (ξ 5) * rK (ξ 3) (ξ 4) (ξ 5) i j := by
  rw [rd_main_v69]
  exact congrArg₂ (fun x y : E => x * y) (v68_at V b i j) (v28_at V b i j)
theorem v71_at (i j : Fin 3) : 𝔸[main_v71] (ix3 b i j) = eye i j := by
  rw [rd_main_v71, bc_133_n33, rd_main_v70, bc_33_133, v56_at]
theorem v72_at (i j : Fin 3) :
    𝔸[main_v72] (ix3 b i j) = eye i j + rBc (ξ 3) (ξ 4) (ξ 5) * rK (ξ 3) (ξ 4) (ξ 5) i j := by
  rw [rd_main_v72]
  exact congrArg₂ (fun x y : E => x + y) (v71_at V b i j) (v69_at V b i j)
theorem v74_at (i j : Fin 3) : 𝔸[main_v74] (ix3 b i j) = rCc (ξ 3) (ξ 4) (ξ 5) := by
  rw [rd_main_v74, bc_n11_n33, rd_main_v73, bc_n_n11, v50_at]
theorem v75_at (i j : Fin 3) : 𝔸[main_v75] (ix3 b i j) = rCc (ξ 3) (ξ 4) (ξ 5) * rK2 (ξ 3) (ξ 4) (ξ 5) i j := by
  rw [rd_main_v75]
  exact congrArg₂ (fun x y : E => x * y) (v74_at V b i j) (v29_at V b i j)
theorem v76_at (i j : Fin 3) :
    𝔸[main_v76] (ix3 b i j) = rRot (rBc (ξ 3) (ξ 4) (ξ 5)) (rCc (ξ 3) (ξ 4) (ξ 5)) (ξ 3) (ξ 4) (ξ 5) i j := by
  rw [rd_main_v76]
  exact congrArg₂ (fun x y : E => x + y) (v72_at V b i j) (v75_at V b i j)

/-! ## V·ρ and the homogeneous matrix of the twist -/

theorem v0_at (k : Fin 3) : 𝔸[main_v0] (ix3 b k 0) = ![ξ 0, ξ 1, ξ 2] k := by
  rw [rd_main_v0, slice6_lo, after_arg1]
  fin_cases k <;> rfl

theorem v77_at (i : Fin 3) :
    𝔸[main_v77] (ix3 b i 0)
      = ∑ k : Fin 3, rRot (rBc (ξ 3) (ξ 4) (ξ 5)) (rCc (ξ 3) (ξ 4) (ξ 5)) (ξ 3) (ξ 4) (ξ 5) i k * ![ξ 0, ξ 1, ξ 2] k := by
  rw [rd_main_v77, dot31_apply]
  show @Eq E _ _
  exact Finset.sum_congr rfl fun k _ => congrArg₂ (fun x y : E => x * y) (v76_at V b i k) (v0_at V b k)

theorem v79_at (j : Fin 4) : 𝔸[main_v79] (ix3 b 0 j) = bottom j := by
  rw [rd_main_v79, bc_114_n14, rd_main_cst]
  exact bottom_word j

theorem v78_at (i : Fin 3) (j : Fin 4) :
    𝔸[main_v78] (ix3 b i j)
      = if hj : j.val < 3 then rRot (rA (ξ 3) (ξ 4) (ξ 5)) (rBc (ξ 3) (ξ 4) (ξ 5)) (ξ 3) (ξ 4) (ξ 5) i ⟨j.val, hj⟩
        else ∑ k : Fin 3, rRot (rBc (ξ 3) (ξ 4) (ξ 5)) (rCc (ξ 3) (ξ 4) (ξ 5)) (ξ 3) (ξ 4) (ξ 5) i k * ![ξ 0, ξ 1, ξ 2] k := by
  rw [rd_main_v78, cat_block_col]
  by_cases hj : j.val < 3
  · rw [dif_pos hj, dif_pos hj, v66_at]
  · rw [dif_neg hj, dif_neg hj, v77_at]

/-- The twist's homogeneous matrix. -/
theorem v80_at (i j : Fin 4) :
    𝔸[main_v80] (ix3 b i j)
      = homog (rRot (rA (ξ 3) (ξ 4) (ξ 5)) (rBc (ξ 3) (ξ 4) (ξ 5)) (ξ 3) (ξ 4) (ξ 5))
          (fun i => ∑ k : Fin 3, rRot (rBc (ξ 3) (ξ 4) (ξ 5)) (rCc (ξ 3) (ξ 4) (ξ 5)) (ξ 3) (ξ 4) (ξ 5) i k * ![ξ 0, ξ 1, ξ 2] k) i j := by
  rw [rd_main_v80, cat_block_row]
  unfold homog
  by_cases hi : i.val < 3
  · rw [dif_pos hi, dif_pos hi, v78_at]
  · rw [dif_neg hi, dif_neg hi, v79_at]

end

end Cert.ReferenceIdeal.Head
-- ==== Proof.RefHeadReads2.lean ====
/-
  What the buffers written at positions 190 … 190 of the reference's line hold at its end: each its own operation's
  function of what that operation's operands hold at the end (every buffer is written once, and an operation reads
  only buffers written before it). One statement per operation, the operation's printed function applied to its
  operands' final contents; the side conditions are comparisons of buffer numbers with positions.
-/
import proofs.«161387_j47622597378731_2_alg».proof.Proof.RefHeadOrder

namespace Cert.ReferenceIdeal.Head

open Cert.ReferenceIdeal Cert.ReferenceIdeal.Gen Cert.ReferenceIdeal.Hand Idealize.ShloMosaic Idealize.ShloMosaic.StableHlo

section
variable (V : Valuation τ sig (Elt Ideal))

local notation "𝔸[" r "]" => after (ops (F := Ideal)) V (Proc.devRef (Proc.tc : Proc τ) r)

theorem rd_main_v161 : 𝔸[main_v161] = Host.dotGeneral (F := Ideal) (φ₁ := .f32) (φ₂ := .f32) dot_S2000000x4x4_S2000000x4x4_S2000000x4x4_2_1_1_2_0_0 none 𝔸[main_v80] 𝔸[main_v160] :=
  rd_binary 190 rfl (not_written_from 190 main_v80 (by decide)) (not_written_from 190 main_v160 (by decide)) (not_written_from 191 main_v161 (by decide)) V

end

end Cert.ReferenceIdeal.Head
-- ==== Proof.RefHead.lean ====
/-
  The product of the two homogeneous matrices, read at a sample.

  The first half of the reference ends in a batched 4×4 by 4×4 product: its left operand is the homogeneous matrix of
  the twist (the rotation R, the column V·ρ, the constant last row), its right operand the homogeneous matrix of the
  pose. At sample b the entry (i, j) of the product is the sum over k of the left operand's (i, k) entry times the right
  operand's (k, j) entry, which is the specification's product of the two matrices of that sample.
-/
import proofs.«161387_j47622597378731_2_alg».proof.Proof.RefHeadTwist
import proofs.«161387_j47622597378731_2_alg».proof.Proof.RefHeadReads2

open scoped BigOperators

namespace Cert.ReferenceIdeal.Hand

open Cert.ReferenceIdeal Cert.ReferenceIdeal.Gen Cert.ReferenceIdeal.Head
open Idealize.ShloMosaic Idealize.ShloMosaic.TcCoe Idealize.ShloMosaic.StableHlo Idealize.ShloMosaic.ValueIdx

/-- The product at sample b, given what the right operand holds at sample b: the pose's homogeneous matrix. -/
theorem head_of_pose (V : Valuation τ sig (Elt Ideal)) (b : Fin 2000000)
    (hT : ∀ k j : Fin 4, after ops V (main_v160 : DevRef τ sig) (ix3 b k j)
      = Cert.Spec.homog
          (Cert.Spec.Rg (Cert.Spec.tgRow (V (main_arg0 : DevRef τ sig)) b 3) (Cert.Spec.tgRow (V (main_arg0 : DevRef τ sig)) b 4)
            (Cert.Spec.tgRow (V (main_arg0 : DevRef τ sig)) b 5) (Cert.Spec.tgRow (V (main_arg0 : DevRef τ sig)) b 6))
          ![Cert.Spec.tgRow (V (main_arg0 : DevRef τ sig)) b 0, Cert.Spec.tgRow (V (main_arg0 : DevRef τ sig)) b 1,
            Cert.Spec.tgRow (V (main_arg0 : DevRef τ sig)) b 2] k j)
    (i j : Fin 4) :
    after ops V (main_v161 : DevRef τ sig) (ix3 b i j)
      = Cert.Spec.rT (Cert.Spec.tgRow (V (main_arg0 : DevRef τ sig)) b) (Cert.Spec.xiRow (V (main_arg1 : DevRef τ sig)) b) i j := by
  rw [rd_main_v161, dot44_apply]
  show @Eq Cert.Spec.E _ _
  exact Finset.sum_congr rfl fun k _ => congrArg₂ (fun x y : Cert.Spec.E => x * y) (v80_at V b i k) (hT k j)

end Cert.ReferenceIdeal.Hand
-- ==== Proof.RefPoseReads.lean ====
/-
  The part of the reference's line that builds the pose's homogeneous matrix, as equations between buffer contents: a
  valuation Z of the buffers in which each of these buffers holds its own operation's function of what Z holds at that
  operation's operands, and the first argument's buffer holds A0. The contents at the end of the line are such a
  valuation (every buffer is written once, and an operation reads only buffers written before it; the argument is
  never written): one reader per operation, the side conditions comparisons of buffer numbers with positions.
-/
import proofs.«161387_j47622597378731_2_alg».proof.Proof.RefHeadOrder

namespace Cert.ReferenceIdeal.Pose

open Cert.ReferenceIdeal Cert.ReferenceIdeal.Gen Cert.ReferenceIdeal.Hand Cert.ReferenceIdeal.Head Idealize.ShloMosaic Idealize.ShloMosaic.StableHlo

/-- Z holds, at each buffer of this part of the line, its operation's function of Z at the operands. -/
structure PoseReads (Z : Valuation τ sig (Elt Ideal)) (A0 : (Proc.devRef .tc main_arg0 : DevRef τ sig).ty.Contents (Elt Ideal)) : Prop where
  arg0 : Z (Proc.devRef .tc main_arg0) = A0
  cst : Z (Proc.devRef .tc main_cst) = (fun i => FloatOps.ofBits (F := Ideal) .f32 (lit0 (S1x1x4.rowMajor i)))
  v79 : Z (Proc.devRef .tc main_v79) = broadcastInDim S2000000x1x4 ![0, 1, 2] bcast_S1x1x4_S2000000x1x4_0_1_2 (Z (Proc.devRef .tc main_cst))
  v81 : Z (Proc.devRef .tc main_v81) = extractStridedSlice S2000000x4x1 ![0, 3, 0] (Z (Proc.devRef .tc main_arg0)) slices_S2000000x7x1_S2000000x4x1_0_3_0
  v82 : Z (Proc.devRef .tc main_v82) = shapeCast S2000000x4 (Z (Proc.devRef .tc main_v81)) shapeCasts_S2000000x4x1_S2000000x4
  v83 : Z (Proc.devRef .tc main_v83) = extractStridedSlice S2000000x1 ![0, 0] (Z (Proc.devRef .tc main_v82)) slices_S2000000x4_S2000000x1_0_0
  v84 : Z (Proc.devRef .tc main_v84) = shapeCast S2000000 (Z (Proc.devRef .tc main_v83)) shapeCasts_S2000000x1_S2000000
  v85 : Z (Proc.devRef .tc main_v85) = extractStridedSlice S2000000x1 ![0, 1] (Z (Proc.devRef .tc main_v82)) slices_S2000000x4_S2000000x1_0_1
  v86 : Z (Proc.devRef .tc main_v86) = shapeCast S2000000 (Z (Proc.devRef .tc main_v85)) shapeCasts_S2000000x1_S2000000
  v87 : Z (Proc.devRef .tc main_v87) = extractStridedSlice S2000000x1 ![0, 2] (Z (Proc.devRef .tc main_v82)) slices_S2000000x4_S2000000x1_0_2
  v88 : Z (Proc.devRef .tc main_v88) = shapeCast S2000000 (Z (Proc.devRef .tc main_v87)) shapeCasts_S2000000x1_S2000000
  v89 : Z (Proc.devRef .tc main_v89) = extractStridedSlice S2000000x1 ![0, 3] (Z (Proc.devRef .tc main_v82)) slices_S2000000x4_S2000000x1_0_3
  v90 : Z (Proc.devRef .tc main_v90) = shapeCast S2000000 (Z (Proc.devRef .tc main_v89)) shapeCasts_S2000000x1_S2000000
  v91 : Z (Proc.devRef .tc main_v91) = mulf (F := Ideal) (s := S2000000) (φ := .f32) (Z (Proc.devRef .tc main_v88)) (Z (Proc.devRef .tc main_v88))
  v92 : Z (Proc.devRef .tc main_v92) = mulf (F := Ideal) (s := S2000000) (φ := .f32) (Z (Proc.devRef .tc main_v90)) (Z (Proc.devRef .tc main_v90))
  v93 : Z (Proc.devRef .tc main_v93) = addf (F := Ideal) (s := S2000000) (φ := .f32) (Z (Proc.devRef .tc main_v91)) (Z (Proc.devRef .tc main_v92))
  cst_7 : Z (Proc.devRef .tc main_cst_7) = (constant (F := Ideal) S_ .f32 0x40000000#32)
  v94 : Z (Proc.devRef .tc main_v94) = broadcastInDim S2000000 ![] bcast_S_S2000000 (Z (Proc.devRef .tc main_cst_7))
  v95 : Z (Proc.devRef .tc main_v95) = mulf (F := Ideal) (s := S2000000) (φ := .f32) (Z (Proc.devRef .tc main_v94)) (Z (Proc.devRef .tc main_v93))
  cst_8 : Z (Proc.devRef .tc main_cst_8) = (constant (F := Ideal) S_ .f32 0x3F800000#32)
  v96 : Z (Proc.devRef .tc main_v96) = broadcastInDim S2000000 ![] bcast_S_S2000000 (Z (Proc.devRef .tc main_cst_8))
  v97 : Z (Proc.devRef .tc main_v97) = subf (F := Ideal) (s := S2000000) (φ := .f32) (Z (Proc.devRef .tc main_v96)) (Z (Proc.devRef .tc main_v95))
  v98 : Z (Proc.devRef .tc main_v98) = mulf (F := Ideal) (s := S2000000) (φ := .f32) (Z (Proc.devRef .tc main_v86)) (Z (Proc.devRef .tc main_v88))
  v99 : Z (Proc.devRef .tc main_v99) = mulf (F := Ideal) (s := S2000000) (φ := .f32) (Z (Proc.devRef .tc main_v90)) (Z (Proc.devRef .tc main_v84))
  v100 : Z (Proc.devRef .tc main_v100) = subf (F := Ideal) (s := S2000000) (φ := .f32) (Z (Proc.devRef .tc main_v98)) (Z (Proc.devRef .tc main_v99))
  cst_9 : Z (Proc.devRef .tc main_cst_9) = (constant (F := Ideal) S_ .f32 0x40000000#32)
  v101 : Z (Proc.devRef .tc main_v101) = broadcastInDim S2000000 ![] bcast_S_S2000000 (Z (Proc.devRef .tc main_cst_9))
  v102 : Z (Proc.devRef .tc main_v102) = mulf (F := Ideal) (s := S2000000) (φ := .f32) (Z (Proc.devRef .tc main_v101)) (Z (Proc.devRef .tc main_v100))
  v103 : Z (Proc.devRef .tc main_v103) = mulf (F := Ideal) (s := S2000000) (φ := .f32) (Z (Proc.devRef .tc main_v86)) (Z (Proc.devRef .tc main_v90))
  v104 : Z (Proc.devRef .tc main_v104) = mulf (F := Ideal) (s := S2000000) (φ := .f32) (Z (Proc.devRef .tc main_v88)) (Z (Proc.devRef .tc main_v84))
  v105 : Z (Proc.devRef .tc main_v105) = addf (F := Ideal) (s := S2000000) (φ := .f32) (Z (Proc.devRef .tc main_v103)) (Z (Proc.devRef .tc main_v104))
  cst_10 : Z (Proc.devRef .tc main_cst_10) = (constant (F := Ideal) S_ .f32 0x40000000#32)
  v106 : Z (Proc.devRef .tc main_v106) = broadcastInDim S2000000 ![] bcast_S_S2000000 (Z (Proc.devRef .tc main_cst_10))
  v107 : Z (Proc.devRef .tc main_v107) = mulf (F := Ideal) (s := S2000000) (φ := .f32) (Z (Proc.devRef .tc main_v106)) (Z (Proc.devRef .tc main_v105))
  v108 : Z (Proc.devRef .tc main_v108) = mulf (F := Ideal) (s := S2000000) (φ := .f32) (Z (Proc.devRef .tc main_v86)) (Z (Proc.devRef .tc main_v88))
  v109 : Z (Proc.devRef .tc main_v109) = mulf (F := Ideal) (s := S2000000) (φ := .f32) (Z (Proc.devRef .tc main_v90)) (Z (Proc.devRef .tc main_v84))
  v110 : Z (Proc.devRef .tc main_v110) = addf (F := Ideal) (s := S2000000) (φ := .f32) (Z (Proc.devRef .tc main_v108)) (Z (Proc.devRef .tc main_v109))
  cst_11 : Z (Proc.devRef .tc main_cst_11) = (constant (F := Ideal) S_ .f32 0x40000000#32)
  v111 : Z (Proc.devRef .tc main_v111) = broadcastInDim S2000000 ![] bcast_S_S2000000 (Z (Proc.devRef .tc main_cst_11))
  v112 : Z (Proc.devRef .tc main_v112) = mulf (F := Ideal) (s := S2000000) (φ := .f32) (Z (Proc.devRef .tc main_v111)) (Z (Proc.devRef .tc main_v110))
  v113 : Z (Proc.devRef .tc main_v113) = mulf (F := Ideal) (s := S2000000) (φ := .f32) (Z (Proc.devRef .tc main_v86)) (Z (Proc.devRef .tc main_v86))
  v114 : Z (Proc.devRef .tc main_v114) = mulf (F := Ideal) (s := S2000000) (φ := .f32) (Z (Proc.devRef .tc main_v90)) (Z (Proc.devRef .tc main_v90))
  v115 : Z (Proc.devRef .tc main_v115) = addf (F := Ideal) (s := S2000000) (φ := .f32) (Z (Proc.devRef .tc main_v113)) (Z (Proc.devRef .tc main_v114))
  cst_12 : Z (Proc.devRef .tc main_cst_12) = (constant (F := Ideal) S_ .f32 0x40000000#32)
  v116 : Z (Proc.devRef .tc main_v116) = broadcastInDim S2000000 ![] bcast_S_S2000000 (Z (Proc.devRef .tc main_cst_12))
  v117 : Z (Proc.devRef .tc main_v117) = mulf (F := Ideal) (s := S2000000) (φ := .f32) (Z (Proc.devRef .tc main_v116)) (Z (Proc.devRef .tc main_v115))
  cst_13 : Z (Proc.devRef .tc main_cst_13) = (constant (F := Ideal) S_ .f32 0x3F800000#32)
  v118 : Z (Proc.devRef .tc main_v118) = broadcastInDim S2000000 ![] bcast_S_S2000000 (Z (Proc.devRef .tc main_cst_13))
  v119 : Z (Proc.devRef .tc main_v119) = subf (F := Ideal) (s := S2000000) (φ := .f32) (Z (Proc.devRef .tc main_v118)) (Z (Proc.devRef .tc main_v117))
  v120 : Z (Proc.devRef .tc main_v120) = mulf (F := Ideal) (s := S2000000) (φ := .f32) (Z (Proc.devRef .tc main_v88)) (Z (Proc.devRef .tc main_v90))
  v121 : Z (Proc.devRef .tc main_v121) = mulf (F := Ideal) (s := S2000000) (φ := .f32) (Z (Proc.devRef .tc main_v86)) (Z (Proc.devRef .tc main_v84))
  v122 : Z (Proc.devRef .tc main_v122) = subf (F := Ideal) (s := S2000000) (φ := .f32) (Z (Proc.devRef .tc main_v120)) (Z (Proc.devRef .tc main_v121))
  cst_14 : Z (Proc.devRef .tc main_cst_14) = (constant (F := Ideal) S_ .f32 0x40000000#32)
  v123 : Z (Proc.devRef .tc main_v123) = broadcastInDim S2000000 ![] bcast_S_S2000000 (Z (Proc.devRef .tc main_cst_14))
  v124 : Z (Proc.devRef .tc main_v124) = mulf (F := Ideal) (s := S2000000) (φ := .f32) (Z (Proc.devRef .tc main_v123)) (Z (Proc.devRef .tc main_v122))
  v125 : Z (Proc.devRef .tc main_v125) = mulf (F := Ideal) (s := S2000000) (φ := .f32) (Z (Proc.devRef .tc main_v86)) (Z (Proc.devRef .tc main_v90))
  v126 : Z (Proc.devRef .tc main_v126) = mulf (F := Ideal) (s := S2000000) (φ := .f32) (Z (Proc.devRef .tc main_v88)) (Z (Proc.devRef .tc main_v84))
  v127 : Z (Proc.devRef .tc main_v127) = subf (F := Ideal) (s := S2000000) (φ := .f32) (Z (Proc.devRef .tc main_v125)) (Z (Proc.devRef .tc main_v126))
  cst_15 : Z (Proc.devRef .tc main_cst_15) = (constant (F := Ideal) S_ .f32 0x40000000#32)
  v128 : Z (Proc.devRef .tc main_v128) = broadcastInDim S2000000 ![] bcast_S_S2000000 (Z (Proc.devRef .tc main_cst_15))
  v129 : Z (Proc.devRef .tc main_v129) = mulf (F := Ideal) (s := S2000000) (φ := .f32) (Z (Proc.devRef .tc main_v128)) (Z (Proc.devRef .tc main_v127))
  v130 : Z (Proc.devRef .tc main_v130) = mulf (F := Ideal) (s := S2000000) (φ := .f32) (Z (Proc.devRef .tc main_v88)) (Z (Proc.devRef .tc main_v90))
  v131 : Z (Proc.devRef .tc main_v131) = mulf (F := Ideal) (s := S2000000) (φ := .f32) (Z (Proc.devRef .tc main_v86)) (Z (Proc.devRef .tc main_v84))
  v132 : Z (Proc.devRef .tc main_v132) = addf (F := Ideal) (s := S2000000) (φ := .f32) (Z (Proc.devRef .tc main_v130)) (Z (Proc.devRef .tc main_v131))
  cst_16 : Z (Proc.devRef .tc main_cst_16) = (constant (F := Ideal) S_ .f32 0x40000000#32)
  v133 : Z (Proc.devRef .tc main_v133) = broadcastInDim S2000000 ![] bcast_S_S2000000 (Z (Proc.devRef .tc main_cst_16))
  v134 : Z (Proc.devRef .tc main_v134) = mulf (F := Ideal) (s := S2000000) (φ := .f32) (Z (Proc.devRef .tc main_v133)) (Z (Proc.devRef .tc main_v132))
  v135 : Z (Proc.devRef .tc main_v135) = mulf (F := Ideal) (s := S2000000) (φ := .f32) (Z (Proc.devRef .tc main_v86)) (Z (Proc.devRef .tc main_v86))
  v136 : Z (Proc.devRef .tc main_v136) = mulf (F := Ideal) (s := S2000000) (φ := .f32) (Z (Proc.devRef .tc main_v88)) (Z (Proc.devRef .tc main_v88))
  v137 : Z (Proc.devRef .tc main_v137) = addf (F := Ideal) (s := S2000000) (φ := .f32) (Z (Proc.devRef .tc main_v135)) (Z (Proc.devRef .tc main_v136))
  cst_17 : Z (Proc.devRef .tc main_cst_17) = (constant (F := Ideal) S_ .f32 0x40000000#32)
  v138 : Z (Proc.devRef .tc main_v138) = broadcastInDim S2000000 ![] bcast_S_S2000000 (Z (Proc.devRef .tc main_cst_17))
  v139 : Z (Proc.devRef .tc main_v139) = mulf (F := Ideal) (s := S2000000) (φ := .f32) (Z (Proc.devRef .tc main_v138)) (Z (Proc.devRef .tc main_v137))
  cst_18 : Z (Proc.devRef .tc main_cst_18) = (constant (F := Ideal) S_ .f32 0x3F800000#32)
  v140 : Z (Proc.devRef .tc main_v140) = broadcastInDim S2000000 ![] bcast_S_S2000000 (Z (Proc.devRef .tc main_cst_18))
  v141 : Z (Proc.devRef .tc main_v141) = subf (F := Ideal) (s := S2000000) (φ := .f32) (Z (Proc.devRef .tc main_v140)) (Z (Proc.devRef .tc main_v139))
  v142 : Z (Proc.devRef .tc main_v142) = broadcastInDim S2000000x1 ![0] bcast_S2000000_S2000000x1_0 (Z (Proc.devRef .tc main_v97))
  v143 : Z (Proc.devRef .tc main_v143) = broadcastInDim S2000000x1 ![0] bcast_S2000000_S2000000x1_0 (Z (Proc.devRef .tc main_v102))
  v144 : Z (Proc.devRef .tc main_v144) = broadcastInDim S2000000x1 ![0] bcast_S2000000_S2000000x1_0 (Z (Proc.devRef .tc main_v107))
  v145 : Z (Proc.devRef .tc main_v145) = concatenate S2000000x3 1 [⟨S2000000x1, Z (Proc.devRef .tc main_v142)⟩, ⟨S2000000x1, Z (Proc.devRef .tc main_v143)⟩, ⟨S2000000x1, Z (Proc.devRef .tc main_v144)⟩] concatenates_S2000000x1_S2000000x1_S2000000x1_S2000000x3_d1
  v146 : Z (Proc.devRef .tc main_v146) = broadcastInDim S2000000x1 ![0] bcast_S2000000_S2000000x1_0 (Z (Proc.devRef .tc main_v112))
  v147 : Z (Proc.devRef .tc main_v147) = broadcastInDim S2000000x1 ![0] bcast_S2000000_S2000000x1_0 (Z (Proc.devRef .tc main_v119))
  v148 : Z (Proc.devRef .tc main_v148) = broadcastInDim S2000000x1 ![0] bcast_S2000000_S2000000x1_0 (Z (Proc.devRef .tc main_v124))
  v149 : Z (Proc.devRef .tc main_v149) = concatenate S2000000x3 1 [⟨S2000000x1, Z (Proc.devRef .tc main_v146)⟩, ⟨S2000000x1, Z (Proc.devRef .tc main_v147)⟩, ⟨S2000000x1, Z (Proc.devRef .tc main_v148)⟩] concatenates_S2000000x1_S2000000x1_S2000000x1_S2000000x3_d1
  v150 : Z (Proc.devRef .tc main_v150) = broadcastInDim S2000000x1 ![0] bcast_S2000000_S2000000x1_0 (Z (Proc.devRef .tc main_v129))
  v151 : Z (Proc.devRef .tc main_v151) = broadcastInDim S2000000x1 ![0] bcast_S2000000_S2000000x1_0 (Z (Proc.devRef .tc main_v134))
  v152 : Z (Proc.devRef .tc main_v152) = broadcastInDim S2000000x1 ![0] bcast_S2000000_S2000000x1_0 (Z (Proc.devRef .tc main_v141))
  v153 : Z (Proc.devRef .tc main_v153) = concatenate S2000000x3 1 [⟨S2000000x1, Z (Proc.devRef .tc main_v150)⟩, ⟨S2000000x1, Z (Proc.devRef .tc main_v151)⟩, ⟨S2000000x1, Z (Proc.devRef .tc main_v152)⟩] concatenates_S2000000x1_S2000000x1_S2000000x1_S2000000x3_d1
  v154 : Z (Proc.devRef .tc main_v154) = broadcastInDim S2000000x1x3 ![0, 2] bcast_S2000000x3_S2000000x1x3_0_2 (Z (Proc.devRef .tc main_v145))
  v155 : Z (Proc.devRef .tc main_v155) = broadcastInDim S2000000x1x3 ![0, 2] bcast_S2000000x3_S2000000x1x3_0_2 (Z (Proc.devRef .tc main_v149))
  v156 : Z (Proc.devRef .tc main_v156) = broadcastInDim S2000000x1x3 ![0, 2] bcast_S2000000x3_S2000000x1x3_0_2 (Z (Proc.devRef .tc main_v153))
  v157 : Z (Proc.devRef .tc main_v157) = concatenate S2000000x3x3 1 [⟨S2000000x1x3, Z (Proc.devRef .tc main_v154)⟩, ⟨S2000000x1x3, Z (Proc.devRef .tc main_v155)⟩, ⟨S2000000x1x3, Z (Proc.devRef .tc main_v156)⟩] concatenates_S2000000x1x3_S2000000x1x3_S2000000x1x3_S2000000x3x3_d1
  v158 : Z (Proc.devRef .tc main_v158) = extractStridedSlice S2000000x3x1 ![0, 0, 0] (Z (Proc.devRef .tc main_arg0)) slices_S2000000x7x1_S2000000x3x1_0_0_0
  v159 : Z (Proc.devRef .tc main_v159) = concatenate S2000000x3x4 2 [⟨S2000000x3x3, Z (Proc.devRef .tc main_v157)⟩, ⟨S2000000x3x1, Z (Proc.devRef .tc main_v158)⟩] concatenates_S2000000x3x3_S2000000x3x1_S2000000x3x4_d2
  v160 : Z (Proc.devRef .tc main_v160) = concatenate S2000000x4x4 1 [⟨S2000000x3x4, Z (Proc.devRef .tc main_v159)⟩, ⟨S2000000x1x4, Z (Proc.devRef .tc main_v79)⟩] concatenates_S2000000x3x4_S2000000x1x4_S2000000x4x4_d1

set_option maxRecDepth 8192 in
/-- The contents at the end of the line are such a valuation. -/
theorem poseReads (V : Valuation τ sig (Elt Ideal)) :
    PoseReads (after (ops (F := Ideal)) V) (V (Proc.devRef .tc main_arg0)) where
  arg0 := after_arg0 V
  cst := rd_nullary 0 rfl (not_written_from 1 main_cst (by decide)) V
  v79 := rd_unary 96 rfl (not_written_from 96 main_cst (by decide)) (not_written_from 97 main_v79 (by decide)) V
  v81 := rd_unary 98 rfl (not_written_from 98 main_arg0 (by decide)) (not_written_from 99 main_v81 (by decide)) V
  v82 := rd_reshape 99 rfl (not_written_from 99 main_v81 (by decide)) (not_written_from 100 main_v82 (by decide)) V
  v83 := rd_unary 100 rfl (not_written_from 100 main_v82 (by decide)) (not_written_from 101 main_v83 (by decide)) V
  v84 := rd_reshape 101 rfl (not_written_from 101 main_v83 (by decide)) (not_written_from 102 main_v84 (by decide)) V
  v85 := rd_unary 102 rfl (not_written_from 102 main_v82 (by decide)) (not_written_from 103 main_v85 (by decide)) V
  v86 := rd_reshape 103 rfl (not_written_from 103 main_v85 (by decide)) (not_written_from 104 main_v86 (by decide)) V
  v87 := rd_unary 104 rfl (not_written_from 104 main_v82 (by decide)) (not_written_from 105 main_v87 (by decide)) V
  v88 := rd_reshape 105 rfl (not_written_from 105 main_v87 (by decide)) (not_written_from 106 main_v88 (by decide)) V
  v89 := rd_unary 106 rfl (not_written_from 106 main_v82 (by decide)) (not_written_from 107 main_v89 (by decide)) V
  v90 := rd_reshape 107 rfl (not_written_from 107 main_v89 (by decide)) (not_written_from 108 main_v90 (by decide)) V
  v91 := rd_binary 108 rfl (not_written_from 108 main_v88 (by decide)) (not_written_from 108 main_v88 (by decide)) (not_written_from 109 main_v91 (by decide)) V
  v92 := rd_binary 109 rfl (not_written_from 109 main_v90 (by decide)) (not_written_from 109 main_v90 (by decide)) (not_written_from 110 main_v92 (by decide)) V
  v93 := rd_binary 110 rfl (not_written_from 110 main_v91 (by decide)) (not_written_from 110 main_v92 (by decide)) (not_written_from 111 main_v93 (by decide)) V
  cst_7 := rd_nullary 111 rfl (not_written_from 112 main_cst_7 (by decide)) V
  v94 := rd_unary 112 rfl (not_written_from 112 main_cst_7 (by decide)) (not_written_from 113 main_v94 (by decide)) V
  v95 := rd_binary 113 rfl (not_written_from 113 main_v94 (by decide)) (not_written_from 113 main_v93 (by decide)) (not_written_from 114 main_v95 (by decide)) V
  cst_8 := rd_nullary 114 rfl (not_written_from 115 main_cst_8 (by decide)) V
  v96 := rd_unary 115 rfl (not_written_from 115 main_cst_8 (by decide)) (not_written_from 116 main_v96 (by decide)) V
  v97 := rd_binary 116 rfl (not_written_from 116 main_v96 (by decide)) (not_written_from 116 main_v95 (by decide)) (not_written_from 117 main_v97 (by decide)) V
  v98 := rd_binary 117 rfl (not_written_from 117 main_v86 (by decide)) (not_written_from 117 main_v88 (by decide)) (not_written_from 118 main_v98 (by decide)) V
  v99 := rd_binary 118 rfl (not_written_from 118 main_v90 (by decide)) (not_written_from 118 main_v84 (by decide)) (not_written_from 119 main_v99 (by decide)) V
  v100 := rd_binary 119 rfl (not_written_from 119 main_v98 (by decide)) (not_written_from 119 main_v99 (by decide)) (not_written_from 120 main_v100 (by decide)) V
  cst_9 := rd_nullary 120 rfl (not_written_from 121 main_cst_9 (by decide)) V
  v101 := rd_unary 121 rfl (not_written_from 121 main_cst_9 (by decide)) (not_written_from 122 main_v101 (by decide)) V
  v102 := rd_binary 122 rfl (not_written_from 122 main_v101 (by decide)) (not_written_from 122 main_v100 (by decide)) (not_written_from 123 main_v102 (by decide)) V
  v103 := rd_binary 123 rfl (not_written_from 123 main_v86 (by decide)) (not_written_from 123 main_v90 (by decide)) (not_written_from 124 main_v103 (by decide)) V
  v104 := rd_binary 124 rfl (not_written_from 124 main_v88 (by decide)) (not_written_from 124 main_v84 (by decide)) (not_written_from 125 main_v104 (by decide)) V
  v105 := rd_binary 125 rfl (not_written_from 125 main_v103 (by decide)) (not_written_from 125 main_v104 (by decide)) (not_written_from 126 main_v105 (by decide)) V
  cst_10 := rd_nullary 126 rfl (not_written_from 127 main_cst_10 (by decide)) V
  v106 := rd_unary 127 rfl (not_written_from 127 main_cst_10 (by decide)) (not_written_from 128 main_v106 (by decide)) V
  v107 := rd_binary 128 rfl (not_written_from 128 main_v106 (by decide)) (not_written_from 128 main_v105 (by decide)) (not_written_from 129 main_v107 (by decide)) V
  v108 := rd_binary 129 rfl (not_written_from 129 main_v86 (by decide)) (not_written_from 129 main_v88 (by decide)) (not_written_from 130 main_v108 (by decide)) V
  v109 := rd_binary 130 rfl (not_written_from 130 main_v90 (by decide)) (not_written_from 130 main_v84 (by decide)) (not_written_from 131 main_v109 (by decide)) V
  v110 := rd_binary 131 rfl (not_written_from 131 main_v108 (by decide)) (not_written_from 131 main_v109 (by decide)) (not_written_from 132 main_v110 (by decide)) V
  cst_11 := rd_nullary 132 rfl (not_written_from 133 main_cst_11 (by decide)) V
  v111 := rd_unary 133 rfl (not_written_from 133 main_cst_11 (by decide)) (not_written_from 134 main_v111 (by decide)) V
  v112 := rd_binary 134 rfl (not_written_from 134 main_v111 (by decide)) (not_written_from 134 main_v110 (by decide)) (not_written_from 135 main_v112 (by decide)) V
  v113 := rd_binary 135 rfl (not_written_from 135 main_v86 (by decide)) (not_written_from 135 main_v86 (by decide)) (not_written_from 136 main_v113 (by decide)) V
  v114 := rd_binary 136 rfl (not_written_from 136 main_v90 (by decide)) (not_written_from 136 main_v90 (by decide)) (not_written_from 137 main_v114 (by decide)) V
  v115 := rd_binary 137 rfl (not_written_from 137 main_v113 (by decide)) (not_written_from 137 main_v114 (by decide)) (not_written_from 138 main_v115 (by decide)) V
  cst_12 := rd_nullary 138 rfl (not_written_from 139 main_cst_12 (by decide)) V
  v116 := rd_unary 139 rfl (not_written_from 139 main_cst_12 (by decide)) (not_written_from 140 main_v116 (by decide)) V
  v117 := rd_binary 140 rfl (not_written_from 140 main_v116 (by decide)) (not_written_from 140 main_v115 (by decide)) (not_written_from 141 main_v117 (by decide)) V
  cst_13 := rd_nullary 141 rfl (not_written_from 142 main_cst_13 (by decide)) V
  v118 := rd_unary 142 rfl (not_written_from 142 main_cst_13 (by decide)) (not_written_from 143 main_v118 (by decide)) V
  v119 := rd_binary 143 rfl (not_written_from 143 main_v118 (by decide)) (not_written_from 143 main_v117 (by decide)) (not_written_from 144 main_v119 (by decide)) V
  v120 := rd_binary 144 rfl (not_written_from 144 main_v88 (by decide)) (not_written_from 144 main_v90 (by decide)) (not_written_from 145 main_v120 (by decide)) V
  v121 := rd_binary 145 rfl (not_written_from 145 main_v86 (by decide)) (not_written_from 145 main_v84 (by decide)) (not_written_from 146 main_v121 (by decide)) V
  v122 := rd_binary 146 rfl (not_written_from 146 main_v120 (by decide)) (not_written_from 146 main_v121 (by decide)) (not_written_from 147 main_v122 (by decide)) V
  cst_14 := rd_nullary 147 rfl (not_written_from 148 main_cst_14 (by decide)) V
  v123 := rd_unary 148 rfl (not_written_from 148 main_cst_14 (by decide)) (not_written_from 149 main_v123 (by decide)) V
  v124 := rd_binary 149 rfl (not_written_from 149 main_v123 (by decide)) (not_written_from 149 main_v122 (by decide)) (not_written_from 150 main_v124 (by decide)) V
  v125 := rd_binary 150 rfl (not_written_from 150 main_v86 (by decide)) (not_written_from 150 main_v90 (by decide)) (not_written_from 151 main_v125 (by decide)) V
  v126 := rd_binary 151 rfl (not_written_from 151 main_v88 (by decide)) (not_written_from 151 main_v84 (by decide)) (not_written_from 152 main_v126 (by decide)) V
  v127 := rd_binary 152 rfl (not_written_from 152 main_v125 (by decide)) (not_written_from 152 main_v126 (by decide)) (not_written_from 153 main_v127 (by decide)) V
  cst_15 := rd_nullary 153 rfl (not_written_from 154 main_cst_15 (by decide)) V
  v128 := rd_unary 154 rfl (not_written_from 154 main_cst_15 (by decide)) (not_written_from 155 main_v128 (by decide)) V
  v129 := rd_binary 155 rfl (not_written_from 155 main_v128 (by decide)) (not_written_from 155 main_v127 (by decide)) (not_written_from 156 main_v129 (by decide)) V
  v130 := rd_binary 156 rfl (not_written_from 156 main_v88 (by decide)) (not_written_from 156 main_v90 (by decide)) (not_written_from 157 main_v130 (by decide)) V
  v131 := rd_binary 157 rfl (not_written_from 157 main_v86 (by decide)) (not_written_from 157 main_v84 (by decide)) (not_written_from 158 main_v131 (by decide)) V
  v132 := rd_binary 158 rfl (not_written_from 158 main_v130 (by decide)) (not_written_from 158 main_v131 (by decide)) (not_written_from 159 main_v132 (by decide)) V
  cst_16 := rd_nullary 159 rfl (not_written_from 160 main_cst_16 (by decide)) V
  v133 := rd_unary 160 rfl (not_written_from 160 main_cst_16 (by decide)) (not_written_from 161 main_v133 (by decide)) V
  v134 := rd_binary 161 rfl (not_written_from 161 main_v133 (by decide)) (not_written_from 161 main_v132 (by decide)) (not_written_from 162 main_v134 (by decide)) V
  v135 := rd_binary 162 rfl (not_written_from 162 main_v86 (by decide)) (not_written_from 162 main_v86 (by decide)) (not_written_from 163 main_v135 (by decide)) V
  v136 := rd_binary 163 rfl (not_written_from 163 main_v88 (by decide)) (not_written_from 163 main_v88 (by decide)) (not_written_from 164 main_v136 (by decide)) V
  v137 := rd_binary 164 rfl (not_written_from 164 main_v135 (by decide)) (not_written_from 164 main_v136 (by decide)) (not_written_from 165 main_v137 (by decide)) V
  cst_17 := rd_nullary 165 rfl (not_written_from 166 main_cst_17 (by decide)) V
  v138 := rd_unary 166 rfl (not_written_from 166 main_cst_17 (by decide)) (not_written_from 167 main_v138 (by decide)) V
  v139 := rd_binary 167 rfl (not_written_from 167 main_v138 (by decide)) (not_written_from 167 main_v137 (by decide)) (not_written_from 168 main_v139 (by decide)) V
  cst_18 := rd_nullary 168 rfl (not_written_from 169 main_cst_18 (by decide)) V
  v140 := rd_unary 169 rfl (not_written_from 169 main_cst_18 (by decide)) (not_written_from 170 main_v140 (by decide)) V
  v141 := rd_binary 170 rfl (not_written_from 170 main_v140 (by decide)) (not_written_from 170 main_v139 (by decide)) (not_written_from 171 main_v141 (by decide)) V
  v142 := rd_unary 171 rfl (not_written_from 171 main_v97 (by decide)) (not_written_from 172 main_v142 (by decide)) V
  v143 := rd_unary 172 rfl (not_written_from 172 main_v102 (by decide)) (not_written_from 173 main_v143 (by decide)) V
  v144 := rd_unary 173 rfl (not_written_from 173 main_v107 (by decide)) (not_written_from 174 main_v144 (by decide)) V
  v145 := rd_nary 174 rfl (fun i => not_written_from 174 _ ((by decide : ∀ i : Fin 3, key (![main_v142, main_v143, main_v144] i) < 174 + 2) i)) (not_written_from 175 main_v145 (by decide)) V
  v146 := rd_unary 175 rfl (not_written_from 175 main_v112 (by decide)) (not_written_from 176 main_v146 (by decide)) V
  v147 := rd_unary 176 rfl (not_written_from 176 main_v119 (by decide)) (not_written_from 177 main_v147 (by decide)) V
  v148 := rd_unary 177 rfl (not_written_from 177 main_v124 (by decide)) (not_written_from 178 main_v148 (by decide)) V
  v149 := rd_nary 178 rfl (fun i => not_written_from 178 _ ((by decide : ∀ i : Fin 3, key (![main_v146, main_v147, main_v148] i) < 178 + 2) i)) (not_written_from 179 main_v149 (by decide)) V
  v150 := rd_unary 179 rfl (not_written_from 179 main_v129 (by decide)) (not_written_from 180 main_v150 (by decide)) V
  v151 := rd_unary 180 rfl (not_written_from 180 main_v134 (by decide)) (not_written_from 181 main_v151 (by decide)) V
  v152 := rd_unary 181 rfl (not_written_from 181 main_v141 (by decide)) (not_written_from 182 main_v152 (by decide)) V
  v153 := rd_nary 182 rfl (fun i => not_written_from 182 _ ((by decide : ∀ i : Fin 3, key (![main_v150, main_v151, main_v152] i) < 182 + 2) i)) (not_written_from 183 main_v153 (by decide)) V
  v154 := rd_unary 183 rfl (not_written_from 183 main_v145 (by decide)) (not_written_from 184 main_v154 (by decide)) V
  v155 := rd_unary 184 rfl (not_written_from 184 main_v149 (by decide)) (not_written_from 185 main_v155 (by decide)) V
  v156 := rd_unary 185 rfl (not_written_from 185 main_v153 (by decide)) (not_written_from 186 main_v156 (by decide)) V
  v157 := rd_nary 186 rfl (fun i => not_written_from 186 _ ((by decide : ∀ i : Fin 3, key (![main_v154, main_v155, main_v156] i) < 186 + 2) i)) (not_written_from 187 main_v157 (by decide)) V
  v158 := rd_unary 187 rfl (not_written_from 187 main_arg0 (by decide)) (not_written_from 188 main_v158 (by decide)) V
  v159 := rd_binary 188 rfl (not_written_from 188 main_v157 (by decide)) (not_written_from 188 main_v158 (by decide)) (not_written_from 189 main_v159 (by decide)) V
  v160 := rd_binary 189 rfl (not_written_from 189 main_v159 (by decide)) (not_written_from 189 main_v79 (by decide)) (not_written_from 190 main_v160 (by decide)) V

end Cert.ReferenceIdeal.Pose
-- ==== Proof.RefPose.lean ====
/-
  The pose's homogeneous matrix, read at an index.

  From the pose (tx, ty, tz, qw, qx, qy, qz) of a sample the reference builds the 4×4 matrix whose upper-left 3×3 block
  is the rotation matrix of the quaternion — nine polynomial entries, computed as whole vectors over the samples, put
  side by side three at a time into rows and the rows stacked —, whose last column is the translation, and whose last
  row is the constant (0, 0, 0, 1), a 1×1×4 literal repeated over the samples. Read at sample b, row i, column j, every
  step is a re-indexing or an entry-by-entry operation, so the entry is the corresponding entry of the homogeneous
  matrix of the rotation matrix of (qw, qx, qy, qz) and (tx, ty, tz) of that sample.

  The statements are first proved for ANY valuation of the buffers in which each buffer of this part of the line holds
  its operation's function of the operands' contents, and then taken at the contents at the end of the line.
-/
import proofs.«161387_j47622597378731_2_alg».proof.Proof.RefPoseReads
import proofs.«161387_j47622597378731_2_alg».proof.Proof.RefHeadLayout
import proofs.«161387_j47622597378731_2_alg».proof.Proof.RefHeadJoin
import proofs.«161387_j47622597378731_2_alg».proof.Proof.RefHeadWords
import proofs.«161387_j47622597378731_2_alg».proof.Proof.Spec

namespace Cert.ReferenceIdeal.Hand

open Cert.ReferenceIdeal Cert.ReferenceIdeal.Gen Cert.ReferenceIdeal.Head Cert.ReferenceIdeal.Pose
open Idealize.ShloMosaic Idealize.ShloMosaic.TcCoe Idealize.ShloMosaic.StableHlo Idealize.ShloMosaic.ValueIdx

section Pure

variable {Z : Valuation τ sig (Elt Ideal)} {A0 : (⟨3, ![2000000, 7, 1]⟩ : Shape).Idx → Cert.Spec.E}

/-- The last row: the literal (0, 0, 0, 1) at every sample. -/
theorem bottom_of_reads (h : PoseReads Z A0) (b : Fin 2000000) (j : Fin 4) :
    Z (Proc.devRef .tc main_v79) (ix3 b 0 j) = Cert.Spec.bottom j := by
  rw [h.v79, h.cst]
  exact (bc_114_n14 _ b j).trans (bottom_word j)

/-- Component k of the quaternion, as a vector over the samples, at sample b: entry 3 + k of the pose. -/
theorem q0_of_reads (h : PoseReads Z A0) (b : Fin 2000000) : Z (Proc.devRef .tc main_v84) (ix1 b) = A0 (ix3 b 3 0) := by
  rw [h.v84, cast_1_, h.v83, slice4_c0, h.v82, cast_4x1_4, h.v81, slice7_hi, h.arg0]; rfl
theorem q1_of_reads (h : PoseReads Z A0) (b : Fin 2000000) : Z (Proc.devRef .tc main_v86) (ix1 b) = A0 (ix3 b 4 0) := by
  rw [h.v86, cast_1_, h.v85, slice4_c1, h.v82, cast_4x1_4, h.v81, slice7_hi, h.arg0]; rfl
theorem q2_of_reads (h : PoseReads Z A0) (b : Fin 2000000) : Z (Proc.devRef .tc main_v88) (ix1 b) = A0 (ix3 b 5 0) := by
  rw [h.v88, cast_1_, h.v87, slice4_c2, h.v82, cast_4x1_4, h.v81, slice7_hi, h.arg0]; rfl
theorem q3_of_reads (h : PoseReads Z A0) (b : Fin 2000000) : Z (Proc.devRef .tc main_v90) (ix1 b) = A0 (ix3 b 6 0) := by
  rw [h.v90, cast_1_, h.v89, slice4_c3, h.v82, cast_4x1_4, h.v81, slice7_hi, h.arg0]; rfl

/-! The nine polynomial entries at sample b, each a column vector over the samples read at its one column: a constant,
    a product of a constant with a sum or difference of two products of quaternion components, or 1 minus such a product. -/

theorem e00_of_reads (h : PoseReads Z A0) (b : Fin 2000000) :
    Z (Proc.devRef .tc main_v142) (ix2 b 0) = Cert.Spec.c1 - Cert.Spec.c2 * ((A0 (ix3 b 5 0)) * (A0 (ix3 b 5 0)) + (A0 (ix3 b 6 0)) * (A0 (ix3 b 6 0))) := by
  rw [h.v142, bc_n_n1, h.v97, subf_apply, h.v96, bc_s_n, h.cst_8, constant_apply, h.v95, mulf_apply, h.v94, bc_s_n,
    h.cst_7, constant_apply, h.v93, addf_apply, h.v91, h.v92, mulf_apply, mulf_apply, q2_of_reads h, q3_of_reads h]
  rfl

theorem e01_of_reads (h : PoseReads Z A0) (b : Fin 2000000) :
    Z (Proc.devRef .tc main_v143) (ix2 b 0) = Cert.Spec.c2 * ((A0 (ix3 b 4 0)) * (A0 (ix3 b 5 0)) - (A0 (ix3 b 6 0)) * (A0 (ix3 b 3 0))) := by
  rw [h.v143, bc_n_n1, h.v102, mulf_apply, h.v101, bc_s_n, h.cst_9, constant_apply, h.v100, subf_apply, h.v98, h.v99,
    mulf_apply, mulf_apply, q1_of_reads h, q2_of_reads h, q3_of_reads h, q0_of_reads h]
  rfl

theorem e02_of_reads (h : PoseReads Z A0) (b : Fin 2000000) :
    Z (Proc.devRef .tc main_v144) (ix2 b 0) = Cert.Spec.c2 * ((A0 (ix3 b 4 0)) * (A0 (ix3 b 6 0)) + (A0 (ix3 b 5 0)) * (A0 (ix3 b 3 0))) := by
  rw [h.v144, bc_n_n1, h.v107, mulf_apply, h.v106, bc_s_n, h.cst_10, constant_apply, h.v105, addf_apply, h.v103, h.v104,
    mulf_apply, mulf_apply, q1_of_reads h, q3_of_reads h, q2_of_reads h, q0_of_reads h]
  rfl

theorem e10_of_reads (h : PoseReads Z A0) (b : Fin 2000000) :
    Z (Proc.devRef .tc main_v146) (ix2 b 0) = Cert.Spec.c2 * ((A0 (ix3 b 4 0)) * (A0 (ix3 b 5 0)) + (A0 (ix3 b 6 0)) * (A0 (ix3 b 3 0))) := by
  rw [h.v146, bc_n_n1, h.v112, mulf_apply, h.v111, bc_s_n, h.cst_11, constant_apply, h.v110, addf_apply, h.v108, h.v109,
    mulf_apply, mulf_apply, q1_of_reads h, q2_of_reads h, q3_of_reads h, q0_of_reads h]
  rfl

theorem e11_of_reads (h : PoseReads Z A0) (b : Fin 2000000) :
    Z (Proc.devRef .tc main_v147) (ix2 b 0) = Cert.Spec.c1 - Cert.Spec.c2 * ((A0 (ix3 b 4 0)) * (A0 (ix3 b 4 0)) + (A0 (ix3 b 6 0)) * (A0 (ix3 b 6 0))) := by
  rw [h.v147, bc_n_n1, h.v119, subf_apply, h.v118, bc_s_n, h.cst_13, constant_apply, h.v117, mulf_apply, h.v116, bc_s_n,
    h.cst_12, constant_apply, h.v115, addf_apply, h.v113, h.v114, mulf_apply, mulf_apply, q1_of_reads h, q3_of_reads h]
  rfl

theorem e12_of_reads (h : PoseReads Z A0) (b : Fin 2000000) :
    Z (Proc.devRef .tc main_v148) (ix2 b 0) = Cert.Spec.c2 * ((A0 (ix3 b 5 0)) * (A0 (ix3 b 6 0)) - (A0 (ix3 b 4 0)) * (A0 (ix3 b 3 0))) := by
  rw [h.v148, bc_n_n1, h.v124, mulf_apply, h.v123, bc_s_n, h.cst_14, constant_apply, h.v122, subf_apply, h.v120, h.v121,
    mulf_apply, mulf_apply, q2_of_reads h, q3_of_reads h, q1_of_reads h, q0_of_reads h]
  rfl

theorem e20_of_reads (h : PoseReads Z A0) (b : Fin 2000000) :
    Z (Proc.devRef .tc main_v150) (ix2 b 0) = Cert.Spec.c2 * ((A0 (ix3 b 4 0)) * (A0 (ix3 b 6 0)) - (A0 (ix3 b 5 0)) * (A0 (ix3 b 3 0))) := by
  rw [h.v150, bc_n_n1, h.v129, mulf_apply, h.v128, bc_s_n, h.cst_15, constant_apply, h.v127, subf_apply, h.v125, h.v126,
    mulf_apply, mulf_apply, q1_of_reads h, q3_of_reads h, q2_of_reads h, q0_of_reads h]
  rfl

theorem e21_of_reads (h : PoseReads Z A0) (b : Fin 2000000) :
    Z (Proc.devRef .tc main_v151) (ix2 b 0) = Cert.Spec.c2 * ((A0 (ix3 b 5 0)) * (A0 (ix3 b 6 0)) + (A0 (ix3 b 4 0)) * (A0 (ix3 b 3 0))) := by
  rw [h.v151, bc_n_n1, h.v134, mulf_apply, h.v133, bc_s_n, h.cst_16, constant_apply, h.v132, addf_apply, h.v130, h.v131,
    mulf_apply, mulf_apply, q2_of_reads h, q3_of_reads h, q1_of_reads h, q0_of_reads h]
  rfl

theorem e22_of_reads (h : PoseReads Z A0) (b : Fin 2000000) :
    Z (Proc.devRef .tc main_v152) (ix2 b 0) = Cert.Spec.c1 - Cert.Spec.c2 * ((A0 (ix3 b 4 0)) * (A0 (ix3 b 4 0)) + (A0 (ix3 b 5 0)) * (A0 (ix3 b 5 0))) := by
  rw [h.v152, bc_n_n1, h.v141, subf_apply, h.v140, bc_s_n, h.cst_18, constant_apply, h.v139, mulf_apply, h.v138, bc_s_n,
    h.cst_17, constant_apply, h.v137, addf_apply, h.v135, h.v136, mulf_apply, mulf_apply, q1_of_reads h, q2_of_reads h]
  rfl

/-- The nine entries at sample b, as a matrix: the rotation matrix of the sample's quaternion. -/
theorem rot_of_reads (h : PoseReads Z A0) (b : Fin 2000000) :
    ![![Z (Proc.devRef .tc main_v142) (ix2 b 0), Z (Proc.devRef .tc main_v143) (ix2 b 0), Z (Proc.devRef .tc main_v144) (ix2 b 0)],
      ![Z (Proc.devRef .tc main_v146) (ix2 b 0), Z (Proc.devRef .tc main_v147) (ix2 b 0), Z (Proc.devRef .tc main_v148) (ix2 b 0)],
      ![Z (Proc.devRef .tc main_v150) (ix2 b 0), Z (Proc.devRef .tc main_v151) (ix2 b 0), Z (Proc.devRef .tc main_v152) (ix2 b 0)]]
      = Cert.Spec.Rg (A0 (ix3 b 3 0)) (A0 (ix3 b 4 0)) (A0 (ix3 b 5 0)) (A0 (ix3 b 6 0)) := by
  rw [e00_of_reads h, e01_of_reads h, e02_of_reads h, e10_of_reads h, e11_of_reads h, e12_of_reads h, e20_of_reads h,
    e21_of_reads h, e22_of_reads h]
  rfl

/-- Entry (i, j) of the pose's matrix at sample b. -/
theorem tgm_of_reads (h : PoseReads Z A0) (b : Fin 2000000) (i j : Fin 4) :
    Z (Proc.devRef .tc main_v160) (ix3 b i j)
      = Cert.Spec.homog (Cert.Spec.Rg (A0 (ix3 b 3 0)) (A0 (ix3 b 4 0)) (A0 (ix3 b 5 0)) (A0 (ix3 b 6 0)))
          ![A0 (ix3 b 0 0), A0 (ix3 b 1 0), A0 (ix3 b 2 0)] i j := by
  rw [h.v160, cat_block_row]
  unfold Cert.Spec.homog
  by_cases hi : i.val < 3
  · simp only [dif_pos hi]
    rw [h.v159, cat_block_col]
    by_cases hj : j.val < 3
    · simp only [dif_pos hj]
      rw [h.v157, cat_rows3, h.v154, h.v155, h.v156, bc_n3_n13, bc_n3_n13, bc_n3_n13, h.v145, h.v149, h.v153,
        cat_cols3, cat_cols3, cat_cols3]
      refine (rows3_apply _ _ _ ⟨i.val, hi⟩ ⟨j.val, hj⟩).trans ?_
      rw [rot_of_reads h b]
    · simp only [dif_neg hj]
      rw [h.v158, slice7_lo, h.arg0]
      exact (vec3_eta (fun k : Fin 3 => A0 (ix3 b ⟨k.val, by omega⟩ 0)) ⟨i.val, hi⟩).symm
  · simp only [dif_neg hi]
    exact bottom_of_reads h b j

end Pure

/-! ## At the end of the line -/

/-- The last row of the pose's matrix. -/
theorem bottom_apply (V : Valuation τ sig (Elt Ideal)) (b : Fin 2000000) (j : Fin 4) :
    after (ops (F := Ideal)) V (main_v79 : DevRef τ sig) (ix3 b 0 j) = Cert.Spec.bottom j :=
  bottom_of_reads (poseReads V) b j

/-- The pose's matrix: the homogeneous matrix of the rotation matrix of the sample's quaternion and its translation. -/
theorem tgm_apply (V : Valuation τ sig (Elt Ideal)) (b : Fin 2000000) (i j : Fin 4) :
    after (ops (F := Ideal)) V (main_v160 : DevRef τ sig) (ix3 b i j)
      = Cert.Spec.homog
          (Cert.Spec.Rg (Cert.Spec.tgRow (V (main_arg0 : DevRef τ sig)) b 3) (Cert.Spec.tgRow (V (main_arg0 : DevRef τ sig)) b 4)
            (Cert.Spec.tgRow (V (main_arg0 : DevRef τ sig)) b 5) (Cert.Spec.tgRow (V (main_arg0 : DevRef τ sig)) b 6))
          ![Cert.Spec.tgRow (V (main_arg0 : DevRef τ sig)) b 0, Cert.Spec.tgRow (V (main_arg0 : DevRef τ sig)) b 1,
            Cert.Spec.tgRow (V (main_arg0 : DevRef τ sig)) b 2] i j :=
  tgm_of_reads (poseReads V) b i j

end Cert.ReferenceIdeal.Hand
-- ==== Proof.RefValue.lean ====
/-
  The reference's run with its result named: every weakly fair execution ends with the result array at the
  reference's scalar formula of each sample's pose and twist, the arguments unchanged. The run leaves every buffer at
  the fold of the operation list over the launch contents; the result buffer's fold, read at sample b and component k, is
  the finishing step of the batched 4×4 product's block at b, and that block is the product of the twist's homogeneous
  matrix with the pose's.
-/
import proofs.«161387_j47622597378731_2_alg».proof.Proof.RefRun
import proofs.«161387_j47622597378731_2_alg».proof.Proof.RefTail
import proofs.«161387_j47622597378731_2_alg».proof.Proof.RefHead
import proofs.«161387_j47622597378731_2_alg».proof.Proof.RefPose
import proofs.«161387_j47622597378731_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The result buffer's fold is the reference's array of the arguments' folds, given the 4×4 product's block at every
    sample. -/
theorem result_of_head
    (head : ∀ (V : Valuation τ sig (Elt Ideal)) (b : Fin 2000000) (i j : Fin 4),
      after ops V (main_v161 : DevRef τ sig) (ix3 b i j)
        = Cert.Spec.rT (Cert.Spec.tgRow (V (main_arg0 : DevRef τ sig)) b) (Cert.Spec.xiRow (V (main_arg1 : DevRef τ sig)) b) i j)
    (V : Valuation τ sig (Elt Ideal)) :
    after ops V (main_v327 : DevRef τ sig)
      = Cert.Spec.refArr (V (main_arg0 : DevRef τ sig)) (V (main_arg1 : DevRef τ sig)) := by
  funext i
  obtain ⟨b, k, z, rfl⟩ : ∃ (b : Fin 2000000) (k : Fin 7) (z : Fin 1), i = ix3 b k z := ⟨i 0, i 1, i 2, eq_ix3 i⟩
  obtain rfl : z = 0 := Subsingleton.elim _ _
  rw [tail_apply]
  have e : (fun i j => after ops V (main_v161 : DevRef τ sig) (ix3 b i j))
      = Cert.Spec.rT (Cert.Spec.tgRow (V (main_arg0 : DevRef τ sig)) b) (Cert.Spec.xiRow (V (main_arg1 : DevRef τ sig)) b) :=
    funext fun i => funext fun j => head V b i j
  rw [e]
  rfl

/-- The run, from the block lemma. -/
theorem run_value_of_head
    (head : ∀ (V : Valuation τ sig (Elt Ideal)) (b : Fin 2000000) (i j : Fin 4),
      after ops V (main_v161 : DevRef τ sig) (ix3 b i j)
        = Cert.Spec.rT (Cert.Spec.tgRow (V (main_arg0 : DevRef τ sig)) b) (Cert.Spec.xiRow (V (main_arg1 : DevRef τ sig)) b) i j)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v327)
        = Cert.Spec.refArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v327).trans (result_of_head head _),
      (h c main_arg0).trans (after_arg0 _), (h c main_arg1).trans (after_arg1 _)⟩)
    (run_main m ρ)

/-- The 4×4 product's block at sample b: the twist's homogeneous matrix times the pose's. -/
theorem head_apply (V : Valuation τ sig (Elt Ideal)) (b : Fin 2000000) (i j : Fin 4) :
    after ops V (main_v161 : DevRef τ sig) (ix3 b i j)
      = Cert.Spec.rT (Cert.Spec.tgRow (V (main_arg0 : DevRef τ sig)) b) (Cert.Spec.xiRow (V (main_arg1 : DevRef τ sig)) b) i j :=
  head_of_pose V b (fun k j => tgm_apply V b k j) i j

/-- The reference's run, its result at the reference's formula of the arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v327)
        = Cert.Spec.refArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_value_of_head head_apply m ρ

end Cert.ReferenceIdeal.Hand

end
-- ==== Proof.Lift.lean ====
/-
  Real arguments give real values: the literals of the two programs as real numbers, and each scalar operation of
  the extended reals at real arguments as the coercion of the real operation.
-/
import proofs.«161387_j47622597378731_2_alg».proof.Proof.Spec

noncomputable section

namespace Cert.Lift

open Idealize.ShloMosaic Cert.Spec

/-! ## The literals -/

theorem c0_eq : c0 = ((0 : ℝ) : EReal) := by
  simp [c0, Ideal.ofBits, Ideal.ieee]

theorem c1_eq : c1 = ((1 : ℝ) : EReal) := by
  simp [c1, Ideal.ofBits, Ideal.ieee, -EReal.coe_mul]; norm_num

theorem c2_eq : c2 = ((2 : ℝ) : EReal) := by
  simp [c2, Ideal.ofBits, Ideal.ieee, -EReal.coe_mul]; norm_num

theorem chalf_eq : chalf = ((1 / 2 : ℝ) : EReal) := by
  simp [chalf, Ideal.ofBits, Ideal.ieee, -EReal.coe_mul]; norm_num

/-- The threshold is a positive real. -/
theorem cthr_eq : ∃ r : ℝ, 0 < r ∧ cthr = (r : EReal) := by
  refine ⟨(2 ^ 23 + 834764 : ℕ) * (2 : ℝ) ^ ((87 : ℤ) - 127 - 23), by positivity, ?_⟩
  simp [cthr, Ideal.ofBits, Ideal.ieee, -EReal.coe_mul]

/-- The sixth is a real. -/
theorem csixth_eq : ∃ r : ℝ, csixth = (r : EReal) := by
  refine ⟨(2 ^ 23 + 2796203 : ℕ) * (2 : ℝ) ^ ((124 : ℤ) - 127 - 23), ?_⟩
  simp [csixth, Ideal.ofBits, Ideal.ieee, -EReal.coe_mul]

/-! ## The operations at real arguments -/

theorem cmp_olt_coe (x y : ℝ) : Ideal.cmp .olt (x : EReal) (y : EReal) = BitVec.ofBool (decide (x < y)) := by
  simp [Ideal.cmp, EReal.coe_lt_coe_iff]

theorem cmp_ogt_coe (x y : ℝ) : Ideal.cmp .ogt (x : EReal) (y : EReal) = BitVec.ofBool (decide (y < x)) := by
  simp [Ideal.cmp, EReal.coe_lt_coe_iff]

theorem sel_coe (c : BitVec 1) (a b : ℝ) : sel c (a : EReal) (b : EReal) = ((if c = 1 then a else b : ℝ) : EReal) := by
  unfold sel Scalar.select; split <;> rfl

theorem div_coe_coe (a b : ℝ) (hb : b ≠ 0) : Ideal.div (a : EReal) (b : EReal) = ((a / b : ℝ) : EReal) := by
  rw [Ideal.div_coe hb, ← EReal.coe_mul]; congr 1; ring

theorem sqrt_coe_nonneg (r : ℝ) (h : 0 ≤ r) : Ideal.sqrt (r : EReal) = ((Real.sqrt r : ℝ) : EReal) := by
  rw [Ideal.sqrt_coe, if_neg (not_lt.mpr h)]

theorem rsqrt_coe_pos (r : ℝ) (h : 0 < r) : Ideal.rsqrt (r : EReal) = (((Real.sqrt r)⁻¹ : ℝ) : EReal) := by
  rw [Ideal.rsqrt_coe, if_neg (not_lt.mpr h.le), if_neg h.ne']

/-- The complement of a one-bit word, spelt either way. -/
theorem xori_one (b : BitVec 1) : IntOp.xori b 1#1 = ~~~b := by
  rcases BitVec.eq_zero_or_eq_one b with h | h <;> subst h <;> decide

end Cert.Lift

end
-- ==== Proof.Bridge.lean ====
/-
  For real poses and twists the two spellings of a sample's seven numbers are the same extended reals.
-/
import proofs.«161387_j47622597378731_2_alg».proof.Proof.Lift

noncomputable section

namespace Cert.Bridge

open Idealize.ShloMosaic Cert.Spec Cert.Lift

theorem sel_one (a b : E) : sel 1#1 a b = a := rfl
theorem sel_zero (a b : E) : sel 0#1 a b = b := rfl

/-- At a real twist the two spellings of A, Bc, Cc are the same real numbers: above the threshold θ > 0 and
    x·(1/θ) = x/θ, (x·(1/θ²))·(1/θ) = x/(θ²·θ); at or below it both are the literal. -/
theorem coef (ox oy oz : ℝ) : ∃ A B C : ℝ,
    kA (ox : EReal) oy oz = (A : EReal) ∧ rA (ox : EReal) oy oz = (A : EReal)
    ∧ kBc (ox : EReal) oy oz = (B : EReal) ∧ rBc (ox : EReal) oy oz = (B : EReal)
    ∧ kCc (ox : EReal) oy oz = (C : EReal) ∧ rCc (ox : EReal) oy oz = (C : EReal) := by
  obtain ⟨thr, hthr, ethr⟩ := cthr_eq
  obtain ⟨s6, e6⟩ := csixth_eq
  have e2 : th2 (ox : EReal) oy oz = ((ox * ox + oy * oy + oz * oz : ℝ) : EReal) := by
    unfold th2; push_cast; rfl
  generalize hq : ox * ox + oy * oy + oz * oz = q at e2
  have esafe : safe (ox : EReal) oy oz = BitVec.ofBool (decide (thr < q)) := by
    unfold safe; rw [e2, ethr, cmp_ogt_coe]
  by_cases h : thr < q
  · have hs : safe (ox : EReal) oy oz = 1#1 := by rw [esafe]; simp [h]
    have ets : ts (ox : EReal) oy oz = (q : EReal) := by unfold ts; rw [hs, e2, sel_one]
    have hq0 : 0 < q := lt_trans hthr h
    have eth : th (ox : EReal) oy oz = ((Real.sqrt q : ℝ) : EReal) := by
      unfold th; rw [ets, sqrt_coe_nonneg _ hq0.le]
    have hθ : Real.sqrt q ≠ 0 := (Real.sqrt_pos.mpr hq0).ne'
    refine ⟨Real.sin (Real.sqrt q) / Real.sqrt q, (1 - Real.cos (Real.sqrt q)) / q,
      (Real.sqrt q - Real.sin (Real.sqrt q)) / (q * Real.sqrt q), ?_, ?_, ?_, ?_, ?_, ?_⟩
    · unfold kA; rw [hs, sel_one, eth, c1_eq, Ideal.sin_coe, div_coe_coe _ _ hθ, ← EReal.coe_mul]; congr 1; ring
    · unfold rA; rw [hs, sel_one, eth, Ideal.sin_coe, div_coe_coe _ _ hθ]
    · unfold kBc; rw [hs, sel_one, eth, ets, c1_eq, Ideal.cos_coe, div_coe_coe _ _ hq0.ne', ← EReal.coe_sub, ← EReal.coe_mul]
      congr 1; ring
    · unfold rBc; rw [hs, sel_one, eth, ets, c1_eq, Ideal.cos_coe, ← EReal.coe_sub, div_coe_coe _ _ hq0.ne']
    · unfold kCc; rw [hs, sel_one, eth, ets, c1_eq, Ideal.sin_coe, div_coe_coe _ _ hq0.ne', div_coe_coe _ _ hθ,
        ← EReal.coe_sub, ← EReal.coe_mul, ← EReal.coe_mul]
      congr 1; field_simp
    · unfold rCc; rw [hs, sel_one, eth, ets, Ideal.sin_coe, ← EReal.coe_sub, ← EReal.coe_mul,
        div_coe_coe _ _ (mul_ne_zero hq0.ne' hθ)]
  · have hs : safe (ox : EReal) oy oz = 0#1 := by rw [esafe]; simp [h]
    refine ⟨1, 0, s6, ?_, ?_, ?_, ?_, ?_, ?_⟩
    · unfold kA; rw [hs, sel_zero, c1_eq]
    · unfold rA; rw [hs, sel_zero, c1_eq]
    · unfold kBc; rw [hs, sel_zero, c0_eq]
    · unfold rBc; rw [hs, sel_zero, c0_eq]
    · unfold kCc; rw [hs, sel_zero, e6]
    · unfold rCc; rw [hs, sel_zero, e6]

/-! ## The rotation matrices -/

/-- I + a·K + b·K² over the reals, in closed form. -/
def rotR (a b ox oy oz : ℝ) : Fin 3 → Fin 3 → ℝ :=
  ![![1 - b * (oy * oy + oz * oz), -(a * oz) + b * (ox * oy), a * oy + b * (ox * oz)],
    ![a * oz + b * (ox * oy), 1 - b * (ox * ox + oz * oz), -(a * ox) + b * (oy * oz)],
    ![-(a * oy) + b * (ox * oz), a * ox + b * (oy * oz), 1 - b * (ox * ox + oy * oy)]]

/-- The closed formulas of the kernel are that matrix. -/
theorem kRot_coe (a b ox oy oz : ℝ) (i j : Fin 3) :
    kRot (a : EReal) b ox oy oz i j = ((rotR a b ox oy oz i j : ℝ) : EReal) := by
  fin_cases i <;> fin_cases j <;>
    (simp only [kRot, rotR, c0_eq, c1_eq, Matrix.cons_val_zero, Matrix.cons_val_one, Matrix.cons_val_two, Matrix.head_cons,
      Matrix.tail_cons, Fin.zero_eta, Fin.mk_one, Fin.isValue, Fin.reduceFinMk]
     norm_cast <;> ring)

/-- So is the reference's I + a·K + b·(K·K): the product K·K summed out is the closed form of K². -/
theorem rRot_coe (a b ox oy oz : ℝ) (i j : Fin 3) :
    rRot (a : EReal) b ox oy oz i j = ((rotR a b ox oy oz i j : ℝ) : EReal) := by
  fin_cases i <;> fin_cases j <;>
    (simp only [rRot, rK2, rK, eye, rotR, c0_eq, Fin.sum_univ_three, Matrix.cons_val_zero, Matrix.cons_val_one,
      Matrix.cons_val_two, Matrix.head_cons, Matrix.tail_cons, Fin.zero_eta, Fin.mk_one, Fin.isValue, Fin.reduceFinMk,
      Fin.reduceEq, if_true, if_false, ↓reduceIte]
     norm_cast <;> ring)

/-! ## The quaternion read-off -/

/-- A one-bit word of a decidable proposition. -/
def bit (p : Prop) [Decidable p] : BitVec 1 := if p then 1#1 else 0#1
/-- A choice between two reals by a one-bit word. -/
def selR (c : BitVec 1) (a b : ℝ) : ℝ := if c = 1 then a else b

def t1R (m : Fin 3 → Fin 3 → ℝ) : ℝ := ((1 + m 0 0) - m 1 1) - m 2 2
def t2R (m : Fin 3 → Fin 3 → ℝ) : ℝ := ((1 - m 0 0) + m 1 1) - m 2 2
def t3R (m : Fin 3 → Fin 3 → ℝ) : ℝ := ((1 - m 0 0) - m 1 1) + m 2 2
def t4R (m : Fin 3 → Fin 3 → ℝ) : ℝ := ((1 + m 0 0) + m 1 1) + m 2 2

/-- The three conditions: the first, second and third branch of the read-off. -/
def s1R (m : Fin 3 → Fin 3 → ℝ) : BitVec 1 := IntOp.andi (bit (m 2 2 < 0)) (bit (m 1 1 < m 0 0))
def s2R (m : Fin 3 → Fin 3 → ℝ) : BitVec 1 := IntOp.andi (bit (m 2 2 < 0)) (~~~(bit (m 1 1 < m 0 0)))
def s3R (m : Fin 3 → Fin 3 → ℝ) : BitVec 1 := IntOp.andi (~~~(bit (m 2 2 < 0))) (bit (m 0 0 < -(m 1 1)))

/-- The chosen trace. -/
def tselR (m : Fin 3 → Fin 3 → ℝ) : ℝ := selR (s1R m) (t1R m) (selR (s2R m) (t2R m) (selR (s3R m) (t3R m) (t4R m)))

/-- Whichever branch is taken, the chosen trace is at least 1: in the first two branches m₂₂ < 0 and the trace adds
    -m₂₂ and the positive difference of m₀₀ and m₁₁ to 1; in the last two m₂₂ ≥ 0 and the trace adds m₂₂ and ∓(m₀₀ + m₁₁),
    of the sign the third comparison found. -/
theorem one_le_tselR (m : Fin 3 → Fin 3 → ℝ) : 1 ≤ tselR m := by
  unfold tselR s1R s2R s3R selR bit t1R t2R t3R t4R
  by_cases h1 : m 2 2 < 0 <;> by_cases h2 : m 1 1 < m 0 0 <;> by_cases h3 : m 0 0 < -(m 1 1) <;>
    simp only [h1, h2, h3, if_true, if_false, ↓reduceIte] <;>
    simp (config := {decide := true}) only [IntOp.andi] <;> simp only [if_true, if_false] <;> linarith

/-- The branchless quaternion of a real 3×3 matrix with scale s of the chosen trace; component 0 is qw. -/
def quatR (s : ℝ → ℝ) (m : Fin 3 → Fin 3 → ℝ) : Fin 4 → ℝ :=
  let a : ℝ := m 2 1 - m 1 2
  let b : ℝ := m 0 1 + m 1 0
  let c : ℝ := m 2 0 + m 0 2
  let d : ℝ := m 0 2 - m 2 0
  let e : ℝ := m 1 2 + m 2 1
  let f : ℝ := m 1 0 - m 0 1
  let w : ℝ := selR (s1R m) a (selR (s2R m) d (selR (s3R m) f (t4R m)))
  let x : ℝ := selR (s1R m) (t1R m) (selR (s2R m) b (selR (s3R m) c a))
  let y : ℝ := selR (s1R m) b (selR (s2R m) (t2R m) (selR (s3R m) e d))
  let z : ℝ := selR (s1R m) c (selR (s2R m) e (selR (s3R m) (t3R m) f))
  let sc : ℝ := s (tselR m)
  let neg : BitVec 1 := bit (w * sc < 0)
  ![selR neg (-(w * sc)) (w * sc), selR neg (-(x * sc)) (x * sc), selR neg (-(y * sc)) (y * sc),
    selR neg (-(z * sc)) (z * sc)]

theorem bit_eq (p : Prop) [Decidable p] : BitVec.ofBool (decide p) = bit p := by
  unfold bit; by_cases h : p <;> simp [h]

theorem sel_coeR (c : BitVec 1) (a b : ℝ) : sel c (a : EReal) (b : EReal) = ((selR c a b : ℝ) : EReal) := sel_coe c a b

/-- At a real matrix the read-off is real: for any spelling of the negation that negates reals, the complement as
    ~~~, and any scale that is real on reals that are at least 1 — the chosen trace is. -/
theorem quat_coe (nneg : E → E) (hn : ∀ r : ℝ, nneg (r : EReal) = ((-r : ℝ) : EReal)) (scale : E → E) (s : ℝ → ℝ)
    (hs : ∀ r : ℝ, 1 ≤ r → scale (r : EReal) = ((s r : ℝ) : EReal)) (m : Fin 3 → Fin 3 → ℝ) (k : Fin 4) :
    quat nneg (fun b => ~~~b) scale (fun i j => (m i j : EReal)) k = ((quatR s m k : ℝ) : EReal) := by
  have e1 : t1 (fun i j => (m i j : EReal)) = ((t1R m : ℝ) : EReal) := by unfold t1 t1R; rw [c1_eq]; norm_cast
  have e2 : t2 (fun i j => (m i j : EReal)) = ((t2R m : ℝ) : EReal) := by unfold t2 t2R; rw [c1_eq]; norm_cast
  have e3 : t3 (fun i j => (m i j : EReal)) = ((t3R m : ℝ) : EReal) := by unfold t3 t3R; rw [c1_eq]; norm_cast
  have e4 : t4 (fun i j => (m i j : EReal)) = ((t4R m : ℝ) : EReal) := by unfold t4 t4R; rw [c1_eq]; norm_cast
  have hsc : scale ((tselR m : ℝ) : EReal) = ((s (tselR m) : ℝ) : EReal) := hs _ (one_le_tselR m)
  unfold quat quatR
  unfold tselR s1R s2R s3R at *
  simp only [e1, e2, e3, e4, hn, c0_eq, cmp_olt_coe, cmp_ogt_coe, bit_eq, ← EReal.coe_sub, ← EReal.coe_add, sel_coeR, hsc,
    ← EReal.coe_mul]
  fin_cases k <;> rfl

/-! ## The two scales and the two negations -/

/-- Half the reciprocal square root, the kernel's way, at a trace that is at least 1. -/
theorem kscale (r : ℝ) (h : 1 ≤ r) : chalf * Ideal.rsqrt (r : EReal) = (((1 / 2) * (Real.sqrt r)⁻¹ : ℝ) : EReal) := by
  rw [chalf_eq, rsqrt_coe_pos r (lt_of_lt_of_le one_pos h), ← EReal.coe_mul]

/-- The reference's way: one half divided by the square root. -/
theorem rscale (r : ℝ) (h : 1 ≤ r) : Ideal.div chalf (Ideal.sqrt (r : EReal)) = (((1 / 2) * (Real.sqrt r)⁻¹ : ℝ) : EReal) := by
  have hr : 0 < r := lt_of_lt_of_le one_pos h
  rw [chalf_eq, sqrt_coe_nonneg r hr.le, div_coe_coe _ _ (Real.sqrt_pos.mpr hr).ne']
  congr 1

theorem kneg (r : ℝ) : c0 - (r : EReal) = ((-r : ℝ) : EReal) := by
  rw [c0_eq, ← EReal.coe_sub]; congr 1; ring

theorem rneg (r : ℝ) : -(r : EReal) = ((-r : ℝ) : EReal) := (EReal.coe_neg r).symm

/-- At a real matrix the two read-offs agree. -/
theorem quat_eq (m : Fin 3 → Fin 3 → ℝ) : kQuat (fun i j => (m i j : EReal)) = rQuat (fun i j => (m i j : EReal)) := by
  funext k
  have hb : (fun b : BitVec 1 => IntOp.xori b 1#1) = fun b => ~~~b := funext xori_one
  unfold kQuat rQuat
  rw [hb, quat_coe _ kneg _ _ kscale, quat_coe _ rneg _ _ rscale]

/-! ## The quaternion's rotation matrix -/

def RgR (qw qx qy qz : ℝ) : Fin 3 → Fin 3 → ℝ :=
  ![![1 - 2 * (qy * qy + qz * qz), 2 * (qx * qy - qz * qw), 2 * (qx * qz + qy * qw)],
    ![2 * (qx * qy + qz * qw), 1 - 2 * (qx * qx + qz * qz), 2 * (qy * qz - qx * qw)],
    ![2 * (qx * qz - qy * qw), 2 * (qy * qz + qx * qw), 1 - 2 * (qx * qx + qy * qy)]]

theorem Rg_coe (qw qx qy qz : ℝ) (i j : Fin 3) :
    Rg (qw : EReal) qx qy qz i j = ((RgR qw qx qy qz i j : ℝ) : EReal) := by
  fin_cases i <;> fin_cases j <;>
    (simp only [Rg, RgR, c1_eq, c2_eq, Matrix.cons_val_zero, Matrix.cons_val_one, Matrix.cons_val_two, Matrix.head_cons,
      Matrix.tail_cons, Fin.zero_eta, Fin.mk_one, Fin.isValue, Fin.reduceFinMk]
     norm_cast)

/-! ## The product of the two homogeneous matrices, summed out -/

theorem homog_block (R : Fin 3 → Fin 3 → E) (v : Fin 3 → E) (i j : Fin 3) : homog R v i.castSucc j.castSucc = R i j := by
  fin_cases i <;> fin_cases j <;> rfl
theorem homog_col (R : Fin 3 → Fin 3 → E) (v : Fin 3 → E) (i : Fin 3) : homog R v i.castSucc (Fin.last 3) = v i := by
  fin_cases i <;> rfl
theorem homog_last (R : Fin 3 → Fin 3 → E) (v : Fin 3 → E) (j : Fin 4) : homog R v (Fin.last 3) j = bottom j := rfl
theorem bottom_block (j : Fin 3) : bottom j.castSucc = c0 := by fin_cases j <;> rfl
theorem bottom_last : bottom (Fin.last 3) = c1 := rfl

/-- The upper-left 3×3 block of the product: R·G, plus the fourth term v·0. -/
theorem prod_block (R G : Fin 3 → Fin 3 → E) (v u : Fin 3 → E) (i j : Fin 3) :
    (∑ k : Fin 4, homog R v i.castSucc k * homog G u k j.castSucc) = (∑ k : Fin 3, R i k * G k j) + v i * c0 := by
  rw [Fin.sum_univ_castSucc]
  simp only [homog_block, homog_col, homog_last, bottom_block]

/-- Its last column: R·u + v·1. -/
theorem prod_col (R G : Fin 3 → Fin 3 → E) (v u : Fin 3 → E) (i : Fin 3) :
    (∑ k : Fin 4, homog R v i.castSucc k * homog G u k (Fin.last 3)) = (∑ k : Fin 3, R i k * u k) + v i * c1 := by
  rw [Fin.sum_univ_castSucc]
  simp only [homog_block, homog_col, homog_last, bottom_last]

/-! ## A sample -/

/-- R·G over the reals. -/
def MR (R G : Fin 3 → Fin 3 → ℝ) : Fin 3 → Fin 3 → ℝ := fun i j => R i 0 * G 0 j + R i 1 * G 1 j + R i 2 * G 2 j

theorem kM_coe (R G : Fin 3 → Fin 3 → ℝ) :
    kM (fun i j => (R i j : EReal)) (fun i j => (G i j : EReal)) = fun i j => ((MR R G i j : ℝ) : EReal) := by
  funext i j; simp only [kM, dot3, MR]; norm_cast

/-- For a real pose and a real twist the kernel's seven numbers are the reference's: the coefficients agree
    (coef), the closed formulas of R and V are I + a·K + b·K·K (kRot_coe, rRot_coe), the 4×4 product's block is R·Rg and
    its last column R·t + V·ρ (prod_block, prod_col, the fourth term a product with 0 or 1), and the read-offs agree at
    the real matrix R·Rg (quat_eq). -/
theorem out_eq (a : Fin 7 → ℝ) (x : Fin 6 → ℝ) :
    kerOut (fun k => (a k : EReal)) (fun k => (x k : EReal)) = refOut (fun k => (a k : EReal)) (fun k => (x k : EReal)) := by
  obtain ⟨A, B, C, hkA, hrA, hkB, hrB, hkC, hrC⟩ := coef (x 3) (x 4) (x 5)
  have hkR : kRot (A : EReal) B (x 3) (x 4) (x 5) = fun i j => ((rotR A B (x 3) (x 4) (x 5) i j : ℝ) : EReal) :=
    funext fun i => funext fun j => kRot_coe A B (x 3) (x 4) (x 5) i j
  have hkV : kRot (B : EReal) C (x 3) (x 4) (x 5) = fun i j => ((rotR B C (x 3) (x 4) (x 5) i j : ℝ) : EReal) :=
    funext fun i => funext fun j => kRot_coe B C (x 3) (x 4) (x 5) i j
  have hrR : rRot (A : EReal) B (x 3) (x 4) (x 5) = fun i j => ((rotR A B (x 3) (x 4) (x 5) i j : ℝ) : EReal) :=
    funext fun i => funext fun j => rRot_coe A B (x 3) (x 4) (x 5) i j
  have hrV : rRot (B : EReal) C (x 3) (x 4) (x 5) = fun i j => ((rotR B C (x 3) (x 4) (x 5) i j : ℝ) : EReal) :=
    funext fun i => funext fun j => rRot_coe B C (x 3) (x 4) (x 5) i j
  have hG : Rg (a 3 : EReal) (a 4) (a 5) (a 6) = fun i j => ((RgR (a 3) (a 4) (a 5) (a 6) i j : ℝ) : EReal) :=
    funext fun i => funext fun j => Rg_coe (a 3) (a 4) (a 5) (a 6) i j
  generalize rotR A B (x 3) (x 4) (x 5) = R at hkR hrR
  generalize rotR B C (x 3) (x 4) (x 5) = V at hkV hrV
  generalize RgR (a 3) (a 4) (a 5) (a 6) = G at hG
  unfold kerOut refOut rFinish rT
  simp only [hkA, hkB, hkC, hrA, hrB, hrC, hkR, hkV, hrR, hrV, hG]
  -- the block of the product is R·G
  have hblock : (fun i j : Fin 3 => ∑ k : Fin 4,
        homog (fun i j => (R i j : EReal)) (fun i => ∑ k : Fin 3, (V i k : EReal) * ![(x 0 : EReal), (x 1 : EReal), (x 2 : EReal)] k) i.castSucc k
          * homog (fun i j => (G i j : EReal)) ![(a 0 : EReal), (a 1 : EReal), (a 2 : EReal)] k j.castSucc)
      = fun i j => ((MR R G i j : ℝ) : EReal) := by
    funext i j
    rw [prod_block, c0_eq]
    simp only [Fin.sum_univ_three, MR, Matrix.cons_val_zero, Matrix.cons_val_one, Matrix.cons_val_two, Matrix.head_cons, Matrix.tail_cons]
    norm_cast; ring
  -- its last column is R·t + V·ρ
  have hcol : ∀ i : Fin 3, (∑ k : Fin 4,
        homog (fun i j => (R i j : EReal)) (fun i => ∑ k : Fin 3, (V i k : EReal) * ![(x 0 : EReal), (x 1 : EReal), (x 2 : EReal)] k) i.castSucc k
          * homog (fun i j => (G i j : EReal)) ![(a 0 : EReal), (a 1 : EReal), (a 2 : EReal)] k (Fin.last 3))
      = kTrans (fun i j => (R i j : EReal)) (fun i j => (V i j : EReal)) (a 0) (a 1) (a 2) (x 0) (x 1) (x 2) i := by
    intro i
    rw [prod_col, c1_eq]
    simp only [Fin.sum_univ_three, kTrans, dot3, Matrix.cons_val_zero, Matrix.cons_val_one, Matrix.cons_val_two, Matrix.head_cons, Matrix.tail_cons]
    norm_cast; ring
  have hcol0 : (∑ k : Fin 4,
        homog (fun i j => (R i j : EReal)) (fun i => ∑ k : Fin 3, (V i k : EReal) * ![(x 0 : EReal), (x 1 : EReal), (x 2 : EReal)] k) 0 k
          * homog (fun i j => (G i j : EReal)) ![(a 0 : EReal), (a 1 : EReal), (a 2 : EReal)] k 3)
      = kTrans (fun i j => (R i j : EReal)) (fun i j => (V i j : EReal)) (a 0) (a 1) (a 2) (x 0) (x 1) (x 2) 0 := hcol 0
  have hcol1 : (∑ k : Fin 4,
        homog (fun i j => (R i j : EReal)) (fun i => ∑ k : Fin 3, (V i k : EReal) * ![(x 0 : EReal), (x 1 : EReal), (x 2 : EReal)] k) 1 k
          * homog (fun i j => (G i j : EReal)) ![(a 0 : EReal), (a 1 : EReal), (a 2 : EReal)] k 3)
      = kTrans (fun i j => (R i j : EReal)) (fun i j => (V i j : EReal)) (a 0) (a 1) (a 2) (x 0) (x 1) (x 2) 1 := hcol 1
  have hcol2 : (∑ k : Fin 4,
        homog (fun i j => (R i j : EReal)) (fun i => ∑ k : Fin 3, (V i k : EReal) * ![(x 0 : EReal), (x 1 : EReal), (x 2 : EReal)] k) 2 k
          * homog (fun i j => (G i j : EReal)) ![(a 0 : EReal), (a 1 : EReal), (a 2 : EReal)] k 3)
      = kTrans (fun i j => (R i j : EReal)) (fun i j => (V i j : EReal)) (a 0) (a 1) (a 2) (x 0) (x 1) (x 2) 2 := hcol 2
  rw [kM_coe, hblock, quat_eq (MR R G), hcol0, hcol1, hcol2]

/-! ## The arrays -/

/-- On argument arrays whose entries are all reals, the kernel's result array is the reference's, entry by entry. -/
theorem arr_eq (A : (⟨3, ![2000000, 7, 1]⟩ : Shape).Idx → E) (X : (⟨3, ![2000000, 6, 1]⟩ : Shape).Idx → E)
    (hA : ∀ i, ∃ r : ℝ, A i = (r : EReal)) (hX : ∀ i, ∃ r : ℝ, X i = (r : EReal)) : kerArr A X = refArr A X := by
  choose a ha using hA
  choose x hx using hX
  funext i
  unfold kerArr refArr
  have e1 : tgRow A (i 0) = fun k => ((a (ValueIdx.ix3 (i 0) k 0) : ℝ) : EReal) := funext fun k => ha _
  have e2 : xiRow X (i 0) = fun k => ((x (ValueIdx.ix3 (i 0) k 0) : ℝ) : EReal) := funext fun k => hx _
  rw [e1, e2, out_eq]

end Cert.Bridge

end
-- ==== Proof.Finite.lean ====
/-
  The precondition says every entry of the two argument arrays is a real number: it is the conjunction of two
  reductions by "and" over all entries of the comparison |x| < +∞, and an extended real whose absolute value is below
  +∞ is neither infinity.
-/
import proofs.«161387_j47622597378731_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- The word of +∞ denotes ⊤. -/
theorem inf_eq : Ideal.ofBits .f32 0x7F800000#32 = ⊤ := by
  simp [Ideal.ofBits, Ideal.ieee]

/-- An extended real whose absolute value compares below +∞ is a real. -/
theorem real_of_abs_lt (x : EReal) (h : Ideal.cmp .olt (max x (-x)) ⊤ = 1#1) : ∃ r : ℝ, x = (r : EReal) := by
  induction x using EReal.rec with
  | bot => exfalso; revert h; simp [Ideal.cmp]
  | coe r => exact ⟨r, rfl⟩
  | top => exfalso; revert h; simp [Ideal.cmp]

variable [Facts]

theorem of_pre (A : FVec Ideal S2000000x7x1 .f32) (X : FVec Ideal S2000000x6x1 .f32)
    (h : fn (F := Ideal) A X = fun _ => 1#1) :
    (∀ i, ∃ r : ℝ, A i = (r : EReal)) ∧ (∀ i, ∃ r : ℝ, X i = (r : EReal)) := by
  have h0 := congrFun h ValueIdx.ix0
  dsimp only [fn] at h0
  obtain ⟨hA, hX⟩ := IntOp.andi_eq_one.1 h0
  refine ⟨fun i => ?_, fun i => ?_⟩
  · have e := Host.reduce_andi_all _ _ _ _ _ hA i
    apply real_of_abs_lt
    rw [← inf_eq]
    exact e
  · have e := Host.reduce_andi_all _ _ _ _ _ hX i
    apply real_of_abs_lt
    rw [← inf_eq]
    exact e

end Cert.Finite

end
-- ==== Proof.lean ====
/-
  The certificate: a pallas_call that composes, for each of 2,000,000 samples, the rigid motion of a twist with a pose
  and reads the result back as a translation and a unit quaternion — lane-wise on blocks of 65536 samples of the
  transposed arrays, the last block cut at the arrays' end — against the same map written with batched 3×3 and 4×4
  matrix products.

  The three frames are the programs' runs with the results dropped. The idealization rewrote nothing. For the
  algebraic claim: the kernel's run leaves its result array at the kernel's scalar formula of each sample's pose and
  twist (Cert.Spec.kerArr), the reference's at the reference's (Cert.Spec.refArr); the precondition makes every entry
  of the argument arrays a real number (Cert.Finite.of_pre), and on real poses and twists the two formulas are the same
  extended reals (Cert.Bridge.arr_eq): the coefficients sin θ / θ, (1 - cos θ) / θ², (θ - sin θ) / θ³ agree because θ > 0
  where they are used, the matrices are polynomial identities, and the quaternion's scale 0.5·rsqrt t is 0.5 / √t because
  the chosen trace t is at least 1 in every branch.
-/
import proofs.«161387_j47622597378731_2_alg».proof.Defs
import proofs.«161387_j47622597378731_2_alg».proof.Proof.Gen.Kernel
import proofs.«161387_j47622597378731_2_alg».proof.Proof.Gen.KernelIdeal
import proofs.«161387_j47622597378731_2_alg».proof.Proof.Gen.ReferenceIdeal
import proofs.«161387_j47622597378731_2_alg».proof.Proof.Gen.Pre_finite_inputs
import proofs.«161387_j47622597378731_2_alg».proof.Proof.KerBody
import proofs.«161387_j47622597378731_2_alg».proof.Proof.KerBodyBits
import proofs.«161387_j47622597378731_2_alg».proof.Proof.KerValue
import proofs.«161387_j47622597378731_2_alg».proof.Proof.RefRun
import proofs.«161387_j47622597378731_2_alg».proof.Proof.RefValue
import proofs.«161387_j47622597378731_2_alg».proof.Proof.Bridge
import proofs.«161387_j47622597378731_2_alg».proof.Proof.Finite
import Idealize.ShloMosaic.Adequacy
import Idealize.ShloMosaic.Init

noncomputable section

namespace Cert.Proof

open Idealize.ShloMosaic Idealize.SL.Sem

/-- Both programs run and end with equal result arrays: the kernel's at kerArr of its arguments, the reference's at
    refArr of arguments that agree with them, and the two are one array because the arguments' entries are reals. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun r h c => ⟨(h c).1.trans ?_, (h c).2⟩)
    (Cert.ReferenceIdeal.Hand.run_value m' ρ')
  rw [(hagree c).1, (hagree c).2]
  obtain ⟨hA, hX⟩ := Cert.Finite.of_pre _ _ (hpre c)
  exact (Cert.Bridge.arr_eq _ _ hA hX).symm

theorem claim : Cert.Claim :=
  ⟨Cert.Kernel.Gen.facts, Cert.KernelIdeal.Gen.facts, Cert.ReferenceIdeal.Gen.facts, Cert.Pre_finite_inputs.Gen.facts,
    Cert.Kernel.Hand.frame, Cert.KernelIdeal.Hand.frame, Cert.ReferenceIdeal.Hand.frame, trivial, algebraic⟩

end Cert.Proof

end
